-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v194)) (v1 : (c : Dev Cert.KernelIdeal.nD) → Buf (Elt Ideal) ((c.tc : Thread Cert.KernelIdeal.nD Cert.KernelIdeal.τ).loc Cert.KernelIdeal.main_v205)) (v2 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_v205) = v1 c
          ∧ r.2.mem ((c.tc : Thread Cert.KernelIdeal.nD Cert.KernelIdeal.τ).loc Cert.KernelIdeal.main_v183) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_v342) = v1 c
          ∧ r.2.mem ((c.tc : Thread Cert.ReferenceIdeal.nD Cert.ReferenceIdeal.τ).loc Cert.ReferenceIdeal.main_v320) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S100000x300 : Shape := ⟨2, ![100000, 300]⟩
abbrev S1600000 : Shape := ⟨1, ![1600000]⟩
abbrev S300x128 : Shape := ⟨2, ![300, 128]⟩
abbrev S128 : Shape := ⟨1, ![128]⟩
abbrev S200x128 : Shape := ⟨2, ![200, 128]⟩
abbrev S2x128x128 : Shape := ⟨3, ![2, 128, 128]⟩
abbrev S2x128 : Shape := ⟨2, ![2, 128]⟩
abbrev S3x128 : Shape := ⟨2, ![3, 128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S100000x300 : S_.BroadcastsInDim S100000x300 (![] : Fin 0 → Fin S100000x300.rank)
  reducesTo_S100000x300_S_d0_1 : S100000x300.ReducesTo [0, 1] S_
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S200x128 : S_.BroadcastsInDim S200x128 (![] : Fin 0 → Fin S200x128.rank)
  reducesTo_S200x128_S_d0_1 : S200x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg32 : FVec F S32x1 .f32) (main_arg33 : FVec F S1 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S32x1 .f32 := Host.absf main_arg32
  let main_cst_54 : FVec F S_ .f32 := constant S_ .f32 0x7F800000#32
  let main_v140 : FVec F S32x1 .f32 := broadcastInDim S32x1 ![] bcast_S_S32x1 main_cst_54
  let main_v141 : IVec S32x1 1 := cmpf .olt main_v139 main_v140
  let main_c_55 : IVec S_ 1 := constantI S_ 1 1#1
  let main_v142 : IVec S_ 1 := (fun x v => Host.reduce IntOp.andi x v reducesTo_S32x1_S_d0_1 h_S_) main_v141 main_c_55
  let main_v143 : IVec S_ 1 := andi main_v138 main_v142
  let main_v144 : FVec F S1 .f32 := Host.absf main_arg33
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  main_v148

def fn_part7 {F : FTy → Type} [FloatOps F] (main_arg29 : FVec F S64 .f32) (main_arg30 : FVec F S64x32 .f32) (main_arg31 : FVec F S32 .f32) (main_arg32 : FVec F S32x1 .f32) (main_arg33 : FVec F S1 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg29
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x32 .f32 := Host.absf main_arg30
  let main_cst_50 : FVec F S_ .f32 := constant S_ .f32 0x7F800000#32
  let main_v130 : FVec F S64x32 .f32 := broadcastInDim S64x32 ![] bcast_S_S64x32 main_cst_50
  let main_v131 : IVec S64x32 1 := cmpf .olt main_v129 main_v130
  let main_c_51 : IVec S_ 1 := constantI S_ 1 1#1
  let main_v132 : IVec S_ 1 := (fun x v => Host.reduce IntOp.andi x v reducesTo_S64x32_S_d0_1 h_S_) main_v131 main_c_51
  let main_v133 : IVec S_ 1 := andi main_v128 main_v132
  let main_v134 : FVec F S32 .f32 := Host.absf main_arg31
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg32 main_arg33 main_v133 main_v136

def fn_part6 {F : FTy → Type} [FloatOps F] (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg26
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg27
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg28
  fn_part7 (F := F) main_arg29 main_arg30 main_arg31 main_arg32 main_arg33 main_v118 main_v119

def fn_part5 {F : FTy → Type} [FloatOps F] (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x128 .f32 := Host.absf main_arg22
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg24
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg25 main_arg26 main_arg27 main_arg28 main_arg29 main_arg30 main_arg31 main_arg32 main_arg33 main_v98 main_v101 main_c_39

def fn_part4 {F : FTy → Type} [FloatOps F] (main_arg18 : FVec F S128x64 .f32) (main_arg19 : FVec F S64 .f32) (main_arg20 : FVec F S64x64 .f32) (main_arg21 : FVec F S64 .f32) (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_arg32 main_arg33 main_v83 main_v84 main_cst_32

def fn_part3 {F : FTy → Type} [FloatOps F] (main_arg15 : FVec F S3x128 .f32) (main_arg16 : FVec F S3x128 .f32) (main_arg17 : FVec F S3x128 .f32) (main_arg18 : FVec F S128x64 .f32) (main_arg19 : FVec F S64 .f32) (main_arg20 : FVec F S64x64 .f32) (main_arg21 : FVec F S64 .f32) (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg15
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg16
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg17
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg11 : FVec F S2x128 .f32) (main_arg12 : FVec F S2x128x128 .f32) (main_arg13 : FVec F S2x128 .f32) (main_arg14 : FVec F S3x128 .f32) (main_arg15 : FVec F S3x128 .f32) (main_arg16 : FVec F S3x128 .f32) (main_arg17 : FVec F S3x128 .f32) (main_arg18 : FVec F S128x64 .f32) (main_arg19 : FVec F S64 .f32) (main_arg20 : FVec F S64x64 .f32) (main_arg21 : FVec F S64 .f32) (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v33 : IVec S_ 1) : IVec S_ 1 :=
  let main_v34 : FVec F S2x128 .f32 := Host.absf main_arg11
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg12
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg13
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S3x128 .f32 := Host.absf main_arg14
  let main_cst_18 : FVec F S_ .f32 := constant S_ .f32 0x7F800000#32
  let main_v50 : FVec F S3x128 .f32 := broadcastInDim S3x128 ![] bcast_S_S3x128 main_cst_18
  fn_part3 (F := F) main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg8 : FVec F S200x128 .f32) (main_arg9 : FVec F S128 .f32) (main_arg10 : FVec F S2x128x128 .f32) (main_arg11 : FVec F S2x128 .f32) (main_arg12 : FVec F S2x128x128 .f32) (main_arg13 : FVec F S2x128 .f32) (main_arg14 : FVec F S3x128 .f32) (main_arg15 : FVec F S3x128 .f32) (main_arg16 : FVec F S3x128 .f32) (main_arg17 : FVec F S3x128 .f32) (main_arg18 : FVec F S128x64 .f32) (main_arg19 : FVec F S64 .f32) (main_arg20 : FVec F S64x64 .f32) (main_arg21 : FVec F S64 .f32) (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S200x128 .f32 := Host.absf main_arg8
  let main_cst_6 : FVec F S_ .f32 := constant S_ .f32 0x7F800000#32
  let main_v20 : FVec F S200x128 .f32 := broadcastInDim S200x128 ![] bcast_S_S200x128 main_cst_6
  let main_v21 : IVec S200x128 1 := cmpf .olt main_v19 main_v20
  let main_c_7 : IVec S_ 1 := constantI S_ 1 1#1
  let main_v22 : IVec S_ 1 := (fun x v => Host.reduce IntOp.andi x v reducesTo_S200x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg10
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x200 .f32) (main_arg1 : FVec F S100000x300 .f32) (main_arg2 : IVec S1600000 32) (main_arg3 : IVec S1600000 32) (main_arg4 : IVec S1600000 32) (main_arg5 : IVec S1600000 32) (main_arg6 : FVec F S300x128 .f32) (main_arg7 : FVec F S128 .f32) (main_arg8 : FVec F S200x128 .f32) (main_arg9 : FVec F S128 .f32) (main_arg10 : FVec F S2x128x128 .f32) (main_arg11 : FVec F S2x128 .f32) (main_arg12 : FVec F S2x128x128 .f32) (main_arg13 : FVec F S2x128 .f32) (main_arg14 : FVec F S3x128 .f32) (main_arg15 : FVec F S3x128 .f32) (main_arg16 : FVec F S3x128 .f32) (main_arg17 : FVec F S3x128 .f32) (main_arg18 : FVec F S128x64 .f32) (main_arg19 : FVec F S64 .f32) (main_arg20 : FVec F S64x64 .f32) (main_arg21 : FVec F S64 .f32) (main_arg22 : FVec F S64x128 .f32) (main_arg23 : FVec F S128 .f32) (main_arg24 : FVec F S128x128 .f32) (main_arg25 : FVec F S128 .f32) (main_arg26 : FVec F S128x64 .f32) (main_arg27 : FVec F S64 .f32) (main_arg28 : FVec F S64x64 .f32) (main_arg29 : FVec F S64 .f32) (main_arg30 : FVec F S64x32 .f32) (main_arg31 : FVec F S32 .f32) (main_arg32 : FVec F S32x1 .f32) (main_arg33 : FVec F S1 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S100000x300 .f32 := Host.absf main_arg1
  let main_cst_0 : FVec F S_ .f32 := constant S_ .f32 0x7F800000#32
  let main_v5 : FVec F S100000x300 .f32 := broadcastInDim S100000x300 ![] bcast_S_S100000x300 main_cst_0
  let main_v6 : IVec S100000x300 1 := cmpf .olt main_v4 main_v5
  let main_c_1 : IVec S_ 1 := constantI S_ 1 1#1
  let main_v7 : IVec S_ 1 := (fun x v => Host.reduce IntOp.andi x v reducesTo_S100000x300_S_d0_1 h_S_) main_v6 main_c_1
  let main_v8 : IVec S_ 1 := andi main_v3 main_v7
  let main_v9 : FVec F S300x128 .f32 := Host.absf main_arg6
  let main_cst_2 : FVec F S_ .f32 := constant S_ .f32 0x7F800000#32
  let main_v10 : FVec F S300x128 .f32 := broadcastInDim S300x128 ![] bcast_S_S300x128 main_cst_2
  let main_v11 : IVec S300x128 1 := cmpf .olt main_v9 main_v10
  let main_c_3 : IVec S_ 1 := constantI S_ 1 1#1
  let main_v12 : IVec S_ 1 := (fun x v => Host.reduce IntOp.andi x v reducesTo_S300x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x200 : Shape := ⟨2, ![100000, 200]⟩
abbrev S100000x300 : Shape := ⟨2, ![100000, 300]⟩
abbrev S1600000 : Shape := ⟨1, ![1600000]⟩
abbrev S300x128 : Shape := ⟨2, ![300, 128]⟩
abbrev S128 : Shape := ⟨1, ![128]⟩
abbrev S200x128 : Shape := ⟨2, ![200, 128]⟩
abbrev S2x128x128 : Shape := ⟨3, ![2, 128, 128]⟩
abbrev S2x128 : Shape := ⟨2, ![2, 128]⟩
abbrev S3x128 : Shape := ⟨2, ![3, 128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x300 : Shape := ⟨2, ![5000, 300]⟩
abbrev S5000x1 : Shape := ⟨2, ![5000, 1]⟩
abbrev S5000x128 : Shape := ⟨2, ![5000, 128]⟩
abbrev S5000x200 : Shape := ⟨2, ![5000, 200]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩
abbrev S1x128x128 : Shape := ⟨3, ![1, 128, 128]⟩
abbrev S1x64 : Shape := ⟨2, ![1, 64]⟩
abbrev S1x32 : Shape := ⟨2, ![1, 32]⟩
abbrev S1x1 : Shape := ⟨2, ![1, 1]⟩

abbrev nBuf : Space → Nat
  | .hbm => 285
  | .vmem => 101
  | .smem => 0
  | _ => 0

abbrev hbmTy0_0 (i : Nat) : BufTy := match i % 128 with
  | 0 => ⟨S100000x200, .f32⟩
  | 1 => ⟨S100000x300, .f32⟩
  | 2 => ⟨S1600000, .i32⟩
  | 3 => ⟨S1600000, .i32⟩
  | 4 => ⟨S1600000, .i32⟩
  | 5 => ⟨S1600000, .i32⟩
  | 6 => ⟨S300x128, .f32⟩
  | 7 => ⟨S128, .f32⟩
  | 8 => ⟨S200x128, .f32⟩
  | 9 => ⟨S128, .f32⟩
  | 10 => ⟨S2x128x128, .f32⟩
  | 11 => ⟨S2x128, .f32⟩
  | 12 => ⟨S2x128x128, .f32⟩
  | 13 => ⟨S2x128, .f32⟩
  | 14 => ⟨S3x128, .f32⟩
  | 15 => ⟨S3x128, .f32⟩
  | 16 => ⟨S3x128, .f32⟩
  | 17 => ⟨S3x128, .f32⟩
  | 18 => ⟨S128x64, .f32⟩
  | 19 => ⟨S64, .f32⟩
  | 20 => ⟨S64x64, .f32⟩
  | 21 => ⟨S64, .f32⟩
  | 22 => ⟨S64x128, .f32⟩
  | 23 => ⟨S128, .f32⟩
  | 24 => ⟨S128x128, .f32⟩
  | 25 => ⟨S128, .f32⟩
  | 26 => ⟨S128x64, .f32⟩
  | 27 => ⟨S64, .f32⟩
  | 28 => ⟨S64x64, .f32⟩
  | 29 => ⟨S64, .f32⟩
  | 30 => ⟨S64x32, .f32⟩
  | 31 => ⟨S32, .f32⟩
  | 32 => ⟨S32x1, .f32⟩
  | 33 => ⟨S1, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x128, .f32⟩
  | 84 => ⟨S100000x1, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S1x128, .f32⟩
  | 113 => ⟨S128, .f32⟩
  | 114 => ⟨S1x128, .f32⟩
  | 115 => ⟨S128, .f32⟩
  | 116 => ⟨S100000x1, .f32⟩
  | 117 => ⟨S1x128, .f32⟩
  | 118 => ⟨S1x128, .f32⟩
  | 119 => ⟨S1x128, .f32⟩
  | 120 => ⟨S100000x128, .f32⟩
  | 121 => ⟨S1x128, .f32⟩
  | 122 => ⟨S128, .f32⟩
  | 123 => ⟨S1x128, .f32⟩
  | 124 => ⟨S128, .f32⟩
  | 125 => ⟨S100000x1, .f32⟩
  | 126 => ⟨S1x128, .f32⟩
  | 127 => ⟨S1x128, .f32⟩
  | _ => ⟨S100000x200, .f32⟩

abbrev hbmTy0_1 (i : Nat) : BufTy := match i % 128 with
  | 0 => ⟨S1x128, .f32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S128, .f32⟩
  | 10 => ⟨S100000x1, .f32⟩
  | 11 => ⟨S100000x128, .f32⟩
  | 12 => ⟨S100000x1, .f32⟩
  | 13 => ⟨S100000x128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S1x128, .f32⟩
  | 41 => ⟨S128, .f32⟩
  | 42 => ⟨S1x128, .f32⟩
  | 43 => ⟨S128, .f32⟩
  | 44 => ⟨S100000x1, .f32⟩
  | 45 => ⟨S1x128, .f32⟩
  | 46 => ⟨S1x128, .f32⟩
  | 47 => ⟨S1x128, .f32⟩
  | 48 => ⟨S100000x128, .f32⟩
  | 49 => ⟨S1x128, .f32⟩
  | 50 => ⟨S128, .f32⟩
  | 51 => ⟨S1x128, .f32⟩
  | 52 => ⟨S128, .f32⟩
  | 53 => ⟨S100000x1, .f32⟩
  | 54 => ⟨S1x128, .f32⟩
  | 55 => ⟨S1x128, .f32⟩
  | 56 => ⟨S1x128, .f32⟩
  | 57 => ⟨S100000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S100000x1, .f32⟩
  | 67 => ⟨S100000x128, .f32⟩
  | 68 => ⟨S100000x1, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1x128, .f32⟩
  | 97 => ⟨S128, .f32⟩
  | 98 => ⟨S1x128, .f32⟩
  | 99 => ⟨S128, .f32⟩
  | 100 => ⟨S100000x1, .f32⟩
  | 101 => ⟨S1x128, .f32⟩
  | 102 => ⟨S1x128, .f32⟩
  | 103 => ⟨S1x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S100000x1, .f32⟩
  | 110 => ⟨S1x128, .f32⟩
  | 111 => ⟨S1x128, .f32⟩
  | 112 => ⟨S1x128, .f32⟩
  | 113 => ⟨S100000x128, .f32⟩
  | 114 => ⟨S1x128, .f32⟩
  | 115 => ⟨S_, .f32⟩
  | 116 => ⟨S1x128, .f32⟩
  | 117 => ⟨S1x128, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S1x128, .f32⟩
  | _ => ⟨S100000x200, .f32⟩

abbrev hbmTy0_2 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S1x32, .f32⟩
  | 21 => ⟨S1x32, .f32⟩
  | 22 => ⟨S1x32, .f32⟩
  | 23 => ⟨S_, .f32⟩
  | 24 => ⟨S1x32, .f32⟩
  | 25 => ⟨S1x32, .f32⟩
  | 26 => ⟨S1x1, .f32⟩
  | 27 => ⟨S1x1, .f32⟩
  | 28 => ⟨S1x1, .f32⟩
  | _ => ⟨S100000x200, .f32⟩

abbrev hbmTy (i : Nat) : BufTy := match i / 128 with
  | 0 => hbmTy0_0 i
  | 1 => hbmTy0_1 i
  | 2 => hbmTy0_2 i
  | _ => ⟨S100000x200, .f32⟩

abbrev bufTy : (tb : Table) → Fin (tcTables nBuf tb) → BufTy
  | .hbm, ⟨i, _⟩ => hbmTy i
  | .local _ .vmem, ⟨0, _⟩ => ⟨S5000x300, .f32⟩
  | .local _ .vmem, ⟨1, _⟩ => ⟨S5000x300, .f32⟩
  | .local _ .vmem, ⟨2, _⟩ => ⟨S5000x1, .f32⟩
  | .local _ .vmem, ⟨3, _⟩ => ⟨S5000x1, .f32⟩
  | .local _ .vmem, ⟨4, _⟩ => ⟨S300x128, .f32⟩
  | .local _ .vmem, ⟨5, _⟩ => ⟨S5000x128, .f32⟩
  | .local _ .vmem, ⟨6, _⟩ => ⟨S5000x128, .f32⟩
  | .local _ .vmem, ⟨7, _⟩ => ⟨S5000x200, .f32⟩
  | .local _ .vmem, ⟨8, _⟩ => ⟨S5000x200, .f32⟩
  | .local _ .vmem, ⟨9, _⟩ => ⟨S5000x1, .f32⟩
  | .local _ .vmem, ⟨10, _⟩ => ⟨S5000x1, .f32⟩
  | .local _ .vmem, ⟨11, _⟩ => ⟨S200x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x1, .f32⟩
  | .local _ .vmem, ⟨26, _⟩ => ⟨S10000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S128x128, .f32⟩
  | .local _ .vmem, ⟨44, _⟩ => ⟨S5000x128, .f32⟩
  | .local _ .vmem, ⟨45, _⟩ => ⟨S5000x128, .f32⟩
  | .local _ .vmem, ⟨46, _⟩ => ⟨S10000x128, .f32⟩
  | .local _ .vmem, ⟨47, _⟩ => ⟨S10000x128, .f32⟩
  | .local _ .vmem, ⟨48, _⟩ => ⟨S10000x1, .f32⟩
  | .local _ .vmem, ⟨49, _⟩ => ⟨S10000x1, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x1, .f32⟩
  | .local _ .vmem, ⟨58, _⟩ => ⟨S10000x1, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | .local _ .vmem, ⟨64, _⟩ => ⟨S5000x128, .f32⟩
  | .local _ .vmem, ⟨65, _⟩ => ⟨S5000x128, .f32⟩
  | .local _ .vmem, ⟨66, _⟩ => ⟨S5000x1, .f32⟩
  | .local _ .vmem, ⟨67, _⟩ => ⟨S5000x1, .f32⟩
  | .local _ .vmem, ⟨68, _⟩ => ⟨S128x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x1, .f32⟩
  | .local _ .vmem, ⟨74, _⟩ => ⟨S5000x1, .f32⟩
  | .local _ .vmem, ⟨75, _⟩ => ⟨S128x128, .f32⟩
  | .local _ .vmem, ⟨76, _⟩ => ⟨S5000x128, .f32⟩
  | .local _ .vmem, ⟨77, _⟩ => ⟨S5000x128, .f32⟩
  | .local _ .vmem, ⟨78, _⟩ => ⟨S10000x128, .f32⟩
  | .local _ .vmem, ⟨79, _⟩ => ⟨S10000x128, .f32⟩
  | .local _ .vmem, ⟨80, _⟩ => ⟨S10000x1, .f32⟩
  | .local _ .vmem, ⟨81, _⟩ => ⟨S10000x1, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S10000x128, .f32⟩
  | .local _ .vmem, ⟨86, _⟩ => ⟨S10000x128, .f32⟩
  | .local _ .vmem, ⟨87, _⟩ => ⟨S10000x128, .f32⟩
  | .local _ .vmem, ⟨88, _⟩ => ⟨S10000x128, .f32⟩
  | .local _ .vmem, ⟨89, _⟩ => ⟨S10000x1, .f32⟩
  | .local _ .vmem, ⟨90, _⟩ => ⟨S10000x1, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S10000x128, .f32⟩
  | .local _ .vmem, ⟨95, _⟩ => ⟨S10000x128, .f32⟩
  | .local _ .vmem, ⟨96, _⟩ => ⟨S10000x128, .f32⟩
  | .local _ .vmem, ⟨97, _⟩ => ⟨S10000x128, .f32⟩
  | .local _ .vmem, ⟨98, _⟩ => ⟨S10000x128, .f32⟩
  | .local _ .vmem, ⟨99, _⟩ => ⟨S10000x128, .f32⟩
  | .local _ .vmem, ⟨100, _⟩ => ⟨S1x128, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_cst : Ref sig .tc := ⟨.hbm, 34, rfl⟩
abbrev main_v0 : Ref sig .tc := ⟨.hbm, 35, rfl⟩
abbrev main_cst_0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst_1 : Ref sig .tc := ⟨.hbm, 40, rfl⟩
abbrev main_v4 : Ref sig .tc := ⟨.hbm, 41, rfl⟩
abbrev main_v5 : Ref sig .tc := ⟨.hbm, 42, rfl⟩
abbrev main_cst_2 : Ref sig .tc := ⟨.hbm, 43, rfl⟩
abbrev main_v6 : Ref sig .tc := ⟨.hbm, 44, rfl⟩
abbrev main_v7 : Ref sig .tc := ⟨.hbm, 45, rfl⟩
abbrev main_cst_3 : Ref sig .tc := ⟨.hbm, 46, rfl⟩
abbrev main_v8 : Ref sig .tc := ⟨.hbm, 47, rfl⟩
abbrev main_cst_4 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_5 : Ref sig .tc := ⟨.hbm, 52, rfl⟩
abbrev main_v12 : Ref sig .tc := ⟨.hbm, 53, rfl⟩
abbrev main_v13 : Ref sig .tc := ⟨.hbm, 54, rfl⟩
abbrev main_cst_6 : Ref sig .tc := ⟨.hbm, 55, rfl⟩
abbrev main_v14 : Ref sig .tc := ⟨.hbm, 56, rfl⟩
abbrev main_v15 : Ref sig .tc := ⟨.hbm, 57, rfl⟩
abbrev main_cst_7 : Ref sig .tc := ⟨.hbm, 58, rfl⟩
abbrev main_v16 : Ref sig .tc := ⟨.hbm, 59, rfl⟩
abbrev main_cst_8 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_9 : Ref sig .tc := ⟨.hbm, 64, rfl⟩
abbrev main_v20 : Ref sig .tc := ⟨.hbm, 65, rfl⟩
abbrev main_v21 : Ref sig .tc := ⟨.hbm, 66, rfl⟩
abbrev main_cst_10 : Ref sig .tc := ⟨.hbm, 67, rfl⟩
abbrev main_v22 : Ref sig .tc := ⟨.hbm, 68, rfl⟩
abbrev main_v23 : Ref sig .tc := ⟨.hbm, 69, rfl⟩
abbrev main_cst_11 : Ref sig .tc := ⟨.hbm, 70, rfl⟩
abbrev main_v24 : Ref sig .tc := ⟨.hbm, 71, rfl⟩
abbrev main_cst_12 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_13 : Ref sig .tc := ⟨.hbm, 76, rfl⟩
abbrev main_v28 : Ref sig .tc := ⟨.hbm, 77, rfl⟩
abbrev main_v29 : Ref sig .tc := ⟨.hbm, 78, rfl⟩
abbrev main_cst_14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c : Ref sig .tc := ⟨.hbm, 86, rfl⟩
abbrev main_v36 : Ref sig .tc := ⟨.hbm, 87, rfl⟩
abbrev main_v37 : Ref sig .tc := ⟨.hbm, 88, rfl⟩
abbrev main_c_15 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_16 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_c_17 : Ref sig .tc := ⟨.hbm, 99, rfl⟩
abbrev main_v46 : Ref sig .tc := ⟨.hbm, 100, rfl⟩
abbrev main_v47 : Ref sig .tc := ⟨.hbm, 101, rfl⟩
abbrev main_c_18 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_19 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_c_20 : Ref sig .tc := ⟨.hbm, 142, rfl⟩
abbrev main_v86 : Ref sig .tc := ⟨.hbm, 143, rfl⟩
abbrev main_v87 : Ref sig .tc := ⟨.hbm, 144, rfl⟩
abbrev main_c_21 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_22 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_23 : Ref sig .tc := ⟨.hbm, 155, rfl⟩
abbrev main_v96 : Ref sig .tc := ⟨.hbm, 156, rfl⟩
abbrev main_v97 : Ref sig .tc := ⟨.hbm, 157, rfl⟩
abbrev main_c_24 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_25 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_26 : Ref sig .tc := ⟨.hbm, 198, rfl⟩
abbrev main_v136 : Ref sig .tc := ⟨.hbm, 199, rfl⟩
abbrev main_v137 : Ref sig .tc := ⟨.hbm, 200, rfl⟩
abbrev main_c_27 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_28 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_29 : Ref sig .tc := ⟨.hbm, 211, rfl⟩
abbrev main_v146 : Ref sig .tc := ⟨.hbm, 212, rfl⟩
abbrev main_v147 : Ref sig .tc := ⟨.hbm, 213, rfl⟩
abbrev main_c_30 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_31 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_32 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_call0_cst : Ref sig .tc := ⟨.hbm, 249, rfl⟩
abbrev main_call0_v0 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_call1_cst : Ref sig .tc := ⟨.hbm, 258, rfl⟩
abbrev main_call1_v0 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_call2_cst : Ref sig .tc := ⟨.hbm, 264, rfl⟩
abbrev main_call2_v0 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_call3_cst : Ref sig .tc := ⟨.hbm, 273, rfl⟩
abbrev main_call3_v0 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_call4_cst : Ref sig .tc := ⟨.hbm, 279, rfl⟩
abbrev main_call4_v0 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg3_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg5_0 : Ref sig .tc := ⟨.vmem, 85, rfl⟩
abbrev cc10_stg5_1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg1_1 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem5_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem3_1 : DmaSem sig := 70
abbrev cc9_sem0_0 : DmaSem sig := 71
abbrev cc9_sem0_1 : DmaSem sig := 72
abbrev cc9_sem1_0 : DmaSem sig := 73
abbrev cc9_sem1_1 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem5_1 : DmaSem sig := 86
abbrev cc11_sem0_0 : DmaSem sig := 87
abbrev cc11_sem0_1 : DmaSem sig := 88
abbrev cc11_sem1_0 : DmaSem sig := 89
abbrev cc11_sem1_1 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S200x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S10000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x300_S5000x300_0_0 : ∀ a, (![0, 0] : Fin 2 → Nat) a + S5000x300.size a ≤ S5000x300.size a
  h_S5000x300 : 0 < S5000x300.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x300 : S5000x1.Broadcasts S5000x300
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S5000x128_S5000x128_0_0 : ∀ a, (![0, 0] : Fin 2 → Nat) a + S5000x128.size a ≤ S5000x128.size a
  h_S5000x128 : 0 < S5000x128.numel
  inb_S5000x200_S5000x200_0_0 : ∀ a, (![0, 0] : Fin 2 → Nat) a + S5000x200.size a ≤ S5000x200.size a
  h_S5000x200 : 0 < S5000x200.numel
  broadcasts_S5000x1_S5000x200 : S5000x1.Broadcasts S5000x200
  inb_S200x128_S200x128_0_0 : ∀ a, (![0, 0] : Fin 2 → Nat) a + S200x128.size a ≤ S200x128.size a
  h_S200x128 : 0 < S200x128.numel
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_1_0 : S3x128.Slices ![1, 0] S1x128
  slices_S2x128x128_S1x128x128_1_0_0 : S2x128x128.Slices ![1, 0, 0] S1x128x128
  slices_S2x128_S1x128_1_0 : S2x128.Slices ![1, 0] S1x128
  slices_S3x128_S1x128_2_0 : S3x128.Slices ![2, 0] S1x128
  reduces_S10000x128_S128 : S10000x128.Reduces [0] S128
  bcast_S_S1x128 : S_.BroadcastsInDim S1x128 (![] : Fin 0 → Fin S1x128.rank)
  bcast_S64_S1x64_1 : S64.BroadcastsInDim S1x64 (![1] : Fin 1 → Fin S1x64.rank)
  bcast_S_S1x64 : S_.BroadcastsInDim S1x64 (![] : Fin 0 → Fin S1x64.rank)
  bcast_S128_S1x128_1 : S128.BroadcastsInDim S1x128 (![1] : Fin 1 → Fin S1x128.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  scatter_S100000_S1600000x1_S1600000_n_0_0_1_wf : ScatterDims.WF S100000 S1600000x1 S1600000 [] [0] [0] 1
  dot_S5000x300_S300x128_S5000x128_1_0_0_1_n_n_wf : DotDims.WF S5000x300 S300x128 S5000x128 [1] [0] [0] [1] [] []
  dot_S5000x200_S200x128_S5000x128_1_0_0_1_n_n_wf : DotDims.WF S5000x200 S200x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1x128_S128x64_S1x64_1_0_0_1_n_n_wf : DotDims.WF S1x128 S128x64 S1x64 [1] [0] [0] [1] [] []
  dot_S1x64_S64x64_S1x64_1_0_0_1_n_n_wf : DotDims.WF S1x64 S64x64 S1x64 [1] [0] [0] [1] [] []
  dot_S1x64_S64x128_S1x128_1_0_0_1_n_n_wf : DotDims.WF S1x64 S64x128 S1x128 [1] [0] [0] [1] [] []
  dot_S1x128_S128x128_S1x128_1_0_0_1_n_n_wf : DotDims.WF S1x128 S128x128 S1x128 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x128.size a ≤ S300x128.size a
  hwx0_2 : ∀ i : grid0.Coords, EltTy.bits .f32 = 32 ∨ (Rect.block (s := S300x128) S300x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x200.size a ≤ S100000x200.size a
  hwx1_0 : ∀ i : grid1.Coords, EltTy.bits .f32 = 32 ∨ (Rect.block (s := S100000x200) S5000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S200x128.size a
  hwx1_2 : ∀ i : grid1.Coords, EltTy.bits .f32 = 32 ∨ (Rect.block (s := S200x128) S200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .f32 = 32 ∨ (Rect.block (s := S100000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S100000x128.size a
  hwx6_5 : ∀ i : grid6.Coords, EltTy.bits .f32 = 32 ∨ (Rect.block (s := S100000x128) S10000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S100000x1.size a
  hwx7_1 : ∀ i : grid7.Coords, EltTy.bits .f32 = 32 ∨ (Rect.block (s := S100000x1) S10000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S100000x128.size a
  hwx7_5 : ∀ i : grid7.Coords, EltTy.bits .f32 = 32 ∨ (Rect.block (s := S100000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x1.size a ≤ S100000x1.size a
  hwx10_1 : ∀ i : grid10.Coords, EltTy.bits .f32 = 32 ∨ (Rect.block (s := S100000x1) S10000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x128.size a ≤ S100000x128.size a
  hwx10_5 : ∀ i : grid10.Coords, EltTy.bits .f32 = 32 ∨ (Rect.block (s := S100000x128) S10000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x1.size a ≤ S100000x1.size a
  hwx11_1 : ∀ i : grid11.Coords, EltTy.bits .f32 = 32 ∨ (Rect.block (s := S100000x1) S10000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x128.size a ≤ S100000x128.size a
  hwx11_5 : ∀ i : grid11.Coords, EltTy.bits .f32 = 32 ∨ (Rect.block (s := S100000x128) S10000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x128.size a ≤ S100000x128.size a
  hwx12_1 : ∀ i : grid12.Coords, EltTy.bits .f32 = 32 ∨ (Rect.block (s := S100000x128) S10000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def dot_S5000x200_S200x128_S5000x128_1_0_0_1_n_n : DotDims S5000x200 S200x128 S5000x128 where
  lhsContracting := [1]
  rhsContracting := [0]
  lhsNonContracting := [0]
  rhsNonContracting := [1]
  lhsBatch := []
  rhsBatch := []
  wf := dot_S5000x200_S200x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg1) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S300x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S200x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v110) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v113) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v105) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v123) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v123) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v132) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v125) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v133) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v114) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v134) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v129) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v135) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v145) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v160) S10000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v161) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v162) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v163) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v164) S10000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v155) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v169) S10000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v170) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v171) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v172) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v173) S10000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v164) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v173) S10000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v174) S1x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S100000x200 : Shape := ⟨2, ![100000, 200]⟩
abbrev S100000x300 : Shape := ⟨2, ![100000, 300]⟩
abbrev S1600000 : Shape := ⟨1, ![1600000]⟩
abbrev S300x128 : Shape := ⟨2, ![300, 128]⟩
abbrev S128 : Shape := ⟨1, ![128]⟩
abbrev S200x128 : Shape := ⟨2, ![200, 128]⟩
abbrev S2x128x128 : Shape := ⟨3, ![2, 128, 128]⟩
abbrev S2x128 : Shape := ⟨2, ![2, 128]⟩
abbrev S3x128 : Shape := ⟨2, ![3, 128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S1x128x128 : Shape := ⟨3, ![1, 128, 128]⟩
abbrev S1x64 : Shape := ⟨2, ![1, 64]⟩
abbrev S1x32 : Shape := ⟨2, ![1, 32]⟩
abbrev S1x1 : Shape := ⟨2, ![1, 1]⟩

abbrev nBuf : Space → Nat
  | .hbm => 665
  | .vmem => 0
  | .smem => 0
  | _ => 0

abbrev hbmTy0_0 (i : Nat) : BufTy := match i % 128 with
  | 0 => ⟨S100000x200, .f32⟩
  | 1 => ⟨S100000x300, .f32⟩
  | 2 => ⟨S1600000, .i32⟩
  | 3 => ⟨S1600000, .i32⟩
  | 4 => ⟨S1600000, .i32⟩
  | 5 => ⟨S1600000, .i32⟩
  | 6 => ⟨S300x128, .f32⟩
  | 7 => ⟨S128, .f32⟩
  | 8 => ⟨S200x128, .f32⟩
  | 9 => ⟨S128, .f32⟩
  | 10 => ⟨S2x128x128, .f32⟩
  | 11 => ⟨S2x128, .f32⟩
  | 12 => ⟨S2x128x128, .f32⟩
  | 13 => ⟨S2x128, .f32⟩
  | 14 => ⟨S3x128, .f32⟩
  | 15 => ⟨S3x128, .f32⟩
  | 16 => ⟨S3x128, .f32⟩
  | 17 => ⟨S3x128, .f32⟩
  | 18 => ⟨S128x64, .f32⟩
  | 19 => ⟨S64, .f32⟩
  | 20 => ⟨S64x64, .f32⟩
  | 21 => ⟨S64, .f32⟩
  | 22 => ⟨S64x128, .f32⟩
  | 23 => ⟨S128, .f32⟩
  | 24 => ⟨S128x128, .f32⟩
  | 25 => ⟨S128, .f32⟩
  | 26 => ⟨S128x64, .f32⟩
  | 27 => ⟨S64, .f32⟩
  | 28 => ⟨S64x64, .f32⟩
  | 29 => ⟨S64, .f32⟩
  | 30 => ⟨S64x32, .f32⟩
  | 31 => ⟨S32, .f32⟩
  | 32 => ⟨S32x1, .f32⟩
  | 33 => ⟨S1, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x300, .f32⟩
  | 84 => ⟨S100000x300, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x1, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S100000x1, .f32⟩
  | 106 => ⟨S100000x200, .f32⟩
  | 107 => ⟨S100000x200, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x200, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S_, .i32⟩
  | 11 => ⟨S_, .f32⟩
  | 12 => ⟨S100000, .f32⟩
  | 13 => ⟨S100000x1, .f32⟩
  | 14 => ⟨S_, .f32⟩
  | 15 => ⟨S100000x1, .f32⟩
  | 16 => ⟨S100000x1, .f32⟩
  | 17 => ⟨S100000x128, .f32⟩
  | 18 => ⟨S100000x128, .f32⟩
  | 19 => ⟨S100000x128, .f32⟩
  | 20 => ⟨S_, .f32⟩
  | 21 => ⟨S_, .f32⟩
  | 22 => ⟨S_, .f32⟩
  | 23 => ⟨S_, .f32⟩
  | 24 => ⟨S100000, .f32⟩
  | 25 => ⟨S100000x1, .f32⟩
  | 26 => ⟨S100000x1, .f32⟩
  | 27 => ⟨S100000x1, .f32⟩
  | 28 => ⟨S_, .f32⟩
  | 29 => ⟨S_, .i1⟩
  | 30 => ⟨S_, .f32⟩
  | 31 => ⟨S_, .f32⟩
  | 32 => ⟨S100000x1, .f32⟩
  | 33 => ⟨S100000x1, .f32⟩
  | 34 => ⟨S100000x128, .f32⟩
  | 35 => ⟨S100000x128, .f32⟩
  | 36 => ⟨S_, .f32⟩
  | 37 => ⟨S100000x1, .f32⟩
  | 38 => ⟨S100000x1, .f32⟩
  | 39 => ⟨S100000x1, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .i1⟩
  | 51 => ⟨S_, .f32⟩
  | 52 => ⟨S100000x128, .f32⟩
  | 53 => ⟨S100000x128, .i1⟩
  | 54 => ⟨S_, .f32⟩
  | 55 => ⟨S_, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S_, .i32⟩
  | 74 => ⟨S_, .f32⟩
  | 75 => ⟨S100000, .f32⟩
  | 76 => ⟨S100000x1, .f32⟩
  | 77 => ⟨S_, .f32⟩
  | 78 => ⟨S100000x1, .f32⟩
  | 79 => ⟨S100000x1, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S100000, .f32⟩
  | 88 => ⟨S100000x1, .f32⟩
  | 89 => ⟨S100000x1, .f32⟩
  | 90 => ⟨S100000x1, .f32⟩
  | 91 => ⟨S_, .f32⟩
  | 92 => ⟨S_, .i1⟩
  | 93 => ⟨S_, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S_, .f32⟩
  | 100 => ⟨S100000x1, .f32⟩
  | 101 => ⟨S100000x1, .f32⟩
  | 102 => ⟨S100000x1, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .i1⟩
  | 114 => ⟨S_, .f32⟩
  | 115 => ⟨S100000x128, .f32⟩
  | 116 => ⟨S100000x128, .i1⟩
  | 117 => ⟨S_, .f32⟩
  | 118 => ⟨S_, .f32⟩
  | 119 => ⟨S100000x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128x128, .f32⟩
  | 127 => ⟨S128x128, .f32⟩
  | _ => ⟨S100000x200, .f32⟩

abbrev hbmTy0_2 (i : Nat) : BufTy := match i % 128 with
  | 0 => ⟨S1x128, .f32⟩
  | 1 => ⟨S128, .f32⟩
  | 2 => ⟨S1x128x128, .f32⟩
  | 3 => ⟨S128x128, .f32⟩
  | 4 => ⟨S1x128, .f32⟩
  | 5 => ⟨S128, .f32⟩
  | 6 => ⟨S100000x1, .f32⟩
  | 7 => ⟨S100000x128, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x1, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x1, .f32⟩
  | 30 => ⟨S100000x128, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S_, .i32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S100000, .f32⟩
  | 77 => ⟨S100000x1, .f32⟩
  | 78 => ⟨S100000x1, .f32⟩
  | 79 => ⟨S100000x1, .f32⟩
  | 80 => ⟨S_, .f32⟩
  | 81 => ⟨S_, .i1⟩
  | 82 => ⟨S_, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S_, .f32⟩
  | 89 => ⟨S100000x1, .f32⟩
  | 90 => ⟨S100000x1, .f32⟩
  | 91 => ⟨S100000x1, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .i1⟩
  | 103 => ⟨S_, .f32⟩
  | 104 => ⟨S100000x128, .f32⟩
  | 105 => ⟨S100000x128, .i1⟩
  | 106 => ⟨S_, .f32⟩
  | 107 => ⟨S_, .f32⟩
  | 108 => ⟨S100000x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S_, .i32⟩
  | 126 => ⟨S_, .f32⟩
  | 127 => ⟨S100000, .f32⟩
  | _ => ⟨S100000x200, .f32⟩

abbrev hbmTy0_3 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x128, .f32⟩
  | 5 => ⟨S100000x128, .f32⟩
  | 6 => ⟨S100000x128, .f32⟩
  | 7 => ⟨S_, .f32⟩
  | 8 => ⟨S_, .f32⟩
  | 9 => ⟨S_, .f32⟩
  | 10 => ⟨S_, .f32⟩
  | 11 => ⟨S100000, .f32⟩
  | 12 => ⟨S100000x1, .f32⟩
  | 13 => ⟨S100000x1, .f32⟩
  | 14 => ⟨S100000x1, .f32⟩
  | 15 => ⟨S_, .f32⟩
  | 16 => ⟨S_, .i1⟩
  | 17 => ⟨S_, .f32⟩
  | 18 => ⟨S_, .f32⟩
  | 19 => ⟨S100000x1, .f32⟩
  | 20 => ⟨S100000x1, .f32⟩
  | 21 => ⟨S100000x128, .f32⟩
  | 22 => ⟨S100000x128, .f32⟩
  | 23 => ⟨S_, .f32⟩
  | 24 => ⟨S100000x1, .f32⟩
  | 25 => ⟨S100000x1, .f32⟩
  | 26 => ⟨S100000x1, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .i1⟩
  | 41 => ⟨S_, .f32⟩
  | 42 => ⟨S_, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S100000x1, .f32⟩
  | 59 => ⟨S100000x128, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x1, .f32⟩
  | 82 => ⟨S100000x128, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S128, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S_, .i32⟩
  | 115 => ⟨S_, .f32⟩
  | 116 => ⟨S100000, .f32⟩
  | 117 => ⟨S100000x1, .f32⟩
  | 118 => ⟨S_, .f32⟩
  | 119 => ⟨S100000x1, .f32⟩
  | 120 => ⟨S100000x1, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000x200, .f32⟩

abbrev hbmTy0_4 (i : Nat) : BufTy := match i % 128 with
  | 0 => ⟨S100000, .f32⟩
  | 1 => ⟨S100000x1, .f32⟩
  | 2 => ⟨S100000x1, .f32⟩
  | 3 => ⟨S100000x1, .f32⟩
  | 4 => ⟨S_, .f32⟩
  | 5 => ⟨S_, .i1⟩
  | 6 => ⟨S_, .f32⟩
  | 7 => ⟨S_, .f32⟩
  | 8 => ⟨S100000x1, .f32⟩
  | 9 => ⟨S100000x1, .f32⟩
  | 10 => ⟨S100000x128, .f32⟩
  | 11 => ⟨S100000x128, .f32⟩
  | 12 => ⟨S_, .f32⟩
  | 13 => ⟨S100000x1, .f32⟩
  | 14 => ⟨S100000x1, .f32⟩
  | 15 => ⟨S100000x1, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .i1⟩
  | 27 => ⟨S_, .f32⟩
  | 28 => ⟨S100000x128, .f32⟩
  | 29 => ⟨S100000x128, .i1⟩
  | 30 => ⟨S_, .f32⟩
  | 31 => ⟨S_, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S_, .i32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S100000, .f32⟩
  | 64 => ⟨S100000x1, .f32⟩
  | 65 => ⟨S100000x1, .f32⟩
  | 66 => ⟨S100000x1, .f32⟩
  | 67 => ⟨S_, .f32⟩
  | 68 => ⟨S_, .i1⟩
  | 69 => ⟨S_, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S_, .f32⟩
  | 76 => ⟨S100000x1, .f32⟩
  | 77 => ⟨S100000x1, .f32⟩
  | 78 => ⟨S100000x1, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .i1⟩
  | 90 => ⟨S_, .f32⟩
  | 91 => ⟨S100000x128, .f32⟩
  | 92 => ⟨S100000x128, .i1⟩
  | 93 => ⟨S_, .f32⟩
  | 94 => ⟨S_, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .f32⟩
  | 103 => ⟨S128, .f32⟩
  | 104 => ⟨S_, .f32⟩
  | 105 => ⟨S128, .f32⟩
  | 106 => ⟨S128, .f32⟩
  | 107 => ⟨S_, .f32⟩
  | 108 => ⟨S128, .f32⟩
  | 109 => ⟨S_, .f32⟩
  | 110 => ⟨S128, .f32⟩
  | 111 => ⟨S128, .f32⟩
  | 112 => ⟨S128, .f32⟩
  | 113 => ⟨S1x128, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S1x64, .f32⟩
  | 122 => ⟨S1x64, .f32⟩
  | 123 => ⟨S1x128, .f32⟩
  | 124 => ⟨S1x128, .f32⟩
  | 125 => ⟨S1x128, .f32⟩
  | 126 => ⟨S_, .f32⟩
  | 127 => ⟨S1x128, .f32⟩
  | _ => ⟨S100000x200, .f32⟩

abbrev hbmTy0_5 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x32, .f32⟩
  | 17 => ⟨S1x32, .f32⟩
  | 18 => ⟨S1x32, .f32⟩
  | 19 => ⟨S_, .f32⟩
  | 20 => ⟨S1x32, .f32⟩
  | 21 => ⟨S1x32, .f32⟩
  | 22 => ⟨S1x1, .f32⟩
  | 23 => ⟨S1x1, .f32⟩
  | 24 => ⟨S1x1, .f32⟩
  | _ => ⟨S100000x200, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_cst : Ref sig .tc := ⟨.hbm, 34, rfl⟩
abbrev main_v0 : Ref sig .tc := ⟨.hbm, 35, rfl⟩
abbrev main_cst_0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst_1 : Ref sig .tc := ⟨.hbm, 40, rfl⟩
abbrev main_v4 : Ref sig .tc := ⟨.hbm, 41, rfl⟩
abbrev main_v5 : Ref sig .tc := ⟨.hbm, 42, rfl⟩
abbrev main_cst_2 : Ref sig .tc := ⟨.hbm, 43, rfl⟩
abbrev main_v6 : Ref sig .tc := ⟨.hbm, 44, rfl⟩
abbrev main_v7 : Ref sig .tc := ⟨.hbm, 45, rfl⟩
abbrev main_cst_3 : Ref sig .tc := ⟨.hbm, 46, rfl⟩
abbrev main_v8 : Ref sig .tc := ⟨.hbm, 47, rfl⟩
abbrev main_cst_4 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_5 : Ref sig .tc := ⟨.hbm, 52, rfl⟩
abbrev main_v12 : Ref sig .tc := ⟨.hbm, 53, rfl⟩
abbrev main_v13 : Ref sig .tc := ⟨.hbm, 54, rfl⟩
abbrev main_cst_6 : Ref sig .tc := ⟨.hbm, 55, rfl⟩
abbrev main_v14 : Ref sig .tc := ⟨.hbm, 56, rfl⟩
abbrev main_v15 : Ref sig .tc := ⟨.hbm, 57, rfl⟩
abbrev main_cst_7 : Ref sig .tc := ⟨.hbm, 58, rfl⟩
abbrev main_v16 : Ref sig .tc := ⟨.hbm, 59, rfl⟩
abbrev main_cst_8 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_9 : Ref sig .tc := ⟨.hbm, 64, rfl⟩
abbrev main_v20 : Ref sig .tc := ⟨.hbm, 65, rfl⟩
abbrev main_v21 : Ref sig .tc := ⟨.hbm, 66, rfl⟩
abbrev main_cst_10 : Ref sig .tc := ⟨.hbm, 67, rfl⟩
abbrev main_v22 : Ref sig .tc := ⟨.hbm, 68, rfl⟩
abbrev main_v23 : Ref sig .tc := ⟨.hbm, 69, rfl⟩
abbrev main_cst_11 : Ref sig .tc := ⟨.hbm, 70, rfl⟩
abbrev main_v24 : Ref sig .tc := ⟨.hbm, 71, rfl⟩
abbrev main_cst_12 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_13 : Ref sig .tc := ⟨.hbm, 76, rfl⟩
abbrev main_v28 : Ref sig .tc := ⟨.hbm, 77, rfl⟩
abbrev main_v29 : Ref sig .tc := ⟨.hbm, 78, rfl⟩
abbrev main_cst_14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c : Ref sig .tc := ⟨.hbm, 86, rfl⟩
abbrev main_v36 : Ref sig .tc := ⟨.hbm, 87, rfl⟩
abbrev main_v37 : Ref sig .tc := ⟨.hbm, 88, rfl⟩
abbrev main_c_15 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_16 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_17 : Ref sig .tc := ⟨.hbm, 109, rfl⟩
abbrev main_v56 : Ref sig .tc := ⟨.hbm, 110, rfl⟩
abbrev main_v57 : Ref sig .tc := ⟨.hbm, 111, rfl⟩
abbrev main_c_18 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_19 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_20 : Ref sig .tc := ⟨.hbm, 132, rfl⟩
abbrev main_v76 : Ref sig .tc := ⟨.hbm, 133, rfl⟩
abbrev main_v77 : Ref sig .tc := ⟨.hbm, 134, rfl⟩
abbrev main_cst_21 : Ref sig .tc := ⟨.hbm, 135, rfl⟩
abbrev main_v78 : Ref sig .tc := ⟨.hbm, 136, rfl⟩
abbrev main_v79 : Ref sig .tc := ⟨.hbm, 137, rfl⟩
abbrev main_c_22 : Ref sig .tc := ⟨.hbm, 138, rfl⟩
abbrev main_call0_cst : Ref sig .tc := ⟨.hbm, 139, rfl⟩
abbrev main_call0_v0 : Ref sig .tc := ⟨.hbm, 140, rfl⟩
abbrev main_call0_v1 : Ref sig .tc := ⟨.hbm, 141, rfl⟩
abbrev main_call0_cst_0 : Ref sig .tc := ⟨.hbm, 142, rfl⟩
abbrev main_call0_v2 : Ref sig .tc := ⟨.hbm, 143, rfl⟩
abbrev main_call0_v3 : Ref sig .tc := ⟨.hbm, 144, rfl⟩
abbrev main_call0_v4 : Ref sig .tc := ⟨.hbm, 145, rfl⟩
abbrev main_call0_v5 : Ref sig .tc := ⟨.hbm, 146, rfl⟩
abbrev main_call0_v6 : Ref sig .tc := ⟨.hbm, 147, rfl⟩
abbrev main_call0_v7 : Ref sig .tc := ⟨.hbm, 148, rfl⟩
abbrev main_call0_cst_1 : Ref sig .tc := ⟨.hbm, 149, rfl⟩
abbrev main_call0_v8 : Ref sig .tc := ⟨.hbm, 150, rfl⟩
abbrev main_call0_cst_2 : Ref sig .tc := ⟨.hbm, 151, rfl⟩
abbrev main_call0_v9 : Ref sig .tc := ⟨.hbm, 152, rfl⟩
abbrev main_call0_v10 : Ref sig .tc := ⟨.hbm, 153, rfl⟩
abbrev main_call0_v11 : Ref sig .tc := ⟨.hbm, 154, rfl⟩
abbrev main_call0_v12 : Ref sig .tc := ⟨.hbm, 155, rfl⟩
abbrev main_call0_cst_3 : Ref sig .tc := ⟨.hbm, 156, rfl⟩
abbrev main_call0_v13 : Ref sig .tc := ⟨.hbm, 157, rfl⟩
abbrev main_call0_cst_4 : Ref sig .tc := ⟨.hbm, 158, rfl⟩
abbrev main_call0_call0_v0 : Ref sig .tc := ⟨.hbm, 159, rfl⟩
abbrev main_call0_call0_v1 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_cst_23 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_call1_cst : Ref sig .tc := ⟨.hbm, 176, rfl⟩
abbrev main_call1_v0 : Ref sig .tc := ⟨.hbm, 177, rfl⟩
abbrev main_call1_v1 : Ref sig .tc := ⟨.hbm, 178, rfl⟩
abbrev main_call1_cst_0 : Ref sig .tc := ⟨.hbm, 179, rfl⟩
abbrev main_call1_v2 : Ref sig .tc := ⟨.hbm, 180, rfl⟩
abbrev main_call1_v3 : Ref sig .tc := ⟨.hbm, 181, rfl⟩
abbrev main_call1_cst_1 : Ref sig .tc := ⟨.hbm, 182, rfl⟩
abbrev main_call1_call0_v0 : Ref sig .tc := ⟨.hbm, 183, rfl⟩
abbrev main_call1_call0_v1 : Ref sig .tc := ⟨.hbm, 184, rfl⟩
abbrev main_call1_v4 : Ref sig .tc := ⟨.hbm, 185, rfl⟩
abbrev main_call1_v5 : Ref sig .tc := ⟨.hbm, 186, rfl⟩
abbrev main_call1_cst_2 : Ref sig .tc := ⟨.hbm, 187, rfl⟩
abbrev main_call1_v6 : Ref sig .tc := ⟨.hbm, 188, rfl⟩
abbrev main_call1_v7 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_cst_24 : Ref sig .tc := ⟨.hbm, 195, rfl⟩
abbrev main_v99 : Ref sig .tc := ⟨.hbm, 196, rfl⟩
abbrev main_v100 : Ref sig .tc := ⟨.hbm, 197, rfl⟩
abbrev main_cst_25 : Ref sig .tc := ⟨.hbm, 198, rfl⟩
abbrev main_v101 : Ref sig .tc := ⟨.hbm, 199, rfl⟩
abbrev main_v102 : Ref sig .tc := ⟨.hbm, 200, rfl⟩
abbrev main_c_26 : Ref sig .tc := ⟨.hbm, 201, rfl⟩
abbrev main_call2_cst : Ref sig .tc := ⟨.hbm, 202, rfl⟩
abbrev main_call2_v0 : Ref sig .tc := ⟨.hbm, 203, rfl⟩
abbrev main_call2_v1 : Ref sig .tc := ⟨.hbm, 204, rfl⟩
abbrev main_call2_cst_0 : Ref sig .tc := ⟨.hbm, 205, rfl⟩
abbrev main_call2_v2 : Ref sig .tc := ⟨.hbm, 206, rfl⟩
abbrev main_call2_v3 : Ref sig .tc := ⟨.hbm, 207, rfl⟩
abbrev main_call2_v4 : Ref sig .tc := ⟨.hbm, 208, rfl⟩
abbrev main_call2_v5 : Ref sig .tc := ⟨.hbm, 209, rfl⟩
abbrev main_call2_v6 : Ref sig .tc := ⟨.hbm, 210, rfl⟩
abbrev main_call2_v7 : Ref sig .tc := ⟨.hbm, 211, rfl⟩
abbrev main_call2_cst_1 : Ref sig .tc := ⟨.hbm, 212, rfl⟩
abbrev main_call2_v8 : Ref sig .tc := ⟨.hbm, 213, rfl⟩
abbrev main_call2_cst_2 : Ref sig .tc := ⟨.hbm, 214, rfl⟩
abbrev main_call2_v9 : Ref sig .tc := ⟨.hbm, 215, rfl⟩
abbrev main_call2_v10 : Ref sig .tc := ⟨.hbm, 216, rfl⟩
abbrev main_call2_v11 : Ref sig .tc := ⟨.hbm, 217, rfl⟩
abbrev main_call2_v12 : Ref sig .tc := ⟨.hbm, 218, rfl⟩
abbrev main_call2_cst_3 : Ref sig .tc := ⟨.hbm, 219, rfl⟩
abbrev main_call2_v13 : Ref sig .tc := ⟨.hbm, 220, rfl⟩
abbrev main_call2_cst_4 : Ref sig .tc := ⟨.hbm, 221, rfl⟩
abbrev main_call2_call0_v0 : Ref sig .tc := ⟨.hbm, 222, rfl⟩
abbrev main_call2_call0_v1 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_cst_27 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_call3_cst : Ref sig .tc := ⟨.hbm, 239, rfl⟩
abbrev main_call3_v0 : Ref sig .tc := ⟨.hbm, 240, rfl⟩
abbrev main_call3_v1 : Ref sig .tc := ⟨.hbm, 241, rfl⟩
abbrev main_call3_cst_0 : Ref sig .tc := ⟨.hbm, 242, rfl⟩
abbrev main_call3_v2 : Ref sig .tc := ⟨.hbm, 243, rfl⟩
abbrev main_call3_v3 : Ref sig .tc := ⟨.hbm, 244, rfl⟩
abbrev main_call3_cst_1 : Ref sig .tc := ⟨.hbm, 245, rfl⟩
abbrev main_call3_call0_v0 : Ref sig .tc := ⟨.hbm, 246, rfl⟩
abbrev main_call3_call0_v1 : Ref sig .tc := ⟨.hbm, 247, rfl⟩
abbrev main_call3_v4 : Ref sig .tc := ⟨.hbm, 248, rfl⟩
abbrev main_call3_v5 : Ref sig .tc := ⟨.hbm, 249, rfl⟩
abbrev main_call3_cst_2 : Ref sig .tc := ⟨.hbm, 250, rfl⟩
abbrev main_call3_v6 : Ref sig .tc := ⟨.hbm, 251, rfl⟩
abbrev main_call3_v7 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_c_28 : Ref sig .tc := ⟨.hbm, 266, rfl⟩
abbrev main_v130 : Ref sig .tc := ⟨.hbm, 267, rfl⟩
abbrev main_v131 : Ref sig .tc := ⟨.hbm, 268, rfl⟩
abbrev main_c_29 : Ref sig .tc := ⟨.hbm, 269, rfl⟩
abbrev main_v132 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_cst_30 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_c_31 : Ref sig .tc := ⟨.hbm, 289, rfl⟩
abbrev main_v150 : Ref sig .tc := ⟨.hbm, 290, rfl⟩
abbrev main_v151 : Ref sig .tc := ⟨.hbm, 291, rfl⟩
abbrev main_c_32 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_cst_33 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_cst_34 : Ref sig .tc := ⟨.hbm, 312, rfl⟩
abbrev main_v170 : Ref sig .tc := ⟨.hbm, 313, rfl⟩
abbrev main_v171 : Ref sig .tc := ⟨.hbm, 314, rfl⟩
abbrev main_cst_35 : Ref sig .tc := ⟨.hbm, 315, rfl⟩
abbrev main_v172 : Ref sig .tc := ⟨.hbm, 316, rfl⟩
abbrev main_v173 : Ref sig .tc := ⟨.hbm, 317, rfl⟩
abbrev main_c_36 : Ref sig .tc := ⟨.hbm, 318, rfl⟩
abbrev main_call4_cst : Ref sig .tc := ⟨.hbm, 319, rfl⟩
abbrev main_call4_v0 : Ref sig .tc := ⟨.hbm, 320, rfl⟩
abbrev main_call4_v1 : Ref sig .tc := ⟨.hbm, 321, rfl⟩
abbrev main_call4_cst_0 : Ref sig .tc := ⟨.hbm, 322, rfl⟩
abbrev main_call4_v2 : Ref sig .tc := ⟨.hbm, 323, rfl⟩
abbrev main_call4_v3 : Ref sig .tc := ⟨.hbm, 324, rfl⟩
abbrev main_call4_v4 : Ref sig .tc := ⟨.hbm, 325, rfl⟩
abbrev main_call4_v5 : Ref sig .tc := ⟨.hbm, 326, rfl⟩
abbrev main_call4_v6 : Ref sig .tc := ⟨.hbm, 327, rfl⟩
abbrev main_call4_v7 : Ref sig .tc := ⟨.hbm, 328, rfl⟩
abbrev main_call4_cst_1 : Ref sig .tc := ⟨.hbm, 329, rfl⟩
abbrev main_call4_v8 : Ref sig .tc := ⟨.hbm, 330, rfl⟩
abbrev main_call4_cst_2 : Ref sig .tc := ⟨.hbm, 331, rfl⟩
abbrev main_call4_v9 : Ref sig .tc := ⟨.hbm, 332, rfl⟩
abbrev main_call4_v10 : Ref sig .tc := ⟨.hbm, 333, rfl⟩
abbrev main_call4_v11 : Ref sig .tc := ⟨.hbm, 334, rfl⟩
abbrev main_call4_v12 : Ref sig .tc := ⟨.hbm, 335, rfl⟩
abbrev main_call4_cst_3 : Ref sig .tc := ⟨.hbm, 336, rfl⟩
abbrev main_call4_v13 : Ref sig .tc := ⟨.hbm, 337, rfl⟩
abbrev main_call4_cst_4 : Ref sig .tc := ⟨.hbm, 338, rfl⟩
abbrev main_call4_call0_v0 : Ref sig .tc := ⟨.hbm, 339, rfl⟩
abbrev main_call4_call0_v1 : Ref sig .tc := ⟨.hbm, 340, rfl⟩
abbrev main_v174 : Ref sig .tc := ⟨.hbm, 341, rfl⟩
abbrev main_v175 : Ref sig .tc := ⟨.hbm, 342, rfl⟩
abbrev main_v176 : Ref sig .tc := ⟨.hbm, 343, rfl⟩
abbrev main_cst_37 : Ref sig .tc := ⟨.hbm, 344, rfl⟩
abbrev main_v177 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_v183 : Ref sig .tc := ⟨.hbm, 351, rfl⟩
abbrev main_v184 : Ref sig .tc := ⟨.hbm, 352, rfl⟩
abbrev main_v185 : Ref sig .tc := ⟨.hbm, 353, rfl⟩
abbrev main_v186 : Ref sig .tc := ⟨.hbm, 354, rfl⟩
abbrev main_v187 : Ref sig .tc := ⟨.hbm, 355, rfl⟩
abbrev main_call5_cst : Ref sig .tc := ⟨.hbm, 356, rfl⟩
abbrev main_call5_v0 : Ref sig .tc := ⟨.hbm, 357, rfl⟩
abbrev main_call5_v1 : Ref sig .tc := ⟨.hbm, 358, rfl⟩
abbrev main_call5_cst_0 : Ref sig .tc := ⟨.hbm, 359, rfl⟩
abbrev main_call5_v2 : Ref sig .tc := ⟨.hbm, 360, rfl⟩
abbrev main_call5_v3 : Ref sig .tc := ⟨.hbm, 361, rfl⟩
abbrev main_call5_cst_1 : Ref sig .tc := ⟨.hbm, 362, rfl⟩
abbrev main_call5_call0_v0 : Ref sig .tc := ⟨.hbm, 363, rfl⟩
abbrev main_call5_call0_v1 : Ref sig .tc := ⟨.hbm, 364, rfl⟩
abbrev main_call5_v4 : Ref sig .tc := ⟨.hbm, 365, rfl⟩
abbrev main_call5_v5 : Ref sig .tc := ⟨.hbm, 366, rfl⟩
abbrev main_call5_cst_2 : Ref sig .tc := ⟨.hbm, 367, rfl⟩
abbrev main_call5_v6 : Ref sig .tc := ⟨.hbm, 368, rfl⟩
abbrev main_call5_v7 : Ref sig .tc := ⟨.hbm, 369, rfl⟩
abbrev main_v188 : Ref sig .tc := ⟨.hbm, 370, rfl⟩
abbrev main_v189 : Ref sig .tc := ⟨.hbm, 371, rfl⟩
abbrev main_v190 : Ref sig .tc := ⟨.hbm, 372, rfl⟩
abbrev main_v191 : Ref sig .tc := ⟨.hbm, 373, rfl⟩
abbrev main_v192 : Ref sig .tc := ⟨.hbm, 374, rfl⟩
abbrev main_cst_38 : Ref sig .tc := ⟨.hbm, 375, rfl⟩
abbrev main_v193 : Ref sig .tc := ⟨.hbm, 376, rfl⟩
abbrev main_v194 : Ref sig .tc := ⟨.hbm, 377, rfl⟩
abbrev main_cst_39 : Ref sig .tc := ⟨.hbm, 378, rfl⟩
abbrev main_v195 : Ref sig .tc := ⟨.hbm, 379, rfl⟩
abbrev main_v196 : Ref sig .tc := ⟨.hbm, 380, rfl⟩
abbrev main_c_40 : Ref sig .tc := ⟨.hbm, 381, rfl⟩
abbrev main_call6_cst : Ref sig .tc := ⟨.hbm, 382, rfl⟩
abbrev main_call6_v0 : Ref sig .tc := ⟨.hbm, 383, rfl⟩
abbrev main_call6_v1 : Ref sig .tc := ⟨.hbm, 384, rfl⟩
abbrev main_call6_cst_0 : Ref sig .tc := ⟨.hbm, 385, rfl⟩
abbrev main_call6_v2 : Ref sig .tc := ⟨.hbm, 386, rfl⟩
abbrev main_call6_v3 : Ref sig .tc := ⟨.hbm, 387, rfl⟩
abbrev main_call6_v4 : Ref sig .tc := ⟨.hbm, 388, rfl⟩
abbrev main_call6_v5 : Ref sig .tc := ⟨.hbm, 389, rfl⟩
abbrev main_call6_v6 : Ref sig .tc := ⟨.hbm, 390, rfl⟩
abbrev main_call6_v7 : Ref sig .tc := ⟨.hbm, 391, rfl⟩
abbrev main_call6_cst_1 : Ref sig .tc := ⟨.hbm, 392, rfl⟩
abbrev main_call6_v8 : Ref sig .tc := ⟨.hbm, 393, rfl⟩
abbrev main_call6_cst_2 : Ref sig .tc := ⟨.hbm, 394, rfl⟩
abbrev main_call6_v9 : Ref sig .tc := ⟨.hbm, 395, rfl⟩
abbrev main_call6_v10 : Ref sig .tc := ⟨.hbm, 396, rfl⟩
abbrev main_call6_v11 : Ref sig .tc := ⟨.hbm, 397, rfl⟩
abbrev main_call6_v12 : Ref sig .tc := ⟨.hbm, 398, rfl⟩
abbrev main_call6_cst_3 : Ref sig .tc := ⟨.hbm, 399, rfl⟩
abbrev main_call6_v13 : Ref sig .tc := ⟨.hbm, 400, rfl⟩
abbrev main_call6_cst_4 : Ref sig .tc := ⟨.hbm, 401, rfl⟩
abbrev main_call6_call0_v0 : Ref sig .tc := ⟨.hbm, 402, rfl⟩
abbrev main_call6_call0_v1 : Ref sig .tc := ⟨.hbm, 403, rfl⟩
abbrev main_v197 : Ref sig .tc := ⟨.hbm, 404, rfl⟩
abbrev main_v198 : Ref sig .tc := ⟨.hbm, 405, rfl⟩
abbrev main_v199 : Ref sig .tc := ⟨.hbm, 406, rfl⟩
abbrev main_cst_41 : Ref sig .tc := ⟨.hbm, 407, rfl⟩
abbrev main_v200 : Ref sig .tc := ⟨.hbm, 408, rfl⟩
abbrev main_v201 : Ref sig .tc := ⟨.hbm, 409, rfl⟩
abbrev main_v202 : Ref sig .tc := ⟨.hbm, 410, rfl⟩
abbrev main_v203 : Ref sig .tc := ⟨.hbm, 411, rfl⟩
abbrev main_v204 : Ref sig .tc := ⟨.hbm, 412, rfl⟩
abbrev main_v205 : Ref sig .tc := ⟨.hbm, 413, rfl⟩
abbrev main_v206 : Ref sig .tc := ⟨.hbm, 414, rfl⟩
abbrev main_v207 : Ref sig .tc := ⟨.hbm, 415, rfl⟩
abbrev main_v208 : Ref sig .tc := ⟨.hbm, 416, rfl⟩
abbrev main_v209 : Ref sig .tc := ⟨.hbm, 417, rfl⟩
abbrev main_v210 : Ref sig .tc := ⟨.hbm, 418, rfl⟩
abbrev main_call7_cst : Ref sig .tc := ⟨.hbm, 419, rfl⟩
abbrev main_call7_v0 : Ref sig .tc := ⟨.hbm, 420, rfl⟩
abbrev main_call7_v1 : Ref sig .tc := ⟨.hbm, 421, rfl⟩
abbrev main_call7_cst_0 : Ref sig .tc := ⟨.hbm, 422, rfl⟩
abbrev main_call7_v2 : Ref sig .tc := ⟨.hbm, 423, rfl⟩
abbrev main_call7_v3 : Ref sig .tc := ⟨.hbm, 424, rfl⟩
abbrev main_call7_cst_1 : Ref sig .tc := ⟨.hbm, 425, rfl⟩
abbrev main_call7_call0_v0 : Ref sig .tc := ⟨.hbm, 426, rfl⟩
abbrev main_call7_call0_v1 : Ref sig .tc := ⟨.hbm, 427, rfl⟩
abbrev main_call7_v4 : Ref sig .tc := ⟨.hbm, 428, rfl⟩
abbrev main_call7_v5 : Ref sig .tc := ⟨.hbm, 429, rfl⟩
abbrev main_call7_cst_2 : Ref sig .tc := ⟨.hbm, 430, rfl⟩
abbrev main_call7_v6 : Ref sig .tc := ⟨.hbm, 431, rfl⟩
abbrev main_call7_v7 : Ref sig .tc := ⟨.hbm, 432, rfl⟩
abbrev main_v211 : Ref sig .tc := ⟨.hbm, 433, rfl⟩
abbrev main_v212 : Ref sig .tc := ⟨.hbm, 434, rfl⟩
abbrev main_v213 : Ref sig .tc := ⟨.hbm, 435, rfl⟩
abbrev main_v214 : Ref sig .tc := ⟨.hbm, 436, rfl⟩
abbrev main_v215 : Ref sig .tc := ⟨.hbm, 437, rfl⟩
abbrev main_v216 : Ref sig .tc := ⟨.hbm, 438, rfl⟩
abbrev main_v217 : Ref sig .tc := ⟨.hbm, 439, rfl⟩
abbrev main_v218 : Ref sig .tc := ⟨.hbm, 440, rfl⟩
abbrev main_v219 : Ref sig .tc := ⟨.hbm, 441, rfl⟩
abbrev main_v220 : Ref sig .tc := ⟨.hbm, 442, rfl⟩
abbrev main_v221 : Ref sig .tc := ⟨.hbm, 443, rfl⟩
abbrev main_v222 : Ref sig .tc := ⟨.hbm, 444, rfl⟩
abbrev main_v223 : Ref sig .tc := ⟨.hbm, 445, rfl⟩
abbrev main_c_42 : Ref sig .tc := ⟨.hbm, 446, rfl⟩
abbrev main_v224 : Ref sig .tc := ⟨.hbm, 447, rfl⟩
abbrev main_v225 : Ref sig .tc := ⟨.hbm, 448, rfl⟩
abbrev main_c_43 : Ref sig .tc := ⟨.hbm, 449, rfl⟩
abbrev main_v226 : Ref sig .tc := ⟨.hbm, 450, rfl⟩
abbrev main_v227 : Ref sig .tc := ⟨.hbm, 451, rfl⟩
abbrev main_v228 : Ref sig .tc := ⟨.hbm, 452, rfl⟩
abbrev main_v229 : Ref sig .tc := ⟨.hbm, 453, rfl⟩
abbrev main_v230 : Ref sig .tc := ⟨.hbm, 454, rfl⟩
abbrev main_cst_44 : Ref sig .tc := ⟨.hbm, 455, rfl⟩
abbrev main_v231 : Ref sig .tc := ⟨.hbm, 456, rfl⟩
abbrev main_v232 : Ref sig .tc := ⟨.hbm, 457, rfl⟩
abbrev main_v233 : Ref sig .tc := ⟨.hbm, 458, rfl⟩
abbrev main_v234 : Ref sig .tc := ⟨.hbm, 459, rfl⟩
abbrev main_v235 : Ref sig .tc := ⟨.hbm, 460, rfl⟩
abbrev main_v236 : Ref sig .tc := ⟨.hbm, 461, rfl⟩
abbrev main_v237 : Ref sig .tc := ⟨.hbm, 462, rfl⟩
abbrev main_v238 : Ref sig .tc := ⟨.hbm, 463, rfl⟩
abbrev main_v239 : Ref sig .tc := ⟨.hbm, 464, rfl⟩
abbrev main_v240 : Ref sig .tc := ⟨.hbm, 465, rfl⟩
abbrev main_v241 : Ref sig .tc := ⟨.hbm, 466, rfl⟩
abbrev main_v242 : Ref sig .tc := ⟨.hbm, 467, rfl⟩
abbrev main_v243 : Ref sig .tc := ⟨.hbm, 468, rfl⟩
abbrev main_c_45 : Ref sig .tc := ⟨.hbm, 469, rfl⟩
abbrev main_v244 : Ref sig .tc := ⟨.hbm, 470, rfl⟩
abbrev main_v245 : Ref sig .tc := ⟨.hbm, 471, rfl⟩
abbrev main_c_46 : Ref sig .tc := ⟨.hbm, 472, rfl⟩
abbrev main_v246 : Ref sig .tc := ⟨.hbm, 473, rfl⟩
abbrev main_v247 : Ref sig .tc := ⟨.hbm, 474, rfl⟩
abbrev main_v248 : Ref sig .tc := ⟨.hbm, 475, rfl⟩
abbrev main_v249 : Ref sig .tc := ⟨.hbm, 476, rfl⟩
abbrev main_v250 : Ref sig .tc := ⟨.hbm, 477, rfl⟩
abbrev main_cst_47 : Ref sig .tc := ⟨.hbm, 478, rfl⟩
abbrev main_v251 : Ref sig .tc := ⟨.hbm, 479, rfl⟩
abbrev main_v252 : Ref sig .tc := ⟨.hbm, 480, rfl⟩
abbrev main_v253 : Ref sig .tc := ⟨.hbm, 481, rfl⟩
abbrev main_v254 : Ref sig .tc := ⟨.hbm, 482, rfl⟩
abbrev main_v255 : Ref sig .tc := ⟨.hbm, 483, rfl⟩
abbrev main_v256 : Ref sig .tc := ⟨.hbm, 484, rfl⟩
abbrev main_v257 : Ref sig .tc := ⟨.hbm, 485, rfl⟩
abbrev main_v258 : Ref sig .tc := ⟨.hbm, 486, rfl⟩
abbrev main_v259 : Ref sig .tc := ⟨.hbm, 487, rfl⟩
abbrev main_v260 : Ref sig .tc := ⟨.hbm, 488, rfl⟩
abbrev main_v261 : Ref sig .tc := ⟨.hbm, 489, rfl⟩
abbrev main_v262 : Ref sig .tc := ⟨.hbm, 490, rfl⟩
abbrev main_v263 : Ref sig .tc := ⟨.hbm, 491, rfl⟩
abbrev main_cst_48 : Ref sig .tc := ⟨.hbm, 492, rfl⟩
abbrev main_v264 : Ref sig .tc := ⟨.hbm, 493, rfl⟩
abbrev main_v265 : Ref sig .tc := ⟨.hbm, 494, rfl⟩
abbrev main_cst_49 : Ref sig .tc := ⟨.hbm, 495, rfl⟩
abbrev main_v266 : Ref sig .tc := ⟨.hbm, 496, rfl⟩
abbrev main_v267 : Ref sig .tc := ⟨.hbm, 497, rfl⟩
abbrev main_c_50 : Ref sig .tc := ⟨.hbm, 498, rfl⟩
abbrev main_call8_cst : Ref sig .tc := ⟨.hbm, 499, rfl⟩
abbrev main_call8_v0 : Ref sig .tc := ⟨.hbm, 500, rfl⟩
abbrev main_call8_v1 : Ref sig .tc := ⟨.hbm, 501, rfl⟩
abbrev main_call8_cst_0 : Ref sig .tc := ⟨.hbm, 502, rfl⟩
abbrev main_call8_v2 : Ref sig .tc := ⟨.hbm, 503, rfl⟩
abbrev main_call8_v3 : Ref sig .tc := ⟨.hbm, 504, rfl⟩
abbrev main_call8_v4 : Ref sig .tc := ⟨.hbm, 505, rfl⟩
abbrev main_call8_v5 : Ref sig .tc := ⟨.hbm, 506, rfl⟩
abbrev main_call8_v6 : Ref sig .tc := ⟨.hbm, 507, rfl⟩
abbrev main_call8_v7 : Ref sig .tc := ⟨.hbm, 508, rfl⟩
abbrev main_call8_cst_1 : Ref sig .tc := ⟨.hbm, 509, rfl⟩
abbrev main_call8_v8 : Ref sig .tc := ⟨.hbm, 510, rfl⟩
abbrev main_call8_cst_2 : Ref sig .tc := ⟨.hbm, 511, rfl⟩
abbrev main_call8_v9 : Ref sig .tc := ⟨.hbm, 512, rfl⟩
abbrev main_call8_v10 : Ref sig .tc := ⟨.hbm, 513, rfl⟩
abbrev main_call8_v11 : Ref sig .tc := ⟨.hbm, 514, rfl⟩
abbrev main_call8_v12 : Ref sig .tc := ⟨.hbm, 515, rfl⟩
abbrev main_call8_cst_3 : Ref sig .tc := ⟨.hbm, 516, rfl⟩
abbrev main_call8_v13 : Ref sig .tc := ⟨.hbm, 517, rfl⟩
abbrev main_call8_cst_4 : Ref sig .tc := ⟨.hbm, 518, rfl⟩
abbrev main_call8_call0_v0 : Ref sig .tc := ⟨.hbm, 519, rfl⟩
abbrev main_call8_call0_v1 : Ref sig .tc := ⟨.hbm, 520, rfl⟩
abbrev main_v268 : Ref sig .tc := ⟨.hbm, 521, rfl⟩
abbrev main_v269 : Ref sig .tc := ⟨.hbm, 522, rfl⟩
abbrev main_v270 : Ref sig .tc := ⟨.hbm, 523, rfl⟩
abbrev main_cst_51 : Ref sig .tc := ⟨.hbm, 524, rfl⟩
abbrev main_v271 : Ref sig .tc := ⟨.hbm, 525, rfl⟩
abbrev main_v272 : Ref sig .tc := ⟨.hbm, 526, rfl⟩
abbrev main_v273 : Ref sig .tc := ⟨.hbm, 527, rfl⟩
abbrev main_v274 : Ref sig .tc := ⟨.hbm, 528, rfl⟩
abbrev main_v275 : Ref sig .tc := ⟨.hbm, 529, rfl⟩
abbrev main_v276 : Ref sig .tc := ⟨.hbm, 530, rfl⟩
abbrev main_v277 : Ref sig .tc := ⟨.hbm, 531, rfl⟩
abbrev main_v278 : Ref sig .tc := ⟨.hbm, 532, rfl⟩
abbrev main_v279 : Ref sig .tc := ⟨.hbm, 533, rfl⟩
abbrev main_v280 : Ref sig .tc := ⟨.hbm, 534, rfl⟩
abbrev main_v281 : Ref sig .tc := ⟨.hbm, 535, rfl⟩
abbrev main_call9_cst : Ref sig .tc := ⟨.hbm, 536, rfl⟩
abbrev main_call9_v0 : Ref sig .tc := ⟨.hbm, 537, rfl⟩
abbrev main_call9_v1 : Ref sig .tc := ⟨.hbm, 538, rfl⟩
abbrev main_call9_cst_0 : Ref sig .tc := ⟨.hbm, 539, rfl⟩
abbrev main_call9_v2 : Ref sig .tc := ⟨.hbm, 540, rfl⟩
abbrev main_call9_v3 : Ref sig .tc := ⟨.hbm, 541, rfl⟩
abbrev main_call9_cst_1 : Ref sig .tc := ⟨.hbm, 542, rfl⟩
abbrev main_call9_call0_v0 : Ref sig .tc := ⟨.hbm, 543, rfl⟩
abbrev main_call9_call0_v1 : Ref sig .tc := ⟨.hbm, 544, rfl⟩
abbrev main_call9_v4 : Ref sig .tc := ⟨.hbm, 545, rfl⟩
abbrev main_call9_v5 : Ref sig .tc := ⟨.hbm, 546, rfl⟩
abbrev main_call9_cst_2 : Ref sig .tc := ⟨.hbm, 547, rfl⟩
abbrev main_call9_v6 : Ref sig .tc := ⟨.hbm, 548, rfl⟩
abbrev main_call9_v7 : Ref sig .tc := ⟨.hbm, 549, rfl⟩
abbrev main_v282 : Ref sig .tc := ⟨.hbm, 550, rfl⟩
abbrev main_v283 : Ref sig .tc := ⟨.hbm, 551, rfl⟩
abbrev main_v284 : Ref sig .tc := ⟨.hbm, 552, rfl⟩
abbrev main_v285 : Ref sig .tc := ⟨.hbm, 553, rfl⟩
abbrev main_v286 : Ref sig .tc := ⟨.hbm, 554, rfl⟩
abbrev main_cst_52 : Ref sig .tc := ⟨.hbm, 555, rfl⟩
abbrev main_v287 : Ref sig .tc := ⟨.hbm, 556, rfl⟩
abbrev main_v288 : Ref sig .tc := ⟨.hbm, 557, rfl⟩
abbrev main_cst_53 : Ref sig .tc := ⟨.hbm, 558, rfl⟩
abbrev main_v289 : Ref sig .tc := ⟨.hbm, 559, rfl⟩
abbrev main_v290 : Ref sig .tc := ⟨.hbm, 560, rfl⟩
abbrev main_c_54 : Ref sig .tc := ⟨.hbm, 561, rfl⟩
abbrev main_call10_cst : Ref sig .tc := ⟨.hbm, 562, rfl⟩
abbrev main_call10_v0 : Ref sig .tc := ⟨.hbm, 563, rfl⟩
abbrev main_call10_v1 : Ref sig .tc := ⟨.hbm, 564, rfl⟩
abbrev main_call10_cst_0 : Ref sig .tc := ⟨.hbm, 565, rfl⟩
abbrev main_call10_v2 : Ref sig .tc := ⟨.hbm, 566, rfl⟩
abbrev main_call10_v3 : Ref sig .tc := ⟨.hbm, 567, rfl⟩
abbrev main_call10_v4 : Ref sig .tc := ⟨.hbm, 568, rfl⟩
abbrev main_call10_v5 : Ref sig .tc := ⟨.hbm, 569, rfl⟩
abbrev main_call10_v6 : Ref sig .tc := ⟨.hbm, 570, rfl⟩
abbrev main_call10_v7 : Ref sig .tc := ⟨.hbm, 571, rfl⟩
abbrev main_call10_cst_1 : Ref sig .tc := ⟨.hbm, 572, rfl⟩
abbrev main_call10_v8 : Ref sig .tc := ⟨.hbm, 573, rfl⟩
abbrev main_call10_cst_2 : Ref sig .tc := ⟨.hbm, 574, rfl⟩
abbrev main_call10_v9 : Ref sig .tc := ⟨.hbm, 575, rfl⟩
abbrev main_call10_v10 : Ref sig .tc := ⟨.hbm, 576, rfl⟩
abbrev main_call10_v11 : Ref sig .tc := ⟨.hbm, 577, rfl⟩
abbrev main_call10_v12 : Ref sig .tc := ⟨.hbm, 578, rfl⟩
abbrev main_call10_cst_3 : Ref sig .tc := ⟨.hbm, 579, rfl⟩
abbrev main_call10_v13 : Ref sig .tc := ⟨.hbm, 580, rfl⟩
abbrev main_call10_cst_4 : Ref sig .tc := ⟨.hbm, 581, rfl⟩
abbrev main_call10_call0_v0 : Ref sig .tc := ⟨.hbm, 582, rfl⟩
abbrev main_call10_call0_v1 : Ref sig .tc := ⟨.hbm, 583, rfl⟩
abbrev main_v291 : Ref sig .tc := ⟨.hbm, 584, rfl⟩
abbrev main_v292 : Ref sig .tc := ⟨.hbm, 585, rfl⟩
abbrev main_v293 : Ref sig .tc := ⟨.hbm, 586, rfl⟩
abbrev main_cst_55 : Ref sig .tc := ⟨.hbm, 587, rfl⟩
abbrev main_v294 : Ref sig .tc := ⟨.hbm, 588, rfl⟩
abbrev main_v295 : Ref sig .tc := ⟨.hbm, 589, rfl⟩
abbrev main_v296 : Ref sig .tc := ⟨.hbm, 590, rfl⟩
abbrev main_v297 : Ref sig .tc := ⟨.hbm, 591, rfl⟩
abbrev main_v298 : Ref sig .tc := ⟨.hbm, 592, rfl⟩
abbrev main_v299 : Ref sig .tc := ⟨.hbm, 593, rfl⟩
abbrev main_v300 : Ref sig .tc := ⟨.hbm, 594, rfl⟩
abbrev main_v301 : Ref sig .tc := ⟨.hbm, 595, rfl⟩
abbrev main_v302 : Ref sig .tc := ⟨.hbm, 596, rfl⟩
abbrev main_v303 : Ref sig .tc := ⟨.hbm, 597, rfl⟩
abbrev main_v304 : Ref sig .tc := ⟨.hbm, 598, rfl⟩
abbrev main_call11_cst : Ref sig .tc := ⟨.hbm, 599, rfl⟩
abbrev main_call11_v0 : Ref sig .tc := ⟨.hbm, 600, rfl⟩
abbrev main_call11_v1 : Ref sig .tc := ⟨.hbm, 601, rfl⟩
abbrev main_call11_cst_0 : Ref sig .tc := ⟨.hbm, 602, rfl⟩
abbrev main_call11_v2 : Ref sig .tc := ⟨.hbm, 603, rfl⟩
abbrev main_call11_v3 : Ref sig .tc := ⟨.hbm, 604, rfl⟩
abbrev main_call11_cst_1 : Ref sig .tc := ⟨.hbm, 605, rfl⟩
abbrev main_call11_call0_v0 : Ref sig .tc := ⟨.hbm, 606, rfl⟩
abbrev main_call11_call0_v1 : Ref sig .tc := ⟨.hbm, 607, rfl⟩
abbrev main_call11_v4 : Ref sig .tc := ⟨.hbm, 608, rfl⟩
abbrev main_call11_v5 : Ref sig .tc := ⟨.hbm, 609, rfl⟩
abbrev main_call11_cst_2 : Ref sig .tc := ⟨.hbm, 610, rfl⟩
abbrev main_call11_v6 : Ref sig .tc := ⟨.hbm, 611, rfl⟩
abbrev main_call11_v7 : Ref sig .tc := ⟨.hbm, 612, rfl⟩
abbrev main_v305 : Ref sig .tc := ⟨.hbm, 613, rfl⟩
abbrev main_cst_56 : Ref sig .tc := ⟨.hbm, 614, rfl⟩
abbrev main_v306 : Ref sig .tc := ⟨.hbm, 615, rfl⟩
abbrev main_cst_57 : Ref sig .tc := ⟨.hbm, 616, rfl⟩
abbrev main_v307 : Ref sig .tc := ⟨.hbm, 617, rfl⟩
abbrev main_v308 : Ref sig .tc := ⟨.hbm, 618, rfl⟩
abbrev main_cst_58 : Ref sig .tc := ⟨.hbm, 619, rfl⟩
abbrev main_v309 : Ref sig .tc := ⟨.hbm, 620, rfl⟩
abbrev main_cst_59 : Ref sig .tc := ⟨.hbm, 621, rfl⟩
abbrev main_v310 : Ref sig .tc := ⟨.hbm, 622, rfl⟩
abbrev main_v311 : Ref sig .tc := ⟨.hbm, 623, rfl⟩
abbrev main_v312 : Ref sig .tc := ⟨.hbm, 624, rfl⟩
abbrev main_v313 : Ref sig .tc := ⟨.hbm, 625, rfl⟩
abbrev main_v314 : Ref sig .tc := ⟨.hbm, 626, rfl⟩
abbrev main_v315 : Ref sig .tc := ⟨.hbm, 627, rfl⟩
abbrev main_v316 : Ref sig .tc := ⟨.hbm, 628, rfl⟩
abbrev main_call12_cst : Ref sig .tc := ⟨.hbm, 629, rfl⟩
abbrev main_call12_v0 : Ref sig .tc := ⟨.hbm, 630, rfl⟩
abbrev main_v317 : Ref sig .tc := ⟨.hbm, 631, rfl⟩
abbrev main_v318 : Ref sig .tc := ⟨.hbm, 632, rfl⟩
abbrev main_v319 : Ref sig .tc := ⟨.hbm, 633, rfl⟩
abbrev main_v320 : Ref sig .tc := ⟨.hbm, 634, rfl⟩
abbrev main_v321 : Ref sig .tc := ⟨.hbm, 635, rfl⟩
abbrev main_v322 : Ref sig .tc := ⟨.hbm, 636, rfl⟩
abbrev main_v323 : Ref sig .tc := ⟨.hbm, 637, rfl⟩
abbrev main_call13_cst : Ref sig .tc := ⟨.hbm, 638, rfl⟩
abbrev main_call13_v0 : Ref sig .tc := ⟨.hbm, 639, rfl⟩
abbrev main_v324 : Ref sig .tc := ⟨.hbm, 640, rfl⟩
abbrev main_v325 : Ref sig .tc := ⟨.hbm, 641, rfl⟩
abbrev main_v326 : Ref sig .tc := ⟨.hbm, 642, rfl⟩
abbrev main_v327 : Ref sig .tc := ⟨.hbm, 643, rfl⟩
abbrev main_call14_cst : Ref sig .tc := ⟨.hbm, 644, rfl⟩
abbrev main_call14_v0 : Ref sig .tc := ⟨.hbm, 645, rfl⟩
abbrev main_v328 : Ref sig .tc := ⟨.hbm, 646, rfl⟩
abbrev main_v329 : Ref sig .tc := ⟨.hbm, 647, rfl⟩
abbrev main_v330 : Ref sig .tc := ⟨.hbm, 648, rfl⟩
abbrev main_v331 : Ref sig .tc := ⟨.hbm, 649, rfl⟩
abbrev main_v332 : Ref sig .tc := ⟨.hbm, 650, rfl⟩
abbrev main_v333 : Ref sig .tc := ⟨.hbm, 651, rfl⟩
abbrev main_v334 : Ref sig .tc := ⟨.hbm, 652, rfl⟩
abbrev main_call15_cst : Ref sig .tc := ⟨.hbm, 653, rfl⟩
abbrev main_call15_v0 : Ref sig .tc := ⟨.hbm, 654, rfl⟩
abbrev main_v335 : Ref sig .tc := ⟨.hbm, 655, rfl⟩
abbrev main_v336 : Ref sig .tc := ⟨.hbm, 656, rfl⟩
abbrev main_v337 : Ref sig .tc := ⟨.hbm, 657, rfl⟩
abbrev main_v338 : Ref sig .tc := ⟨.hbm, 658, rfl⟩
abbrev main_call16_cst : Ref sig .tc := ⟨.hbm, 659, rfl⟩
abbrev main_call16_v0 : Ref sig .tc := ⟨.hbm, 660, rfl⟩
abbrev main_v339 : Ref sig .tc := ⟨.hbm, 661, rfl⟩
abbrev main_v340 : Ref sig .tc := ⟨.hbm, 662, rfl⟩
abbrev main_v341 : Ref sig .tc := ⟨.hbm, 663, rfl⟩
abbrev main_v342 : Ref sig .tc := ⟨.hbm, 664, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x300_0_1 : S100000x1.BroadcastsInDim S100000x300 (![0, 1] : Fin 2 → Fin S100000x300.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x200_0_1 : S100000x1.BroadcastsInDim S100000x200 (![0, 1] : Fin 2 → Fin S100000x200.rank)
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S_S100000x1 : S_.BroadcastsInDim S100000x1 (![] : Fin 0 → Fin S100000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  slices_S3x128_S1x128_1_0 : S3x128.Slices ![1, 0] S1x128
  slices_S2x128x128_S1x128x128_1_0_0 : S2x128x128.Slices ![1, 0, 0] S1x128x128
  slices_S2x128_S1x128_1_0 : S2x128.Slices ![1, 0] S1x128
  slices_S3x128_S1x128_2_0 : S3x128.Slices ![2, 0] S1x128
  reducesTo_S100000x128_S128_d0 : S100000x128.ReducesTo [0] S128
  bcast_S_S128 : S_.BroadcastsInDim S128 (![] : Fin 0 → Fin S128.rank)
  bcast_S64_S1x64_1 : S64.BroadcastsInDim S1x64 (![1] : Fin 1 → Fin S1x64.rank)
  bcast_S_S1x64 : S_.BroadcastsInDim S1x64 (![] : Fin 0 → Fin S1x64.rank)
  bcast_S_S1x128 : S_.BroadcastsInDim S1x128 (![] : Fin 0 → Fin S1x128.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  scatter_S100000_S1600000x1_S1600000_n_0_0_1_wf : ScatterDims.WF S100000 S1600000x1 S1600000 [] [0] [0] 1
  dot_S100000x300_S300x128_S100000x128_1_0_0_1_n_n_wf : DotDims.WF S100000x300 S300x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x200_S200x128_S100000x128_1_0_0_1_n_n_wf : DotDims.WF S100000x200 S200x128 S100000x128 [1] [0] [0] [1] [] []
  dot_S100000x128_S128x128_S100000x128_1_0_0_1_n_n_wf : DotDims.WF S100000x128 S128x128 S100000x128 [1] [0] [0] [1] [] []
  dot_S1x128_S128x64_S1x64_1_0_0_1_n_n_wf : DotDims.WF S1x128 S128x64 S1x64 [1] [0] [0] [1] [] []
  dot_S1x64_S64x64_S1x64_1_0_0_1_n_n_wf : DotDims.WF S1x64 S64x64 S1x64 [1] [0] [0] [1] [] []
  dot_S1x64_S64x128_S1x128_1_0_0_1_n_n_wf : DotDims.WF S1x64 S64x128 S1x128 [1] [0] [0] [1] [] []
  dot_S1x128_S128x128_S1x128_1_0_0_1_n_n_wf : DotDims.WF S1x128 S128x128 S1x128 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x200_S200x128_S100000x128_1_0_0_1_n_n : DotDims S100000x200 S200x128 S100000x128 where
  lhsContracting := [1]
  rhsContracting := [0]
  lhsNonContracting := [0]
  rhsNonContracting := [1]
  lhsBatch := []
  rhsBatch := []
  wf := dot_S100000x200_S200x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.KernelRun.lean ====
/-
  The idealized kernel's run, with its values.  @main is a chain of host stretches and kernel regions; the launch theorem
  for such a chain ends every weakly fair execution in a state where each unscoped TensorCore buffer holds the LAST
  boundary's contents: the fold, from the launch memory, of each host stretch's operations and of each region's
  write-backs.  The frame claim reads only the argument buffers out of that state; here every unscoped buffer is read, so
  the result buffers' final contents are that fold at the result buffers.
-/
import proofs.«165753_j16037407883756_1_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates without a fault, and in every final
    state each unscoped TensorCore buffer holds the last boundary's contents. -/
theorem run_last : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W36 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W36 m ρ c b)
    (hfin := fun c s' => by
      iintro ⟨⟨Hh, -⟩, HSI⟩
      unfold StableHlo.held
      imodintro
      iapply (pointsTo_read_all (Pipeline.ucRefs τ sig) (fun b => (((c : Thread nD τ)).1, b)) (W36 m ρ c) s')
      isplitl [Hh] <;> iassumption)
    (hQ := fun s h c b hb => h c _ (mem_uc b hb))

end Cert.KernelIdeal.Values

end
-- ==== Proof.RefLine0.lean ====
/-
  The reference program's host line, part 0: its 60 operations in order, with each outlined function (the
  variance, the ELU, the ReLUs and the selects they call) written out at its call over that call's buffers.  The part of
  @main IS that straight line (part_eq0); every operation touches TensorCore buffers only (sub0), none allocates
  (fresh0), and each writes its own result buffer, listed in written0 (writes0).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 0 of @main as a list of host operations. -/
abbrev ops0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0xBF000000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v5 main_v6 main_v7 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v8 (broadcastInDim S1600000 ![] bcast_S_S1600000 : (⟨S_, .f32⟩ : BufTy).Contents (Elt F) → (⟨S1600000, .f32⟩ : BufTy).Contents (Elt F)),
    StableHlo.nullary main_cst_4 (constant S_ .f32 0x00000000#32),
    StableHlo.unary main_cst_4 main_v9 (broadcastInDim S100000 ![] bcast_S_S100000 : (⟨S_, .f32⟩ : BufTy).Contents (Elt F) → (⟨S100000, .f32⟩ : BufTy).Contents (Elt F)),
    StableHlo.unary main_arg3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_5 (constant S_ .f32 0x3F800000#32),
    StableHlo.unary main_cst_5 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.nullary main_cst_6 (constant S_ .f32 0xBF000000#32),
    StableHlo.unary main_cst_6 main_v14 (broadcastInDim S100000 ![] bcast_S_S100000 : (⟨S_, .f32⟩ : BufTy).Contents (Elt F) → (⟨S100000, .f32⟩ : BufTy).Contents (Elt F)),
    StableHlo.binary main_v13 main_v14 main_v15 (Host.powf : (⟨S100000, .f32⟩ : BufTy).Contents (Elt F) → (⟨S100000, .f32⟩ : BufTy).Contents (Elt F) → (⟨S100000, .f32⟩ : BufTy).Contents (Elt F)),
    StableHlo.nullary main_cst_7 (constant S_ .f32 0x3F800000#32),
    StableHlo.unary main_cst_7 main_v16 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v17 (broadcastInDim S100000 ![] bcast_S_S100000 : (⟨S_, .f32⟩ : BufTy).Contents (Elt F) → (⟨S100000, .f32⟩ : BufTy).Contents (Elt F)),
    StableHlo.unary main_arg4 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v20 (broadcastInDim S100000 ![] bcast_S_S100000 : (⟨S_, .f32⟩ : BufTy).Contents (Elt F) → (⟨S100000, .f32⟩ : BufTy).Contents (Elt F)),
    StableHlo.binary main_v19 main_v20 main_v21 (maximumf : (⟨S100000, .f32⟩ : BufTy).Contents (Elt F) → (⟨S100000, .f32⟩ : BufTy).Contents (Elt F) → (⟨S100000, .f32⟩ : BufTy).Contents (Elt F)),
    StableHlo.nullary main_cst_10 (constant S_ .f32 0xBF000000#32),
    StableHlo.unary main_cst_10 main_v22 (broadcastInDim S100000 ![] bcast_S_S100000 : (⟨S_, .f32⟩ : BufTy).Contents (Elt F) → (⟨S100000, .f32⟩ : BufTy).Contents (Elt F)),
    StableHlo.binary main_v21 main_v22 main_v23 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x3F800000#32),
    StableHlo.unary main_cst_11 main_v24 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v25 (broadcastInDim S100000 ![] bcast_S_S100000 : (⟨S_, .f32⟩ : BufTy).Contents (Elt F) → (⟨S100000, .f32⟩ : BufTy).Contents (Elt F)),
    StableHlo.unary main_arg5 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.nullary main_cst_14 (constant S_ .f32 0xBF000000#32),
    StableHlo.unary main_cst_14 main_v30 (broadcastInDim S100000 ![] bcast_S_S100000 : (⟨S_, .f32⟩ : BufTy).Contents (Elt F) → (⟨S100000, .f32⟩ : BufTy).Contents (Elt F)),
    StableHlo.binary main_v29 main_v30 main_v31 (Host.powf : (⟨S100000, .f32⟩ : BufTy).Contents (Elt F) → (⟨S100000, .f32⟩ : BufTy).Contents (Elt F) → (⟨S100000, .f32⟩ : BufTy).Contents (Elt F)),
    StableHlo.unary main_v7 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x300 ![0, 1] bcast_S100000x1_S100000x300_0_1 : (⟨S100000x1, .f32⟩ : BufTy).Contents (Elt F) → (⟨S100000x300, .f32⟩ : BufTy).Contents (Elt F)),
    StableHlo.binary main_arg1 main_v33 main_v34 (mulf : (⟨S100000x300, .f32⟩ : BufTy).Contents (Elt F) → (⟨S100000x300, .f32⟩ : BufTy).Contents (Elt F) → (⟨S100000x300, .f32⟩ : BufTy).Contents (Elt F)),
    StableHlo.binary main_v34 main_arg6 main_v35 ((fun l r => Host.dotGeneral dot_S100000x300_S300x128_S100000x128_1_0_0_1_n_n none l r) : (⟨S100000x300, .f32⟩ : BufTy).Contents (Elt F) → (⟨S300x128, .f32⟩ : BufTy).Contents (Elt F) → (⟨S100000x128, .f32⟩ : BufTy).Contents (Elt F)),
    StableHlo.nullary main_c (constantI S_ 32 0#32),
    StableHlo.unary main_c main_v36 (broadcastInDim S1600000 ![] bcast_S_S1600000 : (⟨S_, .i32⟩ : BufTy).Contents (Elt F) → (⟨S1600000, .i32⟩ : BufTy).Contents (Elt F)),
    StableHlo.binary main_arg2 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v38 (broadcastInDim S1600000 ![] bcast_S_S1600000 : (⟨S_, .i32⟩ : BufTy).Contents (Elt F) → (⟨S1600000, .i32⟩ : BufTy).Contents (Elt F)),
    StableHlo.binary main_arg2 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_arg2 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)) ]

set_option maxRecDepth 8192 in
set_option maxHeartbeats 40000000 in
/-- Part 0 of @main is the run of its operations in order: the outlined functions unfolded at their calls, the
    sequencing reassociated. -/
theorem part_eq0 (c : Dev nD) : main_part0 (F := F) c = seq ops0 := by
  simp only [main_part0, fn_where.body, fn_var.body, fn_where_0.body, fn_where_1.body, fn_elu.body, fn_relu.body, fn_relu_2.body, fn_relu_3.body, seq, bind_assoc, pure_bind]
  rfl

/-- Every operation of part 0 reads and writes TensorCore buffers only. -/
theorem sub0 : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩

/-- No operation of part 0 allocates a buffer. -/
theorem fresh0 : (ops0 : List (HloOp τ sig (Elt F))).Forall fun op => op.fresh = ∅ := by
  simp only [List.Forall]; repeat' constructor

/-- The buffers part 0 writes, one per operation, in order. -/
abbrev written0 : List (Ref sig .tc) :=
  [ main_cst, main_v0, main_cst_0, main_v1, main_v2, main_v3, main_cst_1, main_v4, main_v5, main_cst_2, main_v6, main_v7, main_cst_3, main_v8, main_cst_4, main_v9, main_v10, main_v11, main_cst_5, main_v12, main_v13, main_cst_6, main_v14, main_v15, main_cst_7, main_v16, main_cst_8, main_v17, main_v18, main_v19, main_cst_9, main_v20, main_v21, main_cst_10, main_v22, main_v23, main_cst_11, main_v24, main_cst_12, main_v25, main_v26, main_v27, main_cst_13, main_v28, main_v29, main_cst_14, main_v30, main_v31, main_v32, main_v33, main_v34, main_v35, main_c, main_v36, main_v37, main_c_15, main_v38, main_v39, main_v40, main_v41 ]

/-- Each operation of part 0 writes its own result buffer and nothing else. -/
theorem writes0 : (ops0 : List (HloOp τ sig (Elt F))).Forall fun op => op.writes ⊆ (written0.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine1.lean ====
/-
  The reference program's host line, part 1: its 82 operations in order, with each outlined function (the
  variance, the ELU, the ReLUs and the selects they call) written out at its call over that call's buffers.  The part of
  @main IS that straight line (part_eq1); every operation touches TensorCore buffers only (sub1), none allocates
  (fresh1), and each writes its own result buffer, listed in written1 (writes1).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 1 of @main as a list of host operations. -/
abbrev ops1 : List (HloOp τ sig (Elt F)) :=
  [ StableHlo.binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v43 (broadcastInDim S100000x128 ![] bcast_S_S100000x128 : (⟨S_, .f32⟩ : BufTy).Contents (Elt F) → (⟨S100000x128, .f32⟩ : BufTy).Contents (Elt F)),
    StableHlo.unary main_arg3 main_v44 (broadcastInDim S1600000x1 ![0] bcast_S1600000_S1600000x1_0 : (⟨S1600000, .i32⟩ : BufTy).Contents (Elt F) → (⟨S1600000x1, .i32⟩ : BufTy).Contents (Elt F)),
    StableHlo.ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v15 main_v46 (broadcastInDim S100000x1 ![0] bcast_S100000_S100000x1_0 : (⟨S100000, .f32⟩ : BufTy).Contents (Elt F) → (⟨S100000x1, .f32⟩ : BufTy).Contents (Elt F)),
    StableHlo.unary main_v46 main_v47 (broadcastInDim S100000x128 ![0, 1] bcast_S100000x1_S100000x128_0_1 : (⟨S100000x1, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg7 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.unary main_v23 main_v52 (broadcastInDim S100000x1 ![0] bcast_S100000_S100000x1_0 : (⟨S100000, .f32⟩ : BufTy).Contents (Elt F) → (⟨S100000x1, .f32⟩ : BufTy).Contents (Elt F)),
    StableHlo.unary main_v52 main_v53 (broadcastInDim S100000x200 ![0, 1] bcast_S100000x1_S100000x200_0_1 : (⟨S100000x1, .f32⟩ : BufTy).Contents (Elt F) → (⟨S100000x200, .f32⟩ : BufTy).Contents (Elt F)),
    StableHlo.binary main_arg0 main_v53 main_v54 (mulf : (⟨S100000x200, .f32⟩ : BufTy).Contents (Elt F) → (⟨S100000x200, .f32⟩ : BufTy).Contents (Elt F) → (⟨S100000x200, .f32⟩ : BufTy).Contents (Elt F)),
    StableHlo.binary main_v54 main_arg8 main_v55 ((fun l r => Host.dotGeneral dot_S100000x200_S200x128_S100000x128_1_0_0_1_n_n none l r) : (⟨S100000x200, .f32⟩ : BufTy).Contents (Elt F) → (⟨S200x128, .f32⟩ : BufTy).Contents (Elt F) → (⟨S100000x128, .f32⟩ : BufTy).Contents (Elt F)),
    StableHlo.nullary main_c_17 (constantI S_ 32 0#32),
    StableHlo.unary main_c_17 main_v56 (broadcastInDim S1600000 ![] bcast_S_S1600000 : (⟨S_, .i32⟩ : BufTy).Contents (Elt F) → (⟨S1600000, .i32⟩ : BufTy).Contents (Elt F)),
    StableHlo.binary main_arg4 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v58 (broadcastInDim S1600000 ![] bcast_S_S1600000 : (⟨S_, .i32⟩ : BufTy).Contents (Elt F) → (⟨S1600000, .i32⟩ : BufTy).Contents (Elt F)),
    StableHlo.binary main_arg4 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_arg4 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_19 (constant S_ .f32 0x00000000#32),
    StableHlo.unary main_cst_19 main_v63 (broadcastInDim S100000x128 ![] bcast_S_S100000x128 : (⟨S_, .f32⟩ : BufTy).Contents (Elt F) → (⟨S100000x128, .f32⟩ : BufTy).Contents (Elt F)),
    StableHlo.unary main_arg5 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v31 main_v66 (broadcastInDim S100000x1 ![0] bcast_S100000_S100000x1_0 : (⟨S100000, .f32⟩ : BufTy).Contents (Elt F) → (⟨S100000x1, .f32⟩ : BufTy).Contents (Elt F)),
    StableHlo.unary main_v66 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v65 main_v67 main_v68 (mulf : (⟨S100000x128, .f32⟩ : BufTy).Contents (Elt F) → (⟨S100000x128, .f32⟩ : BufTy).Contents (Elt F) → (⟨S100000x128, .f32⟩ : BufTy).Contents (Elt F)),
    StableHlo.unary main_arg9 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_arg14 main_v72 ((extractStridedSlice S1x128 ![0, 0] · slices_S3x128_S1x128_0_0) : (⟨S3x128, .f32⟩ : BufTy).Contents (Elt F) → (⟨S1x128, .f32⟩ : BufTy).Contents (Elt F)),
    StableHlo.reshape main_v72 main_v73 rfl shapeCasts_S1x128_S128,
    StableHlo.unary main_arg15 main_v74 ((extractStridedSlice S1x128 ![0, 0] · slices_S3x128_S1x128_0_0) : (⟨S3x128, .f32⟩ : BufTy).Contents (Elt F) → (⟨S1x128, .f32⟩ : BufTy).Contents (Elt F)),
    StableHlo.reshape main_v74 main_v75 rfl shapeCasts_S1x128_S128,
    StableHlo.nullary main_cst_20 (constant S_ .f32 0x00000000#32),
    StableHlo.binary main_v51 main_cst_20 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v76 main_v77 (broadcastInDim S100000x1 ![0] bcast_S100000_S100000x1_0 : (⟨S100000, .f32⟩ : BufTy).Contents (Elt F) → (⟨S100000x1, .f32⟩ : BufTy).Contents (Elt F)),
    StableHlo.nullary main_cst_21 (constant S_ .f32 0x43000000#32),
    StableHlo.unary main_cst_21 main_v78 (broadcastInDim S100000x1 ![] bcast_S_S100000x1 : (⟨S_, .f32⟩ : BufTy).Contents (Elt F) → (⟨S100000x1, .f32⟩ : BufTy).Contents (Elt F)),
    StableHlo.binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    StableHlo.nullary main_c_22 (constantI S_ 32 0#32),
    StableHlo.TRef.nullary main_call0.cst (constant S_ .f32 0x00000000#32),
    StableHlo.TRef.binary (.of main_v51) main_call0.cst main_call0.v0 (fun x v => Host.reduceAdd x v reducesTo_S100000x128_S100000_d1 h_S_),
    StableHlo.TRef.unary main_call0.v0 main_call0.v1 (broadcastInDim S100000x1 ![0] bcast_S100000_S100000x1_0),
    StableHlo.TRef.nullary main_call0.cst_0 (constant S_ .f32 0x43000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x128 ![0, 1] bcast_S100000x1_S100000x128_0_1),
    StableHlo.TRef.binary (.of main_v51) main_call0.v4 main_call0.v5 subf,
    StableHlo.TRef.binary main_call0.v5 main_call0.v5 main_call0.v6 mulf,
    StableHlo.TRef.unary (.of main_c_22) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v79 main_v81 (broadcastInDim S100000x128 ![0, 1] bcast_S100000x1_S100000x128_0_1 : (⟨S100000x1, .f32⟩ : BufTy).Contents (Elt F) → (⟨S100000x128, .f32⟩ : BufTy).Contents (Elt F)),
    StableHlo.binary main_v51 main_v81 main_v82 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v83 (broadcastInDim S100000x1 ![] bcast_S_S100000x1 : (⟨S_, .f32⟩ : BufTy).Contents (Elt F) → (⟨S100000x1, .f32⟩ : BufTy).Contents (Elt F)),
    StableHlo.binary main_v80 main_v83 main_v84 (addf : (⟨S100000x1, .f32⟩ : BufTy).Contents (Elt F) → (⟨S100000x1, .f32⟩ : BufTy).Contents (Elt F) → (⟨S100000x1, .f32⟩ : BufTy).Contents (Elt F)),
    StableHlo.unary main_v84 main_v85 (Host.rsqrt : (⟨S100000x1, .f32⟩ : BufTy).Contents (Elt F) → (⟨S100000x1, .f32⟩ : BufTy).Contents (Elt F)),
    StableHlo.unary main_v85 main_v86 (broadcastInDim S100000x128 ![0, 1] bcast_S100000x1_S100000x128_0_1 : (⟨S100000x1, .f32⟩ : BufTy).Contents (Elt F) → (⟨S100000x128, .f32⟩ : BufTy).Contents (Elt F)),
    StableHlo.binary main_v82 main_v86 main_v87 (mulf : (⟨S100000x128, .f32⟩ : BufTy).Contents (Elt F) → (⟨S100000x128, .f32⟩ : BufTy).Contents (Elt F) → (⟨S100000x128, .f32⟩ : BufTy).Contents (Elt F)),
    StableHlo.unary main_v73 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_v75 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 40000000 in
/-- Part 1 of @main is the run of its operations in order: the outlined functions unfolded at their calls, the
    sequencing reassociated. -/
theorem part_eq1 (c : Dev nD) : main_part1 (F := F) c = seq ops1 := by
  simp only [main_part1, fn_where.body, fn_var.body, fn_where_0.body, fn_where_1.body, fn_elu.body, fn_relu.body, fn_relu_2.body, fn_relu_3.body, seq, bind_assoc, pure_bind]
  rfl

/-- Every operation of part 1 reads and writes TensorCore buffers only. -/
theorem sub1 : (ops1 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- No operation of part 1 allocates a buffer. -/
theorem fresh1 : (ops1 : List (HloOp τ sig (Elt F))).Forall fun op => op.fresh = ∅ := by
  simp only [List.Forall]; repeat' constructor

/-- The buffers part 1 writes, one per operation, in order. -/
abbrev written1 : List (Ref sig .tc) :=
  [ main_v42, main_cst_16, main_v43, main_v44, main_v45, main_v46, main_v47, main_v48, main_v49, main_v50, main_v51, main_v52, main_v53, main_v54, main_v55, main_c_17, main_v56, main_v57, main_c_18, main_v58, main_v59, main_v60, main_v61, main_v62, main_cst_19, main_v63, main_v64, main_v65, main_v66, main_v67, main_v68, main_v69, main_v70, main_v71, main_v72, main_v73, main_v74, main_v75, main_cst_20, main_v76, main_v77, main_cst_21, main_v78, main_v79, main_c_22, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.v12).ref, (main_call0.cst_3).ref, (main_call0.v13).ref, (main_call0.cst_4).ref, (main_call0.call0.v0).ref, (main_call0.call0.v1).ref, (main_call0.call0.v2).ref, main_v81, main_v82, main_cst_23, main_v83, main_v84, main_v85, main_v86, main_v87, main_v88, main_v89, main_v90, main_v91, main_v92, main_v93 ]

/-- Each operation of part 1 writes its own result buffer and nothing else. -/
theorem writes1 : (ops1 : List (HloOp τ sig (Elt F))).Forall fun op => op.writes ⊆ (written1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine2.lean ====
/-
  The reference program's host line, part 2: its 110 operations in order, with each outlined function (the
  variance, the ELU, the ReLUs and the selects they call) written out at its call over that call's buffers.  The part of
  @main IS that straight line (part_eq2); every operation touches TensorCore buffers only (sub2), none allocates
  (fresh2), and each writes its own result buffer, listed in written2 (writes2).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 2 of @main as a list of host operations. -/
abbrev ops2 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v93) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v93) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v93) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v93) main_call1.v7 main_call1.call1.v0 select,
    StableHlo.unary main_arg16 main_v95 ((extractStridedSlice S1x128 ![0, 0] · slices_S3x128_S1x128_0_0) : (⟨S3x128, .f32⟩ : BufTy).Contents (Elt F) → (⟨S1x128, .f32⟩ : BufTy).Contents (Elt F)),
    StableHlo.reshape main_v95 main_v96 rfl shapeCasts_S1x128_S128,
    StableHlo.unary main_arg17 main_v97 ((extractStridedSlice S1x128 ![0, 0] · slices_S3x128_S1x128_0_0) : (⟨S3x128, .f32⟩ : BufTy).Contents (Elt F) → (⟨S1x128, .f32⟩ : BufTy).Contents (Elt F)),
    StableHlo.reshape main_v97 main_v98 rfl shapeCasts_S1x128_S128,
    StableHlo.nullary main_cst_24 (constant S_ .f32 0x00000000#32),
    StableHlo.binary main_v71 main_cst_24 main_v99 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.nullary main_cst_25 (constant S_ .f32 0x43000000#32),
    StableHlo.unary main_cst_25 main_v101 (broadcastInDim S100000x1 ![] bcast_S_S100000x1 : (⟨S_, .f32⟩ : BufTy).Contents (Elt F) → (⟨S100000x1, .f32⟩ : BufTy).Contents (Elt F)),
    StableHlo.binary main_v100 main_v101 main_v102 (Host.divf : (⟨S100000x1, .f32⟩ : BufTy).Contents (Elt F) → (⟨S100000x1, .f32⟩ : BufTy).Contents (Elt F) → (⟨S100000x1, .f32⟩ : BufTy).Contents (Elt F)),
    StableHlo.nullary main_c_26 (constantI S_ 32 0#32),
    StableHlo.TRef.nullary main_call2.cst (constant S_ .f32 0x00000000#32),
    StableHlo.TRef.binary (.of main_v71) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (.of main_v71) main_call2.v4 main_call2.v5 subf,
    StableHlo.TRef.binary main_call2.v5 main_call2.v5 main_call2.v6 mulf,
    StableHlo.TRef.unary (.of main_c_26) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v102 main_v104 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v104 main_v105 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v106 (broadcastInDim S100000x1 ![] bcast_S_S100000x1 : (⟨S_, .f32⟩ : BufTy).Contents (Elt F) → (⟨S100000x1, .f32⟩ : BufTy).Contents (Elt F)),
    StableHlo.binary main_v103 main_v106 main_v107 (addf : (⟨S100000x1, .f32⟩ : BufTy).Contents (Elt F) → (⟨S100000x1, .f32⟩ : BufTy).Contents (Elt F) → (⟨S100000x1, .f32⟩ : BufTy).Contents (Elt F)),
    StableHlo.unary main_v107 main_v108 (Host.rsqrt : (⟨S100000x1, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v105 main_v109 main_v110 (mulf : (⟨S100000x128, .f32⟩ : BufTy).Contents (Elt F) → (⟨S100000x128, .f32⟩ : BufTy).Contents (Elt F) → (⟨S100000x128, .f32⟩ : BufTy).Contents (Elt F)),
    StableHlo.unary main_v96 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v112 main_v113 (mulf : (⟨S100000x128, .f32⟩ : BufTy).Contents (Elt F) → (⟨S100000x128, .f32⟩ : BufTy).Contents (Elt F) → (⟨S100000x128, .f32⟩ : BufTy).Contents (Elt F)),
    StableHlo.unary main_v98 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v116) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v116) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v116) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v116) main_call3.v7 main_call3.call1.v0 select,
    StableHlo.unary main_arg10 main_v118 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v118 main_v119 rfl shapeCasts_S1x128x128_S128x128,
    StableHlo.unary main_arg11 main_v120 ((extractStridedSlice S1x128 ![0, 0] · slices_S2x128_S1x128_0_0) : (⟨S2x128, .f32⟩ : BufTy).Contents (Elt F) → (⟨S1x128, .f32⟩ : BufTy).Contents (Elt F)),
    StableHlo.reshape main_v120 main_v121 rfl shapeCasts_S1x128_S128,
    StableHlo.unary main_arg12 main_v122 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v122 main_v123 rfl shapeCasts_S1x128x128_S128x128,
    StableHlo.unary main_arg13 main_v124 ((extractStridedSlice S1x128 ![0, 0] · slices_S2x128_S1x128_0_0) : (⟨S2x128, .f32⟩ : BufTy).Contents (Elt F) → (⟨S1x128, .f32⟩ : BufTy).Contents (Elt F)),
    StableHlo.reshape main_v124 main_v125 rfl shapeCasts_S1x128_S128,
    StableHlo.unary main_v7 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x128 ![0, 1] bcast_S100000x1_S100000x128_0_1 : (⟨S100000x1, .f32⟩ : BufTy).Contents (Elt F) → (⟨S100000x128, .f32⟩ : BufTy).Contents (Elt F)),
    StableHlo.binary main_v117 main_v127 main_v128 (mulf : (⟨S100000x128, .f32⟩ : BufTy).Contents (Elt F) → (⟨S100000x128, .f32⟩ : BufTy).Contents (Elt F) → (⟨S100000x128, .f32⟩ : BufTy).Contents (Elt F)),
    StableHlo.binary main_v128 main_v119 main_v129 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_28 (constantI S_ 32 0#32),
    StableHlo.unary main_c_28 main_v130 (broadcastInDim S1600000 ![] bcast_S_S1600000 : (⟨S_, .i32⟩ : BufTy).Contents (Elt F) → (⟨S1600000, .i32⟩ : BufTy).Contents (Elt F)),
    StableHlo.binary main_arg2 main_v130 main_v131 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v132 (broadcastInDim S1600000 ![] bcast_S_S1600000 : (⟨S_, .i32⟩ : BufTy).Contents (Elt F) → (⟨S1600000, .i32⟩ : BufTy).Contents (Elt F)),
    StableHlo.binary main_arg2 main_v132 main_v133 (addi : (⟨S1600000, .i32⟩ : BufTy).Contents (Elt F) → (⟨S1600000, .i32⟩ : BufTy).Contents (Elt F) → (⟨S1600000, .i32⟩ : BufTy).Contents (Elt F)),
    StableHlo.ternary main_v131 main_v133 main_arg2 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v134 main_v135 (broadcastInDim S1600000x1 ![0] bcast_S1600000_S1600000x1_0 : (⟨S1600000, .i32⟩ : BufTy).Contents (Elt F) → (⟨S1600000x1, .i32⟩ : BufTy).Contents (Elt F)),
    StableHlo.binary main_v129 main_v135 main_v136 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_30 (constant S_ .f32 0x00000000#32),
    StableHlo.unary main_cst_30 main_v137 (broadcastInDim S100000x128 ![] bcast_S_S100000x128 : (⟨S_, .f32⟩ : BufTy).Contents (Elt F) → (⟨S100000x128, .f32⟩ : BufTy).Contents (Elt F)),
    StableHlo.unary main_arg3 main_v138 (broadcastInDim S1600000x1 ![0] bcast_S1600000_S1600000x1_0 : (⟨S1600000, .i32⟩ : BufTy).Contents (Elt F) → (⟨S1600000x1, .i32⟩ : BufTy).Contents (Elt F)),
    StableHlo.ternary main_v137 main_v138 main_v136 main_v139 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v15 main_v140 (broadcastInDim S100000x1 ![0] bcast_S100000_S100000x1_0 : (⟨S100000, .f32⟩ : BufTy).Contents (Elt F) → (⟨S100000x1, .f32⟩ : BufTy).Contents (Elt F)),
    StableHlo.unary main_v140 main_v141 (broadcastInDim S100000x128 ![0, 1] bcast_S100000x1_S100000x128_0_1 : (⟨S100000x1, .f32⟩ : BufTy).Contents (Elt F) → (⟨S100000x128, .f32⟩ : BufTy).Contents (Elt F)),
    StableHlo.binary main_v139 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v121 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),
    StableHlo.unary main_v23 main_v146 (broadcastInDim S100000x1 ![0] bcast_S100000_S100000x1_0 : (⟨S100000, .f32⟩ : BufTy).Contents (Elt F) → (⟨S100000x1, .f32⟩ : BufTy).Contents (Elt F)) ]

set_option maxRecDepth 8192 in
set_option maxHeartbeats 40000000 in
/-- Part 2 of @main is the run of its operations in order: the outlined functions unfolded at their calls, the
    sequencing reassociated. -/
theorem part_eq2 (c : Dev nD) : main_part2 (F := F) c = seq ops2 := by
  simp only [main_part2, fn_where.body, fn_var.body, fn_where_0.body, fn_where_1.body, fn_elu.body, fn_relu.body, fn_relu_2.body, fn_relu_3.body, seq, bind_assoc, pure_bind]
  rfl

/-- Every operation of part 2 reads and writes TensorCore buffers only. -/
theorem sub2 : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub ..⟩

/-- No operation of part 2 allocates a buffer. -/
theorem fresh2 : (ops2 : List (HloOp τ sig (Elt F))).Forall fun op => op.fresh = ∅ := by
  simp only [List.Forall]; repeat' constructor

/-- The buffers part 2 writes, one per operation, in order. -/
abbrev written2 : List (Ref sig .tc) :=
  [ (main_call1.cst).ref, (main_call1.v0).ref, (main_call1.v1).ref, (main_call1.cst_0).ref, (main_call1.v2).ref, (main_call1.v3).ref, (main_call1.cst_1).ref, (main_call1.call0.v0).ref, (main_call1.call0.v1).ref, (main_call1.call0.v2).ref, (main_call1.v5).ref, (main_call1.cst_2).ref, (main_call1.v6).ref, (main_call1.v7).ref, (main_call1.call1.v0).ref, main_v95, main_v96, main_v97, main_v98, main_cst_24, main_v99, main_v100, main_cst_25, main_v101, main_v102, main_c_26, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.v12).ref, (main_call2.cst_3).ref, (main_call2.v13).ref, (main_call2.cst_4).ref, (main_call2.call0.v0).ref, (main_call2.call0.v1).ref, (main_call2.call0.v2).ref, main_v104, main_v105, main_cst_27, main_v106, main_v107, main_v108, main_v109, main_v110, main_v111, main_v112, main_v113, main_v114, main_v115, main_v116, (main_call3.cst).ref, (main_call3.v0).ref, (main_call3.v1).ref, (main_call3.cst_0).ref, (main_call3.v2).ref, (main_call3.v3).ref, (main_call3.cst_1).ref, (main_call3.call0.v0).ref, (main_call3.call0.v1).ref, (main_call3.call0.v2).ref, (main_call3.v5).ref, (main_call3.cst_2).ref, (main_call3.v6).ref, (main_call3.v7).ref, (main_call3.call1.v0).ref, main_v118, main_v119, main_v120, main_v121, main_v122, main_v123, main_v124, main_v125, main_v126, main_v127, main_v128, main_v129, main_c_28, main_v130, main_v131, main_c_29, main_v132, main_v133, main_v134, main_v135, main_v136, main_cst_30, main_v137, main_v138, main_v139, main_v140, main_v141, main_v142, main_v143, main_v144, main_v145, main_v146 ]

/-- Each operation of part 2 writes its own result buffer and nothing else. -/
theorem writes2 : (ops2 : List (HloOp τ sig (Elt F))).Forall fun op => op.writes ⊆ (written2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine3.lean ====
/-
  The reference program's host line, part 3: its 96 operations in order, with each outlined function (the
  variance, the ELU, the ReLUs and the selects they call) written out at its call over that call's buffers.  The part of
  @main IS that straight line (part_eq3); every operation touches TensorCore buffers only (sub3), none allocates
  (fresh3), and each writes its own result buffer, listed in written3 (writes3).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 3 of @main as a list of host operations. -/
abbrev ops3 : List (HloOp τ sig (Elt F)) :=
  [ StableHlo.unary main_v146 main_v147 (broadcastInDim S100000x128 ![0, 1] bcast_S100000x1_S100000x128_0_1 : (⟨S100000x1, .f32⟩ : BufTy).Contents (Elt F) → (⟨S100000x128, .f32⟩ : BufTy).Contents (Elt F)),
    StableHlo.binary main_v94 main_v147 main_v148 (mulf : (⟨S100000x128, .f32⟩ : BufTy).Contents (Elt F) → (⟨S100000x128, .f32⟩ : BufTy).Contents (Elt F) → (⟨S100000x128, .f32⟩ : BufTy).Contents (Elt F)),
    StableHlo.binary main_v148 main_v123 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_31 (constantI S_ 32 0#32),
    StableHlo.unary main_c_31 main_v150 (broadcastInDim S1600000 ![] bcast_S_S1600000 : (⟨S_, .i32⟩ : BufTy).Contents (Elt F) → (⟨S1600000, .i32⟩ : BufTy).Contents (Elt F)),
    StableHlo.binary main_arg4 main_v150 main_v151 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v152 (broadcastInDim S1600000 ![] bcast_S_S1600000 : (⟨S_, .i32⟩ : BufTy).Contents (Elt F) → (⟨S1600000, .i32⟩ : BufTy).Contents (Elt F)),
    StableHlo.binary main_arg4 main_v152 main_v153 (addi : (⟨S1600000, .i32⟩ : BufTy).Contents (Elt F) → (⟨S1600000, .i32⟩ : BufTy).Contents (Elt F) → (⟨S1600000, .i32⟩ : BufTy).Contents (Elt F)),
    StableHlo.ternary main_v151 main_v153 main_arg4 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v154 main_v155 (broadcastInDim S1600000x1 ![0] bcast_S1600000_S1600000x1_0 : (⟨S1600000, .i32⟩ : BufTy).Contents (Elt F) → (⟨S1600000x1, .i32⟩ : BufTy).Contents (Elt F)),
    StableHlo.binary main_v149 main_v155 main_v156 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_33 (constant S_ .f32 0x00000000#32),
    StableHlo.unary main_cst_33 main_v157 (broadcastInDim S100000x128 ![] bcast_S_S100000x128 : (⟨S_, .f32⟩ : BufTy).Contents (Elt F) → (⟨S100000x128, .f32⟩ : BufTy).Contents (Elt F)),
    StableHlo.unary main_arg5 main_v158 (broadcastInDim S1600000x1 ![0] bcast_S1600000_S1600000x1_0 : (⟨S1600000, .i32⟩ : BufTy).Contents (Elt F) → (⟨S1600000x1, .i32⟩ : BufTy).Contents (Elt F)),
    StableHlo.ternary main_v157 main_v158 main_v156 main_v159 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v31 main_v160 (broadcastInDim S100000x1 ![0] bcast_S100000_S100000x1_0 : (⟨S100000, .f32⟩ : BufTy).Contents (Elt F) → (⟨S100000x1, .f32⟩ : BufTy).Contents (Elt F)),
    StableHlo.unary main_v160 main_v161 (broadcastInDim S100000x128 ![0, 1] bcast_S100000x1_S100000x128_0_1 : (⟨S100000x1, .f32⟩ : BufTy).Contents (Elt F) → (⟨S100000x128, .f32⟩ : BufTy).Contents (Elt F)),
    StableHlo.binary main_v159 main_v161 main_v162 (mulf : (⟨S100000x128, .f32⟩ : BufTy).Contents (Elt F) → (⟨S100000x128, .f32⟩ : BufTy).Contents (Elt F) → (⟨S100000x128, .f32⟩ : BufTy).Contents (Elt F)),
    StableHlo.unary main_v125 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg14 main_v166 ((extractStridedSlice S1x128 ![1, 0] · slices_S3x128_S1x128_1_0) : (⟨S3x128, .f32⟩ : BufTy).Contents (Elt F) → (⟨S1x128, .f32⟩ : BufTy).Contents (Elt F)),
    StableHlo.reshape main_v166 main_v167 rfl shapeCasts_S1x128_S128,
    StableHlo.unary main_arg15 main_v168 ((extractStridedSlice S1x128 ![1, 0] · slices_S3x128_S1x128_1_0) : (⟨S3x128, .f32⟩ : BufTy).Contents (Elt F) → (⟨S1x128, .f32⟩ : BufTy).Contents (Elt F)),
    StableHlo.reshape main_v168 main_v169 rfl shapeCasts_S1x128_S128,
    StableHlo.nullary main_cst_34 (constant S_ .f32 0x00000000#32),
    StableHlo.binary main_v145 main_cst_34 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v170 main_v171 (broadcastInDim S100000x1 ![0] bcast_S100000_S100000x1_0 : (⟨S100000, .f32⟩ : BufTy).Contents (Elt F) → (⟨S100000x1, .f32⟩ : BufTy).Contents (Elt F)),
    StableHlo.nullary main_cst_35 (constant S_ .f32 0x43000000#32),
    StableHlo.unary main_cst_35 main_v172 (broadcastInDim S100000x1 ![] bcast_S_S100000x1 : (⟨S_, .f32⟩ : BufTy).Contents (Elt F) → (⟨S100000x1, .f32⟩ : BufTy).Contents (Elt F)),
    StableHlo.binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    StableHlo.nullary main_c_36 (constantI S_ 32 0#32),
    StableHlo.TRef.nullary main_call4.cst (constant S_ .f32 0x00000000#32),
    StableHlo.TRef.binary (.of main_v145) main_call4.cst main_call4.v0 (fun x v => Host.reduceAdd x v reducesTo_S100000x128_S100000_d1 h_S_),
    StableHlo.TRef.unary main_call4.v0 main_call4.v1 (broadcastInDim S100000x1 ![0] bcast_S100000_S100000x1_0),
    StableHlo.TRef.nullary main_call4.cst_0 (constant S_ .f32 0x43000000#32),
    StableHlo.TRef.unary main_call4.cst_0 main_call4.v2 (broadcastInDim S100000x1 ![] bcast_S_S100000x1),
    StableHlo.TRef.binary main_call4.v1 main_call4.v2 main_call4.v3 Host.divf,
    StableHlo.TRef.unary main_call4.v3 main_call4.v4 (broadcastInDim S100000x128 ![0, 1] bcast_S100000x1_S100000x128_0_1),
    StableHlo.TRef.binary (.of main_v145) main_call4.v4 main_call4.v5 subf,
    StableHlo.TRef.binary main_call4.v5 main_call4.v5 main_call4.v6 mulf,
    StableHlo.TRef.unary (.of main_c_36) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S100000_d1 h_S_),
    StableHlo.TRef.unary main_call4.v9 main_call4.v10 (broadcastInDim S100000x1 ![0] bcast_S100000_S100000x1_0),
    StableHlo.TRef.unary main_call4.v8 main_call4.v11 (broadcastInDim S100000x1 ![] bcast_S_S100000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S100000x1 ![] bcast_S_S100000x1),
    StableHlo.TRef.ternary main_call4.v13 main_call4.v12 main_call4.call0.v1 main_call4.call0.v2 (fun p a b => select (broadcastInDim S100000x1 ![] bcast_S_S100000x1 p) a b),
    StableHlo.unary main_v173 main_v175 (broadcastInDim S100000x128 ![0, 1] bcast_S100000x1_S100000x128_0_1 : (⟨S100000x1, .f32⟩ : BufTy).Contents (Elt F) → (⟨S100000x128, .f32⟩ : BufTy).Contents (Elt F)),
    StableHlo.binary main_v145 main_v175 main_v176 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v177 (broadcastInDim S100000x1 ![] bcast_S_S100000x1 : (⟨S_, .f32⟩ : BufTy).Contents (Elt F) → (⟨S100000x1, .f32⟩ : BufTy).Contents (Elt F)),
    StableHlo.binary main_v174 main_v177 main_v178 (addf : (⟨S100000x1, .f32⟩ : BufTy).Contents (Elt F) → (⟨S100000x1, .f32⟩ : BufTy).Contents (Elt F) → (⟨S100000x1, .f32⟩ : BufTy).Contents (Elt F)),
    StableHlo.unary main_v178 main_v179 (Host.rsqrt : (⟨S100000x1, .f32⟩ : BufTy).Contents (Elt F) → (⟨S100000x1, .f32⟩ : BufTy).Contents (Elt F)),
    StableHlo.unary main_v179 main_v180 (broadcastInDim S100000x128 ![0, 1] bcast_S100000x1_S100000x128_0_1 : (⟨S100000x1, .f32⟩ : BufTy).Contents (Elt F) → (⟨S100000x128, .f32⟩ : BufTy).Contents (Elt F)),
    StableHlo.binary main_v176 main_v180 main_v181 (mulf : (⟨S100000x128, .f32⟩ : BufTy).Contents (Elt F) → (⟨S100000x128, .f32⟩ : BufTy).Contents (Elt F) → (⟨S100000x128, .f32⟩ : BufTy).Contents (Elt F)),
    StableHlo.unary main_v167 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v181 main_v183 main_v184 (mulf : (⟨S100000x128, .f32⟩ : BufTy).Contents (Elt F) → (⟨S100000x128, .f32⟩ : BufTy).Contents (Elt F) → (⟨S100000x128, .f32⟩ : BufTy).Contents (Elt F)),
    StableHlo.unary main_v169 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v186 main_v187 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v187) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v187) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v187) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v187) main_call5.v7 main_call5.call1.v0 select,
    StableHlo.unary main_arg16 main_v189 ((extractStridedSlice S1x128 ![1, 0] · slices_S3x128_S1x128_1_0) : (⟨S3x128, .f32⟩ : BufTy).Contents (Elt F) → (⟨S1x128, .f32⟩ : BufTy).Contents (Elt F)),
    StableHlo.reshape main_v189 main_v190 rfl shapeCasts_S1x128_S128,
    StableHlo.unary main_arg17 main_v191 ((extractStridedSlice S1x128 ![1, 0] · slices_S3x128_S1x128_1_0) : (⟨S3x128, .f32⟩ : BufTy).Contents (Elt F) → (⟨S1x128, .f32⟩ : BufTy).Contents (Elt F)),
    StableHlo.reshape main_v191 main_v192 rfl shapeCasts_S1x128_S128,
    StableHlo.nullary main_cst_38 (constant S_ .f32 0x00000000#32),
    StableHlo.binary main_v165 main_cst_38 main_v193 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v193 main_v194 (broadcastInDim S100000x1 ![0] bcast_S100000_S100000x1_0 : (⟨S100000, .f32⟩ : BufTy).Contents (Elt F) → (⟨S100000x1, .f32⟩ : BufTy).Contents (Elt F)),
    StableHlo.nullary main_cst_39 (constant S_ .f32 0x43000000#32),
    StableHlo.unary main_cst_39 main_v195 (broadcastInDim S100000x1 ![] bcast_S_S100000x1 : (⟨S_, .f32⟩ : BufTy).Contents (Elt F) → (⟨S100000x1, .f32⟩ : BufTy).Contents (Elt F)),
    StableHlo.binary main_v194 main_v195 main_v196 (Host.divf : (⟨S100000x1, .f32⟩ : BufTy).Contents (Elt F) → (⟨S100000x1, .f32⟩ : BufTy).Contents (Elt F) → (⟨S100000x1, .f32⟩ : BufTy).Contents (Elt F)),
    StableHlo.nullary main_c_40 (constantI S_ 32 0#32) ]

set_option maxRecDepth 8192 in
set_option maxHeartbeats 40000000 in
/-- Part 3 of @main is the run of its operations in order: the outlined functions unfolded at their calls, the
    sequencing reassociated. -/
theorem part_eq3 (c : Dev nD) : main_part3 (F := F) c = seq ops3 := by
  simp only [main_part3, fn_where.body, fn_var.body, fn_where_0.body, fn_where_1.body, fn_elu.body, fn_relu.body, fn_relu_2.body, fn_relu_3.body, seq, bind_assoc, pure_bind]
  rfl

/-- Every operation of part 3 reads and writes TensorCore buffers only. -/
theorem sub3 : (ops3 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub ..⟩

/-- No operation of part 3 allocates a buffer. -/
theorem fresh3 : (ops3 : List (HloOp τ sig (Elt F))).Forall fun op => op.fresh = ∅ := by
  simp only [List.Forall]; repeat' constructor

/-- The buffers part 3 writes, one per operation, in order. -/
abbrev written3 : List (Ref sig .tc) :=
  [ main_v147, main_v148, main_v149, main_c_31, main_v150, main_v151, main_c_32, main_v152, main_v153, main_v154, main_v155, main_v156, main_cst_33, main_v157, main_v158, main_v159, main_v160, main_v161, main_v162, main_v163, main_v164, main_v165, main_v166, main_v167, main_v168, main_v169, main_cst_34, main_v170, main_v171, main_cst_35, main_v172, main_v173, main_c_36, (main_call4.cst).ref, (main_call4.v0).ref, (main_call4.v1).ref, (main_call4.cst_0).ref, (main_call4.v2).ref, (main_call4.v3).ref, (main_call4.v4).ref, (main_call4.v5).ref, (main_call4.v6).ref, (main_call4.v7).ref, (main_call4.cst_1).ref, (main_call4.v8).ref, (main_call4.cst_2).ref, (main_call4.v9).ref, (main_call4.v10).ref, (main_call4.v11).ref, (main_call4.v12).ref, (main_call4.cst_3).ref, (main_call4.v13).ref, (main_call4.cst_4).ref, (main_call4.call0.v0).ref, (main_call4.call0.v1).ref, (main_call4.call0.v2).ref, main_v175, main_v176, main_cst_37, main_v177, main_v178, main_v179, main_v180, main_v181, main_v182, main_v183, main_v184, main_v185, main_v186, main_v187, (main_call5.cst).ref, (main_call5.v0).ref, (main_call5.v1).ref, (main_call5.cst_0).ref, (main_call5.v2).ref, (main_call5.v3).ref, (main_call5.cst_1).ref, (main_call5.call0.v0).ref, (main_call5.call0.v1).ref, (main_call5.call0.v2).ref, (main_call5.v5).ref, (main_call5.cst_2).ref, (main_call5.v6).ref, (main_call5.v7).ref, (main_call5.call1.v0).ref, main_v189, main_v190, main_v191, main_v192, main_cst_38, main_v193, main_v194, main_cst_39, main_v195, main_v196, main_c_40 ]

/-- Each operation of part 3 writes its own result buffer and nothing else. -/
theorem writes3 : (ops3 : List (HloOp τ sig (Elt F))).Forall fun op => op.writes ⊆ (written3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine4.lean ====
/-
  The reference program's host line, part 4: its 96 operations in order, with each outlined function (the
  variance, the ELU, the ReLUs and the selects they call) written out at its call over that call's buffers.  The part of
  @main IS that straight line (part_eq4); every operation touches TensorCore buffers only (sub4), none allocates
  (fresh4), and each writes its own result buffer, listed in written4 (writes4).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 4 of @main as a list of host operations. -/
abbrev ops4 : List (HloOp τ sig (Elt F)) :=
  [ StableHlo.TRef.nullary main_call6.cst (constant S_ .f32 0x00000000#32),
    StableHlo.TRef.binary (.of main_v165) main_call6.cst main_call6.v0 (fun x v => Host.reduceAdd x v reducesTo_S100000x128_S100000_d1 h_S_),
    StableHlo.TRef.unary main_call6.v0 main_call6.v1 (broadcastInDim S100000x1 ![0] bcast_S100000_S100000x1_0),
    StableHlo.TRef.nullary main_call6.cst_0 (constant S_ .f32 0x43000000#32),
    StableHlo.TRef.unary main_call6.cst_0 main_call6.v2 (broadcastInDim S100000x1 ![] bcast_S_S100000x1),
    StableHlo.TRef.binary main_call6.v1 main_call6.v2 main_call6.v3 Host.divf,
    StableHlo.TRef.unary main_call6.v3 main_call6.v4 (broadcastInDim S100000x128 ![0, 1] bcast_S100000x1_S100000x128_0_1),
    StableHlo.TRef.binary (.of main_v165) main_call6.v4 main_call6.v5 subf,
    StableHlo.TRef.binary main_call6.v5 main_call6.v5 main_call6.v6 mulf,
    StableHlo.TRef.unary (.of main_c_40) main_call6.v7 (sitofp .f32),
    StableHlo.TRef.nullary main_call6.cst_1 (constant S_ .f32 0x43000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S100000_d1 h_S_),
    StableHlo.TRef.unary main_call6.v9 main_call6.v10 (broadcastInDim S100000x1 ![0] bcast_S100000_S100000x1_0),
    StableHlo.TRef.unary main_call6.v8 main_call6.v11 (broadcastInDim S100000x1 ![] bcast_S_S100000x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S100000x1 ![] bcast_S_S100000x1),
    StableHlo.TRef.ternary main_call6.v13 main_call6.v12 main_call6.call0.v1 main_call6.call0.v2 (fun p a b => select (broadcastInDim S100000x1 ![] bcast_S_S100000x1 p) a b),
    StableHlo.unary main_v196 main_v198 (broadcastInDim S100000x128 ![0, 1] bcast_S100000x1_S100000x128_0_1 : (⟨S100000x1, .f32⟩ : BufTy).Contents (Elt F) → (⟨S100000x128, .f32⟩ : BufTy).Contents (Elt F)),
    StableHlo.binary main_v165 main_v198 main_v199 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v200 (broadcastInDim S100000x1 ![] bcast_S_S100000x1 : (⟨S_, .f32⟩ : BufTy).Contents (Elt F) → (⟨S100000x1, .f32⟩ : BufTy).Contents (Elt F)),
    StableHlo.binary main_v197 main_v200 main_v201 (addf : (⟨S100000x1, .f32⟩ : BufTy).Contents (Elt F) → (⟨S100000x1, .f32⟩ : BufTy).Contents (Elt F) → (⟨S100000x1, .f32⟩ : BufTy).Contents (Elt F)),
    StableHlo.unary main_v201 main_v202 (Host.rsqrt : (⟨S100000x1, .f32⟩ : BufTy).Contents (Elt F) → (⟨S100000x1, .f32⟩ : BufTy).Contents (Elt F)),
    StableHlo.unary main_v202 main_v203 (broadcastInDim S100000x128 ![0, 1] bcast_S100000x1_S100000x128_0_1 : (⟨S100000x1, .f32⟩ : BufTy).Contents (Elt F) → (⟨S100000x128, .f32⟩ : BufTy).Contents (Elt F)),
    StableHlo.binary main_v199 main_v203 main_v204 (mulf : (⟨S100000x128, .f32⟩ : BufTy).Contents (Elt F) → (⟨S100000x128, .f32⟩ : BufTy).Contents (Elt F) → (⟨S100000x128, .f32⟩ : BufTy).Contents (Elt F)),
    StableHlo.unary main_v190 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S100000x128 ![0, 1] bcast_S1x128_S100000x128_0_1 : (⟨S1x128, .f32⟩ : BufTy).Contents (Elt F) → (⟨S100000x128, .f32⟩ : BufTy).Contents (Elt F)),
    StableHlo.binary main_v204 main_v206 main_v207 (mulf : (⟨S100000x128, .f32⟩ : BufTy).Contents (Elt F) → (⟨S100000x128, .f32⟩ : BufTy).Contents (Elt F) → (⟨S100000x128, .f32⟩ : BufTy).Contents (Elt F)),
    StableHlo.unary main_v192 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v209 main_v210 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v210) main_call7.v0 main_call7.v1 (cmpf .ogt),
    StableHlo.TRef.nullary main_call7.cst_0 (constant S_ .f32 0x00000000#32),
    StableHlo.TRef.unary main_call7.cst_0 main_call7.v2 (broadcastInDim S100000x128 ![] bcast_S_S100000x128),
    StableHlo.TRef.binary (.of main_v210) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x128 ![] bcast_S_S100000x128),
    StableHlo.TRef.ternary main_call7.v3 main_call7.call0.v1 (.of main_v210) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x128 ![] bcast_S_S100000x128),
    StableHlo.TRef.binary main_call7.v6 main_call7.v5 main_call7.v7 mulf,
    StableHlo.TRef.ternary main_call7.v1 (.of main_v210) main_call7.v7 main_call7.call1.v0 select,
    StableHlo.unary main_arg10 main_v212 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v212 main_v213 rfl shapeCasts_S1x128x128_S128x128,
    StableHlo.unary main_arg11 main_v214 ((extractStridedSlice S1x128 ![1, 0] · slices_S2x128_S1x128_1_0) : (⟨S2x128, .f32⟩ : BufTy).Contents (Elt F) → (⟨S1x128, .f32⟩ : BufTy).Contents (Elt F)),
    StableHlo.reshape main_v214 main_v215 rfl shapeCasts_S1x128_S128,
    StableHlo.unary main_arg12 main_v216 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v216 main_v217 rfl shapeCasts_S1x128x128_S128x128,
    StableHlo.unary main_arg13 main_v218 ((extractStridedSlice S1x128 ![1, 0] · slices_S2x128_S1x128_1_0) : (⟨S2x128, .f32⟩ : BufTy).Contents (Elt F) → (⟨S1x128, .f32⟩ : BufTy).Contents (Elt F)),
    StableHlo.reshape main_v218 main_v219 rfl shapeCasts_S1x128_S128,
    StableHlo.unary main_v7 main_v220 (broadcastInDim S100000x1 ![0] bcast_S100000_S100000x1_0 : (⟨S100000, .f32⟩ : BufTy).Contents (Elt F) → (⟨S100000x1, .f32⟩ : BufTy).Contents (Elt F)),
    StableHlo.unary main_v220 main_v221 (broadcastInDim S100000x128 ![0, 1] bcast_S100000x1_S100000x128_0_1 : (⟨S100000x1, .f32⟩ : BufTy).Contents (Elt F) → (⟨S100000x128, .f32⟩ : BufTy).Contents (Elt F)),
    StableHlo.binary main_v211 main_v221 main_v222 (mulf : (⟨S100000x128, .f32⟩ : BufTy).Contents (Elt F) → (⟨S100000x128, .f32⟩ : BufTy).Contents (Elt F) → (⟨S100000x128, .f32⟩ : BufTy).Contents (Elt F)),
    StableHlo.binary main_v222 main_v213 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_42 (constantI S_ 32 0#32),
    StableHlo.unary main_c_42 main_v224 (broadcastInDim S1600000 ![] bcast_S_S1600000 : (⟨S_, .i32⟩ : BufTy).Contents (Elt F) → (⟨S1600000, .i32⟩ : BufTy).Contents (Elt F)),
    StableHlo.binary main_arg2 main_v224 main_v225 (cmpi .slt : (⟨S1600000, .i32⟩ : BufTy).Contents (Elt F) → (⟨S1600000, .i32⟩ : BufTy).Contents (Elt F) → (⟨S1600000, .i1⟩ : BufTy).Contents (Elt F)),
    StableHlo.nullary main_c_43 (constantI S_ 32 100000#32),
    StableHlo.unary main_c_43 main_v226 (broadcastInDim S1600000 ![] bcast_S_S1600000 : (⟨S_, .i32⟩ : BufTy).Contents (Elt F) → (⟨S1600000, .i32⟩ : BufTy).Contents (Elt F)),
    StableHlo.binary main_arg2 main_v226 main_v227 (addi : (⟨S1600000, .i32⟩ : BufTy).Contents (Elt F) → (⟨S1600000, .i32⟩ : BufTy).Contents (Elt F) → (⟨S1600000, .i32⟩ : BufTy).Contents (Elt F)),
    StableHlo.ternary main_v225 main_v227 main_arg2 main_v228 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v228 main_v229 (broadcastInDim S1600000x1 ![0] bcast_S1600000_S1600000x1_0 : (⟨S1600000, .i32⟩ : BufTy).Contents (Elt F) → (⟨S1600000x1, .i32⟩ : BufTy).Contents (Elt F)),
    StableHlo.binary main_v223 main_v229 main_v230 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_44 (constant S_ .f32 0x00000000#32),
    StableHlo.unary main_cst_44 main_v231 (broadcastInDim S100000x128 ![] bcast_S_S100000x128 : (⟨S_, .f32⟩ : BufTy).Contents (Elt F) → (⟨S100000x128, .f32⟩ : BufTy).Contents (Elt F)),
    StableHlo.unary main_arg3 main_v232 (broadcastInDim S1600000x1 ![0] bcast_S1600000_S1600000x1_0 : (⟨S1600000, .i32⟩ : BufTy).Contents (Elt F) → (⟨S1600000x1, .i32⟩ : BufTy).Contents (Elt F)),
    StableHlo.ternary main_v231 main_v232 main_v230 main_v233 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v15 main_v234 (broadcastInDim S100000x1 ![0] bcast_S100000_S100000x1_0 : (⟨S100000, .f32⟩ : BufTy).Contents (Elt F) → (⟨S100000x1, .f32⟩ : BufTy).Contents (Elt F)),
    StableHlo.unary main_v234 main_v235 (broadcastInDim S100000x128 ![0, 1] bcast_S100000x1_S100000x128_0_1 : (⟨S100000x1, .f32⟩ : BufTy).Contents (Elt F) → (⟨S100000x128, .f32⟩ : BufTy).Contents (Elt F)),
    StableHlo.binary main_v233 main_v235 main_v236 (mulf : (⟨S100000x128, .f32⟩ : BufTy).Contents (Elt F) → (⟨S100000x128, .f32⟩ : BufTy).Contents (Elt F) → (⟨S100000x128, .f32⟩ : BufTy).Contents (Elt F)),
    StableHlo.unary main_v215 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v238 main_v239 (addf : (⟨S100000x128, .f32⟩ : BufTy).Contents (Elt F) → (⟨S100000x128, .f32⟩ : BufTy).Contents (Elt F) → (⟨S100000x128, .f32⟩ : BufTy).Contents (Elt F)),
    StableHlo.unary main_v23 main_v240 (broadcastInDim S100000x1 ![0] bcast_S100000_S100000x1_0 : (⟨S100000, .f32⟩ : BufTy).Contents (Elt F) → (⟨S100000x1, .f32⟩ : BufTy).Contents (Elt F)),
    StableHlo.unary main_v240 main_v241 (broadcastInDim S100000x128 ![0, 1] bcast_S100000x1_S100000x128_0_1 : (⟨S100000x1, .f32⟩ : BufTy).Contents (Elt F) → (⟨S100000x128, .f32⟩ : BufTy).Contents (Elt F)),
    StableHlo.binary main_v188 main_v241 main_v242 (mulf : (⟨S100000x128, .f32⟩ : BufTy).Contents (Elt F) → (⟨S100000x128, .f32⟩ : BufTy).Contents (Elt F) → (⟨S100000x128, .f32⟩ : BufTy).Contents (Elt F)),
    StableHlo.binary main_v242 main_v217 main_v243 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_45 (constantI S_ 32 0#32),
    StableHlo.unary main_c_45 main_v244 (broadcastInDim S1600000 ![] bcast_S_S1600000 : (⟨S_, .i32⟩ : BufTy).Contents (Elt F) → (⟨S1600000, .i32⟩ : BufTy).Contents (Elt F)),
    StableHlo.binary main_arg4 main_v244 main_v245 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v246 (broadcastInDim S1600000 ![] bcast_S_S1600000 : (⟨S_, .i32⟩ : BufTy).Contents (Elt F) → (⟨S1600000, .i32⟩ : BufTy).Contents (Elt F)),
    StableHlo.binary main_arg4 main_v246 main_v247 (addi : (⟨S1600000, .i32⟩ : BufTy).Contents (Elt F) → (⟨S1600000, .i32⟩ : BufTy).Contents (Elt F) → (⟨S1600000, .i32⟩ : BufTy).Contents (Elt F)),
    StableHlo.ternary main_v245 main_v247 main_arg4 main_v248 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v248 main_v249 (broadcastInDim S1600000x1 ![0] bcast_S1600000_S1600000x1_0 : (⟨S1600000, .i32⟩ : BufTy).Contents (Elt F) → (⟨S1600000x1, .i32⟩ : BufTy).Contents (Elt F)),
    StableHlo.binary main_v243 main_v249 main_v250 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

set_option maxRecDepth 8192 in
set_option maxHeartbeats 40000000 in
/-- Part 4 of @main is the run of its operations in order: the outlined functions unfolded at their calls, the
    sequencing reassociated. -/
theorem part_eq4 (c : Dev nD) : main_part4 (F := F) c = seq ops4 := by
  simp only [main_part4, fn_where.body, fn_var.body, fn_where_0.body, fn_where_1.body, fn_elu.body, fn_relu.body, fn_relu_2.body, fn_relu_3.body, seq, bind_assoc, pure_bind]
  rfl

/-- Every operation of part 4 reads and writes TensorCore buffers only. -/
theorem sub4 : (ops4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- No operation of part 4 allocates a buffer. -/
theorem fresh4 : (ops4 : List (HloOp τ sig (Elt F))).Forall fun op => op.fresh = ∅ := by
  simp only [List.Forall]; repeat' constructor

/-- The buffers part 4 writes, one per operation, in order. -/
abbrev written4 : List (Ref sig .tc) :=
  [ (main_call6.cst).ref, (main_call6.v0).ref, (main_call6.v1).ref, (main_call6.cst_0).ref, (main_call6.v2).ref, (main_call6.v3).ref, (main_call6.v4).ref, (main_call6.v5).ref, (main_call6.v6).ref, (main_call6.v7).ref, (main_call6.cst_1).ref, (main_call6.v8).ref, (main_call6.cst_2).ref, (main_call6.v9).ref, (main_call6.v10).ref, (main_call6.v11).ref, (main_call6.v12).ref, (main_call6.cst_3).ref, (main_call6.v13).ref, (main_call6.cst_4).ref, (main_call6.call0.v0).ref, (main_call6.call0.v1).ref, (main_call6.call0.v2).ref, main_v198, main_v199, main_cst_41, main_v200, main_v201, main_v202, main_v203, main_v204, main_v205, main_v206, main_v207, main_v208, main_v209, main_v210, (main_call7.cst).ref, (main_call7.v0).ref, (main_call7.v1).ref, (main_call7.cst_0).ref, (main_call7.v2).ref, (main_call7.v3).ref, (main_call7.cst_1).ref, (main_call7.call0.v0).ref, (main_call7.call0.v1).ref, (main_call7.call0.v2).ref, (main_call7.v5).ref, (main_call7.cst_2).ref, (main_call7.v6).ref, (main_call7.v7).ref, (main_call7.call1.v0).ref, main_v212, main_v213, main_v214, main_v215, main_v216, main_v217, main_v218, main_v219, main_v220, main_v221, main_v222, main_v223, main_c_42, main_v224, main_v225, main_c_43, main_v226, main_v227, main_v228, main_v229, main_v230, main_cst_44, main_v231, main_v232, main_v233, main_v234, main_v235, main_v236, main_v237, main_v238, main_v239, main_v240, main_v241, main_v242, main_v243, main_c_45, main_v244, main_v245, main_c_46, main_v246, main_v247, main_v248, main_v249, main_v250 ]

/-- Each operation of part 4 writes its own result buffer and nothing else. -/
theorem writes4 : (ops4 : List (HloOp τ sig (Elt F))).Forall fun op => op.writes ⊆ (written4.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine5.lean ====
/-
  The reference program's host line, part 5: its 118 operations in order, with each outlined function (the
  variance, the ELU, the ReLUs and the selects they call) written out at its call over that call's buffers.  The part of
  @main IS that straight line (part_eq5); every operation touches TensorCore buffers only (sub5), none allocates
  (fresh5), and each writes its own result buffer, listed in written5 (writes5).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 5 of @main as a list of host operations. -/
abbrev ops5 : List (HloOp τ sig (Elt F)) :=
  [ StableHlo.nullary main_cst_47 (constant S_ .f32 0x00000000#32),
    StableHlo.unary main_cst_47 main_v251 (broadcastInDim S100000x128 ![] bcast_S_S100000x128 : (⟨S_, .f32⟩ : BufTy).Contents (Elt F) → (⟨S100000x128, .f32⟩ : BufTy).Contents (Elt F)),
    StableHlo.unary main_arg5 main_v252 (broadcastInDim S1600000x1 ![0] bcast_S1600000_S1600000x1_0 : (⟨S1600000, .i32⟩ : BufTy).Contents (Elt F) → (⟨S1600000x1, .i32⟩ : BufTy).Contents (Elt F)),
    StableHlo.ternary main_v251 main_v252 main_v250 main_v253 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v31 main_v254 (broadcastInDim S100000x1 ![0] bcast_S100000_S100000x1_0 : (⟨S100000, .f32⟩ : BufTy).Contents (Elt F) → (⟨S100000x1, .f32⟩ : BufTy).Contents (Elt F)),
    StableHlo.unary main_v254 main_v255 (broadcastInDim S100000x128 ![0, 1] bcast_S100000x1_S100000x128_0_1 : (⟨S100000x1, .f32⟩ : BufTy).Contents (Elt F) → (⟨S100000x128, .f32⟩ : BufTy).Contents (Elt F)),
    StableHlo.binary main_v253 main_v255 main_v256 (mulf : (⟨S100000x128, .f32⟩ : BufTy).Contents (Elt F) → (⟨S100000x128, .f32⟩ : BufTy).Contents (Elt F) → (⟨S100000x128, .f32⟩ : BufTy).Contents (Elt F)),
    StableHlo.unary main_v219 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S100000x128 ![0, 1] bcast_S1x128_S100000x128_0_1 : (⟨S1x128, .f32⟩ : BufTy).Contents (Elt F) → (⟨S100000x128, .f32⟩ : BufTy).Contents (Elt F)),
    StableHlo.binary main_v256 main_v258 main_v259 (addf : (⟨S100000x128, .f32⟩ : BufTy).Contents (Elt F) → (⟨S100000x128, .f32⟩ : BufTy).Contents (Elt F) → (⟨S100000x128, .f32⟩ : BufTy).Contents (Elt F)),
    StableHlo.unary main_arg14 main_v260 ((extractStridedSlice S1x128 ![2, 0] · slices_S3x128_S1x128_2_0) : (⟨S3x128, .f32⟩ : BufTy).Contents (Elt F) → (⟨S1x128, .f32⟩ : BufTy).Contents (Elt F)),
    StableHlo.reshape main_v260 main_v261 rfl shapeCasts_S1x128_S128,
    StableHlo.unary main_arg15 main_v262 ((extractStridedSlice S1x128 ![2, 0] · slices_S3x128_S1x128_2_0) : (⟨S3x128, .f32⟩ : BufTy).Contents (Elt F) → (⟨S1x128, .f32⟩ : BufTy).Contents (Elt F)),
    StableHlo.reshape main_v262 main_v263 rfl shapeCasts_S1x128_S128,
    StableHlo.nullary main_cst_48 (constant S_ .f32 0x00000000#32),
    StableHlo.binary main_v239 main_cst_48 main_v264 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v264 main_v265 (broadcastInDim S100000x1 ![0] bcast_S100000_S100000x1_0 : (⟨S100000, .f32⟩ : BufTy).Contents (Elt F) → (⟨S100000x1, .f32⟩ : BufTy).Contents (Elt F)),
    StableHlo.nullary main_cst_49 (constant S_ .f32 0x43000000#32),
    StableHlo.unary main_cst_49 main_v266 (broadcastInDim S100000x1 ![] bcast_S_S100000x1 : (⟨S_, .f32⟩ : BufTy).Contents (Elt F) → (⟨S100000x1, .f32⟩ : BufTy).Contents (Elt F)),
    StableHlo.binary main_v265 main_v266 main_v267 (Host.divf : (⟨S100000x1, .f32⟩ : BufTy).Contents (Elt F) → (⟨S100000x1, .f32⟩ : BufTy).Contents (Elt F) → (⟨S100000x1, .f32⟩ : BufTy).Contents (Elt F)),
    StableHlo.nullary main_c_50 (constantI S_ 32 0#32),
    StableHlo.TRef.nullary main_call8.cst (constant S_ .f32 0x00000000#32),
    StableHlo.TRef.binary (.of main_v239) main_call8.cst main_call8.v0 (fun x v => Host.reduceAdd x v reducesTo_S100000x128_S100000_d1 h_S_),
    StableHlo.TRef.unary main_call8.v0 main_call8.v1 (broadcastInDim S100000x1 ![0] bcast_S100000_S100000x1_0),
    StableHlo.TRef.nullary main_call8.cst_0 (constant S_ .f32 0x43000000#32),
    StableHlo.TRef.unary main_call8.cst_0 main_call8.v2 (broadcastInDim S100000x1 ![] bcast_S_S100000x1),
    StableHlo.TRef.binary main_call8.v1 main_call8.v2 main_call8.v3 Host.divf,
    StableHlo.TRef.unary main_call8.v3 main_call8.v4 (broadcastInDim S100000x128 ![0, 1] bcast_S100000x1_S100000x128_0_1),
    StableHlo.TRef.binary (.of main_v239) main_call8.v4 main_call8.v5 subf,
    StableHlo.TRef.binary main_call8.v5 main_call8.v5 main_call8.v6 mulf,
    StableHlo.TRef.unary (.of main_c_50) main_call8.v7 (sitofp .f32),
    StableHlo.TRef.nullary main_call8.cst_1 (constant S_ .f32 0x43000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S100000_d1 h_S_),
    StableHlo.TRef.unary main_call8.v9 main_call8.v10 (broadcastInDim S100000x1 ![0] bcast_S100000_S100000x1_0),
    StableHlo.TRef.unary main_call8.v8 main_call8.v11 (broadcastInDim S100000x1 ![] bcast_S_S100000x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S100000x1 ![] bcast_S_S100000x1),
    StableHlo.TRef.ternary main_call8.v13 main_call8.v12 main_call8.call0.v1 main_call8.call0.v2 (fun p a b => select (broadcastInDim S100000x1 ![] bcast_S_S100000x1 p) a b),
    StableHlo.unary main_v267 main_v269 (broadcastInDim S100000x128 ![0, 1] bcast_S100000x1_S100000x128_0_1 : (⟨S100000x1, .f32⟩ : BufTy).Contents (Elt F) → (⟨S100000x128, .f32⟩ : BufTy).Contents (Elt F)),
    StableHlo.binary main_v239 main_v269 main_v270 (subf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x3727C5AC#32),
    StableHlo.unary main_cst_51 main_v271 (broadcastInDim S100000x1 ![] bcast_S_S100000x1 : (⟨S_, .f32⟩ : BufTy).Contents (Elt F) → (⟨S100000x1, .f32⟩ : BufTy).Contents (Elt F)),
    StableHlo.binary main_v268 main_v271 main_v272 (addf : (⟨S100000x1, .f32⟩ : BufTy).Contents (Elt F) → (⟨S100000x1, .f32⟩ : BufTy).Contents (Elt F) → (⟨S100000x1, .f32⟩ : BufTy).Contents (Elt F)),
    StableHlo.unary main_v272 main_v273 (Host.rsqrt : (⟨S100000x1, .f32⟩ : BufTy).Contents (Elt F) → (⟨S100000x1, .f32⟩ : BufTy).Contents (Elt F)),
    StableHlo.unary main_v273 main_v274 (broadcastInDim S100000x128 ![0, 1] bcast_S100000x1_S100000x128_0_1 : (⟨S100000x1, .f32⟩ : BufTy).Contents (Elt F) → (⟨S100000x128, .f32⟩ : BufTy).Contents (Elt F)),
    StableHlo.binary main_v270 main_v274 main_v275 (mulf : (⟨S100000x128, .f32⟩ : BufTy).Contents (Elt F) → (⟨S100000x128, .f32⟩ : BufTy).Contents (Elt F) → (⟨S100000x128, .f32⟩ : BufTy).Contents (Elt F)),
    StableHlo.unary main_v261 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S100000x128 ![0, 1] bcast_S1x128_S100000x128_0_1 : (⟨S1x128, .f32⟩ : BufTy).Contents (Elt F) → (⟨S100000x128, .f32⟩ : BufTy).Contents (Elt F)),
    StableHlo.binary main_v275 main_v277 main_v278 (mulf : (⟨S100000x128, .f32⟩ : BufTy).Contents (Elt F) → (⟨S100000x128, .f32⟩ : BufTy).Contents (Elt F) → (⟨S100000x128, .f32⟩ : BufTy).Contents (Elt F)),
    StableHlo.unary main_v263 main_v279 (broadcastInDim S1x128 ![1] bcast_S128_S1x128_1 : (⟨S128, .f32⟩ : BufTy).Contents (Elt F) → (⟨S1x128, .f32⟩ : BufTy).Contents (Elt F)),
    StableHlo.unary main_v279 main_v280 (broadcastInDim S100000x128 ![0, 1] bcast_S1x128_S100000x128_0_1 : (⟨S1x128, .f32⟩ : BufTy).Contents (Elt F) → (⟨S100000x128, .f32⟩ : BufTy).Contents (Elt F)),
    StableHlo.binary main_v278 main_v280 main_v281 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v281) main_call9.v0 main_call9.v1 (cmpf .ogt),
    StableHlo.TRef.nullary main_call9.cst_0 (constant S_ .f32 0x00000000#32),
    StableHlo.TRef.unary main_call9.cst_0 main_call9.v2 (broadcastInDim S100000x128 ![] bcast_S_S100000x128),
    StableHlo.TRef.binary (.of main_v281) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x128 ![] bcast_S_S100000x128),
    StableHlo.TRef.ternary main_call9.v3 main_call9.call0.v1 (.of main_v281) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x128 ![] bcast_S_S100000x128),
    StableHlo.TRef.binary main_call9.v6 main_call9.v5 main_call9.v7 mulf,
    StableHlo.TRef.ternary main_call9.v1 (.of main_v281) main_call9.v7 main_call9.call1.v0 select,
    StableHlo.unary main_arg16 main_v283 ((extractStridedSlice S1x128 ![2, 0] · slices_S3x128_S1x128_2_0) : (⟨S3x128, .f32⟩ : BufTy).Contents (Elt F) → (⟨S1x128, .f32⟩ : BufTy).Contents (Elt F)),
    StableHlo.reshape main_v283 main_v284 rfl shapeCasts_S1x128_S128,
    StableHlo.unary main_arg17 main_v285 ((extractStridedSlice S1x128 ![2, 0] · slices_S3x128_S1x128_2_0) : (⟨S3x128, .f32⟩ : BufTy).Contents (Elt F) → (⟨S1x128, .f32⟩ : BufTy).Contents (Elt F)),
    StableHlo.reshape main_v285 main_v286 rfl shapeCasts_S1x128_S128,
    StableHlo.nullary main_cst_52 (constant S_ .f32 0x00000000#32),
    StableHlo.binary main_v259 main_cst_52 main_v287 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v287 main_v288 (broadcastInDim S100000x1 ![0] bcast_S100000_S100000x1_0 : (⟨S100000, .f32⟩ : BufTy).Contents (Elt F) → (⟨S100000x1, .f32⟩ : BufTy).Contents (Elt F)),
    StableHlo.nullary main_cst_53 (constant S_ .f32 0x43000000#32),
    StableHlo.unary main_cst_53 main_v289 (broadcastInDim S100000x1 ![] bcast_S_S100000x1 : (⟨S_, .f32⟩ : BufTy).Contents (Elt F) → (⟨S100000x1, .f32⟩ : BufTy).Contents (Elt F)),
    StableHlo.binary main_v288 main_v289 main_v290 (Host.divf : (⟨S100000x1, .f32⟩ : BufTy).Contents (Elt F) → (⟨S100000x1, .f32⟩ : BufTy).Contents (Elt F) → (⟨S100000x1, .f32⟩ : BufTy).Contents (Elt F)),
    StableHlo.nullary main_c_54 (constantI S_ 32 0#32),
    StableHlo.TRef.nullary main_call10.cst (constant S_ .f32 0x00000000#32),
    StableHlo.TRef.binary (.of main_v259) main_call10.cst main_call10.v0 (fun x v => Host.reduceAdd x v reducesTo_S100000x128_S100000_d1 h_S_),
    StableHlo.TRef.unary main_call10.v0 main_call10.v1 (broadcastInDim S100000x1 ![0] bcast_S100000_S100000x1_0),
    StableHlo.TRef.nullary main_call10.cst_0 (constant S_ .f32 0x43000000#32),
    StableHlo.TRef.unary main_call10.cst_0 main_call10.v2 (broadcastInDim S100000x1 ![] bcast_S_S100000x1),
    StableHlo.TRef.binary main_call10.v1 main_call10.v2 main_call10.v3 Host.divf,
    StableHlo.TRef.unary main_call10.v3 main_call10.v4 (broadcastInDim S100000x128 ![0, 1] bcast_S100000x1_S100000x128_0_1),
    StableHlo.TRef.binary (.of main_v259) main_call10.v4 main_call10.v5 subf,
    StableHlo.TRef.binary main_call10.v5 main_call10.v5 main_call10.v6 mulf,
    StableHlo.TRef.unary (.of main_c_54) main_call10.v7 (sitofp .f32),
    StableHlo.TRef.nullary main_call10.cst_1 (constant S_ .f32 0x43000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S100000_d1 h_S_),
    StableHlo.TRef.unary main_call10.v9 main_call10.v10 (broadcastInDim S100000x1 ![0] bcast_S100000_S100000x1_0),
    StableHlo.TRef.unary main_call10.v8 main_call10.v11 (broadcastInDim S100000x1 ![] bcast_S_S100000x1),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S100000x1 ![] bcast_S_S100000x1),
    StableHlo.TRef.ternary main_call10.v13 main_call10.v12 main_call10.call0.v1 main_call10.call0.v2 (fun p a b => select (broadcastInDim S100000x1 ![] bcast_S_S100000x1 p) a b),
    StableHlo.unary main_v290 main_v292 (broadcastInDim S100000x128 ![0, 1] bcast_S100000x1_S100000x128_0_1 : (⟨S100000x1, .f32⟩ : BufTy).Contents (Elt F) → (⟨S100000x128, .f32⟩ : BufTy).Contents (Elt F)),
    StableHlo.binary main_v259 main_v292 main_v293 (subf : (⟨S100000x128, .f32⟩ : BufTy).Contents (Elt F) → (⟨S100000x128, .f32⟩ : BufTy).Contents (Elt F) → (⟨S100000x128, .f32⟩ : BufTy).Contents (Elt F)),
    StableHlo.nullary main_cst_55 (constant S_ .f32 0x3727C5AC#32),
    StableHlo.unary main_cst_55 main_v294 (broadcastInDim S100000x1 ![] bcast_S_S100000x1 : (⟨S_, .f32⟩ : BufTy).Contents (Elt F) → (⟨S100000x1, .f32⟩ : BufTy).Contents (Elt F)),
    StableHlo.binary main_v291 main_v294 main_v295 (addf : (⟨S100000x1, .f32⟩ : BufTy).Contents (Elt F) → (⟨S100000x1, .f32⟩ : BufTy).Contents (Elt F) → (⟨S100000x1, .f32⟩ : BufTy).Contents (Elt F)),
    StableHlo.unary main_v295 main_v296 (Host.rsqrt : (⟨S100000x1, .f32⟩ : BufTy).Contents (Elt F) → (⟨S100000x1, .f32⟩ : BufTy).Contents (Elt F)),
    StableHlo.unary main_v296 main_v297 (broadcastInDim S100000x128 ![0, 1] bcast_S100000x1_S100000x128_0_1 : (⟨S100000x1, .f32⟩ : BufTy).Contents (Elt F) → (⟨S100000x128, .f32⟩ : BufTy).Contents (Elt F)),
    StableHlo.binary main_v293 main_v297 main_v298 (mulf : (⟨S100000x128, .f32⟩ : BufTy).Contents (Elt F) → (⟨S100000x128, .f32⟩ : BufTy).Contents (Elt F) → (⟨S100000x128, .f32⟩ : BufTy).Contents (Elt F)),
    StableHlo.unary main_v284 main_v299 (broadcastInDim S1x128 ![1] bcast_S128_S1x128_1 : (⟨S128, .f32⟩ : BufTy).Contents (Elt F) → (⟨S1x128, .f32⟩ : BufTy).Contents (Elt F)),
    StableHlo.unary main_v299 main_v300 (broadcastInDim S100000x128 ![0, 1] bcast_S1x128_S100000x128_0_1 : (⟨S1x128, .f32⟩ : BufTy).Contents (Elt F) → (⟨S100000x128, .f32⟩ : BufTy).Contents (Elt F)),
    StableHlo.binary main_v298 main_v300 main_v301 (mulf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 40000000 in
/-- Part 5 of @main is the run of its operations in order: the outlined functions unfolded at their calls, the
    sequencing reassociated. -/
theorem part_eq5 (c : Dev nD) : main_part5 (F := F) c = seq ops5 := by
  simp only [main_part5, fn_where.body, fn_var.body, fn_where_0.body, fn_where_1.body, fn_elu.body, fn_relu.body, fn_relu_2.body, fn_relu_3.body, seq, bind_assoc, pure_bind]
  rfl

/-- Every operation of part 5 reads and writes TensorCore buffers only. -/
theorem sub5 : (ops5 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-- No operation of part 5 allocates a buffer. -/
theorem fresh5 : (ops5 : List (HloOp τ sig (Elt F))).Forall fun op => op.fresh = ∅ := by
  simp only [List.Forall]; repeat' constructor

/-- The buffers part 5 writes, one per operation, in order. -/
abbrev written5 : List (Ref sig .tc) :=
  [ main_cst_47, main_v251, main_v252, main_v253, main_v254, main_v255, main_v256, main_v257, main_v258, main_v259, main_v260, main_v261, main_v262, main_v263, main_cst_48, main_v264, main_v265, main_cst_49, main_v266, main_v267, main_c_50, (main_call8.cst).ref, (main_call8.v0).ref, (main_call8.v1).ref, (main_call8.cst_0).ref, (main_call8.v2).ref, (main_call8.v3).ref, (main_call8.v4).ref, (main_call8.v5).ref, (main_call8.v6).ref, (main_call8.v7).ref, (main_call8.cst_1).ref, (main_call8.v8).ref, (main_call8.cst_2).ref, (main_call8.v9).ref, (main_call8.v10).ref, (main_call8.v11).ref, (main_call8.v12).ref, (main_call8.cst_3).ref, (main_call8.v13).ref, (main_call8.cst_4).ref, (main_call8.call0.v0).ref, (main_call8.call0.v1).ref, (main_call8.call0.v2).ref, main_v269, main_v270, main_cst_51, main_v271, main_v272, main_v273, main_v274, main_v275, main_v276, main_v277, main_v278, main_v279, main_v280, main_v281, (main_call9.cst).ref, (main_call9.v0).ref, (main_call9.v1).ref, (main_call9.cst_0).ref, (main_call9.v2).ref, (main_call9.v3).ref, (main_call9.cst_1).ref, (main_call9.call0.v0).ref, (main_call9.call0.v1).ref, (main_call9.call0.v2).ref, (main_call9.v5).ref, (main_call9.cst_2).ref, (main_call9.v6).ref, (main_call9.v7).ref, (main_call9.call1.v0).ref, main_v283, main_v284, main_v285, main_v286, main_cst_52, main_v287, main_v288, main_cst_53, main_v289, main_v290, main_c_54, (main_call10.cst).ref, (main_call10.v0).ref, (main_call10.v1).ref, (main_call10.cst_0).ref, (main_call10.v2).ref, (main_call10.v3).ref, (main_call10.v4).ref, (main_call10.v5).ref, (main_call10.v6).ref, (main_call10.v7).ref, (main_call10.cst_1).ref, (main_call10.v8).ref, (main_call10.cst_2).ref, (main_call10.v9).ref, (main_call10.v10).ref, (main_call10.v11).ref, (main_call10.v12).ref, (main_call10.cst_3).ref, (main_call10.v13).ref, (main_call10.cst_4).ref, (main_call10.call0.v0).ref, (main_call10.call0.v1).ref, (main_call10.call0.v2).ref, main_v292, main_v293, main_cst_55, main_v294, main_v295, main_v296, main_v297, main_v298, main_v299, main_v300, main_v301 ]

/-- Each operation of part 5 writes its own result buffer and nothing else. -/
theorem writes5 : (ops5 : List (HloOp τ sig (Elt F))).Forall fun op => op.writes ⊆ (written5.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefLine6.lean ====
/-
  The reference program's host line, part 6: its 69 operations in order, with each outlined function (the
  variance, the ELU, the ReLUs and the selects they call) written out at its call over that call's buffers.  The part of
  @main IS that straight line (part_eq6); every operation touches TensorCore buffers only (sub6), none allocates
  (fresh6), and each writes its own result buffer, listed in written6 (writes6).
-/
import proofs.«165753_j16037407883756_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- Part 6 of @main as a list of host operations. -/
abbrev ops6 : List (HloOp τ sig (Elt F)) :=
  [ StableHlo.unary main_v286 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S100000x128 ![0, 1] bcast_S1x128_S100000x128_0_1 : (⟨S1x128, .f32⟩ : BufTy).Contents (Elt F) → (⟨S100000x128, .f32⟩ : BufTy).Contents (Elt F)),
    StableHlo.binary main_v301 main_v303 main_v304 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v304) main_call11.v0 main_call11.v1 (cmpf .ogt),
    StableHlo.TRef.nullary main_call11.cst_0 (constant S_ .f32 0x00000000#32),
    StableHlo.TRef.unary main_call11.cst_0 main_call11.v2 (broadcastInDim S100000x128 ![] bcast_S_S100000x128),
    StableHlo.TRef.binary (.of main_v304) main_call11.v2 main_call11.v3 (cmpf .ogt),
    StableHlo.TRef.nullary main_call11.cst_1 (constant S_ .f32 0x00000000#32),
    StableHlo.TRef.unary main_call11.cst_1 main_call11.call0.v0 id,
    StableHlo.TRef.unary main_call11.call0.v0 main_call11.call0.v1 (broadcastInDim S100000x128 ![] bcast_S_S100000x128),
    StableHlo.TRef.ternary main_call11.v3 main_call11.call0.v1 (.of main_v304) main_call11.call0.v2 select,
    StableHlo.TRef.unary main_call11.call0.v2 main_call11.v5 Host.expm1,
    StableHlo.TRef.nullary main_call11.cst_2 (constant S_ .f32 0x3F800000#32),
    StableHlo.TRef.unary main_call11.cst_2 main_call11.v6 (broadcastInDim S100000x128 ![] bcast_S_S100000x128),
    StableHlo.TRef.binary main_call11.v6 main_call11.v5 main_call11.v7 mulf,
    StableHlo.TRef.ternary main_call11.v1 (.of main_v304) main_call11.v7 main_call11.call1.v0 select,
    StableHlo.nullary main_cst_56 (constant S_ .f32 0x00000000#32),
    StableHlo.binary main_v282 main_cst_56 main_v306 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_57 (constant S_ .f32 0x47C35000#32),
    StableHlo.unary main_cst_57 main_v307 (broadcastInDim S128 ![] bcast_S_S128 : (⟨S_, .f32⟩ : BufTy).Contents (Elt F) → (⟨S128, .f32⟩ : BufTy).Contents (Elt F)),
    StableHlo.binary main_v306 main_v307 main_v308 (Host.divf : (⟨S128, .f32⟩ : BufTy).Contents (Elt F) → (⟨S128, .f32⟩ : BufTy).Contents (Elt F) → (⟨S128, .f32⟩ : BufTy).Contents (Elt F)),
    StableHlo.nullary main_cst_58 (constant S_ .f32 0x00000000#32),
    StableHlo.binary main_v305 main_cst_58 main_v309 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_59 (constant S_ .f32 0x47C35000#32),
    StableHlo.unary main_cst_59 main_v310 (broadcastInDim S128 ![] bcast_S_S128 : (⟨S_, .f32⟩ : BufTy).Contents (Elt F) → (⟨S128, .f32⟩ : BufTy).Contents (Elt F)),
    StableHlo.binary main_v309 main_v310 main_v311 (Host.divf : (⟨S128, .f32⟩ : BufTy).Contents (Elt F) → (⟨S128, .f32⟩ : BufTy).Contents (Elt F) → (⟨S128, .f32⟩ : BufTy).Contents (Elt F)),
    StableHlo.binary main_v308 main_v311 main_v312 (addf : (⟨S128, .f32⟩ : BufTy).Contents (Elt F) → (⟨S128, .f32⟩ : BufTy).Contents (Elt F) → (⟨S128, .f32⟩ : BufTy).Contents (Elt F)),
    StableHlo.unary main_v312 main_v313 (broadcastInDim S1x128 ![1] bcast_S128_S1x128_1 : (⟨S128, .f32⟩ : BufTy).Contents (Elt F) → (⟨S1x128, .f32⟩ : BufTy).Contents (Elt F)),
    StableHlo.binary main_v313 main_arg18 main_v314 ((fun l r => Host.dotGeneral dot_S1x128_S128x64_S1x64_1_0_0_1_n_n none l r) : (⟨S1x128, .f32⟩ : BufTy).Contents (Elt F) → (⟨S128x64, .f32⟩ : BufTy).Contents (Elt F) → (⟨S1x64, .f32⟩ : BufTy).Contents (Elt F)),
    StableHlo.unary main_arg19 main_v315 (broadcastInDim S1x64 ![1] bcast_S64_S1x64_1 : (⟨S64, .f32⟩ : BufTy).Contents (Elt F) → (⟨S1x64, .f32⟩ : BufTy).Contents (Elt F)),
    StableHlo.binary main_v314 main_v315 main_v316 (addf : (⟨S1x64, .f32⟩ : BufTy).Contents (Elt F) → (⟨S1x64, .f32⟩ : BufTy).Contents (Elt F) → (⟨S1x64, .f32⟩ : BufTy).Contents (Elt F)),
    StableHlo.TRef.nullary main_call12.cst (constant S_ .f32 0x00000000#32),
    StableHlo.TRef.unary main_call12.cst main_call12.v0 (broadcastInDim S1x64 ![] bcast_S_S1x64),
    StableHlo.TRef.binary (.of main_v316) main_call12.v0 main_call12.v1 maximumf,
    StableHlo.binary main_v317 main_arg20 main_v318 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    StableHlo.unary main_arg21 main_v319 (broadcastInDim S1x64 ![1] bcast_S64_S1x64_1 : (⟨S64, .f32⟩ : BufTy).Contents (Elt F) → (⟨S1x64, .f32⟩ : BufTy).Contents (Elt F)),
    StableHlo.binary main_v318 main_v319 main_v320 (addf : (⟨S1x64, .f32⟩ : BufTy).Contents (Elt F) → (⟨S1x64, .f32⟩ : BufTy).Contents (Elt F) → (⟨S1x64, .f32⟩ : BufTy).Contents (Elt F)),
    StableHlo.binary main_v320 main_arg22 main_v321 ((fun l r => Host.dotGeneral dot_S1x64_S64x128_S1x128_1_0_0_1_n_n none l r) : (⟨S1x64, .f32⟩ : BufTy).Contents (Elt F) → (⟨S64x128, .f32⟩ : BufTy).Contents (Elt F) → (⟨S1x128, .f32⟩ : BufTy).Contents (Elt F)),
    StableHlo.unary main_arg23 main_v322 (broadcastInDim S1x128 ![1] bcast_S128_S1x128_1 : (⟨S128, .f32⟩ : BufTy).Contents (Elt F) → (⟨S1x128, .f32⟩ : BufTy).Contents (Elt F)),
    StableHlo.binary main_v321 main_v322 main_v323 (addf : (⟨S1x128, .f32⟩ : BufTy).Contents (Elt F) → (⟨S1x128, .f32⟩ : BufTy).Contents (Elt F) → (⟨S1x128, .f32⟩ : BufTy).Contents (Elt F)),
    StableHlo.TRef.nullary main_call13.cst (constant S_ .f32 0x00000000#32),
    StableHlo.TRef.unary main_call13.cst main_call13.v0 (broadcastInDim S1x128 ![] bcast_S_S1x128),
    StableHlo.TRef.binary (.of main_v323) main_call13.v0 main_call13.v1 maximumf,
    StableHlo.binary main_v324 main_arg24 main_v325 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    StableHlo.unary main_arg25 main_v326 (broadcastInDim S1x128 ![1] bcast_S128_S1x128_1 : (⟨S128, .f32⟩ : BufTy).Contents (Elt F) → (⟨S1x128, .f32⟩ : BufTy).Contents (Elt F)),
    StableHlo.binary main_v325 main_v326 main_v327 (addf : (⟨S1x128, .f32⟩ : BufTy).Contents (Elt F) → (⟨S1x128, .f32⟩ : BufTy).Contents (Elt F) → (⟨S1x128, .f32⟩ : BufTy).Contents (Elt F)),
    StableHlo.TRef.nullary main_call14.cst (constant S_ .f32 0x00000000#32),
    StableHlo.TRef.unary main_call14.cst main_call14.v0 (broadcastInDim S1x128 ![] bcast_S_S1x128),
    StableHlo.TRef.binary (.of main_v327) main_call14.v0 main_call14.v1 maximumf,
    StableHlo.binary main_v328 main_arg26 main_v329 ((fun l r => Host.dotGeneral dot_S1x128_S128x64_S1x64_1_0_0_1_n_n none l r) : (⟨S1x128, .f32⟩ : BufTy).Contents (Elt F) → (⟨S128x64, .f32⟩ : BufTy).Contents (Elt F) → (⟨S1x64, .f32⟩ : BufTy).Contents (Elt F)),
    StableHlo.unary main_arg27 main_v330 (broadcastInDim S1x64 ![1] bcast_S64_S1x64_1 : (⟨S64, .f32⟩ : BufTy).Contents (Elt F) → (⟨S1x64, .f32⟩ : BufTy).Contents (Elt F)),
    StableHlo.binary main_v329 main_v330 main_v331 (addf : (⟨S1x64, .f32⟩ : BufTy).Contents (Elt F) → (⟨S1x64, .f32⟩ : BufTy).Contents (Elt F) → (⟨S1x64, .f32⟩ : BufTy).Contents (Elt F)),
    StableHlo.binary main_v320 main_arg28 main_v332 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    StableHlo.unary main_arg29 main_v333 (broadcastInDim S1x64 ![1] bcast_S64_S1x64_1 : (⟨S64, .f32⟩ : BufTy).Contents (Elt F) → (⟨S1x64, .f32⟩ : BufTy).Contents (Elt F)),
    StableHlo.binary main_v332 main_v333 main_v334 (addf : (⟨S1x64, .f32⟩ : BufTy).Contents (Elt F) → (⟨S1x64, .f32⟩ : BufTy).Contents (Elt F) → (⟨S1x64, .f32⟩ : BufTy).Contents (Elt F)),
    StableHlo.TRef.nullary main_call15.cst (constant S_ .f32 0x00000000#32),
    StableHlo.TRef.unary main_call15.cst main_call15.v0 (broadcastInDim S1x64 ![] bcast_S_S1x64),
    StableHlo.TRef.binary (.of main_v334) main_call15.v0 main_call15.v1 maximumf,
    StableHlo.binary main_v335 main_arg30 main_v336 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg31 main_v337 (broadcastInDim S1x32 ![1] bcast_S32_S1x32_1 : (⟨S32, .f32⟩ : BufTy).Contents (Elt F) → (⟨S1x32, .f32⟩ : BufTy).Contents (Elt F)),
    StableHlo.binary main_v336 main_v337 main_v338 (addf : (⟨S1x32, .f32⟩ : BufTy).Contents (Elt F) → (⟨S1x32, .f32⟩ : BufTy).Contents (Elt F) → (⟨S1x32, .f32⟩ : BufTy).Contents (Elt F)),
    StableHlo.TRef.nullary main_call16.cst (constant S_ .f32 0x00000000#32),
    StableHlo.TRef.unary main_call16.cst main_call16.v0 (broadcastInDim S1x32 ![] bcast_S_S1x32),
    StableHlo.TRef.binary (.of main_v338) main_call16.v0 main_call16.v1 maximumf,
    StableHlo.binary main_v339 main_arg32 main_v340 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)),
    StableHlo.unary main_arg33 main_v341 (broadcastInDim S1x1 ![1] bcast_S1_S1x1_1 : (⟨S1, .f32⟩ : BufTy).Contents (Elt F) → (⟨S1x1, .f32⟩ : BufTy).Contents (Elt F)),
    StableHlo.binary main_v340 main_v341 main_v342 (addf : (⟨S1x1, .f32⟩ : BufTy).Contents (Elt F) → (⟨S1x1, .f32⟩ : BufTy).Contents (Elt F) → (⟨S1x1, .f32⟩ : BufTy).Contents (Elt F)) ]

set_option maxRecDepth 8192 in
set_option maxHeartbeats 40000000 in
/-- Part 6 of @main is the run of its operations in order: the outlined functions unfolded at their calls, the
    sequencing reassociated. -/
theorem part_eq6 (c : Dev nD) : main_part6 (F := F) c = seq ops6 := by
  simp only [main_part6, fn_where.body, fn_var.body, fn_where_0.body, fn_where_1.body, fn_elu.body, fn_relu.body, fn_relu_2.body, fn_relu_3.body, seq, bind_assoc, pure_bind]

/-- Every operation of part 6 reads and writes TensorCore buffers only. -/
theorem sub6 : (ops6 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub ..⟩

/-- No operation of part 6 allocates a buffer. -/
theorem fresh6 : (ops6 : List (HloOp τ sig (Elt F))).Forall fun op => op.fresh = ∅ := by
  simp only [List.Forall]; repeat' constructor

/-- The buffers part 6 writes, one per operation, in order. -/
abbrev written6 : List (Ref sig .tc) :=
  [ main_v302, main_v303, main_v304, (main_call11.cst).ref, (main_call11.v0).ref, (main_call11.v1).ref, (main_call11.cst_0).ref, (main_call11.v2).ref, (main_call11.v3).ref, (main_call11.cst_1).ref, (main_call11.call0.v0).ref, (main_call11.call0.v1).ref, (main_call11.call0.v2).ref, (main_call11.v5).ref, (main_call11.cst_2).ref, (main_call11.v6).ref, (main_call11.v7).ref, (main_call11.call1.v0).ref, main_cst_56, main_v306, main_cst_57, main_v307, main_v308, main_cst_58, main_v309, main_cst_59, main_v310, main_v311, main_v312, main_v313, main_v314, main_v315, main_v316, (main_call12.cst).ref, (main_call12.v0).ref, (main_call12.v1).ref, main_v318, main_v319, main_v320, main_v321, main_v322, main_v323, (main_call13.cst).ref, (main_call13.v0).ref, (main_call13.v1).ref, main_v325, main_v326, main_v327, (main_call14.cst).ref, (main_call14.v0).ref, (main_call14.v1).ref, main_v329, main_v330, main_v331, main_v332, main_v333, main_v334, (main_call15.cst).ref, (main_call15.v0).ref, (main_call15.v1).ref, main_v336, main_v337, main_v338, (main_call16.cst).ref, (main_call16.v0).ref, (main_call16.v1).ref, main_v340, main_v341, main_v342 ]

/-- Each operation of part 6 writes its own result buffer and nothing else. -/
theorem writes6 : (ops6 : List (HloOp τ sig (Elt F))).Forall fun op => op.writes ⊆ (written6.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.HostLine

end
-- ==== Proof.RefRun.lean ====
/-
  The reference program's whole run.  @main is its parts one after the other, each part the run of its list of host
  operations, so @main is the run of the concatenated list; on a signature that scopes nothing such a straight line always
  terminates, with every TensorCore buffer at the fold of the operations' results over the launch contents.  No operation
  writes an argument buffer (each writes its own result buffer, and no argument is among those), so the arguments end as
  launched.
-/
import proofs.«165753_j16037407883756_1_alg».proof.Proof.RefLine0
import proofs.«165753_j16037407883756_1_alg».proof.Proof.RefLine1
import proofs.«165753_j16037407883756_1_alg».proof.Proof.RefLine2
import proofs.«165753_j16037407883756_1_alg».proof.Proof.RefLine3
import proofs.«165753_j16037407883756_1_alg».proof.Proof.RefLine4
import proofs.«165753_j16037407883756_1_alg».proof.Proof.RefLine5
import proofs.«165753_j16037407883756_1_alg».proof.Proof.RefLine6

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- @main's operations, in order: the parts' lists concatenated. -/
abbrev ops : List (HloOp τ sig (Elt F)) := ops0 ++ (ops1 ++ (ops2 ++ (ops3 ++ (ops4 ++ (ops5 ++ (ops6))))))

/-- @main is the run of its operations in order. -/
theorem main_eq (c : Dev nD) : main (F := F) c = seq ops := by
  simp only [main, part_eq0, part_eq1, part_eq2, part_eq3, part_eq4, part_eq5, part_eq6, ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append sub0 (forall_append sub1 (forall_append sub2 (forall_append sub3 (forall_append sub4 (forall_append sub5 (sub6))))))

theorem ops_fresh : (ops : List (HloOp τ sig (Elt F))).Forall fun op => op.fresh = ∅ :=
  forall_append fresh0 (forall_append fresh1 (forall_append fresh2 (forall_append fresh3 (forall_append fresh4 (forall_append fresh5 (fresh6))))))

/-- Every weakly fair execution of @main terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.forall_iff_forall_mem.mp ops_fresh) op h)

/-- A buffer none of the parts writes is, after the whole line, as before it. -/
theorem kept {r : Ref sig .tc} (V : Valuation τ sig (Elt F))
    (h0 : r ∉ written0) (h1 : r ∉ written1) (h2 : r ∉ written2) (h3 : r ∉ written3) (h4 : r ∉ written4) (h5 : r ∉ written5) (h6 : r ∉ written6) :
    after ops V (Proc.devRef .tc r) = V (Proc.devRef .tc r) := by
  simp only [ops, after_append]
  rw [after_of_writes_sub ops6 _ writes6 h6,
    after_of_writes_sub ops5 _ writes5 h5,
    after_of_writes_sub ops4 _ writes4 h4,
    after_of_writes_sub ops3 _ writes3 h3,
    after_of_writes_sub ops2 _ writes2 h2,
    after_of_writes_sub ops1 _ writes1 h1,
    after_of_writes_sub ops0 _ writes0 h0]

theorem kept_main_arg0 (V : Valuation τ sig (Elt F)) : after ops V (Proc.devRef .tc main_arg0) = V (Proc.devRef .tc main_arg0) :=
  kept V (by decide) (by decide) (by decide) (by decide) (by decide) (by decide) (by decide)
theorem kept_main_arg1 (V : Valuation τ sig (Elt F)) : after ops V (Proc.devRef .tc main_arg1) = V (Proc.devRef .tc main_arg1) :=
  kept V (by decide) (by decide) (by decide) (by decide) (by decide) (by decide) (by decide)
theorem kept_main_arg2 (V : Valuation τ sig (Elt F)) : after ops V (Proc.devRef .tc main_arg2) = V (Proc.devRef .tc main_arg2) :=
  kept V (by decide) (by decide) (by decide) (by decide) (by decide) (by decide) (by decide)
theorem kept_main_arg3 (V : Valuation τ sig (Elt F)) : after ops V (Proc.devRef .tc main_arg3) = V (Proc.devRef .tc main_arg3) :=
  kept V (by decide) (by decide) (by decide) (by decide) (by decide) (by decide) (by decide)
theorem kept_main_arg4 (V : Valuation τ sig (Elt F)) : after ops V (Proc.devRef .tc main_arg4) = V (Proc.devRef .tc main_arg4) :=
  kept V (by decide) (by decide) (by decide) (by decide) (by decide) (by decide) (by decide)
theorem kept_main_arg5 (V : Valuation τ sig (Elt F)) : after ops V (Proc.devRef .tc main_arg5) = V (Proc.devRef .tc main_arg5) :=
  kept V (by decide) (by decide) (by decide) (by decide) (by decide) (by decide) (by decide)
theorem kept_main_arg6 (V : Valuation τ sig (Elt F)) : after ops V (Proc.devRef .tc main_arg6) = V (Proc.devRef .tc main_arg6) :=
  kept V (by decide) (by decide) (by decide) (by decide) (by decide) (by decide) (by decide)
theorem kept_main_arg7 (V : Valuation τ sig (Elt F)) : after ops V (Proc.devRef .tc main_arg7) = V (Proc.devRef .tc main_arg7) :=
  kept V (by decide) (by decide) (by decide) (by decide) (by decide) (by decide) (by decide)
theorem kept_main_arg8 (V : Valuation τ sig (Elt F)) : after ops V (Proc.devRef .tc main_arg8) = V (Proc.devRef .tc main_arg8) :=
  kept V (by decide) (by decide) (by decide) (by decide) (by decide) (by decide) (by decide)
theorem kept_main_arg9 (V : Valuation τ sig (Elt F)) : after ops V (Proc.devRef .tc main_arg9) = V (Proc.devRef .tc main_arg9) :=
  kept V (by decide) (by decide) (by decide) (by decide) (by decide) (by decide) (by decide)
theorem kept_main_arg10 (V : Valuation τ sig (Elt F)) : after ops V (Proc.devRef .tc main_arg10) = V (Proc.devRef .tc main_arg10) :=
  kept V (by decide) (by decide) (by decide) (by decide) (by decide) (by decide) (by decide)
theorem kept_main_arg11 (V : Valuation τ sig (Elt F)) : after ops V (Proc.devRef .tc main_arg11) = V (Proc.devRef .tc main_arg11) :=
  kept V (by decide) (by decide) (by decide) (by decide) (by decide) (by decide) (by decide)
theorem kept_main_arg12 (V : Valuation τ sig (Elt F)) : after ops V (Proc.devRef .tc main_arg12) = V (Proc.devRef .tc main_arg12) :=
  kept V (by decide) (by decide) (by decide) (by decide) (by decide) (by decide) (by decide)
theorem kept_main_arg13 (V : Valuation τ sig (Elt F)) : after ops V (Proc.devRef .tc main_arg13) = V (Proc.devRef .tc main_arg13) :=
  kept V (by decide) (by decide) (by decide) (by decide) (by decide) (by decide) (by decide)
theorem kept_main_arg14 (V : Valuation τ sig (Elt F)) : after ops V (Proc.devRef .tc main_arg14) = V (Proc.devRef .tc main_arg14) :=
  kept V (by decide) (by decide) (by decide) (by decide) (by decide) (by decide) (by decide)
theorem kept_main_arg15 (V : Valuation τ sig (Elt F)) : after ops V (Proc.devRef .tc main_arg15) = V (Proc.devRef .tc main_arg15) :=
  kept V (by decide) (by decide) (by decide) (by decide) (by decide) (by decide) (by decide)
theorem kept_main_arg16 (V : Valuation τ sig (Elt F)) : after ops V (Proc.devRef .tc main_arg16) = V (Proc.devRef .tc main_arg16) :=
  kept V (by decide) (by decide) (by decide) (by decide) (by decide) (by decide) (by decide)
theorem kept_main_arg17 (V : Valuation τ sig (Elt F)) : after ops V (Proc.devRef .tc main_arg17) = V (Proc.devRef .tc main_arg17) :=
  kept V (by decide) (by decide) (by decide) (by decide) (by decide) (by decide) (by decide)
theorem kept_main_arg18 (V : Valuation τ sig (Elt F)) : after ops V (Proc.devRef .tc main_arg18) = V (Proc.devRef .tc main_arg18) :=
  kept V (by decide) (by decide) (by decide) (by decide) (by decide) (by decide) (by decide)
theorem kept_main_arg19 (V : Valuation τ sig (Elt F)) : after ops V (Proc.devRef .tc main_arg19) = V (Proc.devRef .tc main_arg19) :=
  kept V (by decide) (by decide) (by decide) (by decide) (by decide) (by decide) (by decide)
theorem kept_main_arg20 (V : Valuation τ sig (Elt F)) : after ops V (Proc.devRef .tc main_arg20) = V (Proc.devRef .tc main_arg20) :=
  kept V (by decide) (by decide) (by decide) (by decide) (by decide) (by decide) (by decide)
theorem kept_main_arg21 (V : Valuation τ sig (Elt F)) : after ops V (Proc.devRef .tc main_arg21) = V (Proc.devRef .tc main_arg21) :=
  kept V (by decide) (by decide) (by decide) (by decide) (by decide) (by decide) (by decide)
theorem kept_main_arg22 (V : Valuation τ sig (Elt F)) : after ops V (Proc.devRef .tc main_arg22) = V (Proc.devRef .tc main_arg22) :=
  kept V (by decide) (by decide) (by decide) (by decide) (by decide) (by decide) (by decide)
theorem kept_main_arg23 (V : Valuation τ sig (Elt F)) : after ops V (Proc.devRef .tc main_arg23) = V (Proc.devRef .tc main_arg23) :=
  kept V (by decide) (by decide) (by decide) (by decide) (by decide) (by decide) (by decide)
theorem kept_main_arg24 (V : Valuation τ sig (Elt F)) : after ops V (Proc.devRef .tc main_arg24) = V (Proc.devRef .tc main_arg24) :=
  kept V (by decide) (by decide) (by decide) (by decide) (by decide) (by decide) (by decide)
theorem kept_main_arg25 (V : Valuation τ sig (Elt F)) : after ops V (Proc.devRef .tc main_arg25) = V (Proc.devRef .tc main_arg25) :=
  kept V (by decide) (by decide) (by decide) (by decide) (by decide) (by decide) (by decide)
theorem kept_main_arg26 (V : Valuation τ sig (Elt F)) : after ops V (Proc.devRef .tc main_arg26) = V (Proc.devRef .tc main_arg26) :=
  kept V (by decide) (by decide) (by decide) (by decide) (by decide) (by decide) (by decide)
theorem kept_main_arg27 (V : Valuation τ sig (Elt F)) : after ops V (Proc.devRef .tc main_arg27) = V (Proc.devRef .tc main_arg27) :=
  kept V (by decide) (by decide) (by decide) (by decide) (by decide) (by decide) (by decide)
theorem kept_main_arg28 (V : Valuation τ sig (Elt F)) : after ops V (Proc.devRef .tc main_arg28) = V (Proc.devRef .tc main_arg28) :=
  kept V (by decide) (by decide) (by decide) (by decide) (by decide) (by decide) (by decide)
theorem kept_main_arg29 (V : Valuation τ sig (Elt F)) : after ops V (Proc.devRef .tc main_arg29) = V (Proc.devRef .tc main_arg29) :=
  kept V (by decide) (by decide) (by decide) (by decide) (by decide) (by decide) (by decide)
theorem kept_main_arg30 (V : Valuation τ sig (Elt F)) : after ops V (Proc.devRef .tc main_arg30) = V (Proc.devRef .tc main_arg30) :=
  kept V (by decide) (by decide) (by decide) (by decide) (by decide) (by decide) (by decide)
theorem kept_main_arg31 (V : Valuation τ sig (Elt F)) : after ops V (Proc.devRef .tc main_arg31) = V (Proc.devRef .tc main_arg31) :=
  kept V (by decide) (by decide) (by decide) (by decide) (by decide) (by decide) (by decide)
theorem kept_main_arg32 (V : Valuation τ sig (Elt F)) : after ops V (Proc.devRef .tc main_arg32) = V (Proc.devRef .tc main_arg32) :=
  kept V (by decide) (by decide) (by decide) (by decide) (by decide) (by decide) (by decide)
theorem kept_main_arg33 (V : Valuation τ sig (Elt F)) : after ops V (Proc.devRef .tc main_arg33) = V (Proc.devRef .tc main_arg33) :=
  kept V (by decide) (by decide) (by decide) (by decide) (by decide) (by decide) (by decide)

end Cert.ReferenceIdeal.HostLine

end
-- ==== Proof.Spec.lean ====
/-
  The stages of the computation as whole-array functions at any float instance, each the composition of the reference
  program's own host operations: degree norms, the scaled projection, the edge gather and scatter-add, the scaled and biased
  aggregate, layer normalization (row mean, row variance, normalize), the ELU, the mean read-out and the three small heads.
  The reference program's run is these functions composed; the kernel's regions are shown equal to them region by region.
-/
import proofs.«165753_j16037407883756_1_alg».proof.Proof.Gen.ReferenceIdeal
import Idealize.ShloMosaic.PureOps.Ideal

noncomputable section

namespace Cert.Spec

open Cert.ReferenceIdeal Cert.ReferenceIdeal.Gen Idealize.ShloMosaic Idealize.ShloMosaic.TcCoe

variable {F : FTy → Type} [FloatOps F]

/-- The inverse square root of the degree, floored at one: a count of the index list's entries per node (a scatter-add of ones), max with 1, to the power -1/2. -/
def invSqrtDeg (idx : (⟨S1600000, .i32⟩ : BufTy).Contents (Elt F)) : (⟨S100000, .f32⟩ : BufTy).Contents (Elt F) :=
  (((Host.powf) : (⟨S100000, .f32⟩ : BufTy).Contents (Elt F) → (⟨S100000, .f32⟩ : BufTy).Contents (Elt F) → (⟨S100000, .f32⟩ : BufTy).Contents (Elt F)) (((maximumf) : (⟨S100000, .f32⟩ : BufTy).Contents (Elt F) → (⟨S100000, .f32⟩ : BufTy).Contents (Elt F) → (⟨S100000, .f32⟩ : BufTy).Contents (Elt F)) ((((fun x i u => Host.scatterAdd scatter_S100000_S1600000x1_S1600000_n_0_0_1 x i u)) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (((broadcastInDim S100000 ![] bcast_S_S100000) : (⟨S_, .f32⟩ : BufTy).Contents (Elt F) → (⟨S100000, .f32⟩ : BufTy).Contents (Elt F)) (constant S_ .f32 0x00000000#32 : (⟨S_, .f32⟩ : BufTy).Contents (Elt F))) (((broadcastInDim S1600000x1 ![0] bcast_S1600000_S1600000x1_0) : (⟨S1600000, .i32⟩ : BufTy).Contents (Elt F) → (⟨S1600000x1, .i32⟩ : BufTy).Contents (Elt F)) idx) (((broadcastInDim S1600000 ![] bcast_S_S1600000) : (⟨S_, .f32⟩ : BufTy).Contents (Elt F) → (⟨S1600000, .f32⟩ : BufTy).Contents (Elt F)) (constant S_ .f32 0x3F800000#32 : (⟨S_, .f32⟩ : BufTy).Contents (Elt F)))) (((broadcastInDim S100000 ![] bcast_S_S100000) : (⟨S_, .f32⟩ : BufTy).Contents (Elt F) → (⟨S100000, .f32⟩ : BufTy).Contents (Elt F)) (constant S_ .f32 0x3F800000#32 : (⟨S_, .f32⟩ : BufTy).Contents (Elt F)))) (((broadcastInDim S100000 ![] bcast_S_S100000) : (⟨S_, .f32⟩ : BufTy).Contents (Elt F) → (⟨S100000, .f32⟩ : BufTy).Contents (Elt F)) (constant S_ .f32 0xBF000000#32 : (⟨S_, .f32⟩ : BufTy).Contents (Elt F))))

/-- A vector of node values as a column. -/
def col (s : (⟨S100000, .f32⟩ : BufTy).Contents (Elt F)) : (⟨S100000x1, .f32⟩ : BufTy).Contents (Elt F) :=
  (((broadcastInDim S100000x1 ![0] bcast_S100000_S100000x1_0) : (⟨S100000, .f32⟩ : BufTy).Contents (Elt F) → (⟨S100000x1, .f32⟩ : BufTy).Contents (Elt F)) s)

/-- A vector of channel values as a row. -/
def row (b : (⟨S128, .f32⟩ : BufTy).Contents (Elt F)) : (⟨S1x128, .f32⟩ : BufTy).Contents (Elt F) :=
  (((broadcastInDim S1x128 ![1] bcast_S128_S1x128_1) : (⟨S128, .f32⟩ : BufTy).Contents (Elt F) → (⟨S1x128, .f32⟩ : BufTy).Contents (Elt F)) b)

/-- Rows scaled by a column, then the matrix product with the 300-by-128 weights. -/
def scaleMatmul300 (x : (⟨S100000x300, .f32⟩ : BufTy).Contents (Elt F)) (sc : (⟨S100000x1, .f32⟩ : BufTy).Contents (Elt F)) (w : (⟨S300x128, .f32⟩ : BufTy).Contents (Elt F)) : (⟨S100000x128, .f32⟩ : BufTy).Contents (Elt F) :=
  ((((fun l r => Host.dotGeneral dot_S100000x300_S300x128_S100000x128_1_0_0_1_n_n none l r)) : (⟨S100000x300, .f32⟩ : BufTy).Contents (Elt F) → (⟨S300x128, .f32⟩ : BufTy).Contents (Elt F) → (⟨S100000x128, .f32⟩ : BufTy).Contents (Elt F)) (((mulf) : (⟨S100000x300, .f32⟩ : BufTy).Contents (Elt F) → (⟨S100000x300, .f32⟩ : BufTy).Contents (Elt F) → (⟨S100000x300, .f32⟩ : BufTy).Contents (Elt F)) x (((broadcastInDim S100000x300 ![0, 1] bcast_S100000x1_S100000x300_0_1) : (⟨S100000x1, .f32⟩ : BufTy).Contents (Elt F) → (⟨S100000x300, .f32⟩ : BufTy).Contents (Elt F)) sc)) w)

/-- Rows scaled by a column, then the matrix product with the 200-by-128 weights. -/
def scaleMatmul200 (x : (⟨S100000x200, .f32⟩ : BufTy).Contents (Elt F)) (sc : (⟨S100000x1, .f32⟩ : BufTy).Contents (Elt F)) (w : (⟨S200x128, .f32⟩ : BufTy).Contents (Elt F)) : (⟨S100000x128, .f32⟩ : BufTy).Contents (Elt F) :=
  ((((fun l r => Host.dotGeneral dot_S100000x200_S200x128_S100000x128_1_0_0_1_n_n none l r)) : (⟨S100000x200, .f32⟩ : BufTy).Contents (Elt F) → (⟨S200x128, .f32⟩ : BufTy).Contents (Elt F) → (⟨S100000x128, .f32⟩ : BufTy).Contents (Elt F)) (((mulf) : (⟨S100000x200, .f32⟩ : BufTy).Contents (Elt F) → (⟨S100000x200, .f32⟩ : BufTy).Contents (Elt F) → (⟨S100000x200, .f32⟩ : BufTy).Contents (Elt F)) x (((broadcastInDim S100000x200 ![0, 1] bcast_S100000x1_S100000x200_0_1) : (⟨S100000x1, .f32⟩ : BufTy).Contents (Elt F) → (⟨S100000x200, .f32⟩ : BufTy).Contents (Elt F)) sc)) w)

/-- Rows scaled by a column, then the matrix product with 128-by-128 weights. -/
def scaleMatmul128 (x : (⟨S100000x128, .f32⟩ : BufTy).Contents (Elt F)) (sc : (⟨S100000x1, .f32⟩ : BufTy).Contents (Elt F)) (w : (⟨S128x128, .f32⟩ : BufTy).Contents (Elt F)) : (⟨S100000x128, .f32⟩ : BufTy).Contents (Elt F) :=
  ((((fun l r => Host.dotGeneral dot_S100000x128_S128x128_S100000x128_1_0_0_1_n_n none l r)) : (⟨S100000x128, .f32⟩ : BufTy).Contents (Elt F) → (⟨S128x128, .f32⟩ : BufTy).Contents (Elt F) → (⟨S100000x128, .f32⟩ : BufTy).Contents (Elt F)) (((mulf) : (⟨S100000x128, .f32⟩ : BufTy).Contents (Elt F) → (⟨S100000x128, .f32⟩ : BufTy).Contents (Elt F) → (⟨S100000x128, .f32⟩ : BufTy).Contents (Elt F)) x (((broadcastInDim S100000x128 ![0, 1] bcast_S100000x1_S100000x128_0_1) : (⟨S100000x1, .f32⟩ : BufTy).Contents (Elt F) → (⟨S100000x128, .f32⟩ : BufTy).Contents (Elt F)) sc)) w)

/-- Message passing: each edge gathers its source node's row and adds it into its destination node's row (negative indices wrapped as jnp does). -/
def aggregate (x : (⟨S100000x128, .f32⟩ : BufTy).Contents (Elt F)) (src : (⟨S1600000, .i32⟩ : BufTy).Contents (Elt F)) (dst : (⟨S1600000, .i32⟩ : BufTy).Contents (Elt F)) : (⟨S100000x128, .f32⟩ : BufTy).Contents (Elt F) :=
  ((((fun x i u => Host.scatterAdd scatter_S100000x128_S1600000x1_S1600000x128_1_0_0_1 x i u)) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (((broadcastInDim S100000x128 ![] bcast_S_S100000x128) : (⟨S_, .f32⟩ : BufTy).Contents (Elt F) → (⟨S100000x128, .f32⟩ : BufTy).Contents (Elt F)) (constant S_ .f32 0x00000000#32 : (⟨S_, .f32⟩ : BufTy).Contents (Elt F))) (((broadcastInDim S1600000x1 ![0] bcast_S1600000_S1600000x1_0) : (⟨S1600000, .i32⟩ : BufTy).Contents (Elt F) → (⟨S1600000x1, .i32⟩ : BufTy).Contents (Elt F)) dst) ((((fun x i => Host.gather gather_S100000x128_S1600000x1_S1600000x128_1_0_n_n_0_1_1128 x i)) : (⟨S100000x128, .f32⟩ : BufTy).Contents (Elt F) → (⟨S1600000x1, .i32⟩ : BufTy).Contents (Elt F) → (⟨S1600000x128, .f32⟩ : BufTy).Contents (Elt F)) x (((broadcastInDim S1600000x1 ![0] bcast_S1600000_S1600000x1_0) : (⟨S1600000, .i32⟩ : BufTy).Contents (Elt F) → (⟨S1600000x1, .i32⟩ : BufTy).Contents (Elt F)) (((select) : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (((cmpi .slt) : (⟨S1600000, .i32⟩ : BufTy).Contents (Elt F) → (⟨S1600000, .i32⟩ : BufTy).Contents (Elt F) → (⟨S1600000, .i1⟩ : BufTy).Contents (Elt F)) src (((broadcastInDim S1600000 ![] bcast_S_S1600000) : (⟨S_, .i32⟩ : BufTy).Contents (Elt F) → (⟨S1600000, .i32⟩ : BufTy).Contents (Elt F)) (constantI S_ 32 0#32 : (⟨S_, .i32⟩ : BufTy).Contents (Elt F)))) (((addi) : (⟨S1600000, .i32⟩ : BufTy).Contents (Elt F) → (⟨S1600000, .i32⟩ : BufTy).Contents (Elt F) → (⟨S1600000, .i32⟩ : BufTy).Contents (Elt F)) src (((broadcastInDim S1600000 ![] bcast_S_S1600000) : (⟨S_, .i32⟩ : BufTy).Contents (Elt F) → (⟨S1600000, .i32⟩ : BufTy).Contents (Elt F)) (constantI S_ 32 100000#32 : (⟨S_, .i32⟩ : BufTy).Contents (Elt F)))) src))))

/-- The aggregate scaled row by row by a column, plus a bias row. -/
def scaleBias (agg : (⟨S100000x128, .f32⟩ : BufTy).Contents (Elt F)) (sc : (⟨S100000x1, .f32⟩ : BufTy).Contents (Elt F)) (br : (⟨S1x128, .f32⟩ : BufTy).Contents (Elt F)) : (⟨S100000x128, .f32⟩ : BufTy).Contents (Elt F) :=
  (((addf) : (⟨S100000x128, .f32⟩ : BufTy).Contents (Elt F) → (⟨S100000x128, .f32⟩ : BufTy).Contents (Elt F) → (⟨S100000x128, .f32⟩ : BufTy).Contents (Elt F)) (((mulf) : (⟨S100000x128, .f32⟩ : BufTy).Contents (Elt F) → (⟨S100000x128, .f32⟩ : BufTy).Contents (Elt F) → (⟨S100000x128, .f32⟩ : BufTy).Contents (Elt F)) agg (((broadcastInDim S100000x128 ![0, 1] bcast_S100000x1_S100000x128_0_1) : (⟨S100000x1, .f32⟩ : BufTy).Contents (Elt F) → (⟨S100000x128, .f32⟩ : BufTy).Contents (Elt F)) sc)) (((broadcastInDim S100000x128 ![0, 1] bcast_S1x128_S100000x128_0_1) : (⟨S1x128, .f32⟩ : BufTy).Contents (Elt F) → (⟨S100000x128, .f32⟩ : BufTy).Contents (Elt F)) br))

/-- Each row's mean over its 128 channels, as a column. -/
def rowMean (x : (⟨S100000x128, .f32⟩ : BufTy).Contents (Elt F)) : (⟨S100000x1, .f32⟩ : BufTy).Contents (Elt F) :=
  (((Host.divf) : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) ((((fun x v => Host.reduceAdd x v reducesTo_S100000x128_S100000_d1 h_S_)) : (⟨S100000x128, .f32⟩ : BufTy).Contents (Elt F) → (⟨S_, .f32⟩ : BufTy).Contents (Elt F) → (⟨S100000, .f32⟩ : BufTy).Contents (Elt F)) x (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) (constant S_ .f32 0x43000000#32 : (⟨S_, .f32⟩ : BufTy).Contents (Elt F))))

/-- Each row's variance over its 128 channels (the mean of the squared deviations from the row's mean, no degrees of freedom removed), as a column. -/
def rowVar (x : (⟨S100000x128, .f32⟩ : BufTy).Contents (Elt F)) : (⟨S100000x1, .f32⟩ : BufTy).Contents (Elt F) :=
  (((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) x (((broadcastInDim S100000x128 ![0, 1] bcast_S100000x1_S100000x128_0_1) : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) x (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) (constant S_ .f32 0x43000000#32 : (⟨S_, .f32⟩ : BufTy).Contents (Elt F)))))) ((subf : (⟨S100000x128, .f32⟩ : BufTy).Contents (Elt F) → (⟨S100000x128, .f32⟩ : BufTy).Contents (Elt F) → (⟨S100000x128, .f32⟩ : BufTy).Contents (Elt F)) x (((broadcastInDim S100000x128 ![0, 1] bcast_S100000x1_S100000x128_0_1) : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) x (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) (constant S_ .f32 0x43000000#32 : (⟨S_, .f32⟩ : BufTy).Contents (Elt F))))))) (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))))) (((broadcastInDim S100000x1 ![] bcast_S_S100000x1) : (⟨S_, .f32⟩ : BufTy).Contents (Elt F) → (⟨S100000x1, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- Layer normalization given the row means and variances: (x - mean) * rsqrt(var + eps) * gain + shift. -/
def normalize (x : (⟨S100000x128, .f32⟩ : BufTy).Contents (Elt F)) (mu : (⟨S100000x1, .f32⟩ : BufTy).Contents (Elt F)) (va : (⟨S100000x1, .f32⟩ : BufTy).Contents (Elt F)) (gr : (⟨S1x128, .f32⟩ : BufTy).Contents (Elt F)) (lbr : (⟨S1x128, .f32⟩ : BufTy).Contents (Elt F)) : (⟨S100000x128, .f32⟩ : BufTy).Contents (Elt F) :=
  (((addf) : (⟨S100000x128, .f32⟩ : BufTy).Contents (Elt F) → (⟨S100000x128, .f32⟩ : BufTy).Contents (Elt F) → (⟨S100000x128, .f32⟩ : BufTy).Contents (Elt F)) (((mulf) : (⟨S100000x128, .f32⟩ : BufTy).Contents (Elt F) → (⟨S100000x128, .f32⟩ : BufTy).Contents (Elt F) → (⟨S100000x128, .f32⟩ : BufTy).Contents (Elt F)) (((mulf) : (⟨S100000x128, .f32⟩ : BufTy).Contents (Elt F) → (⟨S100000x128, .f32⟩ : BufTy).Contents (Elt F) → (⟨S100000x128, .f32⟩ : BufTy).Contents (Elt F)) (((subf) : (⟨S100000x128, .f32⟩ : BufTy).Contents (Elt F) → (⟨S100000x128, .f32⟩ : BufTy).Contents (Elt F) → (⟨S100000x128, .f32⟩ : BufTy).Contents (Elt F)) x (((broadcastInDim S100000x128 ![0, 1] bcast_S100000x1_S100000x128_0_1) : (⟨S100000x1, .f32⟩ : BufTy).Contents (Elt F) → (⟨S100000x128, .f32⟩ : BufTy).Contents (Elt F)) mu)) (((broadcastInDim S100000x128 ![0, 1] bcast_S100000x1_S100000x128_0_1) : (⟨S100000x1, .f32⟩ : BufTy).Contents (Elt F) → (⟨S100000x128, .f32⟩ : BufTy).Contents (Elt F)) (((Host.rsqrt) : (⟨S100000x1, .f32⟩ : BufTy).Contents (Elt F) → (⟨S100000x1, .f32⟩ : BufTy).Contents (Elt F)) (((addf) : (⟨S100000x1, .f32⟩ : BufTy).Contents (Elt F) → (⟨S100000x1, .f32⟩ : BufTy).Contents (Elt F) → (⟨S100000x1, .f32⟩ : BufTy).Contents (Elt F)) va (((broadcastInDim S100000x1 ![] bcast_S_S100000x1) : (⟨S_, .f32⟩ : BufTy).Contents (Elt F) → (⟨S100000x1, .f32⟩ : BufTy).Contents (Elt F)) (constant S_ .f32 0x3727C5AC#32 : (⟨S_, .f32⟩ : BufTy).Contents (Elt F))))))) (((broadcastInDim S100000x128 ![0, 1] bcast_S1x128_S100000x128_0_1) : (⟨S1x128, .f32⟩ : BufTy).Contents (Elt F) → (⟨S100000x128, .f32⟩ : BufTy).Contents (Elt F)) gr)) (((broadcastInDim S100000x128 ![0, 1] bcast_S1x128_S100000x128_0_1) : (⟨S1x128, .f32⟩ : BufTy).Contents (Elt F) → (⟨S100000x128, .f32⟩ : BufTy).Contents (Elt F)) lbr))

/-- The exponential linear unit: x where x > 0, else 1 * (exp(x) - 1) taken at x (at 0 where x > 0). -/
def elu (x : (⟨S100000x128, .f32⟩ : BufTy).Contents (Elt F)) : (⟨S100000x128, .f32⟩ : BufTy).Contents (Elt F) :=
  ((select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) (((cmpf .ogt) : (⟨S100000x128, .f32⟩ : BufTy).Contents (Elt F) → (⟨S100000x128, .f32⟩ : BufTy).Contents (Elt F) → (⟨S100000x128, .i1⟩ : BufTy).Contents (Elt F)) x (((broadcastInDim S100000x128 ![] bcast_S_S100000x128) : (⟨S_, .f32⟩ : BufTy).Contents (Elt F) → (⟨S100000x128, .f32⟩ : BufTy).Contents (Elt F)) (constant S_ .f32 0x00000000#32 : (⟨S_, .f32⟩ : BufTy).Contents (Elt F)))) x ((mulf : (⟨S100000x128, .f32⟩ : BufTy).Contents (Elt F) → (⟨S100000x128, .f32⟩ : BufTy).Contents (Elt F) → (⟨S100000x128, .f32⟩ : BufTy).Contents (Elt F)) (((broadcastInDim S100000x128 ![] bcast_S_S100000x128) : (⟨S_, .f32⟩ : BufTy).Contents (Elt F) → (⟨S100000x128, .f32⟩ : BufTy).Contents (Elt F)) (constant S_ .f32 0x3F800000#32 : (⟨S_, .f32⟩ : BufTy).Contents (Elt F))) ((Host.expm1 : (⟨S100000x128, .f32⟩ : BufTy).Contents (Elt F) → (⟨S100000x128, .f32⟩ : BufTy).Contents (Elt F)) ((select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) (((cmpf .ogt) : (⟨S100000x128, .f32⟩ : BufTy).Contents (Elt F) → (⟨S100000x128, .f32⟩ : BufTy).Contents (Elt F) → (⟨S100000x128, .i1⟩ : BufTy).Contents (Elt F)) x (((broadcastInDim S100000x128 ![] bcast_S_S100000x128) : (⟨S_, .f32⟩ : BufTy).Contents (Elt F) → (⟨S100000x128, .f32⟩ : BufTy).Contents (Elt F)) (constant S_ .f32 0x00000000#32 : (⟨S_, .f32⟩ : BufTy).Contents (Elt F)))) (((broadcastInDim S100000x128 ![] bcast_S_S100000x128) : (⟨S_, .f32⟩ : BufTy).Contents (Elt F) → (⟨S100000x128, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))) x))))

/-- One node set's layer: the aggregate scaled by the destination-degree column, plus the bias row, layer-normalized over the
    128 channels with gain and shift rows, then the ELU. -/
def lnElu (agg : (⟨S100000x128, .f32⟩ : BufTy).Contents (Elt F)) (sc : (⟨S100000x1, .f32⟩ : BufTy).Contents (Elt F)) (br gr lbr : (⟨S1x128, .f32⟩ : BufTy).Contents (Elt F)) : (⟨S100000x128, .f32⟩ : BufTy).Contents (Elt F) :=
  elu (normalize (scaleBias agg sc br) (rowMean (scaleBias agg sc br)) (rowVar (scaleBias agg sc br)) gr lbr)

/-- Row 0 of a [3,128] table of per-layer parameters, as a vector. -/
def ln3_0 (a : (⟨S3x128, .f32⟩ : BufTy).Contents (Elt F)) : (⟨S128, .f32⟩ : BufTy).Contents (Elt F) :=
  ((shapeCast _ ((((extractStridedSlice S1x128 ![0, 0] · slices_S3x128_S1x128_0_0)) : (⟨S3x128, .f32⟩ : BufTy).Contents (Elt F) → (⟨S1x128, .f32⟩ : BufTy).Contents (Elt F)) a) shapeCasts_S1x128_S128 : (⟨S128, .f32⟩ : BufTy).Contents (Elt F)))

/-- Row 1 of a [3,128] table of per-layer parameters, as a vector. -/
def ln3_1 (a : (⟨S3x128, .f32⟩ : BufTy).Contents (Elt F)) : (⟨S128, .f32⟩ : BufTy).Contents (Elt F) :=
  ((shapeCast _ ((((extractStridedSlice S1x128 ![1, 0] · slices_S3x128_S1x128_1_0)) : (⟨S3x128, .f32⟩ : BufTy).Contents (Elt F) → (⟨S1x128, .f32⟩ : BufTy).Contents (Elt F)) a) shapeCasts_S1x128_S128 : (⟨S128, .f32⟩ : BufTy).Contents (Elt F)))

/-- Row 2 of a [3,128] table of per-layer parameters, as a vector. -/
def ln3_2 (a : (⟨S3x128, .f32⟩ : BufTy).Contents (Elt F)) : (⟨S128, .f32⟩ : BufTy).Contents (Elt F) :=
  ((shapeCast _ ((((extractStridedSlice S1x128 ![2, 0] · slices_S3x128_S1x128_2_0)) : (⟨S3x128, .f32⟩ : BufTy).Contents (Elt F) → (⟨S1x128, .f32⟩ : BufTy).Contents (Elt F)) a) shapeCasts_S1x128_S128 : (⟨S128, .f32⟩ : BufTy).Contents (Elt F)))

/-- Matrix 0 of a [2,128,128] stack of weights. -/
def w2_0 (a : (⟨S2x128x128, .f32⟩ : BufTy).Contents (Elt F)) : (⟨S128x128, .f32⟩ : BufTy).Contents (Elt F) :=
  ((shapeCast _ ((((extractStridedSlice S1x128x128 ![0, 0, 0] · slices_S2x128x128_S1x128x128_0_0_0)) : (⟨S2x128x128, .f32⟩ : BufTy).Contents (Elt F) → (⟨S1x128x128, .f32⟩ : BufTy).Contents (Elt F)) a) shapeCasts_S1x128x128_S128x128 : (⟨S128x128, .f32⟩ : BufTy).Contents (Elt F)))

/-- Matrix 1 of a [2,128,128] stack of weights. -/
def w2_1 (a : (⟨S2x128x128, .f32⟩ : BufTy).Contents (Elt F)) : (⟨S128x128, .f32⟩ : BufTy).Contents (Elt F) :=
  ((shapeCast _ ((((extractStridedSlice S1x128x128 ![1, 0, 0] · slices_S2x128x128_S1x128x128_1_0_0)) : (⟨S2x128x128, .f32⟩ : BufTy).Contents (Elt F) → (⟨S1x128x128, .f32⟩ : BufTy).Contents (Elt F)) a) shapeCasts_S1x128x128_S128x128 : (⟨S128x128, .f32⟩ : BufTy).Contents (Elt F)))

/-- Row 0 of a [2,128] stack of biases, as a vector. -/
def b2_0 (a : (⟨S2x128, .f32⟩ : BufTy).Contents (Elt F)) : (⟨S128, .f32⟩ : BufTy).Contents (Elt F) :=
  ((shapeCast _ ((((extractStridedSlice S1x128 ![0, 0] · slices_S2x128_S1x128_0_0)) : (⟨S2x128, .f32⟩ : BufTy).Contents (Elt F) → (⟨S1x128, .f32⟩ : BufTy).Contents (Elt F)) a) shapeCasts_S1x128_S128 : (⟨S128, .f32⟩ : BufTy).Contents (Elt F)))

/-- Row 1 of a [2,128] stack of biases, as a vector. -/
def b2_1 (a : (⟨S2x128, .f32⟩ : BufTy).Contents (Elt F)) : (⟨S128, .f32⟩ : BufTy).Contents (Elt F) :=
  ((shapeCast _ ((((extractStridedSlice S1x128 ![1, 0] · slices_S2x128_S1x128_1_0)) : (⟨S2x128, .f32⟩ : BufTy).Contents (Elt F) → (⟨S1x128, .f32⟩ : BufTy).Contents (Elt F)) a) shapeCasts_S1x128_S128 : (⟨S128, .f32⟩ : BufTy).Contents (Elt F)))

/-- The read-out: the two node sets' column means (sum over the 100000 rows, divided by 100000) added. -/
def pooled (hn : (⟨S100000x128, .f32⟩ : BufTy).Contents (Elt F)) (hl : (⟨S100000x128, .f32⟩ : BufTy).Contents (Elt F)) : (⟨S128, .f32⟩ : BufTy).Contents (Elt F) :=
  (((addf) : (⟨S128, .f32⟩ : BufTy).Contents (Elt F) → (⟨S128, .f32⟩ : BufTy).Contents (Elt F) → (⟨S128, .f32⟩ : BufTy).Contents (Elt F)) (((Host.divf) : (⟨S128, .f32⟩ : BufTy).Contents (Elt F) → (⟨S128, .f32⟩ : BufTy).Contents (Elt F) → (⟨S128, .f32⟩ : BufTy).Contents (Elt F)) ((((fun x v => Host.reduceAdd x v reducesTo_S100000x128_S128_d0 h_S_)) : (⟨S100000x128, .f32⟩ : BufTy).Contents (Elt F) → (⟨S_, .f32⟩ : BufTy).Contents (Elt F) → (⟨S128, .f32⟩ : BufTy).Contents (Elt F)) hn (constant S_ .f32 0x00000000#32 : (⟨S_, .f32⟩ : BufTy).Contents (Elt F))) (((broadcastInDim S128 ![] bcast_S_S128) : (⟨S_, .f32⟩ : BufTy).Contents (Elt F) → (⟨S128, .f32⟩ : BufTy).Contents (Elt F)) (constant S_ .f32 0x47C35000#32 : (⟨S_, .f32⟩ : BufTy).Contents (Elt F)))) (((Host.divf) : (⟨S128, .f32⟩ : BufTy).Contents (Elt F) → (⟨S128, .f32⟩ : BufTy).Contents (Elt F) → (⟨S128, .f32⟩ : BufTy).Contents (Elt F)) ((((fun x v => Host.reduceAdd x v reducesTo_S100000x128_S128_d0 h_S_)) : (⟨S100000x128, .f32⟩ : BufTy).Contents (Elt F) → (⟨S_, .f32⟩ : BufTy).Contents (Elt F) → (⟨S128, .f32⟩ : BufTy).Contents (Elt F)) hl (constant S_ .f32 0x00000000#32 : (⟨S_, .f32⟩ : BufTy).Contents (Elt F))) (((broadcastInDim S128 ![] bcast_S_S128) : (⟨S_, .f32⟩ : BufTy).Contents (Elt F) → (⟨S128, .f32⟩ : BufTy).Contents (Elt F)) (constant S_ .f32 0x47C35000#32 : (⟨S_, .f32⟩ : BufTy).Contents (Elt F)))))

/-- The latent vector: relu(hg W1 + b1) W2 + b2. -/
def latent (hg : (⟨S1x128, .f32⟩ : BufTy).Contents (Elt F)) (a18 : (⟨S128x64, .f32⟩ : BufTy).Contents (Elt F)) (a19 : (⟨S64, .f32⟩ : BufTy).Contents (Elt F)) (a20 : (⟨S64x64, .f32⟩ : BufTy).Contents (Elt F)) (a21 : (⟨S64, .f32⟩ : BufTy).Contents (Elt F)) (a22 : (⟨S64x128, .f32⟩ : BufTy).Contents (Elt F)) (a23 : (⟨S128, .f32⟩ : BufTy).Contents (Elt F)) (a24 : (⟨S128x128, .f32⟩ : BufTy).Contents (Elt F)) (a25 : (⟨S128, .f32⟩ : BufTy).Contents (Elt F)) (a26 : (⟨S128x64, .f32⟩ : BufTy).Contents (Elt F)) (a27 : (⟨S64, .f32⟩ : BufTy).Contents (Elt F)) (a28 : (⟨S64x64, .f32⟩ : BufTy).Contents (Elt F)) (a29 : (⟨S64, .f32⟩ : BufTy).Contents (Elt F)) (a30 : (⟨S64x32, .f32⟩ : BufTy).Contents (Elt F)) (a31 : (⟨S32, .f32⟩ : BufTy).Contents (Elt F)) (a32 : (⟨S32x1, .f32⟩ : BufTy).Contents (Elt F)) (a33 : (⟨S1, .f32⟩ : BufTy).Contents (Elt F)) : (⟨S1x64, .f32⟩ : BufTy).Contents (Elt F) :=
  (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x64_S64x64_S1x64_1_0_0_1_n_n none l r)) : (⟨S1x64, .f32⟩ : BufTy).Contents (Elt F) → (⟨S64x64, .f32⟩ : BufTy).Contents (Elt F) → (⟨S1x64, .f32⟩ : BufTy).Contents (Elt F)) ((maximumf : (⟨S1x64, .f32⟩ : BufTy).Contents (Elt F) → (⟨S1x64, .f32⟩ : BufTy).Contents (Elt F) → (⟨S1x64, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x128_S128x64_S1x64_1_0_0_1_n_n none l r)) : (⟨S1x128, .f32⟩ : BufTy).Contents (Elt F) → (⟨S128x64, .f32⟩ : BufTy).Contents (Elt F) → (⟨S1x64, .f32⟩ : BufTy).Contents (Elt F)) hg a18) (((broadcastInDim S1x64 ![1] bcast_S64_S1x64_1) : (⟨S64, .f32⟩ : BufTy).Contents (Elt F) → (⟨S1x64, .f32⟩ : BufTy).Contents (Elt F)) a19)) (((broadcastInDim S1x64 ![] bcast_S_S1x64) : (⟨S_, .f32⟩ : BufTy).Contents (Elt F) → (⟨S1x64, .f32⟩ : BufTy).Contents (Elt F)) (constant S_ .f32 0x00000000#32 : (⟨S_, .f32⟩ : BufTy).Contents (Elt F)))) a20) (((broadcastInDim S1x64 ![1] bcast_S64_S1x64_1) : (⟨S64, .f32⟩ : BufTy).Contents (Elt F) → (⟨S1x64, .f32⟩ : BufTy).Contents (Elt F)) a21))

/-- The decoder head on the latent vector. -/
def reconstruction (hg : (⟨S1x128, .f32⟩ : BufTy).Contents (Elt F)) (a18 : (⟨S128x64, .f32⟩ : BufTy).Contents (Elt F)) (a19 : (⟨S64, .f32⟩ : BufTy).Contents (Elt F)) (a20 : (⟨S64x64, .f32⟩ : BufTy).Contents (Elt F)) (a21 : (⟨S64, .f32⟩ : BufTy).Contents (Elt F)) (a22 : (⟨S64x128, .f32⟩ : BufTy).Contents (Elt F)) (a23 : (⟨S128, .f32⟩ : BufTy).Contents (Elt F)) (a24 : (⟨S128x128, .f32⟩ : BufTy).Contents (Elt F)) (a25 : (⟨S128, .f32⟩ : BufTy).Contents (Elt F)) (a26 : (⟨S128x64, .f32⟩ : BufTy).Contents (Elt F)) (a27 : (⟨S64, .f32⟩ : BufTy).Contents (Elt F)) (a28 : (⟨S64x64, .f32⟩ : BufTy).Contents (Elt F)) (a29 : (⟨S64, .f32⟩ : BufTy).Contents (Elt F)) (a30 : (⟨S64x32, .f32⟩ : BufTy).Contents (Elt F)) (a31 : (⟨S32, .f32⟩ : BufTy).Contents (Elt F)) (a32 : (⟨S32x1, .f32⟩ : BufTy).Contents (Elt F)) (a33 : (⟨S1, .f32⟩ : BufTy).Contents (Elt F)) : (⟨S1x64, .f32⟩ : BufTy).Contents (Elt F) :=
  (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x128_S128x64_S1x64_1_0_0_1_n_n none l r)) : (⟨S1x128, .f32⟩ : BufTy).Contents (Elt F) → (⟨S128x64, .f32⟩ : BufTy).Contents (Elt F) → (⟨S1x64, .f32⟩ : BufTy).Contents (Elt F)) ((maximumf : (⟨S1x128, .f32⟩ : BufTy).Contents (Elt F) → (⟨S1x128, .f32⟩ : BufTy).Contents (Elt F) → (⟨S1x128, .f32⟩ : BufTy).Contents (Elt F)) (((addf) : (⟨S1x128, .f32⟩ : BufTy).Contents (Elt F) → (⟨S1x128, .f32⟩ : BufTy).Contents (Elt F) → (⟨S1x128, .f32⟩ : BufTy).Contents (Elt F)) ((((fun l r => Host.dotGeneral dot_S1x128_S128x128_S1x128_1_0_0_1_n_n none l r)) : (⟨S1x128, .f32⟩ : BufTy).Contents (Elt F) → (⟨S128x128, .f32⟩ : BufTy).Contents (Elt F) → (⟨S1x128, .f32⟩ : BufTy).Contents (Elt F)) ((maximumf : (⟨S1x128, .f32⟩ : BufTy).Contents (Elt F) → (⟨S1x128, .f32⟩ : BufTy).Contents (Elt F) → (⟨S1x128, .f32⟩ : BufTy).Contents (Elt F)) (((addf) : (⟨S1x128, .f32⟩ : BufTy).Contents (Elt F) → (⟨S1x128, .f32⟩ : BufTy).Contents (Elt F) → (⟨S1x128, .f32⟩ : BufTy).Contents (Elt F)) ((((fun l r => Host.dotGeneral dot_S1x64_S64x128_S1x128_1_0_0_1_n_n none l r)) : (⟨S1x64, .f32⟩ : BufTy).Contents (Elt F) → (⟨S64x128, .f32⟩ : BufTy).Contents (Elt F) → (⟨S1x128, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x64_S64x64_S1x64_1_0_0_1_n_n none l r)) : (⟨S1x64, .f32⟩ : BufTy).Contents (Elt F) → (⟨S64x64, .f32⟩ : BufTy).Contents (Elt F) → (⟨S1x64, .f32⟩ : BufTy).Contents (Elt F)) ((maximumf : (⟨S1x64, .f32⟩ : BufTy).Contents (Elt F) → (⟨S1x64, .f32⟩ : BufTy).Contents (Elt F) → (⟨S1x64, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x128_S128x64_S1x64_1_0_0_1_n_n none l r)) : (⟨S1x128, .f32⟩ : BufTy).Contents (Elt F) → (⟨S128x64, .f32⟩ : BufTy).Contents (Elt F) → (⟨S1x64, .f32⟩ : BufTy).Contents (Elt F)) hg a18) (((broadcastInDim S1x64 ![1] bcast_S64_S1x64_1) : (⟨S64, .f32⟩ : BufTy).Contents (Elt F) → (⟨S1x64, .f32⟩ : BufTy).Contents (Elt F)) a19)) (((broadcastInDim S1x64 ![] bcast_S_S1x64) : (⟨S_, .f32⟩ : BufTy).Contents (Elt F) → (⟨S1x64, .f32⟩ : BufTy).Contents (Elt F)) (constant S_ .f32 0x00000000#32 : (⟨S_, .f32⟩ : BufTy).Contents (Elt F)))) a20) (((broadcastInDim S1x64 ![1] bcast_S64_S1x64_1) : (⟨S64, .f32⟩ : BufTy).Contents (Elt F) → (⟨S1x64, .f32⟩ : BufTy).Contents (Elt F)) a21)) a22) (((broadcastInDim S1x128 ![1] bcast_S128_S1x128_1) : (⟨S128, .f32⟩ : BufTy).Contents (Elt F) → (⟨S1x128, .f32⟩ : BufTy).Contents (Elt F)) a23)) (((broadcastInDim S1x128 ![] bcast_S_S1x128) : (⟨S_, .f32⟩ : BufTy).Contents (Elt F) → (⟨S1x128, .f32⟩ : BufTy).Contents (Elt F)) (constant S_ .f32 0x00000000#32 : (⟨S_, .f32⟩ : BufTy).Contents (Elt F)))) a24) (((broadcastInDim S1x128 ![1] bcast_S128_S1x128_1) : (⟨S128, .f32⟩ : BufTy).Contents (Elt F) → (⟨S1x128, .f32⟩ : BufTy).Contents (Elt F)) a25)) (((broadcastInDim S1x128 ![] bcast_S_S1x128) : (⟨S_, .f32⟩ : BufTy).Contents (Elt F) → (⟨S1x128, .f32⟩ : BufTy).Contents (Elt F)) (constant S_ .f32 0x00000000#32 : (⟨S_, .f32⟩ : BufTy).Contents (Elt F)))) a26) (((broadcastInDim S1x64 ![1] bcast_S64_S1x64_1) : (⟨S64, .f32⟩ : BufTy).Contents (Elt F) → (⟨S1x64, .f32⟩ : BufTy).Contents (Elt F)) a27))

/-- The property head on the latent vector. -/
def property (hg : (⟨S1x128, .f32⟩ : BufTy).Contents (Elt F)) (a18 : (⟨S128x64, .f32⟩ : BufTy).Contents (Elt F)) (a19 : (⟨S64, .f32⟩ : BufTy).Contents (Elt F)) (a20 : (⟨S64x64, .f32⟩ : BufTy).Contents (Elt F)) (a21 : (⟨S64, .f32⟩ : BufTy).Contents (Elt F)) (a22 : (⟨S64x128, .f32⟩ : BufTy).Contents (Elt F)) (a23 : (⟨S128, .f32⟩ : BufTy).Contents (Elt F)) (a24 : (⟨S128x128, .f32⟩ : BufTy).Contents (Elt F)) (a25 : (⟨S128, .f32⟩ : BufTy).Contents (Elt F)) (a26 : (⟨S128x64, .f32⟩ : BufTy).Contents (Elt F)) (a27 : (⟨S64, .f32⟩ : BufTy).Contents (Elt F)) (a28 : (⟨S64x64, .f32⟩ : BufTy).Contents (Elt F)) (a29 : (⟨S64, .f32⟩ : BufTy).Contents (Elt F)) (a30 : (⟨S64x32, .f32⟩ : BufTy).Contents (Elt F)) (a31 : (⟨S32, .f32⟩ : BufTy).Contents (Elt F)) (a32 : (⟨S32x1, .f32⟩ : BufTy).Contents (Elt F)) (a33 : (⟨S1, .f32⟩ : BufTy).Contents (Elt F)) : (⟨S1x1, .f32⟩ : BufTy).Contents (Elt F) :=
  (((addf) : (⟨S1x1, .f32⟩ : BufTy).Contents (Elt F) → (⟨S1x1, .f32⟩ : BufTy).Contents (Elt F) → (⟨S1x1, .f32⟩ : BufTy).Contents (Elt F)) ((((fun l r => Host.dotGeneral dot_S1x32_S32x1_S1x1_1_0_0_1_n_n none l r)) : (⟨S1x32, .f32⟩ : BufTy).Contents (Elt F) → (⟨S32x1, .f32⟩ : BufTy).Contents (Elt F) → (⟨S1x1, .f32⟩ : BufTy).Contents (Elt F)) ((maximumf : (⟨S1x32, .f32⟩ : BufTy).Contents (Elt F) → (⟨S1x32, .f32⟩ : BufTy).Contents (Elt F) → (⟨S1x32, .f32⟩ : BufTy).Contents (Elt F)) (((addf) : (⟨S1x32, .f32⟩ : BufTy).Contents (Elt F) → (⟨S1x32, .f32⟩ : BufTy).Contents (Elt F) → (⟨S1x32, .f32⟩ : BufTy).Contents (Elt F)) ((((fun l r => Host.dotGeneral dot_S1x64_S64x32_S1x32_1_0_0_1_n_n none l r)) : (⟨S1x64, .f32⟩ : BufTy).Contents (Elt F) → (⟨S64x32, .f32⟩ : BufTy).Contents (Elt F) → (⟨S1x32, .f32⟩ : BufTy).Contents (Elt F)) ((maximumf : (⟨S1x64, .f32⟩ : BufTy).Contents (Elt F) → (⟨S1x64, .f32⟩ : BufTy).Contents (Elt F) → (⟨S1x64, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x64_S64x64_S1x64_1_0_0_1_n_n none l r)) : (⟨S1x64, .f32⟩ : BufTy).Contents (Elt F) → (⟨S64x64, .f32⟩ : BufTy).Contents (Elt F) → (⟨S1x64, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x64_S64x64_S1x64_1_0_0_1_n_n none l r)) : (⟨S1x64, .f32⟩ : BufTy).Contents (Elt F) → (⟨S64x64, .f32⟩ : BufTy).Contents (Elt F) → (⟨S1x64, .f32⟩ : BufTy).Contents (Elt F)) ((maximumf : (⟨S1x64, .f32⟩ : BufTy).Contents (Elt F) → (⟨S1x64, .f32⟩ : BufTy).Contents (Elt F) → (⟨S1x64, .f32⟩ : BufTy).Contents (Elt F)) (((addf) : (⟨S1x64, .f32⟩ : BufTy).Contents (Elt F) → (⟨S1x64, .f32⟩ : BufTy).Contents (Elt F) → (⟨S1x64, .f32⟩ : BufTy).Contents (Elt F)) ((((fun l r => Host.dotGeneral dot_S1x128_S128x64_S1x64_1_0_0_1_n_n none l r)) : (⟨S1x128, .f32⟩ : BufTy).Contents (Elt F) → (⟨S128x64, .f32⟩ : BufTy).Contents (Elt F) → (⟨S1x64, .f32⟩ : BufTy).Contents (Elt F)) hg a18) (((broadcastInDim S1x64 ![1] bcast_S64_S1x64_1) : (⟨S64, .f32⟩ : BufTy).Contents (Elt F) → (⟨S1x64, .f32⟩ : BufTy).Contents (Elt F)) a19)) (((broadcastInDim S1x64 ![] bcast_S_S1x64) : (⟨S_, .f32⟩ : BufTy).Contents (Elt F) → (⟨S1x64, .f32⟩ : BufTy).Contents (Elt F)) (constant S_ .f32 0x00000000#32 : (⟨S_, .f32⟩ : BufTy).Contents (Elt F)))) a20) (((broadcastInDim S1x64 ![1] bcast_S64_S1x64_1) : (⟨S64, .f32⟩ : BufTy).Contents (Elt F) → (⟨S1x64, .f32⟩ : BufTy).Contents (Elt F)) a21)) a28) (((broadcastInDim S1x64 ![1] bcast_S64_S1x64_1) : (⟨S64, .f32⟩ : BufTy).Contents (Elt F) → (⟨S1x64, .f32⟩ : BufTy).Contents (Elt F)) a29)) (((broadcastInDim S1x64 ![] bcast_S_S1x64) : (⟨S_, .f32⟩ : BufTy).Contents (Elt F) → (⟨S1x64, .f32⟩ : BufTy).Contents (Elt F)) (constant S_ .f32 0x00000000#32 : (⟨S_, .f32⟩ : BufTy).Contents (Elt F)))) a30) (((broadcastInDim S1x32 ![1] bcast_S32_S1x32_1) : (⟨S32, .f32⟩ : BufTy).Contents (Elt F) → (⟨S1x32, .f32⟩ : BufTy).Contents (Elt F)) a31)) (((broadcastInDim S1x32 ![] bcast_S_S1x32) : (⟨S_, .f32⟩ : BufTy).Contents (Elt F) → (⟨S1x32, .f32⟩ : BufTy).Contents (Elt F)) (constant S_ .f32 0x00000000#32 : (⟨S_, .f32⟩ : BufTy).Contents (Elt F)))) a32) (((broadcastInDim S1x1 ![1] bcast_S1_S1x1_1) : (⟨S1, .f32⟩ : BufTy).Contents (Elt F) → (⟨S1x1, .f32⟩ : BufTy).Contents (Elt F)) a33))

end Cert.Spec

end
-- ==== Proof.Net.lean ====
/-
  The whole computation, once, as functions of the 34 argument arrays: the four inverse-square-root degree vectors; three
  layers, each giving both node sets their new features from the other set's (project the source features scaled by the
  source-degree column, pass messages along the edges, scale by the destination-degree column and add the bias, normalize
  over the channels, ELU); the mean read-out; the three heads.  Every step is one of the stage functions, and every
  intermediate array that is used more than once has a name.
-/
import proofs.«165753_j16037407883756_1_alg».proof.Proof.Spec

noncomputable section

namespace Cert.Net

open Cert.ReferenceIdeal Cert.ReferenceIdeal.Gen Idealize.ShloMosaic Idealize.ShloMosaic.TcCoe Cert.Spec

variable {F : FTy → Type} [FloatOps F]

/-- The 34 argument arrays. -/
structure Args (F : FTy → Type) [FloatOps F] where
  a0 : (⟨S100000x200, .f32⟩ : BufTy).Contents (Elt F)
  a1 : (⟨S100000x300, .f32⟩ : BufTy).Contents (Elt F)
  a2 : (⟨S1600000, .i32⟩ : BufTy).Contents (Elt F)
  a3 : (⟨S1600000, .i32⟩ : BufTy).Contents (Elt F)
  a4 : (⟨S1600000, .i32⟩ : BufTy).Contents (Elt F)
  a5 : (⟨S1600000, .i32⟩ : BufTy).Contents (Elt F)
  a6 : (⟨S300x128, .f32⟩ : BufTy).Contents (Elt F)
  a7 : (⟨S128, .f32⟩ : BufTy).Contents (Elt F)
  a8 : (⟨S200x128, .f32⟩ : BufTy).Contents (Elt F)
  a9 : (⟨S128, .f32⟩ : BufTy).Contents (Elt F)
  a10 : (⟨S2x128x128, .f32⟩ : BufTy).Contents (Elt F)
  a11 : (⟨S2x128, .f32⟩ : BufTy).Contents (Elt F)
  a12 : (⟨S2x128x128, .f32⟩ : BufTy).Contents (Elt F)
  a13 : (⟨S2x128, .f32⟩ : BufTy).Contents (Elt F)
  a14 : (⟨S3x128, .f32⟩ : BufTy).Contents (Elt F)
  a15 : (⟨S3x128, .f32⟩ : BufTy).Contents (Elt F)
  a16 : (⟨S3x128, .f32⟩ : BufTy).Contents (Elt F)
  a17 : (⟨S3x128, .f32⟩ : BufTy).Contents (Elt F)
  a18 : (⟨S128x64, .f32⟩ : BufTy).Contents (Elt F)
  a19 : (⟨S64, .f32⟩ : BufTy).Contents (Elt F)
  a20 : (⟨S64x64, .f32⟩ : BufTy).Contents (Elt F)
  a21 : (⟨S64, .f32⟩ : BufTy).Contents (Elt F)
  a22 : (⟨S64x128, .f32⟩ : BufTy).Contents (Elt F)
  a23 : (⟨S128, .f32⟩ : BufTy).Contents (Elt F)
  a24 : (⟨S128x128, .f32⟩ : BufTy).Contents (Elt F)
  a25 : (⟨S128, .f32⟩ : BufTy).Contents (Elt F)
  a26 : (⟨S128x64, .f32⟩ : BufTy).Contents (Elt F)
  a27 : (⟨S64, .f32⟩ : BufTy).Contents (Elt F)
  a28 : (⟨S64x64, .f32⟩ : BufTy).Contents (Elt F)
  a29 : (⟨S64, .f32⟩ : BufTy).Contents (Elt F)
  a30 : (⟨S64x32, .f32⟩ : BufTy).Contents (Elt F)
  a31 : (⟨S32, .f32⟩ : BufTy).Contents (Elt F)
  a32 : (⟨S32x1, .f32⟩ : BufTy).Contents (Elt F)
  a33 : (⟨S1, .f32⟩ : BufTy).Contents (Elt F)

variable (A : Args F)

/-- Source-degree norm of the l→n edges. -/
def csLN := invSqrtDeg A.a2
/-- Destination-degree norm of the l→n edges. -/
def cdLN := invSqrtDeg A.a3
/-- Source-degree norm of the n→l edges. -/
def csNL := invSqrtDeg A.a4
/-- Destination-degree norm of the n→l edges. -/
def cdNL := invSqrtDeg A.a5

/-! ### Layer 1 -/

/-- The l nodes' features, scaled and projected. -/
def mmN1 := scaleMatmul300 A.a1 (col (csLN A)) A.a6
/-- Summed into the n nodes along the l→n edges. -/
def aggN1 := aggregate (mmN1 A) A.a2 A.a3
/-- Scaled by the destination norm, plus the bias. -/
def xN1 := scaleBias (aggN1 A) (col (cdLN A)) (row A.a7)
/-- The n nodes' features, scaled and projected. -/
def mmL1 := scaleMatmul200 A.a0 (col (csNL A)) A.a8
/-- Summed into the l nodes along the n→l edges. -/
def aggL1 := aggregate (mmL1 A) A.a4 A.a5
/-- Scaled by the destination norm, plus the bias. -/
def xL1 := scaleBias (aggL1 A) (col (cdNL A)) (row A.a9)
/-- The n nodes after layer 1: normalized over the channels, then the ELU. -/
def hn1 := elu (normalize (xN1 A) (rowMean (xN1 A)) (rowVar (xN1 A)) (row (ln3_0 A.a14)) (row (ln3_0 A.a15)))
/-- The l nodes after layer 1. -/
def hl1 := elu (normalize (xL1 A) (rowMean (xL1 A)) (rowVar (xL1 A)) (row (ln3_0 A.a16)) (row (ln3_0 A.a17)))

/-! ### Layer 2 -/

def bN2 := b2_0 A.a11
def wL2 := w2_0 A.a12
def bL2 := b2_0 A.a13
/-- The l nodes' features, scaled and projected. -/
def mmN2 := scaleMatmul128 (hl1 A) (col (csLN A)) (w2_0 A.a10)
/-- Summed into the n nodes along the l→n edges. -/
def aggN2 := aggregate (mmN2 A) A.a2 A.a3
/-- Scaled by the destination norm, plus the bias. -/
def xN2 := scaleBias (aggN2 A) (col (cdLN A)) (row (bN2 A))
/-- The n nodes' features, scaled and projected. -/
def mmL2 := scaleMatmul128 (hn1 A) (col (csNL A)) (wL2 A)
/-- Summed into the l nodes along the n→l edges. -/
def aggL2 := aggregate (mmL2 A) A.a4 A.a5
/-- Scaled by the destination norm, plus the bias. -/
def xL2 := scaleBias (aggL2 A) (col (cdNL A)) (row (bL2 A))
/-- The n nodes after layer 2: normalized over the channels, then the ELU. -/
def hn2 := elu (normalize (xN2 A) (rowMean (xN2 A)) (rowVar (xN2 A)) (row (ln3_1 A.a14)) (row (ln3_1 A.a15)))
/-- The l nodes after layer 2. -/
def hl2 := elu (normalize (xL2 A) (rowMean (xL2 A)) (rowVar (xL2 A)) (row (ln3_1 A.a16)) (row (ln3_1 A.a17)))

/-! ### Layer 3 -/

def bN3 := b2_1 A.a11
def wL3 := w2_1 A.a12
def bL3 := b2_1 A.a13
/-- The l nodes' features, scaled and projected. -/
def mmN3 := scaleMatmul128 (hl2 A) (col (csLN A)) (w2_1 A.a10)
/-- Summed into the n nodes along the l→n edges. -/
def aggN3 := aggregate (mmN3 A) A.a2 A.a3
/-- Scaled by the destination norm, plus the bias. -/
def xN3 := scaleBias (aggN3 A) (col (cdLN A)) (row (bN3 A))
/-- The n nodes' features, scaled and projected. -/
def mmL3 := scaleMatmul128 (hn2 A) (col (csNL A)) (wL3 A)
/-- Summed into the l nodes along the n→l edges. -/
def aggL3 := aggregate (mmL3 A) A.a4 A.a5
/-- Scaled by the destination norm, plus the bias. -/
def xL3 := scaleBias (aggL3 A) (col (cdNL A)) (row (bL3 A))
/-- The n nodes after layer 3: normalized over the channels, then the ELU. -/
def hn3 := elu (normalize (xN3 A) (rowMean (xN3 A)) (rowVar (xN3 A)) (row (ln3_2 A.a14)) (row (ln3_2 A.a15)))
/-- The l nodes after layer 3. -/
def hl3 := elu (normalize (xL3 A) (rowMean (xL3 A)) (rowVar (xL3 A)) (row (ln3_2 A.a16)) (row (ln3_2 A.a17)))

/-! ### Read-out and heads -/

/-- The graph embedding: both node sets' means over their rows, added, as a row. -/
def hg := row (pooled (hn3 A) (hl3 A))
def outLatent := latent (hg A) A.a18 A.a19 A.a20 A.a21 A.a22 A.a23 A.a24 A.a25 A.a26 A.a27 A.a28 A.a29 A.a30 A.a31 A.a32 A.a33
def outReconstruction := reconstruction (hg A) A.a18 A.a19 A.a20 A.a21 A.a22 A.a23 A.a24 A.a25 A.a26 A.a27 A.a28 A.a29 A.a30 A.a31 A.a32 A.a33
def outProperty := property (hg A) A.a18 A.a19 A.a20 A.a21 A.a22 A.a23 A.a24 A.a25 A.a26 A.a27 A.a28 A.a29 A.a30 A.a31 A.a32 A.a33

end Cert.Net

end
-- ==== Proof.KArgs.lean ====
/-
  The argument arrays read out of a TensorCore's buffer contents, for the kernel program's signature.
-/
import proofs.«165753_j16037407883756_1_alg».proof.Proof.Net
import proofs.«165753_j16037407883756_1_alg».proof.Proof.Gen.KernelIdeal.Launch
import Idealize.ShloMosaic.Lib.StableHlo.Run

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The 34 argument arrays as some contents hold them. -/
abbrev argsOf (V : Valuation τ sig (Elt F)) : Cert.Net.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24), V (Proc.devRef .tc main_arg25), V (Proc.devRef .tc main_arg26), V (Proc.devRef .tc main_arg27), V (Proc.devRef .tc main_arg28), V (Proc.devRef .tc main_arg29), V (Proc.devRef .tc main_arg30), V (Proc.devRef .tc main_arg31), V (Proc.devRef .tc main_arg32), V (Proc.devRef .tc main_arg33)⟩

end Cert.KernelIdeal.Stages

end
-- ==== Proof.LibReshape.lean ====
/-
  Two spellings of one relabelling. A vector of length n viewed as a row [1,n] or as a column [n,1] holds, at every
  index, the vector's entry at the one coordinate that is not on the unit axis — whether the view is written as a
  reshape or as a broadcast into the named axis.
-/
import Idealize.ShloMosaic.Lib.Pipeline.Value

noncomputable section

namespace Cert.Glue

open Idealize.ShloMosaic

variable {α : Type}

/-- A length-n vector reshaped to the row [1,n] is its broadcast along axis 1. -/
theorem row_eq (n : Nat) (v : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v h = broadcastInDim ⟨2, ![1, n]⟩ ![1] hb v := by
  funext j
  have hj0 : (j 0).val < 1 := (j 0).isLt
  have hj1 : (j 1).val < n := (j 1).isLt
  have h0 : (j 0).val = 0 := by omega
  let k : (⟨1, ![n]⟩ : Shape).Idx := fun a => match a with | ⟨0, _⟩ => ⟨(j 1).val, hj1⟩
  have hk : ((⟨1, ![n]⟩ : Shape).rowMajor k).val = ((⟨2, ![1, n]⟩ : Shape).rowMajor j).val := by
    rw [Shape.rowMajor_val_one, Shape.rowMajor_val_two]
    show (j 1).val = (j 0).val * n + (j 1).val
    rw [h0, Nat.zero_mul, Nat.zero_add]
  rw [shapeCast_apply v h j k hk]
  refine (broadcastInDim_apply ![1] hb v j k (fun a => ?_)).symm
  match a with
  | ⟨0, _⟩ =>
    show (j 1).val = if n = 1 then 0 else (j 1).val
    by_cases hn : n = 1
    · rw [if_pos hn]; omega
    · rw [if_neg hn]

/-- A length-n vector reshaped to the column [n,1] is its broadcast along axis 0. -/
theorem col_eq (n : Nat) (v : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ v h = broadcastInDim ⟨2, ![n, 1]⟩ ![0] hb v := by
  funext j
  have hj0 : (j 0).val < n := (j 0).isLt
  have hj1 : (j 1).val < 1 := (j 1).isLt
  have h1 : (j 1).val = 0 := by omega
  let k : (⟨1, ![n]⟩ : Shape).Idx := fun a => match a with | ⟨0, _⟩ => ⟨(j 0).val, hj0⟩
  have hk : ((⟨1, ![n]⟩ : Shape).rowMajor k).val = ((⟨2, ![n, 1]⟩ : Shape).rowMajor j).val := by
    rw [Shape.rowMajor_val_one, Shape.rowMajor_val_two]
    show (j 0).val = (j 0).val * 1 + (j 1).val
    rw [h1, Nat.mul_one, Nat.add_zero]
  rw [shapeCast_apply v h j k hk]
  refine (broadcastInDim_apply ![0] hb v j k (fun a => ?_)).symm
  match a with
  | ⟨0, _⟩ =>
    show (j 0).val = if n = 1 then 0 else (j 0).val
    by_cases hn : n = 1
    · rw [if_pos hn]; omega
    · rw [if_neg hn]

end Cert.Glue

end
-- ==== Proof.KStage_h0.lean ====
/-
  A host stretch of the kernel program (h0): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h0 : List (Ref sig .tc) :=
  [ main_cst, main_v0, main_cst_0, main_v1, main_v2, main_v3, main_cst_1, main_v4, main_v5, main_cst_2, main_v6, main_v7, main_cst_3, main_v8, main_cst_4, main_v9, main_v10, main_v11, main_cst_5, main_v12, main_v13, main_cst_6, main_v14, main_v15, main_cst_7, main_v16, main_cst_8, main_v17, main_v18, main_v19, main_cst_9, main_v20, main_v21, main_cst_10, main_v22, main_v23, main_cst_11, main_v24, main_cst_12, main_v25, main_v26, main_v27, main_cst_13, main_v28, main_v29, main_cst_14, main_v30, main_v31, main_v32 ]

theorem writes_h0 : (hostOps0 : List (HloOp τ sig (Elt F))).Forall fun op => op.writes ⊆ (written_h0.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h0 (V : Valuation τ sig (Elt F)) {r : Ref sig .tc} (h : r ∉ written_h0) :
    after hostOps0 V (Proc.devRef .tc r) = V (Proc.devRef .tc r) := after_of_writes_sub hostOps0 V writes_h0 h

/-- The stretch leaves the argument arrays as it found them. -/
theorem args_h0 (V : Valuation τ sig (Elt F)) : argsOf (after hostOps0 V) = argsOf V := by
  simp only [argsOf, keep_h0 V (r := main_arg0) (by decide), keep_h0 V (r := main_arg1) (by decide), keep_h0 V (r := main_arg2) (by decide), keep_h0 V (r := main_arg3) (by decide), keep_h0 V (r := main_arg4) (by decide), keep_h0 V (r := main_arg5) (by decide), keep_h0 V (r := main_arg6) (by decide), keep_h0 V (r := main_arg7) (by decide), keep_h0 V (r := main_arg8) (by decide), keep_h0 V (r := main_arg9) (by decide), keep_h0 V (r := main_arg10) (by decide), keep_h0 V (r := main_arg11) (by decide), keep_h0 V (r := main_arg12) (by decide), keep_h0 V (r := main_arg13) (by decide), keep_h0 V (r := main_arg14) (by decide), keep_h0 V (r := main_arg15) (by decide), keep_h0 V (r := main_arg16) (by decide), keep_h0 V (r := main_arg17) (by decide), keep_h0 V (r := main_arg18) (by decide), keep_h0 V (r := main_arg19) (by decide), keep_h0 V (r := main_arg20) (by decide), keep_h0 V (r := main_arg21) (by decide), keep_h0 V (r := main_arg22) (by decide), keep_h0 V (r := main_arg23) (by decide), keep_h0 V (r := main_arg24) (by decide), keep_h0 V (r := main_arg25) (by decide), keep_h0 V (r := main_arg26) (by decide), keep_h0 V (r := main_arg27) (by decide), keep_h0 V (r := main_arg28) (by decide), keep_h0 V (r := main_arg29) (by decide), keep_h0 V (r := main_arg30) (by decide), keep_h0 V (r := main_arg31) (by decide), keep_h0 V (r := main_arg32) (by decide), keep_h0 V (r := main_arg33) (by decide)]

attribute [local irreducible] Host.reduceAdd Host.gather Host.scatterAdd in
set_option maxRecDepth 16384 in
set_option maxHeartbeats 4000000 in
theorem out_h0_v7 (V : Valuation τ sig (Elt F)) :
    after hostOps0 V (Proc.devRef .tc main_v7) = invSqrtDeg (argsOf V).a2 := by
  simp only [after_cons, after_nil]
  rfl

attribute [local irreducible] Host.reduceAdd Host.gather Host.scatterAdd in
set_option maxRecDepth 16384 in
set_option maxHeartbeats 4000000 in
theorem out_h0_v15 (V : Valuation τ sig (Elt F)) :
    after hostOps0 V (Proc.devRef .tc main_v15) = invSqrtDeg (argsOf V).a3 := by
  simp only [after_cons, after_nil]
  rfl

attribute [local irreducible] Host.reduceAdd Host.gather Host.scatterAdd in
set_option maxRecDepth 16384 in
set_option maxHeartbeats 4000000 in
theorem out_h0_v23 (V : Valuation τ sig (Elt F)) :
    after hostOps0 V (Proc.devRef .tc main_v23) = invSqrtDeg (argsOf V).a4 := by
  simp only [after_cons, after_nil]
  rfl

attribute [local irreducible] Host.reduceAdd Host.gather Host.scatterAdd in
set_option maxRecDepth 16384 in
set_option maxHeartbeats 4000000 in
theorem out_h0_v31 (V : Valuation τ sig (Elt F)) :
    after hostOps0 V (Proc.devRef .tc main_v31) = invSqrtDeg (argsOf V).a5 := by
  simp only [after_cons, after_nil]
  rfl

attribute [local irreducible] Host.reduceAdd Host.gather Host.scatterAdd in
set_option maxRecDepth 16384 in
set_option maxHeartbeats 4000000 in
theorem out_h0_v32 (V : Valuation τ sig (Elt F)) :
    after hostOps0 V (Proc.devRef .tc main_v32) = col (invSqrtDeg (argsOf V).a2) := by
  simp only [after_cons, after_nil]
  exact Eq.trans rfl (Cert.Glue.col_eq 100000 (invSqrtDeg (argsOf V).a2) shapeCasts_S100000_S100000x1 Cert.ReferenceIdeal.Gen.bcast_S100000_S100000x1_0)

end Cert.KernelIdeal.Stages

end
-- ==== Proof.KStep1.lean ====
/-
  One step of the kernel's boundary chain: from what is known at boundary 0 (the argument arrays as launched; each live buffer at
  its intermediate array of the computation) to the same at boundary 1, across host stretch 0 (its stage equations; the rest kept).
-/
import proofs.«165753_j16037407883756_1_alg».proof.Proof.KStage_h0
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step1 (A : Cert.Net.Args Ideal)
    (h : argsOf (W0 m ρ c) = A) :
    argsOf (W1 m ρ c) = A
    ∧ W1 m ρ c (Proc.devRef .tc main_v7) = Cert.Net.csLN A
    ∧ W1 m ρ c (Proc.devRef .tc main_v15) = Cert.Net.cdLN A
    ∧ W1 m ρ c (Proc.devRef .tc main_v23) = Cert.Net.csNL A
    ∧ W1 m ρ c (Proc.devRef .tc main_v31) = Cert.Net.cdNL A
    ∧ W1 m ρ c (Proc.devRef .tc main_v32) = col (Cert.Net.csLN A) := by
  have ha0 := h
  have ha1 : argsOf (W1 m ρ c) = A := (args_h0 (W0 m ρ c)).trans ha0
  have e1_2 : W0 m ρ c (Proc.devRef .tc main_arg2) = A.a2 := congrArg (fun X : Cert.Net.Args Ideal => X.a2) ha0
  have h1_v7 : W1 m ρ c (Proc.devRef .tc main_v7) = Cert.Net.csLN A := by
    refine (out_h0_v7 (W0 m ρ c)).trans ?_
    (try simp only [e1_2]); (try rfl)
  have e1_3 : W0 m ρ c (Proc.devRef .tc main_arg3) = A.a3 := congrArg (fun X : Cert.Net.Args Ideal => X.a3) ha0
  have h1_v15 : W1 m ρ c (Proc.devRef .tc main_v15) = Cert.Net.cdLN A := by
    refine (out_h0_v15 (W0 m ρ c)).trans ?_
    (try simp only [e1_3]); (try rfl)
  have e1_4 : W0 m ρ c (Proc.devRef .tc main_arg4) = A.a4 := congrArg (fun X : Cert.Net.Args Ideal => X.a4) ha0
  have h1_v23 : W1 m ρ c (Proc.devRef .tc main_v23) = Cert.Net.csNL A := by
    refine (out_h0_v23 (W0 m ρ c)).trans ?_
    (try simp only [e1_4]); (try rfl)
  have e1_5 : W0 m ρ c (Proc.devRef .tc main_arg5) = A.a5 := congrArg (fun X : Cert.Net.Args Ideal => X.a5) ha0
  have h1_v31 : W1 m ρ c (Proc.devRef .tc main_v31) = Cert.Net.cdNL A := by
    refine (out_h0_v31 (W0 m ρ c)).trans ?_
    (try simp only [e1_5]); (try rfl)
  have h1_v32 : W1 m ρ c (Proc.devRef .tc main_v32) = col (Cert.Net.csLN A) := by
    refine (out_h0_v32 (W0 m ρ c)).trans ?_
    (try simp only [e1_2]); (try rfl)
  exact ⟨ha1, h1_v7, h1_v15, h1_v23, h1_v31, h1_v32⟩

end Cert.KernelIdeal.Stages

end
-- ==== Proof.KRegArgs0.lean ====
/-
  Region 0 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg0_arg0 (c : Dev nD) : W2 m ρ c (Proc.devRef .tc main_arg0) = W1 m ρ c (Proc.devRef .tc main_arg0) :=
  W2_of_ne m ρ c main_arg0 (by decide)
theorem reg0_arg1 (c : Dev nD) : W2 m ρ c (Proc.devRef .tc main_arg1) = W1 m ρ c (Proc.devRef .tc main_arg1) :=
  (W2_arr m ρ c 0).trans (((dat0 (V1 m ρ) c).arrAt_in 0 rfl _).trans (A_eq0 (V1 m ρ) c 0))
theorem reg0_arg2 (c : Dev nD) : W2 m ρ c (Proc.devRef .tc main_arg2) = W1 m ρ c (Proc.devRef .tc main_arg2) :=
  W2_of_ne m ρ c main_arg2 (by decide)
theorem reg0_arg3 (c : Dev nD) : W2 m ρ c (Proc.devRef .tc main_arg3) = W1 m ρ c (Proc.devRef .tc main_arg3) :=
  W2_of_ne m ρ c main_arg3 (by decide)
theorem reg0_arg4 (c : Dev nD) : W2 m ρ c (Proc.devRef .tc main_arg4) = W1 m ρ c (Proc.devRef .tc main_arg4) :=
  W2_of_ne m ρ c main_arg4 (by decide)
theorem reg0_arg5 (c : Dev nD) : W2 m ρ c (Proc.devRef .tc main_arg5) = W1 m ρ c (Proc.devRef .tc main_arg5) :=
  W2_of_ne m ρ c main_arg5 (by decide)
theorem reg0_arg6 (c : Dev nD) : W2 m ρ c (Proc.devRef .tc main_arg6) = W1 m ρ c (Proc.devRef .tc main_arg6) :=
  (W2_arr m ρ c 2).trans (((dat0 (V1 m ρ) c).arrAt_in 2 rfl _).trans (A_eq0 (V1 m ρ) c 2))
theorem reg0_arg7 (c : Dev nD) : W2 m ρ c (Proc.devRef .tc main_arg7) = W1 m ρ c (Proc.devRef .tc main_arg7) :=
  W2_of_ne m ρ c main_arg7 (by decide)
theorem reg0_arg8 (c : Dev nD) : W2 m ρ c (Proc.devRef .tc main_arg8) = W1 m ρ c (Proc.devRef .tc main_arg8) :=
  W2_of_ne m ρ c main_arg8 (by decide)
theorem reg0_arg9 (c : Dev nD) : W2 m ρ c (Proc.devRef .tc main_arg9) = W1 m ρ c (Proc.devRef .tc main_arg9) :=
  W2_of_ne m ρ c main_arg9 (by decide)
theorem reg0_arg10 (c : Dev nD) : W2 m ρ c (Proc.devRef .tc main_arg10) = W1 m ρ c (Proc.devRef .tc main_arg10) :=
  W2_of_ne m ρ c main_arg10 (by decide)
theorem reg0_arg11 (c : Dev nD) : W2 m ρ c (Proc.devRef .tc main_arg11) = W1 m ρ c (Proc.devRef .tc main_arg11) :=
  W2_of_ne m ρ c main_arg11 (by decide)
theorem reg0_arg12 (c : Dev nD) : W2 m ρ c (Proc.devRef .tc main_arg12) = W1 m ρ c (Proc.devRef .tc main_arg12) :=
  W2_of_ne m ρ c main_arg12 (by decide)
theorem reg0_arg13 (c : Dev nD) : W2 m ρ c (Proc.devRef .tc main_arg13) = W1 m ρ c (Proc.devRef .tc main_arg13) :=
  W2_of_ne m ρ c main_arg13 (by decide)
theorem reg0_arg14 (c : Dev nD) : W2 m ρ c (Proc.devRef .tc main_arg14) = W1 m ρ c (Proc.devRef .tc main_arg14) :=
  W2_of_ne m ρ c main_arg14 (by decide)
theorem reg0_arg15 (c : Dev nD) : W2 m ρ c (Proc.devRef .tc main_arg15) = W1 m ρ c (Proc.devRef .tc main_arg15) :=
  W2_of_ne m ρ c main_arg15 (by decide)
theorem reg0_arg16 (c : Dev nD) : W2 m ρ c (Proc.devRef .tc main_arg16) = W1 m ρ c (Proc.devRef .tc main_arg16) :=
  W2_of_ne m ρ c main_arg16 (by decide)
theorem reg0_arg17 (c : Dev nD) : W2 m ρ c (Proc.devRef .tc main_arg17) = W1 m ρ c (Proc.devRef .tc main_arg17) :=
  W2_of_ne m ρ c main_arg17 (by decide)
theorem reg0_arg18 (c : Dev nD) : W2 m ρ c (Proc.devRef .tc main_arg18) = W1 m ρ c (Proc.devRef .tc main_arg18) :=
  W2_of_ne m ρ c main_arg18 (by decide)
theorem reg0_arg19 (c : Dev nD) : W2 m ρ c (Proc.devRef .tc main_arg19) = W1 m ρ c (Proc.devRef .tc main_arg19) :=
  W2_of_ne m ρ c main_arg19 (by decide)
theorem reg0_arg20 (c : Dev nD) : W2 m ρ c (Proc.devRef .tc main_arg20) = W1 m ρ c (Proc.devRef .tc main_arg20) :=
  W2_of_ne m ρ c main_arg20 (by decide)
theorem reg0_arg21 (c : Dev nD) : W2 m ρ c (Proc.devRef .tc main_arg21) = W1 m ρ c (Proc.devRef .tc main_arg21) :=
  W2_of_ne m ρ c main_arg21 (by decide)
theorem reg0_arg22 (c : Dev nD) : W2 m ρ c (Proc.devRef .tc main_arg22) = W1 m ρ c (Proc.devRef .tc main_arg22) :=
  W2_of_ne m ρ c main_arg22 (by decide)
theorem reg0_arg23 (c : Dev nD) : W2 m ρ c (Proc.devRef .tc main_arg23) = W1 m ρ c (Proc.devRef .tc main_arg23) :=
  W2_of_ne m ρ c main_arg23 (by decide)
theorem reg0_arg24 (c : Dev nD) : W2 m ρ c (Proc.devRef .tc main_arg24) = W1 m ρ c (Proc.devRef .tc main_arg24) :=
  W2_of_ne m ρ c main_arg24 (by decide)
theorem reg0_arg25 (c : Dev nD) : W2 m ρ c (Proc.devRef .tc main_arg25) = W1 m ρ c (Proc.devRef .tc main_arg25) :=
  W2_of_ne m ρ c main_arg25 (by decide)
theorem reg0_arg26 (c : Dev nD) : W2 m ρ c (Proc.devRef .tc main_arg26) = W1 m ρ c (Proc.devRef .tc main_arg26) :=
  W2_of_ne m ρ c main_arg26 (by decide)
theorem reg0_arg27 (c : Dev nD) : W2 m ρ c (Proc.devRef .tc main_arg27) = W1 m ρ c (Proc.devRef .tc main_arg27) :=
  W2_of_ne m ρ c main_arg27 (by decide)
theorem reg0_arg28 (c : Dev nD) : W2 m ρ c (Proc.devRef .tc main_arg28) = W1 m ρ c (Proc.devRef .tc main_arg28) :=
  W2_of_ne m ρ c main_arg28 (by decide)
theorem reg0_arg29 (c : Dev nD) : W2 m ρ c (Proc.devRef .tc main_arg29) = W1 m ρ c (Proc.devRef .tc main_arg29) :=
  W2_of_ne m ρ c main_arg29 (by decide)
theorem reg0_arg30 (c : Dev nD) : W2 m ρ c (Proc.devRef .tc main_arg30) = W1 m ρ c (Proc.devRef .tc main_arg30) :=
  W2_of_ne m ρ c main_arg30 (by decide)
theorem reg0_arg31 (c : Dev nD) : W2 m ρ c (Proc.devRef .tc main_arg31) = W1 m ρ c (Proc.devRef .tc main_arg31) :=
  W2_of_ne m ρ c main_arg31 (by decide)
theorem reg0_arg32 (c : Dev nD) : W2 m ρ c (Proc.devRef .tc main_arg32) = W1 m ρ c (Proc.devRef .tc main_arg32) :=
  W2_of_ne m ρ c main_arg32 (by decide)
theorem reg0_arg33 (c : Dev nD) : W2 m ρ c (Proc.devRef .tc main_arg33) = W1 m ρ c (Proc.devRef .tc main_arg33) :=
  W2_of_ne m ρ c main_arg33 (by decide)

theorem args_reg0 (c : Dev nD) : argsOf (W2 m ρ c) = argsOf (W1 m ρ c) := by
  simp only [argsOf, reg0_arg0 m ρ c, reg0_arg1 m ρ c, reg0_arg2 m ρ c, reg0_arg3 m ρ c, reg0_arg4 m ρ c, reg0_arg5 m ρ c, reg0_arg6 m ρ c, reg0_arg7 m ρ c, reg0_arg8 m ρ c, reg0_arg9 m ρ c, reg0_arg10 m ρ c, reg0_arg11 m ρ c, reg0_arg12 m ρ c, reg0_arg13 m ρ c, reg0_arg14 m ρ c, reg0_arg15 m ρ c, reg0_arg16 m ρ c, reg0_arg17 m ρ c, reg0_arg18 m ρ c, reg0_arg19 m ρ c, reg0_arg20 m ρ c, reg0_arg21 m ρ c, reg0_arg22 m ρ c, reg0_arg23 m ρ c, reg0_arg24 m ρ c, reg0_arg25 m ρ c, reg0_arg26 m ρ c, reg0_arg27 m ρ c, reg0_arg28 m ρ c, reg0_arg29 m ρ c, reg0_arg30 m ρ c, reg0_arg31 m ρ c, reg0_arg32 m ρ c, reg0_arg33 m ρ c]

end Cert.KernelIdeal.Stages

end
-- ==== Proof.MMDot.lean ====
/-
  A plain matrix product read at an index. For dimension numbers that contract the left operand's axis 1 with the right
  operand's axis 0 and have no batch axis, entry (a, b) of the product of an [m,k] by a [k,n] array is the sum over
  c of A[a,c] * B[c,b] — for the host's dot_general and for the kernel's matmul into the zero accumulator alike,
  since at the extended reals both are the exact sum. Also a column [a,1] spread over [a,b] by a broadcast along
  both named axes, read at an index.
-/
import Idealize.ShloMosaic.PureOps.Ideal.Laws
import Idealize.ShloMosaic.Lib.Pipeline.Value
import Idealize.ShloMosaic.Lib.ValueIdx

noncomputable section

namespace Cert.MM

open Idealize.ShloMosaic Idealize.ShloMosaic.ValueIdx

/-- The left operand's index at output (a, b) and contraction position c is (a, c). -/
theorem lhsIdx_mk {m k n : Nat}
    (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index at output (a, b) and contraction position c is (c, b). -/
theorem rhsIdx_mk {m k n : Nat}
    (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of an [m,k] by a [k,n] array at (a, b): the sum over c of A[a,c] * B[c,b]. -/
theorem dotGeneral_mk_apply {m k n : Nat} {φ₁ φ₂ : FTy}
    (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩)
    (prec : Option ContractPrecision) (A : FVec Ideal ⟨2, ![m, k]⟩ φ₁) (B : FVec Ideal ⟨2, ![k, n]⟩ φ₂)
    (a : Fin m) (b : Fin n) :
    Host.dotGeneral D prec A B (ix2 a b) = ∑ c : Fin k, A (ix2 a c) * B (ix2 c b) := by
  subst hD
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [lhsIdx_mk w a b c, rhsIdx_mk w a b c]

/-- The kernel's matmul into the zero accumulator at (a, b): the same sum. -/
theorem matmul_zero_mk_apply {m k n : Nat} {φ₁ φ₂ : FTy}
    (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩)
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  subst hD
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [lhsIdx_mk w a b c, rhsIdx_mk w a b c]

/-- An [a,1] column broadcast to [a,b] along the axes (0, 1) reads, at (p, c), the column's row p. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.MM

end
-- ==== Proof.MMPoint.lean ====
/-
  What the scaled-projection bodies store, read at an index: entry (p, q) of the stored block is the sum over k of
  (x[p,k] * s[p,0]) * W[k,q] of the loaded blocks x, s (a column) and W.
-/
import proofs.«165753_j16037407883756_1_alg».proof.Proof.Gen.KernelIdeal.Skeleton
import proofs.«165753_j16037407883756_1_alg».proof.Proof.MMDot

noncomputable section

namespace Cert.MM

open Idealize.ShloMosaic Idealize.ShloMosaic.ValueIdx Cert.KernelIdeal Cert.KernelIdeal.Gen

/-- An [a,1] column spread over [a,b] by a vector broadcast reads, at (p, c), the column's row p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what region 0's body stores: the sum over k of (x[p,k] * s[p,0]) * W[k,q] of its three loaded blocks
    (the casts to the 16-bit format are the identity at the extended reals, and the product accumulates into zero). -/
theorem k0_pay1_apply (v0 : Vec Ideal S5000x300 .f32) (v1 : Vec Ideal S5000x1 .f32) (v6 : Vec Ideal S300x128 .f32) (p : Fin 5000) (q : Fin 128) :
    k0_pay1 (F := Ideal) v0 v1 v6 (ix2 p q) = ∑ k : Fin 300, (v0 (ix2 p k) * v1 (ix2 p 0)) * v6 (ix2 k q) := by
  unfold k0_pay1
  refine (matmul_zero_mk_apply _ dot_S5000x300_S300x128_S5000x128_1_0_0_1_n_n_wf rfl none _ _ p q).trans ?_
  refine Finset.sum_congr rfl fun k _ => ?_
  rw [truncf_apply, truncf_apply, mulf_apply, broadcastTo_col_apply, shapeCast_self]

/-- Entry (p, q) of what region 1's body stores: the sum over k of (x[p,k] * s[p,0]) * W[k,q] of its three loaded blocks
    (the casts to the 16-bit format are the identity at the extended reals, and the product accumulates into zero). -/
theorem k1_pay1_apply (v0 : Vec Ideal S5000x200 .f32) (v1 : Vec Ideal S5000x1 .f32) (v6 : Vec Ideal S200x128 .f32) (p : Fin 5000) (q : Fin 128) :
    k1_pay1 (F := Ideal) v0 v1 v6 (ix2 p q) = ∑ k : Fin 200, (v0 (ix2 p k) * v1 (ix2 p 0)) * v6 (ix2 k q) := by
  unfold k1_pay1
  refine (matmul_zero_mk_apply _ dot_S5000x200_S200x128_S5000x128_1_0_0_1_n_n_wf rfl none _ _ p q).trans ?_
  refine Finset.sum_congr rfl fun k _ => ?_
  rw [truncf_apply, truncf_apply, mulf_apply, broadcastTo_col_apply, shapeCast_self]

/-- Entry (p, q) of what region 4's body stores: the sum over k of (x[p,k] * s[p,0]) * W[k,q] of its three loaded blocks
    (the casts to the 16-bit format are the identity at the extended reals, and the product accumulates into zero). -/
theorem k4_pay1_apply (v0 : Vec Ideal S5000x128 .f32) (v2 : Vec Ideal S5000x1 .f32) (v7 : Vec Ideal S128x128 .f32) (p : Fin 5000) (q : Fin 128) :
    k4_pay1 (F := Ideal) v0 v2 v7 (ix2 p q) = ∑ k : Fin 128, (v0 (ix2 p k) * v2 (ix2 p 0)) * v7 (ix2 k q) := by
  unfold k4_pay1
  refine (matmul_zero_mk_apply _ dot_S5000x128_S128x128_S5000x128_1_0_0_1_n_n_wf rfl none _ _ p q).trans ?_
  refine Finset.sum_congr rfl fun k _ => ?_
  rw [truncf_apply, truncf_apply, mulf_apply, broadcastTo_col_apply, shapeCast_self, shapeCast_self, shapeCast_self]

/-- Entry (p, q) of what region 5's body stores: the sum over k of (x[p,k] * s[p,0]) * W[k,q] of its three loaded blocks
    (the casts to the 16-bit format are the identity at the extended reals, and the product accumulates into zero). -/
theorem k5_pay1_apply (v0 : Vec Ideal S5000x128 .f32) (v2 : Vec Ideal S5000x1 .f32) (v7 : Vec Ideal S128x128 .f32) (p : Fin 5000) (q : Fin 128) :
    k5_pay1 (F := Ideal) v0 v2 v7 (ix2 p q) = ∑ k : Fin 128, (v0 (ix2 p k) * v2 (ix2 p 0)) * v7 (ix2 k q) := by
  unfold k5_pay1
  refine (matmul_zero_mk_apply _ dot_S5000x128_S128x128_S5000x128_1_0_0_1_n_n_wf rfl none _ _ p q).trans ?_
  refine Finset.sum_congr rfl fun k _ => ?_
  rw [truncf_apply, truncf_apply, mulf_apply, broadcastTo_col_apply, shapeCast_self, shapeCast_self, shapeCast_self]

/-- Entry (p, q) of what region 8's body stores: the sum over k of (x[p,k] * s[p,0]) * W[k,q] of its three loaded blocks
    (the casts to the 16-bit format are the identity at the extended reals, and the product accumulates into zero). -/
theorem k8_pay1_apply (v0 : Vec Ideal S5000x128 .f32) (v2 : Vec Ideal S5000x1 .f32) (v7 : Vec Ideal S128x128 .f32) (p : Fin 5000) (q : Fin 128) :
    k8_pay1 (F := Ideal) v0 v2 v7 (ix2 p q) = ∑ k : Fin 128, (v0 (ix2 p k) * v2 (ix2 p 0)) * v7 (ix2 k q) := by
  unfold k8_pay1
  refine (matmul_zero_mk_apply _ dot_S5000x128_S128x128_S5000x128_1_0_0_1_n_n_wf rfl none _ _ p q).trans ?_
  refine Finset.sum_congr rfl fun k _ => ?_
  rw [truncf_apply, truncf_apply, mulf_apply, broadcastTo_col_apply, shapeCast_self, shapeCast_self, shapeCast_self]

/-- Entry (p, q) of what region 9's body stores: the sum over k of (x[p,k] * s[p,0]) * W[k,q] of its three loaded blocks
    (the casts to the 16-bit format are the identity at the extended reals, and the product accumulates into zero). -/
theorem k9_pay1_apply (v0 : Vec Ideal S5000x128 .f32) (v2 : Vec Ideal S5000x1 .f32) (v7 : Vec Ideal S128x128 .f32) (p : Fin 5000) (q : Fin 128) :
    k9_pay1 (F := Ideal) v0 v2 v7 (ix2 p q) = ∑ k : Fin 128, (v0 (ix2 p k) * v2 (ix2 p 0)) * v7 (ix2 k q) := by
  unfold k9_pay1
  refine (matmul_zero_mk_apply _ dot_S5000x128_S128x128_S5000x128_1_0_0_1_n_n_wf rfl none _ _ p q).trans ?_
  refine Finset.sum_congr rfl fun k _ => ?_
  rw [truncf_apply, truncf_apply, mulf_apply, broadcastTo_col_apply, shapeCast_self, shapeCast_self, shapeCast_self]

end Cert.MM

end
-- ==== Proof.MMSpec.lean ====
/-
  The scaled projection of the specification read at an index: rows of x scaled by the column s, then the matrix
  product with the weights, is at (i, j) the sum over k of (x[i,k] * s[i,0]) * W[k,j].
-/
import proofs.«165753_j16037407883756_1_alg».proof.Proof.Spec
import proofs.«165753_j16037407883756_1_alg».proof.Proof.MMDot

noncomputable section

namespace Cert.MM

open Idealize.ShloMosaic Idealize.ShloMosaic.ValueIdx

/-- Entry (i, j) of the 300-wide scaled projection: the sum over k of (x[i,k] * s[i,0]) * W[k,j]. -/
theorem scaleMatmul300_apply
    (x : (⟨2, ![100000, 300]⟩ : Shape).Idx → EReal) (sc : (⟨2, ![100000, 1]⟩ : Shape).Idx → EReal)
    (w : (⟨2, ![300, 128]⟩ : Shape).Idx → EReal) (i : Fin 100000) (j : Fin 128) :
    Cert.Spec.scaleMatmul300 (F := Ideal) x sc w (ix2 i j) = ∑ k : Fin 300, (x (ix2 i k) * sc (ix2 i 0)) * w (ix2 k j) := by
  unfold Cert.Spec.scaleMatmul300
  refine (dotGeneral_mk_apply _ Cert.ReferenceIdeal.Gen.dot_S100000x300_S300x128_S100000x128_1_0_0_1_n_n_wf rfl none _ _ i j).trans ?_
  refine Finset.sum_congr rfl fun k _ => ?_
  rw [mulf_apply, broadcastInDim_a1_ab_apply]

/-- Entry (i, j) of the 200-wide scaled projection: the sum over k of (x[i,k] * s[i,0]) * W[k,j]. -/
theorem scaleMatmul200_apply
    (x : (⟨2, ![100000, 200]⟩ : Shape).Idx → EReal) (sc : (⟨2, ![100000, 1]⟩ : Shape).Idx → EReal)
    (w : (⟨2, ![200, 128]⟩ : Shape).Idx → EReal) (i : Fin 100000) (j : Fin 128) :
    Cert.Spec.scaleMatmul200 (F := Ideal) x sc w (ix2 i j) = ∑ k : Fin 200, (x (ix2 i k) * sc (ix2 i 0)) * w (ix2 k j) := by
  unfold Cert.Spec.scaleMatmul200
  refine (dotGeneral_mk_apply _ Cert.ReferenceIdeal.Gen.dot_S100000x200_S200x128_S100000x128_1_0_0_1_n_n_wf rfl none _ _ i j).trans ?_
  refine Finset.sum_congr rfl fun k _ => ?_
  rw [mulf_apply, broadcastInDim_a1_ab_apply]

/-- Entry (i, j) of the 128-wide scaled projection: the sum over k of (x[i,k] * s[i,0]) * W[k,j]. -/
theorem scaleMatmul128_apply
    (x : (⟨2, ![100000, 128]⟩ : Shape).Idx → EReal) (sc : (⟨2, ![100000, 1]⟩ : Shape).Idx → EReal)
    (w : (⟨2, ![128, 128]⟩ : Shape).Idx → EReal) (i : Fin 100000) (j : Fin 128) :
    Cert.Spec.scaleMatmul128 (F := Ideal) x sc w (ix2 i j) = ∑ k : Fin 128, (x (ix2 i k) * sc (ix2 i 0)) * w (ix2 k j) := by
  unfold Cert.Spec.scaleMatmul128
  refine (dotGeneral_mk_apply _ Cert.ReferenceIdeal.Gen.dot_S100000x128_S128x128_S100000x128_1_0_0_1_n_n_wf rfl none _ _ i j).trans ?_
  refine Finset.sum_congr rfl fun k _ => ?_
  rw [mulf_apply, broadcastInDim_a1_ab_apply]

end Cert.MM

end
-- ==== Proof.MMBlock.lean ====
/-
  One stored block of a scaled projection against the specification: the body's block at a grid point is the
  specification's rows 5000 t … 5000 t + 4999, entry by entry, given that the loaded blocks are those rows of the operands.
-/
import proofs.«165753_j16037407883756_1_alg».proof.Proof.MMPoint
import proofs.«165753_j16037407883756_1_alg».proof.Proof.MMSpec

noncomputable section

namespace Cert.MM

open Idealize.ShloMosaic Idealize.ShloMosaic.ValueIdx Cert.KernelIdeal Cert.KernelIdeal.Gen

/-- The zero offset of a whole-buffer access. -/
theorem hz : (![0, 0] : Fin 2 → Nat) = fun _ => 0 := funext fun a => by fin_cases a <;> rfl

/-- Region 0's stored block against the specification, entry by entry: if the loaded blocks are rows 5000 t … 5000 t + 4999
    of x and of the column s, and the whole of W, then entry j of the stored block is the specification's entry i,
    where i is j moved down by 5000 t rows. -/
theorem block0_eq (tv : Nat) (X0 : Vec Ideal S5000x300 .f32) (X1 : Vec Ideal S5000x1 .f32) (X2 : Vec Ideal S300x128 .f32)
    (A0 : (⟨2, ![100000, 300]⟩ : Shape).Idx → EReal) (A1 : (⟨2, ![100000, 1]⟩ : Shape).Idx → EReal)
    (A2 : (⟨2, ![300, 128]⟩ : Shape).Idx → EReal)
    (h0 : ∀ (p : Fin 5000) (k : Fin 300) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k0_pay1 (F := Ideal) X0 X1 X2 j = Cert.Spec.scaleMatmul300 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k0_pay1_apply, scaleMatmul300_apply]
  refine Finset.sum_congr rfl fun k _ => ?_
  rw [h0 p k r hr, h1 p r hr, h2]

/-- Region 1's stored block against the specification, entry by entry: if the loaded blocks are rows 5000 t … 5000 t + 4999
    of x and of the column s, and the whole of W, then entry j of the stored block is the specification's entry i,
    where i is j moved down by 5000 t rows. -/
theorem block1_eq (tv : Nat) (X0 : Vec Ideal S5000x200 .f32) (X1 : Vec Ideal S5000x1 .f32) (X2 : Vec Ideal S200x128 .f32)
    (A0 : (⟨2, ![100000, 200]⟩ : Shape).Idx → EReal) (A1 : (⟨2, ![100000, 1]⟩ : Shape).Idx → EReal)
    (A2 : (⟨2, ![200, 128]⟩ : Shape).Idx → EReal)
    (h0 : ∀ (p : Fin 5000) (k : Fin 200) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k1_pay1 (F := Ideal) X0 X1 X2 j = Cert.Spec.scaleMatmul200 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k1_pay1_apply, scaleMatmul200_apply]
  refine Finset.sum_congr rfl fun k _ => ?_
  rw [h0 p k r hr, h1 p r hr, h2]

/-- Region 4's stored block against the specification, entry by entry: if the loaded blocks are rows 5000 t … 5000 t + 4999
    of x and of the column s, and the whole of W, then entry j of the stored block is the specification's entry i,
    where i is j moved down by 5000 t rows. -/
theorem block4_eq (tv : Nat) (X0 : Vec Ideal S5000x128 .f32) (X1 : Vec Ideal S5000x1 .f32) (X2 : Vec Ideal S128x128 .f32)
    (A0 : (⟨2, ![100000, 128]⟩ : Shape).Idx → EReal) (A1 : (⟨2, ![100000, 1]⟩ : Shape).Idx → EReal)
    (A2 : (⟨2, ![128, 128]⟩ : Shape).Idx → EReal)
    (h0 : ∀ (p : Fin 5000) (k : Fin 128) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k4_pay1 (F := Ideal) X0 X1 X2 j = Cert.Spec.scaleMatmul128 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k4_pay1_apply, scaleMatmul128_apply]
  refine Finset.sum_congr rfl fun k _ => ?_
  rw [h0 p k r hr, h1 p r hr, h2]

/-- Region 5's stored block against the specification, entry by entry: if the loaded blocks are rows 5000 t … 5000 t + 4999
    of x and of the column s, and the whole of W, then entry j of the stored block is the specification's entry i,
    where i is j moved down by 5000 t rows. -/
theorem block5_eq (tv : Nat) (X0 : Vec Ideal S5000x128 .f32) (X1 : Vec Ideal S5000x1 .f32) (X2 : Vec Ideal S128x128 .f32)
    (A0 : (⟨2, ![100000, 128]⟩ : Shape).Idx → EReal) (A1 : (⟨2, ![100000, 1]⟩ : Shape).Idx → EReal)
    (A2 : (⟨2, ![128, 128]⟩ : Shape).Idx → EReal)
    (h0 : ∀ (p : Fin 5000) (k : Fin 128) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k5_pay1 (F := Ideal) X0 X1 X2 j = Cert.Spec.scaleMatmul128 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k5_pay1_apply, scaleMatmul128_apply]
  refine Finset.sum_congr rfl fun k _ => ?_
  rw [h0 p k r hr, h1 p r hr, h2]

/-- Region 8's stored block against the specification, entry by entry: if the loaded blocks are rows 5000 t … 5000 t + 4999
    of x and of the column s, and the whole of W, then entry j of the stored block is the specification's entry i,
    where i is j moved down by 5000 t rows. -/
theorem block8_eq (tv : Nat) (X0 : Vec Ideal S5000x128 .f32) (X1 : Vec Ideal S5000x1 .f32) (X2 : Vec Ideal S128x128 .f32)
    (A0 : (⟨2, ![100000, 128]⟩ : Shape).Idx → EReal) (A1 : (⟨2, ![100000, 1]⟩ : Shape).Idx → EReal)
    (A2 : (⟨2, ![128, 128]⟩ : Shape).Idx → EReal)
    (h0 : ∀ (p : Fin 5000) (k : Fin 128) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k8_pay1 (F := Ideal) X0 X1 X2 j = Cert.Spec.scaleMatmul128 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k8_pay1_apply, scaleMatmul128_apply]
  refine Finset.sum_congr rfl fun k _ => ?_
  rw [h0 p k r hr, h1 p r hr, h2]

/-- Region 9's stored block against the specification, entry by entry: if the loaded blocks are rows 5000 t … 5000 t + 4999
    of x and of the column s, and the whole of W, then entry j of the stored block is the specification's entry i,
    where i is j moved down by 5000 t rows. -/
theorem block9_eq (tv : Nat) (X0 : Vec Ideal S5000x128 .f32) (X1 : Vec Ideal S5000x1 .f32) (X2 : Vec Ideal S128x128 .f32)
    (A0 : (⟨2, ![100000, 128]⟩ : Shape).Idx → EReal) (A1 : (⟨2, ![100000, 1]⟩ : Shape).Idx → EReal)
    (A2 : (⟨2, ![128, 128]⟩ : Shape).Idx → EReal)
    (h0 : ∀ (p : Fin 5000) (k : Fin 128) (i : Fin 100000), i.val = 5000 * tv + p.val → X0 (ix2 p k) = A0 (ix2 i k))
    (h1 : ∀ (p : Fin 5000) (i : Fin 100000), i.val = 5000 * tv + p.val → X1 (ix2 p 0) = A1 (ix2 i 0))
    (h2 : X2 = A2)
    (j : (⟨2, ![5000, 128]⟩ : Shape).Idx) (i : (⟨2, ![100000, 128]⟩ : Shape).Idx)
    (hi0 : (i 0).val = 5000 * tv + (j 0).val) (hi1 : (i 1).val = (j 1).val) :
    k9_pay1 (F := Ideal) X0 X1 X2 j = Cert.Spec.scaleMatmul128 (F := Ideal) A0 A1 A2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = 5000 * tv + p.val := hi0
  rw [k9_pay1_apply, scaleMatmul128_apply]
  refine Finset.sum_congr rfl fun k _ => ?_
  rw [h0 p k r hr, h1 p r hr, h2]

end Cert.MM

end
-- ==== Proof.MMRegion0.lean ====
/-
  Region 0, a scaled projection: out = (x * s) @ W with x of shape [100000,300], s a column [100000,1] and W of shape [300,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point t is rows 5000 t … 5000 t + 4999 of x. -/
theorem read0_0 (c : Dev nD) (t : Fin cfg0.N) (p : Fin 5000) (k : Fin 300) (i : Fin 100000)
    (hi : i.val = 5000 * t.val + p.val) :
    (iblk0 V c 0 t : Vec Ideal S5000x300 .f32) (ix2 p k) = (V c main_arg1 : S100000x300.Idx → EReal) (ix2 i k) := by
  obtain ⟨e0, e1, -⟩ := idx0 t
  unfold iblk0
  rw [View.read_apply]
  show V c main_arg1 _ = V c main_arg1 _
  congr 1
  funext a
  apply Fin.ext
  match a with
  | ⟨0, _⟩ => show win0_0.index t (0 : Fin 2) * 5000 + 1 * p.val = i.val; rw [e0, hi]; omega
  | ⟨1, _⟩ => show win0_0.index t (1 : Fin 2) * 300 + 1 * k.val = k.val; rw [e1]; omega

/-- The block of the column s at point t is rows 5000 t … 5000 t + 4999 of s. -/
theorem read0_1 (c : Dev nD) (t : Fin cfg0.N) (p : Fin 5000) (i : Fin 100000)
    (hi : i.val = 5000 * t.val + p.val) :
    (iblk0 V c 1 t : Vec Ideal S5000x1 .f32) (ix2 p 0) = (V c main_v32 : S100000x1.Idx → EReal) (ix2 i 0) := by
  obtain ⟨-, -, e0, e1, -⟩ := idx0 t
  unfold iblk0
  rw [View.read_apply]
  show V c main_v32 _ = V c main_v32 _
  congr 1
  funext a
  apply Fin.ext
  match a with
  | ⟨0, _⟩ => show win0_1.index t (0 : Fin 2) * 5000 + 1 * p.val = i.val; rw [e0, hi]; omega
  | ⟨1, _⟩ => show win0_1.index t (1 : Fin 2) * 1 + 1 * 0 = 0; rw [e1]

/-- The block of W at every point is the whole of W. -/
theorem read0_2 (c : Dev nD) (t : Fin cfg0.N) :
    (iblk0 V c 2 t : Vec Ideal S300x128 .f32) = (V c main_arg6 : S300x128.Idx → EReal) := by
  obtain ⟨-, -, -, -, e0, e1, -⟩ := idx0 t
  funext y
  unfold iblk0
  rw [View.read_apply]
  show V c main_arg6 _ = V c main_arg6 _
  congr 1
  funext a
  apply Fin.ext
  match a with
  | ⟨0, _⟩ => show win0_2.index t (0 : Fin 2) * 300 + 1 * (y 0).val = (y 0).val; rw [e0]; omega
  | ⟨1, _⟩ => show win0_2.index t (1 : Fin 2) * 128 + 1 * (y 1).val = (y 1).val; rw [e1]; omega

/-- What point t writes back is block t of the specification of the arrays the region finds. -/
theorem flushed0 (c : Dev nD) (t : Fin cfg0.N) :
    (dat0 V c).flushed 3 t = ((cfg0.win 3).blk t).view.read (Elt Ideal)
      (Cert.Spec.scaleMatmul300 (F := Ideal) (V c main_arg1) (V c main_v32) (V c main_arg6)) := by
  show (cfg0.win 3).cut (grid0.coords t) ((dat0 V c).after 3 t) = _
  rw [after0_3]
  unfold out0_3
  rw [View.canon_unit_zero hz]
  simp only [View.ld_unit_zero (S := S5000x300) hz, View.ld_unit_zero (S := S5000x1) hz, View.ld_unit_zero (S := S300x128) hz]
  obtain ⟨-, -, -, -, -, -, e0, e1⟩ := idx0 t
  funext j
  rw [View.read_apply]
  refine block0_eq t.val (iblk0 V c 0 t) (iblk0 V c 1 t) (iblk0 V c 2 t) (V c main_arg1) (V c main_v32) (V c main_arg6)
    (fun p k i hi => read0_0 V c t p k i hi) (fun p i hi => read0_1 V c t p i hi) (read0_2 V c t) j _ ?_ ?_
  · show win0_3.index t (0 : Fin 2) * 5000 + 1 * (j 0).val = 5000 * t.val + (j 0).val; rw [e0]; omega
  · show win0_3.index t (1 : Fin 2) * 128 + 1 * (j 1).val = (j 1).val; rw [e1]; omega

/-- An index of the output is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v33).slice (win0_3.rect t)).set ↔ _
  rw [View.set_slice_whole, Rect.mem_set_unit]
  exact Iff.rfl

/-- Every row of the output is in the block of the point that is the row divided by 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The output array after region 0 is the scaled projection of the arrays the region finds. -/
theorem projection0 (c : Dev nD) :
    (dat0 V c).arrAt 3 cfg0.N
      = Cert.Spec.scaleMatmul300 (F := Ideal) (V c main_arg1) (V c main_v32) (V c main_arg6) :=
  (dat0 V c).arrAt_eq_of_cover 3 _ (fun t _ => flushed0 V c t) cover0

end Cert.KernelIdeal.Regions

end
-- ==== Proof.MMRegion1.lean ====
/-
  Region 1, a scaled projection: out = (x * s) @ W with x of shape [100000,200], s a column [100000,1] and W of shape [200,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of x at point t is rows 5000 t … 5000 t + 4999 of x. -/
theorem read1_0 (c : Dev nD) (t : Fin cfg1.N) (p : Fin 5000) (k : Fin 200) (i : Fin 100000)
    (hi : i.val = 5000 * t.val + p.val) :
    (iblk1 V c 0 t : Vec Ideal S5000x200 .f32) (ix2 p k) = (V c main_arg0 : S100000x200.Idx → EReal) (ix2 i k) := by
  obtain ⟨e0, e1, -⟩ := idx1 t
  unfold iblk1
  rw [View.read_apply]
  show V c main_arg0 _ = V c main_arg0 _
  congr 1
  funext a
  apply Fin.ext
  match a with
  | ⟨0, _⟩ => show win1_0.index t (0 : Fin 2) * 5000 + 1 * p.val = i.val; rw [e0, hi]; omega
  | ⟨1, _⟩ => show win1_0.index t (1 : Fin 2) * 200 + 1 * k.val = k.val; rw [e1]; omega

/-- The block of the column s at point t is rows 5000 t … 5000 t + 4999 of s. -/
theorem read1_1 (c : Dev nD) (t : Fin cfg1.N) (p : Fin 5000) (i : Fin 100000)
    (hi : i.val = 5000 * t.val + p.val) :
    (iblk1 V c 1 t : Vec Ideal S5000x1 .f32) (ix2 p 0) = (V c main_v34 : S100000x1.Idx → EReal) (ix2 i 0) := by
  obtain ⟨-, -, e0, e1, -⟩ := idx1 t
  unfold iblk1
  rw [View.read_apply]
  show V c main_v34 _ = V c main_v34 _
  congr 1
  funext a
  apply Fin.ext
  match a with
  | ⟨0, _⟩ => show win1_1.index t (0 : Fin 2) * 5000 + 1 * p.val = i.val; rw [e0, hi]; omega
  | ⟨1, _⟩ => show win1_1.index t (1 : Fin 2) * 1 + 1 * 0 = 0; rw [e1]

/-- The block of W at every point is the whole of W. -/
theorem read1_2 (c : Dev nD) (t : Fin cfg1.N) :
    (iblk1 V c 2 t : Vec Ideal S200x128 .f32) = (V c main_arg8 : S200x128.Idx → EReal) := by
  obtain ⟨-, -, -, -, e0, e1, -⟩ := idx1 t
  funext y
  unfold iblk1
  rw [View.read_apply]
  show V c main_arg8 _ = V c main_arg8 _
  congr 1
  funext a
  apply Fin.ext
  match a with
  | ⟨0, _⟩ => show win1_2.index t (0 : Fin 2) * 200 + 1 * (y 0).val = (y 0).val; rw [e0]; omega
  | ⟨1, _⟩ => show win1_2.index t (1 : Fin 2) * 128 + 1 * (y 1).val = (y 1).val; rw [e1]; omega

/-- What point t writes back is block t of the specification of the arrays the region finds. -/
theorem flushed1 (c : Dev nD) (t : Fin cfg1.N) :
    (dat1 V c).flushed 3 t = ((cfg1.win 3).blk t).view.read (Elt Ideal)
      (Cert.Spec.scaleMatmul200 (F := Ideal) (V c main_arg0) (V c main_v34) (V c main_arg8)) := by
  show (cfg1.win 3).cut (grid1.coords t) ((dat1 V c).after 3 t) = _
  rw [after1_3]
  unfold out1_3
  rw [View.canon_unit_zero hz]
  simp only [View.ld_unit_zero (S := S5000x200) hz, View.ld_unit_zero (S := S5000x1) hz, View.ld_unit_zero (S := S200x128) hz]
  obtain ⟨-, -, -, -, -, -, e0, e1⟩ := idx1 t
  funext j
  rw [View.read_apply]
  refine block1_eq t.val (iblk1 V c 0 t) (iblk1 V c 1 t) (iblk1 V c 2 t) (V c main_arg0) (V c main_v34) (V c main_arg8)
    (fun p k i hi => read1_0 V c t p k i hi) (fun p i hi => read1_1 V c t p i hi) (read1_2 V c t) j _ ?_ ?_
  · show win1_3.index t (0 : Fin 2) * 5000 + 1 * (j 0).val = 5000 * t.val + (j 0).val; rw [e0]; omega
  · show win1_3.index t (1 : Fin 2) * 128 + 1 * (j 1).val = (j 1).val; rw [e1]; omega

/-- An index of the output is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v35).slice (win1_3.rect t)).set ↔ _
  rw [View.set_slice_whole, Rect.mem_set_unit]
  exact Iff.rfl

/-- Every row of the output is in the block of the point that is the row divided by 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, e0, e1⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- The output array after region 1 is the scaled projection of the arrays the region finds. -/
theorem projection1 (c : Dev nD) :
    (dat1 V c).arrAt 3 cfg1.N
      = Cert.Spec.scaleMatmul200 (F := Ideal) (V c main_arg0) (V c main_v34) (V c main_arg8) :=
  (dat1 V c).arrAt_eq_of_cover 3 _ (fun t _ => flushed1 V c t) cover1

end Cert.KernelIdeal.Regions

end
-- ==== Proof.MMRegion4.lean ====
/-
  Region 4, a scaled projection: out = (x * s) @ W with x of shape [100000,128], s a column [100000,1] and W of shape [128,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block of x at point t is rows 5000 t … 5000 t + 4999 of x. -/
theorem read4_0 (c : Dev nD) (t : Fin cfg4.N) (p : Fin 5000) (k : Fin 128) (i : Fin 100000)
    (hi : i.val = 5000 * t.val + p.val) :
    (iblk4 V c 0 t : Vec Ideal S5000x128 .f32) (ix2 p k) = (V c main_v73 : S100000x128.Idx → EReal) (ix2 i k) := by
  obtain ⟨e0, e1, -⟩ := idx4 t
  unfold iblk4
  rw [View.read_apply]
  show V c main_v73 _ = V c main_v73 _
  congr 1
  funext a
  apply Fin.ext
  match a with
  | ⟨0, _⟩ => show win4_0.index t (0 : Fin 2) * 5000 + 1 * p.val = i.val; rw [e0, hi]; omega
  | ⟨1, _⟩ => show win4_0.index t (1 : Fin 2) * 128 + 1 * k.val = k.val; rw [e1]; omega

/-- The block of the column s at point t is rows 5000 t … 5000 t + 4999 of s. -/
theorem read4_1 (c : Dev nD) (t : Fin cfg4.N) (p : Fin 5000) (i : Fin 100000)
    (hi : i.val = 5000 * t.val + p.val) :
    (iblk4 V c 1 t : Vec Ideal S5000x1 .f32) (ix2 p 0) = (V c main_v82 : S100000x1.Idx → EReal) (ix2 i 0) := by
  obtain ⟨-, -, e0, e1, -⟩ := idx4 t
  unfold iblk4
  rw [View.read_apply]
  show V c main_v82 _ = V c main_v82 _
  congr 1
  funext a
  apply Fin.ext
  match a with
  | ⟨0, _⟩ => show win4_1.index t (0 : Fin 2) * 5000 + 1 * p.val = i.val; rw [e0, hi]; omega
  | ⟨1, _⟩ => show win4_1.index t (1 : Fin 2) * 1 + 1 * 0 = 0; rw [e1]

/-- The block of W at every point is the whole of W. -/
theorem read4_2 (c : Dev nD) (t : Fin cfg4.N) :
    (iblk4 V c 2 t : Vec Ideal S128x128 .f32) = (V c main_v75 : S128x128.Idx → EReal) := by
  obtain ⟨-, -, -, -, e0, e1, -⟩ := idx4 t
  funext y
  unfold iblk4
  rw [View.read_apply]
  show V c main_v75 _ = V c main_v75 _
  congr 1
  funext a
  apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- What point t writes back is block t of the specification of the arrays the region finds. -/
theorem flushed4 (c : Dev nD) (t : Fin cfg4.N) :
    (dat4 V c).flushed 3 t = ((cfg4.win 3).blk t).view.read (Elt Ideal)
      (Cert.Spec.scaleMatmul128 (F := Ideal) (V c main_v73) (V c main_v82) (V c main_v75)) := by
  show (cfg4.win 3).cut (grid4.coords t) ((dat4 V c).after 3 t) = _
  rw [after4_3]
  unfold out4_3
  rw [View.canon_unit_zero hz]
  simp only [View.ld_unit_zero (S := S5000x128) hz, View.ld_unit_zero (S := S5000x1) hz, View.ld_unit_zero (S := S128x128) hz]
  obtain ⟨-, -, -, -, -, -, e0, e1⟩ := idx4 t
  funext j
  rw [View.read_apply]
  refine block4_eq t.val (iblk4 V c 0 t) (iblk4 V c 1 t) (iblk4 V c 2 t) (V c main_v73) (V c main_v82) (V c main_v75)
    (fun p k i hi => read4_0 V c t p k i hi) (fun p i hi => read4_1 V c t p i hi) (read4_2 V c t) j _ ?_ ?_
  · show win4_3.index t (0 : Fin 2) * 5000 + 1 * (j 0).val = 5000 * t.val + (j 0).val; rw [e0]; omega
  · show win4_3.index t (1 : Fin 2) * 128 + 1 * (j 1).val = (j 1).val; rw [e1]; omega

/-- An index of the output is in point t's block iff each coordinate is in the block's range on its axis. -/
theorem mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v83).slice (win4_3.rect t)).set ↔ _
  rw [View.set_slice_whole, Rect.mem_set_unit]
  exact Iff.rfl

/-- Every row of the output is in the block of the point that is the row divided by 5000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show (i 0).val / 5000 < grid4.N; rw [hN]; omega⟩, rfl⟩
  obtain ⟨-, -, -, -, -, -, e0, e1⟩ := idx4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 128 ≤ (i 1).val ∧ (i 1).val < win4_3.index t (1 : Fin 2) * 128 + 128
    rw [e1]; omega

/-- The output array after region 4 is the scaled projection of the arrays the region finds. -/
theorem projection4 (c : Dev nD) :
    (dat4 V c).arrAt 3 cfg4.N
      = Cert.Spec.scaleMatmul128 (F := Ideal) (V c main_v73) (V c main_v82) (V c main_v75) :=
  (dat4 V c).arrAt_eq_of_cover 3 _ (fun t _ => flushed4 V c t) cover4

end Cert.KernelIdeal.Regions

end
-- ==== Proof.MMRegion5.lean ====
/-
  Region 5, a scaled projection: out = (x * s) @ W with x of shape [100000,128], s a column [100000,1] and W of shape [128,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The block of x at point t is rows 5000 t … 5000 t + 4999 of x. -/
theorem read5_0 (c : Dev nD) (t : Fin cfg5.N) (p : Fin 5000) (k : Fin 128) (i : Fin 100000)
    (hi : i.val = 5000 * t.val + p.val) :
    (iblk5 V c 0 t : Vec Ideal S5000x128 .f32) (ix2 p k) = (V c main_v64 : S100000x128.Idx → EReal) (ix2 i k) := by
  obtain ⟨e0, e1, -⟩ := idx5 t
  unfold iblk5
  rw [View.read_apply]
  show V c main_v64 _ = V c main_v64 _
  congr 1
  funext a
  apply Fin.ext
  match a with
  | ⟨0, _⟩ => show win5_0.index t (0 : Fin 2) * 5000 + 1 * p.val = i.val; rw [e0, hi]; omega
  | ⟨1, _⟩ => show win5_0.index t (1 : Fin 2) * 128 + 1 * k.val = k.val; rw [e1]; omega

/-- The block of the column s at point t is rows 5000 t … 5000 t + 4999 of s. -/
theorem read5_1 (c : Dev nD) (t : Fin cfg5.N) (p : Fin 5000) (i : Fin 100000)
    (hi : i.val = 5000 * t.val + p.val) :
    (iblk5 V c 1 t : Vec Ideal S5000x1 .f32) (ix2 p 0) = (V c main_v84 : S100000x1.Idx → EReal) (ix2 i 0) := by
  obtain ⟨-, -, e0, e1, -⟩ := idx5 t
  unfold iblk5
  rw [View.read_apply]
  show V c main_v84 _ = V c main_v84 _
  congr 1
  funext a
  apply Fin.ext
  match a with
  | ⟨0, _⟩ => show win5_1.index t (0 : Fin 2) * 5000 + 1 * p.val = i.val; rw [e0, hi]; omega
  | ⟨1, _⟩ => show win5_1.index t (1 : Fin 2) * 1 + 1 * 0 = 0; rw [e1]

/-- The block of W at every point is the whole of W. -/
theorem read5_2 (c : Dev nD) (t : Fin cfg5.N) :
    (iblk5 V c 2 t : Vec Ideal S128x128 .f32) = (V c main_v79 : S128x128.Idx → EReal) := by
  obtain ⟨-, -, -, -, e0, e1, -⟩ := idx5 t
  funext y
  unfold iblk5
  rw [View.read_apply]
  show V c main_v79 _ = V c main_v79 _
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- What point t writes back is block t of the specification of the arrays the region finds. -/
theorem flushed5 (c : Dev nD) (t : Fin cfg5.N) :
    (dat5 V c).flushed 3 t = ((cfg5.win 3).blk t).view.read (Elt Ideal)
      (Cert.Spec.scaleMatmul128 (F := Ideal) (V c main_v64) (V c main_v84) (V c main_v79)) := by
  show (cfg5.win 3).cut (grid5.coords t) ((dat5 V c).after 3 t) = _
  rw [after5_3]
  unfold out5_3
  rw [View.canon_unit_zero hz]
  simp only [View.ld_unit_zero (S := S5000x128) hz, View.ld_unit_zero (S := S5000x1) hz, View.ld_unit_zero (S := S128x128) hz]
  obtain ⟨-, -, -, -, -, -, e0, e1⟩ := idx5 t
  funext j
  rw [View.read_apply]
  refine block5_eq t.val (iblk5 V c 0 t) (iblk5 V c 1 t) (iblk5 V c 2 t) (V c main_v64) (V c main_v84) (V c main_v79)
    (fun p k i hi => read5_0 V c t p k i hi) (fun p i hi => read5_1 V c t p i hi) (read5_2 V c t) j _ ?_ ?_
  · show win5_3.index t (0 : Fin 2) * 5000 + 1 * (j 0).val = 5000 * t.val + (j 0).val; rw [e0]; omega
  · show win5_3.index t (1 : Fin 2) * 128 + 1 * (j 1).val = (j 1).val; rw [e1]; omega

/-- An index of the output is in point t's block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v85).slice (win5_3.rect t)).set ↔ _
  rw [View.set_slice_whole, Rect.mem_set_unit]
  exact Iff.rfl

/-- Every row of the output is in the block of the point that is the row divided by 5000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 20 := N_5
  obtain ⟨t, ht⟩ : ∃ t : Fin cfg5.N, t.val = (i 0).val / 5000 :=
    ⟨⟨(i 0).val / 5000, by show (i 0).val / 5000 < grid5.N; rw [hN]; omega⟩, rfl⟩
  obtain ⟨-, -, -, -, -, -, e0, e1⟩ := idx5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    rw [e0, ht]; omega
  | ⟨1, _⟩ =>
    show win5_3.index t (1 : Fin 2) * 128 ≤ (i 1).val ∧ (i 1).val < win5_3.index t (1 : Fin 2) * 128 + 128
    rw [e1]; omega

/-- The output array after region 5 is the scaled projection of the arrays the region finds. -/
theorem projection5 (c : Dev nD) :
    (dat5 V c).arrAt 3 cfg5.N
      = Cert.Spec.scaleMatmul128 (F := Ideal) (V c main_v64) (V c main_v84) (V c main_v79) :=
  (dat5 V c).arrAt_eq_of_cover 3 _ (fun t _ => flushed5 V c t) cover5

end Cert.KernelIdeal.Regions

end
-- ==== Proof.MMRegion8.lean ====
/-
  Region 8, a scaled projection: out = (x * s) @ W with x of shape [100000,128], s a column [100000,1] and W of shape [128,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The block of x at point t is rows 5000 t … 5000 t + 4999 of x. -/
theorem read8_0 (c : Dev nD) (t : Fin cfg8.N) (p : Fin 5000) (k : Fin 128) (i : Fin 100000)
    (hi : i.val = 5000 * t.val + p.val) :
    (iblk8 V c 0 t : Vec Ideal S5000x128 .f32) (ix2 p k) = (V c main_v123 : S100000x128.Idx → EReal) (ix2 i k) := by
  obtain ⟨e0, e1, -⟩ := idx8 t
  unfold iblk8
  rw [View.read_apply]
  show V c main_v123 _ = V c main_v123 _
  congr 1
  funext a
  apply Fin.ext
  match a with
  | ⟨0, _⟩ => show win8_0.index t (0 : Fin 2) * 5000 + 1 * p.val = i.val; rw [e0, hi]; omega
  | ⟨1, _⟩ => show win8_0.index t (1 : Fin 2) * 128 + 1 * k.val = k.val; rw [e1]; omega

/-- The block of the column s at point t is rows 5000 t … 5000 t + 4999 of s. -/
theorem read8_1 (c : Dev nD) (t : Fin cfg8.N) (p : Fin 5000) (i : Fin 100000)
    (hi : i.val = 5000 * t.val + p.val) :
    (iblk8 V c 1 t : Vec Ideal S5000x1 .f32) (ix2 p 0) = (V c main_v132 : S100000x1.Idx → EReal) (ix2 i 0) := by
  obtain ⟨-, -, e0, e1, -⟩ := idx8 t
  unfold iblk8
  rw [View.read_apply]
  show V c main_v132 _ = V c main_v132 _
  congr 1
  funext a
  apply Fin.ext
  match a with
  | ⟨0, _⟩ => show win8_1.index t (0 : Fin 2) * 5000 + 1 * p.val = i.val; rw [e0, hi]; omega
  | ⟨1, _⟩ => show win8_1.index t (1 : Fin 2) * 1 + 1 * 0 = 0; rw [e1]

/-- The block of W at every point is the whole of W. -/
theorem read8_2 (c : Dev nD) (t : Fin cfg8.N) :
    (iblk8 V c 2 t : Vec Ideal S128x128 .f32) = (V c main_v125 : S128x128.Idx → EReal) := by
  obtain ⟨-, -, -, -, e0, e1, -⟩ := idx8 t
  funext y
  unfold iblk8
  rw [View.read_apply]
  show V c main_v125 _ = V c main_v125 _
  congr 1
  funext a
  apply Fin.ext
  match a with
  | ⟨0, _⟩ => show win8_2.index t (0 : Fin 2) * 128 + 1 * (y 0).val = (y 0).val; rw [e0]; omega
  | ⟨1, _⟩ => show win8_2.index t (1 : Fin 2) * 128 + 1 * (y 1).val = (y 1).val; rw [e1]; omega

/-- What point t writes back is block t of the specification of the arrays the region finds. -/
theorem flushed8 (c : Dev nD) (t : Fin cfg8.N) :
    (dat8 V c).flushed 3 t = ((cfg8.win 3).blk t).view.read (Elt Ideal)
      (Cert.Spec.scaleMatmul128 (F := Ideal) (V c main_v123) (V c main_v132) (V c main_v125)) := by
  show (cfg8.win 3).cut (grid8.coords t) ((dat8 V c).after 3 t) = _
  rw [after8_3]
  unfold out8_3
  rw [View.canon_unit_zero hz]
  simp only [View.ld_unit_zero (S := S5000x128) hz, View.ld_unit_zero (S := S5000x1) hz, View.ld_unit_zero (S := S128x128) hz]
  obtain ⟨-, -, -, -, -, -, e0, e1⟩ := idx8 t
  funext j
  rw [View.read_apply]
  refine block8_eq t.val (iblk8 V c 0 t) (iblk8 V c 1 t) (iblk8 V c 2 t) (V c main_v123) (V c main_v132) (V c main_v125)
    (fun p k i hi => read8_0 V c t p k i hi) (fun p i hi => read8_1 V c t p i hi) (read8_2 V c t) j _ ?_ ?_
  · show win8_3.index t (0 : Fin 2) * 5000 + 1 * (j 0).val = 5000 * t.val + (j 0).val; rw [e0]; omega
  · show win8_3.index t (1 : Fin 2) * 128 + 1 * (j 1).val = (j 1).val; rw [e1]; omega

/-- An index of the output is in point t's block iff each coordinate is in the block's range on its axis. -/
theorem mem_blk8 (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v133).slice (win8_3.rect t)).set ↔ _
  rw [View.set_slice_whole, Rect.mem_set_unit]
  exact Iff.rfl

/-- Every row of the output is in the block of the point that is the row divided by 5000. -/
theorem cover8 (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  have hN : grid8.N = 20 := N_8
  obtain ⟨t, ht⟩ : ∃ t : Fin cfg8.N, t.val = (i 0).val / 5000 :=
    ⟨⟨(i 0).val / 5000, by show (i 0).val / 5000 < grid8.N; rw [hN]; omega⟩, rfl⟩
  obtain ⟨-, -, -, -, -, -, e0, e1⟩ := idx8 t
  refine ⟨t, flush8_3 t, ?_⟩
  rw [mem_blk8]
  intro a
  match a with
  | ⟨0, _⟩ =>
    show win8_3.index t (0 : Fin 2) * 5000 ≤ (i 0).val ∧ (i 0).val < win8_3.index t (0 : Fin 2) * 5000 + 5000
    rw [e0, ht]; omega
  | ⟨1, _⟩ =>
    show win8_3.index t (1 : Fin 2) * 128 ≤ (i 1).val ∧ (i 1).val < win8_3.index t (1 : Fin 2) * 128 + 128
    rw [e1]; omega

/-- The output array after region 8 is the scaled projection of the arrays the region finds. -/
theorem projection8 (c : Dev nD) :
    (dat8 V c).arrAt 3 cfg8.N
      = Cert.Spec.scaleMatmul128 (F := Ideal) (V c main_v123) (V c main_v132) (V c main_v125) :=
  (dat8 V c).arrAt_eq_of_cover 3 _ (fun t _ => flushed8 V c t) cover8

end Cert.KernelIdeal.Regions

end
-- ==== Proof.MMRegion9.lean ====
/-
  Region 9, a scaled projection: out = (x * s) @ W with x of shape [100000,128], s a column [100000,1] and W of shape [128,128],
  computed in 20 blocks of 5000 rows. Each grid point's stored block is the specification's rows of that block (the loaded
  blocks are the same rows of x and s and the whole of W), and the 20 blocks tile the output, so the output array after
  the region is the specification of the arrays the region finds.
-/
import proofs.«165753_j16037407883756_1_alg».proof.Proof.Gen.KernelIdeal.Frame
import Idealize.ShloMosaic.Lib.Pipeline.Value
import proofs.«165753_j16037407883756_1_alg».proof.Proof.MMBlock

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.MM
open Idealize.ShloMosaic.Pipeline (Dat)

variable (V : (c : Dev nD) → (b : Ref sig .tc) → Buf (Elt Ideal) ((c : Thread nD τ).loc b))

/-- The block indices at grid point t: x, s and the output move down one block per point; W stays. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The block of x at point t is rows 5000 t … 5000 t + 4999 of x. -/
theorem read9_0 (c : Dev nD) (t : Fin cfg9.N) (p : Fin 5000) (k : Fin 128) (i : Fin 100000)
    (hi : i.val = 5000 * t.val + p.val) :
    (iblk9 V c 0 t : Vec Ideal S5000x128 .f32) (ix2 p k) = (V c main_v114 : S100000x128.Idx → EReal) (ix2 i k) := by
  obtain ⟨e0, e1, -⟩ := idx9 t
  unfold iblk9
  rw [View.read_apply]
  show V c main_v114 _ = V c main_v114 _
  congr 1
  funext a
  apply Fin.ext
  match a with
  | ⟨0, _⟩ => show win9_0.index t (0 : Fin 2) * 5000 + 1 * p.val = i.val; rw [e0, hi]; omega
  | ⟨1, _⟩ => show win9_0.index t (1 : Fin 2) * 128 + 1 * k.val = k.val; rw [e1]; omega

/-- The block of the column s at point t is rows 5000 t … 5000 t + 4999 of s. -/
theorem read9_1 (c : Dev nD) (t : Fin cfg9.N) (p : Fin 5000) (i : Fin 100000)
    (hi : i.val = 5000 * t.val + p.val) :
    (iblk9 V c 1 t : Vec Ideal S5000x1 .f32) (ix2 p 0) = (V c main_v134 : S100000x1.Idx → EReal) (ix2 i 0) := by
  obtain ⟨-, -, e0, e1, -⟩ := idx9 t
  unfold iblk9
  rw [View.read_apply]
  show V c main_v134 _ = V c main_v134 _
  congr 1
  funext a
  apply Fin.ext
  match a with
  | ⟨0, _⟩ => show win9_1.index t (0 : Fin 2) * 5000 + 1 * p.val = i.val; rw [e0, hi]; omega
  | ⟨1, _⟩ => show win9_1.index t (1 : Fin 2) * 1 + 1 * 0 = 0; rw [e1]

/-- The block of W at every point is the whole of W. -/
theorem read9_2 (c : Dev nD) (t : Fin cfg9.N) :
    (iblk9 V c 2 t : Vec Ideal S128x128 .f32) = (V c main_v129 : S128x128.Idx → EReal) := by
  obtain ⟨-, -, -, -, e0, e1, -⟩ := idx9 t
  funext y
  unfold iblk9
  rw [View.read_apply]
  show V c main_v129 _ = V c main_v129 _
  congr 1
  funext a
  apply Fin.ext
  match a with
  | ⟨0, _⟩ => show win9_2.index t (0 : Fin 2) * 128 + 1 * (y 0).val = (y 0).val; rw [e0]; omega
  | ⟨1, _⟩ => show win9_2.index t (1 : Fin 2) * 128 + 1 * (y 1).val = (y 1).val; rw [e1]; omega

/-- What point t writes back is block t of the specification of the arrays the region finds. -/
theorem flushed9 (c : Dev nD) (t : Fin cfg9.N) :
    (dat9 V c).flushed 3 t = ((cfg9.win 3).blk t).view.read (Elt Ideal)
      (Cert.Spec.scaleMatmul128 (F := Ideal) (V c main_v114) (V c main_v134) (V c main_v129)) := by
  show (cfg9.win 3).cut (grid9.coords t) ((dat9 V c).after 3 t) = _
  rw [after9_3]
  unfold out9_3
  rw [View.canon_unit_zero hz]
  simp only [View.ld_unit_zero (S := S5000x128) hz, View.ld_unit_zero (S := S5000x1) hz, View.ld_unit_zero (S := S128x128) hz]
  obtain ⟨-, -, -, -, -, -, e0, e1⟩ := idx9 t
  funext j
  rw [View.read_apply]
  refine block9_eq t.val (iblk9 V c 0 t) (iblk9 V c 1 t) (iblk9 V c 2 t) (V c main_v114) (V c main_v134) (V c main_v129)
    (fun p k i hi => read9_0 V c t p k i hi) (fun p i hi => read9_1 V c t p i hi) (read9_2 V c t) j _ ?_ ?_
  · show win9_3.index t (0 : Fin 2) * 5000 + 1 * (j 0).val = 5000 * t.val + (j 0).val; rw [e0]; omega
  · show win9_3.index t (1 : Fin 2) * 128 + 1 * (j 1).val = (j 1).val; rw [e1]; omega

/-- An index of the output is in point t's block iff each coordinate is in the block's range on its axis. -/
theorem mem_blk9 (t : Fin cfg9.N) (i : S100000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v135).slice (win9_3.rect t)).set ↔ _
  rw [View.set_slice_whole, Rect.mem_set_unit]
  exact Iff.rfl

/-- Every row of the output is in the block of the point that is the row divided by 5000. -/
theorem cover9 (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  have hN : grid9.N = 20 := N_9
  obtain ⟨t, ht⟩ : ∃ t : Fin cfg9.N, t.val = (i 0).val / 5000 :=
    ⟨⟨(i 0).val / 5000, by show (i 0).val / 5000 < grid9.N; rw [hN]; omega⟩, rfl⟩
  obtain ⟨-, -, -, -, -, -, e0, e1⟩ := idx9 t
  refine ⟨t, flush9_3 t, ?_⟩
  rw [mem_blk9]
  intro a
  match a with
  | ⟨0, _⟩ =>
    show win9_3.index t (0 : Fin 2) * 5000 ≤ (i 0).val ∧ (i 0).val < win9_3.index t (0 : Fin 2) * 5000 + 5000
    rw [e0, ht]; omega
  | ⟨1, _⟩ =>
    show win9_3.index t (1 : Fin 2) * 128 ≤ (i 1).val ∧ (i 1).val < win9_3.index t (1 : Fin 2) * 128 + 128
    rw [e1]; omega

/-- The output array after region 9 is the scaled projection of the arrays the region finds. -/
theorem projection9 (c : Dev nD) :
    (dat9 V c).arrAt 3 cfg9.N
      = Cert.Spec.scaleMatmul128 (F := Ideal) (V c main_v114) (V c main_v134) (V c main_v129) :=
  (dat9 V c).arrAt_eq_of_cover 3 _ (fun t _ => flushed9 V c t) cover9

end Cert.KernelIdeal.Regions

end
-- ==== Proof.RegionsMM.lean ====
/-
  The six scaled-projection regions of the kernel, each against the specification: after region p the output array of its
  pipeline is the scaled projection (rows of x scaled by the column s, then the product with W) of the three arrays the
  region finds in its input windows.
-/
import proofs.«165753_j16037407883756_1_alg».proof.Proof.MMRegion0
import proofs.«165753_j16037407883756_1_alg».proof.Proof.MMRegion1
import proofs.«165753_j16037407883756_1_alg».proof.Proof.MMRegion4
import proofs.«165753_j16037407883756_1_alg».proof.Proof.MMRegion5
import proofs.«165753_j16037407883756_1_alg».proof.Proof.MMRegion8
import proofs.«165753_j16037407883756_1_alg».proof.Proof.MMRegion9

noncomputable section

namespace Cert.KernelIdeal.Regions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 0: its output array is the 300-wide scaled projection of its three input arrays. -/
theorem region0_out (c : Dev nD) :
    (Cert.KernelIdeal.Gen.dat0 (F := Ideal) V c).arrAt 3 Cert.KernelIdeal.cfg0.N
      = Cert.Spec.scaleMatmul300 (F := Ideal) (V c (Pipeline.arrRef spec0 0)) (V c (Pipeline.arrRef spec0 1)) (V c (Pipeline.arrRef spec0 2)) :=
  projection0 V c

/-- Region 1: its output array is the 200-wide scaled projection of its three input arrays. -/
theorem region1_out (c : Dev nD) :
    (Cert.KernelIdeal.Gen.dat1 (F := Ideal) V c).arrAt 3 Cert.KernelIdeal.cfg1.N
      = Cert.Spec.scaleMatmul200 (F := Ideal) (V c (Pipeline.arrRef spec1 0)) (V c (Pipeline.arrRef spec1 1)) (V c (Pipeline.arrRef spec1 2)) :=
  projection1 V c

/-- Region 4: its output array is the 128-wide scaled projection of its three input arrays. -/
theorem region4_out (c : Dev nD) :
    (Cert.KernelIdeal.Gen.dat4 (F := Ideal) V c).arrAt 3 Cert.KernelIdeal.cfg4.N
      = Cert.Spec.scaleMatmul128 (F := Ideal) (V c (Pipeline.arrRef spec4 0)) (V c (Pipeline.arrRef spec4 1)) (V c (Pipeline.arrRef spec4 2)) :=
  projection4 V c

/-- Region 5: its output array is the 128-wide scaled projection of its three input arrays. -/
theorem region5_out (c : Dev nD) :
    (Cert.KernelIdeal.Gen.dat5 (F := Ideal) V c).arrAt 3 Cert.KernelIdeal.cfg5.N
      = Cert.Spec.scaleMatmul128 (F := Ideal) (V c (Pipeline.arrRef spec5 0)) (V c (Pipeline.arrRef spec5 1)) (V c (Pipeline.arrRef spec5 2)) :=
  projection5 V c

/-- Region 8: its output array is the 128-wide scaled projection of its three input arrays. -/
theorem region8_out (c : Dev nD) :
    (Cert.KernelIdeal.Gen.dat8 (F := Ideal) V c).arrAt 3 Cert.KernelIdeal.cfg8.N
      = Cert.Spec.scaleMatmul128 (F := Ideal) (V c (Pipeline.arrRef spec8 0)) (V c (Pipeline.arrRef spec8 1)) (V c (Pipeline.arrRef spec8 2)) :=
  projection8 V c

/-- Region 9: its output array is the 128-wide scaled projection of its three input arrays. -/
theorem region9_out (c : Dev nD) :
    (Cert.KernelIdeal.Gen.dat9 (F := Ideal) V c).arrAt 3 Cert.KernelIdeal.cfg9.N
      = Cert.Spec.scaleMatmul128 (F := Ideal) (V c (Pipeline.arrRef spec9 0)) (V c (Pipeline.arrRef spec9 1)) (V c (Pipeline.arrRef spec9 2)) :=
  projection9 V c

end Cert.KernelIdeal.Regions

end
-- ==== Proof.KStep2.lean ====
/-
  One step of the kernel's boundary chain: from what is known at boundary 1 (the argument arrays as launched; each live buffer at
  its intermediate array of the computation) to the same at boundary 2, across region 0 (its output's closed form; the rest is none of its arrays, or an input window's array, which is not written back).
-/
import proofs.«165753_j16037407883756_1_alg».proof.Proof.KRegArgs0
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step2 (A : Cert.Net.Args Ideal)
    (h : argsOf (W1 m ρ c) = A
      ∧ W1 m ρ c (Proc.devRef .tc main_v7) = Cert.Net.csLN A
      ∧ W1 m ρ c (Proc.devRef .tc main_v15) = Cert.Net.cdLN A
      ∧ W1 m ρ c (Proc.devRef .tc main_v23) = Cert.Net.csNL A
      ∧ W1 m ρ c (Proc.devRef .tc main_v31) = Cert.Net.cdNL A
      ∧ W1 m ρ c (Proc.devRef .tc main_v32) = col (Cert.Net.csLN A)) :
    argsOf (W2 m ρ c) = A
    ∧ W2 m ρ c (Proc.devRef .tc main_v33) = Cert.Net.mmN1 A
    ∧ W2 m ρ c (Proc.devRef .tc main_v7) = Cert.Net.csLN A
    ∧ W2 m ρ c (Proc.devRef .tc main_v15) = Cert.Net.cdLN A
    ∧ W2 m ρ c (Proc.devRef .tc main_v23) = Cert.Net.csNL A
    ∧ W2 m ρ c (Proc.devRef .tc main_v31) = Cert.Net.cdNL A := by
  obtain ⟨ha1, h1_v7, h1_v15, h1_v23, h1_v31, h1_v32⟩ := h
  have ha2 : argsOf (W2 m ρ c) = A := (args_reg0 m ρ c).trans ha1
  have g2_0 : V1 m ρ c (Pipeline.arrRef spec0 0) = A.a1 := congrArg (fun X : Cert.Net.Args Ideal => X.a1) ha1
  have g2_1 : V1 m ρ c (Pipeline.arrRef spec0 1) = col (Cert.Net.csLN A) := h1_v32
  have g2_2 : V1 m ρ c (Pipeline.arrRef spec0 2) = A.a6 := congrArg (fun X : Cert.Net.Args Ideal => X.a6) ha1
  have h2_v33 : W2 m ρ c (Proc.devRef .tc main_v33) = Cert.Net.mmN1 A :=
    (W2_arr m ρ c 3).trans ((Cert.KernelIdeal.Regions.region0_out (V1 m ρ) c).trans ((congr (congr (congrArg (Cert.Spec.scaleMatmul300 (F := Ideal)) g2_0) g2_1) g2_2).trans rfl))
  have h2_v7 : W2 m ρ c (Proc.devRef .tc main_v7) = Cert.Net.csLN A :=
    (W2_of_ne m ρ c main_v7 (by decide)).trans h1_v7
  have h2_v15 : W2 m ρ c (Proc.devRef .tc main_v15) = Cert.Net.cdLN A :=
    (W2_of_ne m ρ c main_v15 (by decide)).trans h1_v15
  have h2_v23 : W2 m ρ c (Proc.devRef .tc main_v23) = Cert.Net.csNL A :=
    (W2_of_ne m ρ c main_v23 (by decide)).trans h1_v23
  have h2_v31 : W2 m ρ c (Proc.devRef .tc main_v31) = Cert.Net.cdNL A :=
    (W2_of_ne m ρ c main_v31 (by decide)).trans h1_v31
  exact ⟨ha2, h2_v33, h2_v7, h2_v15, h2_v23, h2_v31⟩

end Cert.KernelIdeal.Stages

end
-- ==== Proof.KStage_h1.lean ====
/-
  A host stretch of the kernel program (h1): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h1 : List (Ref sig .tc) :=
  [ main_v34 ]

theorem writes_h1 : (hostOps1 : List (HloOp τ sig (Elt F))).Forall fun op => op.writes ⊆ (written_h1.map (Proc.devRef (τ := τ) .tc)).toFinset :=
  Finset.singleton_subset_iff.mpr (List.mem_toFinset.mpr (List.mem_map_of_mem (by decide)))

/-- A buffer the stretch does not write is after it as before it. -/
theorem keep_h1 (V : Valuation τ sig (Elt F)) {r : Ref sig .tc} (h : r ∉ written_h1) :
    after hostOps1 V (Proc.devRef .tc r) = V (Proc.devRef .tc r) := after_of_writes_sub hostOps1 V writes_h1 h

/-- The stretch leaves the argument arrays as it found them. -/
theorem args_h1 (V : Valuation τ sig (Elt F)) : argsOf (after hostOps1 V) = argsOf V := by
  simp only [argsOf, keep_h1 V (r := main_arg0) (by decide), keep_h1 V (r := main_arg1) (by decide), keep_h1 V (r := main_arg2) (by decide), keep_h1 V (r := main_arg3) (by decide), keep_h1 V (r := main_arg4) (by decide), keep_h1 V (r := main_arg5) (by decide), keep_h1 V (r := main_arg6) (by decide), keep_h1 V (r := main_arg7) (by decide), keep_h1 V (r := main_arg8) (by decide), keep_h1 V (r := main_arg9) (by decide), keep_h1 V (r := main_arg10) (by decide), keep_h1 V (r := main_arg11) (by decide), keep_h1 V (r := main_arg12) (by decide), keep_h1 V (r := main_arg13) (by decide), keep_h1 V (r := main_arg14) (by decide), keep_h1 V (r := main_arg15) (by decide), keep_h1 V (r := main_arg16) (by decide), keep_h1 V (r := main_arg17) (by decide), keep_h1 V (r := main_arg18) (by decide), keep_h1 V (r := main_arg19) (by decide), keep_h1 V (r := main_arg20) (by decide), keep_h1 V (r := main_arg21) (by decide), keep_h1 V (r := main_arg22) (by decide), keep_h1 V (r := main_arg23) (by decide), keep_h1 V (r := main_arg24) (by decide), keep_h1 V (r := main_arg25) (by decide), keep_h1 V (r := main_arg26) (by decide), keep_h1 V (r := main_arg27) (by decide), keep_h1 V (r := main_arg28) (by decide), keep_h1 V (r := main_arg29) (by decide), keep_h1 V (r := main_arg30) (by decide), keep_h1 V (r := main_arg31) (by decide), keep_h1 V (r := main_arg32) (by decide), keep_h1 V (r := main_arg33) (by decide)]

attribute [local irreducible] Host.reduceAdd Host.gather Host.scatterAdd in
set_option maxRecDepth 16384 in
set_option maxHeartbeats 4000000 in
theorem out_h1_v34 (V : Valuation τ sig (Elt F)) :
    after hostOps1 V (Proc.devRef .tc main_v34) = col (V (Proc.devRef .tc main_v23)) := by
  simp only [after_cons, after_nil]
  exact Eq.trans rfl (Cert.Glue.col_eq 100000 (V (Proc.devRef .tc main_v23)) shapeCasts_S100000_S100000x1 Cert.ReferenceIdeal.Gen.bcast_S100000_S100000x1_0)

end Cert.KernelIdeal.Stages

end
-- ==== Proof.KStep3.lean ====
/-
  One step of the kernel's boundary chain: from what is known at boundary 2 (the argument arrays as launched; each live buffer at
  its intermediate array of the computation) to the same at boundary 3, across host stretch 1 (its stage equations; the rest kept).
-/
import proofs.«165753_j16037407883756_1_alg».proof.Proof.KStage_h1
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step3 (A : Cert.Net.Args Ideal)
    (h : argsOf (W2 m ρ c) = A
      ∧ W2 m ρ c (Proc.devRef .tc main_v33) = Cert.Net.mmN1 A
      ∧ W2 m ρ c (Proc.devRef .tc main_v7) = Cert.Net.csLN A
      ∧ W2 m ρ c (Proc.devRef .tc main_v15) = Cert.Net.cdLN A
      ∧ W2 m ρ c (Proc.devRef .tc main_v23) = Cert.Net.csNL A
      ∧ W2 m ρ c (Proc.devRef .tc main_v31) = Cert.Net.cdNL A) :
    argsOf (W3 m ρ c) = A
    ∧ W3 m ρ c (Proc.devRef .tc main_v34) = col (Cert.Net.csNL A)
    ∧ W3 m ρ c (Proc.devRef .tc main_v33) = Cert.Net.mmN1 A
    ∧ W3 m ρ c (Proc.devRef .tc main_v7) = Cert.Net.csLN A
    ∧ W3 m ρ c (Proc.devRef .tc main_v15) = Cert.Net.cdLN A
    ∧ W3 m ρ c (Proc.devRef .tc main_v23) = Cert.Net.csNL A
    ∧ W3 m ρ c (Proc.devRef .tc main_v31) = Cert.Net.cdNL A := by
  obtain ⟨ha2, h2_v33, h2_v7, h2_v15, h2_v23, h2_v31⟩ := h
  have ha3 : argsOf (W3 m ρ c) = A := (args_h1 (W2 m ρ c)).trans ha2
  have h3_v34 : W3 m ρ c (Proc.devRef .tc main_v34) = col (Cert.Net.csNL A) := by
    refine (out_h1_v34 (W2 m ρ c)).trans ?_
    (try simp only [h2_v23]); (try rfl)
  have h3_v33 : W3 m ρ c (Proc.devRef .tc main_v33) = Cert.Net.mmN1 A :=
    (keep_h1 (W2 m ρ c) (by decide)).trans h2_v33
  have h3_v7 : W3 m ρ c (Proc.devRef .tc main_v7) = Cert.Net.csLN A :=
    (keep_h1 (W2 m ρ c) (by decide)).trans h2_v7
  have h3_v15 : W3 m ρ c (Proc.devRef .tc main_v15) = Cert.Net.cdLN A :=
    (keep_h1 (W2 m ρ c) (by decide)).trans h2_v15
  have h3_v23 : W3 m ρ c (Proc.devRef .tc main_v23) = Cert.Net.csNL A :=
    (keep_h1 (W2 m ρ c) (by decide)).trans h2_v23
  have h3_v31 : W3 m ρ c (Proc.devRef .tc main_v31) = Cert.Net.cdNL A :=
    (keep_h1 (W2 m ρ c) (by decide)).trans h2_v31
  exact ⟨ha3, h3_v34, h3_v33, h3_v7, h3_v15, h3_v23, h3_v31⟩

end Cert.KernelIdeal.Stages

end
-- ==== Proof.KRegArgs1.lean ====
/-
  Region 1 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg1_arg0 (c : Dev nD) : W4 m ρ c (Proc.devRef .tc main_arg0) = W3 m ρ c (Proc.devRef .tc main_arg0) :=
  (W4_arr m ρ c 0).trans (((dat1 (V3 m ρ) c).arrAt_in 0 rfl _).trans (A_eq1 (V3 m ρ) c 0))
theorem reg1_arg1 (c : Dev nD) : W4 m ρ c (Proc.devRef .tc main_arg1) = W3 m ρ c (Proc.devRef .tc main_arg1) :=
  W4_of_ne m ρ c main_arg1 (by decide)
theorem reg1_arg2 (c : Dev nD) : W4 m ρ c (Proc.devRef .tc main_arg2) = W3 m ρ c (Proc.devRef .tc main_arg2) :=
  W4_of_ne m ρ c main_arg2 (by decide)
theorem reg1_arg3 (c : Dev nD) : W4 m ρ c (Proc.devRef .tc main_arg3) = W3 m ρ c (Proc.devRef .tc main_arg3) :=
  W4_of_ne m ρ c main_arg3 (by decide)
theorem reg1_arg4 (c : Dev nD) : W4 m ρ c (Proc.devRef .tc main_arg4) = W3 m ρ c (Proc.devRef .tc main_arg4) :=
  W4_of_ne m ρ c main_arg4 (by decide)
theorem reg1_arg5 (c : Dev nD) : W4 m ρ c (Proc.devRef .tc main_arg5) = W3 m ρ c (Proc.devRef .tc main_arg5) :=
  W4_of_ne m ρ c main_arg5 (by decide)
theorem reg1_arg6 (c : Dev nD) : W4 m ρ c (Proc.devRef .tc main_arg6) = W3 m ρ c (Proc.devRef .tc main_arg6) :=
  W4_of_ne m ρ c main_arg6 (by decide)
theorem reg1_arg7 (c : Dev nD) : W4 m ρ c (Proc.devRef .tc main_arg7) = W3 m ρ c (Proc.devRef .tc main_arg7) :=
  W4_of_ne m ρ c main_arg7 (by decide)
theorem reg1_arg8 (c : Dev nD) : W4 m ρ c (Proc.devRef .tc main_arg8) = W3 m ρ c (Proc.devRef .tc main_arg8) :=
  (W4_arr m ρ c 2).trans (((dat1 (V3 m ρ) c).arrAt_in 2 rfl _).trans (A_eq1 (V3 m ρ) c 2))
theorem reg1_arg9 (c : Dev nD) : W4 m ρ c (Proc.devRef .tc main_arg9) = W3 m ρ c (Proc.devRef .tc main_arg9) :=
  W4_of_ne m ρ c main_arg9 (by decide)
theorem reg1_arg10 (c : Dev nD) : W4 m ρ c (Proc.devRef .tc main_arg10) = W3 m ρ c (Proc.devRef .tc main_arg10) :=
  W4_of_ne m ρ c main_arg10 (by decide)
theorem reg1_arg11 (c : Dev nD) : W4 m ρ c (Proc.devRef .tc main_arg11) = W3 m ρ c (Proc.devRef .tc main_arg11) :=
  W4_of_ne m ρ c main_arg11 (by decide)
theorem reg1_arg12 (c : Dev nD) : W4 m ρ c (Proc.devRef .tc main_arg12) = W3 m ρ c (Proc.devRef .tc main_arg12) :=
  W4_of_ne m ρ c main_arg12 (by decide)
theorem reg1_arg13 (c : Dev nD) : W4 m ρ c (Proc.devRef .tc main_arg13) = W3 m ρ c (Proc.devRef .tc main_arg13) :=
  W4_of_ne m ρ c main_arg13 (by decide)
theorem reg1_arg14 (c : Dev nD) : W4 m ρ c (Proc.devRef .tc main_arg14) = W3 m ρ c (Proc.devRef .tc main_arg14) :=
  W4_of_ne m ρ c main_arg14 (by decide)
theorem reg1_arg15 (c : Dev nD) : W4 m ρ c (Proc.devRef .tc main_arg15) = W3 m ρ c (Proc.devRef .tc main_arg15) :=
  W4_of_ne m ρ c main_arg15 (by decide)
theorem reg1_arg16 (c : Dev nD) : W4 m ρ c (Proc.devRef .tc main_arg16) = W3 m ρ c (Proc.devRef .tc main_arg16) :=
  W4_of_ne m ρ c main_arg16 (by decide)
theorem reg1_arg17 (c : Dev nD) : W4 m ρ c (Proc.devRef .tc main_arg17) = W3 m ρ c (Proc.devRef .tc main_arg17) :=
  W4_of_ne m ρ c main_arg17 (by decide)
theorem reg1_arg18 (c : Dev nD) : W4 m ρ c (Proc.devRef .tc main_arg18) = W3 m ρ c (Proc.devRef .tc main_arg18) :=
  W4_of_ne m ρ c main_arg18 (by decide)
theorem reg1_arg19 (c : Dev nD) : W4 m ρ c (Proc.devRef .tc main_arg19) = W3 m ρ c (Proc.devRef .tc main_arg19) :=
  W4_of_ne m ρ c main_arg19 (by decide)
theorem reg1_arg20 (c : Dev nD) : W4 m ρ c (Proc.devRef .tc main_arg20) = W3 m ρ c (Proc.devRef .tc main_arg20) :=
  W4_of_ne m ρ c main_arg20 (by decide)
theorem reg1_arg21 (c : Dev nD) : W4 m ρ c (Proc.devRef .tc main_arg21) = W3 m ρ c (Proc.devRef .tc main_arg21) :=
  W4_of_ne m ρ c main_arg21 (by decide)
theorem reg1_arg22 (c : Dev nD) : W4 m ρ c (Proc.devRef .tc main_arg22) = W3 m ρ c (Proc.devRef .tc main_arg22) :=
  W4_of_ne m ρ c main_arg22 (by decide)
theorem reg1_arg23 (c : Dev nD) : W4 m ρ c (Proc.devRef .tc main_arg23) = W3 m ρ c (Proc.devRef .tc main_arg23) :=
  W4_of_ne m ρ c main_arg23 (by decide)
theorem reg1_arg24 (c : Dev nD) : W4 m ρ c (Proc.devRef .tc main_arg24) = W3 m ρ c (Proc.devRef .tc main_arg24) :=
  W4_of_ne m ρ c main_arg24 (by decide)
theorem reg1_arg25 (c : Dev nD) : W4 m ρ c (Proc.devRef .tc main_arg25) = W3 m ρ c (Proc.devRef .tc main_arg25) :=
  W4_of_ne m ρ c main_arg25 (by decide)
theorem reg1_arg26 (c : Dev nD) : W4 m ρ c (Proc.devRef .tc main_arg26) = W3 m ρ c (Proc.devRef .tc main_arg26) :=
  W4_of_ne m ρ c main_arg26 (by decide)
theorem reg1_arg27 (c : Dev nD) : W4 m ρ c (Proc.devRef .tc main_arg27) = W3 m ρ c (Proc.devRef .tc main_arg27) :=
  W4_of_ne m ρ c main_arg27 (by decide)
theorem reg1_arg28 (c : Dev nD) : W4 m ρ c (Proc.devRef .tc main_arg28) = W3 m ρ c (Proc.devRef .tc main_arg28) :=
  W4_of_ne m ρ c main_arg28 (by decide)
theorem reg1_arg29 (c : Dev nD) : W4 m ρ c (Proc.devRef .tc main_arg29) = W3 m ρ c (Proc.devRef .tc main_arg29) :=
  W4_of_ne m ρ c main_arg29 (by decide)
theorem reg1_arg30 (c : Dev nD) : W4 m ρ c (Proc.devRef .tc main_arg30) = W3 m ρ c (Proc.devRef .tc main_arg30) :=
  W4_of_ne m ρ c main_arg30 (by decide)
theorem reg1_arg31 (c : Dev nD) : W4 m ρ c (Proc.devRef .tc main_arg31) = W3 m ρ c (Proc.devRef .tc main_arg31) :=
  W4_of_ne m ρ c main_arg31 (by decide)
theorem reg1_arg32 (c : Dev nD) : W4 m ρ c (Proc.devRef .tc main_arg32) = W3 m ρ c (Proc.devRef .tc main_arg32) :=
  W4_of_ne m ρ c main_arg32 (by decide)
theorem reg1_arg33 (c : Dev nD) : W4 m ρ c (Proc.devRef .tc main_arg33) = W3 m ρ c (Proc.devRef .tc main_arg33) :=
  W4_of_ne m ρ c main_arg33 (by decide)

theorem args_reg1 (c : Dev nD) : argsOf (W4 m ρ c) = argsOf (W3 m ρ c) := by
  simp only [argsOf, reg1_arg0 m ρ c, reg1_arg1 m ρ c, reg1_arg2 m ρ c, reg1_arg3 m ρ c, reg1_arg4 m ρ c, reg1_arg5 m ρ c, reg1_arg6 m ρ c, reg1_arg7 m ρ c, reg1_arg8 m ρ c, reg1_arg9 m ρ c, reg1_arg10 m ρ c, reg1_arg11 m ρ c, reg1_arg12 m ρ c, reg1_arg13 m ρ c, reg1_arg14 m ρ c, reg1_arg15 m ρ c, reg1_arg16 m ρ c, reg1_arg17 m ρ c, reg1_arg18 m ρ c, reg1_arg19 m ρ c, reg1_arg20 m ρ c, reg1_arg21 m ρ c, reg1_arg22 m ρ c, reg1_arg23 m ρ c, reg1_arg24 m ρ c, reg1_arg25 m ρ c, reg1_arg26 m ρ c, reg1_arg27 m ρ c, reg1_arg28 m ρ c, reg1_arg29 m ρ c, reg1_arg30 m ρ c, reg1_arg31 m ρ c, reg1_arg32 m ρ c, reg1_arg33 m ρ c]

end Cert.KernelIdeal.Stages

end
-- ==== Proof.KStep4.lean ====
/-
  One step of the kernel's boundary chain: from what is known at boundary 3 (the argument arrays as launched; each live buffer at
  its intermediate array of the computation) to the same at boundary 4, across region 1 (its output's closed form; the rest is none of its arrays, or an input window's array, which is not written back).
-/
import proofs.«165753_j16037407883756_1_alg».proof.Proof.KRegArgs1
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step4 (A : Cert.Net.Args Ideal)
    (h : argsOf (W3 m ρ c) = A
      ∧ W3 m ρ c (Proc.devRef .tc main_v34) = col (Cert.Net.csNL A)
      ∧ W3 m ρ c (Proc.devRef .tc main_v33) = Cert.Net.mmN1 A
      ∧ W3 m ρ c (Proc.devRef .tc main_v7) = Cert.Net.csLN A
      ∧ W3 m ρ c (Proc.devRef .tc main_v15) = Cert.Net.cdLN A
      ∧ W3 m ρ c (Proc.devRef .tc main_v23) = Cert.Net.csNL A
      ∧ W3 m ρ c (Proc.devRef .tc main_v31) = Cert.Net.cdNL A) :
    argsOf (W4 m ρ c) = A
    ∧ W4 m ρ c (Proc.devRef .tc main_v35) = Cert.Net.mmL1 A
    ∧ W4 m ρ c (Proc.devRef .tc main_v33) = Cert.Net.mmN1 A
    ∧ W4 m ρ c (Proc.devRef .tc main_v7) = Cert.Net.csLN A
    ∧ W4 m ρ c (Proc.devRef .tc main_v15) = Cert.Net.cdLN A
    ∧ W4 m ρ c (Proc.devRef .tc main_v23) = Cert.Net.csNL A
    ∧ W4 m ρ c (Proc.devRef .tc main_v31) = Cert.Net.cdNL A := by
  obtain ⟨ha3, h3_v34, h3_v33, h3_v7, h3_v15, h3_v23, h3_v31⟩ := h
  have ha4 : argsOf (W4 m ρ c) = A := (args_reg1 m ρ c).trans ha3
  have g4_0 : V3 m ρ c (Pipeline.arrRef spec1 0) = A.a0 := congrArg (fun X : Cert.Net.Args Ideal => X.a0) ha3
  have g4_1 : V3 m ρ c (Pipeline.arrRef spec1 1) = col (Cert.Net.csNL A) := h3_v34
  have g4_2 : V3 m ρ c (Pipeline.arrRef spec1 2) = A.a8 := congrArg (fun X : Cert.Net.Args Ideal => X.a8) ha3
  have h4_v35 : W4 m ρ c (Proc.devRef .tc main_v35) = Cert.Net.mmL1 A :=
    (W4_arr m ρ c 3).trans ((Cert.KernelIdeal.Regions.region1_out (V3 m ρ) c).trans ((congr (congr (congrArg (Cert.Spec.scaleMatmul200 (F := Ideal)) g4_0) g4_1) g4_2).trans rfl))
  have h4_v33 : W4 m ρ c (Proc.devRef .tc main_v33) = Cert.Net.mmN1 A :=
    (W4_of_ne m ρ c main_v33 (by decide)).trans h3_v33
  have h4_v7 : W4 m ρ c (Proc.devRef .tc main_v7) = Cert.Net.csLN A :=
    (W4_of_ne m ρ c main_v7 (by decide)).trans h3_v7
  have h4_v15 : W4 m ρ c (Proc.devRef .tc main_v15) = Cert.Net.cdLN A :=
    (W4_of_ne m ρ c main_v15 (by decide)).trans h3_v15
  have h4_v23 : W4 m ρ c (Proc.devRef .tc main_v23) = Cert.Net.csNL A :=
    (W4_of_ne m ρ c main_v23 (by decide)).trans h3_v23
  have h4_v31 : W4 m ρ c (Proc.devRef .tc main_v31) = Cert.Net.cdNL A :=
    (W4_of_ne m ρ c main_v31 (by decide)).trans h3_v31
  exact ⟨ha4, h4_v35, h4_v33, h4_v7, h4_v15, h4_v23, h4_v31⟩

end Cert.KernelIdeal.Stages

end
-- ==== Proof.KStage_h2.lean ====
/-
  A host stretch of the kernel program (h2): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h2 : List (Ref sig .tc) :=
  [ main_c, main_v36, main_v37, main_c_15, main_v38, main_v39, main_v40, main_v41, main_v42, main_cst_16, main_v43, main_v44, main_v45, main_c_17, main_v46, main_v47, main_c_18, main_v48, main_v49, main_v50, main_v51, main_v52, main_cst_19, main_v53, main_v54, main_v55, main_v56, main_v57, main_v58, main_v59, main_v60, main_v61, main_v62, main_v63 ]

theorem writes_h2 : (hostOps2 : List (HloOp τ sig (Elt F))).Forall fun op => op.writes ⊆ (written_h2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h2 (V : Valuation τ sig (Elt F)) {r : Ref sig .tc} (h : r ∉ written_h2) :
    after hostOps2 V (Proc.devRef .tc r) = V (Proc.devRef .tc r) := after_of_writes_sub hostOps2 V writes_h2 h

/-- The stretch leaves the argument arrays as it found them. -/
theorem args_h2 (V : Valuation τ sig (Elt F)) : argsOf (after hostOps2 V) = argsOf V := by
  simp only [argsOf, keep_h2 V (r := main_arg0) (by decide), keep_h2 V (r := main_arg1) (by decide), keep_h2 V (r := main_arg2) (by decide), keep_h2 V (r := main_arg3) (by decide), keep_h2 V (r := main_arg4) (by decide), keep_h2 V (r := main_arg5) (by decide), keep_h2 V (r := main_arg6) (by decide), keep_h2 V (r := main_arg7) (by decide), keep_h2 V (r := main_arg8) (by decide), keep_h2 V (r := main_arg9) (by decide), keep_h2 V (r := main_arg10) (by decide), keep_h2 V (r := main_arg11) (by decide), keep_h2 V (r := main_arg12) (by decide), keep_h2 V (r := main_arg13) (by decide), keep_h2 V (r := main_arg14) (by decide), keep_h2 V (r := main_arg15) (by decide), keep_h2 V (r := main_arg16) (by decide), keep_h2 V (r := main_arg17) (by decide), keep_h2 V (r := main_arg18) (by decide), keep_h2 V (r := main_arg19) (by decide), keep_h2 V (r := main_arg20) (by decide), keep_h2 V (r := main_arg21) (by decide), keep_h2 V (r := main_arg22) (by decide), keep_h2 V (r := main_arg23) (by decide), keep_h2 V (r := main_arg24) (by decide), keep_h2 V (r := main_arg25) (by decide), keep_h2 V (r := main_arg26) (by decide), keep_h2 V (r := main_arg27) (by decide), keep_h2 V (r := main_arg28) (by decide), keep_h2 V (r := main_arg29) (by decide), keep_h2 V (r := main_arg30) (by decide), keep_h2 V (r := main_arg31) (by decide), keep_h2 V (r := main_arg32) (by decide), keep_h2 V (r := main_arg33) (by decide)]

attribute [local irreducible] Host.reduceAdd Host.gather Host.scatterAdd in
set_option maxRecDepth 16384 in
set_option maxHeartbeats 4000000 in
theorem out_h2_v45 (V : Valuation τ sig (Elt F)) :
    after hostOps2 V (Proc.devRef .tc main_v45) = aggregate (V (Proc.devRef .tc main_v33)) (argsOf V).a2 (argsOf V).a3 := by
  simp only [after_cons, after_nil]
  rfl

attribute [local irreducible] Host.reduceAdd Host.gather Host.scatterAdd in
set_option maxRecDepth 16384 in
set_option maxHeartbeats 4000000 in
theorem out_h2_v55 (V : Valuation τ sig (Elt F)) :
    after hostOps2 V (Proc.devRef .tc main_v55) = aggregate (V (Proc.devRef .tc main_v35)) (argsOf V).a4 (argsOf V).a5 := by
  simp only [after_cons, after_nil]
  rfl

attribute [local irreducible] Host.reduceAdd Host.gather Host.scatterAdd in
set_option maxRecDepth 16384 in
set_option maxHeartbeats 4000000 in
theorem out_h2_v60 (V : Valuation τ sig (Elt F)) :
    after hostOps2 V (Proc.devRef .tc main_v60) = col (V (Proc.devRef .tc main_v15)) := by
  simp only [after_cons, after_nil]
  exact Eq.trans rfl (Cert.Glue.col_eq 100000 (V (Proc.devRef .tc main_v15)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h2_v61 (V : Valuation τ sig (Elt F)) :
    after hostOps2 V (Proc.devRef .tc main_v61) = row (argsOf V).a7 := by
  simp only [after_cons, after_nil]
  exact Eq.trans rfl (Cert.Glue.row_eq 128 (argsOf V).a7 shapeCasts_S128_S1x128 Cert.ReferenceIdeal.Gen.bcast_S128_S1x128_1)

attribute [local irreducible] Host.reduceAdd Host.gather Host.scatterAdd in
set_option maxRecDepth 16384 in
set_option maxHeartbeats 4000000 in
theorem out_h2_v62 (V : Valuation τ sig (Elt F)) :
    after hostOps2 V (Proc.devRef .tc main_v62) = row (ln3_0 (argsOf V).a14) := by
  simp only [after_cons, after_nil]
  exact Eq.trans rfl (Cert.Glue.row_eq 128 (ln3_0 (argsOf V).a14) shapeCasts_S128_S1x128 Cert.ReferenceIdeal.Gen.bcast_S128_S1x128_1)

attribute [local irreducible] Host.reduceAdd Host.gather Host.scatterAdd in
set_option maxRecDepth 16384 in
set_option maxHeartbeats 4000000 in
theorem out_h2_v63 (V : Valuation τ sig (Elt F)) :
    after hostOps2 V (Proc.devRef .tc main_v63) = row (ln3_0 (argsOf V).a15) := by
  simp only [after_cons, after_nil]
  exact Eq.trans rfl (Cert.Glue.row_eq 128 (ln3_0 (argsOf V).a15) shapeCasts_S128_S1x128 Cert.ReferenceIdeal.Gen.bcast_S128_S1x128_1)

end Cert.KernelIdeal.Stages

end
-- ==== Proof.KStep5.lean ====
/-
  One step of the kernel's boundary chain: from what is known at boundary 4 (the argument arrays as launched; each live buffer at
  its intermediate array of the computation) to the same at boundary 5, across host stretch 2 (its stage equations; the rest kept).
-/
import proofs.«165753_j16037407883756_1_alg».proof.Proof.KStage_h2
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step5 (A : Cert.Net.Args Ideal)
    (h : argsOf (W4 m ρ c) = A
      ∧ W4 m ρ c (Proc.devRef .tc main_v35) = Cert.Net.mmL1 A
      ∧ W4 m ρ c (Proc.devRef .tc main_v33) = Cert.Net.mmN1 A
      ∧ W4 m ρ c (Proc.devRef .tc main_v7) = Cert.Net.csLN A
      ∧ W4 m ρ c (Proc.devRef .tc main_v15) = Cert.Net.cdLN A
      ∧ W4 m ρ c (Proc.devRef .tc main_v23) = Cert.Net.csNL A
      ∧ W4 m ρ c (Proc.devRef .tc main_v31) = Cert.Net.cdNL A) :
    argsOf (W5 m ρ c) = A
    ∧ W5 m ρ c (Proc.devRef .tc main_v45) = Cert.Net.aggN1 A
    ∧ W5 m ρ c (Proc.devRef .tc main_v55) = Cert.Net.aggL1 A
    ∧ W5 m ρ c (Proc.devRef .tc main_v60) = col (Cert.Net.cdLN A)
    ∧ W5 m ρ c (Proc.devRef .tc main_v61) = row A.a7
    ∧ W5 m ρ c (Proc.devRef .tc main_v62) = row (ln3_0 A.a14)
    ∧ W5 m ρ c (Proc.devRef .tc main_v63) = row (ln3_0 A.a15)
    ∧ W5 m ρ c (Proc.devRef .tc main_v7) = Cert.Net.csLN A
    ∧ W5 m ρ c (Proc.devRef .tc main_v15) = Cert.Net.cdLN A
    ∧ W5 m ρ c (Proc.devRef .tc main_v23) = Cert.Net.csNL A
    ∧ W5 m ρ c (Proc.devRef .tc main_v31) = Cert.Net.cdNL A := by
  obtain ⟨ha4, h4_v35, h4_v33, h4_v7, h4_v15, h4_v23, h4_v31⟩ := h
  have ha5 : argsOf (W5 m ρ c) = A := (args_h2 (W4 m ρ c)).trans ha4
  have e5_2 : W4 m ρ c (Proc.devRef .tc main_arg2) = A.a2 := congrArg (fun X : Cert.Net.Args Ideal => X.a2) ha4
  have e5_3 : W4 m ρ c (Proc.devRef .tc main_arg3) = A.a3 := congrArg (fun X : Cert.Net.Args Ideal => X.a3) ha4
  have h5_v45 : W5 m ρ c (Proc.devRef .tc main_v45) = Cert.Net.aggN1 A := by
    refine (out_h2_v45 (W4 m ρ c)).trans ?_
    (try simp only [e5_2, e5_3, h4_v33]); (try rfl)
  have e5_4 : W4 m ρ c (Proc.devRef .tc main_arg4) = A.a4 := congrArg (fun X : Cert.Net.Args Ideal => X.a4) ha4
  have e5_5 : W4 m ρ c (Proc.devRef .tc main_arg5) = A.a5 := congrArg (fun X : Cert.Net.Args Ideal => X.a5) ha4
  have h5_v55 : W5 m ρ c (Proc.devRef .tc main_v55) = Cert.Net.aggL1 A := by
    refine (out_h2_v55 (W4 m ρ c)).trans ?_
    (try simp only [e5_4, e5_5, h4_v35]); (try rfl)
  have h5_v60 : W5 m ρ c (Proc.devRef .tc main_v60) = col (Cert.Net.cdLN A) := by
    refine (out_h2_v60 (W4 m ρ c)).trans ?_
    (try simp only [h4_v15]); (try rfl)
  have e5_7 : W4 m ρ c (Proc.devRef .tc main_arg7) = A.a7 := congrArg (fun X : Cert.Net.Args Ideal => X.a7) ha4
  have h5_v61 : W5 m ρ c (Proc.devRef .tc main_v61) = row A.a7 := by
    refine (out_h2_v61 (W4 m ρ c)).trans ?_
    (try simp only [e5_7]); (try rfl)
  have e5_14 : W4 m ρ c (Proc.devRef .tc main_arg14) = A.a14 := congrArg (fun X : Cert.Net.Args Ideal => X.a14) ha4
  have h5_v62 : W5 m ρ c (Proc.devRef .tc main_v62) = row (ln3_0 A.a14) := by
    refine (out_h2_v62 (W4 m ρ c)).trans ?_
    (try simp only [e5_14]); (try rfl)
  have e5_15 : W4 m ρ c (Proc.devRef .tc main_arg15) = A.a15 := congrArg (fun X : Cert.Net.Args Ideal => X.a15) ha4
  have h5_v63 : W5 m ρ c (Proc.devRef .tc main_v63) = row (ln3_0 A.a15) := by
    refine (out_h2_v63 (W4 m ρ c)).trans ?_
    (try simp only [e5_15]); (try rfl)
  have h5_v7 : W5 m ρ c (Proc.devRef .tc main_v7) = Cert.Net.csLN A :=
    (keep_h2 (W4 m ρ c) (by decide)).trans h4_v7
  have h5_v15 : W5 m ρ c (Proc.devRef .tc main_v15) = Cert.Net.cdLN A :=
    (keep_h2 (W4 m ρ c) (by decide)).trans h4_v15
  have h5_v23 : W5 m ρ c (Proc.devRef .tc main_v23) = Cert.Net.csNL A :=
    (keep_h2 (W4 m ρ c) (by decide)).trans h4_v23
  have h5_v31 : W5 m ρ c (Proc.devRef .tc main_v31) = Cert.Net.cdNL A :=
    (keep_h2 (W4 m ρ c) (by decide)).trans h4_v31
  exact ⟨ha5, h5_v45, h5_v55, h5_v60, h5_v61, h5_v62, h5_v63, h5_v7, h5_v15, h5_v23, h5_v31⟩

end Cert.KernelIdeal.Stages

end
-- ==== Proof.KRegArgs2.lean ====
/-
  Region 2 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg2_arg0 (c : Dev nD) : W6 m ρ c (Proc.devRef .tc main_arg0) = W5 m ρ c (Proc.devRef .tc main_arg0) :=
  W6_of_ne m ρ c main_arg0 (by decide)
theorem reg2_arg1 (c : Dev nD) : W6 m ρ c (Proc.devRef .tc main_arg1) = W5 m ρ c (Proc.devRef .tc main_arg1) :=
  W6_of_ne m ρ c main_arg1 (by decide)
theorem reg2_arg2 (c : Dev nD) : W6 m ρ c (Proc.devRef .tc main_arg2) = W5 m ρ c (Proc.devRef .tc main_arg2) :=
  W6_of_ne m ρ c main_arg2 (by decide)
theorem reg2_arg3 (c : Dev nD) : W6 m ρ c (Proc.devRef .tc main_arg3) = W5 m ρ c (Proc.devRef .tc main_arg3) :=
  W6_of_ne m ρ c main_arg3 (by decide)
theorem reg2_arg4 (c : Dev nD) : W6 m ρ c (Proc.devRef .tc main_arg4) = W5 m ρ c (Proc.devRef .tc main_arg4) :=
  W6_of_ne m ρ c main_arg4 (by decide)
theorem reg2_arg5 (c : Dev nD) : W6 m ρ c (Proc.devRef .tc main_arg5) = W5 m ρ c (Proc.devRef .tc main_arg5) :=
  W6_of_ne m ρ c main_arg5 (by decide)
theorem reg2_arg6 (c : Dev nD) : W6 m ρ c (Proc.devRef .tc main_arg6) = W5 m ρ c (Proc.devRef .tc main_arg6) :=
  W6_of_ne m ρ c main_arg6 (by decide)
theorem reg2_arg7 (c : Dev nD) : W6 m ρ c (Proc.devRef .tc main_arg7) = W5 m ρ c (Proc.devRef .tc main_arg7) :=
  W6_of_ne m ρ c main_arg7 (by decide)
theorem reg2_arg8 (c : Dev nD) : W6 m ρ c (Proc.devRef .tc main_arg8) = W5 m ρ c (Proc.devRef .tc main_arg8) :=
  W6_of_ne m ρ c main_arg8 (by decide)
theorem reg2_arg9 (c : Dev nD) : W6 m ρ c (Proc.devRef .tc main_arg9) = W5 m ρ c (Proc.devRef .tc main_arg9) :=
  W6_of_ne m ρ c main_arg9 (by decide)
theorem reg2_arg10 (c : Dev nD) : W6 m ρ c (Proc.devRef .tc main_arg10) = W5 m ρ c (Proc.devRef .tc main_arg10) :=
  W6_of_ne m ρ c main_arg10 (by decide)
theorem reg2_arg11 (c : Dev nD) : W6 m ρ c (Proc.devRef .tc main_arg11) = W5 m ρ c (Proc.devRef .tc main_arg11) :=
  W6_of_ne m ρ c main_arg11 (by decide)
theorem reg2_arg12 (c : Dev nD) : W6 m ρ c (Proc.devRef .tc main_arg12) = W5 m ρ c (Proc.devRef .tc main_arg12) :=
  W6_of_ne m ρ c main_arg12 (by decide)
theorem reg2_arg13 (c : Dev nD) : W6 m ρ c (Proc.devRef .tc main_arg13) = W5 m ρ c (Proc.devRef .tc main_arg13) :=
  W6_of_ne m ρ c main_arg13 (by decide)
theorem reg2_arg14 (c : Dev nD) : W6 m ρ c (Proc.devRef .tc main_arg14) = W5 m ρ c (Proc.devRef .tc main_arg14) :=
  W6_of_ne m ρ c main_arg14 (by decide)
theorem reg2_arg15 (c : Dev nD) : W6 m ρ c (Proc.devRef .tc main_arg15) = W5 m ρ c (Proc.devRef .tc main_arg15) :=
  W6_of_ne m ρ c main_arg15 (by decide)
theorem reg2_arg16 (c : Dev nD) : W6 m ρ c (Proc.devRef .tc main_arg16) = W5 m ρ c (Proc.devRef .tc main_arg16) :=
  W6_of_ne m ρ c main_arg16 (by decide)
theorem reg2_arg17 (c : Dev nD) : W6 m ρ c (Proc.devRef .tc main_arg17) = W5 m ρ c (Proc.devRef .tc main_arg17) :=
  W6_of_ne m ρ c main_arg17 (by decide)
theorem reg2_arg18 (c : Dev nD) : W6 m ρ c (Proc.devRef .tc main_arg18) = W5 m ρ c (Proc.devRef .tc main_arg18) :=
  W6_of_ne m ρ c main_arg18 (by decide)
theorem reg2_arg19 (c : Dev nD) : W6 m ρ c (Proc.devRef .tc main_arg19) = W5 m ρ c (Proc.devRef .tc main_arg19) :=
  W6_of_ne m ρ c main_arg19 (by decide)
theorem reg2_arg20 (c : Dev nD) : W6 m ρ c (Proc.devRef .tc main_arg20) = W5 m ρ c (Proc.devRef .tc main_arg20) :=
  W6_of_ne m ρ c main_arg20 (by decide)
theorem reg2_arg21 (c : Dev nD) : W6 m ρ c (Proc.devRef .tc main_arg21) = W5 m ρ c (Proc.devRef .tc main_arg21) :=
  W6_of_ne m ρ c main_arg21 (by decide)
theorem reg2_arg22 (c : Dev nD) : W6 m ρ c (Proc.devRef .tc main_arg22) = W5 m ρ c (Proc.devRef .tc main_arg22) :=
  W6_of_ne m ρ c main_arg22 (by decide)
theorem reg2_arg23 (c : Dev nD) : W6 m ρ c (Proc.devRef .tc main_arg23) = W5 m ρ c (Proc.devRef .tc main_arg23) :=
  W6_of_ne m ρ c main_arg23 (by decide)
theorem reg2_arg24 (c : Dev nD) : W6 m ρ c (Proc.devRef .tc main_arg24) = W5 m ρ c (Proc.devRef .tc main_arg24) :=
  W6_of_ne m ρ c main_arg24 (by decide)
theorem reg2_arg25 (c : Dev nD) : W6 m ρ c (Proc.devRef .tc main_arg25) = W5 m ρ c (Proc.devRef .tc main_arg25) :=
  W6_of_ne m ρ c main_arg25 (by decide)
theorem reg2_arg26 (c : Dev nD) : W6 m ρ c (Proc.devRef .tc main_arg26) = W5 m ρ c (Proc.devRef .tc main_arg26) :=
  W6_of_ne m ρ c main_arg26 (by decide)
theorem reg2_arg27 (c : Dev nD) : W6 m ρ c (Proc.devRef .tc main_arg27) = W5 m ρ c (Proc.devRef .tc main_arg27) :=
  W6_of_ne m ρ c main_arg27 (by decide)
theorem reg2_arg28 (c : Dev nD) : W6 m ρ c (Proc.devRef .tc main_arg28) = W5 m ρ c (Proc.devRef .tc main_arg28) :=
  W6_of_ne m ρ c main_arg28 (by decide)
theorem reg2_arg29 (c : Dev nD) : W6 m ρ c (Proc.devRef .tc main_arg29) = W5 m ρ c (Proc.devRef .tc main_arg29) :=
  W6_of_ne m ρ c main_arg29 (by decide)
theorem reg2_arg30 (c : Dev nD) : W6 m ρ c (Proc.devRef .tc main_arg30) = W5 m ρ c (Proc.devRef .tc main_arg30) :=
  W6_of_ne m ρ c main_arg30 (by decide)
theorem reg2_arg31 (c : Dev nD) : W6 m ρ c (Proc.devRef .tc main_arg31) = W5 m ρ c (Proc.devRef .tc main_arg31) :=
  W6_of_ne m ρ c main_arg31 (by decide)
theorem reg2_arg32 (c : Dev nD) : W6 m ρ c (Proc.devRef .tc main_arg32) = W5 m ρ c (Proc.devRef .tc main_arg32) :=
  W6_of_ne m ρ c main_arg32 (by decide)
theorem reg2_arg33 (c : Dev nD) : W6 m ρ c (Proc.devRef .tc main_arg33) = W5 m ρ c (Proc.devRef .tc main_arg33) :=
  W6_of_ne m ρ c main_arg33 (by decide)

theorem args_reg2 (c : Dev nD) : argsOf (W6 m ρ c) = argsOf (W5 m ρ c) := by
  simp only [argsOf, reg2_arg0 m ρ c, reg2_arg1 m ρ c, reg2_arg2 m ρ c, reg2_arg3 m ρ c, reg2_arg4 m ρ c, reg2_arg5 m ρ c, reg2_arg6 m ρ c, reg2_arg7 m ρ c, reg2_arg8 m ρ c, reg2_arg9 m ρ c, reg2_arg10 m ρ c, reg2_arg11 m ρ c, reg2_arg12 m ρ c, reg2_arg13 m ρ c, reg2_arg14 m ρ c, reg2_arg15 m ρ c, reg2_arg16 m ρ c, reg2_arg17 m ρ c, reg2_arg18 m ρ c, reg2_arg19 m ρ c, reg2_arg20 m ρ c, reg2_arg21 m ρ c, reg2_arg22 m ρ c, reg2_arg23 m ρ c, reg2_arg24 m ρ c, reg2_arg25 m ρ c, reg2_arg26 m ρ c, reg2_arg27 m ρ c, reg2_arg28 m ρ c, reg2_arg29 m ρ c, reg2_arg30 m ρ c, reg2_arg31 m ρ c, reg2_arg32 m ρ c, reg2_arg33 m ρ c]

end Cert.KernelIdeal.Stages

end
-- ==== Proof.LNRow.lean ====
/-
  Layer normalization of one row of 128 channels followed by the exponential linear unit, on the extended reals.
  For a row x : the mean is (Σ_k x k) / 128, the variance is (Σ_k (x k - mean)^2) / 128 (the mean of the squared
  deviations, no degree of freedom removed), the normalized row is (x - mean) * rsqrt(variance + eps) * gain + shift,
  and the unit keeps a positive value and sends any other value y to exp y - 1. Both programs compute exactly this
  function of the row; the constants stay the bit patterns the programs spell (128.0, eps = 1e-5 as an f32).
  Also here: what the patterns of 128.0, 1.0 and 0.0 denote, and the two spellings of the unit read at one value.
-/
import Idealize.ShloMosaic.PureOps.Ideal.Laws
import Idealize.ShloMosaic.Lib.ValueIdx

noncomputable section

namespace Cert.LN

open Idealize.ShloMosaic

/-- The mean of a row over its 128 channels. -/
def mean (x : Fin 128 → EReal) : EReal :=
  Ideal.div (∑ k : Fin 128, x k) (Ideal.ofBits .f32 0x43000000#32)

/-- The variance of a row: the mean of the squared deviations from the row's mean. -/
def var (x : Fin 128 → EReal) : EReal :=
  Ideal.div (∑ k : Fin 128, (x k - mean x) * (x k - mean x)) (Ideal.ofBits .f32 0x43000000#32)

/-- The normalized row at channel j, with a gain and a shift per channel. -/
def norm (x g lb : Fin 128 → EReal) (j : Fin 128) : EReal :=
  (x j - mean x) * Ideal.rsqrt (var x + Ideal.ofBits .f32 0x3727C5AC#32) * g j + lb j

/-- The exponential linear unit. -/
def elu (y : EReal) : EReal := if 0 < y then y else Ideal.exp y - 1

/-- Layer normalization then the unit, at channel j of the row. -/
def out (x g lb : Fin 128 → EReal) (j : Fin 128) : EReal := elu (norm x g lb j)

/-- The pattern 0x43000000 denotes the real 128. -/
theorem ofBits_128 : Ideal.ofBits .f32 0x43000000#32 = ((128 : ℝ) : EReal) := by
  simp [Ideal.ofBits, Ideal.ieee, -EReal.coe_mul]; norm_num

/-- The pattern 0x3F800000 denotes 1. -/
theorem ofBits_one : Ideal.ofBits .f32 0x3F800000#32 = 1 := by
  rw [show (1 : EReal) = ((1 : ℝ) : EReal) by norm_cast]
  simp [Ideal.ofBits, Ideal.ieee, -EReal.coe_mul]; norm_num

/-- 128 is positive. -/
theorem ofBits_128_pos : (0 : EReal) < Ideal.ofBits .f32 0x43000000#32 := by
  rw [ofBits_128]; exact EReal.coe_pos.mpr (by norm_num)

/-- The comparison "greater than zero" as a one-bit word. -/
theorem cmp_ogt_zero (y : EReal) : Ideal.cmp .ogt y (Ideal.ofBits .f32 0x00000000#32) = if 0 < y then 1#1 else 0#1 := by
  rw [Ideal.ofBits_zero_f32]
  unfold Ideal.cmp
  by_cases h : 0 < y
  · rw [if_pos h]; simp [h]
  · rw [if_neg h]; simp [h]

/-- One spelling of the unit: keep y where y > 0, else exp y minus the constant one. -/
theorem select_exp_sub_one (y : EReal) :
    Scalar.select (Ideal.cmp .ogt y (Ideal.ofBits .f32 0x00000000#32)) y (Ideal.exp y - Ideal.ofBits .f32 0x3F800000#32) = elu y := by
  rw [cmp_ogt_zero, ofBits_one]
  unfold elu
  by_cases h : 0 < y
  · rw [if_pos h, if_pos h]; exact ValueIdx.select_one _ _
  · rw [if_neg h, if_neg h]; exact ValueIdx.select_zero _ _

/-- The other spelling: keep y where y > 0, else one times (exp z - 1) with z the value y itself there (and 0 where y > 0). -/
theorem select_one_mul_expm1 (y : EReal) :
    Scalar.select (Ideal.cmp .ogt y (Ideal.ofBits .f32 0x00000000#32)) y
      (Ideal.ofBits .f32 0x3F800000#32
        * (Ideal.exp (Scalar.select (Ideal.cmp .ogt y (Ideal.ofBits .f32 0x00000000#32)) (Ideal.ofBits .f32 0x00000000#32) y) - 1)) = elu y := by
  rw [cmp_ogt_zero, ofBits_one]
  unfold elu
  by_cases h : 0 < y
  · rw [if_pos h, if_pos h]; exact ValueIdx.select_one _ _
  · rw [if_neg h, if_neg h, ValueIdx.select_zero, ValueIdx.select_zero, one_mul]

end Cert.LN

end
-- ==== Proof.LibColumn.lean ====
/-
  Two layout operations read at an index, for a column kept as a unit axis: a vector of length `a` cast to an
  `[a, 1]` array, and an `[a, 1]` array broadcast along its unit axis to `[a, b]`. Together they say that a per-row
  quantity (a row's maximum, a row's sum) spread back over the row's columns reads, at `(p, c)`, the quantity of row `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LNPoint.lean ====
/-
  One block of 10000 rows by 128 channels, as the scale-bias-normalize-activate body computes it from its loaded
  blocks, read at a row p and a channel q. The body scales each row of the aggregate block by that row's entry of
  a column, adds a bias row, takes each row's mean and variance by two lane sums kept as columns, normalizes with
  a gain row and a shift row, and applies the exponential linear unit. Read at (p, q) this is the function
  Cert.LN.out of row p alone: the lane sums are sums over the row's 128 channels, and every column or row operand
  broadcast over the block reads its entry of row p or of channel q.
-/
import proofs.«165753_j16037407883756_1_alg».proof.Proof.LNRow
import proofs.«165753_j16037407883756_1_alg».proof.Proof.LibColumn
import Idealize.ShloMosaic.Lib.ValueLayout

noncomputable section

namespace Cert.LN

open Idealize.ShloMosaic Idealize.ShloMosaic.ValueIdx

/-- The block's shape, a column over its rows, a row over its channels, and the vector of its rows. -/
abbrev SB : Shape := ⟨2, ![10000, 128]⟩
abbrev SC : Shape := ⟨2, ![10000, 1]⟩
abbrev SR : Shape := ⟨2, ![1, 128]⟩
abbrev SV : Shape := ⟨1, ![10000]⟩

/-- Row p of the scaled and biased block: channel k holds x0[p,k] * x1[p,0] + x2[0,k]. -/
def rowOf (x0 : FVec Ideal SB .f32) (x1 : FVec Ideal SC .f32) (x2 : FVec Ideal SR .f32) (p : Fin 10000) : Fin 128 → EReal :=
  fun k => x0 (ix2 p k) * x1 (ix2 p (0 : Fin 1)) + x2 (ix2 (0 : Fin 1) k)

/-- A row operand's channels. -/
def chan (x : FVec Ideal SR .f32) : Fin 128 → EReal := fun k => x (ix2 (0 : Fin 1) k)

/-- The block scaled by the column and biased by the row, at (p, k). -/
theorem scaleBias_apply (x0 : FVec Ideal SB .f32) (x1 : FVec Ideal SC .f32) (x2 : FVec Ideal SR .f32)
    (h0 : SB.ShapeCasts SB) (h1 : SC.ShapeCasts SC) (hb1 : SC.Broadcasts SB) (h2 : SR.ShapeCasts SR) (hb2 : SR.Broadcasts SB)
    (p : Fin 10000) (k : Fin 128) :
    addf (mulf (shapeCast SB x0 h0) (broadcastTo SB (shapeCast SC x1 h1) hb1)) (broadcastTo SB (shapeCast SR x2 h2) hb2) (ix2 p k)
      = rowOf x0 x1 x2 p k := by
  rw [addf_apply, mulf_apply, shapeCast_self, shapeCast_self, shapeCast_self, broadcastTo_a1_ab_apply, broadcastTo_1b_ab_apply]
  rfl

/-- A lane sum kept as a column and divided by a constant: at row p, the sum over the row's channels divided by it. -/
theorem sumCol_div_apply (v : FVec Ideal SB .f32) (hr : SB.Reduces [1] SV) (hφ : FKind.Formats .f32)
    (hacc : (0x00000000#32 : BitVec 32) = 0x00000000#32) (hc : SV.ShapeCasts SC) (c : BitVec 32) (p : Fin 10000) (u : Fin 1) :
    divf (shapeCast SC (multiReduction .add [1] SV v 0x00000000#32 hr hφ hacc) hc) (broadcast SC (Scalar.ofBits (F := Ideal) .f32 c)) (ix2 p u)
      = Ideal.div (∑ k : Fin 128, v (ix2 p k)) (Ideal.ofBits .f32 c) := by
  rw [divf_apply, shapeCast_a_a1_apply, broadcast_apply]
  refine congrArg (fun s => Ideal.div s _) ?_
  refine (Ideal.multiReduction_add_single v 0x00000000#32 hr hφ hacc (ix1 p)).trans ?_
  show ∑ k : Fin 128, v (hr.lift (ix1 p) k) = _
  refine Finset.sum_congr rfl fun k _ => congrArg v ?_
  funext a
  match a with
  | ⟨0, _⟩ => rfl
  | ⟨1, _⟩ => rfl

/-- The vector inverse square root at an index. -/
theorem rsqrt_apply {s : Shape} {φ : FTy} (a : FVec Ideal s φ) (i : s.Idx) : rsqrt a i = Ideal.rsqrt (a i) := rfl

/-- The vector exponential at an index. -/
theorem exp_apply {s : Shape} {φ : FTy} (a : FVec Ideal s φ) (i : s.Idx) : exp a i = Ideal.exp (a i) := rfl

/-- The scaled and biased block. -/
def scaled (hS : SB.ShapeCasts SB) (hC : SC.ShapeCasts SC) (hbC : SC.Broadcasts SB) (hR : SR.ShapeCasts SR) (hbR : SR.Broadcasts SB)
    (v0 : FVec Ideal SB .f32) (v2 : FVec Ideal SC .f32) (v6 : FVec Ideal SR .f32) : FVec Ideal SB .f32 :=
  addf (mulf (shapeCast SB v0 hS) (broadcastTo SB (shapeCast SC v2 hC) hbC)) (broadcastTo SB (shapeCast SR v6 hR) hbR)

/-- Each row's sum over its channels divided by 128, as a column. -/
def meanCol (hr : SB.Reduces [1] SV) (hφ : FKind.Formats .f32) (hacc : (0x00000000#32 : BitVec 32) = 0x00000000#32) (hV : SV.ShapeCasts SC)
    (v : FVec Ideal SB .f32) : FVec Ideal SC .f32 :=
  divf (shapeCast SC (multiReduction .add [1] SV v 0x00000000#32 hr hφ hacc) hV) (broadcast SC (Scalar.ofBits (F := Ideal) .f32 0x43000000#32))

/-- The block minus each row's mean. -/
def dev (hbC : SC.Broadcasts SB) (hr : SB.Reduces [1] SV) (hφ : FKind.Formats .f32) (hacc : (0x00000000#32 : BitVec 32) = 0x00000000#32)
    (hV : SV.ShapeCasts SC) (v : FVec Ideal SB .f32) : FVec Ideal SB .f32 :=
  subf v (broadcastTo SB (meanCol hr hφ hacc hV v) hbC)

/-- The normalized block of a block v with gain and shift rows. -/
def normBlock (hbC : SC.Broadcasts SB) (hR : SR.ShapeCasts SR) (hbR : SR.Broadcasts SB)
    (hr : SB.Reduces [1] SV) (hφ : FKind.Formats .f32) (hacc : (0x00000000#32 : BitVec 32) = 0x00000000#32) (hV : SV.ShapeCasts SC)
    (v : FVec Ideal SB .f32) (v30 v34 : FVec Ideal SR .f32) : FVec Ideal SB .f32 :=
  addf (mulf (mulf (dev hbC hr hφ hacc hV v)
      (broadcastTo SB (rsqrt (addf (meanCol hr hφ hacc hV (mulf (dev hbC hr hφ hacc hV v) (dev hbC hr hφ hacc hV v)))
        (broadcast SC (Scalar.ofBits (F := Ideal) .f32 0x3727C5AC#32)))) hbC))
      (broadcastTo SB (shapeCast SR v30 hR) hbR)) (broadcastTo SB (shapeCast SR v34 hR) hbR)

/-- The activated block: the unit applied to a block y, spelt with a comparison, an exponential and the constant one. -/
def actBlock (y : FVec Ideal SB .f32) : FVec Ideal SB .f32 :=
  select (cmpf .ogt y (broadcast SB (Scalar.ofBits (F := Ideal) .f32 0x00000000#32))) y
    (subf (exp y) (broadcast SB (Scalar.ofBits (F := Ideal) .f32 0x3F800000#32)))

theorem scaled_apply (hS : SB.ShapeCasts SB) (hC : SC.ShapeCasts SC) (hbC : SC.Broadcasts SB) (hR : SR.ShapeCasts SR) (hbR : SR.Broadcasts SB)
    (v0 : FVec Ideal SB .f32) (v2 : FVec Ideal SC .f32) (v6 : FVec Ideal SR .f32) (p : Fin 10000) (k : Fin 128) :
    scaled hS hC hbC hR hbR v0 v2 v6 (ix2 p k) = rowOf v0 v2 v6 p k :=
  scaleBias_apply v0 v2 v6 hS hC hbC hR hbR p k

theorem meanCol_apply (hr : SB.Reduces [1] SV) (hφ : FKind.Formats .f32) (hacc : (0x00000000#32 : BitVec 32) = 0x00000000#32) (hV : SV.ShapeCasts SC)
    (v : FVec Ideal SB .f32) (p : Fin 10000) (u : Fin 1) :
    meanCol hr hφ hacc hV v (ix2 p u) = mean (fun k => v (ix2 p k)) :=
  sumCol_div_apply v hr hφ hacc hV 0x43000000#32 p u

theorem dev_apply (hbC : SC.Broadcasts SB) (hr : SB.Reduces [1] SV) (hφ : FKind.Formats .f32) (hacc : (0x00000000#32 : BitVec 32) = 0x00000000#32)
    (hV : SV.ShapeCasts SC) (v : FVec Ideal SB .f32) (p : Fin 10000) (k : Fin 128) :
    dev hbC hr hφ hacc hV v (ix2 p k) = v (ix2 p k) - mean (fun k => v (ix2 p k)) := by
  unfold dev
  rw [subf_apply, broadcastTo_a1_ab_apply, meanCol_apply]

theorem normBlock_apply (hbC : SC.Broadcasts SB) (hR : SR.ShapeCasts SR) (hbR : SR.Broadcasts SB)
    (hr : SB.Reduces [1] SV) (hφ : FKind.Formats .f32) (hacc : (0x00000000#32 : BitVec 32) = 0x00000000#32) (hV : SV.ShapeCasts SC)
    (v : FVec Ideal SB .f32) (v30 v34 : FVec Ideal SR .f32) (p : Fin 10000) (q : Fin 128) :
    normBlock hbC hR hbR hr hφ hacc hV v v30 v34 (ix2 p q) = norm (fun k => v (ix2 p k)) (chan v30) (chan v34) q := by
  unfold normBlock
  rw [addf_apply, mulf_apply, mulf_apply, broadcastTo_1b_ab_apply, broadcastTo_1b_ab_apply, shapeCast_self, shapeCast_self,
    broadcastTo_a1_ab_apply, rsqrt_apply, addf_apply, broadcast_apply, meanCol_apply, dev_apply]
  simp only [mulf_apply, dev_apply]
  rfl

theorem actBlock_apply (y : FVec Ideal SB .f32) (i : SB.Idx) : actBlock y i = elu (y i) := by
  unfold actBlock
  rw [select_apply, cmpf_apply, subf_apply, exp_apply, broadcast_apply, broadcast_apply]
  exact select_exp_sub_one (y i)

/-- The body's stored block at (p, q) is the function of row p. -/
theorem block_apply (hS : SB.ShapeCasts SB) (hC : SC.ShapeCasts SC) (hbC : SC.Broadcasts SB) (hR : SR.ShapeCasts SR) (hbR : SR.Broadcasts SB)
    (hr : SB.Reduces [1] SV) (hφ : FKind.Formats .f32) (hacc : (0x00000000#32 : BitVec 32) = 0x00000000#32) (hV : SV.ShapeCasts SC)
    (v0 : FVec Ideal SB .f32) (v2 : FVec Ideal SC .f32) (v6 v30 v34 : FVec Ideal SR .f32) (p : Fin 10000) (q : Fin 128) :
    actBlock (normBlock hbC hR hbR hr hφ hacc hV (scaled hS hC hbC hR hbR v0 v2 v6) v30 v34) (ix2 p q)
      = out (rowOf v0 v2 v6 p) (chan v30) (chan v34) q := by
  rw [actBlock_apply, normBlock_apply]
  unfold out
  congr 2
  funext k
  exact scaled_apply hS hC hbC hR hbR v0 v2 v6 p k

end Cert.LN

end
-- ==== Proof.LNSpec.lean ====
/-
  The reference's layer — the aggregate scaled by a column and biased by a row, layer-normalized over the 128
  channels, then the exponential linear unit — read at a node i and a channel j. Each stage is a whole-array host
  operation; read at an index, a column broadcast over the channels gives row i's entry, a row broadcast over the
  nodes gives channel j's entry, and the host's sum along the channel axis is the zero initial value plus the sum
  over the 128 channels. The variance's divisor is 128 minus the integer 0 converted, under a test that it is
  positive: it is 128, and the test holds. So at (i, j) the layer is Cert.LN.out of row i alone.
-/
import proofs.«165753_j16037407883756_1_alg».proof.Proof.Spec
import proofs.«165753_j16037407883756_1_alg».proof.Proof.LNRow
import Idealize.ShloMosaic.Lib.IdealHost
import Idealize.ShloMosaic.Lib.KernelVsHost
import Idealize.ShloMosaic.Lib.ValueLayout

noncomputable section

namespace Cert.LN

open Cert.ReferenceIdeal Cert.ReferenceIdeal.Gen Idealize.ShloMosaic Idealize.ShloMosaic.ValueIdx

variable {α : Type}

/-- An [a, 1] column broadcast over b columns reads, at (r, t), the column's entry of row r. -/
theorem broadcastInDim_col_apply {a b : ℕ} (h : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] h y (ix2 r t) = y (ix2 r (0 : Fin 1)) := by
  refine broadcastInDim_apply ![0, 1] h y (ix2 r t) (ix2 r (0 : Fin 1)) ?_
  intro ax
  match ax with
  | ⟨0, _⟩ =>
    show r.val = if a = 1 then 0 else r.val
    split
    · have := r.isLt; omega
    · rfl
  | ⟨1, _⟩ =>
    show (0 : ℕ) = if (1 : ℕ) = 1 then 0 else _
    rw [if_pos rfl]

/-- A vector of length a placed as an [a, 1] column reads, at (r, u), the vector's entry r. -/
theorem broadcastInDim_vec_col_apply {a : ℕ} (h : (⟨1, ![a]⟩ : Shape).BroadcastsInDim ⟨2, ![a, 1]⟩ ![0])
    (y : (⟨1, ![a]⟩ : Shape).Idx → α) (r : Fin a) (u : Fin 1) :
    broadcastInDim ⟨2, ![a, 1]⟩ ![0] h y (ix2 r u) = y (ix1 r) := by
  refine broadcastInDim_apply ![0] h y (ix2 r u) (ix1 r) ?_
  intro ax
  match ax with
  | ⟨0, _⟩ =>
    show r.val = if a = 1 then 0 else r.val
    split
    · have := r.isLt; omega
    · rfl

/-- The integer zero converted is the float zero. -/
theorem sitofp_zero32 : (FloatOps.sitofp (F := Ideal) .f32 (0#32 : BitVec 32)) = (0 : EReal) := by
  show ((((0#32 : BitVec 32).toInt : ℤ) : ℝ) : EReal) = 0
  simp

/-- Row i of an array, as a function of the channel. -/
def rowAt (x : FVec Ideal S100000x128 .f32) (i : Fin 100000) : Fin 128 → EReal := fun k => x (ix2 i k)

theorem refScaleBias_apply (agg : FVec Ideal S100000x128 .f32) (sc : FVec Ideal S100000x1 .f32) (br : FVec Ideal S1x128 .f32)
    (i : Fin 100000) (k : Fin 128) :
    Cert.Spec.scaleBias (F := Ideal) agg sc br (ix2 i k) = agg (ix2 i k) * sc (ix2 i (0 : Fin 1)) + br (ix2 (0 : Fin 1) k) := by
  unfold Cert.Spec.scaleBias
  rw [addf_apply, mulf_apply, broadcastInDim_col_apply, broadcastInDim_oneRow_apply]

/-- The host's sum along the channel axis from a zero initial value, as a column, divided by a broadcast constant. -/
theorem refSumCol_div_apply (x : FVec Ideal S100000x128 .f32) (d : FVec Ideal S_ .f32) (i : Fin 100000) (u : Fin 1) :
    Host.divf (broadcastInDim S100000x1 ![0] bcast_S100000_S100000x1_0
        (Host.reduceAdd x (constant (F := Ideal) S_ .f32 0x00000000#32) reducesTo_S100000x128_S100000_d1 h_S_))
      (broadcastInDim S100000x1 ![] bcast_S_S100000x1 d) (ix2 i u)
      = Ideal.div (∑ k : Fin 128, x (ix2 i k)) (d ix0) := by
  have hR : S100000x128.Reduces [1] S100000 := by decide
  rw [hostDivf_apply, broadcastInDim_vec_col_apply, broadcastInDim_scalar_apply, hostReduceAdd_apply, constant_apply,
    Ideal.hostReduceAdd_single reducesTo_S100000x128_S100000_d1 hR, Ideal.ofBits_zero_f32, zero_add]
  refine congrArg (fun s => Ideal.div s _) ?_
  show ∑ k : Fin 128, x (hR.lift (ix1 i) k) = _
  refine Finset.sum_congr rfl fun k _ => congrArg x ?_
  funext a
  match a with
  | ⟨0, _⟩ => rfl
  | ⟨1, _⟩ => rfl

theorem rowMean_apply (x : FVec Ideal S100000x128 .f32) (i : Fin 100000) (u : Fin 1) :
    Cert.Spec.rowMean (F := Ideal) x (ix2 i u) = mean (rowAt x i) := by
  unfold Cert.Spec.rowMean
  exact refSumCol_div_apply x (constant (F := Ideal) S_ .f32 0x43000000#32) i u

/-- The host's inverse square root at an index. -/
theorem hostRsqrt_apply {s : Shape} {φ : FTy} (a : FVec Ideal s φ) (i : s.Idx) : Host.rsqrt a i = Ideal.rsqrt (a i) := rfl

/-- The host's exp minus one at an index. -/
theorem hostExpm1_apply {s : Shape} {φ : FTy} (a : FVec Ideal s φ) (i : s.Idx) : Host.expm1 a i = Ideal.exp (a i) - 1 := rfl

/-- A float constant broadcast from a scalar reads the constant's value everywhere. -/
theorem bcast_const {T : Shape} (h : S_.BroadcastsInDim T ![]) (b : BitVec 32) :
    broadcastInDim T ![] h (constant (F := Ideal) S_ .f32 b) = fun _ => Ideal.ofBits .f32 b := by
  funext j
  rw [broadcastInDim_scalar_apply, constant_apply]

/-- The variance's divisor, 128 minus the integer zero converted, is the constant 128. -/
theorem divisor_eq : subf (constant (F := Ideal) S_ .f32 0x43000000#32) (sitofp .f32 (constantI S_ 32 0#32))
    = constant (F := Ideal) S_ .f32 0x43000000#32 := by
  funext j
  rw [subf_apply, sitofp_apply, constantI_apply, sitofp_zero32, sub_zero]

/-- The test that the divisor is positive holds. -/
theorem divisor_pos : cmpf .ogt (constant (F := Ideal) S_ .f32 0x43000000#32) (constant (F := Ideal) S_ .f32 0x00000000#32)
    = fun _ => 1#1 := by
  funext j
  rw [cmpf_apply, constant_apply, constant_apply, Ideal.cmpf_def, cmp_ogt_zero, if_pos ofBits_128_pos]

theorem rowVar_apply (x : FVec Ideal S100000x128 .f32) (i : Fin 100000) (u : Fin 1) :
    Cert.Spec.rowVar (F := Ideal) x (ix2 i u) = var (rowAt x i) := by
  unfold Cert.Spec.rowVar
  beta_reduce
  rw [divisor_eq, divisor_pos, select_apply, broadcastInDim_scalar_apply, select_one, refSumCol_div_apply, constant_apply]
  unfold var
  refine congrArg (fun s => Ideal.div s _) (Finset.sum_congr rfl fun k _ => ?_)
  rw [mulf_apply, subf_apply, broadcastInDim_col_apply, refSumCol_div_apply, constant_apply]
  rfl

theorem normalize_apply (x : FVec Ideal S100000x128 .f32) (mu va : FVec Ideal S100000x1 .f32) (gr lbr : FVec Ideal S1x128 .f32)
    (i : Fin 100000) (j : Fin 128) :
    Cert.Spec.normalize (F := Ideal) x mu va gr lbr (ix2 i j)
      = (x (ix2 i j) - mu (ix2 i (0 : Fin 1))) * Ideal.rsqrt (va (ix2 i (0 : Fin 1)) + Ideal.ofBits .f32 0x3727C5AC#32)
          * gr (ix2 (0 : Fin 1) j) + lbr (ix2 (0 : Fin 1) j) := by
  unfold Cert.Spec.normalize
  rw [bcast_const, addf_apply, mulf_apply, mulf_apply, subf_apply, broadcastInDim_col_apply, broadcastInDim_col_apply,
    broadcastInDim_oneRow_apply, broadcastInDim_oneRow_apply, hostRsqrt_apply, addf_apply]

theorem elu_apply (x : FVec Ideal S100000x128 .f32) (i : S100000x128.Idx) :
    Cert.Spec.elu (F := Ideal) x i = elu (x i) := by
  unfold Cert.Spec.elu
  rw [bcast_const, id_eq, bcast_const]
  exact select_one_mul_expm1 (x i)

/-- The reference's layer at node i and channel j: the row function of row i of the scaled and biased aggregate. -/
theorem lnElu_apply (agg : FVec Ideal S100000x128 .f32) (sc : FVec Ideal S100000x1 .f32) (br gr lbr : FVec Ideal S1x128 .f32)
    (i : Fin 100000) (j : Fin 128) :
    Cert.Spec.lnElu (F := Ideal) agg sc br gr lbr (ix2 i j)
      = out (fun k => agg (ix2 i k) * sc (ix2 i (0 : Fin 1)) + br (ix2 (0 : Fin 1) k))
          (fun k => gr (ix2 (0 : Fin 1) k)) (fun k => lbr (ix2 (0 : Fin 1) k)) j := by
  have hrow : rowAt (Cert.Spec.scaleBias (F := Ideal) agg sc br) i
      = fun k => agg (ix2 i k) * sc (ix2 i (0 : Fin 1)) + br (ix2 (0 : Fin 1) k) :=
    funext fun k => refScaleBias_apply agg sc br i k
  unfold Cert.Spec.lnElu
  rw [elu_apply, normalize_apply, rowMean_apply, rowVar_apply, hrow, refScaleBias_apply]
  rfl

end Cert.LN

end
-- ==== Proof.LNRegion2.lean ====
/-
  Region 2: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k2_pay1 (k2_pay2 v0 v2 v6 v30 v34) (k2_pay3 v0 v2 v6 v30 v34) (k2_pay4 v0 v2 v6 v30 v34) (k2_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out2_5 x0 x1 x2 x3 x4 (ix2 p q) = Cert.LN.out (Cert.LN.rowOf x0 x1 x2 p) (Cert.LN.chan x3) (Cert.LN.chan x4) q := by
  unfold out2_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregate's block at point t holds rows 10000 t + p of the array. -/
theorem read0 (c : Dev nD) (t : Fin cfg2.N) (p : Fin 10000) (k : Fin 128) (r : Fin 100000) (hr : r.val = t.val * 10000 + p.val) :
    (iblk2 V c 0 t : Vec Ideal S10000x128 .f32) (ix2 p k) = (V c (Pipeline.arrRef spec2 0) : S100000x128.Idx → EReal) (ix2 r k) := by
  obtain ⟨e0, e1, -⟩ := idx_facts t
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 10000 + 1 * p.val = r.val; omega
  | ⟨1, _⟩ => show win2_0.index t (1 : Fin 2) * 128 + 1 * k.val = k.val; omega

/-- The scale column's block at point t holds rows 10000 t + p of the column. -/
theorem read1 (c : Dev nD) (t : Fin cfg2.N) (p : Fin 10000) (u : Fin 1) (r : Fin 100000) (hr : r.val = t.val * 10000 + p.val) :
    (iblk2 V c 1 t : Vec Ideal S10000x1 .f32) (ix2 p u) = (V c (Pipeline.arrRef spec2 1) : S100000x1.Idx → EReal) (ix2 r u) := by
  obtain ⟨-, -, e0, e1, -⟩ := idx_facts t
  show V c (Pipeline.arrRef spec2 1) (((cfg2.win 1).blk t).view.emb (ix2 p u)) = _
  refine congrArg (V c (Pipeline.arrRef spec2 1)) ?_
  funext a; apply Fin.ext
  match a with
  | ⟨0, _⟩ => show win2_1.index t (0 : Fin 2) * 10000 + 1 * p.val = r.val; omega
  | ⟨1, _⟩ => show win2_1.index t (1 : Fin 2) * 1 + 1 * u.val = u.val; omega

/-- The bias row's block is the row at every point. -/
theorem read2 (c : Dev nD) (t : Fin cfg2.N) (u : Fin 1) (k : Fin 128) :
    (iblk2 V c 2 t : Vec Ideal S1x128 .f32) (ix2 u k) = (V c (Pipeline.arrRef spec2 2) : S1x128.Idx → EReal) (ix2 u k) := by
  obtain ⟨-, -, -, -, e0, e1, -⟩ := idx_facts t
  show V c (Pipeline.arrRef spec2 2) (((cfg2.win 2).blk t).view.emb (ix2 u k)) = _
  refine congrArg (V c (Pipeline.arrRef spec2 2)) ?_
  funext a; apply Fin.ext
  match a with
  | ⟨0, _⟩ => show win2_2.index t (0 : Fin 2) * 1 + 1 * u.val = u.val; omega
  | ⟨1, _⟩ => show win2_2.index t (1 : Fin 2) * 128 + 1 * k.val = k.val; omega

/-- The gain row's block is the row at every point. -/
theorem read3 (c : Dev nD) (t : Fin cfg2.N) (u : Fin 1) (k : Fin 128) :
    (iblk2 V c 3 t : Vec Ideal S1x128 .f32) (ix2 u k) = (V c (Pipeline.arrRef spec2 3) : S1x128.Idx → EReal) (ix2 u k) := by
  obtain ⟨-, -, -, -, -, -, e0, e1, -⟩ := idx_facts t
  show V c (Pipeline.arrRef spec2 3) (((cfg2.win 3).blk t).view.emb (ix2 u k)) = _
  refine congrArg (V c (Pipeline.arrRef spec2 3)) ?_
  funext a; apply Fin.ext
  match a with
  | ⟨0, _⟩ => show win2_3.index t (0 : Fin 2) * 1 + 1 * u.val = u.val; omega
  | ⟨1, _⟩ => show win2_3.index t (1 : Fin 2) * 128 + 1 * k.val = k.val; omega

/-- The shift row's block is the row at every point. -/
theorem read4 (c : Dev nD) (t : Fin cfg2.N) (u : Fin 1) (k : Fin 128) :
    (iblk2 V c 4 t : Vec Ideal S1x128 .f32) (ix2 u k) = (V c (Pipeline.arrRef spec2 4) : S1x128.Idx → EReal) (ix2 u k) := by
  obtain ⟨-, -, -, -, -, -, -, -, e0, e1, -⟩ := idx_facts t
  show V c (Pipeline.arrRef spec2 4) (((cfg2.win 4).blk t).view.emb (ix2 u k)) = _
  refine congrArg (V c (Pipeline.arrRef spec2 4)) ?_
  funext a; apply Fin.ext
  match a with
  | ⟨0, _⟩ => show win2_4.index t (0 : Fin 2) * 1 + 1 * u.val = u.val; omega
  | ⟨1, _⟩ => show win2_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec2 0)
abbrev A1 (c : Dev nD) : FVec Ideal S100000x1 .f32 := V c (Pipeline.arrRef spec2 1)
abbrev A2 (c : Dev nD) : FVec Ideal S1x128 .f32 := V c (Pipeline.arrRef spec2 2)
abbrev A3 (c : Dev nD) : FVec Ideal S1x128 .f32 := V c (Pipeline.arrRef spec2 3)
abbrev A4 (c : Dev nD) : FVec Ideal S1x128 .f32 := V c (Pipeline.arrRef spec2 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg2.N) :
    (dat2 V c).flushed 5 t = ((cfg2.win 5).blk t).view.read (Elt Ideal) (G V c) := by
  have hN : cfg2.N = 10 := N_2
  have ht : t.val < 10 := by have := t.isLt; omega
  obtain ⟨-, -, -, -, -, -, -, -, -, -, e0, e1⟩ := idx_facts t
  show (cfg2.win 5).cut (grid2.coords t) ((dat2 V c).after 5 t) = _
  rw [after2_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg2.win 5).blk t).view.emb (ix2 p q) = (ix2 r q : S100000x128.Idx) := by
    funext a; apply Fin.ext
    match a with
    | ⟨0, _⟩ => show win2_5.index t (0 : Fin 2) * 10000 + 1 * p.val = r.val; omega
    | ⟨1, _⟩ => show win2_5.index t (1 : Fin 2) * 128 + 1 * q.val = q.val; omega
  show out2_5 (iblk2 V c 0 t) (iblk2 V c 1 t) (iblk2 V c 2 t) (iblk2 V c 3 t) (iblk2 V c 4 t) (ix2 p q)
    = G V c (((cfg2.win 5).blk t).view.emb (ix2 p q))
  rw [hemb]
  refine (out_apply (iblk2 V c 0 t) (iblk2 V c 1 t) (iblk2 V c 2 t) (iblk2 V c 3 t) (iblk2 V c 4 t) p q).trans ?_
  refine Eq.trans ?_ (Cert.LN.lnElu_apply (A0 V c) (A1 V c) (A2 V c) (A3 V c) (A4 V c) r q).symm
  have h1 : Cert.LN.rowOf (iblk2 V c 0 t) (iblk2 V c 1 t) (iblk2 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk2 V c 3 t) = fun k => A3 V c (ix2 (0 : Fin 1) k) := by
    funext k
    unfold Cert.LN.chan
    rw [read3 V c t 0 k]
  have h4 : Cert.LN.chan (iblk2 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v64).slice (win2_5.rect t)).set ↔ _
  rw [View.set_slice_whole, Rect.mem_set_unit]
  exact Iff.rfl

/-- Row i is in the block of point i / 10000: the ten blocks cover the array. -/
theorem cover (i : S100000x128.Idx) :
    ∃ t : Fin cfg2.N, (cfg2.win 5).flush t = true ∧ i ∈ ((cfg2.win 5).blk t).view.set := by
  have hN : cfg2.N = 10 := N_2
  have hi0 : (i 0).val < 100000 := (i 0).isLt
  have hi1 : (i 1).val < 128 := (i 1).isLt
  obtain ⟨t, htv⟩ : ∃ t : Fin cfg2.N, t.val = (i 0).val / 10000 := ⟨⟨(i 0).val / 10000, by omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 128 ≤ (i 1).val ∧ (i 1).val < win2_5.index t (1 : Fin 2) * 128 + 128
    omega

/-- After the region's write-backs the output array holds the reference's layer of the arrays as the region finds them. -/
theorem final (c : Dev nD) : (dat2 V c).arrAt 5 cfg2.N = G V c :=
  (dat2 V c).arrAt_eq_of_cover 5 (G V c) (fun t _ => flushed_eq V c t) cover

end Cert.KernelIdeal.Regions.R2

end
-- ==== Proof.LNRegion3.lean ====
/-
  Region 3: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k3_pay1 (k3_pay2 v0 v2 v6 v30 v34) (k3_pay3 v0 v2 v6 v30 v34) (k3_pay4 v0 v2 v6 v30 v34) (k3_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out3_5 x0 x1 x2 x3 x4 (ix2 p q) = Cert.LN.out (Cert.LN.rowOf x0 x1 x2 p) (Cert.LN.chan x3) (Cert.LN.chan x4) q := by
  unfold out3_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The aggregate's block at point t holds rows 10000 t + p of the array. -/
theorem read0 (c : Dev nD) (t : Fin cfg3.N) (p : Fin 10000) (k : Fin 128) (r : Fin 100000) (hr : r.val = t.val * 10000 + p.val) :
    (iblk3 V c 0 t : Vec Ideal S10000x128 .f32) (ix2 p k) = (V c (Pipeline.arrRef spec3 0) : S100000x128.Idx → EReal) (ix2 r k) := by
  obtain ⟨e0, e1, -⟩ := idx_facts t
  show V c (Pipeline.arrRef spec3 0) (((cfg3.win 0).blk t).view.emb (ix2 p k)) = _
  refine congrArg (V c (Pipeline.arrRef spec3 0)) ?_
  funext a; apply Fin.ext
  match a with
  | ⟨0, _⟩ => show win3_0.index t (0 : Fin 2) * 10000 + 1 * p.val = r.val; omega
  | ⟨1, _⟩ => show win3_0.index t (1 : Fin 2) * 128 + 1 * k.val = k.val; omega

/-- The scale column's block at point t holds rows 10000 t + p of the column. -/
theorem read1 (c : Dev nD) (t : Fin cfg3.N) (p : Fin 10000) (u : Fin 1) (r : Fin 100000) (hr : r.val = t.val * 10000 + p.val) :
    (iblk3 V c 1 t : Vec Ideal S10000x1 .f32) (ix2 p u) = (V c (Pipeline.arrRef spec3 1) : S100000x1.Idx → EReal) (ix2 r u) := by
  obtain ⟨-, -, e0, e1, -⟩ := idx_facts t
  show V c (Pipeline.arrRef spec3 1) (((cfg3.win 1).blk t).view.emb (ix2 p u)) = _
  refine congrArg (V c (Pipeline.arrRef spec3 1)) ?_
  funext a; apply Fin.ext
  match a with
  | ⟨0, _⟩ => show win3_1.index t (0 : Fin 2) * 10000 + 1 * p.val = r.val; omega
  | ⟨1, _⟩ => show win3_1.index t (1 : Fin 2) * 1 + 1 * u.val = u.val; omega

/-- The bias row's block is the row at every point. -/
theorem read2 (c : Dev nD) (t : Fin cfg3.N) (u : Fin 1) (k : Fin 128) :
    (iblk3 V c 2 t : Vec Ideal S1x128 .f32) (ix2 u k) = (V c (Pipeline.arrRef spec3 2) : S1x128.Idx → EReal) (ix2 u k) := by
  obtain ⟨-, -, -, -, e0, e1, -⟩ := idx_facts t
  show V c (Pipeline.arrRef spec3 2) (((cfg3.win 2).blk t).view.emb (ix2 u k)) = _
  refine congrArg (V c (Pipeline.arrRef spec3 2)) ?_
  funext a; apply Fin.ext
  match a with
  | ⟨0, _⟩ => show win3_2.index t (0 : Fin 2) * 1 + 1 * u.val = u.val; omega
  | ⟨1, _⟩ => show win3_2.index t (1 : Fin 2) * 128 + 1 * k.val = k.val; omega

/-- The gain row's block is the row at every point. -/
theorem read3 (c : Dev nD) (t : Fin cfg3.N) (u : Fin 1) (k : Fin 128) :
    (iblk3 V c 3 t : Vec Ideal S1x128 .f32) (ix2 u k) = (V c (Pipeline.arrRef spec3 3) : S1x128.Idx → EReal) (ix2 u k) := by
  obtain ⟨-, -, -, -, -, -, e0, e1, -⟩ := idx_facts t
  show V c (Pipeline.arrRef spec3 3) (((cfg3.win 3).blk t).view.emb (ix2 u k)) = _
  refine congrArg (V c (Pipeline.arrRef spec3 3)) ?_
  funext a; apply Fin.ext
  match a with
  | ⟨0, _⟩ => show win3_3.index t (0 : Fin 2) * 1 + 1 * u.val = u.val; omega
  | ⟨1, _⟩ => show win3_3.index t (1 : Fin 2) * 128 + 1 * k.val = k.val; omega

/-- The shift row's block is the row at every point. -/
theorem read4 (c : Dev nD) (t : Fin cfg3.N) (u : Fin 1) (k : Fin 128) :
    (iblk3 V c 4 t : Vec Ideal S1x128 .f32) (ix2 u k) = (V c (Pipeline.arrRef spec3 4) : S1x128.Idx → EReal) (ix2 u k) := by
  obtain ⟨-, -, -, -, -, -, -, -, e0, e1, -⟩ := idx_facts t
  show V c (Pipeline.arrRef spec3 4) (((cfg3.win 4).blk t).view.emb (ix2 u k)) = _
  refine congrArg (V c (Pipeline.arrRef spec3 4)) ?_
  funext a; apply Fin.ext
  match a with
  | ⟨0, _⟩ => show win3_4.index t (0 : Fin 2) * 1 + 1 * u.val = u.val; omega
  | ⟨1, _⟩ => show win3_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec3 0)
abbrev A1 (c : Dev nD) : FVec Ideal S100000x1 .f32 := V c (Pipeline.arrRef spec3 1)
abbrev A2 (c : Dev nD) : FVec Ideal S1x128 .f32 := V c (Pipeline.arrRef spec3 2)
abbrev A3 (c : Dev nD) : FVec Ideal S1x128 .f32 := V c (Pipeline.arrRef spec3 3)
abbrev A4 (c : Dev nD) : FVec Ideal S1x128 .f32 := V c (Pipeline.arrRef spec3 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg3.N) :
    (dat3 V c).flushed 5 t = ((cfg3.win 5).blk t).view.read (Elt Ideal) (G V c) := by
  have hN : cfg3.N = 10 := N_3
  have ht : t.val < 10 := by have := t.isLt; omega
  obtain ⟨-, -, -, -, -, -, -, -, -, -, e0, e1⟩ := idx_facts t
  show (cfg3.win 5).cut (grid3.coords t) ((dat3 V c).after 5 t) = _
  rw [after3_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg3.win 5).blk t).view.emb (ix2 p q) = (ix2 r q : S100000x128.Idx) := by
    funext a; apply Fin.ext
    match a with
    | ⟨0, _⟩ => show win3_5.index t (0 : Fin 2) * 10000 + 1 * p.val = r.val; omega
    | ⟨1, _⟩ => show win3_5.index t (1 : Fin 2) * 128 + 1 * q.val = q.val; omega
  show out3_5 (iblk3 V c 0 t) (iblk3 V c 1 t) (iblk3 V c 2 t) (iblk3 V c 3 t) (iblk3 V c 4 t) (ix2 p q)
    = G V c (((cfg3.win 5).blk t).view.emb (ix2 p q))
  rw [hemb]
  refine (out_apply (iblk3 V c 0 t) (iblk3 V c 1 t) (iblk3 V c 2 t) (iblk3 V c 3 t) (iblk3 V c 4 t) p q).trans ?_
  refine Eq.trans ?_ (Cert.LN.lnElu_apply (A0 V c) (A1 V c) (A2 V c) (A3 V c) (A4 V c) r q).symm
  have h1 : Cert.LN.rowOf (iblk3 V c 0 t) (iblk3 V c 1 t) (iblk3 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk3 V c 3 t) = fun k => A3 V c (ix2 (0 : Fin 1) k) := by
    funext k
    unfold Cert.LN.chan
    rw [read3 V c t 0 k]
  have h4 : Cert.LN.chan (iblk3 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v73).slice (win3_5.rect t)).set ↔ _
  rw [View.set_slice_whole, Rect.mem_set_unit]
  exact Iff.rfl

/-- Row i is in the block of point i / 10000: the ten blocks cover the array. -/
theorem cover (i : S100000x128.Idx) :
    ∃ t : Fin cfg3.N, (cfg3.win 5).flush t = true ∧ i ∈ ((cfg3.win 5).blk t).view.set := by
  have hN : cfg3.N = 10 := N_3
  have hi0 : (i 0).val < 100000 := (i 0).isLt
  have hi1 : (i 1).val < 128 := (i 1).isLt
  obtain ⟨t, htv⟩ : ∃ t : Fin cfg3.N, t.val = (i 0).val / 10000 := ⟨⟨(i 0).val / 10000, by omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-- After the region's write-backs the output array holds the reference's layer of the arrays as the region finds them. -/
theorem final (c : Dev nD) : (dat3 V c).arrAt 5 cfg3.N = G V c :=
  (dat3 V c).arrAt_eq_of_cover 5 (G V c) (fun t _ => flushed_eq V c t) cover

end Cert.KernelIdeal.Regions.R3

end
-- ==== Proof.LNRegion6.lean ====
/-
  Region 6: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k6_pay1 (k6_pay2 v0 v2 v6 v30 v34) (k6_pay3 v0 v2 v6 v30 v34) (k6_pay4 v0 v2 v6 v30 v34) (k6_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out6_5 x0 x1 x2 x3 x4 (ix2 p q) = Cert.LN.out (Cert.LN.rowOf x0 x1 x2 p) (Cert.LN.chan x3) (Cert.LN.chan x4) q := by
  unfold out6_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The aggregate's block at point t holds rows 10000 t + p of the array. -/
theorem read0 (c : Dev nD) (t : Fin cfg6.N) (p : Fin 10000) (k : Fin 128) (r : Fin 100000) (hr : r.val = t.val * 10000 + p.val) :
    (iblk6 V c 0 t : Vec Ideal S10000x128 .f32) (ix2 p k) = (V c (Pipeline.arrRef spec6 0) : S100000x128.Idx → EReal) (ix2 r k) := by
  obtain ⟨e0, e1, -⟩ := idx_facts t
  show V c (Pipeline.arrRef spec6 0) (((cfg6.win 0).blk t).view.emb (ix2 p k)) = _
  refine congrArg (V c (Pipeline.arrRef spec6 0)) ?_
  funext a; apply Fin.ext
  match a with
  | ⟨0, _⟩ => show win6_0.index t (0 : Fin 2) * 10000 + 1 * p.val = r.val; omega
  | ⟨1, _⟩ => show win6_0.index t (1 : Fin 2) * 128 + 1 * k.val = k.val; omega

/-- The scale column's block at point t holds rows 10000 t + p of the column. -/
theorem read1 (c : Dev nD) (t : Fin cfg6.N) (p : Fin 10000) (u : Fin 1) (r : Fin 100000) (hr : r.val = t.val * 10000 + p.val) :
    (iblk6 V c 1 t : Vec Ideal S10000x1 .f32) (ix2 p u) = (V c (Pipeline.arrRef spec6 1) : S100000x1.Idx → EReal) (ix2 r u) := by
  obtain ⟨-, -, e0, e1, -⟩ := idx_facts t
  show V c (Pipeline.arrRef spec6 1) (((cfg6.win 1).blk t).view.emb (ix2 p u)) = _
  refine congrArg (V c (Pipeline.arrRef spec6 1)) ?_
  funext a; apply Fin.ext
  match a with
  | ⟨0, _⟩ => show win6_1.index t (0 : Fin 2) * 10000 + 1 * p.val = r.val; omega
  | ⟨1, _⟩ => show win6_1.index t (1 : Fin 2) * 1 + 1 * u.val = u.val; omega

/-- The bias row's block is the row at every point. -/
theorem read2 (c : Dev nD) (t : Fin cfg6.N) (u : Fin 1) (k : Fin 128) :
    (iblk6 V c 2 t : Vec Ideal S1x128 .f32) (ix2 u k) = (V c (Pipeline.arrRef spec6 2) : S1x128.Idx → EReal) (ix2 u k) := by
  obtain ⟨-, -, -, -, e0, e1, -⟩ := idx_facts t
  show V c (Pipeline.arrRef spec6 2) (((cfg6.win 2).blk t).view.emb (ix2 u k)) = _
  refine congrArg (V c (Pipeline.arrRef spec6 2)) ?_
  funext a; apply Fin.ext
  match a with
  | ⟨0, _⟩ => show win6_2.index t (0 : Fin 2) * 1 + 1 * u.val = u.val; omega
  | ⟨1, _⟩ => show win6_2.index t (1 : Fin 2) * 128 + 1 * k.val = k.val; omega

/-- The gain row's block is the row at every point. -/
theorem read3 (c : Dev nD) (t : Fin cfg6.N) (u : Fin 1) (k : Fin 128) :
    (iblk6 V c 3 t : Vec Ideal S1x128 .f32) (ix2 u k) = (V c (Pipeline.arrRef spec6 3) : S1x128.Idx → EReal) (ix2 u k) := by
  obtain ⟨-, -, -, -, -, -, e0, e1, -⟩ := idx_facts t
  show V c (Pipeline.arrRef spec6 3) (((cfg6.win 3).blk t).view.emb (ix2 u k)) = _
  refine congrArg (V c (Pipeline.arrRef spec6 3)) ?_
  funext a; apply Fin.ext
  match a with
  | ⟨0, _⟩ => show win6_3.index t (0 : Fin 2) * 1 + 1 * u.val = u.val; omega
  | ⟨1, _⟩ => show win6_3.index t (1 : Fin 2) * 128 + 1 * k.val = k.val; omega

/-- The shift row's block is the row at every point. -/
theorem read4 (c : Dev nD) (t : Fin cfg6.N) (u : Fin 1) (k : Fin 128) :
    (iblk6 V c 4 t : Vec Ideal S1x128 .f32) (ix2 u k) = (V c (Pipeline.arrRef spec6 4) : S1x128.Idx → EReal) (ix2 u k) := by
  obtain ⟨-, -, -, -, -, -, -, -, e0, e1, -⟩ := idx_facts t
  show V c (Pipeline.arrRef spec6 4) (((cfg6.win 4).blk t).view.emb (ix2 u k)) = _
  refine congrArg (V c (Pipeline.arrRef spec6 4)) ?_
  funext a; apply Fin.ext
  match a with
  | ⟨0, _⟩ => show win6_4.index t (0 : Fin 2) * 1 + 1 * u.val = u.val; omega
  | ⟨1, _⟩ => show win6_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec6 0)
abbrev A1 (c : Dev nD) : FVec Ideal S100000x1 .f32 := V c (Pipeline.arrRef spec6 1)
abbrev A2 (c : Dev nD) : FVec Ideal S1x128 .f32 := V c (Pipeline.arrRef spec6 2)
abbrev A3 (c : Dev nD) : FVec Ideal S1x128 .f32 := V c (Pipeline.arrRef spec6 3)
abbrev A4 (c : Dev nD) : FVec Ideal S1x128 .f32 := V c (Pipeline.arrRef spec6 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg6.N) :
    (dat6 V c).flushed 5 t = ((cfg6.win 5).blk t).view.read (Elt Ideal) (G V c) := by
  have hN : cfg6.N = 10 := N_6
  have ht : t.val < 10 := by have := t.isLt; omega
  obtain ⟨-, -, -, -, -, -, -, -, -, -, e0, e1⟩ := idx_facts t
  show (cfg6.win 5).cut (grid6.coords t) ((dat6 V c).after 5 t) = _
  rw [after6_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg6.win 5).blk t).view.emb (ix2 p q) = (ix2 r q : S100000x128.Idx) := by
    funext a; apply Fin.ext
    match a with
    | ⟨0, _⟩ => show win6_5.index t (0 : Fin 2) * 10000 + 1 * p.val = r.val; omega
    | ⟨1, _⟩ => show win6_5.index t (1 : Fin 2) * 128 + 1 * q.val = q.val; omega
  show out6_5 (iblk6 V c 0 t) (iblk6 V c 1 t) (iblk6 V c 2 t) (iblk6 V c 3 t) (iblk6 V c 4 t) (ix2 p q)
    = G V c (((cfg6.win 5).blk t).view.emb (ix2 p q))
  rw [hemb]
  refine (out_apply (iblk6 V c 0 t) (iblk6 V c 1 t) (iblk6 V c 2 t) (iblk6 V c 3 t) (iblk6 V c 4 t) p q).trans ?_
  refine Eq.trans ?_ (Cert.LN.lnElu_apply (A0 V c) (A1 V c) (A2 V c) (A3 V c) (A4 V c) r q).symm
  have h1 : Cert.LN.rowOf (iblk6 V c 0 t) (iblk6 V c 1 t) (iblk6 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk6 V c 3 t) = fun k => A3 V c (ix2 (0 : Fin 1) k) := by
    funext k
    unfold Cert.LN.chan
    rw [read3 V c t 0 k]
  have h4 : Cert.LN.chan (iblk6 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg6.N) (i : S100000x128.Idx) :
    i ∈ ((cfg6.win 5).blk t).view.set ↔ ∀ a : Fin 2, win6_5.index t a * S10000x128.size a ≤ (i a).val
      ∧ (i a).val < win6_5.index t a * S10000x128.size a + S10000x128.size a := by
  show i ∈ ((View.whole main_v114).slice (win6_5.rect t)).set ↔ _
  rw [View.set_slice_whole, Rect.mem_set_unit]
  exact Iff.rfl

/-- Row i is in the block of point i / 10000: the ten blocks cover the array. -/
theorem cover (i : S100000x128.Idx) :
    ∃ t : Fin cfg6.N, (cfg6.win 5).flush t = true ∧ i ∈ ((cfg6.win 5).blk t).view.set := by
  have hN : cfg6.N = 10 := N_6
  have hi0 : (i 0).val < 100000 := (i 0).isLt
  have hi1 : (i 1).val < 128 := (i 1).isLt
  obtain ⟨t, htv⟩ : ∃ t : Fin cfg6.N, t.val = (i 0).val / 10000 := ⟨⟨(i 0).val / 10000, by omega⟩, rfl⟩
  obtain ⟨-, -, -, -, -, -, -, -, -, -, e0, e1⟩ := idx_facts t
  refine ⟨t, flush6_5 t, ?_⟩
  rw [mem_blk]
  intro a
  match a with
  | ⟨0, _⟩ =>
    show win6_5.index t (0 : Fin 2) * 10000 ≤ (i 0).val ∧ (i 0).val < win6_5.index t (0 : Fin 2) * 10000 + 10000
    omega
  | ⟨1, _⟩ =>
    show win6_5.index t (1 : Fin 2) * 128 ≤ (i 1).val ∧ (i 1).val < win6_5.index t (1 : Fin 2) * 128 + 128
    omega

/-- After the region's write-backs the output array holds the reference's layer of the arrays as the region finds them. -/
theorem final (c : Dev nD) : (dat6 V c).arrAt 5 cfg6.N = G V c :=
  (dat6 V c).arrAt_eq_of_cover 5 (G V c) (fun t _ => flushed_eq V c t) cover

end Cert.KernelIdeal.Regions.R6

end
-- ==== Proof.LNRegion7.lean ====
/-
  Region 7: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R7

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k7_pay1 (k7_pay2 v0 v2 v6 v30 v34) (k7_pay3 v0 v2 v6 v30 v34) (k7_pay4 v0 v2 v6 v30 v34) (k7_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out7_5 x0 x1 x2 x3 x4 (ix2 p q) = Cert.LN.out (Cert.LN.rowOf x0 x1 x2 p) (Cert.LN.chan x3) (Cert.LN.chan x4) q := by
  unfold out7_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The aggregate's block at point t holds rows 10000 t + p of the array. -/
theorem read0 (c : Dev nD) (t : Fin cfg7.N) (p : Fin 10000) (k : Fin 128) (r : Fin 100000) (hr : r.val = t.val * 10000 + p.val) :
    (iblk7 V c 0 t : Vec Ideal S10000x128 .f32) (ix2 p k) = (V c (Pipeline.arrRef spec7 0) : S100000x128.Idx → EReal) (ix2 r k) := by
  obtain ⟨e0, e1, -⟩ := idx_facts t
  show V c (Pipeline.arrRef spec7 0) (((cfg7.win 0).blk t).view.emb (ix2 p k)) = _
  refine congrArg (V c (Pipeline.arrRef spec7 0)) ?_
  funext a; apply Fin.ext
  match a with
  | ⟨0, _⟩ => show win7_0.index t (0 : Fin 2) * 10000 + 1 * p.val = r.val; omega
  | ⟨1, _⟩ => show win7_0.index t (1 : Fin 2) * 128 + 1 * k.val = k.val; omega

/-- The scale column's block at point t holds rows 10000 t + p of the column. -/
theorem read1 (c : Dev nD) (t : Fin cfg7.N) (p : Fin 10000) (u : Fin 1) (r : Fin 100000) (hr : r.val = t.val * 10000 + p.val) :
    (iblk7 V c 1 t : Vec Ideal S10000x1 .f32) (ix2 p u) = (V c (Pipeline.arrRef spec7 1) : S100000x1.Idx → EReal) (ix2 r u) := by
  obtain ⟨-, -, e0, e1, -⟩ := idx_facts t
  show V c (Pipeline.arrRef spec7 1) (((cfg7.win 1).blk t).view.emb (ix2 p u)) = _
  refine congrArg (V c (Pipeline.arrRef spec7 1)) ?_
  funext a; apply Fin.ext
  match a with
  | ⟨0, _⟩ => show win7_1.index t (0 : Fin 2) * 10000 + 1 * p.val = r.val; omega
  | ⟨1, _⟩ => show win7_1.index t (1 : Fin 2) * 1 + 1 * u.val = u.val; omega

/-- The bias row's block is the row at every point. -/
theorem read2 (c : Dev nD) (t : Fin cfg7.N) (u : Fin 1) (k : Fin 128) :
    (iblk7 V c 2 t : Vec Ideal S1x128 .f32) (ix2 u k) = (V c (Pipeline.arrRef spec7 2) : S1x128.Idx → EReal) (ix2 u k) := by
  obtain ⟨-, -, -, -, e0, e1, -⟩ := idx_facts t
  show V c (Pipeline.arrRef spec7 2) (((cfg7.win 2).blk t).view.emb (ix2 u k)) = _
  refine congrArg (V c (Pipeline.arrRef spec7 2)) ?_
  funext a; apply Fin.ext
  match a with
  | ⟨0, _⟩ => show win7_2.index t (0 : Fin 2) * 1 + 1 * u.val = u.val; omega
  | ⟨1, _⟩ => show win7_2.index t (1 : Fin 2) * 128 + 1 * k.val = k.val; omega

/-- The gain row's block is the row at every point. -/
theorem read3 (c : Dev nD) (t : Fin cfg7.N) (u : Fin 1) (k : Fin 128) :
    (iblk7 V c 3 t : Vec Ideal S1x128 .f32) (ix2 u k) = (V c (Pipeline.arrRef spec7 3) : S1x128.Idx → EReal) (ix2 u k) := by
  obtain ⟨-, -, -, -, -, -, e0, e1, -⟩ := idx_facts t
  show V c (Pipeline.arrRef spec7 3) (((cfg7.win 3).blk t).view.emb (ix2 u k)) = _
  refine congrArg (V c (Pipeline.arrRef spec7 3)) ?_
  funext a; apply Fin.ext
  match a with
  | ⟨0, _⟩ => show win7_3.index t (0 : Fin 2) * 1 + 1 * u.val = u.val; omega
  | ⟨1, _⟩ => show win7_3.index t (1 : Fin 2) * 128 + 1 * k.val = k.val; omega

/-- The shift row's block is the row at every point. -/
theorem read4 (c : Dev nD) (t : Fin cfg7.N) (u : Fin 1) (k : Fin 128) :
    (iblk7 V c 4 t : Vec Ideal S1x128 .f32) (ix2 u k) = (V c (Pipeline.arrRef spec7 4) : S1x128.Idx → EReal) (ix2 u k) := by
  obtain ⟨-, -, -, -, -, -, -, -, e0, e1, -⟩ := idx_facts t
  show V c (Pipeline.arrRef spec7 4) (((cfg7.win 4).blk t).view.emb (ix2 u k)) = _
  refine congrArg (V c (Pipeline.arrRef spec7 4)) ?_
  funext a; apply Fin.ext
  match a with
  | ⟨0, _⟩ => show win7_4.index t (0 : Fin 2) * 1 + 1 * u.val = u.val; omega
  | ⟨1, _⟩ => show win7_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec7 0)
abbrev A1 (c : Dev nD) : FVec Ideal S100000x1 .f32 := V c (Pipeline.arrRef spec7 1)
abbrev A2 (c : Dev nD) : FVec Ideal S1x128 .f32 := V c (Pipeline.arrRef spec7 2)
abbrev A3 (c : Dev nD) : FVec Ideal S1x128 .f32 := V c (Pipeline.arrRef spec7 3)
abbrev A4 (c : Dev nD) : FVec Ideal S1x128 .f32 := V c (Pipeline.arrRef spec7 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg7.N) :
    (dat7 V c).flushed 5 t = ((cfg7.win 5).blk t).view.read (Elt Ideal) (G V c) := by
  have hN : cfg7.N = 10 := N_7
  have ht : t.val < 10 := by have := t.isLt; omega
  obtain ⟨-, -, -, -, -, -, -, -, -, -, e0, e1⟩ := idx_facts t
  show (cfg7.win 5).cut (grid7.coords t) ((dat7 V c).after 5 t) = _
  rw [after7_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg7.win 5).blk t).view.emb (ix2 p q) = (ix2 r q : S100000x128.Idx) := by
    funext a; apply Fin.ext
    match a with
    | ⟨0, _⟩ => show win7_5.index t (0 : Fin 2) * 10000 + 1 * p.val = r.val; omega
    | ⟨1, _⟩ => show win7_5.index t (1 : Fin 2) * 128 + 1 * q.val = q.val; omega
  show out7_5 (iblk7 V c 0 t) (iblk7 V c 1 t) (iblk7 V c 2 t) (iblk7 V c 3 t) (iblk7 V c 4 t) (ix2 p q)
    = G V c (((cfg7.win 5).blk t).view.emb (ix2 p q))
  rw [hemb]
  refine (out_apply (iblk7 V c 0 t) (iblk7 V c 1 t) (iblk7 V c 2 t) (iblk7 V c 3 t) (iblk7 V c 4 t) p q).trans ?_
  refine Eq.trans ?_ (Cert.LN.lnElu_apply (A0 V c) (A1 V c) (A2 V c) (A3 V c) (A4 V c) r q).symm
  have h1 : Cert.LN.rowOf (iblk7 V c 0 t) (iblk7 V c 1 t) (iblk7 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk7 V c 3 t) = fun k => A3 V c (ix2 (0 : Fin 1) k) := by
    funext k
    unfold Cert.LN.chan
    rw [read3 V c t 0 k]
  have h4 : Cert.LN.chan (iblk7 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg7.N) (i : S100000x128.Idx) :
    i ∈ ((cfg7.win 5).blk t).view.set ↔ ∀ a : Fin 2, win7_5.index t a * S10000x128.size a ≤ (i a).val
      ∧ (i a).val < win7_5.index t a * S10000x128.size a + S10000x128.size a := by
  show i ∈ ((View.whole main_v123).slice (win7_5.rect t)).set ↔ _
  rw [View.set_slice_whole, Rect.mem_set_unit]
  exact Iff.rfl

/-- Row i is in the block of point i / 10000: the ten blocks cover the array. -/
theorem cover (i : S100000x128.Idx) :
    ∃ t : Fin cfg7.N, (cfg7.win 5).flush t = true ∧ i ∈ ((cfg7.win 5).blk t).view.set := by
  have hN : cfg7.N = 10 := N_7
  have hi0 : (i 0).val < 100000 := (i 0).isLt
  have hi1 : (i 1).val < 128 := (i 1).isLt
  obtain ⟨t, htv⟩ : ∃ t : Fin cfg7.N, t.val = (i 0).val / 10000 := ⟨⟨(i 0).val / 10000, by omega⟩, rfl⟩
  obtain ⟨-, -, -, -, -, -, -, -, -, -, e0, e1⟩ := idx_facts t
  refine ⟨t, flush7_5 t, ?_⟩
  rw [mem_blk]
  intro a
  match a with
  | ⟨0, _⟩ =>
    show win7_5.index t (0 : Fin 2) * 10000 ≤ (i 0).val ∧ (i 0).val < win7_5.index t (0 : Fin 2) * 10000 + 10000
    omega
  | ⟨1, _⟩ =>
    show win7_5.index t (1 : Fin 2) * 128 ≤ (i 1).val ∧ (i 1).val < win7_5.index t (1 : Fin 2) * 128 + 128
    omega

/-- After the region's write-backs the output array holds the reference's layer of the arrays as the region finds them. -/
theorem final (c : Dev nD) : (dat7 V c).arrAt 5 cfg7.N = G V c :=
  (dat7 V c).arrAt_eq_of_cover 5 (G V c) (fun t _ => flushed_eq V c t) cover

end Cert.KernelIdeal.Regions.R7

end
-- ==== Proof.LNRegion10.lean ====
/-
  Region 10: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R10

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k10_pay1 (k10_pay2 v0 v2 v6 v30 v34) (k10_pay3 v0 v2 v6 v30 v34) (k10_pay4 v0 v2 v6 v30 v34) (k10_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out10_5 x0 x1 x2 x3 x4 (ix2 p q) = Cert.LN.out (Cert.LN.rowOf x0 x1 x2 p) (Cert.LN.chan x3) (Cert.LN.chan x4) q := by
  unfold out10_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- The aggregate's block at point t holds rows 10000 t + p of the array. -/
theorem read0 (c : Dev nD) (t : Fin cfg10.N) (p : Fin 10000) (k : Fin 128) (r : Fin 100000) (hr : r.val = t.val * 10000 + p.val) :
    (iblk10 V c 0 t : Vec Ideal S10000x128 .f32) (ix2 p k) = (V c (Pipeline.arrRef spec10 0) : S100000x128.Idx → EReal) (ix2 r k) := by
  obtain ⟨e0, e1, -⟩ := idx_facts t
  show V c (Pipeline.arrRef spec10 0) (((cfg10.win 0).blk t).view.emb (ix2 p k)) = _
  refine congrArg (V c (Pipeline.arrRef spec10 0)) ?_
  funext a; apply Fin.ext
  match a with
  | ⟨0, _⟩ => show win10_0.index t (0 : Fin 2) * 10000 + 1 * p.val = r.val; omega
  | ⟨1, _⟩ => show win10_0.index t (1 : Fin 2) * 128 + 1 * k.val = k.val; omega

/-- The scale column's block at point t holds rows 10000 t + p of the column. -/
theorem read1 (c : Dev nD) (t : Fin cfg10.N) (p : Fin 10000) (u : Fin 1) (r : Fin 100000) (hr : r.val = t.val * 10000 + p.val) :
    (iblk10 V c 1 t : Vec Ideal S10000x1 .f32) (ix2 p u) = (V c (Pipeline.arrRef spec10 1) : S100000x1.Idx → EReal) (ix2 r u) := by
  obtain ⟨-, -, e0, e1, -⟩ := idx_facts t
  show V c (Pipeline.arrRef spec10 1) (((cfg10.win 1).blk t).view.emb (ix2 p u)) = _
  refine congrArg (V c (Pipeline.arrRef spec10 1)) ?_
  funext a; apply Fin.ext
  match a with
  | ⟨0, _⟩ => show win10_1.index t (0 : Fin 2) * 10000 + 1 * p.val = r.val; omega
  | ⟨1, _⟩ => show win10_1.index t (1 : Fin 2) * 1 + 1 * u.val = u.val; omega

/-- The bias row's block is the row at every point. -/
theorem read2 (c : Dev nD) (t : Fin cfg10.N) (u : Fin 1) (k : Fin 128) :
    (iblk10 V c 2 t : Vec Ideal S1x128 .f32) (ix2 u k) = (V c (Pipeline.arrRef spec10 2) : S1x128.Idx → EReal) (ix2 u k) := by
  obtain ⟨-, -, -, -, e0, e1, -⟩ := idx_facts t
  show V c (Pipeline.arrRef spec10 2) (((cfg10.win 2).blk t).view.emb (ix2 u k)) = _
  refine congrArg (V c (Pipeline.arrRef spec10 2)) ?_
  funext a; apply Fin.ext
  match a with
  | ⟨0, _⟩ => show win10_2.index t (0 : Fin 2) * 1 + 1 * u.val = u.val; omega
  | ⟨1, _⟩ => show win10_2.index t (1 : Fin 2) * 128 + 1 * k.val = k.val; omega

/-- The gain row's block is the row at every point. -/
theorem read3 (c : Dev nD) (t : Fin cfg10.N) (u : Fin 1) (k : Fin 128) :
    (iblk10 V c 3 t : Vec Ideal S1x128 .f32) (ix2 u k) = (V c (Pipeline.arrRef spec10 3) : S1x128.Idx → EReal) (ix2 u k) := by
  obtain ⟨-, -, -, -, -, -, e0, e1, -⟩ := idx_facts t
  show V c (Pipeline.arrRef spec10 3) (((cfg10.win 3).blk t).view.emb (ix2 u k)) = _
  refine congrArg (V c (Pipeline.arrRef spec10 3)) ?_
  funext a; apply Fin.ext
  match a with
  | ⟨0, _⟩ => show win10_3.index t (0 : Fin 2) * 1 + 1 * u.val = u.val; omega
  | ⟨1, _⟩ => show win10_3.index t (1 : Fin 2) * 128 + 1 * k.val = k.val; omega

/-- The shift row's block is the row at every point. -/
theorem read4 (c : Dev nD) (t : Fin cfg10.N) (u : Fin 1) (k : Fin 128) :
    (iblk10 V c 4 t : Vec Ideal S1x128 .f32) (ix2 u k) = (V c (Pipeline.arrRef spec10 4) : S1x128.Idx → EReal) (ix2 u k) := by
  obtain ⟨-, -, -, -, -, -, -, -, e0, e1, -⟩ := idx_facts t
  show V c (Pipeline.arrRef spec10 4) (((cfg10.win 4).blk t).view.emb (ix2 u k)) = _
  refine congrArg (V c (Pipeline.arrRef spec10 4)) ?_
  funext a; apply Fin.ext
  match a with
  | ⟨0, _⟩ => show win10_4.index t (0 : Fin 2) * 1 + 1 * u.val = u.val; omega
  | ⟨1, _⟩ => show win10_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec10 0)
abbrev A1 (c : Dev nD) : FVec Ideal S100000x1 .f32 := V c (Pipeline.arrRef spec10 1)
abbrev A2 (c : Dev nD) : FVec Ideal S1x128 .f32 := V c (Pipeline.arrRef spec10 2)
abbrev A3 (c : Dev nD) : FVec Ideal S1x128 .f32 := V c (Pipeline.arrRef spec10 3)
abbrev A4 (c : Dev nD) : FVec Ideal S1x128 .f32 := V c (Pipeline.arrRef spec10 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg10.N) :
    (dat10 V c).flushed 5 t = ((cfg10.win 5).blk t).view.read (Elt Ideal) (G V c) := by
  have hN : cfg10.N = 10 := N_10
  have ht : t.val < 10 := by have := t.isLt; omega
  obtain ⟨-, -, -, -, -, -, -, -, -, -, e0, e1⟩ := idx_facts t
  show (cfg10.win 5).cut (grid10.coords t) ((dat10 V c).after 5 t) = _
  rw [after10_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg10.win 5).blk t).view.emb (ix2 p q) = (ix2 r q : S100000x128.Idx) := by
    funext a; apply Fin.ext
    match a with
    | ⟨0, _⟩ => show win10_5.index t (0 : Fin 2) * 10000 + 1 * p.val = r.val; omega
    | ⟨1, _⟩ => show win10_5.index t (1 : Fin 2) * 128 + 1 * q.val = q.val; omega
  show out10_5 (iblk10 V c 0 t) (iblk10 V c 1 t) (iblk10 V c 2 t) (iblk10 V c 3 t) (iblk10 V c 4 t) (ix2 p q)
    = G V c (((cfg10.win 5).blk t).view.emb (ix2 p q))
  rw [hemb]
  refine (out_apply (iblk10 V c 0 t) (iblk10 V c 1 t) (iblk10 V c 2 t) (iblk10 V c 3 t) (iblk10 V c 4 t) p q).trans ?_
  refine Eq.trans ?_ (Cert.LN.lnElu_apply (A0 V c) (A1 V c) (A2 V c) (A3 V c) (A4 V c) r q).symm
  have h1 : Cert.LN.rowOf (iblk10 V c 0 t) (iblk10 V c 1 t) (iblk10 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk10 V c 3 t) = fun k => A3 V c (ix2 (0 : Fin 1) k) := by
    funext k
    unfold Cert.LN.chan
    rw [read3 V c t 0 k]
  have h4 : Cert.LN.chan (iblk10 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg10.N) (i : S100000x128.Idx) :
    i ∈ ((cfg10.win 5).blk t).view.set ↔ ∀ a : Fin 2, win10_5.index t a * S10000x128.size a ≤ (i a).val
      ∧ (i a).val < win10_5.index t a * S10000x128.size a + S10000x128.size a := by
  show i ∈ ((View.whole main_v164).slice (win10_5.rect t)).set ↔ _
  rw [View.set_slice_whole, Rect.mem_set_unit]
  exact Iff.rfl

/-- Row i is in the block of point i / 10000: the ten blocks cover the array. -/
theorem cover (i : S100000x128.Idx) :
    ∃ t : Fin cfg10.N, (cfg10.win 5).flush t = true ∧ i ∈ ((cfg10.win 5).blk t).view.set := by
  have hN : cfg10.N = 10 := N_10
  have hi0 : (i 0).val < 100000 := (i 0).isLt
  have hi1 : (i 1).val < 128 := (i 1).isLt
  obtain ⟨t, htv⟩ : ∃ t : Fin cfg10.N, t.val = (i 0).val / 10000 := ⟨⟨(i 0).val / 10000, by omega⟩, rfl⟩
  obtain ⟨-, -, -, -, -, -, -, -, -, -, e0, e1⟩ := idx_facts t
  refine ⟨t, flush10_5 t, ?_⟩
  rw [mem_blk]
  intro a
  match a with
  | ⟨0, _⟩ =>
    show win10_5.index t (0 : Fin 2) * 10000 ≤ (i 0).val ∧ (i 0).val < win10_5.index t (0 : Fin 2) * 10000 + 10000
    omega
  | ⟨1, _⟩ =>
    show win10_5.index t (1 : Fin 2) * 128 ≤ (i 1).val ∧ (i 1).val < win10_5.index t (1 : Fin 2) * 128 + 128
    omega

/-- After the region's write-backs the output array holds the reference's layer of the arrays as the region finds them. -/
theorem final (c : Dev nD) : (dat10 V c).arrAt 5 cfg10.N = G V c :=
  (dat10 V c).arrAt_eq_of_cover 5 (G V c) (fun t _ => flushed_eq V c t) cover

end Cert.KernelIdeal.Regions.R10

end
-- ==== Proof.LNRegion11.lean ====
/-
  Region 11: one launch of the scale-bias-normalize-activate body over a grid of 10 points, each point staging a block of
  10000 rows of the aggregate and of the scale column together with the whole bias, gain and shift rows, and writing
  back a block of 10000 rows of the output. The body's stored block is the row function Cert.LN.out of each of its rows;
  block t holds rows 10000 t … 10000 t + 9999 of the arrays, so what point t writes back is block t of the reference's
  layer applied to the whole arrays; the ten blocks cover the 100000 rows, so the output array ends holding that layer.
-/
import proofs.«165753_j16037407883756_1_alg».proof.Proof.Gen.KernelIdeal.Frame
import proofs.«165753_j16037407883756_1_alg».proof.Proof.LNPoint
import proofs.«165753_j16037407883756_1_alg».proof.Proof.LNSpec
import Idealize.ShloMosaic.Lib.Pipeline.Value

noncomputable section

namespace Cert.KernelIdeal.Regions.R11

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block is the block function of its loaded blocks: the same operations in the same order. -/
theorem pay_eq (v0 : Vec Ideal S10000x128 .f32) (v2 : Vec Ideal S10000x1 .f32) (v6 v30 v34 : Vec Ideal S1x128 .f32) :
    k11_pay1 (k11_pay2 v0 v2 v6 v30 v34) (k11_pay3 v0 v2 v6 v30 v34) (k11_pay4 v0 v2 v6 v30 v34) (k11_pay5 (F := Ideal))
      = Cert.LN.actBlock (Cert.LN.normBlock broadcasts_S10000x1_S10000x128 shapeCasts_S1x128_S1x128 broadcasts_S1x128_S10000x128
          reduces_S10000x128_S10000 (.inl rfl) rfl shapeCasts_S10000_S10000x1
          (Cert.LN.scaled shapeCasts_S10000x128_S10000x128 shapeCasts_S10000x1_S10000x1 broadcasts_S10000x1_S10000x128
            shapeCasts_S1x128_S1x128 broadcasts_S1x128_S10000x128 v0 v2 v6) v30 v34) := rfl

/-- What the body leaves in the output's staging buffer, at row p and channel q: the row function of row p of its input blocks. -/
theorem out_apply (x0 : Vec Ideal S10000x128 .f32) (x1 : Vec Ideal S10000x1 .f32) (x2 x3 x4 : Vec Ideal S1x128 .f32)
    (p : Fin 10000) (q : Fin 128) :
    out11_5 x0 x1 x2 x3 x4 (ix2 p q) = Cert.LN.out (Cert.LN.rowOf x0 x1 x2 p) (Cert.LN.chan x3) (Cert.LN.chan x4) q := by
  unfold out11_5
  rw [View.canon_unit_zero hz]
  simp only [View.ld_unit_zero (S := S10000x128) hz, View.ld_unit_zero (S := S10000x1) hz, View.ld_unit_zero (S := S1x128) hz]
  rw [pay_eq]
  exact Cert.LN.block_apply _ _ _ _ _ _ _ _ _ x0 x1 x2 x3 x4 p q

/-- The printed index maps, decided over the grid: the aggregate, the scale column and the output move one block of rows
    per point; the three rows stay. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The aggregate's block at point t holds rows 10000 t + p of the array. -/
theorem read0 (c : Dev nD) (t : Fin cfg11.N) (p : Fin 10000) (k : Fin 128) (r : Fin 100000) (hr : r.val = t.val * 10000 + p.val) :
    (iblk11 V c 0 t : Vec Ideal S10000x128 .f32) (ix2 p k) = (V c (Pipeline.arrRef spec11 0) : S100000x128.Idx → EReal) (ix2 r k) := by
  obtain ⟨e0, e1, -⟩ := idx_facts t
  show V c (Pipeline.arrRef spec11 0) (((cfg11.win 0).blk t).view.emb (ix2 p k)) = _
  refine congrArg (V c (Pipeline.arrRef spec11 0)) ?_
  funext a; apply Fin.ext
  match a with
  | ⟨0, _⟩ => show win11_0.index t (0 : Fin 2) * 10000 + 1 * p.val = r.val; omega
  | ⟨1, _⟩ => show win11_0.index t (1 : Fin 2) * 128 + 1 * k.val = k.val; omega

/-- The scale column's block at point t holds rows 10000 t + p of the column. -/
theorem read1 (c : Dev nD) (t : Fin cfg11.N) (p : Fin 10000) (u : Fin 1) (r : Fin 100000) (hr : r.val = t.val * 10000 + p.val) :
    (iblk11 V c 1 t : Vec Ideal S10000x1 .f32) (ix2 p u) = (V c (Pipeline.arrRef spec11 1) : S100000x1.Idx → EReal) (ix2 r u) := by
  obtain ⟨-, -, e0, e1, -⟩ := idx_facts t
  show V c (Pipeline.arrRef spec11 1) (((cfg11.win 1).blk t).view.emb (ix2 p u)) = _
  refine congrArg (V c (Pipeline.arrRef spec11 1)) ?_
  funext a; apply Fin.ext
  match a with
  | ⟨0, _⟩ => show win11_1.index t (0 : Fin 2) * 10000 + 1 * p.val = r.val; omega
  | ⟨1, _⟩ => show win11_1.index t (1 : Fin 2) * 1 + 1 * u.val = u.val; omega

/-- The bias row's block is the row at every point. -/
theorem read2 (c : Dev nD) (t : Fin cfg11.N) (u : Fin 1) (k : Fin 128) :
    (iblk11 V c 2 t : Vec Ideal S1x128 .f32) (ix2 u k) = (V c (Pipeline.arrRef spec11 2) : S1x128.Idx → EReal) (ix2 u k) := by
  obtain ⟨-, -, -, -, e0, e1, -⟩ := idx_facts t
  show V c (Pipeline.arrRef spec11 2) (((cfg11.win 2).blk t).view.emb (ix2 u k)) = _
  refine congrArg (V c (Pipeline.arrRef spec11 2)) ?_
  funext a; apply Fin.ext
  match a with
  | ⟨0, _⟩ => show win11_2.index t (0 : Fin 2) * 1 + 1 * u.val = u.val; omega
  | ⟨1, _⟩ => show win11_2.index t (1 : Fin 2) * 128 + 1 * k.val = k.val; omega

/-- The gain row's block is the row at every point. -/
theorem read3 (c : Dev nD) (t : Fin cfg11.N) (u : Fin 1) (k : Fin 128) :
    (iblk11 V c 3 t : Vec Ideal S1x128 .f32) (ix2 u k) = (V c (Pipeline.arrRef spec11 3) : S1x128.Idx → EReal) (ix2 u k) := by
  obtain ⟨-, -, -, -, -, -, e0, e1, -⟩ := idx_facts t
  show V c (Pipeline.arrRef spec11 3) (((cfg11.win 3).blk t).view.emb (ix2 u k)) = _
  refine congrArg (V c (Pipeline.arrRef spec11 3)) ?_
  funext a; apply Fin.ext
  match a with
  | ⟨0, _⟩ => show win11_3.index t (0 : Fin 2) * 1 + 1 * u.val = u.val; omega
  | ⟨1, _⟩ => show win11_3.index t (1 : Fin 2) * 128 + 1 * k.val = k.val; omega

/-- The shift row's block is the row at every point. -/
theorem read4 (c : Dev nD) (t : Fin cfg11.N) (u : Fin 1) (k : Fin 128) :
    (iblk11 V c 4 t : Vec Ideal S1x128 .f32) (ix2 u k) = (V c (Pipeline.arrRef spec11 4) : S1x128.Idx → EReal) (ix2 u k) := by
  obtain ⟨-, -, -, -, -, -, -, -, e0, e1, -⟩ := idx_facts t
  show V c (Pipeline.arrRef spec11 4) (((cfg11.win 4).blk t).view.emb (ix2 u k)) = _
  refine congrArg (V c (Pipeline.arrRef spec11 4)) ?_
  funext a; apply Fin.ext
  match a with
  | ⟨0, _⟩ => show win11_4.index t (0 : Fin 2) * 1 + 1 * u.val = u.val; omega
  | ⟨1, _⟩ => show win11_4.index t (1 : Fin 2) * 128 + 1 * k.val = k.val; omega

/-- The five input arrays as the region finds them: the aggregate, the scale column, the bias, gain and shift rows. -/
abbrev A0 (c : Dev nD) : FVec Ideal S100000x128 .f32 := V c (Pipeline.arrRef spec11 0)
abbrev A1 (c : Dev nD) : FVec Ideal S100000x1 .f32 := V c (Pipeline.arrRef spec11 1)
abbrev A2 (c : Dev nD) : FVec Ideal S1x128 .f32 := V c (Pipeline.arrRef spec11 2)
abbrev A3 (c : Dev nD) : FVec Ideal S1x128 .f32 := V c (Pipeline.arrRef spec11 3)
abbrev A4 (c : Dev nD) : FVec Ideal S1x128 .f32 := V c (Pipeline.arrRef spec11 4)

/-- The reference's layer applied to the arrays as the region finds them. -/
abbrev G (c : Dev nD) : S100000x128.Idx → EReal :=
  Cert.Spec.lnElu (F := Ideal) (A0 V c) (A1 V c) (A2 V c) (A3 V c) (A4 V c)

/-- What point t writes back is block t of the layer of the whole arrays. -/
theorem flushed_eq (c : Dev nD) (t : Fin cfg11.N) :
    (dat11 V c).flushed 5 t = ((cfg11.win 5).blk t).view.read (Elt Ideal) (G V c) := by
  have hN : cfg11.N = 10 := N_11
  have ht : t.val < 10 := by have := t.isLt; omega
  obtain ⟨-, -, -, -, -, -, -, -, -, -, e0, e1⟩ := idx_facts t
  show (cfg11.win 5).cut (grid11.coords t) ((dat11 V c).after 5 t) = _
  rw [after11_5]
  funext y
  obtain ⟨p, q, rfl⟩ : ∃ (p : Fin 10000) (q : Fin 128), y = ix2 p q := ⟨y 0, y 1, eq_ix2 y⟩
  have hp : p.val < 10000 := p.isLt
  obtain ⟨r, hr⟩ : ∃ r : Fin 100000, r.val = t.val * 10000 + p.val := ⟨⟨t.val * 10000 + p.val, by omega⟩, rfl⟩
  have hemb : ((cfg11.win 5).blk t).view.emb (ix2 p q) = (ix2 r q : S100000x128.Idx) := by
    funext a; apply Fin.ext
    match a with
    | ⟨0, _⟩ => show win11_5.index t (0 : Fin 2) * 10000 + 1 * p.val = r.val; omega
    | ⟨1, _⟩ => show win11_5.index t (1 : Fin 2) * 128 + 1 * q.val = q.val; omega
  show out11_5 (iblk11 V c 0 t) (iblk11 V c 1 t) (iblk11 V c 2 t) (iblk11 V c 3 t) (iblk11 V c 4 t) (ix2 p q)
    = G V c (((cfg11.win 5).blk t).view.emb (ix2 p q))
  rw [hemb]
  refine (out_apply (iblk11 V c 0 t) (iblk11 V c 1 t) (iblk11 V c 2 t) (iblk11 V c 3 t) (iblk11 V c 4 t) p q).trans ?_
  refine Eq.trans ?_ (Cert.LN.lnElu_apply (A0 V c) (A1 V c) (A2 V c) (A3 V c) (A4 V c) r q).symm
  have h1 : Cert.LN.rowOf (iblk11 V c 0 t) (iblk11 V c 1 t) (iblk11 V c 2 t) p
      = fun k => A0 V c (ix2 r k) * A1 V c (ix2 r (0 : Fin 1)) + A2 V c (ix2 (0 : Fin 1) k) := by
    funext k
    unfold Cert.LN.rowOf
    rw [read0 V c t p k r hr, read1 V c t p 0 r hr, read2 V c t 0 k]
  have h3 : Cert.LN.chan (iblk11 V c 3 t) = fun k => A3 V c (ix2 (0 : Fin 1) k) := by
    funext k
    unfold Cert.LN.chan
    rw [read3 V c t 0 k]
  have h4 : Cert.LN.chan (iblk11 V c 4 t) = fun k => A4 V c (ix2 (0 : Fin 1) k) := by
    funext k
    unfold Cert.LN.chan
    rw [read4 V c t 0 k]
  rw [h1, h3, h4]

/-- An index of the output array is in point t's block iff each coordinate is in the block's range on its axis. -/
theorem mem_blk (t : Fin cfg11.N) (i : S100000x128.Idx) :
    i ∈ ((cfg11.win 5).blk t).view.set ↔ ∀ a : Fin 2, win11_5.index t a * S10000x128.size a ≤ (i a).val
      ∧ (i a).val < win11_5.index t a * S10000x128.size a + S10000x128.size a := by
  show i ∈ ((View.whole main_v173).slice (win11_5.rect t)).set ↔ _
  rw [View.set_slice_whole, Rect.mem_set_unit]
  exact Iff.rfl

/-- Row i is in the block of point i / 10000: the ten blocks cover the array. -/
theorem cover (i : S100000x128.Idx) :
    ∃ t : Fin cfg11.N, (cfg11.win 5).flush t = true ∧ i ∈ ((cfg11.win 5).blk t).view.set := by
  have hN : cfg11.N = 10 := N_11
  have hi0 : (i 0).val < 100000 := (i 0).isLt
  have hi1 : (i 1).val < 128 := (i 1).isLt
  obtain ⟨t, htv⟩ : ∃ t : Fin cfg11.N, t.val = (i 0).val / 10000 := ⟨⟨(i 0).val / 10000, by omega⟩, rfl⟩
  obtain ⟨-, -, -, -, -, -, -, -, -, -, e0, e1⟩ := idx_facts t
  refine ⟨t, flush11_5 t, ?_⟩
  rw [mem_blk]
  intro a
  match a with
  | ⟨0, _⟩ =>
    show win11_5.index t (0 : Fin 2) * 10000 ≤ (i 0).val ∧ (i 0).val < win11_5.index t (0 : Fin 2) * 10000 + 10000
    omega
  | ⟨1, _⟩ =>
    show win11_5.index t (1 : Fin 2) * 128 ≤ (i 1).val ∧ (i 1).val < win11_5.index t (1 : Fin 2) * 128 + 128
    omega

/-- After the region's write-backs the output array holds the reference's layer of the arrays as the region finds them. -/
theorem final (c : Dev nD) : (dat11 V c).arrAt 5 cfg11.N = G V c :=
  (dat11 V c).arrAt_eq_of_cover 5 (G V c) (fun t _ => flushed_eq V c t) cover

end Cert.KernelIdeal.Regions.R11

end
-- ==== Proof.RegionsLN.lean ====
/-
  The six scale-bias-normalize-activate regions of the idealized kernel, each as one equation: after the region's
  write-backs its output array holds the reference's layer — the aggregate scaled row by row by the scale column, plus
  the bias row, layer-normalized over the 128 channels with the gain and shift rows, then the exponential linear unit —
  applied to the five input arrays as the region finds them. Each is its region's blocks-to-array theorem restated.
-/
import proofs.«165753_j16037407883756_1_alg».proof.Proof.LNRegion2
import proofs.«165753_j16037407883756_1_alg».proof.Proof.LNRegion3
import proofs.«165753_j16037407883756_1_alg».proof.Proof.LNRegion6
import proofs.«165753_j16037407883756_1_alg».proof.Proof.LNRegion7
import proofs.«165753_j16037407883756_1_alg».proof.Proof.LNRegion10
import proofs.«165753_j16037407883756_1_alg».proof.Proof.LNRegion11

noncomputable section

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Region 2: the output array after the region is the layer of the region's five input arrays. -/
theorem region2_out (c : Dev nD) :
    (Cert.KernelIdeal.Gen.dat2 (F := Ideal) V c).arrAt 5 Cert.KernelIdeal.cfg2.N
      = Cert.Spec.lnElu (F := Ideal) (V c (Pipeline.arrRef spec2 0)) (V c (Pipeline.arrRef spec2 1))
          (V c (Pipeline.arrRef spec2 2)) (V c (Pipeline.arrRef spec2 3)) (V c (Pipeline.arrRef spec2 4)) :=
  R2.final V c

/-- Region 3: the output array after the region is the layer of the region's five input arrays. -/
theorem region3_out (c : Dev nD) :
    (Cert.KernelIdeal.Gen.dat3 (F := Ideal) V c).arrAt 5 Cert.KernelIdeal.cfg3.N
      = Cert.Spec.lnElu (F := Ideal) (V c (Pipeline.arrRef spec3 0)) (V c (Pipeline.arrRef spec3 1))
          (V c (Pipeline.arrRef spec3 2)) (V c (Pipeline.arrRef spec3 3)) (V c (Pipeline.arrRef spec3 4)) :=
  R3.final V c

/-- Region 6: the output array after the region is the layer of the region's five input arrays. -/
theorem region6_out (c : Dev nD) :
    (Cert.KernelIdeal.Gen.dat6 (F := Ideal) V c).arrAt 5 Cert.KernelIdeal.cfg6.N
      = Cert.Spec.lnElu (F := Ideal) (V c (Pipeline.arrRef spec6 0)) (V c (Pipeline.arrRef spec6 1))
          (V c (Pipeline.arrRef spec6 2)) (V c (Pipeline.arrRef spec6 3)) (V c (Pipeline.arrRef spec6 4)) :=
  R6.final V c

/-- Region 7: the output array after the region is the layer of the region's five input arrays. -/
theorem region7_out (c : Dev nD) :
    (Cert.KernelIdeal.Gen.dat7 (F := Ideal) V c).arrAt 5 Cert.KernelIdeal.cfg7.N
      = Cert.Spec.lnElu (F := Ideal) (V c (Pipeline.arrRef spec7 0)) (V c (Pipeline.arrRef spec7 1))
          (V c (Pipeline.arrRef spec7 2)) (V c (Pipeline.arrRef spec7 3)) (V c (Pipeline.arrRef spec7 4)) :=
  R7.final V c

/-- Region 10: the output array after the region is the layer of the region's five input arrays. -/
theorem region10_out (c : Dev nD) :
    (Cert.KernelIdeal.Gen.dat10 (F := Ideal) V c).arrAt 5 Cert.KernelIdeal.cfg10.N
      = Cert.Spec.lnElu (F := Ideal) (V c (Pipeline.arrRef spec10 0)) (V c (Pipeline.arrRef spec10 1))
          (V c (Pipeline.arrRef spec10 2)) (V c (Pipeline.arrRef spec10 3)) (V c (Pipeline.arrRef spec10 4)) :=
  R10.final V c

/-- Region 11: the output array after the region is the layer of the region's five input arrays. -/
theorem region11_out (c : Dev nD) :
    (Cert.KernelIdeal.Gen.dat11 (F := Ideal) V c).arrAt 5 Cert.KernelIdeal.cfg11.N
      = Cert.Spec.lnElu (F := Ideal) (V c (Pipeline.arrRef spec11 0)) (V c (Pipeline.arrRef spec11 1))
          (V c (Pipeline.arrRef spec11 2)) (V c (Pipeline.arrRef spec11 3)) (V c (Pipeline.arrRef spec11 4)) :=
  R11.final V c

end Cert.KernelIdeal.Regions

end
-- ==== Proof.KStep6.lean ====
/-
  One step of the kernel's boundary chain: from what is known at boundary 5 (the argument arrays as launched; each live buffer at
  its intermediate array of the computation) to the same at boundary 6, across region 2 (its output's closed form; the rest is none of its arrays, or an input window's array, which is not written back).
-/
import proofs.«165753_j16037407883756_1_alg».proof.Proof.KRegArgs2
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step6 (A : Cert.Net.Args Ideal)
    (h : argsOf (W5 m ρ c) = A
      ∧ W5 m ρ c (Proc.devRef .tc main_v45) = Cert.Net.aggN1 A
      ∧ W5 m ρ c (Proc.devRef .tc main_v55) = Cert.Net.aggL1 A
      ∧ W5 m ρ c (Proc.devRef .tc main_v60) = col (Cert.Net.cdLN A)
      ∧ W5 m ρ c (Proc.devRef .tc main_v61) = row A.a7
      ∧ W5 m ρ c (Proc.devRef .tc main_v62) = row (ln3_0 A.a14)
      ∧ W5 m ρ c (Proc.devRef .tc main_v63) = row (ln3_0 A.a15)
      ∧ W5 m ρ c (Proc.devRef .tc main_v7) = Cert.Net.csLN A
      ∧ W5 m ρ c (Proc.devRef .tc main_v15) = Cert.Net.cdLN A
      ∧ W5 m ρ c (Proc.devRef .tc main_v23) = Cert.Net.csNL A
      ∧ W5 m ρ c (Proc.devRef .tc main_v31) = Cert.Net.cdNL A) :
    argsOf (W6 m ρ c) = A
    ∧ W6 m ρ c (Proc.devRef .tc main_v64) = Cert.Net.hn1 A
    ∧ W6 m ρ c (Proc.devRef .tc main_v55) = Cert.Net.aggL1 A
    ∧ W6 m ρ c (Proc.devRef .tc main_v7) = Cert.Net.csLN A
    ∧ W6 m ρ c (Proc.devRef .tc main_v15) = Cert.Net.cdLN A
    ∧ W6 m ρ c (Proc.devRef .tc main_v23) = Cert.Net.csNL A
    ∧ W6 m ρ c (Proc.devRef .tc main_v31) = Cert.Net.cdNL A := by
  obtain ⟨ha5, h5_v45, h5_v55, h5_v60, h5_v61, h5_v62, h5_v63, h5_v7, h5_v15, h5_v23, h5_v31⟩ := h
  have ha6 : argsOf (W6 m ρ c) = A := (args_reg2 m ρ c).trans ha5
  have g6_0 : V5 m ρ c (Pipeline.arrRef spec2 0) = Cert.Net.aggN1 A := h5_v45
  have g6_1 : V5 m ρ c (Pipeline.arrRef spec2 1) = col (Cert.Net.cdLN A) := h5_v60
  have g6_2 : V5 m ρ c (Pipeline.arrRef spec2 2) = row A.a7 := h5_v61
  have g6_3 : V5 m ρ c (Pipeline.arrRef spec2 3) = row (ln3_0 A.a14) := h5_v62
  have g6_4 : V5 m ρ c (Pipeline.arrRef spec2 4) = row (ln3_0 A.a15) := h5_v63
  have h6_v64 : W6 m ρ c (Proc.devRef .tc main_v64) = Cert.Net.hn1 A :=
    (W6_arr m ρ c 5).trans ((Cert.KernelIdeal.Regions.region2_out (V5 m ρ) c).trans ((congr (congr (congr (congr (congrArg (Cert.Spec.lnElu (F := Ideal)) g6_0) g6_1) g6_2) g6_3) g6_4).trans rfl))
  have h6_v55 : W6 m ρ c (Proc.devRef .tc main_v55) = Cert.Net.aggL1 A :=
    (W6_of_ne m ρ c main_v55 (by decide)).trans h5_v55
  have h6_v7 : W6 m ρ c (Proc.devRef .tc main_v7) = Cert.Net.csLN A :=
    (W6_of_ne m ρ c main_v7 (by decide)).trans h5_v7
  have h6_v15 : W6 m ρ c (Proc.devRef .tc main_v15) = Cert.Net.cdLN A :=
    (W6_of_ne m ρ c main_v15 (by decide)).trans h5_v15
  have h6_v23 : W6 m ρ c (Proc.devRef .tc main_v23) = Cert.Net.csNL A :=
    (W6_of_ne m ρ c main_v23 (by decide)).trans h5_v23
  have h6_v31 : W6 m ρ c (Proc.devRef .tc main_v31) = Cert.Net.cdNL A :=
    (W6_of_ne m ρ c main_v31 (by decide)).trans h5_v31
  exact ⟨ha6, h6_v64, h6_v55, h6_v7, h6_v15, h6_v23, h6_v31⟩

end Cert.KernelIdeal.Stages

end
-- ==== Proof.KStage_h3.lean ====
/-
  A host stretch of the kernel program (h3): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h3 : List (Ref sig .tc) :=
  [ main_v65, main_v66, main_v67, main_v68, main_v69, main_v70, main_v71, main_v72 ]

theorem writes_h3 : (hostOps3 : List (HloOp τ sig (Elt F))).Forall fun op => op.writes ⊆ (written_h3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h3 (V : Valuation τ sig (Elt F)) {r : Ref sig .tc} (h : r ∉ written_h3) :
    after hostOps3 V (Proc.devRef .tc r) = V (Proc.devRef .tc r) := after_of_writes_sub hostOps3 V writes_h3 h

/-- The stretch leaves the argument arrays as it found them. -/
theorem args_h3 (V : Valuation τ sig (Elt F)) : argsOf (after hostOps3 V) = argsOf V := by
  simp only [argsOf, keep_h3 V (r := main_arg0) (by decide), keep_h3 V (r := main_arg1) (by decide), keep_h3 V (r := main_arg2) (by decide), keep_h3 V (r := main_arg3) (by decide), keep_h3 V (r := main_arg4) (by decide), keep_h3 V (r := main_arg5) (by decide), keep_h3 V (r := main_arg6) (by decide), keep_h3 V (r := main_arg7) (by decide), keep_h3 V (r := main_arg8) (by decide), keep_h3 V (r := main_arg9) (by decide), keep_h3 V (r := main_arg10) (by decide), keep_h3 V (r := main_arg11) (by decide), keep_h3 V (r := main_arg12) (by decide), keep_h3 V (r := main_arg13) (by decide), keep_h3 V (r := main_arg14) (by decide), keep_h3 V (r := main_arg15) (by decide), keep_h3 V (r := main_arg16) (by decide), keep_h3 V (r := main_arg17) (by decide), keep_h3 V (r := main_arg18) (by decide), keep_h3 V (r := main_arg19) (by decide), keep_h3 V (r := main_arg20) (by decide), keep_h3 V (r := main_arg21) (by decide), keep_h3 V (r := main_arg22) (by decide), keep_h3 V (r := main_arg23) (by decide), keep_h3 V (r := main_arg24) (by decide), keep_h3 V (r := main_arg25) (by decide), keep_h3 V (r := main_arg26) (by decide), keep_h3 V (r := main_arg27) (by decide), keep_h3 V (r := main_arg28) (by decide), keep_h3 V (r := main_arg29) (by decide), keep_h3 V (r := main_arg30) (by decide), keep_h3 V (r := main_arg31) (by decide), keep_h3 V (r := main_arg32) (by decide), keep_h3 V (r := main_arg33) (by decide)]

attribute [local irreducible] Host.reduceAdd Host.gather Host.scatterAdd in
set_option maxRecDepth 16384 in
set_option maxHeartbeats 4000000 in
theorem out_h3_v69 (V : Valuation τ sig (Elt F)) :
    after hostOps3 V (Proc.devRef .tc main_v69) = col (V (Proc.devRef .tc main_v31)) := by
  simp only [after_cons, after_nil]
  exact Eq.trans rfl (Cert.Glue.col_eq 100000 (V (Proc.devRef .tc main_v31)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h3_v70 (V : Valuation τ sig (Elt F)) :
    after hostOps3 V (Proc.devRef .tc main_v70) = row (argsOf V).a9 := by
  simp only [after_cons, after_nil]
  exact Eq.trans rfl (Cert.Glue.row_eq 128 (argsOf V).a9 shapeCasts_S128_S1x128 Cert.ReferenceIdeal.Gen.bcast_S128_S1x128_1)

attribute [local irreducible] Host.reduceAdd Host.gather Host.scatterAdd in
set_option maxRecDepth 16384 in
set_option maxHeartbeats 4000000 in
theorem out_h3_v71 (V : Valuation τ sig (Elt F)) :
    after hostOps3 V (Proc.devRef .tc main_v71) = row (ln3_0 (argsOf V).a16) := by
  simp only [after_cons, after_nil]
  exact Eq.trans rfl (Cert.Glue.row_eq 128 (ln3_0 (argsOf V).a16) shapeCasts_S128_S1x128 Cert.ReferenceIdeal.Gen.bcast_S128_S1x128_1)

attribute [local irreducible] Host.reduceAdd Host.gather Host.scatterAdd in
set_option maxRecDepth 16384 in
set_option maxHeartbeats 4000000 in
theorem out_h3_v72 (V : Valuation τ sig (Elt F)) :
    after hostOps3 V (Proc.devRef .tc main_v72) = row (ln3_0 (argsOf V).a17) := by
  simp only [after_cons, after_nil]
  exact Eq.trans rfl (Cert.Glue.row_eq 128 (ln3_0 (argsOf V).a17) shapeCasts_S128_S1x128 Cert.ReferenceIdeal.Gen.bcast_S128_S1x128_1)

end Cert.KernelIdeal.Stages

end
-- ==== Proof.KStep7.lean ====
/-
  One step of the kernel's boundary chain: from what is known at boundary 6 (the argument arrays as launched; each live buffer at
  its intermediate array of the computation) to the same at boundary 7, across host stretch 3 (its stage equations; the rest kept).
-/
import proofs.«165753_j16037407883756_1_alg».proof.Proof.KStage_h3
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step7 (A : Cert.Net.Args Ideal)
    (h : argsOf (W6 m ρ c) = A
      ∧ W6 m ρ c (Proc.devRef .tc main_v64) = Cert.Net.hn1 A
      ∧ W6 m ρ c (Proc.devRef .tc main_v55) = Cert.Net.aggL1 A
      ∧ W6 m ρ c (Proc.devRef .tc main_v7) = Cert.Net.csLN A
      ∧ W6 m ρ c (Proc.devRef .tc main_v15) = Cert.Net.cdLN A
      ∧ W6 m ρ c (Proc.devRef .tc main_v23) = Cert.Net.csNL A
      ∧ W6 m ρ c (Proc.devRef .tc main_v31) = Cert.Net.cdNL A) :
    argsOf (W7 m ρ c) = A
    ∧ W7 m ρ c (Proc.devRef .tc main_v69) = col (Cert.Net.cdNL A)
    ∧ W7 m ρ c (Proc.devRef .tc main_v70) = row A.a9
    ∧ W7 m ρ c (Proc.devRef .tc main_v71) = row (ln3_0 A.a16)
    ∧ W7 m ρ c (Proc.devRef .tc main_v72) = row (ln3_0 A.a17)
    ∧ W7 m ρ c (Proc.devRef .tc main_v64) = Cert.Net.hn1 A
    ∧ W7 m ρ c (Proc.devRef .tc main_v55) = Cert.Net.aggL1 A
    ∧ W7 m ρ c (Proc.devRef .tc main_v7) = Cert.Net.csLN A
    ∧ W7 m ρ c (Proc.devRef .tc main_v15) = Cert.Net.cdLN A
    ∧ W7 m ρ c (Proc.devRef .tc main_v23) = Cert.Net.csNL A
    ∧ W7 m ρ c (Proc.devRef .tc main_v31) = Cert.Net.cdNL A := by
  obtain ⟨ha6, h6_v64, h6_v55, h6_v7, h6_v15, h6_v23, h6_v31⟩ := h
  have ha7 : argsOf (W7 m ρ c) = A := (args_h3 (W6 m ρ c)).trans ha6
  have h7_v69 : W7 m ρ c (Proc.devRef .tc main_v69) = col (Cert.Net.cdNL A) := by
    refine (out_h3_v69 (W6 m ρ c)).trans ?_
    (try simp only [h6_v31]); (try rfl)
  have e7_9 : W6 m ρ c (Proc.devRef .tc main_arg9) = A.a9 := congrArg (fun X : Cert.Net.Args Ideal => X.a9) ha6
  have h7_v70 : W7 m ρ c (Proc.devRef .tc main_v70) = row A.a9 := by
    refine (out_h3_v70 (W6 m ρ c)).trans ?_
    (try simp only [e7_9]); (try rfl)
  have e7_16 : W6 m ρ c (Proc.devRef .tc main_arg16) = A.a16 := congrArg (fun X : Cert.Net.Args Ideal => X.a16) ha6
  have h7_v71 : W7 m ρ c (Proc.devRef .tc main_v71) = row (ln3_0 A.a16) := by
    refine (out_h3_v71 (W6 m ρ c)).trans ?_
    (try simp only [e7_16]); (try rfl)
  have e7_17 : W6 m ρ c (Proc.devRef .tc main_arg17) = A.a17 := congrArg (fun X : Cert.Net.Args Ideal => X.a17) ha6
  have h7_v72 : W7 m ρ c (Proc.devRef .tc main_v72) = row (ln3_0 A.a17) := by
    refine (out_h3_v72 (W6 m ρ c)).trans ?_
    (try simp only [e7_17]); (try rfl)
  have h7_v64 : W7 m ρ c (Proc.devRef .tc main_v64) = Cert.Net.hn1 A :=
    (keep_h3 (W6 m ρ c) (by decide)).trans h6_v64
  have h7_v55 : W7 m ρ c (Proc.devRef .tc main_v55) = Cert.Net.aggL1 A :=
    (keep_h3 (W6 m ρ c) (by decide)).trans h6_v55
  have h7_v7 : W7 m ρ c (Proc.devRef .tc main_v7) = Cert.Net.csLN A :=
    (keep_h3 (W6 m ρ c) (by decide)).trans h6_v7
  have h7_v15 : W7 m ρ c (Proc.devRef .tc main_v15) = Cert.Net.cdLN A :=
    (keep_h3 (W6 m ρ c) (by decide)).trans h6_v15
  have h7_v23 : W7 m ρ c (Proc.devRef .tc main_v23) = Cert.Net.csNL A :=
    (keep_h3 (W6 m ρ c) (by decide)).trans h6_v23
  have h7_v31 : W7 m ρ c (Proc.devRef .tc main_v31) = Cert.Net.cdNL A :=
    (keep_h3 (W6 m ρ c) (by decide)).trans h6_v31
  exact ⟨ha7, h7_v69, h7_v70, h7_v71, h7_v72, h7_v64, h7_v55, h7_v7, h7_v15, h7_v23, h7_v31⟩

end Cert.KernelIdeal.Stages

end
-- ==== Proof.KRegArgs3.lean ====
/-
  Region 3 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg3_arg0 (c : Dev nD) : W8 m ρ c (Proc.devRef .tc main_arg0) = W7 m ρ c (Proc.devRef .tc main_arg0) :=
  W8_of_ne m ρ c main_arg0 (by decide)
theorem reg3_arg1 (c : Dev nD) : W8 m ρ c (Proc.devRef .tc main_arg1) = W7 m ρ c (Proc.devRef .tc main_arg1) :=
  W8_of_ne m ρ c main_arg1 (by decide)
theorem reg3_arg2 (c : Dev nD) : W8 m ρ c (Proc.devRef .tc main_arg2) = W7 m ρ c (Proc.devRef .tc main_arg2) :=
  W8_of_ne m ρ c main_arg2 (by decide)
theorem reg3_arg3 (c : Dev nD) : W8 m ρ c (Proc.devRef .tc main_arg3) = W7 m ρ c (Proc.devRef .tc main_arg3) :=
  W8_of_ne m ρ c main_arg3 (by decide)
theorem reg3_arg4 (c : Dev nD) : W8 m ρ c (Proc.devRef .tc main_arg4) = W7 m ρ c (Proc.devRef .tc main_arg4) :=
  W8_of_ne m ρ c main_arg4 (by decide)
theorem reg3_arg5 (c : Dev nD) : W8 m ρ c (Proc.devRef .tc main_arg5) = W7 m ρ c (Proc.devRef .tc main_arg5) :=
  W8_of_ne m ρ c main_arg5 (by decide)
theorem reg3_arg6 (c : Dev nD) : W8 m ρ c (Proc.devRef .tc main_arg6) = W7 m ρ c (Proc.devRef .tc main_arg6) :=
  W8_of_ne m ρ c main_arg6 (by decide)
theorem reg3_arg7 (c : Dev nD) : W8 m ρ c (Proc.devRef .tc main_arg7) = W7 m ρ c (Proc.devRef .tc main_arg7) :=
  W8_of_ne m ρ c main_arg7 (by decide)
theorem reg3_arg8 (c : Dev nD) : W8 m ρ c (Proc.devRef .tc main_arg8) = W7 m ρ c (Proc.devRef .tc main_arg8) :=
  W8_of_ne m ρ c main_arg8 (by decide)
theorem reg3_arg9 (c : Dev nD) : W8 m ρ c (Proc.devRef .tc main_arg9) = W7 m ρ c (Proc.devRef .tc main_arg9) :=
  W8_of_ne m ρ c main_arg9 (by decide)
theorem reg3_arg10 (c : Dev nD) : W8 m ρ c (Proc.devRef .tc main_arg10) = W7 m ρ c (Proc.devRef .tc main_arg10) :=
  W8_of_ne m ρ c main_arg10 (by decide)
theorem reg3_arg11 (c : Dev nD) : W8 m ρ c (Proc.devRef .tc main_arg11) = W7 m ρ c (Proc.devRef .tc main_arg11) :=
  W8_of_ne m ρ c main_arg11 (by decide)
theorem reg3_arg12 (c : Dev nD) : W8 m ρ c (Proc.devRef .tc main_arg12) = W7 m ρ c (Proc.devRef .tc main_arg12) :=
  W8_of_ne m ρ c main_arg12 (by decide)
theorem reg3_arg13 (c : Dev nD) : W8 m ρ c (Proc.devRef .tc main_arg13) = W7 m ρ c (Proc.devRef .tc main_arg13) :=
  W8_of_ne m ρ c main_arg13 (by decide)
theorem reg3_arg14 (c : Dev nD) : W8 m ρ c (Proc.devRef .tc main_arg14) = W7 m ρ c (Proc.devRef .tc main_arg14) :=
  W8_of_ne m ρ c main_arg14 (by decide)
theorem reg3_arg15 (c : Dev nD) : W8 m ρ c (Proc.devRef .tc main_arg15) = W7 m ρ c (Proc.devRef .tc main_arg15) :=
  W8_of_ne m ρ c main_arg15 (by decide)
theorem reg3_arg16 (c : Dev nD) : W8 m ρ c (Proc.devRef .tc main_arg16) = W7 m ρ c (Proc.devRef .tc main_arg16) :=
  W8_of_ne m ρ c main_arg16 (by decide)
theorem reg3_arg17 (c : Dev nD) : W8 m ρ c (Proc.devRef .tc main_arg17) = W7 m ρ c (Proc.devRef .tc main_arg17) :=
  W8_of_ne m ρ c main_arg17 (by decide)
theorem reg3_arg18 (c : Dev nD) : W8 m ρ c (Proc.devRef .tc main_arg18) = W7 m ρ c (Proc.devRef .tc main_arg18) :=
  W8_of_ne m ρ c main_arg18 (by decide)
theorem reg3_arg19 (c : Dev nD) : W8 m ρ c (Proc.devRef .tc main_arg19) = W7 m ρ c (Proc.devRef .tc main_arg19) :=
  W8_of_ne m ρ c main_arg19 (by decide)
theorem reg3_arg20 (c : Dev nD) : W8 m ρ c (Proc.devRef .tc main_arg20) = W7 m ρ c (Proc.devRef .tc main_arg20) :=
  W8_of_ne m ρ c main_arg20 (by decide)
theorem reg3_arg21 (c : Dev nD) : W8 m ρ c (Proc.devRef .tc main_arg21) = W7 m ρ c (Proc.devRef .tc main_arg21) :=
  W8_of_ne m ρ c main_arg21 (by decide)
theorem reg3_arg22 (c : Dev nD) : W8 m ρ c (Proc.devRef .tc main_arg22) = W7 m ρ c (Proc.devRef .tc main_arg22) :=
  W8_of_ne m ρ c main_arg22 (by decide)
theorem reg3_arg23 (c : Dev nD) : W8 m ρ c (Proc.devRef .tc main_arg23) = W7 m ρ c (Proc.devRef .tc main_arg23) :=
  W8_of_ne m ρ c main_arg23 (by decide)
theorem reg3_arg24 (c : Dev nD) : W8 m ρ c (Proc.devRef .tc main_arg24) = W7 m ρ c (Proc.devRef .tc main_arg24) :=
  W8_of_ne m ρ c main_arg24 (by decide)
theorem reg3_arg25 (c : Dev nD) : W8 m ρ c (Proc.devRef .tc main_arg25) = W7 m ρ c (Proc.devRef .tc main_arg25) :=
  W8_of_ne m ρ c main_arg25 (by decide)
theorem reg3_arg26 (c : Dev nD) : W8 m ρ c (Proc.devRef .tc main_arg26) = W7 m ρ c (Proc.devRef .tc main_arg26) :=
  W8_of_ne m ρ c main_arg26 (by decide)
theorem reg3_arg27 (c : Dev nD) : W8 m ρ c (Proc.devRef .tc main_arg27) = W7 m ρ c (Proc.devRef .tc main_arg27) :=
  W8_of_ne m ρ c main_arg27 (by decide)
theorem reg3_arg28 (c : Dev nD) : W8 m ρ c (Proc.devRef .tc main_arg28) = W7 m ρ c (Proc.devRef .tc main_arg28) :=
  W8_of_ne m ρ c main_arg28 (by decide)
theorem reg3_arg29 (c : Dev nD) : W8 m ρ c (Proc.devRef .tc main_arg29) = W7 m ρ c (Proc.devRef .tc main_arg29) :=
  W8_of_ne m ρ c main_arg29 (by decide)
theorem reg3_arg30 (c : Dev nD) : W8 m ρ c (Proc.devRef .tc main_arg30) = W7 m ρ c (Proc.devRef .tc main_arg30) :=
  W8_of_ne m ρ c main_arg30 (by decide)
theorem reg3_arg31 (c : Dev nD) : W8 m ρ c (Proc.devRef .tc main_arg31) = W7 m ρ c (Proc.devRef .tc main_arg31) :=
  W8_of_ne m ρ c main_arg31 (by decide)
theorem reg3_arg32 (c : Dev nD) : W8 m ρ c (Proc.devRef .tc main_arg32) = W7 m ρ c (Proc.devRef .tc main_arg32) :=
  W8_of_ne m ρ c main_arg32 (by decide)
theorem reg3_arg33 (c : Dev nD) : W8 m ρ c (Proc.devRef .tc main_arg33) = W7 m ρ c (Proc.devRef .tc main_arg33) :=
  W8_of_ne m ρ c main_arg33 (by decide)

theorem args_reg3 (c : Dev nD) : argsOf (W8 m ρ c) = argsOf (W7 m ρ c) := by
  simp only [argsOf, reg3_arg0 m ρ c, reg3_arg1 m ρ c, reg3_arg2 m ρ c, reg3_arg3 m ρ c, reg3_arg4 m ρ c, reg3_arg5 m ρ c, reg3_arg6 m ρ c, reg3_arg7 m ρ c, reg3_arg8 m ρ c, reg3_arg9 m ρ c, reg3_arg10 m ρ c, reg3_arg11 m ρ c, reg3_arg12 m ρ c, reg3_arg13 m ρ c, reg3_arg14 m ρ c, reg3_arg15 m ρ c, reg3_arg16 m ρ c, reg3_arg17 m ρ c, reg3_arg18 m ρ c, reg3_arg19 m ρ c, reg3_arg20 m ρ c, reg3_arg21 m ρ c, reg3_arg22 m ρ c, reg3_arg23 m ρ c, reg3_arg24 m ρ c, reg3_arg25 m ρ c, reg3_arg26 m ρ c, reg3_arg27 m ρ c, reg3_arg28 m ρ c, reg3_arg29 m ρ c, reg3_arg30 m ρ c, reg3_arg31 m ρ c, reg3_arg32 m ρ c, reg3_arg33 m ρ c]

end Cert.KernelIdeal.Stages

end
-- ==== Proof.KStep8.lean ====
/-
  One step of the kernel's boundary chain: from what is known at boundary 7 (the argument arrays as launched; each live buffer at
  its intermediate array of the computation) to the same at boundary 8, across region 3 (its output's closed form; the rest is none of its arrays, or an input window's array, which is not written back).
-/
import proofs.«165753_j16037407883756_1_alg».proof.Proof.KRegArgs3
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step8 (A : Cert.Net.Args Ideal)
    (h : argsOf (W7 m ρ c) = A
      ∧ W7 m ρ c (Proc.devRef .tc main_v69) = col (Cert.Net.cdNL A)
      ∧ W7 m ρ c (Proc.devRef .tc main_v70) = row A.a9
      ∧ W7 m ρ c (Proc.devRef .tc main_v71) = row (ln3_0 A.a16)
      ∧ W7 m ρ c (Proc.devRef .tc main_v72) = row (ln3_0 A.a17)
      ∧ W7 m ρ c (Proc.devRef .tc main_v64) = Cert.Net.hn1 A
      ∧ W7 m ρ c (Proc.devRef .tc main_v55) = Cert.Net.aggL1 A
      ∧ W7 m ρ c (Proc.devRef .tc main_v7) = Cert.Net.csLN A
      ∧ W7 m ρ c (Proc.devRef .tc main_v15) = Cert.Net.cdLN A
      ∧ W7 m ρ c (Proc.devRef .tc main_v23) = Cert.Net.csNL A
      ∧ W7 m ρ c (Proc.devRef .tc main_v31) = Cert.Net.cdNL A) :
    argsOf (W8 m ρ c) = A
    ∧ W8 m ρ c (Proc.devRef .tc main_v73) = Cert.Net.hl1 A
    ∧ W8 m ρ c (Proc.devRef .tc main_v64) = Cert.Net.hn1 A
    ∧ W8 m ρ c (Proc.devRef .tc main_v7) = Cert.Net.csLN A
    ∧ W8 m ρ c (Proc.devRef .tc main_v15) = Cert.Net.cdLN A
    ∧ W8 m ρ c (Proc.devRef .tc main_v23) = Cert.Net.csNL A
    ∧ W8 m ρ c (Proc.devRef .tc main_v31) = Cert.Net.cdNL A := by
  obtain ⟨ha7, h7_v69, h7_v70, h7_v71, h7_v72, h7_v64, h7_v55, h7_v7, h7_v15, h7_v23, h7_v31⟩ := h
  have ha8 : argsOf (W8 m ρ c) = A := (args_reg3 m ρ c).trans ha7
  have g8_0 : V7 m ρ c (Pipeline.arrRef spec3 0) = Cert.Net.aggL1 A := h7_v55
  have g8_1 : V7 m ρ c (Pipeline.arrRef spec3 1) = col (Cert.Net.cdNL A) := h7_v69
  have g8_2 : V7 m ρ c (Pipeline.arrRef spec3 2) = row A.a9 := h7_v70
  have g8_3 : V7 m ρ c (Pipeline.arrRef spec3 3) = row (ln3_0 A.a16) := h7_v71
  have g8_4 : V7 m ρ c (Pipeline.arrRef spec3 4) = row (ln3_0 A.a17) := h7_v72
  have h8_v73 : W8 m ρ c (Proc.devRef .tc main_v73) = Cert.Net.hl1 A :=
    (W8_arr m ρ c 5).trans ((Cert.KernelIdeal.Regions.region3_out (V7 m ρ) c).trans ((congr (congr (congr (congr (congrArg (Cert.Spec.lnElu (F := Ideal)) g8_0) g8_1) g8_2) g8_3) g8_4).trans rfl))
  have h8_v64 : W8 m ρ c (Proc.devRef .tc main_v64) = Cert.Net.hn1 A :=
    (W8_of_ne m ρ c main_v64 (by decide)).trans h7_v64
  have h8_v7 : W8 m ρ c (Proc.devRef .tc main_v7) = Cert.Net.csLN A :=
    (W8_of_ne m ρ c main_v7 (by decide)).trans h7_v7
  have h8_v15 : W8 m ρ c (Proc.devRef .tc main_v15) = Cert.Net.cdLN A :=
    (W8_of_ne m ρ c main_v15 (by decide)).trans h7_v15
  have h8_v23 : W8 m ρ c (Proc.devRef .tc main_v23) = Cert.Net.csNL A :=
    (W8_of_ne m ρ c main_v23 (by decide)).trans h7_v23
  have h8_v31 : W8 m ρ c (Proc.devRef .tc main_v31) = Cert.Net.cdNL A :=
    (W8_of_ne m ρ c main_v31 (by decide)).trans h7_v31
  exact ⟨ha8, h8_v73, h8_v64, h8_v7, h8_v15, h8_v23, h8_v31⟩

end Cert.KernelIdeal.Stages

end
-- ==== Proof.KStage_h4.lean ====
/-
  A host stretch of the kernel program (h4): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h4 : List (Ref sig .tc) :=
  [ main_v74, main_v75, main_v76, main_v77, main_v78, main_v79, main_v80, main_v81, main_v82 ]

theorem writes_h4 : (hostOps4 : List (HloOp τ sig (Elt F))).Forall fun op => op.writes ⊆ (written_h4.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h4 (V : Valuation τ sig (Elt F)) {r : Ref sig .tc} (h : r ∉ written_h4) :
    after hostOps4 V (Proc.devRef .tc r) = V (Proc.devRef .tc r) := after_of_writes_sub hostOps4 V writes_h4 h

/-- The stretch leaves the argument arrays as it found them. -/
theorem args_h4 (V : Valuation τ sig (Elt F)) : argsOf (after hostOps4 V) = argsOf V := by
  simp only [argsOf, keep_h4 V (r := main_arg0) (by decide), keep_h4 V (r := main_arg1) (by decide), keep_h4 V (r := main_arg2) (by decide), keep_h4 V (r := main_arg3) (by decide), keep_h4 V (r := main_arg4) (by decide), keep_h4 V (r := main_arg5) (by decide), keep_h4 V (r := main_arg6) (by decide), keep_h4 V (r := main_arg7) (by decide), keep_h4 V (r := main_arg8) (by decide), keep_h4 V (r := main_arg9) (by decide), keep_h4 V (r := main_arg10) (by decide), keep_h4 V (r := main_arg11) (by decide), keep_h4 V (r := main_arg12) (by decide), keep_h4 V (r := main_arg13) (by decide), keep_h4 V (r := main_arg14) (by decide), keep_h4 V (r := main_arg15) (by decide), keep_h4 V (r := main_arg16) (by decide), keep_h4 V (r := main_arg17) (by decide), keep_h4 V (r := main_arg18) (by decide), keep_h4 V (r := main_arg19) (by decide), keep_h4 V (r := main_arg20) (by decide), keep_h4 V (r := main_arg21) (by decide), keep_h4 V (r := main_arg22) (by decide), keep_h4 V (r := main_arg23) (by decide), keep_h4 V (r := main_arg24) (by decide), keep_h4 V (r := main_arg25) (by decide), keep_h4 V (r := main_arg26) (by decide), keep_h4 V (r := main_arg27) (by decide), keep_h4 V (r := main_arg28) (by decide), keep_h4 V (r := main_arg29) (by decide), keep_h4 V (r := main_arg30) (by decide), keep_h4 V (r := main_arg31) (by decide), keep_h4 V (r := main_arg32) (by decide), keep_h4 V (r := main_arg33) (by decide)]

attribute [local irreducible] Host.reduceAdd Host.gather Host.scatterAdd in
set_option maxRecDepth 16384 in
set_option maxHeartbeats 4000000 in
theorem out_h4_v75 (V : Valuation τ sig (Elt F)) :
    after hostOps4 V (Proc.devRef .tc main_v75) = w2_0 (argsOf V).a10 := by
  simp only [after_cons, after_nil]
  rfl

attribute [local irreducible] Host.reduceAdd Host.gather Host.scatterAdd in
set_option maxRecDepth 16384 in
set_option maxHeartbeats 4000000 in
theorem out_h4_v77 (V : Valuation τ sig (Elt F)) :
    after hostOps4 V (Proc.devRef .tc main_v77) = b2_0 (argsOf V).a11 := by
  simp only [after_cons, after_nil]
  rfl

attribute [local irreducible] Host.reduceAdd Host.gather Host.scatterAdd in
set_option maxRecDepth 16384 in
set_option maxHeartbeats 4000000 in
theorem out_h4_v79 (V : Valuation τ sig (Elt F)) :
    after hostOps4 V (Proc.devRef .tc main_v79) = w2_0 (argsOf V).a12 := by
  simp only [after_cons, after_nil]
  rfl

attribute [local irreducible] Host.reduceAdd Host.gather Host.scatterAdd in
set_option maxRecDepth 16384 in
set_option maxHeartbeats 4000000 in
theorem out_h4_v81 (V : Valuation τ sig (Elt F)) :
    after hostOps4 V (Proc.devRef .tc main_v81) = b2_0 (argsOf V).a13 := by
  simp only [after_cons, after_nil]
  rfl

attribute [local irreducible] Host.reduceAdd Host.gather Host.scatterAdd in
set_option maxRecDepth 16384 in
set_option maxHeartbeats 4000000 in
theorem out_h4_v82 (V : Valuation τ sig (Elt F)) :
    after hostOps4 V (Proc.devRef .tc main_v82) = col (V (Proc.devRef .tc main_v7)) := by
  simp only [after_cons, after_nil]
  exact Eq.trans rfl (Cert.Glue.col_eq 100000 (V (Proc.devRef .tc main_v7)) shapeCasts_S100000_S100000x1 Cert.ReferenceIdeal.Gen.bcast_S100000_S100000x1_0)

end Cert.KernelIdeal.Stages

end
-- ==== Proof.KStep9.lean ====
/-
  One step of the kernel's boundary chain: from what is known at boundary 8 (the argument arrays as launched; each live buffer at
  its intermediate array of the computation) to the same at boundary 9, across host stretch 4 (its stage equations; the rest kept).
-/
import proofs.«165753_j16037407883756_1_alg».proof.Proof.KStage_h4
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step9 (A : Cert.Net.Args Ideal)
    (h : argsOf (W8 m ρ c) = A
      ∧ W8 m ρ c (Proc.devRef .tc main_v73) = Cert.Net.hl1 A
      ∧ W8 m ρ c (Proc.devRef .tc main_v64) = Cert.Net.hn1 A
      ∧ W8 m ρ c (Proc.devRef .tc main_v7) = Cert.Net.csLN A
      ∧ W8 m ρ c (Proc.devRef .tc main_v15) = Cert.Net.cdLN A
      ∧ W8 m ρ c (Proc.devRef .tc main_v23) = Cert.Net.csNL A
      ∧ W8 m ρ c (Proc.devRef .tc main_v31) = Cert.Net.cdNL A) :
    argsOf (W9 m ρ c) = A
    ∧ W9 m ρ c (Proc.devRef .tc main_v75) = w2_0 A.a10
    ∧ W9 m ρ c (Proc.devRef .tc main_v77) = Cert.Net.bN2 A
    ∧ W9 m ρ c (Proc.devRef .tc main_v79) = Cert.Net.wL2 A
    ∧ W9 m ρ c (Proc.devRef .tc main_v81) = Cert.Net.bL2 A
    ∧ W9 m ρ c (Proc.devRef .tc main_v82) = col (Cert.Net.csLN A)
    ∧ W9 m ρ c (Proc.devRef .tc main_v73) = Cert.Net.hl1 A
    ∧ W9 m ρ c (Proc.devRef .tc main_v64) = Cert.Net.hn1 A
    ∧ W9 m ρ c (Proc.devRef .tc main_v7) = Cert.Net.csLN A
    ∧ W9 m ρ c (Proc.devRef .tc main_v15) = Cert.Net.cdLN A
    ∧ W9 m ρ c (Proc.devRef .tc main_v23) = Cert.Net.csNL A
    ∧ W9 m ρ c (Proc.devRef .tc main_v31) = Cert.Net.cdNL A := by
  obtain ⟨ha8, h8_v73, h8_v64, h8_v7, h8_v15, h8_v23, h8_v31⟩ := h
  have ha9 : argsOf (W9 m ρ c) = A := (args_h4 (W8 m ρ c)).trans ha8
  have e9_10 : W8 m ρ c (Proc.devRef .tc main_arg10) = A.a10 := congrArg (fun X : Cert.Net.Args Ideal => X.a10) ha8
  have h9_v75 : W9 m ρ c (Proc.devRef .tc main_v75) = w2_0 A.a10 := by
    refine (out_h4_v75 (W8 m ρ c)).trans ?_
    (try simp only [e9_10]); (try rfl)
  have e9_11 : W8 m ρ c (Proc.devRef .tc main_arg11) = A.a11 := congrArg (fun X : Cert.Net.Args Ideal => X.a11) ha8
  have h9_v77 : W9 m ρ c (Proc.devRef .tc main_v77) = Cert.Net.bN2 A := by
    refine (out_h4_v77 (W8 m ρ c)).trans ?_
    (try simp only [e9_11]); (try rfl)
  have e9_12 : W8 m ρ c (Proc.devRef .tc main_arg12) = A.a12 := congrArg (fun X : Cert.Net.Args Ideal => X.a12) ha8
  have h9_v79 : W9 m ρ c (Proc.devRef .tc main_v79) = Cert.Net.wL2 A := by
    refine (out_h4_v79 (W8 m ρ c)).trans ?_
    (try simp only [e9_12]); (try rfl)
  have e9_13 : W8 m ρ c (Proc.devRef .tc main_arg13) = A.a13 := congrArg (fun X : Cert.Net.Args Ideal => X.a13) ha8
  have h9_v81 : W9 m ρ c (Proc.devRef .tc main_v81) = Cert.Net.bL2 A := by
    refine (out_h4_v81 (W8 m ρ c)).trans ?_
    (try simp only [e9_13]); (try rfl)
  have h9_v82 : W9 m ρ c (Proc.devRef .tc main_v82) = col (Cert.Net.csLN A) := by
    refine (out_h4_v82 (W8 m ρ c)).trans ?_
    (try simp only [h8_v7]); (try rfl)
  have h9_v73 : W9 m ρ c (Proc.devRef .tc main_v73) = Cert.Net.hl1 A :=
    (keep_h4 (W8 m ρ c) (by decide)).trans h8_v73
  have h9_v64 : W9 m ρ c (Proc.devRef .tc main_v64) = Cert.Net.hn1 A :=
    (keep_h4 (W8 m ρ c) (by decide)).trans h8_v64
  have h9_v7 : W9 m ρ c (Proc.devRef .tc main_v7) = Cert.Net.csLN A :=
    (keep_h4 (W8 m ρ c) (by decide)).trans h8_v7
  have h9_v15 : W9 m ρ c (Proc.devRef .tc main_v15) = Cert.Net.cdLN A :=
    (keep_h4 (W8 m ρ c) (by decide)).trans h8_v15
  have h9_v23 : W9 m ρ c (Proc.devRef .tc main_v23) = Cert.Net.csNL A :=
    (keep_h4 (W8 m ρ c) (by decide)).trans h8_v23
  have h9_v31 : W9 m ρ c (Proc.devRef .tc main_v31) = Cert.Net.cdNL A :=
    (keep_h4 (W8 m ρ c) (by decide)).trans h8_v31
  exact ⟨ha9, h9_v75, h9_v77, h9_v79, h9_v81, h9_v82, h9_v73, h9_v64, h9_v7, h9_v15, h9_v23, h9_v31⟩

end Cert.KernelIdeal.Stages

end
-- ==== Proof.KRegArgs4.lean ====
/-
  Region 4 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg4_arg0 (c : Dev nD) : W10 m ρ c (Proc.devRef .tc main_arg0) = W9 m ρ c (Proc.devRef .tc main_arg0) :=
  W10_of_ne m ρ c main_arg0 (by decide)
theorem reg4_arg1 (c : Dev nD) : W10 m ρ c (Proc.devRef .tc main_arg1) = W9 m ρ c (Proc.devRef .tc main_arg1) :=
  W10_of_ne m ρ c main_arg1 (by decide)
theorem reg4_arg2 (c : Dev nD) : W10 m ρ c (Proc.devRef .tc main_arg2) = W9 m ρ c (Proc.devRef .tc main_arg2) :=
  W10_of_ne m ρ c main_arg2 (by decide)
theorem reg4_arg3 (c : Dev nD) : W10 m ρ c (Proc.devRef .tc main_arg3) = W9 m ρ c (Proc.devRef .tc main_arg3) :=
  W10_of_ne m ρ c main_arg3 (by decide)
theorem reg4_arg4 (c : Dev nD) : W10 m ρ c (Proc.devRef .tc main_arg4) = W9 m ρ c (Proc.devRef .tc main_arg4) :=
  W10_of_ne m ρ c main_arg4 (by decide)
theorem reg4_arg5 (c : Dev nD) : W10 m ρ c (Proc.devRef .tc main_arg5) = W9 m ρ c (Proc.devRef .tc main_arg5) :=
  W10_of_ne m ρ c main_arg5 (by decide)
theorem reg4_arg6 (c : Dev nD) : W10 m ρ c (Proc.devRef .tc main_arg6) = W9 m ρ c (Proc.devRef .tc main_arg6) :=
  W10_of_ne m ρ c main_arg6 (by decide)
theorem reg4_arg7 (c : Dev nD) : W10 m ρ c (Proc.devRef .tc main_arg7) = W9 m ρ c (Proc.devRef .tc main_arg7) :=
  W10_of_ne m ρ c main_arg7 (by decide)
theorem reg4_arg8 (c : Dev nD) : W10 m ρ c (Proc.devRef .tc main_arg8) = W9 m ρ c (Proc.devRef .tc main_arg8) :=
  W10_of_ne m ρ c main_arg8 (by decide)
theorem reg4_arg9 (c : Dev nD) : W10 m ρ c (Proc.devRef .tc main_arg9) = W9 m ρ c (Proc.devRef .tc main_arg9) :=
  W10_of_ne m ρ c main_arg9 (by decide)
theorem reg4_arg10 (c : Dev nD) : W10 m ρ c (Proc.devRef .tc main_arg10) = W9 m ρ c (Proc.devRef .tc main_arg10) :=
  W10_of_ne m ρ c main_arg10 (by decide)
theorem reg4_arg11 (c : Dev nD) : W10 m ρ c (Proc.devRef .tc main_arg11) = W9 m ρ c (Proc.devRef .tc main_arg11) :=
  W10_of_ne m ρ c main_arg11 (by decide)
theorem reg4_arg12 (c : Dev nD) : W10 m ρ c (Proc.devRef .tc main_arg12) = W9 m ρ c (Proc.devRef .tc main_arg12) :=
  W10_of_ne m ρ c main_arg12 (by decide)
theorem reg4_arg13 (c : Dev nD) : W10 m ρ c (Proc.devRef .tc main_arg13) = W9 m ρ c (Proc.devRef .tc main_arg13) :=
  W10_of_ne m ρ c main_arg13 (by decide)
theorem reg4_arg14 (c : Dev nD) : W10 m ρ c (Proc.devRef .tc main_arg14) = W9 m ρ c (Proc.devRef .tc main_arg14) :=
  W10_of_ne m ρ c main_arg14 (by decide)
theorem reg4_arg15 (c : Dev nD) : W10 m ρ c (Proc.devRef .tc main_arg15) = W9 m ρ c (Proc.devRef .tc main_arg15) :=
  W10_of_ne m ρ c main_arg15 (by decide)
theorem reg4_arg16 (c : Dev nD) : W10 m ρ c (Proc.devRef .tc main_arg16) = W9 m ρ c (Proc.devRef .tc main_arg16) :=
  W10_of_ne m ρ c main_arg16 (by decide)
theorem reg4_arg17 (c : Dev nD) : W10 m ρ c (Proc.devRef .tc main_arg17) = W9 m ρ c (Proc.devRef .tc main_arg17) :=
  W10_of_ne m ρ c main_arg17 (by decide)
theorem reg4_arg18 (c : Dev nD) : W10 m ρ c (Proc.devRef .tc main_arg18) = W9 m ρ c (Proc.devRef .tc main_arg18) :=
  W10_of_ne m ρ c main_arg18 (by decide)
theorem reg4_arg19 (c : Dev nD) : W10 m ρ c (Proc.devRef .tc main_arg19) = W9 m ρ c (Proc.devRef .tc main_arg19) :=
  W10_of_ne m ρ c main_arg19 (by decide)
theorem reg4_arg20 (c : Dev nD) : W10 m ρ c (Proc.devRef .tc main_arg20) = W9 m ρ c (Proc.devRef .tc main_arg20) :=
  W10_of_ne m ρ c main_arg20 (by decide)
theorem reg4_arg21 (c : Dev nD) : W10 m ρ c (Proc.devRef .tc main_arg21) = W9 m ρ c (Proc.devRef .tc main_arg21) :=
  W10_of_ne m ρ c main_arg21 (by decide)
theorem reg4_arg22 (c : Dev nD) : W10 m ρ c (Proc.devRef .tc main_arg22) = W9 m ρ c (Proc.devRef .tc main_arg22) :=
  W10_of_ne m ρ c main_arg22 (by decide)
theorem reg4_arg23 (c : Dev nD) : W10 m ρ c (Proc.devRef .tc main_arg23) = W9 m ρ c (Proc.devRef .tc main_arg23) :=
  W10_of_ne m ρ c main_arg23 (by decide)
theorem reg4_arg24 (c : Dev nD) : W10 m ρ c (Proc.devRef .tc main_arg24) = W9 m ρ c (Proc.devRef .tc main_arg24) :=
  W10_of_ne m ρ c main_arg24 (by decide)
theorem reg4_arg25 (c : Dev nD) : W10 m ρ c (Proc.devRef .tc main_arg25) = W9 m ρ c (Proc.devRef .tc main_arg25) :=
  W10_of_ne m ρ c main_arg25 (by decide)
theorem reg4_arg26 (c : Dev nD) : W10 m ρ c (Proc.devRef .tc main_arg26) = W9 m ρ c (Proc.devRef .tc main_arg26) :=
  W10_of_ne m ρ c main_arg26 (by decide)
theorem reg4_arg27 (c : Dev nD) : W10 m ρ c (Proc.devRef .tc main_arg27) = W9 m ρ c (Proc.devRef .tc main_arg27) :=
  W10_of_ne m ρ c main_arg27 (by decide)
theorem reg4_arg28 (c : Dev nD) : W10 m ρ c (Proc.devRef .tc main_arg28) = W9 m ρ c (Proc.devRef .tc main_arg28) :=
  W10_of_ne m ρ c main_arg28 (by decide)
theorem reg4_arg29 (c : Dev nD) : W10 m ρ c (Proc.devRef .tc main_arg29) = W9 m ρ c (Proc.devRef .tc main_arg29) :=
  W10_of_ne m ρ c main_arg29 (by decide)
theorem reg4_arg30 (c : Dev nD) : W10 m ρ c (Proc.devRef .tc main_arg30) = W9 m ρ c (Proc.devRef .tc main_arg30) :=
  W10_of_ne m ρ c main_arg30 (by decide)
theorem reg4_arg31 (c : Dev nD) : W10 m ρ c (Proc.devRef .tc main_arg31) = W9 m ρ c (Proc.devRef .tc main_arg31) :=
  W10_of_ne m ρ c main_arg31 (by decide)
theorem reg4_arg32 (c : Dev nD) : W10 m ρ c (Proc.devRef .tc main_arg32) = W9 m ρ c (Proc.devRef .tc main_arg32) :=
  W10_of_ne m ρ c main_arg32 (by decide)
theorem reg4_arg33 (c : Dev nD) : W10 m ρ c (Proc.devRef .tc main_arg33) = W9 m ρ c (Proc.devRef .tc main_arg33) :=
  W10_of_ne m ρ c main_arg33 (by decide)

theorem args_reg4 (c : Dev nD) : argsOf (W10 m ρ c) = argsOf (W9 m ρ c) := by
  simp only [argsOf, reg4_arg0 m ρ c, reg4_arg1 m ρ c, reg4_arg2 m ρ c, reg4_arg3 m ρ c, reg4_arg4 m ρ c, reg4_arg5 m ρ c, reg4_arg6 m ρ c, reg4_arg7 m ρ c, reg4_arg8 m ρ c, reg4_arg9 m ρ c, reg4_arg10 m ρ c, reg4_arg11 m ρ c, reg4_arg12 m ρ c, reg4_arg13 m ρ c, reg4_arg14 m ρ c, reg4_arg15 m ρ c, reg4_arg16 m ρ c, reg4_arg17 m ρ c, reg4_arg18 m ρ c, reg4_arg19 m ρ c, reg4_arg20 m ρ c, reg4_arg21 m ρ c, reg4_arg22 m ρ c, reg4_arg23 m ρ c, reg4_arg24 m ρ c, reg4_arg25 m ρ c, reg4_arg26 m ρ c, reg4_arg27 m ρ c, reg4_arg28 m ρ c, reg4_arg29 m ρ c, reg4_arg30 m ρ c, reg4_arg31 m ρ c, reg4_arg32 m ρ c, reg4_arg33 m ρ c]

end Cert.KernelIdeal.Stages

end
-- ==== Proof.KStep10.lean ====
/-
  One step of the kernel's boundary chain: from what is known at boundary 9 (the argument arrays as launched; each live buffer at
  its intermediate array of the computation) to the same at boundary 10, across region 4 (its output's closed form; the rest is none of its arrays, or an input window's array, which is not written back).
-/
import proofs.«165753_j16037407883756_1_alg».proof.Proof.KRegArgs4
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step10 (A : Cert.Net.Args Ideal)
    (h : argsOf (W9 m ρ c) = A
      ∧ W9 m ρ c (Proc.devRef .tc main_v75) = w2_0 A.a10
      ∧ W9 m ρ c (Proc.devRef .tc main_v77) = Cert.Net.bN2 A
      ∧ W9 m ρ c (Proc.devRef .tc main_v79) = Cert.Net.wL2 A
      ∧ W9 m ρ c (Proc.devRef .tc main_v81) = Cert.Net.bL2 A
      ∧ W9 m ρ c (Proc.devRef .tc main_v82) = col (Cert.Net.csLN A)
      ∧ W9 m ρ c (Proc.devRef .tc main_v73) = Cert.Net.hl1 A
      ∧ W9 m ρ c (Proc.devRef .tc main_v64) = Cert.Net.hn1 A
      ∧ W9 m ρ c (Proc.devRef .tc main_v7) = Cert.Net.csLN A
      ∧ W9 m ρ c (Proc.devRef .tc main_v15) = Cert.Net.cdLN A
      ∧ W9 m ρ c (Proc.devRef .tc main_v23) = Cert.Net.csNL A
      ∧ W9 m ρ c (Proc.devRef .tc main_v31) = Cert.Net.cdNL A) :
    argsOf (W10 m ρ c) = A
    ∧ W10 m ρ c (Proc.devRef .tc main_v83) = Cert.Net.mmN2 A
    ∧ W10 m ρ c (Proc.devRef .tc main_v77) = Cert.Net.bN2 A
    ∧ W10 m ρ c (Proc.devRef .tc main_v79) = Cert.Net.wL2 A
    ∧ W10 m ρ c (Proc.devRef .tc main_v81) = Cert.Net.bL2 A
    ∧ W10 m ρ c (Proc.devRef .tc main_v64) = Cert.Net.hn1 A
    ∧ W10 m ρ c (Proc.devRef .tc main_v7) = Cert.Net.csLN A
    ∧ W10 m ρ c (Proc.devRef .tc main_v15) = Cert.Net.cdLN A
    ∧ W10 m ρ c (Proc.devRef .tc main_v23) = Cert.Net.csNL A
    ∧ W10 m ρ c (Proc.devRef .tc main_v31) = Cert.Net.cdNL A := by
  obtain ⟨ha9, h9_v75, h9_v77, h9_v79, h9_v81, h9_v82, h9_v73, h9_v64, h9_v7, h9_v15, h9_v23, h9_v31⟩ := h
  have ha10 : argsOf (W10 m ρ c) = A := (args_reg4 m ρ c).trans ha9
  have g10_0 : V9 m ρ c (Pipeline.arrRef spec4 0) = Cert.Net.hl1 A := h9_v73
  have g10_1 : V9 m ρ c (Pipeline.arrRef spec4 1) = col (Cert.Net.csLN A) := h9_v82
  have g10_2 : V9 m ρ c (Pipeline.arrRef spec4 2) = w2_0 A.a10 := h9_v75
  have h10_v83 : W10 m ρ c (Proc.devRef .tc main_v83) = Cert.Net.mmN2 A :=
    (W10_arr m ρ c 3).trans ((Cert.KernelIdeal.Regions.region4_out (V9 m ρ) c).trans ((congr (congr (congrArg (Cert.Spec.scaleMatmul128 (F := Ideal)) g10_0) g10_1) g10_2).trans rfl))
  have h10_v77 : W10 m ρ c (Proc.devRef .tc main_v77) = Cert.Net.bN2 A :=
    (W10_of_ne m ρ c main_v77 (by decide)).trans h9_v77
  have h10_v79 : W10 m ρ c (Proc.devRef .tc main_v79) = Cert.Net.wL2 A :=
    (W10_of_ne m ρ c main_v79 (by decide)).trans h9_v79
  have h10_v81 : W10 m ρ c (Proc.devRef .tc main_v81) = Cert.Net.bL2 A :=
    (W10_of_ne m ρ c main_v81 (by decide)).trans h9_v81
  have h10_v64 : W10 m ρ c (Proc.devRef .tc main_v64) = Cert.Net.hn1 A :=
    (W10_of_ne m ρ c main_v64 (by decide)).trans h9_v64
  have h10_v7 : W10 m ρ c (Proc.devRef .tc main_v7) = Cert.Net.csLN A :=
    (W10_of_ne m ρ c main_v7 (by decide)).trans h9_v7
  have h10_v15 : W10 m ρ c (Proc.devRef .tc main_v15) = Cert.Net.cdLN A :=
    (W10_of_ne m ρ c main_v15 (by decide)).trans h9_v15
  have h10_v23 : W10 m ρ c (Proc.devRef .tc main_v23) = Cert.Net.csNL A :=
    (W10_of_ne m ρ c main_v23 (by decide)).trans h9_v23
  have h10_v31 : W10 m ρ c (Proc.devRef .tc main_v31) = Cert.Net.cdNL A :=
    (W10_of_ne m ρ c main_v31 (by decide)).trans h9_v31
  exact ⟨ha10, h10_v83, h10_v77, h10_v79, h10_v81, h10_v64, h10_v7, h10_v15, h10_v23, h10_v31⟩

end Cert.KernelIdeal.Stages

end
-- ==== Proof.KStage_h5.lean ====
/-
  A host stretch of the kernel program (h5): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h5 : List (Ref sig .tc) :=
  [ main_v84 ]

theorem writes_h5 : (hostOps5 : List (HloOp τ sig (Elt F))).Forall fun op => op.writes ⊆ (written_h5.map (Proc.devRef (τ := τ) .tc)).toFinset :=
  Finset.singleton_subset_iff.mpr (List.mem_toFinset.mpr (List.mem_map_of_mem (by decide)))

/-- A buffer the stretch does not write is after it as before it. -/
theorem keep_h5 (V : Valuation τ sig (Elt F)) {r : Ref sig .tc} (h : r ∉ written_h5) :
    after hostOps5 V (Proc.devRef .tc r) = V (Proc.devRef .tc r) := after_of_writes_sub hostOps5 V writes_h5 h

/-- The stretch leaves the argument arrays as it found them. -/
theorem args_h5 (V : Valuation τ sig (Elt F)) : argsOf (after hostOps5 V) = argsOf V := by
  simp only [argsOf, keep_h5 V (r := main_arg0) (by decide), keep_h5 V (r := main_arg1) (by decide), keep_h5 V (r := main_arg2) (by decide), keep_h5 V (r := main_arg3) (by decide), keep_h5 V (r := main_arg4) (by decide), keep_h5 V (r := main_arg5) (by decide), keep_h5 V (r := main_arg6) (by decide), keep_h5 V (r := main_arg7) (by decide), keep_h5 V (r := main_arg8) (by decide), keep_h5 V (r := main_arg9) (by decide), keep_h5 V (r := main_arg10) (by decide), keep_h5 V (r := main_arg11) (by decide), keep_h5 V (r := main_arg12) (by decide), keep_h5 V (r := main_arg13) (by decide), keep_h5 V (r := main_arg14) (by decide), keep_h5 V (r := main_arg15) (by decide), keep_h5 V (r := main_arg16) (by decide), keep_h5 V (r := main_arg17) (by decide), keep_h5 V (r := main_arg18) (by decide), keep_h5 V (r := main_arg19) (by decide), keep_h5 V (r := main_arg20) (by decide), keep_h5 V (r := main_arg21) (by decide), keep_h5 V (r := main_arg22) (by decide), keep_h5 V (r := main_arg23) (by decide), keep_h5 V (r := main_arg24) (by decide), keep_h5 V (r := main_arg25) (by decide), keep_h5 V (r := main_arg26) (by decide), keep_h5 V (r := main_arg27) (by decide), keep_h5 V (r := main_arg28) (by decide), keep_h5 V (r := main_arg29) (by decide), keep_h5 V (r := main_arg30) (by decide), keep_h5 V (r := main_arg31) (by decide), keep_h5 V (r := main_arg32) (by decide), keep_h5 V (r := main_arg33) (by decide)]

attribute [local irreducible] Host.reduceAdd Host.gather Host.scatterAdd in
set_option maxRecDepth 16384 in
set_option maxHeartbeats 4000000 in
theorem out_h5_v84 (V : Valuation τ sig (Elt F)) :
    after hostOps5 V (Proc.devRef .tc main_v84) = col (V (Proc.devRef .tc main_v23)) := by
  simp only [after_cons, after_nil]
  exact Eq.trans rfl (Cert.Glue.col_eq 100000 (V (Proc.devRef .tc main_v23)) shapeCasts_S100000_S100000x1 Cert.ReferenceIdeal.Gen.bcast_S100000_S100000x1_0)

end Cert.KernelIdeal.Stages

end
-- ==== Proof.KStep11.lean ====
/-
  One step of the kernel's boundary chain: from what is known at boundary 10 (the argument arrays as launched; each live buffer at
  its intermediate array of the computation) to the same at boundary 11, across host stretch 5 (its stage equations; the rest kept).
-/
import proofs.«165753_j16037407883756_1_alg».proof.Proof.KStage_h5
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step11 (A : Cert.Net.Args Ideal)
    (h : argsOf (W10 m ρ c) = A
      ∧ W10 m ρ c (Proc.devRef .tc main_v83) = Cert.Net.mmN2 A
      ∧ W10 m ρ c (Proc.devRef .tc main_v77) = Cert.Net.bN2 A
      ∧ W10 m ρ c (Proc.devRef .tc main_v79) = Cert.Net.wL2 A
      ∧ W10 m ρ c (Proc.devRef .tc main_v81) = Cert.Net.bL2 A
      ∧ W10 m ρ c (Proc.devRef .tc main_v64) = Cert.Net.hn1 A
      ∧ W10 m ρ c (Proc.devRef .tc main_v7) = Cert.Net.csLN A
      ∧ W10 m ρ c (Proc.devRef .tc main_v15) = Cert.Net.cdLN A
      ∧ W10 m ρ c (Proc.devRef .tc main_v23) = Cert.Net.csNL A
      ∧ W10 m ρ c (Proc.devRef .tc main_v31) = Cert.Net.cdNL A) :
    argsOf (W11 m ρ c) = A
    ∧ W11 m ρ c (Proc.devRef .tc main_v84) = col (Cert.Net.csNL A)
    ∧ W11 m ρ c (Proc.devRef .tc main_v83) = Cert.Net.mmN2 A
    ∧ W11 m ρ c (Proc.devRef .tc main_v77) = Cert.Net.bN2 A
    ∧ W11 m ρ c (Proc.devRef .tc main_v79) = Cert.Net.wL2 A
    ∧ W11 m ρ c (Proc.devRef .tc main_v81) = Cert.Net.bL2 A
    ∧ W11 m ρ c (Proc.devRef .tc main_v64) = Cert.Net.hn1 A
    ∧ W11 m ρ c (Proc.devRef .tc main_v7) = Cert.Net.csLN A
    ∧ W11 m ρ c (Proc.devRef .tc main_v15) = Cert.Net.cdLN A
    ∧ W11 m ρ c (Proc.devRef .tc main_v23) = Cert.Net.csNL A
    ∧ W11 m ρ c (Proc.devRef .tc main_v31) = Cert.Net.cdNL A := by
  obtain ⟨ha10, h10_v83, h10_v77, h10_v79, h10_v81, h10_v64, h10_v7, h10_v15, h10_v23, h10_v31⟩ := h
  have ha11 : argsOf (W11 m ρ c) = A := (args_h5 (W10 m ρ c)).trans ha10
  have h11_v84 : W11 m ρ c (Proc.devRef .tc main_v84) = col (Cert.Net.csNL A) := by
    refine (out_h5_v84 (W10 m ρ c)).trans ?_
    (try simp only [h10_v23]); (try rfl)
  have h11_v83 : W11 m ρ c (Proc.devRef .tc main_v83) = Cert.Net.mmN2 A :=
    (keep_h5 (W10 m ρ c) (by decide)).trans h10_v83
  have h11_v77 : W11 m ρ c (Proc.devRef .tc main_v77) = Cert.Net.bN2 A :=
    (keep_h5 (W10 m ρ c) (by decide)).trans h10_v77
  have h11_v79 : W11 m ρ c (Proc.devRef .tc main_v79) = Cert.Net.wL2 A :=
    (keep_h5 (W10 m ρ c) (by decide)).trans h10_v79
  have h11_v81 : W11 m ρ c (Proc.devRef .tc main_v81) = Cert.Net.bL2 A :=
    (keep_h5 (W10 m ρ c) (by decide)).trans h10_v81
  have h11_v64 : W11 m ρ c (Proc.devRef .tc main_v64) = Cert.Net.hn1 A :=
    (keep_h5 (W10 m ρ c) (by decide)).trans h10_v64
  have h11_v7 : W11 m ρ c (Proc.devRef .tc main_v7) = Cert.Net.csLN A :=
    (keep_h5 (W10 m ρ c) (by decide)).trans h10_v7
  have h11_v15 : W11 m ρ c (Proc.devRef .tc main_v15) = Cert.Net.cdLN A :=
    (keep_h5 (W10 m ρ c) (by decide)).trans h10_v15
  have h11_v23 : W11 m ρ c (Proc.devRef .tc main_v23) = Cert.Net.csNL A :=
    (keep_h5 (W10 m ρ c) (by decide)).trans h10_v23
  have h11_v31 : W11 m ρ c (Proc.devRef .tc main_v31) = Cert.Net.cdNL A :=
    (keep_h5 (W10 m ρ c) (by decide)).trans h10_v31
  exact ⟨ha11, h11_v84, h11_v83, h11_v77, h11_v79, h11_v81, h11_v64, h11_v7, h11_v15, h11_v23, h11_v31⟩

end Cert.KernelIdeal.Stages

end
-- ==== Proof.KRegArgs5.lean ====
/-
  Region 5 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg5_arg0 (c : Dev nD) : W12 m ρ c (Proc.devRef .tc main_arg0) = W11 m ρ c (Proc.devRef .tc main_arg0) :=
  W12_of_ne m ρ c main_arg0 (by decide)
theorem reg5_arg1 (c : Dev nD) : W12 m ρ c (Proc.devRef .tc main_arg1) = W11 m ρ c (Proc.devRef .tc main_arg1) :=
  W12_of_ne m ρ c main_arg1 (by decide)
theorem reg5_arg2 (c : Dev nD) : W12 m ρ c (Proc.devRef .tc main_arg2) = W11 m ρ c (Proc.devRef .tc main_arg2) :=
  W12_of_ne m ρ c main_arg2 (by decide)
theorem reg5_arg3 (c : Dev nD) : W12 m ρ c (Proc.devRef .tc main_arg3) = W11 m ρ c (Proc.devRef .tc main_arg3) :=
  W12_of_ne m ρ c main_arg3 (by decide)
theorem reg5_arg4 (c : Dev nD) : W12 m ρ c (Proc.devRef .tc main_arg4) = W11 m ρ c (Proc.devRef .tc main_arg4) :=
  W12_of_ne m ρ c main_arg4 (by decide)
theorem reg5_arg5 (c : Dev nD) : W12 m ρ c (Proc.devRef .tc main_arg5) = W11 m ρ c (Proc.devRef .tc main_arg5) :=
  W12_of_ne m ρ c main_arg5 (by decide)
theorem reg5_arg6 (c : Dev nD) : W12 m ρ c (Proc.devRef .tc main_arg6) = W11 m ρ c (Proc.devRef .tc main_arg6) :=
  W12_of_ne m ρ c main_arg6 (by decide)
theorem reg5_arg7 (c : Dev nD) : W12 m ρ c (Proc.devRef .tc main_arg7) = W11 m ρ c (Proc.devRef .tc main_arg7) :=
  W12_of_ne m ρ c main_arg7 (by decide)
theorem reg5_arg8 (c : Dev nD) : W12 m ρ c (Proc.devRef .tc main_arg8) = W11 m ρ c (Proc.devRef .tc main_arg8) :=
  W12_of_ne m ρ c main_arg8 (by decide)
theorem reg5_arg9 (c : Dev nD) : W12 m ρ c (Proc.devRef .tc main_arg9) = W11 m ρ c (Proc.devRef .tc main_arg9) :=
  W12_of_ne m ρ c main_arg9 (by decide)
theorem reg5_arg10 (c : Dev nD) : W12 m ρ c (Proc.devRef .tc main_arg10) = W11 m ρ c (Proc.devRef .tc main_arg10) :=
  W12_of_ne m ρ c main_arg10 (by decide)
theorem reg5_arg11 (c : Dev nD) : W12 m ρ c (Proc.devRef .tc main_arg11) = W11 m ρ c (Proc.devRef .tc main_arg11) :=
  W12_of_ne m ρ c main_arg11 (by decide)
theorem reg5_arg12 (c : Dev nD) : W12 m ρ c (Proc.devRef .tc main_arg12) = W11 m ρ c (Proc.devRef .tc main_arg12) :=
  W12_of_ne m ρ c main_arg12 (by decide)
theorem reg5_arg13 (c : Dev nD) : W12 m ρ c (Proc.devRef .tc main_arg13) = W11 m ρ c (Proc.devRef .tc main_arg13) :=
  W12_of_ne m ρ c main_arg13 (by decide)
theorem reg5_arg14 (c : Dev nD) : W12 m ρ c (Proc.devRef .tc main_arg14) = W11 m ρ c (Proc.devRef .tc main_arg14) :=
  W12_of_ne m ρ c main_arg14 (by decide)
theorem reg5_arg15 (c : Dev nD) : W12 m ρ c (Proc.devRef .tc main_arg15) = W11 m ρ c (Proc.devRef .tc main_arg15) :=
  W12_of_ne m ρ c main_arg15 (by decide)
theorem reg5_arg16 (c : Dev nD) : W12 m ρ c (Proc.devRef .tc main_arg16) = W11 m ρ c (Proc.devRef .tc main_arg16) :=
  W12_of_ne m ρ c main_arg16 (by decide)
theorem reg5_arg17 (c : Dev nD) : W12 m ρ c (Proc.devRef .tc main_arg17) = W11 m ρ c (Proc.devRef .tc main_arg17) :=
  W12_of_ne m ρ c main_arg17 (by decide)
theorem reg5_arg18 (c : Dev nD) : W12 m ρ c (Proc.devRef .tc main_arg18) = W11 m ρ c (Proc.devRef .tc main_arg18) :=
  W12_of_ne m ρ c main_arg18 (by decide)
theorem reg5_arg19 (c : Dev nD) : W12 m ρ c (Proc.devRef .tc main_arg19) = W11 m ρ c (Proc.devRef .tc main_arg19) :=
  W12_of_ne m ρ c main_arg19 (by decide)
theorem reg5_arg20 (c : Dev nD) : W12 m ρ c (Proc.devRef .tc main_arg20) = W11 m ρ c (Proc.devRef .tc main_arg20) :=
  W12_of_ne m ρ c main_arg20 (by decide)
theorem reg5_arg21 (c : Dev nD) : W12 m ρ c (Proc.devRef .tc main_arg21) = W11 m ρ c (Proc.devRef .tc main_arg21) :=
  W12_of_ne m ρ c main_arg21 (by decide)
theorem reg5_arg22 (c : Dev nD) : W12 m ρ c (Proc.devRef .tc main_arg22) = W11 m ρ c (Proc.devRef .tc main_arg22) :=
  W12_of_ne m ρ c main_arg22 (by decide)
theorem reg5_arg23 (c : Dev nD) : W12 m ρ c (Proc.devRef .tc main_arg23) = W11 m ρ c (Proc.devRef .tc main_arg23) :=
  W12_of_ne m ρ c main_arg23 (by decide)
theorem reg5_arg24 (c : Dev nD) : W12 m ρ c (Proc.devRef .tc main_arg24) = W11 m ρ c (Proc.devRef .tc main_arg24) :=
  W12_of_ne m ρ c main_arg24 (by decide)
theorem reg5_arg25 (c : Dev nD) : W12 m ρ c (Proc.devRef .tc main_arg25) = W11 m ρ c (Proc.devRef .tc main_arg25) :=
  W12_of_ne m ρ c main_arg25 (by decide)
theorem reg5_arg26 (c : Dev nD) : W12 m ρ c (Proc.devRef .tc main_arg26) = W11 m ρ c (Proc.devRef .tc main_arg26) :=
  W12_of_ne m ρ c main_arg26 (by decide)
theorem reg5_arg27 (c : Dev nD) : W12 m ρ c (Proc.devRef .tc main_arg27) = W11 m ρ c (Proc.devRef .tc main_arg27) :=
  W12_of_ne m ρ c main_arg27 (by decide)
theorem reg5_arg28 (c : Dev nD) : W12 m ρ c (Proc.devRef .tc main_arg28) = W11 m ρ c (Proc.devRef .tc main_arg28) :=
  W12_of_ne m ρ c main_arg28 (by decide)
theorem reg5_arg29 (c : Dev nD) : W12 m ρ c (Proc.devRef .tc main_arg29) = W11 m ρ c (Proc.devRef .tc main_arg29) :=
  W12_of_ne m ρ c main_arg29 (by decide)
theorem reg5_arg30 (c : Dev nD) : W12 m ρ c (Proc.devRef .tc main_arg30) = W11 m ρ c (Proc.devRef .tc main_arg30) :=
  W12_of_ne m ρ c main_arg30 (by decide)
theorem reg5_arg31 (c : Dev nD) : W12 m ρ c (Proc.devRef .tc main_arg31) = W11 m ρ c (Proc.devRef .tc main_arg31) :=
  W12_of_ne m ρ c main_arg31 (by decide)
theorem reg5_arg32 (c : Dev nD) : W12 m ρ c (Proc.devRef .tc main_arg32) = W11 m ρ c (Proc.devRef .tc main_arg32) :=
  W12_of_ne m ρ c main_arg32 (by decide)
theorem reg5_arg33 (c : Dev nD) : W12 m ρ c (Proc.devRef .tc main_arg33) = W11 m ρ c (Proc.devRef .tc main_arg33) :=
  W12_of_ne m ρ c main_arg33 (by decide)

theorem args_reg5 (c : Dev nD) : argsOf (W12 m ρ c) = argsOf (W11 m ρ c) := by
  simp only [argsOf, reg5_arg0 m ρ c, reg5_arg1 m ρ c, reg5_arg2 m ρ c, reg5_arg3 m ρ c, reg5_arg4 m ρ c, reg5_arg5 m ρ c, reg5_arg6 m ρ c, reg5_arg7 m ρ c, reg5_arg8 m ρ c, reg5_arg9 m ρ c, reg5_arg10 m ρ c, reg5_arg11 m ρ c, reg5_arg12 m ρ c, reg5_arg13 m ρ c, reg5_arg14 m ρ c, reg5_arg15 m ρ c, reg5_arg16 m ρ c, reg5_arg17 m ρ c, reg5_arg18 m ρ c, reg5_arg19 m ρ c, reg5_arg20 m ρ c, reg5_arg21 m ρ c, reg5_arg22 m ρ c, reg5_arg23 m ρ c, reg5_arg24 m ρ c, reg5_arg25 m ρ c, reg5_arg26 m ρ c, reg5_arg27 m ρ c, reg5_arg28 m ρ c, reg5_arg29 m ρ c, reg5_arg30 m ρ c, reg5_arg31 m ρ c, reg5_arg32 m ρ c, reg5_arg33 m ρ c]

end Cert.KernelIdeal.Stages

end
-- ==== Proof.KStep12.lean ====
/-
  One step of the kernel's boundary chain: from what is known at boundary 11 (the argument arrays as launched; each live buffer at
  its intermediate array of the computation) to the same at boundary 12, across region 5 (its output's closed form; the rest is none of its arrays, or an input window's array, which is not written back).
-/
import proofs.«165753_j16037407883756_1_alg».proof.Proof.KRegArgs5
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step12 (A : Cert.Net.Args Ideal)
    (h : argsOf (W11 m ρ c) = A
      ∧ W11 m ρ c (Proc.devRef .tc main_v84) = col (Cert.Net.csNL A)
      ∧ W11 m ρ c (Proc.devRef .tc main_v83) = Cert.Net.mmN2 A
      ∧ W11 m ρ c (Proc.devRef .tc main_v77) = Cert.Net.bN2 A
      ∧ W11 m ρ c (Proc.devRef .tc main_v79) = Cert.Net.wL2 A
      ∧ W11 m ρ c (Proc.devRef .tc main_v81) = Cert.Net.bL2 A
      ∧ W11 m ρ c (Proc.devRef .tc main_v64) = Cert.Net.hn1 A
      ∧ W11 m ρ c (Proc.devRef .tc main_v7) = Cert.Net.csLN A
      ∧ W11 m ρ c (Proc.devRef .tc main_v15) = Cert.Net.cdLN A
      ∧ W11 m ρ c (Proc.devRef .tc main_v23) = Cert.Net.csNL A
      ∧ W11 m ρ c (Proc.devRef .tc main_v31) = Cert.Net.cdNL A) :
    argsOf (W12 m ρ c) = A
    ∧ W12 m ρ c (Proc.devRef .tc main_v85) = Cert.Net.mmL2 A
    ∧ W12 m ρ c (Proc.devRef .tc main_v83) = Cert.Net.mmN2 A
    ∧ W12 m ρ c (Proc.devRef .tc main_v77) = Cert.Net.bN2 A
    ∧ W12 m ρ c (Proc.devRef .tc main_v81) = Cert.Net.bL2 A
    ∧ W12 m ρ c (Proc.devRef .tc main_v7) = Cert.Net.csLN A
    ∧ W12 m ρ c (Proc.devRef .tc main_v15) = Cert.Net.cdLN A
    ∧ W12 m ρ c (Proc.devRef .tc main_v23) = Cert.Net.csNL A
    ∧ W12 m ρ c (Proc.devRef .tc main_v31) = Cert.Net.cdNL A := by
  obtain ⟨ha11, h11_v84, h11_v83, h11_v77, h11_v79, h11_v81, h11_v64, h11_v7, h11_v15, h11_v23, h11_v31⟩ := h
  have ha12 : argsOf (W12 m ρ c) = A := (args_reg5 m ρ c).trans ha11
  have g12_0 : V11 m ρ c (Pipeline.arrRef spec5 0) = Cert.Net.hn1 A := h11_v64
  have g12_1 : V11 m ρ c (Pipeline.arrRef spec5 1) = col (Cert.Net.csNL A) := h11_v84
  have g12_2 : V11 m ρ c (Pipeline.arrRef spec5 2) = Cert.Net.wL2 A := h11_v79
  have h12_v85 : W12 m ρ c (Proc.devRef .tc main_v85) = Cert.Net.mmL2 A :=
    (W12_arr m ρ c 3).trans ((Cert.KernelIdeal.Regions.region5_out (V11 m ρ) c).trans ((congr (congr (congrArg (Cert.Spec.scaleMatmul128 (F := Ideal)) g12_0) g12_1) g12_2).trans rfl))
  have h12_v83 : W12 m ρ c (Proc.devRef .tc main_v83) = Cert.Net.mmN2 A :=
    (W12_of_ne m ρ c main_v83 (by decide)).trans h11_v83
  have h12_v77 : W12 m ρ c (Proc.devRef .tc main_v77) = Cert.Net.bN2 A :=
    (W12_of_ne m ρ c main_v77 (by decide)).trans h11_v77
  have h12_v81 : W12 m ρ c (Proc.devRef .tc main_v81) = Cert.Net.bL2 A :=
    (W12_of_ne m ρ c main_v81 (by decide)).trans h11_v81
  have h12_v7 : W12 m ρ c (Proc.devRef .tc main_v7) = Cert.Net.csLN A :=
    (W12_of_ne m ρ c main_v7 (by decide)).trans h11_v7
  have h12_v15 : W12 m ρ c (Proc.devRef .tc main_v15) = Cert.Net.cdLN A :=
    (W12_of_ne m ρ c main_v15 (by decide)).trans h11_v15
  have h12_v23 : W12 m ρ c (Proc.devRef .tc main_v23) = Cert.Net.csNL A :=
    (W12_of_ne m ρ c main_v23 (by decide)).trans h11_v23
  have h12_v31 : W12 m ρ c (Proc.devRef .tc main_v31) = Cert.Net.cdNL A :=
    (W12_of_ne m ρ c main_v31 (by decide)).trans h11_v31
  exact ⟨ha12, h12_v85, h12_v83, h12_v77, h12_v81, h12_v7, h12_v15, h12_v23, h12_v31⟩

end Cert.KernelIdeal.Stages

end
-- ==== Proof.KStage_h6.lean ====
/-
  A host stretch of the kernel program (h6): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h6 : List (Ref sig .tc) :=
  [ main_c_20, main_v86, main_v87, main_c_21, main_v88, main_v89, main_v90, main_v91, main_v92, main_cst_22, main_v93, main_v94, main_v95, main_c_23, main_v96, main_v97, main_c_24, main_v98, main_v99, main_v100, main_v101, main_v102, main_cst_25, main_v103, main_v104, main_v105, main_v106, main_v107, main_v108, main_v109, main_v110, main_v111, main_v112, main_v113 ]

theorem writes_h6 : (hostOps6 : List (HloOp τ sig (Elt F))).Forall fun op => op.writes ⊆ (written_h6.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h6 (V : Valuation τ sig (Elt F)) {r : Ref sig .tc} (h : r ∉ written_h6) :
    after hostOps6 V (Proc.devRef .tc r) = V (Proc.devRef .tc r) := after_of_writes_sub hostOps6 V writes_h6 h

/-- The stretch leaves the argument arrays as it found them. -/
theorem args_h6 (V : Valuation τ sig (Elt F)) : argsOf (after hostOps6 V) = argsOf V := by
  simp only [argsOf, keep_h6 V (r := main_arg0) (by decide), keep_h6 V (r := main_arg1) (by decide), keep_h6 V (r := main_arg2) (by decide), keep_h6 V (r := main_arg3) (by decide), keep_h6 V (r := main_arg4) (by decide), keep_h6 V (r := main_arg5) (by decide), keep_h6 V (r := main_arg6) (by decide), keep_h6 V (r := main_arg7) (by decide), keep_h6 V (r := main_arg8) (by decide), keep_h6 V (r := main_arg9) (by decide), keep_h6 V (r := main_arg10) (by decide), keep_h6 V (r := main_arg11) (by decide), keep_h6 V (r := main_arg12) (by decide), keep_h6 V (r := main_arg13) (by decide), keep_h6 V (r := main_arg14) (by decide), keep_h6 V (r := main_arg15) (by decide), keep_h6 V (r := main_arg16) (by decide), keep_h6 V (r := main_arg17) (by decide), keep_h6 V (r := main_arg18) (by decide), keep_h6 V (r := main_arg19) (by decide), keep_h6 V (r := main_arg20) (by decide), keep_h6 V (r := main_arg21) (by decide), keep_h6 V (r := main_arg22) (by decide), keep_h6 V (r := main_arg23) (by decide), keep_h6 V (r := main_arg24) (by decide), keep_h6 V (r := main_arg25) (by decide), keep_h6 V (r := main_arg26) (by decide), keep_h6 V (r := main_arg27) (by decide), keep_h6 V (r := main_arg28) (by decide), keep_h6 V (r := main_arg29) (by decide), keep_h6 V (r := main_arg30) (by decide), keep_h6 V (r := main_arg31) (by decide), keep_h6 V (r := main_arg32) (by decide), keep_h6 V (r := main_arg33) (by decide)]

attribute [local irreducible] Host.reduceAdd Host.gather Host.scatterAdd in
set_option maxRecDepth 16384 in
set_option maxHeartbeats 4000000 in
theorem out_h6_v95 (V : Valuation τ sig (Elt F)) :
    after hostOps6 V (Proc.devRef .tc main_v95) = aggregate (V (Proc.devRef .tc main_v83)) (argsOf V).a2 (argsOf V).a3 := by
  simp only [after_cons, after_nil]
  rfl

attribute [local irreducible] Host.reduceAdd Host.gather Host.scatterAdd in
set_option maxRecDepth 16384 in
set_option maxHeartbeats 4000000 in
theorem out_h6_v105 (V : Valuation τ sig (Elt F)) :
    after hostOps6 V (Proc.devRef .tc main_v105) = aggregate (V (Proc.devRef .tc main_v85)) (argsOf V).a4 (argsOf V).a5 := by
  simp only [after_cons, after_nil]
  rfl

attribute [local irreducible] Host.reduceAdd Host.gather Host.scatterAdd in
set_option maxRecDepth 16384 in
set_option maxHeartbeats 4000000 in
theorem out_h6_v110 (V : Valuation τ sig (Elt F)) :
    after hostOps6 V (Proc.devRef .tc main_v110) = col (V (Proc.devRef .tc main_v15)) := by
  simp only [after_cons, after_nil]
  exact Eq.trans rfl (Cert.Glue.col_eq 100000 (V (Proc.devRef .tc main_v15)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h6_v111 (V : Valuation τ sig (Elt F)) :
    after hostOps6 V (Proc.devRef .tc main_v111) = row (V (Proc.devRef .tc main_v77)) := by
  simp only [after_cons, after_nil]
  exact Eq.trans rfl (Cert.Glue.row_eq 128 (V (Proc.devRef .tc main_v77)) shapeCasts_S128_S1x128 Cert.ReferenceIdeal.Gen.bcast_S128_S1x128_1)

attribute [local irreducible] Host.reduceAdd Host.gather Host.scatterAdd in
set_option maxRecDepth 16384 in
set_option maxHeartbeats 4000000 in
theorem out_h6_v112 (V : Valuation τ sig (Elt F)) :
    after hostOps6 V (Proc.devRef .tc main_v112) = row (ln3_1 (argsOf V).a14) := by
  simp only [after_cons, after_nil]
  exact Eq.trans rfl (Cert.Glue.row_eq 128 (ln3_1 (argsOf V).a14) shapeCasts_S128_S1x128 Cert.ReferenceIdeal.Gen.bcast_S128_S1x128_1)

attribute [local irreducible] Host.reduceAdd Host.gather Host.scatterAdd in
set_option maxRecDepth 16384 in
set_option maxHeartbeats 4000000 in
theorem out_h6_v113 (V : Valuation τ sig (Elt F)) :
    after hostOps6 V (Proc.devRef .tc main_v113) = row (ln3_1 (argsOf V).a15) := by
  simp only [after_cons, after_nil]
  exact Eq.trans rfl (Cert.Glue.row_eq 128 (ln3_1 (argsOf V).a15) shapeCasts_S128_S1x128 Cert.ReferenceIdeal.Gen.bcast_S128_S1x128_1)

end Cert.KernelIdeal.Stages

end
-- ==== Proof.KStep13.lean ====
/-
  One step of the kernel's boundary chain: from what is known at boundary 12 (the argument arrays as launched; each live buffer at
  its intermediate array of the computation) to the same at boundary 13, across host stretch 6 (its stage equations; the rest kept).
-/
import proofs.«165753_j16037407883756_1_alg».proof.Proof.KStage_h6
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step13 (A : Cert.Net.Args Ideal)
    (h : argsOf (W12 m ρ c) = A
      ∧ W12 m ρ c (Proc.devRef .tc main_v85) = Cert.Net.mmL2 A
      ∧ W12 m ρ c (Proc.devRef .tc main_v83) = Cert.Net.mmN2 A
      ∧ W12 m ρ c (Proc.devRef .tc main_v77) = Cert.Net.bN2 A
      ∧ W12 m ρ c (Proc.devRef .tc main_v81) = Cert.Net.bL2 A
      ∧ W12 m ρ c (Proc.devRef .tc main_v7) = Cert.Net.csLN A
      ∧ W12 m ρ c (Proc.devRef .tc main_v15) = Cert.Net.cdLN A
      ∧ W12 m ρ c (Proc.devRef .tc main_v23) = Cert.Net.csNL A
      ∧ W12 m ρ c (Proc.devRef .tc main_v31) = Cert.Net.cdNL A) :
    argsOf (W13 m ρ c) = A
    ∧ W13 m ρ c (Proc.devRef .tc main_v95) = Cert.Net.aggN2 A
    ∧ W13 m ρ c (Proc.devRef .tc main_v105) = Cert.Net.aggL2 A
    ∧ W13 m ρ c (Proc.devRef .tc main_v110) = col (Cert.Net.cdLN A)
    ∧ W13 m ρ c (Proc.devRef .tc main_v111) = row (Cert.Net.bN2 A)
    ∧ W13 m ρ c (Proc.devRef .tc main_v112) = row (ln3_1 A.a14)
    ∧ W13 m ρ c (Proc.devRef .tc main_v113) = row (ln3_1 A.a15)
    ∧ W13 m ρ c (Proc.devRef .tc main_v81) = Cert.Net.bL2 A
    ∧ W13 m ρ c (Proc.devRef .tc main_v7) = Cert.Net.csLN A
    ∧ W13 m ρ c (Proc.devRef .tc main_v15) = Cert.Net.cdLN A
    ∧ W13 m ρ c (Proc.devRef .tc main_v23) = Cert.Net.csNL A
    ∧ W13 m ρ c (Proc.devRef .tc main_v31) = Cert.Net.cdNL A := by
  obtain ⟨ha12, h12_v85, h12_v83, h12_v77, h12_v81, h12_v7, h12_v15, h12_v23, h12_v31⟩ := h
  have ha13 : argsOf (W13 m ρ c) = A := (args_h6 (W12 m ρ c)).trans ha12
  have e13_2 : W12 m ρ c (Proc.devRef .tc main_arg2) = A.a2 := congrArg (fun X : Cert.Net.Args Ideal => X.a2) ha12
  have e13_3 : W12 m ρ c (Proc.devRef .tc main_arg3) = A.a3 := congrArg (fun X : Cert.Net.Args Ideal => X.a3) ha12
  have h13_v95 : W13 m ρ c (Proc.devRef .tc main_v95) = Cert.Net.aggN2 A := by
    refine (out_h6_v95 (W12 m ρ c)).trans ?_
    (try simp only [e13_2, e13_3, h12_v83]); (try rfl)
  have e13_4 : W12 m ρ c (Proc.devRef .tc main_arg4) = A.a4 := congrArg (fun X : Cert.Net.Args Ideal => X.a4) ha12
  have e13_5 : W12 m ρ c (Proc.devRef .tc main_arg5) = A.a5 := congrArg (fun X : Cert.Net.Args Ideal => X.a5) ha12
  have h13_v105 : W13 m ρ c (Proc.devRef .tc main_v105) = Cert.Net.aggL2 A := by
    refine (out_h6_v105 (W12 m ρ c)).trans ?_
    (try simp only [e13_4, e13_5, h12_v85]); (try rfl)
  have h13_v110 : W13 m ρ c (Proc.devRef .tc main_v110) = col (Cert.Net.cdLN A) := by
    refine (out_h6_v110 (W12 m ρ c)).trans ?_
    (try simp only [h12_v15]); (try rfl)
  have h13_v111 : W13 m ρ c (Proc.devRef .tc main_v111) = row (Cert.Net.bN2 A) := by
    refine (out_h6_v111 (W12 m ρ c)).trans ?_
    (try simp only [h12_v77]); (try rfl)
  have e13_14 : W12 m ρ c (Proc.devRef .tc main_arg14) = A.a14 := congrArg (fun X : Cert.Net.Args Ideal => X.a14) ha12
  have h13_v112 : W13 m ρ c (Proc.devRef .tc main_v112) = row (ln3_1 A.a14) := by
    refine (out_h6_v112 (W12 m ρ c)).trans ?_
    (try simp only [e13_14]); (try rfl)
  have e13_15 : W12 m ρ c (Proc.devRef .tc main_arg15) = A.a15 := congrArg (fun X : Cert.Net.Args Ideal => X.a15) ha12
  have h13_v113 : W13 m ρ c (Proc.devRef .tc main_v113) = row (ln3_1 A.a15) := by
    refine (out_h6_v113 (W12 m ρ c)).trans ?_
    (try simp only [e13_15]); (try rfl)
  have h13_v81 : W13 m ρ c (Proc.devRef .tc main_v81) = Cert.Net.bL2 A :=
    (keep_h6 (W12 m ρ c) (by decide)).trans h12_v81
  have h13_v7 : W13 m ρ c (Proc.devRef .tc main_v7) = Cert.Net.csLN A :=
    (keep_h6 (W12 m ρ c) (by decide)).trans h12_v7
  have h13_v15 : W13 m ρ c (Proc.devRef .tc main_v15) = Cert.Net.cdLN A :=
    (keep_h6 (W12 m ρ c) (by decide)).trans h12_v15
  have h13_v23 : W13 m ρ c (Proc.devRef .tc main_v23) = Cert.Net.csNL A :=
    (keep_h6 (W12 m ρ c) (by decide)).trans h12_v23
  have h13_v31 : W13 m ρ c (Proc.devRef .tc main_v31) = Cert.Net.cdNL A :=
    (keep_h6 (W12 m ρ c) (by decide)).trans h12_v31
  exact ⟨ha13, h13_v95, h13_v105, h13_v110, h13_v111, h13_v112, h13_v113, h13_v81, h13_v7, h13_v15, h13_v23, h13_v31⟩

end Cert.KernelIdeal.Stages

end
-- ==== Proof.KRegArgs6.lean ====
/-
  Region 6 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg6_arg0 (c : Dev nD) : W14 m ρ c (Proc.devRef .tc main_arg0) = W13 m ρ c (Proc.devRef .tc main_arg0) :=
  W14_of_ne m ρ c main_arg0 (by decide)
theorem reg6_arg1 (c : Dev nD) : W14 m ρ c (Proc.devRef .tc main_arg1) = W13 m ρ c (Proc.devRef .tc main_arg1) :=
  W14_of_ne m ρ c main_arg1 (by decide)
theorem reg6_arg2 (c : Dev nD) : W14 m ρ c (Proc.devRef .tc main_arg2) = W13 m ρ c (Proc.devRef .tc main_arg2) :=
  W14_of_ne m ρ c main_arg2 (by decide)
theorem reg6_arg3 (c : Dev nD) : W14 m ρ c (Proc.devRef .tc main_arg3) = W13 m ρ c (Proc.devRef .tc main_arg3) :=
  W14_of_ne m ρ c main_arg3 (by decide)
theorem reg6_arg4 (c : Dev nD) : W14 m ρ c (Proc.devRef .tc main_arg4) = W13 m ρ c (Proc.devRef .tc main_arg4) :=
  W14_of_ne m ρ c main_arg4 (by decide)
theorem reg6_arg5 (c : Dev nD) : W14 m ρ c (Proc.devRef .tc main_arg5) = W13 m ρ c (Proc.devRef .tc main_arg5) :=
  W14_of_ne m ρ c main_arg5 (by decide)
theorem reg6_arg6 (c : Dev nD) : W14 m ρ c (Proc.devRef .tc main_arg6) = W13 m ρ c (Proc.devRef .tc main_arg6) :=
  W14_of_ne m ρ c main_arg6 (by decide)
theorem reg6_arg7 (c : Dev nD) : W14 m ρ c (Proc.devRef .tc main_arg7) = W13 m ρ c (Proc.devRef .tc main_arg7) :=
  W14_of_ne m ρ c main_arg7 (by decide)
theorem reg6_arg8 (c : Dev nD) : W14 m ρ c (Proc.devRef .tc main_arg8) = W13 m ρ c (Proc.devRef .tc main_arg8) :=
  W14_of_ne m ρ c main_arg8 (by decide)
theorem reg6_arg9 (c : Dev nD) : W14 m ρ c (Proc.devRef .tc main_arg9) = W13 m ρ c (Proc.devRef .tc main_arg9) :=
  W14_of_ne m ρ c main_arg9 (by decide)
theorem reg6_arg10 (c : Dev nD) : W14 m ρ c (Proc.devRef .tc main_arg10) = W13 m ρ c (Proc.devRef .tc main_arg10) :=
  W14_of_ne m ρ c main_arg10 (by decide)
theorem reg6_arg11 (c : Dev nD) : W14 m ρ c (Proc.devRef .tc main_arg11) = W13 m ρ c (Proc.devRef .tc main_arg11) :=
  W14_of_ne m ρ c main_arg11 (by decide)
theorem reg6_arg12 (c : Dev nD) : W14 m ρ c (Proc.devRef .tc main_arg12) = W13 m ρ c (Proc.devRef .tc main_arg12) :=
  W14_of_ne m ρ c main_arg12 (by decide)
theorem reg6_arg13 (c : Dev nD) : W14 m ρ c (Proc.devRef .tc main_arg13) = W13 m ρ c (Proc.devRef .tc main_arg13) :=
  W14_of_ne m ρ c main_arg13 (by decide)
theorem reg6_arg14 (c : Dev nD) : W14 m ρ c (Proc.devRef .tc main_arg14) = W13 m ρ c (Proc.devRef .tc main_arg14) :=
  W14_of_ne m ρ c main_arg14 (by decide)
theorem reg6_arg15 (c : Dev nD) : W14 m ρ c (Proc.devRef .tc main_arg15) = W13 m ρ c (Proc.devRef .tc main_arg15) :=
  W14_of_ne m ρ c main_arg15 (by decide)
theorem reg6_arg16 (c : Dev nD) : W14 m ρ c (Proc.devRef .tc main_arg16) = W13 m ρ c (Proc.devRef .tc main_arg16) :=
  W14_of_ne m ρ c main_arg16 (by decide)
theorem reg6_arg17 (c : Dev nD) : W14 m ρ c (Proc.devRef .tc main_arg17) = W13 m ρ c (Proc.devRef .tc main_arg17) :=
  W14_of_ne m ρ c main_arg17 (by decide)
theorem reg6_arg18 (c : Dev nD) : W14 m ρ c (Proc.devRef .tc main_arg18) = W13 m ρ c (Proc.devRef .tc main_arg18) :=
  W14_of_ne m ρ c main_arg18 (by decide)
theorem reg6_arg19 (c : Dev nD) : W14 m ρ c (Proc.devRef .tc main_arg19) = W13 m ρ c (Proc.devRef .tc main_arg19) :=
  W14_of_ne m ρ c main_arg19 (by decide)
theorem reg6_arg20 (c : Dev nD) : W14 m ρ c (Proc.devRef .tc main_arg20) = W13 m ρ c (Proc.devRef .tc main_arg20) :=
  W14_of_ne m ρ c main_arg20 (by decide)
theorem reg6_arg21 (c : Dev nD) : W14 m ρ c (Proc.devRef .tc main_arg21) = W13 m ρ c (Proc.devRef .tc main_arg21) :=
  W14_of_ne m ρ c main_arg21 (by decide)
theorem reg6_arg22 (c : Dev nD) : W14 m ρ c (Proc.devRef .tc main_arg22) = W13 m ρ c (Proc.devRef .tc main_arg22) :=
  W14_of_ne m ρ c main_arg22 (by decide)
theorem reg6_arg23 (c : Dev nD) : W14 m ρ c (Proc.devRef .tc main_arg23) = W13 m ρ c (Proc.devRef .tc main_arg23) :=
  W14_of_ne m ρ c main_arg23 (by decide)
theorem reg6_arg24 (c : Dev nD) : W14 m ρ c (Proc.devRef .tc main_arg24) = W13 m ρ c (Proc.devRef .tc main_arg24) :=
  W14_of_ne m ρ c main_arg24 (by decide)
theorem reg6_arg25 (c : Dev nD) : W14 m ρ c (Proc.devRef .tc main_arg25) = W13 m ρ c (Proc.devRef .tc main_arg25) :=
  W14_of_ne m ρ c main_arg25 (by decide)
theorem reg6_arg26 (c : Dev nD) : W14 m ρ c (Proc.devRef .tc main_arg26) = W13 m ρ c (Proc.devRef .tc main_arg26) :=
  W14_of_ne m ρ c main_arg26 (by decide)
theorem reg6_arg27 (c : Dev nD) : W14 m ρ c (Proc.devRef .tc main_arg27) = W13 m ρ c (Proc.devRef .tc main_arg27) :=
  W14_of_ne m ρ c main_arg27 (by decide)
theorem reg6_arg28 (c : Dev nD) : W14 m ρ c (Proc.devRef .tc main_arg28) = W13 m ρ c (Proc.devRef .tc main_arg28) :=
  W14_of_ne m ρ c main_arg28 (by decide)
theorem reg6_arg29 (c : Dev nD) : W14 m ρ c (Proc.devRef .tc main_arg29) = W13 m ρ c (Proc.devRef .tc main_arg29) :=
  W14_of_ne m ρ c main_arg29 (by decide)
theorem reg6_arg30 (c : Dev nD) : W14 m ρ c (Proc.devRef .tc main_arg30) = W13 m ρ c (Proc.devRef .tc main_arg30) :=
  W14_of_ne m ρ c main_arg30 (by decide)
theorem reg6_arg31 (c : Dev nD) : W14 m ρ c (Proc.devRef .tc main_arg31) = W13 m ρ c (Proc.devRef .tc main_arg31) :=
  W14_of_ne m ρ c main_arg31 (by decide)
theorem reg6_arg32 (c : Dev nD) : W14 m ρ c (Proc.devRef .tc main_arg32) = W13 m ρ c (Proc.devRef .tc main_arg32) :=
  W14_of_ne m ρ c main_arg32 (by decide)
theorem reg6_arg33 (c : Dev nD) : W14 m ρ c (Proc.devRef .tc main_arg33) = W13 m ρ c (Proc.devRef .tc main_arg33) :=
  W14_of_ne m ρ c main_arg33 (by decide)

theorem args_reg6 (c : Dev nD) : argsOf (W14 m ρ c) = argsOf (W13 m ρ c) := by
  simp only [argsOf, reg6_arg0 m ρ c, reg6_arg1 m ρ c, reg6_arg2 m ρ c, reg6_arg3 m ρ c, reg6_arg4 m ρ c, reg6_arg5 m ρ c, reg6_arg6 m ρ c, reg6_arg7 m ρ c, reg6_arg8 m ρ c, reg6_arg9 m ρ c, reg6_arg10 m ρ c, reg6_arg11 m ρ c, reg6_arg12 m ρ c, reg6_arg13 m ρ c, reg6_arg14 m ρ c, reg6_arg15 m ρ c, reg6_arg16 m ρ c, reg6_arg17 m ρ c, reg6_arg18 m ρ c, reg6_arg19 m ρ c, reg6_arg20 m ρ c, reg6_arg21 m ρ c, reg6_arg22 m ρ c, reg6_arg23 m ρ c, reg6_arg24 m ρ c, reg6_arg25 m ρ c, reg6_arg26 m ρ c, reg6_arg27 m ρ c, reg6_arg28 m ρ c, reg6_arg29 m ρ c, reg6_arg30 m ρ c, reg6_arg31 m ρ c, reg6_arg32 m ρ c, reg6_arg33 m ρ c]

end Cert.KernelIdeal.Stages

end
-- ==== Proof.KStep14.lean ====
/-
  One step of the kernel's boundary chain: from what is known at boundary 13 (the argument arrays as launched; each live buffer at
  its intermediate array of the computation) to the same at boundary 14, across region 6 (its output's closed form; the rest is none of its arrays, or an input window's array, which is not written back).
-/
import proofs.«165753_j16037407883756_1_alg».proof.Proof.KRegArgs6
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step14 (A : Cert.Net.Args Ideal)
    (h : argsOf (W13 m ρ c) = A
      ∧ W13 m ρ c (Proc.devRef .tc main_v95) = Cert.Net.aggN2 A
      ∧ W13 m ρ c (Proc.devRef .tc main_v105) = Cert.Net.aggL2 A
      ∧ W13 m ρ c (Proc.devRef .tc main_v110) = col (Cert.Net.cdLN A)
      ∧ W13 m ρ c (Proc.devRef .tc main_v111) = row (Cert.Net.bN2 A)
      ∧ W13 m ρ c (Proc.devRef .tc main_v112) = row (ln3_1 A.a14)
      ∧ W13 m ρ c (Proc.devRef .tc main_v113) = row (ln3_1 A.a15)
      ∧ W13 m ρ c (Proc.devRef .tc main_v81) = Cert.Net.bL2 A
      ∧ W13 m ρ c (Proc.devRef .tc main_v7) = Cert.Net.csLN A
      ∧ W13 m ρ c (Proc.devRef .tc main_v15) = Cert.Net.cdLN A
      ∧ W13 m ρ c (Proc.devRef .tc main_v23) = Cert.Net.csNL A
      ∧ W13 m ρ c (Proc.devRef .tc main_v31) = Cert.Net.cdNL A) :
    argsOf (W14 m ρ c) = A
    ∧ W14 m ρ c (Proc.devRef .tc main_v114) = Cert.Net.hn2 A
    ∧ W14 m ρ c (Proc.devRef .tc main_v105) = Cert.Net.aggL2 A
    ∧ W14 m ρ c (Proc.devRef .tc main_v81) = Cert.Net.bL2 A
    ∧ W14 m ρ c (Proc.devRef .tc main_v7) = Cert.Net.csLN A
    ∧ W14 m ρ c (Proc.devRef .tc main_v15) = Cert.Net.cdLN A
    ∧ W14 m ρ c (Proc.devRef .tc main_v23) = Cert.Net.csNL A
    ∧ W14 m ρ c (Proc.devRef .tc main_v31) = Cert.Net.cdNL A := by
  obtain ⟨ha13, h13_v95, h13_v105, h13_v110, h13_v111, h13_v112, h13_v113, h13_v81, h13_v7, h13_v15, h13_v23, h13_v31⟩ := h
  have ha14 : argsOf (W14 m ρ c) = A := (args_reg6 m ρ c).trans ha13
  have g14_0 : V13 m ρ c (Pipeline.arrRef spec6 0) = Cert.Net.aggN2 A := h13_v95
  have g14_1 : V13 m ρ c (Pipeline.arrRef spec6 1) = col (Cert.Net.cdLN A) := h13_v110
  have g14_2 : V13 m ρ c (Pipeline.arrRef spec6 2) = row (Cert.Net.bN2 A) := h13_v111
  have g14_3 : V13 m ρ c (Pipeline.arrRef spec6 3) = row (ln3_1 A.a14) := h13_v112
  have g14_4 : V13 m ρ c (Pipeline.arrRef spec6 4) = row (ln3_1 A.a15) := h13_v113
  have h14_v114 : W14 m ρ c (Proc.devRef .tc main_v114) = Cert.Net.hn2 A :=
    (W14_arr m ρ c 5).trans ((Cert.KernelIdeal.Regions.region6_out (V13 m ρ) c).trans ((congr (congr (congr (congr (congrArg (Cert.Spec.lnElu (F := Ideal)) g14_0) g14_1) g14_2) g14_3) g14_4).trans rfl))
  have h14_v105 : W14 m ρ c (Proc.devRef .tc main_v105) = Cert.Net.aggL2 A :=
    (W14_of_ne m ρ c main_v105 (by decide)).trans h13_v105
  have h14_v81 : W14 m ρ c (Proc.devRef .tc main_v81) = Cert.Net.bL2 A :=
    (W14_of_ne m ρ c main_v81 (by decide)).trans h13_v81
  have h14_v7 : W14 m ρ c (Proc.devRef .tc main_v7) = Cert.Net.csLN A :=
    (W14_of_ne m ρ c main_v7 (by decide)).trans h13_v7
  have h14_v15 : W14 m ρ c (Proc.devRef .tc main_v15) = Cert.Net.cdLN A :=
    (W14_of_ne m ρ c main_v15 (by decide)).trans h13_v15
  have h14_v23 : W14 m ρ c (Proc.devRef .tc main_v23) = Cert.Net.csNL A :=
    (W14_of_ne m ρ c main_v23 (by decide)).trans h13_v23
  have h14_v31 : W14 m ρ c (Proc.devRef .tc main_v31) = Cert.Net.cdNL A :=
    (W14_of_ne m ρ c main_v31 (by decide)).trans h13_v31
  exact ⟨ha14, h14_v114, h14_v105, h14_v81, h14_v7, h14_v15, h14_v23, h14_v31⟩

end Cert.KernelIdeal.Stages

end
-- ==== Proof.KStage_h7.lean ====
/-
  A host stretch of the kernel program (h7): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h7 : List (Ref sig .tc) :=
  [ main_v115, main_v116, main_v117, main_v118, main_v119, main_v120, main_v121, main_v122 ]

theorem writes_h7 : (hostOps7 : List (HloOp τ sig (Elt F))).Forall fun op => op.writes ⊆ (written_h7.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h7 (V : Valuation τ sig (Elt F)) {r : Ref sig .tc} (h : r ∉ written_h7) :
    after hostOps7 V (Proc.devRef .tc r) = V (Proc.devRef .tc r) := after_of_writes_sub hostOps7 V writes_h7 h

/-- The stretch leaves the argument arrays as it found them. -/
theorem args_h7 (V : Valuation τ sig (Elt F)) : argsOf (after hostOps7 V) = argsOf V := by
  simp only [argsOf, keep_h7 V (r := main_arg0) (by decide), keep_h7 V (r := main_arg1) (by decide), keep_h7 V (r := main_arg2) (by decide), keep_h7 V (r := main_arg3) (by decide), keep_h7 V (r := main_arg4) (by decide), keep_h7 V (r := main_arg5) (by decide), keep_h7 V (r := main_arg6) (by decide), keep_h7 V (r := main_arg7) (by decide), keep_h7 V (r := main_arg8) (by decide), keep_h7 V (r := main_arg9) (by decide), keep_h7 V (r := main_arg10) (by decide), keep_h7 V (r := main_arg11) (by decide), keep_h7 V (r := main_arg12) (by decide), keep_h7 V (r := main_arg13) (by decide), keep_h7 V (r := main_arg14) (by decide), keep_h7 V (r := main_arg15) (by decide), keep_h7 V (r := main_arg16) (by decide), keep_h7 V (r := main_arg17) (by decide), keep_h7 V (r := main_arg18) (by decide), keep_h7 V (r := main_arg19) (by decide), keep_h7 V (r := main_arg20) (by decide), keep_h7 V (r := main_arg21) (by decide), keep_h7 V (r := main_arg22) (by decide), keep_h7 V (r := main_arg23) (by decide), keep_h7 V (r := main_arg24) (by decide), keep_h7 V (r := main_arg25) (by decide), keep_h7 V (r := main_arg26) (by decide), keep_h7 V (r := main_arg27) (by decide), keep_h7 V (r := main_arg28) (by decide), keep_h7 V (r := main_arg29) (by decide), keep_h7 V (r := main_arg30) (by decide), keep_h7 V (r := main_arg31) (by decide), keep_h7 V (r := main_arg32) (by decide), keep_h7 V (r := main_arg33) (by decide)]

attribute [local irreducible] Host.reduceAdd Host.gather Host.scatterAdd in
set_option maxRecDepth 16384 in
set_option maxHeartbeats 4000000 in
theorem out_h7_v119 (V : Valuation τ sig (Elt F)) :
    after hostOps7 V (Proc.devRef .tc main_v119) = col (V (Proc.devRef .tc main_v31)) := by
  simp only [after_cons, after_nil]
  exact Eq.trans rfl (Cert.Glue.col_eq 100000 (V (Proc.devRef .tc main_v31)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h7_v120 (V : Valuation τ sig (Elt F)) :
    after hostOps7 V (Proc.devRef .tc main_v120) = row (V (Proc.devRef .tc main_v81)) := by
  simp only [after_cons, after_nil]
  exact Eq.trans rfl (Cert.Glue.row_eq 128 (V (Proc.devRef .tc main_v81)) shapeCasts_S128_S1x128 Cert.ReferenceIdeal.Gen.bcast_S128_S1x128_1)

attribute [local irreducible] Host.reduceAdd Host.gather Host.scatterAdd in
set_option maxRecDepth 16384 in
set_option maxHeartbeats 4000000 in
theorem out_h7_v121 (V : Valuation τ sig (Elt F)) :
    after hostOps7 V (Proc.devRef .tc main_v121) = row (ln3_1 (argsOf V).a16) := by
  simp only [after_cons, after_nil]
  exact Eq.trans rfl (Cert.Glue.row_eq 128 (ln3_1 (argsOf V).a16) shapeCasts_S128_S1x128 Cert.ReferenceIdeal.Gen.bcast_S128_S1x128_1)

attribute [local irreducible] Host.reduceAdd Host.gather Host.scatterAdd in
set_option maxRecDepth 16384 in
set_option maxHeartbeats 4000000 in
theorem out_h7_v122 (V : Valuation τ sig (Elt F)) :
    after hostOps7 V (Proc.devRef .tc main_v122) = row (ln3_1 (argsOf V).a17) := by
  simp only [after_cons, after_nil]
  exact Eq.trans rfl (Cert.Glue.row_eq 128 (ln3_1 (argsOf V).a17) shapeCasts_S128_S1x128 Cert.ReferenceIdeal.Gen.bcast_S128_S1x128_1)

end Cert.KernelIdeal.Stages

end
-- ==== Proof.KStep15.lean ====
/-
  One step of the kernel's boundary chain: from what is known at boundary 14 (the argument arrays as launched; each live buffer at
  its intermediate array of the computation) to the same at boundary 15, across host stretch 7 (its stage equations; the rest kept).
-/
import proofs.«165753_j16037407883756_1_alg».proof.Proof.KStage_h7
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step15 (A : Cert.Net.Args Ideal)
    (h : argsOf (W14 m ρ c) = A
      ∧ W14 m ρ c (Proc.devRef .tc main_v114) = Cert.Net.hn2 A
      ∧ W14 m ρ c (Proc.devRef .tc main_v105) = Cert.Net.aggL2 A
      ∧ W14 m ρ c (Proc.devRef .tc main_v81) = Cert.Net.bL2 A
      ∧ W14 m ρ c (Proc.devRef .tc main_v7) = Cert.Net.csLN A
      ∧ W14 m ρ c (Proc.devRef .tc main_v15) = Cert.Net.cdLN A
      ∧ W14 m ρ c (Proc.devRef .tc main_v23) = Cert.Net.csNL A
      ∧ W14 m ρ c (Proc.devRef .tc main_v31) = Cert.Net.cdNL A) :
    argsOf (W15 m ρ c) = A
    ∧ W15 m ρ c (Proc.devRef .tc main_v119) = col (Cert.Net.cdNL A)
    ∧ W15 m ρ c (Proc.devRef .tc main_v120) = row (Cert.Net.bL2 A)
    ∧ W15 m ρ c (Proc.devRef .tc main_v121) = row (ln3_1 A.a16)
    ∧ W15 m ρ c (Proc.devRef .tc main_v122) = row (ln3_1 A.a17)
    ∧ W15 m ρ c (Proc.devRef .tc main_v114) = Cert.Net.hn2 A
    ∧ W15 m ρ c (Proc.devRef .tc main_v105) = Cert.Net.aggL2 A
    ∧ W15 m ρ c (Proc.devRef .tc main_v7) = Cert.Net.csLN A
    ∧ W15 m ρ c (Proc.devRef .tc main_v15) = Cert.Net.cdLN A
    ∧ W15 m ρ c (Proc.devRef .tc main_v23) = Cert.Net.csNL A
    ∧ W15 m ρ c (Proc.devRef .tc main_v31) = Cert.Net.cdNL A := by
  obtain ⟨ha14, h14_v114, h14_v105, h14_v81, h14_v7, h14_v15, h14_v23, h14_v31⟩ := h
  have ha15 : argsOf (W15 m ρ c) = A := (args_h7 (W14 m ρ c)).trans ha14
  have h15_v119 : W15 m ρ c (Proc.devRef .tc main_v119) = col (Cert.Net.cdNL A) := by
    refine (out_h7_v119 (W14 m ρ c)).trans ?_
    (try simp only [h14_v31]); (try rfl)
  have h15_v120 : W15 m ρ c (Proc.devRef .tc main_v120) = row (Cert.Net.bL2 A) := by
    refine (out_h7_v120 (W14 m ρ c)).trans ?_
    (try simp only [h14_v81]); (try rfl)
  have e15_16 : W14 m ρ c (Proc.devRef .tc main_arg16) = A.a16 := congrArg (fun X : Cert.Net.Args Ideal => X.a16) ha14
  have h15_v121 : W15 m ρ c (Proc.devRef .tc main_v121) = row (ln3_1 A.a16) := by
    refine (out_h7_v121 (W14 m ρ c)).trans ?_
    (try simp only [e15_16]); (try rfl)
  have e15_17 : W14 m ρ c (Proc.devRef .tc main_arg17) = A.a17 := congrArg (fun X : Cert.Net.Args Ideal => X.a17) ha14
  have h15_v122 : W15 m ρ c (Proc.devRef .tc main_v122) = row (ln3_1 A.a17) := by
    refine (out_h7_v122 (W14 m ρ c)).trans ?_
    (try simp only [e15_17]); (try rfl)
  have h15_v114 : W15 m ρ c (Proc.devRef .tc main_v114) = Cert.Net.hn2 A :=
    (keep_h7 (W14 m ρ c) (by decide)).trans h14_v114
  have h15_v105 : W15 m ρ c (Proc.devRef .tc main_v105) = Cert.Net.aggL2 A :=
    (keep_h7 (W14 m ρ c) (by decide)).trans h14_v105
  have h15_v7 : W15 m ρ c (Proc.devRef .tc main_v7) = Cert.Net.csLN A :=
    (keep_h7 (W14 m ρ c) (by decide)).trans h14_v7
  have h15_v15 : W15 m ρ c (Proc.devRef .tc main_v15) = Cert.Net.cdLN A :=
    (keep_h7 (W14 m ρ c) (by decide)).trans h14_v15
  have h15_v23 : W15 m ρ c (Proc.devRef .tc main_v23) = Cert.Net.csNL A :=
    (keep_h7 (W14 m ρ c) (by decide)).trans h14_v23
  have h15_v31 : W15 m ρ c (Proc.devRef .tc main_v31) = Cert.Net.cdNL A :=
    (keep_h7 (W14 m ρ c) (by decide)).trans h14_v31
  exact ⟨ha15, h15_v119, h15_v120, h15_v121, h15_v122, h15_v114, h15_v105, h15_v7, h15_v15, h15_v23, h15_v31⟩

end Cert.KernelIdeal.Stages

end
-- ==== Proof.KRegArgs7.lean ====
/-
  Region 7 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg7_arg0 (c : Dev nD) : W16 m ρ c (Proc.devRef .tc main_arg0) = W15 m ρ c (Proc.devRef .tc main_arg0) :=
  W16_of_ne m ρ c main_arg0 (by decide)
theorem reg7_arg1 (c : Dev nD) : W16 m ρ c (Proc.devRef .tc main_arg1) = W15 m ρ c (Proc.devRef .tc main_arg1) :=
  W16_of_ne m ρ c main_arg1 (by decide)
theorem reg7_arg2 (c : Dev nD) : W16 m ρ c (Proc.devRef .tc main_arg2) = W15 m ρ c (Proc.devRef .tc main_arg2) :=
  W16_of_ne m ρ c main_arg2 (by decide)
theorem reg7_arg3 (c : Dev nD) : W16 m ρ c (Proc.devRef .tc main_arg3) = W15 m ρ c (Proc.devRef .tc main_arg3) :=
  W16_of_ne m ρ c main_arg3 (by decide)
theorem reg7_arg4 (c : Dev nD) : W16 m ρ c (Proc.devRef .tc main_arg4) = W15 m ρ c (Proc.devRef .tc main_arg4) :=
  W16_of_ne m ρ c main_arg4 (by decide)
theorem reg7_arg5 (c : Dev nD) : W16 m ρ c (Proc.devRef .tc main_arg5) = W15 m ρ c (Proc.devRef .tc main_arg5) :=
  W16_of_ne m ρ c main_arg5 (by decide)
theorem reg7_arg6 (c : Dev nD) : W16 m ρ c (Proc.devRef .tc main_arg6) = W15 m ρ c (Proc.devRef .tc main_arg6) :=
  W16_of_ne m ρ c main_arg6 (by decide)
theorem reg7_arg7 (c : Dev nD) : W16 m ρ c (Proc.devRef .tc main_arg7) = W15 m ρ c (Proc.devRef .tc main_arg7) :=
  W16_of_ne m ρ c main_arg7 (by decide)
theorem reg7_arg8 (c : Dev nD) : W16 m ρ c (Proc.devRef .tc main_arg8) = W15 m ρ c (Proc.devRef .tc main_arg8) :=
  W16_of_ne m ρ c main_arg8 (by decide)
theorem reg7_arg9 (c : Dev nD) : W16 m ρ c (Proc.devRef .tc main_arg9) = W15 m ρ c (Proc.devRef .tc main_arg9) :=
  W16_of_ne m ρ c main_arg9 (by decide)
theorem reg7_arg10 (c : Dev nD) : W16 m ρ c (Proc.devRef .tc main_arg10) = W15 m ρ c (Proc.devRef .tc main_arg10) :=
  W16_of_ne m ρ c main_arg10 (by decide)
theorem reg7_arg11 (c : Dev nD) : W16 m ρ c (Proc.devRef .tc main_arg11) = W15 m ρ c (Proc.devRef .tc main_arg11) :=
  W16_of_ne m ρ c main_arg11 (by decide)
theorem reg7_arg12 (c : Dev nD) : W16 m ρ c (Proc.devRef .tc main_arg12) = W15 m ρ c (Proc.devRef .tc main_arg12) :=
  W16_of_ne m ρ c main_arg12 (by decide)
theorem reg7_arg13 (c : Dev nD) : W16 m ρ c (Proc.devRef .tc main_arg13) = W15 m ρ c (Proc.devRef .tc main_arg13) :=
  W16_of_ne m ρ c main_arg13 (by decide)
theorem reg7_arg14 (c : Dev nD) : W16 m ρ c (Proc.devRef .tc main_arg14) = W15 m ρ c (Proc.devRef .tc main_arg14) :=
  W16_of_ne m ρ c main_arg14 (by decide)
theorem reg7_arg15 (c : Dev nD) : W16 m ρ c (Proc.devRef .tc main_arg15) = W15 m ρ c (Proc.devRef .tc main_arg15) :=
  W16_of_ne m ρ c main_arg15 (by decide)
theorem reg7_arg16 (c : Dev nD) : W16 m ρ c (Proc.devRef .tc main_arg16) = W15 m ρ c (Proc.devRef .tc main_arg16) :=
  W16_of_ne m ρ c main_arg16 (by decide)
theorem reg7_arg17 (c : Dev nD) : W16 m ρ c (Proc.devRef .tc main_arg17) = W15 m ρ c (Proc.devRef .tc main_arg17) :=
  W16_of_ne m ρ c main_arg17 (by decide)
theorem reg7_arg18 (c : Dev nD) : W16 m ρ c (Proc.devRef .tc main_arg18) = W15 m ρ c (Proc.devRef .tc main_arg18) :=
  W16_of_ne m ρ c main_arg18 (by decide)
theorem reg7_arg19 (c : Dev nD) : W16 m ρ c (Proc.devRef .tc main_arg19) = W15 m ρ c (Proc.devRef .tc main_arg19) :=
  W16_of_ne m ρ c main_arg19 (by decide)
theorem reg7_arg20 (c : Dev nD) : W16 m ρ c (Proc.devRef .tc main_arg20) = W15 m ρ c (Proc.devRef .tc main_arg20) :=
  W16_of_ne m ρ c main_arg20 (by decide)
theorem reg7_arg21 (c : Dev nD) : W16 m ρ c (Proc.devRef .tc main_arg21) = W15 m ρ c (Proc.devRef .tc main_arg21) :=
  W16_of_ne m ρ c main_arg21 (by decide)
theorem reg7_arg22 (c : Dev nD) : W16 m ρ c (Proc.devRef .tc main_arg22) = W15 m ρ c (Proc.devRef .tc main_arg22) :=
  W16_of_ne m ρ c main_arg22 (by decide)
theorem reg7_arg23 (c : Dev nD) : W16 m ρ c (Proc.devRef .tc main_arg23) = W15 m ρ c (Proc.devRef .tc main_arg23) :=
  W16_of_ne m ρ c main_arg23 (by decide)
theorem reg7_arg24 (c : Dev nD) : W16 m ρ c (Proc.devRef .tc main_arg24) = W15 m ρ c (Proc.devRef .tc main_arg24) :=
  W16_of_ne m ρ c main_arg24 (by decide)
theorem reg7_arg25 (c : Dev nD) : W16 m ρ c (Proc.devRef .tc main_arg25) = W15 m ρ c (Proc.devRef .tc main_arg25) :=
  W16_of_ne m ρ c main_arg25 (by decide)
theorem reg7_arg26 (c : Dev nD) : W16 m ρ c (Proc.devRef .tc main_arg26) = W15 m ρ c (Proc.devRef .tc main_arg26) :=
  W16_of_ne m ρ c main_arg26 (by decide)
theorem reg7_arg27 (c : Dev nD) : W16 m ρ c (Proc.devRef .tc main_arg27) = W15 m ρ c (Proc.devRef .tc main_arg27) :=
  W16_of_ne m ρ c main_arg27 (by decide)
theorem reg7_arg28 (c : Dev nD) : W16 m ρ c (Proc.devRef .tc main_arg28) = W15 m ρ c (Proc.devRef .tc main_arg28) :=
  W16_of_ne m ρ c main_arg28 (by decide)
theorem reg7_arg29 (c : Dev nD) : W16 m ρ c (Proc.devRef .tc main_arg29) = W15 m ρ c (Proc.devRef .tc main_arg29) :=
  W16_of_ne m ρ c main_arg29 (by decide)
theorem reg7_arg30 (c : Dev nD) : W16 m ρ c (Proc.devRef .tc main_arg30) = W15 m ρ c (Proc.devRef .tc main_arg30) :=
  W16_of_ne m ρ c main_arg30 (by decide)
theorem reg7_arg31 (c : Dev nD) : W16 m ρ c (Proc.devRef .tc main_arg31) = W15 m ρ c (Proc.devRef .tc main_arg31) :=
  W16_of_ne m ρ c main_arg31 (by decide)
theorem reg7_arg32 (c : Dev nD) : W16 m ρ c (Proc.devRef .tc main_arg32) = W15 m ρ c (Proc.devRef .tc main_arg32) :=
  W16_of_ne m ρ c main_arg32 (by decide)
theorem reg7_arg33 (c : Dev nD) : W16 m ρ c (Proc.devRef .tc main_arg33) = W15 m ρ c (Proc.devRef .tc main_arg33) :=
  W16_of_ne m ρ c main_arg33 (by decide)

theorem args_reg7 (c : Dev nD) : argsOf (W16 m ρ c) = argsOf (W15 m ρ c) := by
  simp only [argsOf, reg7_arg0 m ρ c, reg7_arg1 m ρ c, reg7_arg2 m ρ c, reg7_arg3 m ρ c, reg7_arg4 m ρ c, reg7_arg5 m ρ c, reg7_arg6 m ρ c, reg7_arg7 m ρ c, reg7_arg8 m ρ c, reg7_arg9 m ρ c, reg7_arg10 m ρ c, reg7_arg11 m ρ c, reg7_arg12 m ρ c, reg7_arg13 m ρ c, reg7_arg14 m ρ c, reg7_arg15 m ρ c, reg7_arg16 m ρ c, reg7_arg17 m ρ c, reg7_arg18 m ρ c, reg7_arg19 m ρ c, reg7_arg20 m ρ c, reg7_arg21 m ρ c, reg7_arg22 m ρ c, reg7_arg23 m ρ c, reg7_arg24 m ρ c, reg7_arg25 m ρ c, reg7_arg26 m ρ c, reg7_arg27 m ρ c, reg7_arg28 m ρ c, reg7_arg29 m ρ c, reg7_arg30 m ρ c, reg7_arg31 m ρ c, reg7_arg32 m ρ c, reg7_arg33 m ρ c]

end Cert.KernelIdeal.Stages

end
-- ==== Proof.KStep16.lean ====
/-
  One step of the kernel's boundary chain: from what is known at boundary 15 (the argument arrays as launched; each live buffer at
  its intermediate array of the computation) to the same at boundary 16, across region 7 (its output's closed form; the rest is none of its arrays, or an input window's array, which is not written back).
-/
import proofs.«165753_j16037407883756_1_alg».proof.Proof.KRegArgs7
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step16 (A : Cert.Net.Args Ideal)
    (h : argsOf (W15 m ρ c) = A
      ∧ W15 m ρ c (Proc.devRef .tc main_v119) = col (Cert.Net.cdNL A)
      ∧ W15 m ρ c (Proc.devRef .tc main_v120) = row (Cert.Net.bL2 A)
      ∧ W15 m ρ c (Proc.devRef .tc main_v121) = row (ln3_1 A.a16)
      ∧ W15 m ρ c (Proc.devRef .tc main_v122) = row (ln3_1 A.a17)
      ∧ W15 m ρ c (Proc.devRef .tc main_v114) = Cert.Net.hn2 A
      ∧ W15 m ρ c (Proc.devRef .tc main_v105) = Cert.Net.aggL2 A
      ∧ W15 m ρ c (Proc.devRef .tc main_v7) = Cert.Net.csLN A
      ∧ W15 m ρ c (Proc.devRef .tc main_v15) = Cert.Net.cdLN A
      ∧ W15 m ρ c (Proc.devRef .tc main_v23) = Cert.Net.csNL A
      ∧ W15 m ρ c (Proc.devRef .tc main_v31) = Cert.Net.cdNL A) :
    argsOf (W16 m ρ c) = A
    ∧ W16 m ρ c (Proc.devRef .tc main_v123) = Cert.Net.hl2 A
    ∧ W16 m ρ c (Proc.devRef .tc main_v114) = Cert.Net.hn2 A
    ∧ W16 m ρ c (Proc.devRef .tc main_v7) = Cert.Net.csLN A
    ∧ W16 m ρ c (Proc.devRef .tc main_v15) = Cert.Net.cdLN A
    ∧ W16 m ρ c (Proc.devRef .tc main_v23) = Cert.Net.csNL A
    ∧ W16 m ρ c (Proc.devRef .tc main_v31) = Cert.Net.cdNL A := by
  obtain ⟨ha15, h15_v119, h15_v120, h15_v121, h15_v122, h15_v114, h15_v105, h15_v7, h15_v15, h15_v23, h15_v31⟩ := h
  have ha16 : argsOf (W16 m ρ c) = A := (args_reg7 m ρ c).trans ha15
  have g16_0 : V15 m ρ c (Pipeline.arrRef spec7 0) = Cert.Net.aggL2 A := h15_v105
  have g16_1 : V15 m ρ c (Pipeline.arrRef spec7 1) = col (Cert.Net.cdNL A) := h15_v119
  have g16_2 : V15 m ρ c (Pipeline.arrRef spec7 2) = row (Cert.Net.bL2 A) := h15_v120
  have g16_3 : V15 m ρ c (Pipeline.arrRef spec7 3) = row (ln3_1 A.a16) := h15_v121
  have g16_4 : V15 m ρ c (Pipeline.arrRef spec7 4) = row (ln3_1 A.a17) := h15_v122
  have h16_v123 : W16 m ρ c (Proc.devRef .tc main_v123) = Cert.Net.hl2 A :=
    (W16_arr m ρ c 5).trans ((Cert.KernelIdeal.Regions.region7_out (V15 m ρ) c).trans ((congr (congr (congr (congr (congrArg (Cert.Spec.lnElu (F := Ideal)) g16_0) g16_1) g16_2) g16_3) g16_4).trans rfl))
  have h16_v114 : W16 m ρ c (Proc.devRef .tc main_v114) = Cert.Net.hn2 A :=
    (W16_of_ne m ρ c main_v114 (by decide)).trans h15_v114
  have h16_v7 : W16 m ρ c (Proc.devRef .tc main_v7) = Cert.Net.csLN A :=
    (W16_of_ne m ρ c main_v7 (by decide)).trans h15_v7
  have h16_v15 : W16 m ρ c (Proc.devRef .tc main_v15) = Cert.Net.cdLN A :=
    (W16_of_ne m ρ c main_v15 (by decide)).trans h15_v15
  have h16_v23 : W16 m ρ c (Proc.devRef .tc main_v23) = Cert.Net.csNL A :=
    (W16_of_ne m ρ c main_v23 (by decide)).trans h15_v23
  have h16_v31 : W16 m ρ c (Proc.devRef .tc main_v31) = Cert.Net.cdNL A :=
    (W16_of_ne m ρ c main_v31 (by decide)).trans h15_v31
  exact ⟨ha16, h16_v123, h16_v114, h16_v7, h16_v15, h16_v23, h16_v31⟩

end Cert.KernelIdeal.Stages

end
-- ==== Proof.KStage_h8.lean ====
/-
  A host stretch of the kernel program (h8): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h8 : List (Ref sig .tc) :=
  [ main_v124, main_v125, main_v126, main_v127, main_v128, main_v129, main_v130, main_v131, main_v132 ]

theorem writes_h8 : (hostOps8 : List (HloOp τ sig (Elt F))).Forall fun op => op.writes ⊆ (written_h8.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h8 (V : Valuation τ sig (Elt F)) {r : Ref sig .tc} (h : r ∉ written_h8) :
    after hostOps8 V (Proc.devRef .tc r) = V (Proc.devRef .tc r) := after_of_writes_sub hostOps8 V writes_h8 h

/-- The stretch leaves the argument arrays as it found them. -/
theorem args_h8 (V : Valuation τ sig (Elt F)) : argsOf (after hostOps8 V) = argsOf V := by
  simp only [argsOf, keep_h8 V (r := main_arg0) (by decide), keep_h8 V (r := main_arg1) (by decide), keep_h8 V (r := main_arg2) (by decide), keep_h8 V (r := main_arg3) (by decide), keep_h8 V (r := main_arg4) (by decide), keep_h8 V (r := main_arg5) (by decide), keep_h8 V (r := main_arg6) (by decide), keep_h8 V (r := main_arg7) (by decide), keep_h8 V (r := main_arg8) (by decide), keep_h8 V (r := main_arg9) (by decide), keep_h8 V (r := main_arg10) (by decide), keep_h8 V (r := main_arg11) (by decide), keep_h8 V (r := main_arg12) (by decide), keep_h8 V (r := main_arg13) (by decide), keep_h8 V (r := main_arg14) (by decide), keep_h8 V (r := main_arg15) (by decide), keep_h8 V (r := main_arg16) (by decide), keep_h8 V (r := main_arg17) (by decide), keep_h8 V (r := main_arg18) (by decide), keep_h8 V (r := main_arg19) (by decide), keep_h8 V (r := main_arg20) (by decide), keep_h8 V (r := main_arg21) (by decide), keep_h8 V (r := main_arg22) (by decide), keep_h8 V (r := main_arg23) (by decide), keep_h8 V (r := main_arg24) (by decide), keep_h8 V (r := main_arg25) (by decide), keep_h8 V (r := main_arg26) (by decide), keep_h8 V (r := main_arg27) (by decide), keep_h8 V (r := main_arg28) (by decide), keep_h8 V (r := main_arg29) (by decide), keep_h8 V (r := main_arg30) (by decide), keep_h8 V (r := main_arg31) (by decide), keep_h8 V (r := main_arg32) (by decide), keep_h8 V (r := main_arg33) (by decide)]

attribute [local irreducible] Host.reduceAdd Host.gather Host.scatterAdd in
set_option maxRecDepth 16384 in
set_option maxHeartbeats 4000000 in
theorem out_h8_v125 (V : Valuation τ sig (Elt F)) :
    after hostOps8 V (Proc.devRef .tc main_v125) = w2_1 (argsOf V).a10 := by
  simp only [after_cons, after_nil]
  rfl

attribute [local irreducible] Host.reduceAdd Host.gather Host.scatterAdd in
set_option maxRecDepth 16384 in
set_option maxHeartbeats 4000000 in
theorem out_h8_v127 (V : Valuation τ sig (Elt F)) :
    after hostOps8 V (Proc.devRef .tc main_v127) = b2_1 (argsOf V).a11 := by
  simp only [after_cons, after_nil]
  rfl

attribute [local irreducible] Host.reduceAdd Host.gather Host.scatterAdd in
set_option maxRecDepth 16384 in
set_option maxHeartbeats 4000000 in
theorem out_h8_v129 (V : Valuation τ sig (Elt F)) :
    after hostOps8 V (Proc.devRef .tc main_v129) = w2_1 (argsOf V).a12 := by
  simp only [after_cons, after_nil]
  rfl

attribute [local irreducible] Host.reduceAdd Host.gather Host.scatterAdd in
set_option maxRecDepth 16384 in
set_option maxHeartbeats 4000000 in
theorem out_h8_v131 (V : Valuation τ sig (Elt F)) :
    after hostOps8 V (Proc.devRef .tc main_v131) = b2_1 (argsOf V).a13 := by
  simp only [after_cons, after_nil]
  rfl

attribute [local irreducible] Host.reduceAdd Host.gather Host.scatterAdd in
set_option maxRecDepth 16384 in
set_option maxHeartbeats 4000000 in
theorem out_h8_v132 (V : Valuation τ sig (Elt F)) :
    after hostOps8 V (Proc.devRef .tc main_v132) = col (V (Proc.devRef .tc main_v7)) := by
  simp only [after_cons, after_nil]
  exact Eq.trans rfl (Cert.Glue.col_eq 100000 (V (Proc.devRef .tc main_v7)) shapeCasts_S100000_S100000x1 Cert.ReferenceIdeal.Gen.bcast_S100000_S100000x1_0)

end Cert.KernelIdeal.Stages

end
-- ==== Proof.KStep17.lean ====
/-
  One step of the kernel's boundary chain: from what is known at boundary 16 (the argument arrays as launched; each live buffer at
  its intermediate array of the computation) to the same at boundary 17, across host stretch 8 (its stage equations; the rest kept).
-/
import proofs.«165753_j16037407883756_1_alg».proof.Proof.KStage_h8
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step17 (A : Cert.Net.Args Ideal)
    (h : argsOf (W16 m ρ c) = A
      ∧ W16 m ρ c (Proc.devRef .tc main_v123) = Cert.Net.hl2 A
      ∧ W16 m ρ c (Proc.devRef .tc main_v114) = Cert.Net.hn2 A
      ∧ W16 m ρ c (Proc.devRef .tc main_v7) = Cert.Net.csLN A
      ∧ W16 m ρ c (Proc.devRef .tc main_v15) = Cert.Net.cdLN A
      ∧ W16 m ρ c (Proc.devRef .tc main_v23) = Cert.Net.csNL A
      ∧ W16 m ρ c (Proc.devRef .tc main_v31) = Cert.Net.cdNL A) :
    argsOf (W17 m ρ c) = A
    ∧ W17 m ρ c (Proc.devRef .tc main_v125) = w2_1 A.a10
    ∧ W17 m ρ c (Proc.devRef .tc main_v127) = Cert.Net.bN3 A
    ∧ W17 m ρ c (Proc.devRef .tc main_v129) = Cert.Net.wL3 A
    ∧ W17 m ρ c (Proc.devRef .tc main_v131) = Cert.Net.bL3 A
    ∧ W17 m ρ c (Proc.devRef .tc main_v132) = col (Cert.Net.csLN A)
    ∧ W17 m ρ c (Proc.devRef .tc main_v123) = Cert.Net.hl2 A
    ∧ W17 m ρ c (Proc.devRef .tc main_v114) = Cert.Net.hn2 A
    ∧ W17 m ρ c (Proc.devRef .tc main_v15) = Cert.Net.cdLN A
    ∧ W17 m ρ c (Proc.devRef .tc main_v23) = Cert.Net.csNL A
    ∧ W17 m ρ c (Proc.devRef .tc main_v31) = Cert.Net.cdNL A := by
  obtain ⟨ha16, h16_v123, h16_v114, h16_v7, h16_v15, h16_v23, h16_v31⟩ := h
  have ha17 : argsOf (W17 m ρ c) = A := (args_h8 (W16 m ρ c)).trans ha16
  have e17_10 : W16 m ρ c (Proc.devRef .tc main_arg10) = A.a10 := congrArg (fun X : Cert.Net.Args Ideal => X.a10) ha16
  have h17_v125 : W17 m ρ c (Proc.devRef .tc main_v125) = w2_1 A.a10 := by
    refine (out_h8_v125 (W16 m ρ c)).trans ?_
    (try simp only [e17_10]); (try rfl)
  have e17_11 : W16 m ρ c (Proc.devRef .tc main_arg11) = A.a11 := congrArg (fun X : Cert.Net.Args Ideal => X.a11) ha16
  have h17_v127 : W17 m ρ c (Proc.devRef .tc main_v127) = Cert.Net.bN3 A := by
    refine (out_h8_v127 (W16 m ρ c)).trans ?_
    (try simp only [e17_11]); (try rfl)
  have e17_12 : W16 m ρ c (Proc.devRef .tc main_arg12) = A.a12 := congrArg (fun X : Cert.Net.Args Ideal => X.a12) ha16
  have h17_v129 : W17 m ρ c (Proc.devRef .tc main_v129) = Cert.Net.wL3 A := by
    refine (out_h8_v129 (W16 m ρ c)).trans ?_
    (try simp only [e17_12]); (try rfl)
  have e17_13 : W16 m ρ c (Proc.devRef .tc main_arg13) = A.a13 := congrArg (fun X : Cert.Net.Args Ideal => X.a13) ha16
  have h17_v131 : W17 m ρ c (Proc.devRef .tc main_v131) = Cert.Net.bL3 A := by
    refine (out_h8_v131 (W16 m ρ c)).trans ?_
    (try simp only [e17_13]); (try rfl)
  have h17_v132 : W17 m ρ c (Proc.devRef .tc main_v132) = col (Cert.Net.csLN A) := by
    refine (out_h8_v132 (W16 m ρ c)).trans ?_
    (try simp only [h16_v7]); (try rfl)
  have h17_v123 : W17 m ρ c (Proc.devRef .tc main_v123) = Cert.Net.hl2 A :=
    (keep_h8 (W16 m ρ c) (by decide)).trans h16_v123
  have h17_v114 : W17 m ρ c (Proc.devRef .tc main_v114) = Cert.Net.hn2 A :=
    (keep_h8 (W16 m ρ c) (by decide)).trans h16_v114
  have h17_v15 : W17 m ρ c (Proc.devRef .tc main_v15) = Cert.Net.cdLN A :=
    (keep_h8 (W16 m ρ c) (by decide)).trans h16_v15
  have h17_v23 : W17 m ρ c (Proc.devRef .tc main_v23) = Cert.Net.csNL A :=
    (keep_h8 (W16 m ρ c) (by decide)).trans h16_v23
  have h17_v31 : W17 m ρ c (Proc.devRef .tc main_v31) = Cert.Net.cdNL A :=
    (keep_h8 (W16 m ρ c) (by decide)).trans h16_v31
  exact ⟨ha17, h17_v125, h17_v127, h17_v129, h17_v131, h17_v132, h17_v123, h17_v114, h17_v15, h17_v23, h17_v31⟩

end Cert.KernelIdeal.Stages

end
-- ==== Proof.KRegArgs8.lean ====
/-
  Region 8 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg8_arg0 (c : Dev nD) : W18 m ρ c (Proc.devRef .tc main_arg0) = W17 m ρ c (Proc.devRef .tc main_arg0) :=
  W18_of_ne m ρ c main_arg0 (by decide)
theorem reg8_arg1 (c : Dev nD) : W18 m ρ c (Proc.devRef .tc main_arg1) = W17 m ρ c (Proc.devRef .tc main_arg1) :=
  W18_of_ne m ρ c main_arg1 (by decide)
theorem reg8_arg2 (c : Dev nD) : W18 m ρ c (Proc.devRef .tc main_arg2) = W17 m ρ c (Proc.devRef .tc main_arg2) :=
  W18_of_ne m ρ c main_arg2 (by decide)
theorem reg8_arg3 (c : Dev nD) : W18 m ρ c (Proc.devRef .tc main_arg3) = W17 m ρ c (Proc.devRef .tc main_arg3) :=
  W18_of_ne m ρ c main_arg3 (by decide)
theorem reg8_arg4 (c : Dev nD) : W18 m ρ c (Proc.devRef .tc main_arg4) = W17 m ρ c (Proc.devRef .tc main_arg4) :=
  W18_of_ne m ρ c main_arg4 (by decide)
theorem reg8_arg5 (c : Dev nD) : W18 m ρ c (Proc.devRef .tc main_arg5) = W17 m ρ c (Proc.devRef .tc main_arg5) :=
  W18_of_ne m ρ c main_arg5 (by decide)
theorem reg8_arg6 (c : Dev nD) : W18 m ρ c (Proc.devRef .tc main_arg6) = W17 m ρ c (Proc.devRef .tc main_arg6) :=
  W18_of_ne m ρ c main_arg6 (by decide)
theorem reg8_arg7 (c : Dev nD) : W18 m ρ c (Proc.devRef .tc main_arg7) = W17 m ρ c (Proc.devRef .tc main_arg7) :=
  W18_of_ne m ρ c main_arg7 (by decide)
theorem reg8_arg8 (c : Dev nD) : W18 m ρ c (Proc.devRef .tc main_arg8) = W17 m ρ c (Proc.devRef .tc main_arg8) :=
  W18_of_ne m ρ c main_arg8 (by decide)
theorem reg8_arg9 (c : Dev nD) : W18 m ρ c (Proc.devRef .tc main_arg9) = W17 m ρ c (Proc.devRef .tc main_arg9) :=
  W18_of_ne m ρ c main_arg9 (by decide)
theorem reg8_arg10 (c : Dev nD) : W18 m ρ c (Proc.devRef .tc main_arg10) = W17 m ρ c (Proc.devRef .tc main_arg10) :=
  W18_of_ne m ρ c main_arg10 (by decide)
theorem reg8_arg11 (c : Dev nD) : W18 m ρ c (Proc.devRef .tc main_arg11) = W17 m ρ c (Proc.devRef .tc main_arg11) :=
  W18_of_ne m ρ c main_arg11 (by decide)
theorem reg8_arg12 (c : Dev nD) : W18 m ρ c (Proc.devRef .tc main_arg12) = W17 m ρ c (Proc.devRef .tc main_arg12) :=
  W18_of_ne m ρ c main_arg12 (by decide)
theorem reg8_arg13 (c : Dev nD) : W18 m ρ c (Proc.devRef .tc main_arg13) = W17 m ρ c (Proc.devRef .tc main_arg13) :=
  W18_of_ne m ρ c main_arg13 (by decide)
theorem reg8_arg14 (c : Dev nD) : W18 m ρ c (Proc.devRef .tc main_arg14) = W17 m ρ c (Proc.devRef .tc main_arg14) :=
  W18_of_ne m ρ c main_arg14 (by decide)
theorem reg8_arg15 (c : Dev nD) : W18 m ρ c (Proc.devRef .tc main_arg15) = W17 m ρ c (Proc.devRef .tc main_arg15) :=
  W18_of_ne m ρ c main_arg15 (by decide)
theorem reg8_arg16 (c : Dev nD) : W18 m ρ c (Proc.devRef .tc main_arg16) = W17 m ρ c (Proc.devRef .tc main_arg16) :=
  W18_of_ne m ρ c main_arg16 (by decide)
theorem reg8_arg17 (c : Dev nD) : W18 m ρ c (Proc.devRef .tc main_arg17) = W17 m ρ c (Proc.devRef .tc main_arg17) :=
  W18_of_ne m ρ c main_arg17 (by decide)
theorem reg8_arg18 (c : Dev nD) : W18 m ρ c (Proc.devRef .tc main_arg18) = W17 m ρ c (Proc.devRef .tc main_arg18) :=
  W18_of_ne m ρ c main_arg18 (by decide)
theorem reg8_arg19 (c : Dev nD) : W18 m ρ c (Proc.devRef .tc main_arg19) = W17 m ρ c (Proc.devRef .tc main_arg19) :=
  W18_of_ne m ρ c main_arg19 (by decide)
theorem reg8_arg20 (c : Dev nD) : W18 m ρ c (Proc.devRef .tc main_arg20) = W17 m ρ c (Proc.devRef .tc main_arg20) :=
  W18_of_ne m ρ c main_arg20 (by decide)
theorem reg8_arg21 (c : Dev nD) : W18 m ρ c (Proc.devRef .tc main_arg21) = W17 m ρ c (Proc.devRef .tc main_arg21) :=
  W18_of_ne m ρ c main_arg21 (by decide)
theorem reg8_arg22 (c : Dev nD) : W18 m ρ c (Proc.devRef .tc main_arg22) = W17 m ρ c (Proc.devRef .tc main_arg22) :=
  W18_of_ne m ρ c main_arg22 (by decide)
theorem reg8_arg23 (c : Dev nD) : W18 m ρ c (Proc.devRef .tc main_arg23) = W17 m ρ c (Proc.devRef .tc main_arg23) :=
  W18_of_ne m ρ c main_arg23 (by decide)
theorem reg8_arg24 (c : Dev nD) : W18 m ρ c (Proc.devRef .tc main_arg24) = W17 m ρ c (Proc.devRef .tc main_arg24) :=
  W18_of_ne m ρ c main_arg24 (by decide)
theorem reg8_arg25 (c : Dev nD) : W18 m ρ c (Proc.devRef .tc main_arg25) = W17 m ρ c (Proc.devRef .tc main_arg25) :=
  W18_of_ne m ρ c main_arg25 (by decide)
theorem reg8_arg26 (c : Dev nD) : W18 m ρ c (Proc.devRef .tc main_arg26) = W17 m ρ c (Proc.devRef .tc main_arg26) :=
  W18_of_ne m ρ c main_arg26 (by decide)
theorem reg8_arg27 (c : Dev nD) : W18 m ρ c (Proc.devRef .tc main_arg27) = W17 m ρ c (Proc.devRef .tc main_arg27) :=
  W18_of_ne m ρ c main_arg27 (by decide)
theorem reg8_arg28 (c : Dev nD) : W18 m ρ c (Proc.devRef .tc main_arg28) = W17 m ρ c (Proc.devRef .tc main_arg28) :=
  W18_of_ne m ρ c main_arg28 (by decide)
theorem reg8_arg29 (c : Dev nD) : W18 m ρ c (Proc.devRef .tc main_arg29) = W17 m ρ c (Proc.devRef .tc main_arg29) :=
  W18_of_ne m ρ c main_arg29 (by decide)
theorem reg8_arg30 (c : Dev nD) : W18 m ρ c (Proc.devRef .tc main_arg30) = W17 m ρ c (Proc.devRef .tc main_arg30) :=
  W18_of_ne m ρ c main_arg30 (by decide)
theorem reg8_arg31 (c : Dev nD) : W18 m ρ c (Proc.devRef .tc main_arg31) = W17 m ρ c (Proc.devRef .tc main_arg31) :=
  W18_of_ne m ρ c main_arg31 (by decide)
theorem reg8_arg32 (c : Dev nD) : W18 m ρ c (Proc.devRef .tc main_arg32) = W17 m ρ c (Proc.devRef .tc main_arg32) :=
  W18_of_ne m ρ c main_arg32 (by decide)
theorem reg8_arg33 (c : Dev nD) : W18 m ρ c (Proc.devRef .tc main_arg33) = W17 m ρ c (Proc.devRef .tc main_arg33) :=
  W18_of_ne m ρ c main_arg33 (by decide)

theorem args_reg8 (c : Dev nD) : argsOf (W18 m ρ c) = argsOf (W17 m ρ c) := by
  simp only [argsOf, reg8_arg0 m ρ c, reg8_arg1 m ρ c, reg8_arg2 m ρ c, reg8_arg3 m ρ c, reg8_arg4 m ρ c, reg8_arg5 m ρ c, reg8_arg6 m ρ c, reg8_arg7 m ρ c, reg8_arg8 m ρ c, reg8_arg9 m ρ c, reg8_arg10 m ρ c, reg8_arg11 m ρ c, reg8_arg12 m ρ c, reg8_arg13 m ρ c, reg8_arg14 m ρ c, reg8_arg15 m ρ c, reg8_arg16 m ρ c, reg8_arg17 m ρ c, reg8_arg18 m ρ c, reg8_arg19 m ρ c, reg8_arg20 m ρ c, reg8_arg21 m ρ c, reg8_arg22 m ρ c, reg8_arg23 m ρ c, reg8_arg24 m ρ c, reg8_arg25 m ρ c, reg8_arg26 m ρ c, reg8_arg27 m ρ c, reg8_arg28 m ρ c, reg8_arg29 m ρ c, reg8_arg30 m ρ c, reg8_arg31 m ρ c, reg8_arg32 m ρ c, reg8_arg33 m ρ c]

end Cert.KernelIdeal.Stages

end
-- ==== Proof.KStep18.lean ====
/-
  One step of the kernel's boundary chain: from what is known at boundary 17 (the argument arrays as launched; each live buffer at
  its intermediate array of the computation) to the same at boundary 18, across region 8 (its output's closed form; the rest is none of its arrays, or an input window's array, which is not written back).
-/
import proofs.«165753_j16037407883756_1_alg».proof.Proof.KRegArgs8
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step18 (A : Cert.Net.Args Ideal)
    (h : argsOf (W17 m ρ c) = A
      ∧ W17 m ρ c (Proc.devRef .tc main_v125) = w2_1 A.a10
      ∧ W17 m ρ c (Proc.devRef .tc main_v127) = Cert.Net.bN3 A
      ∧ W17 m ρ c (Proc.devRef .tc main_v129) = Cert.Net.wL3 A
      ∧ W17 m ρ c (Proc.devRef .tc main_v131) = Cert.Net.bL3 A
      ∧ W17 m ρ c (Proc.devRef .tc main_v132) = col (Cert.Net.csLN A)
      ∧ W17 m ρ c (Proc.devRef .tc main_v123) = Cert.Net.hl2 A
      ∧ W17 m ρ c (Proc.devRef .tc main_v114) = Cert.Net.hn2 A
      ∧ W17 m ρ c (Proc.devRef .tc main_v15) = Cert.Net.cdLN A
      ∧ W17 m ρ c (Proc.devRef .tc main_v23) = Cert.Net.csNL A
      ∧ W17 m ρ c (Proc.devRef .tc main_v31) = Cert.Net.cdNL A) :
    argsOf (W18 m ρ c) = A
    ∧ W18 m ρ c (Proc.devRef .tc main_v133) = Cert.Net.mmN3 A
    ∧ W18 m ρ c (Proc.devRef .tc main_v127) = Cert.Net.bN3 A
    ∧ W18 m ρ c (Proc.devRef .tc main_v129) = Cert.Net.wL3 A
    ∧ W18 m ρ c (Proc.devRef .tc main_v131) = Cert.Net.bL3 A
    ∧ W18 m ρ c (Proc.devRef .tc main_v114) = Cert.Net.hn2 A
    ∧ W18 m ρ c (Proc.devRef .tc main_v15) = Cert.Net.cdLN A
    ∧ W18 m ρ c (Proc.devRef .tc main_v23) = Cert.Net.csNL A
    ∧ W18 m ρ c (Proc.devRef .tc main_v31) = Cert.Net.cdNL A := by
  obtain ⟨ha17, h17_v125, h17_v127, h17_v129, h17_v131, h17_v132, h17_v123, h17_v114, h17_v15, h17_v23, h17_v31⟩ := h
  have ha18 : argsOf (W18 m ρ c) = A := (args_reg8 m ρ c).trans ha17
  have g18_0 : V17 m ρ c (Pipeline.arrRef spec8 0) = Cert.Net.hl2 A := h17_v123
  have g18_1 : V17 m ρ c (Pipeline.arrRef spec8 1) = col (Cert.Net.csLN A) := h17_v132
  have g18_2 : V17 m ρ c (Pipeline.arrRef spec8 2) = w2_1 A.a10 := h17_v125
  have h18_v133 : W18 m ρ c (Proc.devRef .tc main_v133) = Cert.Net.mmN3 A :=
    (W18_arr m ρ c 3).trans ((Cert.KernelIdeal.Regions.region8_out (V17 m ρ) c).trans ((congr (congr (congrArg (Cert.Spec.scaleMatmul128 (F := Ideal)) g18_0) g18_1) g18_2).trans rfl))
  have h18_v127 : W18 m ρ c (Proc.devRef .tc main_v127) = Cert.Net.bN3 A :=
    (W18_of_ne m ρ c main_v127 (by decide)).trans h17_v127
  have h18_v129 : W18 m ρ c (Proc.devRef .tc main_v129) = Cert.Net.wL3 A :=
    (W18_of_ne m ρ c main_v129 (by decide)).trans h17_v129
  have h18_v131 : W18 m ρ c (Proc.devRef .tc main_v131) = Cert.Net.bL3 A :=
    (W18_of_ne m ρ c main_v131 (by decide)).trans h17_v131
  have h18_v114 : W18 m ρ c (Proc.devRef .tc main_v114) = Cert.Net.hn2 A :=
    (W18_of_ne m ρ c main_v114 (by decide)).trans h17_v114
  have h18_v15 : W18 m ρ c (Proc.devRef .tc main_v15) = Cert.Net.cdLN A :=
    (W18_of_ne m ρ c main_v15 (by decide)).trans h17_v15
  have h18_v23 : W18 m ρ c (Proc.devRef .tc main_v23) = Cert.Net.csNL A :=
    (W18_of_ne m ρ c main_v23 (by decide)).trans h17_v23
  have h18_v31 : W18 m ρ c (Proc.devRef .tc main_v31) = Cert.Net.cdNL A :=
    (W18_of_ne m ρ c main_v31 (by decide)).trans h17_v31
  exact ⟨ha18, h18_v133, h18_v127, h18_v129, h18_v131, h18_v114, h18_v15, h18_v23, h18_v31⟩

end Cert.KernelIdeal.Stages

end
-- ==== Proof.KStage_h9.lean ====
/-
  A host stretch of the kernel program (h9): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h9 : List (Ref sig .tc) :=
  [ main_v134 ]

theorem writes_h9 : (hostOps9 : List (HloOp τ sig (Elt F))).Forall fun op => op.writes ⊆ (written_h9.map (Proc.devRef (τ := τ) .tc)).toFinset :=
  Finset.singleton_subset_iff.mpr (List.mem_toFinset.mpr (List.mem_map_of_mem (by decide)))

/-- A buffer the stretch does not write is after it as before it. -/
theorem keep_h9 (V : Valuation τ sig (Elt F)) {r : Ref sig .tc} (h : r ∉ written_h9) :
    after hostOps9 V (Proc.devRef .tc r) = V (Proc.devRef .tc r) := after_of_writes_sub hostOps9 V writes_h9 h

/-- The stretch leaves the argument arrays as it found them. -/
theorem args_h9 (V : Valuation τ sig (Elt F)) : argsOf (after hostOps9 V) = argsOf V := by
  simp only [argsOf, keep_h9 V (r := main_arg0) (by decide), keep_h9 V (r := main_arg1) (by decide), keep_h9 V (r := main_arg2) (by decide), keep_h9 V (r := main_arg3) (by decide), keep_h9 V (r := main_arg4) (by decide), keep_h9 V (r := main_arg5) (by decide), keep_h9 V (r := main_arg6) (by decide), keep_h9 V (r := main_arg7) (by decide), keep_h9 V (r := main_arg8) (by decide), keep_h9 V (r := main_arg9) (by decide), keep_h9 V (r := main_arg10) (by decide), keep_h9 V (r := main_arg11) (by decide), keep_h9 V (r := main_arg12) (by decide), keep_h9 V (r := main_arg13) (by decide), keep_h9 V (r := main_arg14) (by decide), keep_h9 V (r := main_arg15) (by decide), keep_h9 V (r := main_arg16) (by decide), keep_h9 V (r := main_arg17) (by decide), keep_h9 V (r := main_arg18) (by decide), keep_h9 V (r := main_arg19) (by decide), keep_h9 V (r := main_arg20) (by decide), keep_h9 V (r := main_arg21) (by decide), keep_h9 V (r := main_arg22) (by decide), keep_h9 V (r := main_arg23) (by decide), keep_h9 V (r := main_arg24) (by decide), keep_h9 V (r := main_arg25) (by decide), keep_h9 V (r := main_arg26) (by decide), keep_h9 V (r := main_arg27) (by decide), keep_h9 V (r := main_arg28) (by decide), keep_h9 V (r := main_arg29) (by decide), keep_h9 V (r := main_arg30) (by decide), keep_h9 V (r := main_arg31) (by decide), keep_h9 V (r := main_arg32) (by decide), keep_h9 V (r := main_arg33) (by decide)]

attribute [local irreducible] Host.reduceAdd Host.gather Host.scatterAdd in
set_option maxRecDepth 16384 in
set_option maxHeartbeats 4000000 in
theorem out_h9_v134 (V : Valuation τ sig (Elt F)) :
    after hostOps9 V (Proc.devRef .tc main_v134) = col (V (Proc.devRef .tc main_v23)) := by
  simp only [after_cons, after_nil]
  exact Eq.trans rfl (Cert.Glue.col_eq 100000 (V (Proc.devRef .tc main_v23)) shapeCasts_S100000_S100000x1 Cert.ReferenceIdeal.Gen.bcast_S100000_S100000x1_0)

end Cert.KernelIdeal.Stages

end
-- ==== Proof.KStep19.lean ====
/-
  One step of the kernel's boundary chain: from what is known at boundary 18 (the argument arrays as launched; each live buffer at
  its intermediate array of the computation) to the same at boundary 19, across host stretch 9 (its stage equations; the rest kept).
-/
import proofs.«165753_j16037407883756_1_alg».proof.Proof.KStage_h9
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step19 (A : Cert.Net.Args Ideal)
    (h : argsOf (W18 m ρ c) = A
      ∧ W18 m ρ c (Proc.devRef .tc main_v133) = Cert.Net.mmN3 A
      ∧ W18 m ρ c (Proc.devRef .tc main_v127) = Cert.Net.bN3 A
      ∧ W18 m ρ c (Proc.devRef .tc main_v129) = Cert.Net.wL3 A
      ∧ W18 m ρ c (Proc.devRef .tc main_v131) = Cert.Net.bL3 A
      ∧ W18 m ρ c (Proc.devRef .tc main_v114) = Cert.Net.hn2 A
      ∧ W18 m ρ c (Proc.devRef .tc main_v15) = Cert.Net.cdLN A
      ∧ W18 m ρ c (Proc.devRef .tc main_v23) = Cert.Net.csNL A
      ∧ W18 m ρ c (Proc.devRef .tc main_v31) = Cert.Net.cdNL A) :
    argsOf (W19 m ρ c) = A
    ∧ W19 m ρ c (Proc.devRef .tc main_v134) = col (Cert.Net.csNL A)
    ∧ W19 m ρ c (Proc.devRef .tc main_v133) = Cert.Net.mmN3 A
    ∧ W19 m ρ c (Proc.devRef .tc main_v127) = Cert.Net.bN3 A
    ∧ W19 m ρ c (Proc.devRef .tc main_v129) = Cert.Net.wL3 A
    ∧ W19 m ρ c (Proc.devRef .tc main_v131) = Cert.Net.bL3 A
    ∧ W19 m ρ c (Proc.devRef .tc main_v114) = Cert.Net.hn2 A
    ∧ W19 m ρ c (Proc.devRef .tc main_v15) = Cert.Net.cdLN A
    ∧ W19 m ρ c (Proc.devRef .tc main_v31) = Cert.Net.cdNL A := by
  obtain ⟨ha18, h18_v133, h18_v127, h18_v129, h18_v131, h18_v114, h18_v15, h18_v23, h18_v31⟩ := h
  have ha19 : argsOf (W19 m ρ c) = A := (args_h9 (W18 m ρ c)).trans ha18
  have h19_v134 : W19 m ρ c (Proc.devRef .tc main_v134) = col (Cert.Net.csNL A) := by
    refine (out_h9_v134 (W18 m ρ c)).trans ?_
    (try simp only [h18_v23]); (try rfl)
  have h19_v133 : W19 m ρ c (Proc.devRef .tc main_v133) = Cert.Net.mmN3 A :=
    (keep_h9 (W18 m ρ c) (by decide)).trans h18_v133
  have h19_v127 : W19 m ρ c (Proc.devRef .tc main_v127) = Cert.Net.bN3 A :=
    (keep_h9 (W18 m ρ c) (by decide)).trans h18_v127
  have h19_v129 : W19 m ρ c (Proc.devRef .tc main_v129) = Cert.Net.wL3 A :=
    (keep_h9 (W18 m ρ c) (by decide)).trans h18_v129
  have h19_v131 : W19 m ρ c (Proc.devRef .tc main_v131) = Cert.Net.bL3 A :=
    (keep_h9 (W18 m ρ c) (by decide)).trans h18_v131
  have h19_v114 : W19 m ρ c (Proc.devRef .tc main_v114) = Cert.Net.hn2 A :=
    (keep_h9 (W18 m ρ c) (by decide)).trans h18_v114
  have h19_v15 : W19 m ρ c (Proc.devRef .tc main_v15) = Cert.Net.cdLN A :=
    (keep_h9 (W18 m ρ c) (by decide)).trans h18_v15
  have h19_v31 : W19 m ρ c (Proc.devRef .tc main_v31) = Cert.Net.cdNL A :=
    (keep_h9 (W18 m ρ c) (by decide)).trans h18_v31
  exact ⟨ha19, h19_v134, h19_v133, h19_v127, h19_v129, h19_v131, h19_v114, h19_v15, h19_v31⟩

end Cert.KernelIdeal.Stages

end
-- ==== Proof.KRegArgs9.lean ====
/-
  Region 9 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg9_arg0 (c : Dev nD) : W20 m ρ c (Proc.devRef .tc main_arg0) = W19 m ρ c (Proc.devRef .tc main_arg0) :=
  W20_of_ne m ρ c main_arg0 (by decide)
theorem reg9_arg1 (c : Dev nD) : W20 m ρ c (Proc.devRef .tc main_arg1) = W19 m ρ c (Proc.devRef .tc main_arg1) :=
  W20_of_ne m ρ c main_arg1 (by decide)
theorem reg9_arg2 (c : Dev nD) : W20 m ρ c (Proc.devRef .tc main_arg2) = W19 m ρ c (Proc.devRef .tc main_arg2) :=
  W20_of_ne m ρ c main_arg2 (by decide)
theorem reg9_arg3 (c : Dev nD) : W20 m ρ c (Proc.devRef .tc main_arg3) = W19 m ρ c (Proc.devRef .tc main_arg3) :=
  W20_of_ne m ρ c main_arg3 (by decide)
theorem reg9_arg4 (c : Dev nD) : W20 m ρ c (Proc.devRef .tc main_arg4) = W19 m ρ c (Proc.devRef .tc main_arg4) :=
  W20_of_ne m ρ c main_arg4 (by decide)
theorem reg9_arg5 (c : Dev nD) : W20 m ρ c (Proc.devRef .tc main_arg5) = W19 m ρ c (Proc.devRef .tc main_arg5) :=
  W20_of_ne m ρ c main_arg5 (by decide)
theorem reg9_arg6 (c : Dev nD) : W20 m ρ c (Proc.devRef .tc main_arg6) = W19 m ρ c (Proc.devRef .tc main_arg6) :=
  W20_of_ne m ρ c main_arg6 (by decide)
theorem reg9_arg7 (c : Dev nD) : W20 m ρ c (Proc.devRef .tc main_arg7) = W19 m ρ c (Proc.devRef .tc main_arg7) :=
  W20_of_ne m ρ c main_arg7 (by decide)
theorem reg9_arg8 (c : Dev nD) : W20 m ρ c (Proc.devRef .tc main_arg8) = W19 m ρ c (Proc.devRef .tc main_arg8) :=
  W20_of_ne m ρ c main_arg8 (by decide)
theorem reg9_arg9 (c : Dev nD) : W20 m ρ c (Proc.devRef .tc main_arg9) = W19 m ρ c (Proc.devRef .tc main_arg9) :=
  W20_of_ne m ρ c main_arg9 (by decide)
theorem reg9_arg10 (c : Dev nD) : W20 m ρ c (Proc.devRef .tc main_arg10) = W19 m ρ c (Proc.devRef .tc main_arg10) :=
  W20_of_ne m ρ c main_arg10 (by decide)
theorem reg9_arg11 (c : Dev nD) : W20 m ρ c (Proc.devRef .tc main_arg11) = W19 m ρ c (Proc.devRef .tc main_arg11) :=
  W20_of_ne m ρ c main_arg11 (by decide)
theorem reg9_arg12 (c : Dev nD) : W20 m ρ c (Proc.devRef .tc main_arg12) = W19 m ρ c (Proc.devRef .tc main_arg12) :=
  W20_of_ne m ρ c main_arg12 (by decide)
theorem reg9_arg13 (c : Dev nD) : W20 m ρ c (Proc.devRef .tc main_arg13) = W19 m ρ c (Proc.devRef .tc main_arg13) :=
  W20_of_ne m ρ c main_arg13 (by decide)
theorem reg9_arg14 (c : Dev nD) : W20 m ρ c (Proc.devRef .tc main_arg14) = W19 m ρ c (Proc.devRef .tc main_arg14) :=
  W20_of_ne m ρ c main_arg14 (by decide)
theorem reg9_arg15 (c : Dev nD) : W20 m ρ c (Proc.devRef .tc main_arg15) = W19 m ρ c (Proc.devRef .tc main_arg15) :=
  W20_of_ne m ρ c main_arg15 (by decide)
theorem reg9_arg16 (c : Dev nD) : W20 m ρ c (Proc.devRef .tc main_arg16) = W19 m ρ c (Proc.devRef .tc main_arg16) :=
  W20_of_ne m ρ c main_arg16 (by decide)
theorem reg9_arg17 (c : Dev nD) : W20 m ρ c (Proc.devRef .tc main_arg17) = W19 m ρ c (Proc.devRef .tc main_arg17) :=
  W20_of_ne m ρ c main_arg17 (by decide)
theorem reg9_arg18 (c : Dev nD) : W20 m ρ c (Proc.devRef .tc main_arg18) = W19 m ρ c (Proc.devRef .tc main_arg18) :=
  W20_of_ne m ρ c main_arg18 (by decide)
theorem reg9_arg19 (c : Dev nD) : W20 m ρ c (Proc.devRef .tc main_arg19) = W19 m ρ c (Proc.devRef .tc main_arg19) :=
  W20_of_ne m ρ c main_arg19 (by decide)
theorem reg9_arg20 (c : Dev nD) : W20 m ρ c (Proc.devRef .tc main_arg20) = W19 m ρ c (Proc.devRef .tc main_arg20) :=
  W20_of_ne m ρ c main_arg20 (by decide)
theorem reg9_arg21 (c : Dev nD) : W20 m ρ c (Proc.devRef .tc main_arg21) = W19 m ρ c (Proc.devRef .tc main_arg21) :=
  W20_of_ne m ρ c main_arg21 (by decide)
theorem reg9_arg22 (c : Dev nD) : W20 m ρ c (Proc.devRef .tc main_arg22) = W19 m ρ c (Proc.devRef .tc main_arg22) :=
  W20_of_ne m ρ c main_arg22 (by decide)
theorem reg9_arg23 (c : Dev nD) : W20 m ρ c (Proc.devRef .tc main_arg23) = W19 m ρ c (Proc.devRef .tc main_arg23) :=
  W20_of_ne m ρ c main_arg23 (by decide)
theorem reg9_arg24 (c : Dev nD) : W20 m ρ c (Proc.devRef .tc main_arg24) = W19 m ρ c (Proc.devRef .tc main_arg24) :=
  W20_of_ne m ρ c main_arg24 (by decide)
theorem reg9_arg25 (c : Dev nD) : W20 m ρ c (Proc.devRef .tc main_arg25) = W19 m ρ c (Proc.devRef .tc main_arg25) :=
  W20_of_ne m ρ c main_arg25 (by decide)
theorem reg9_arg26 (c : Dev nD) : W20 m ρ c (Proc.devRef .tc main_arg26) = W19 m ρ c (Proc.devRef .tc main_arg26) :=
  W20_of_ne m ρ c main_arg26 (by decide)
theorem reg9_arg27 (c : Dev nD) : W20 m ρ c (Proc.devRef .tc main_arg27) = W19 m ρ c (Proc.devRef .tc main_arg27) :=
  W20_of_ne m ρ c main_arg27 (by decide)
theorem reg9_arg28 (c : Dev nD) : W20 m ρ c (Proc.devRef .tc main_arg28) = W19 m ρ c (Proc.devRef .tc main_arg28) :=
  W20_of_ne m ρ c main_arg28 (by decide)
theorem reg9_arg29 (c : Dev nD) : W20 m ρ c (Proc.devRef .tc main_arg29) = W19 m ρ c (Proc.devRef .tc main_arg29) :=
  W20_of_ne m ρ c main_arg29 (by decide)
theorem reg9_arg30 (c : Dev nD) : W20 m ρ c (Proc.devRef .tc main_arg30) = W19 m ρ c (Proc.devRef .tc main_arg30) :=
  W20_of_ne m ρ c main_arg30 (by decide)
theorem reg9_arg31 (c : Dev nD) : W20 m ρ c (Proc.devRef .tc main_arg31) = W19 m ρ c (Proc.devRef .tc main_arg31) :=
  W20_of_ne m ρ c main_arg31 (by decide)
theorem reg9_arg32 (c : Dev nD) : W20 m ρ c (Proc.devRef .tc main_arg32) = W19 m ρ c (Proc.devRef .tc main_arg32) :=
  W20_of_ne m ρ c main_arg32 (by decide)
theorem reg9_arg33 (c : Dev nD) : W20 m ρ c (Proc.devRef .tc main_arg33) = W19 m ρ c (Proc.devRef .tc main_arg33) :=
  W20_of_ne m ρ c main_arg33 (by decide)

theorem args_reg9 (c : Dev nD) : argsOf (W20 m ρ c) = argsOf (W19 m ρ c) := by
  simp only [argsOf, reg9_arg0 m ρ c, reg9_arg1 m ρ c, reg9_arg2 m ρ c, reg9_arg3 m ρ c, reg9_arg4 m ρ c, reg9_arg5 m ρ c, reg9_arg6 m ρ c, reg9_arg7 m ρ c, reg9_arg8 m ρ c, reg9_arg9 m ρ c, reg9_arg10 m ρ c, reg9_arg11 m ρ c, reg9_arg12 m ρ c, reg9_arg13 m ρ c, reg9_arg14 m ρ c, reg9_arg15 m ρ c, reg9_arg16 m ρ c, reg9_arg17 m ρ c, reg9_arg18 m ρ c, reg9_arg19 m ρ c, reg9_arg20 m ρ c, reg9_arg21 m ρ c, reg9_arg22 m ρ c, reg9_arg23 m ρ c, reg9_arg24 m ρ c, reg9_arg25 m ρ c, reg9_arg26 m ρ c, reg9_arg27 m ρ c, reg9_arg28 m ρ c, reg9_arg29 m ρ c, reg9_arg30 m ρ c, reg9_arg31 m ρ c, reg9_arg32 m ρ c, reg9_arg33 m ρ c]

end Cert.KernelIdeal.Stages

end
-- ==== Proof.KStep20.lean ====
/-
  One step of the kernel's boundary chain: from what is known at boundary 19 (the argument arrays as launched; each live buffer at
  its intermediate array of the computation) to the same at boundary 20, across region 9 (its output's closed form; the rest is none of its arrays, or an input window's array, which is not written back).
-/
import proofs.«165753_j16037407883756_1_alg».proof.Proof.KRegArgs9
import proofs.«165753_j16037407883756_1_alg».proof.Proof.RegionsMM

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step20 (A : Cert.Net.Args Ideal)
    (h : argsOf (W19 m ρ c) = A
      ∧ W19 m ρ c (Proc.devRef .tc main_v134) = col (Cert.Net.csNL A)
      ∧ W19 m ρ c (Proc.devRef .tc main_v133) = Cert.Net.mmN3 A
      ∧ W19 m ρ c (Proc.devRef .tc main_v127) = Cert.Net.bN3 A
      ∧ W19 m ρ c (Proc.devRef .tc main_v129) = Cert.Net.wL3 A
      ∧ W19 m ρ c (Proc.devRef .tc main_v131) = Cert.Net.bL3 A
      ∧ W19 m ρ c (Proc.devRef .tc main_v114) = Cert.Net.hn2 A
      ∧ W19 m ρ c (Proc.devRef .tc main_v15) = Cert.Net.cdLN A
      ∧ W19 m ρ c (Proc.devRef .tc main_v31) = Cert.Net.cdNL A) :
    argsOf (W20 m ρ c) = A
    ∧ W20 m ρ c (Proc.devRef .tc main_v135) = Cert.Net.mmL3 A
    ∧ W20 m ρ c (Proc.devRef .tc main_v133) = Cert.Net.mmN3 A
    ∧ W20 m ρ c (Proc.devRef .tc main_v127) = Cert.Net.bN3 A
    ∧ W20 m ρ c (Proc.devRef .tc main_v131) = Cert.Net.bL3 A
    ∧ W20 m ρ c (Proc.devRef .tc main_v15) = Cert.Net.cdLN A
    ∧ W20 m ρ c (Proc.devRef .tc main_v31) = Cert.Net.cdNL A := by
  obtain ⟨ha19, h19_v134, h19_v133, h19_v127, h19_v129, h19_v131, h19_v114, h19_v15, h19_v31⟩ := h
  have ha20 : argsOf (W20 m ρ c) = A := (args_reg9 m ρ c).trans ha19
  have g20_0 : V19 m ρ c (Pipeline.arrRef spec9 0) = Cert.Net.hn2 A := h19_v114
  have g20_1 : V19 m ρ c (Pipeline.arrRef spec9 1) = col (Cert.Net.csNL A) := h19_v134
  have g20_2 : V19 m ρ c (Pipeline.arrRef spec9 2) = Cert.Net.wL3 A := h19_v129
  have h20_v135 : W20 m ρ c (Proc.devRef .tc main_v135) = Cert.Net.mmL3 A :=
    (W20_arr m ρ c 3).trans ((Cert.KernelIdeal.Regions.region9_out (V19 m ρ) c).trans ((congr (congr (congrArg (Cert.Spec.scaleMatmul128 (F := Ideal)) g20_0) g20_1) g20_2).trans rfl))
  have h20_v133 : W20 m ρ c (Proc.devRef .tc main_v133) = Cert.Net.mmN3 A :=
    (W20_of_ne m ρ c main_v133 (by decide)).trans h19_v133
  have h20_v127 : W20 m ρ c (Proc.devRef .tc main_v127) = Cert.Net.bN3 A :=
    (W20_of_ne m ρ c main_v127 (by decide)).trans h19_v127
  have h20_v131 : W20 m ρ c (Proc.devRef .tc main_v131) = Cert.Net.bL3 A :=
    (W20_of_ne m ρ c main_v131 (by decide)).trans h19_v131
  have h20_v15 : W20 m ρ c (Proc.devRef .tc main_v15) = Cert.Net.cdLN A :=
    (W20_of_ne m ρ c main_v15 (by decide)).trans h19_v15
  have h20_v31 : W20 m ρ c (Proc.devRef .tc main_v31) = Cert.Net.cdNL A :=
    (W20_of_ne m ρ c main_v31 (by decide)).trans h19_v31
  exact ⟨ha20, h20_v135, h20_v133, h20_v127, h20_v131, h20_v15, h20_v31⟩

end Cert.KernelIdeal.Stages

end
-- ==== Proof.KStage_h10.lean ====
/-
  A host stretch of the kernel program (h10): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h10 : List (Ref sig .tc) :=
  [ main_c_26, main_v136, main_v137, main_c_27, main_v138, main_v139, main_v140, main_v141, main_v142, main_cst_28, main_v143, main_v144, main_v145, main_c_29, main_v146, main_v147, main_c_30, main_v148, main_v149, main_v150, main_v151, main_v152, main_cst_31, main_v153, main_v154, main_v155, main_v156, main_v157, main_v158, main_v159, main_v160, main_v161, main_v162, main_v163 ]

theorem writes_h10 : (hostOps10 : List (HloOp τ sig (Elt F))).Forall fun op => op.writes ⊆ (written_h10.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h10 (V : Valuation τ sig (Elt F)) {r : Ref sig .tc} (h : r ∉ written_h10) :
    after hostOps10 V (Proc.devRef .tc r) = V (Proc.devRef .tc r) := after_of_writes_sub hostOps10 V writes_h10 h

/-- The stretch leaves the argument arrays as it found them. -/
theorem args_h10 (V : Valuation τ sig (Elt F)) : argsOf (after hostOps10 V) = argsOf V := by
  simp only [argsOf, keep_h10 V (r := main_arg0) (by decide), keep_h10 V (r := main_arg1) (by decide), keep_h10 V (r := main_arg2) (by decide), keep_h10 V (r := main_arg3) (by decide), keep_h10 V (r := main_arg4) (by decide), keep_h10 V (r := main_arg5) (by decide), keep_h10 V (r := main_arg6) (by decide), keep_h10 V (r := main_arg7) (by decide), keep_h10 V (r := main_arg8) (by decide), keep_h10 V (r := main_arg9) (by decide), keep_h10 V (r := main_arg10) (by decide), keep_h10 V (r := main_arg11) (by decide), keep_h10 V (r := main_arg12) (by decide), keep_h10 V (r := main_arg13) (by decide), keep_h10 V (r := main_arg14) (by decide), keep_h10 V (r := main_arg15) (by decide), keep_h10 V (r := main_arg16) (by decide), keep_h10 V (r := main_arg17) (by decide), keep_h10 V (r := main_arg18) (by decide), keep_h10 V (r := main_arg19) (by decide), keep_h10 V (r := main_arg20) (by decide), keep_h10 V (r := main_arg21) (by decide), keep_h10 V (r := main_arg22) (by decide), keep_h10 V (r := main_arg23) (by decide), keep_h10 V (r := main_arg24) (by decide), keep_h10 V (r := main_arg25) (by decide), keep_h10 V (r := main_arg26) (by decide), keep_h10 V (r := main_arg27) (by decide), keep_h10 V (r := main_arg28) (by decide), keep_h10 V (r := main_arg29) (by decide), keep_h10 V (r := main_arg30) (by decide), keep_h10 V (r := main_arg31) (by decide), keep_h10 V (r := main_arg32) (by decide), keep_h10 V (r := main_arg33) (by decide)]

attribute [local irreducible] Host.reduceAdd Host.gather Host.scatterAdd in
set_option maxRecDepth 16384 in
set_option maxHeartbeats 4000000 in
theorem out_h10_v145 (V : Valuation τ sig (Elt F)) :
    after hostOps10 V (Proc.devRef .tc main_v145) = aggregate (V (Proc.devRef .tc main_v133)) (argsOf V).a2 (argsOf V).a3 := by
  simp only [after_cons, after_nil]
  rfl

attribute [local irreducible] Host.reduceAdd Host.gather Host.scatterAdd in
set_option maxRecDepth 16384 in
set_option maxHeartbeats 4000000 in
theorem out_h10_v155 (V : Valuation τ sig (Elt F)) :
    after hostOps10 V (Proc.devRef .tc main_v155) = aggregate (V (Proc.devRef .tc main_v135)) (argsOf V).a4 (argsOf V).a5 := by
  simp only [after_cons, after_nil]
  rfl

attribute [local irreducible] Host.reduceAdd Host.gather Host.scatterAdd in
set_option maxRecDepth 16384 in
set_option maxHeartbeats 4000000 in
theorem out_h10_v160 (V : Valuation τ sig (Elt F)) :
    after hostOps10 V (Proc.devRef .tc main_v160) = col (V (Proc.devRef .tc main_v15)) := by
  simp only [after_cons, after_nil]
  exact Eq.trans rfl (Cert.Glue.col_eq 100000 (V (Proc.devRef .tc main_v15)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h10_v161 (V : Valuation τ sig (Elt F)) :
    after hostOps10 V (Proc.devRef .tc main_v161) = row (V (Proc.devRef .tc main_v127)) := by
  simp only [after_cons, after_nil]
  exact Eq.trans rfl (Cert.Glue.row_eq 128 (V (Proc.devRef .tc main_v127)) shapeCasts_S128_S1x128 Cert.ReferenceIdeal.Gen.bcast_S128_S1x128_1)

attribute [local irreducible] Host.reduceAdd Host.gather Host.scatterAdd in
set_option maxRecDepth 16384 in
set_option maxHeartbeats 4000000 in
theorem out_h10_v162 (V : Valuation τ sig (Elt F)) :
    after hostOps10 V (Proc.devRef .tc main_v162) = row (ln3_2 (argsOf V).a14) := by
  simp only [after_cons, after_nil]
  exact Eq.trans rfl (Cert.Glue.row_eq 128 (ln3_2 (argsOf V).a14) shapeCasts_S128_S1x128 Cert.ReferenceIdeal.Gen.bcast_S128_S1x128_1)

attribute [local irreducible] Host.reduceAdd Host.gather Host.scatterAdd in
set_option maxRecDepth 16384 in
set_option maxHeartbeats 4000000 in
theorem out_h10_v163 (V : Valuation τ sig (Elt F)) :
    after hostOps10 V (Proc.devRef .tc main_v163) = row (ln3_2 (argsOf V).a15) := by
  simp only [after_cons, after_nil]
  exact Eq.trans rfl (Cert.Glue.row_eq 128 (ln3_2 (argsOf V).a15) shapeCasts_S128_S1x128 Cert.ReferenceIdeal.Gen.bcast_S128_S1x128_1)

end Cert.KernelIdeal.Stages

end
-- ==== Proof.KStep21.lean ====
/-
  One step of the kernel's boundary chain: from what is known at boundary 20 (the argument arrays as launched; each live buffer at
  its intermediate array of the computation) to the same at boundary 21, across host stretch 10 (its stage equations; the rest kept).
-/
import proofs.«165753_j16037407883756_1_alg».proof.Proof.KStage_h10
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step21 (A : Cert.Net.Args Ideal)
    (h : argsOf (W20 m ρ c) = A
      ∧ W20 m ρ c (Proc.devRef .tc main_v135) = Cert.Net.mmL3 A
      ∧ W20 m ρ c (Proc.devRef .tc main_v133) = Cert.Net.mmN3 A
      ∧ W20 m ρ c (Proc.devRef .tc main_v127) = Cert.Net.bN3 A
      ∧ W20 m ρ c (Proc.devRef .tc main_v131) = Cert.Net.bL3 A
      ∧ W20 m ρ c (Proc.devRef .tc main_v15) = Cert.Net.cdLN A
      ∧ W20 m ρ c (Proc.devRef .tc main_v31) = Cert.Net.cdNL A) :
    argsOf (W21 m ρ c) = A
    ∧ W21 m ρ c (Proc.devRef .tc main_v145) = Cert.Net.aggN3 A
    ∧ W21 m ρ c (Proc.devRef .tc main_v155) = Cert.Net.aggL3 A
    ∧ W21 m ρ c (Proc.devRef .tc main_v160) = col (Cert.Net.cdLN A)
    ∧ W21 m ρ c (Proc.devRef .tc main_v161) = row (Cert.Net.bN3 A)
    ∧ W21 m ρ c (Proc.devRef .tc main_v162) = row (ln3_2 A.a14)
    ∧ W21 m ρ c (Proc.devRef .tc main_v163) = row (ln3_2 A.a15)
    ∧ W21 m ρ c (Proc.devRef .tc main_v131) = Cert.Net.bL3 A
    ∧ W21 m ρ c (Proc.devRef .tc main_v31) = Cert.Net.cdNL A := by
  obtain ⟨ha20, h20_v135, h20_v133, h20_v127, h20_v131, h20_v15, h20_v31⟩ := h
  have ha21 : argsOf (W21 m ρ c) = A := (args_h10 (W20 m ρ c)).trans ha20
  have e21_2 : W20 m ρ c (Proc.devRef .tc main_arg2) = A.a2 := congrArg (fun X : Cert.Net.Args Ideal => X.a2) ha20
  have e21_3 : W20 m ρ c (Proc.devRef .tc main_arg3) = A.a3 := congrArg (fun X : Cert.Net.Args Ideal => X.a3) ha20
  have h21_v145 : W21 m ρ c (Proc.devRef .tc main_v145) = Cert.Net.aggN3 A := by
    refine (out_h10_v145 (W20 m ρ c)).trans ?_
    (try simp only [e21_2, e21_3, h20_v133]); (try rfl)
  have e21_4 : W20 m ρ c (Proc.devRef .tc main_arg4) = A.a4 := congrArg (fun X : Cert.Net.Args Ideal => X.a4) ha20
  have e21_5 : W20 m ρ c (Proc.devRef .tc main_arg5) = A.a5 := congrArg (fun X : Cert.Net.Args Ideal => X.a5) ha20
  have h21_v155 : W21 m ρ c (Proc.devRef .tc main_v155) = Cert.Net.aggL3 A := by
    refine (out_h10_v155 (W20 m ρ c)).trans ?_
    (try simp only [e21_4, e21_5, h20_v135]); (try rfl)
  have h21_v160 : W21 m ρ c (Proc.devRef .tc main_v160) = col (Cert.Net.cdLN A) := by
    refine (out_h10_v160 (W20 m ρ c)).trans ?_
    (try simp only [h20_v15]); (try rfl)
  have h21_v161 : W21 m ρ c (Proc.devRef .tc main_v161) = row (Cert.Net.bN3 A) := by
    refine (out_h10_v161 (W20 m ρ c)).trans ?_
    (try simp only [h20_v127]); (try rfl)
  have e21_14 : W20 m ρ c (Proc.devRef .tc main_arg14) = A.a14 := congrArg (fun X : Cert.Net.Args Ideal => X.a14) ha20
  have h21_v162 : W21 m ρ c (Proc.devRef .tc main_v162) = row (ln3_2 A.a14) := by
    refine (out_h10_v162 (W20 m ρ c)).trans ?_
    (try simp only [e21_14]); (try rfl)
  have e21_15 : W20 m ρ c (Proc.devRef .tc main_arg15) = A.a15 := congrArg (fun X : Cert.Net.Args Ideal => X.a15) ha20
  have h21_v163 : W21 m ρ c (Proc.devRef .tc main_v163) = row (ln3_2 A.a15) := by
    refine (out_h10_v163 (W20 m ρ c)).trans ?_
    (try simp only [e21_15]); (try rfl)
  have h21_v131 : W21 m ρ c (Proc.devRef .tc main_v131) = Cert.Net.bL3 A :=
    (keep_h10 (W20 m ρ c) (by decide)).trans h20_v131
  have h21_v31 : W21 m ρ c (Proc.devRef .tc main_v31) = Cert.Net.cdNL A :=
    (keep_h10 (W20 m ρ c) (by decide)).trans h20_v31
  exact ⟨ha21, h21_v145, h21_v155, h21_v160, h21_v161, h21_v162, h21_v163, h21_v131, h21_v31⟩

end Cert.KernelIdeal.Stages

end
-- ==== Proof.KRegArgs10.lean ====
/-
  Region 10 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg10_arg0 (c : Dev nD) : W22 m ρ c (Proc.devRef .tc main_arg0) = W21 m ρ c (Proc.devRef .tc main_arg0) :=
  W22_of_ne m ρ c main_arg0 (by decide)
theorem reg10_arg1 (c : Dev nD) : W22 m ρ c (Proc.devRef .tc main_arg1) = W21 m ρ c (Proc.devRef .tc main_arg1) :=
  W22_of_ne m ρ c main_arg1 (by decide)
theorem reg10_arg2 (c : Dev nD) : W22 m ρ c (Proc.devRef .tc main_arg2) = W21 m ρ c (Proc.devRef .tc main_arg2) :=
  W22_of_ne m ρ c main_arg2 (by decide)
theorem reg10_arg3 (c : Dev nD) : W22 m ρ c (Proc.devRef .tc main_arg3) = W21 m ρ c (Proc.devRef .tc main_arg3) :=
  W22_of_ne m ρ c main_arg3 (by decide)
theorem reg10_arg4 (c : Dev nD) : W22 m ρ c (Proc.devRef .tc main_arg4) = W21 m ρ c (Proc.devRef .tc main_arg4) :=
  W22_of_ne m ρ c main_arg4 (by decide)
theorem reg10_arg5 (c : Dev nD) : W22 m ρ c (Proc.devRef .tc main_arg5) = W21 m ρ c (Proc.devRef .tc main_arg5) :=
  W22_of_ne m ρ c main_arg5 (by decide)
theorem reg10_arg6 (c : Dev nD) : W22 m ρ c (Proc.devRef .tc main_arg6) = W21 m ρ c (Proc.devRef .tc main_arg6) :=
  W22_of_ne m ρ c main_arg6 (by decide)
theorem reg10_arg7 (c : Dev nD) : W22 m ρ c (Proc.devRef .tc main_arg7) = W21 m ρ c (Proc.devRef .tc main_arg7) :=
  W22_of_ne m ρ c main_arg7 (by decide)
theorem reg10_arg8 (c : Dev nD) : W22 m ρ c (Proc.devRef .tc main_arg8) = W21 m ρ c (Proc.devRef .tc main_arg8) :=
  W22_of_ne m ρ c main_arg8 (by decide)
theorem reg10_arg9 (c : Dev nD) : W22 m ρ c (Proc.devRef .tc main_arg9) = W21 m ρ c (Proc.devRef .tc main_arg9) :=
  W22_of_ne m ρ c main_arg9 (by decide)
theorem reg10_arg10 (c : Dev nD) : W22 m ρ c (Proc.devRef .tc main_arg10) = W21 m ρ c (Proc.devRef .tc main_arg10) :=
  W22_of_ne m ρ c main_arg10 (by decide)
theorem reg10_arg11 (c : Dev nD) : W22 m ρ c (Proc.devRef .tc main_arg11) = W21 m ρ c (Proc.devRef .tc main_arg11) :=
  W22_of_ne m ρ c main_arg11 (by decide)
theorem reg10_arg12 (c : Dev nD) : W22 m ρ c (Proc.devRef .tc main_arg12) = W21 m ρ c (Proc.devRef .tc main_arg12) :=
  W22_of_ne m ρ c main_arg12 (by decide)
theorem reg10_arg13 (c : Dev nD) : W22 m ρ c (Proc.devRef .tc main_arg13) = W21 m ρ c (Proc.devRef .tc main_arg13) :=
  W22_of_ne m ρ c main_arg13 (by decide)
theorem reg10_arg14 (c : Dev nD) : W22 m ρ c (Proc.devRef .tc main_arg14) = W21 m ρ c (Proc.devRef .tc main_arg14) :=
  W22_of_ne m ρ c main_arg14 (by decide)
theorem reg10_arg15 (c : Dev nD) : W22 m ρ c (Proc.devRef .tc main_arg15) = W21 m ρ c (Proc.devRef .tc main_arg15) :=
  W22_of_ne m ρ c main_arg15 (by decide)
theorem reg10_arg16 (c : Dev nD) : W22 m ρ c (Proc.devRef .tc main_arg16) = W21 m ρ c (Proc.devRef .tc main_arg16) :=
  W22_of_ne m ρ c main_arg16 (by decide)
theorem reg10_arg17 (c : Dev nD) : W22 m ρ c (Proc.devRef .tc main_arg17) = W21 m ρ c (Proc.devRef .tc main_arg17) :=
  W22_of_ne m ρ c main_arg17 (by decide)
theorem reg10_arg18 (c : Dev nD) : W22 m ρ c (Proc.devRef .tc main_arg18) = W21 m ρ c (Proc.devRef .tc main_arg18) :=
  W22_of_ne m ρ c main_arg18 (by decide)
theorem reg10_arg19 (c : Dev nD) : W22 m ρ c (Proc.devRef .tc main_arg19) = W21 m ρ c (Proc.devRef .tc main_arg19) :=
  W22_of_ne m ρ c main_arg19 (by decide)
theorem reg10_arg20 (c : Dev nD) : W22 m ρ c (Proc.devRef .tc main_arg20) = W21 m ρ c (Proc.devRef .tc main_arg20) :=
  W22_of_ne m ρ c main_arg20 (by decide)
theorem reg10_arg21 (c : Dev nD) : W22 m ρ c (Proc.devRef .tc main_arg21) = W21 m ρ c (Proc.devRef .tc main_arg21) :=
  W22_of_ne m ρ c main_arg21 (by decide)
theorem reg10_arg22 (c : Dev nD) : W22 m ρ c (Proc.devRef .tc main_arg22) = W21 m ρ c (Proc.devRef .tc main_arg22) :=
  W22_of_ne m ρ c main_arg22 (by decide)
theorem reg10_arg23 (c : Dev nD) : W22 m ρ c (Proc.devRef .tc main_arg23) = W21 m ρ c (Proc.devRef .tc main_arg23) :=
  W22_of_ne m ρ c main_arg23 (by decide)
theorem reg10_arg24 (c : Dev nD) : W22 m ρ c (Proc.devRef .tc main_arg24) = W21 m ρ c (Proc.devRef .tc main_arg24) :=
  W22_of_ne m ρ c main_arg24 (by decide)
theorem reg10_arg25 (c : Dev nD) : W22 m ρ c (Proc.devRef .tc main_arg25) = W21 m ρ c (Proc.devRef .tc main_arg25) :=
  W22_of_ne m ρ c main_arg25 (by decide)
theorem reg10_arg26 (c : Dev nD) : W22 m ρ c (Proc.devRef .tc main_arg26) = W21 m ρ c (Proc.devRef .tc main_arg26) :=
  W22_of_ne m ρ c main_arg26 (by decide)
theorem reg10_arg27 (c : Dev nD) : W22 m ρ c (Proc.devRef .tc main_arg27) = W21 m ρ c (Proc.devRef .tc main_arg27) :=
  W22_of_ne m ρ c main_arg27 (by decide)
theorem reg10_arg28 (c : Dev nD) : W22 m ρ c (Proc.devRef .tc main_arg28) = W21 m ρ c (Proc.devRef .tc main_arg28) :=
  W22_of_ne m ρ c main_arg28 (by decide)
theorem reg10_arg29 (c : Dev nD) : W22 m ρ c (Proc.devRef .tc main_arg29) = W21 m ρ c (Proc.devRef .tc main_arg29) :=
  W22_of_ne m ρ c main_arg29 (by decide)
theorem reg10_arg30 (c : Dev nD) : W22 m ρ c (Proc.devRef .tc main_arg30) = W21 m ρ c (Proc.devRef .tc main_arg30) :=
  W22_of_ne m ρ c main_arg30 (by decide)
theorem reg10_arg31 (c : Dev nD) : W22 m ρ c (Proc.devRef .tc main_arg31) = W21 m ρ c (Proc.devRef .tc main_arg31) :=
  W22_of_ne m ρ c main_arg31 (by decide)
theorem reg10_arg32 (c : Dev nD) : W22 m ρ c (Proc.devRef .tc main_arg32) = W21 m ρ c (Proc.devRef .tc main_arg32) :=
  W22_of_ne m ρ c main_arg32 (by decide)
theorem reg10_arg33 (c : Dev nD) : W22 m ρ c (Proc.devRef .tc main_arg33) = W21 m ρ c (Proc.devRef .tc main_arg33) :=
  W22_of_ne m ρ c main_arg33 (by decide)

theorem args_reg10 (c : Dev nD) : argsOf (W22 m ρ c) = argsOf (W21 m ρ c) := by
  simp only [argsOf, reg10_arg0 m ρ c, reg10_arg1 m ρ c, reg10_arg2 m ρ c, reg10_arg3 m ρ c, reg10_arg4 m ρ c, reg10_arg5 m ρ c, reg10_arg6 m ρ c, reg10_arg7 m ρ c, reg10_arg8 m ρ c, reg10_arg9 m ρ c, reg10_arg10 m ρ c, reg10_arg11 m ρ c, reg10_arg12 m ρ c, reg10_arg13 m ρ c, reg10_arg14 m ρ c, reg10_arg15 m ρ c, reg10_arg16 m ρ c, reg10_arg17 m ρ c, reg10_arg18 m ρ c, reg10_arg19 m ρ c, reg10_arg20 m ρ c, reg10_arg21 m ρ c, reg10_arg22 m ρ c, reg10_arg23 m ρ c, reg10_arg24 m ρ c, reg10_arg25 m ρ c, reg10_arg26 m ρ c, reg10_arg27 m ρ c, reg10_arg28 m ρ c, reg10_arg29 m ρ c, reg10_arg30 m ρ c, reg10_arg31 m ρ c, reg10_arg32 m ρ c, reg10_arg33 m ρ c]

end Cert.KernelIdeal.Stages

end
-- ==== Proof.KStep22.lean ====
/-
  One step of the kernel's boundary chain: from what is known at boundary 21 (the argument arrays as launched; each live buffer at
  its intermediate array of the computation) to the same at boundary 22, across region 10 (its output's closed form; the rest is none of its arrays, or an input window's array, which is not written back).
-/
import proofs.«165753_j16037407883756_1_alg».proof.Proof.KRegArgs10
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step22 (A : Cert.Net.Args Ideal)
    (h : argsOf (W21 m ρ c) = A
      ∧ W21 m ρ c (Proc.devRef .tc main_v145) = Cert.Net.aggN3 A
      ∧ W21 m ρ c (Proc.devRef .tc main_v155) = Cert.Net.aggL3 A
      ∧ W21 m ρ c (Proc.devRef .tc main_v160) = col (Cert.Net.cdLN A)
      ∧ W21 m ρ c (Proc.devRef .tc main_v161) = row (Cert.Net.bN3 A)
      ∧ W21 m ρ c (Proc.devRef .tc main_v162) = row (ln3_2 A.a14)
      ∧ W21 m ρ c (Proc.devRef .tc main_v163) = row (ln3_2 A.a15)
      ∧ W21 m ρ c (Proc.devRef .tc main_v131) = Cert.Net.bL3 A
      ∧ W21 m ρ c (Proc.devRef .tc main_v31) = Cert.Net.cdNL A) :
    argsOf (W22 m ρ c) = A
    ∧ W22 m ρ c (Proc.devRef .tc main_v164) = Cert.Net.hn3 A
    ∧ W22 m ρ c (Proc.devRef .tc main_v155) = Cert.Net.aggL3 A
    ∧ W22 m ρ c (Proc.devRef .tc main_v131) = Cert.Net.bL3 A
    ∧ W22 m ρ c (Proc.devRef .tc main_v31) = Cert.Net.cdNL A := by
  obtain ⟨ha21, h21_v145, h21_v155, h21_v160, h21_v161, h21_v162, h21_v163, h21_v131, h21_v31⟩ := h
  have ha22 : argsOf (W22 m ρ c) = A := (args_reg10 m ρ c).trans ha21
  have g22_0 : V21 m ρ c (Pipeline.arrRef spec10 0) = Cert.Net.aggN3 A := h21_v145
  have g22_1 : V21 m ρ c (Pipeline.arrRef spec10 1) = col (Cert.Net.cdLN A) := h21_v160
  have g22_2 : V21 m ρ c (Pipeline.arrRef spec10 2) = row (Cert.Net.bN3 A) := h21_v161
  have g22_3 : V21 m ρ c (Pipeline.arrRef spec10 3) = row (ln3_2 A.a14) := h21_v162
  have g22_4 : V21 m ρ c (Pipeline.arrRef spec10 4) = row (ln3_2 A.a15) := h21_v163
  have h22_v164 : W22 m ρ c (Proc.devRef .tc main_v164) = Cert.Net.hn3 A :=
    (W22_arr m ρ c 5).trans ((Cert.KernelIdeal.Regions.region10_out (V21 m ρ) c).trans ((congr (congr (congr (congr (congrArg (Cert.Spec.lnElu (F := Ideal)) g22_0) g22_1) g22_2) g22_3) g22_4).trans rfl))
  have h22_v155 : W22 m ρ c (Proc.devRef .tc main_v155) = Cert.Net.aggL3 A :=
    (W22_of_ne m ρ c main_v155 (by decide)).trans h21_v155
  have h22_v131 : W22 m ρ c (Proc.devRef .tc main_v131) = Cert.Net.bL3 A :=
    (W22_of_ne m ρ c main_v131 (by decide)).trans h21_v131
  have h22_v31 : W22 m ρ c (Proc.devRef .tc main_v31) = Cert.Net.cdNL A :=
    (W22_of_ne m ρ c main_v31 (by decide)).trans h21_v31
  exact ⟨ha22, h22_v164, h22_v155, h22_v131, h22_v31⟩

end Cert.KernelIdeal.Stages

end
-- ==== Proof.KStage_h11.lean ====
/-
  A host stretch of the kernel program (h11): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The buffers the stretch writes. -/
abbrev written_h11 : List (Ref sig .tc) :=
  [ main_v165, main_v166, main_v167, main_v168, main_v169, main_v170, main_v171, main_v172 ]

theorem writes_h11 : (hostOps11 : List (HloOp τ sig (Elt F))).Forall fun op => op.writes ⊆ (written_h11.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_h11 (V : Valuation τ sig (Elt F)) {r : Ref sig .tc} (h : r ∉ written_h11) :
    after hostOps11 V (Proc.devRef .tc r) = V (Proc.devRef .tc r) := after_of_writes_sub hostOps11 V writes_h11 h

/-- The stretch leaves the argument arrays as it found them. -/
theorem args_h11 (V : Valuation τ sig (Elt F)) : argsOf (after hostOps11 V) = argsOf V := by
  simp only [argsOf, keep_h11 V (r := main_arg0) (by decide), keep_h11 V (r := main_arg1) (by decide), keep_h11 V (r := main_arg2) (by decide), keep_h11 V (r := main_arg3) (by decide), keep_h11 V (r := main_arg4) (by decide), keep_h11 V (r := main_arg5) (by decide), keep_h11 V (r := main_arg6) (by decide), keep_h11 V (r := main_arg7) (by decide), keep_h11 V (r := main_arg8) (by decide), keep_h11 V (r := main_arg9) (by decide), keep_h11 V (r := main_arg10) (by decide), keep_h11 V (r := main_arg11) (by decide), keep_h11 V (r := main_arg12) (by decide), keep_h11 V (r := main_arg13) (by decide), keep_h11 V (r := main_arg14) (by decide), keep_h11 V (r := main_arg15) (by decide), keep_h11 V (r := main_arg16) (by decide), keep_h11 V (r := main_arg17) (by decide), keep_h11 V (r := main_arg18) (by decide), keep_h11 V (r := main_arg19) (by decide), keep_h11 V (r := main_arg20) (by decide), keep_h11 V (r := main_arg21) (by decide), keep_h11 V (r := main_arg22) (by decide), keep_h11 V (r := main_arg23) (by decide), keep_h11 V (r := main_arg24) (by decide), keep_h11 V (r := main_arg25) (by decide), keep_h11 V (r := main_arg26) (by decide), keep_h11 V (r := main_arg27) (by decide), keep_h11 V (r := main_arg28) (by decide), keep_h11 V (r := main_arg29) (by decide), keep_h11 V (r := main_arg30) (by decide), keep_h11 V (r := main_arg31) (by decide), keep_h11 V (r := main_arg32) (by decide), keep_h11 V (r := main_arg33) (by decide)]

attribute [local irreducible] Host.reduceAdd Host.gather Host.scatterAdd in
set_option maxRecDepth 16384 in
set_option maxHeartbeats 4000000 in
theorem out_h11_v169 (V : Valuation τ sig (Elt F)) :
    after hostOps11 V (Proc.devRef .tc main_v169) = col (V (Proc.devRef .tc main_v31)) := by
  simp only [after_cons, after_nil]
  exact Eq.trans rfl (Cert.Glue.col_eq 100000 (V (Proc.devRef .tc main_v31)) shapeCasts_S100000_S100000x1 Cert.ReferenceIdeal.Gen.bcast_S100000_S100000x1_0)

attribute [local irreducible] Host.reduceAdd Host.gather Host.scatterAdd in
set_option maxRecDepth 16384 in
set_option maxHeartbeats 4000000 in
theorem out_h11_v170 (V : Valuation τ sig (Elt F)) :
    after hostOps11 V (Proc.devRef .tc main_v170) = row (V (Proc.devRef .tc main_v131)) := by
  simp only [after_cons, after_nil]
  exact Eq.trans rfl (Cert.Glue.row_eq 128 (V (Proc.devRef .tc main_v131)) shapeCasts_S128_S1x128 Cert.ReferenceIdeal.Gen.bcast_S128_S1x128_1)

attribute [local irreducible] Host.reduceAdd Host.gather Host.scatterAdd in
set_option maxRecDepth 16384 in
set_option maxHeartbeats 4000000 in
theorem out_h11_v171 (V : Valuation τ sig (Elt F)) :
    after hostOps11 V (Proc.devRef .tc main_v171) = row (ln3_2 (argsOf V).a16) := by
  simp only [after_cons, after_nil]
  exact Eq.trans rfl (Cert.Glue.row_eq 128 (ln3_2 (argsOf V).a16) shapeCasts_S128_S1x128 Cert.ReferenceIdeal.Gen.bcast_S128_S1x128_1)

attribute [local irreducible] Host.reduceAdd Host.gather Host.scatterAdd in
set_option maxRecDepth 16384 in
set_option maxHeartbeats 4000000 in
theorem out_h11_v172 (V : Valuation τ sig (Elt F)) :
    after hostOps11 V (Proc.devRef .tc main_v172) = row (ln3_2 (argsOf V).a17) := by
  simp only [after_cons, after_nil]
  exact Eq.trans rfl (Cert.Glue.row_eq 128 (ln3_2 (argsOf V).a17) shapeCasts_S128_S1x128 Cert.ReferenceIdeal.Gen.bcast_S128_S1x128_1)

end Cert.KernelIdeal.Stages

end
-- ==== Proof.KStep23.lean ====
/-
  One step of the kernel's boundary chain: from what is known at boundary 22 (the argument arrays as launched; each live buffer at
  its intermediate array of the computation) to the same at boundary 23, across host stretch 11 (its stage equations; the rest kept).
-/
import proofs.«165753_j16037407883756_1_alg».proof.Proof.KStage_h11
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step23 (A : Cert.Net.Args Ideal)
    (h : argsOf (W22 m ρ c) = A
      ∧ W22 m ρ c (Proc.devRef .tc main_v164) = Cert.Net.hn3 A
      ∧ W22 m ρ c (Proc.devRef .tc main_v155) = Cert.Net.aggL3 A
      ∧ W22 m ρ c (Proc.devRef .tc main_v131) = Cert.Net.bL3 A
      ∧ W22 m ρ c (Proc.devRef .tc main_v31) = Cert.Net.cdNL A) :
    argsOf (W23 m ρ c) = A
    ∧ W23 m ρ c (Proc.devRef .tc main_v169) = col (Cert.Net.cdNL A)
    ∧ W23 m ρ c (Proc.devRef .tc main_v170) = row (Cert.Net.bL3 A)
    ∧ W23 m ρ c (Proc.devRef .tc main_v171) = row (ln3_2 A.a16)
    ∧ W23 m ρ c (Proc.devRef .tc main_v172) = row (ln3_2 A.a17)
    ∧ W23 m ρ c (Proc.devRef .tc main_v164) = Cert.Net.hn3 A
    ∧ W23 m ρ c (Proc.devRef .tc main_v155) = Cert.Net.aggL3 A := by
  obtain ⟨ha22, h22_v164, h22_v155, h22_v131, h22_v31⟩ := h
  have ha23 : argsOf (W23 m ρ c) = A := (args_h11 (W22 m ρ c)).trans ha22
  have h23_v169 : W23 m ρ c (Proc.devRef .tc main_v169) = col (Cert.Net.cdNL A) := by
    refine (out_h11_v169 (W22 m ρ c)).trans ?_
    (try simp only [h22_v31]); (try rfl)
  have h23_v170 : W23 m ρ c (Proc.devRef .tc main_v170) = row (Cert.Net.bL3 A) := by
    refine (out_h11_v170 (W22 m ρ c)).trans ?_
    (try simp only [h22_v131]); (try rfl)
  have e23_16 : W22 m ρ c (Proc.devRef .tc main_arg16) = A.a16 := congrArg (fun X : Cert.Net.Args Ideal => X.a16) ha22
  have h23_v171 : W23 m ρ c (Proc.devRef .tc main_v171) = row (ln3_2 A.a16) := by
    refine (out_h11_v171 (W22 m ρ c)).trans ?_
    (try simp only [e23_16]); (try rfl)
  have e23_17 : W22 m ρ c (Proc.devRef .tc main_arg17) = A.a17 := congrArg (fun X : Cert.Net.Args Ideal => X.a17) ha22
  have h23_v172 : W23 m ρ c (Proc.devRef .tc main_v172) = row (ln3_2 A.a17) := by
    refine (out_h11_v172 (W22 m ρ c)).trans ?_
    (try simp only [e23_17]); (try rfl)
  have h23_v164 : W23 m ρ c (Proc.devRef .tc main_v164) = Cert.Net.hn3 A :=
    (keep_h11 (W22 m ρ c) (by decide)).trans h22_v164
  have h23_v155 : W23 m ρ c (Proc.devRef .tc main_v155) = Cert.Net.aggL3 A :=
    (keep_h11 (W22 m ρ c) (by decide)).trans h22_v155
  exact ⟨ha23, h23_v169, h23_v170, h23_v171, h23_v172, h23_v164, h23_v155⟩

end Cert.KernelIdeal.Stages

end
-- ==== Proof.KRegArgs11.lean ====
/-
  Region 11 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg11_arg0 (c : Dev nD) : W24 m ρ c (Proc.devRef .tc main_arg0) = W23 m ρ c (Proc.devRef .tc main_arg0) :=
  W24_of_ne m ρ c main_arg0 (by decide)
theorem reg11_arg1 (c : Dev nD) : W24 m ρ c (Proc.devRef .tc main_arg1) = W23 m ρ c (Proc.devRef .tc main_arg1) :=
  W24_of_ne m ρ c main_arg1 (by decide)
theorem reg11_arg2 (c : Dev nD) : W24 m ρ c (Proc.devRef .tc main_arg2) = W23 m ρ c (Proc.devRef .tc main_arg2) :=
  W24_of_ne m ρ c main_arg2 (by decide)
theorem reg11_arg3 (c : Dev nD) : W24 m ρ c (Proc.devRef .tc main_arg3) = W23 m ρ c (Proc.devRef .tc main_arg3) :=
  W24_of_ne m ρ c main_arg3 (by decide)
theorem reg11_arg4 (c : Dev nD) : W24 m ρ c (Proc.devRef .tc main_arg4) = W23 m ρ c (Proc.devRef .tc main_arg4) :=
  W24_of_ne m ρ c main_arg4 (by decide)
theorem reg11_arg5 (c : Dev nD) : W24 m ρ c (Proc.devRef .tc main_arg5) = W23 m ρ c (Proc.devRef .tc main_arg5) :=
  W24_of_ne m ρ c main_arg5 (by decide)
theorem reg11_arg6 (c : Dev nD) : W24 m ρ c (Proc.devRef .tc main_arg6) = W23 m ρ c (Proc.devRef .tc main_arg6) :=
  W24_of_ne m ρ c main_arg6 (by decide)
theorem reg11_arg7 (c : Dev nD) : W24 m ρ c (Proc.devRef .tc main_arg7) = W23 m ρ c (Proc.devRef .tc main_arg7) :=
  W24_of_ne m ρ c main_arg7 (by decide)
theorem reg11_arg8 (c : Dev nD) : W24 m ρ c (Proc.devRef .tc main_arg8) = W23 m ρ c (Proc.devRef .tc main_arg8) :=
  W24_of_ne m ρ c main_arg8 (by decide)
theorem reg11_arg9 (c : Dev nD) : W24 m ρ c (Proc.devRef .tc main_arg9) = W23 m ρ c (Proc.devRef .tc main_arg9) :=
  W24_of_ne m ρ c main_arg9 (by decide)
theorem reg11_arg10 (c : Dev nD) : W24 m ρ c (Proc.devRef .tc main_arg10) = W23 m ρ c (Proc.devRef .tc main_arg10) :=
  W24_of_ne m ρ c main_arg10 (by decide)
theorem reg11_arg11 (c : Dev nD) : W24 m ρ c (Proc.devRef .tc main_arg11) = W23 m ρ c (Proc.devRef .tc main_arg11) :=
  W24_of_ne m ρ c main_arg11 (by decide)
theorem reg11_arg12 (c : Dev nD) : W24 m ρ c (Proc.devRef .tc main_arg12) = W23 m ρ c (Proc.devRef .tc main_arg12) :=
  W24_of_ne m ρ c main_arg12 (by decide)
theorem reg11_arg13 (c : Dev nD) : W24 m ρ c (Proc.devRef .tc main_arg13) = W23 m ρ c (Proc.devRef .tc main_arg13) :=
  W24_of_ne m ρ c main_arg13 (by decide)
theorem reg11_arg14 (c : Dev nD) : W24 m ρ c (Proc.devRef .tc main_arg14) = W23 m ρ c (Proc.devRef .tc main_arg14) :=
  W24_of_ne m ρ c main_arg14 (by decide)
theorem reg11_arg15 (c : Dev nD) : W24 m ρ c (Proc.devRef .tc main_arg15) = W23 m ρ c (Proc.devRef .tc main_arg15) :=
  W24_of_ne m ρ c main_arg15 (by decide)
theorem reg11_arg16 (c : Dev nD) : W24 m ρ c (Proc.devRef .tc main_arg16) = W23 m ρ c (Proc.devRef .tc main_arg16) :=
  W24_of_ne m ρ c main_arg16 (by decide)
theorem reg11_arg17 (c : Dev nD) : W24 m ρ c (Proc.devRef .tc main_arg17) = W23 m ρ c (Proc.devRef .tc main_arg17) :=
  W24_of_ne m ρ c main_arg17 (by decide)
theorem reg11_arg18 (c : Dev nD) : W24 m ρ c (Proc.devRef .tc main_arg18) = W23 m ρ c (Proc.devRef .tc main_arg18) :=
  W24_of_ne m ρ c main_arg18 (by decide)
theorem reg11_arg19 (c : Dev nD) : W24 m ρ c (Proc.devRef .tc main_arg19) = W23 m ρ c (Proc.devRef .tc main_arg19) :=
  W24_of_ne m ρ c main_arg19 (by decide)
theorem reg11_arg20 (c : Dev nD) : W24 m ρ c (Proc.devRef .tc main_arg20) = W23 m ρ c (Proc.devRef .tc main_arg20) :=
  W24_of_ne m ρ c main_arg20 (by decide)
theorem reg11_arg21 (c : Dev nD) : W24 m ρ c (Proc.devRef .tc main_arg21) = W23 m ρ c (Proc.devRef .tc main_arg21) :=
  W24_of_ne m ρ c main_arg21 (by decide)
theorem reg11_arg22 (c : Dev nD) : W24 m ρ c (Proc.devRef .tc main_arg22) = W23 m ρ c (Proc.devRef .tc main_arg22) :=
  W24_of_ne m ρ c main_arg22 (by decide)
theorem reg11_arg23 (c : Dev nD) : W24 m ρ c (Proc.devRef .tc main_arg23) = W23 m ρ c (Proc.devRef .tc main_arg23) :=
  W24_of_ne m ρ c main_arg23 (by decide)
theorem reg11_arg24 (c : Dev nD) : W24 m ρ c (Proc.devRef .tc main_arg24) = W23 m ρ c (Proc.devRef .tc main_arg24) :=
  W24_of_ne m ρ c main_arg24 (by decide)
theorem reg11_arg25 (c : Dev nD) : W24 m ρ c (Proc.devRef .tc main_arg25) = W23 m ρ c (Proc.devRef .tc main_arg25) :=
  W24_of_ne m ρ c main_arg25 (by decide)
theorem reg11_arg26 (c : Dev nD) : W24 m ρ c (Proc.devRef .tc main_arg26) = W23 m ρ c (Proc.devRef .tc main_arg26) :=
  W24_of_ne m ρ c main_arg26 (by decide)
theorem reg11_arg27 (c : Dev nD) : W24 m ρ c (Proc.devRef .tc main_arg27) = W23 m ρ c (Proc.devRef .tc main_arg27) :=
  W24_of_ne m ρ c main_arg27 (by decide)
theorem reg11_arg28 (c : Dev nD) : W24 m ρ c (Proc.devRef .tc main_arg28) = W23 m ρ c (Proc.devRef .tc main_arg28) :=
  W24_of_ne m ρ c main_arg28 (by decide)
theorem reg11_arg29 (c : Dev nD) : W24 m ρ c (Proc.devRef .tc main_arg29) = W23 m ρ c (Proc.devRef .tc main_arg29) :=
  W24_of_ne m ρ c main_arg29 (by decide)
theorem reg11_arg30 (c : Dev nD) : W24 m ρ c (Proc.devRef .tc main_arg30) = W23 m ρ c (Proc.devRef .tc main_arg30) :=
  W24_of_ne m ρ c main_arg30 (by decide)
theorem reg11_arg31 (c : Dev nD) : W24 m ρ c (Proc.devRef .tc main_arg31) = W23 m ρ c (Proc.devRef .tc main_arg31) :=
  W24_of_ne m ρ c main_arg31 (by decide)
theorem reg11_arg32 (c : Dev nD) : W24 m ρ c (Proc.devRef .tc main_arg32) = W23 m ρ c (Proc.devRef .tc main_arg32) :=
  W24_of_ne m ρ c main_arg32 (by decide)
theorem reg11_arg33 (c : Dev nD) : W24 m ρ c (Proc.devRef .tc main_arg33) = W23 m ρ c (Proc.devRef .tc main_arg33) :=
  W24_of_ne m ρ c main_arg33 (by decide)

theorem args_reg11 (c : Dev nD) : argsOf (W24 m ρ c) = argsOf (W23 m ρ c) := by
  simp only [argsOf, reg11_arg0 m ρ c, reg11_arg1 m ρ c, reg11_arg2 m ρ c, reg11_arg3 m ρ c, reg11_arg4 m ρ c, reg11_arg5 m ρ c, reg11_arg6 m ρ c, reg11_arg7 m ρ c, reg11_arg8 m ρ c, reg11_arg9 m ρ c, reg11_arg10 m ρ c, reg11_arg11 m ρ c, reg11_arg12 m ρ c, reg11_arg13 m ρ c, reg11_arg14 m ρ c, reg11_arg15 m ρ c, reg11_arg16 m ρ c, reg11_arg17 m ρ c, reg11_arg18 m ρ c, reg11_arg19 m ρ c, reg11_arg20 m ρ c, reg11_arg21 m ρ c, reg11_arg22 m ρ c, reg11_arg23 m ρ c, reg11_arg24 m ρ c, reg11_arg25 m ρ c, reg11_arg26 m ρ c, reg11_arg27 m ρ c, reg11_arg28 m ρ c, reg11_arg29 m ρ c, reg11_arg30 m ρ c, reg11_arg31 m ρ c, reg11_arg32 m ρ c, reg11_arg33 m ρ c]

end Cert.KernelIdeal.Stages

end
-- ==== Proof.KStep24.lean ====
/-
  One step of the kernel's boundary chain: from what is known at boundary 23 (the argument arrays as launched; each live buffer at
  its intermediate array of the computation) to the same at boundary 24, across region 11 (its output's closed form; the rest is none of its arrays, or an input window's array, which is not written back).
-/
import proofs.«165753_j16037407883756_1_alg».proof.Proof.KRegArgs11
import proofs.«165753_j16037407883756_1_alg».proof.Proof.RegionsLN

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step24 (A : Cert.Net.Args Ideal)
    (h : argsOf (W23 m ρ c) = A
      ∧ W23 m ρ c (Proc.devRef .tc main_v169) = col (Cert.Net.cdNL A)
      ∧ W23 m ρ c (Proc.devRef .tc main_v170) = row (Cert.Net.bL3 A)
      ∧ W23 m ρ c (Proc.devRef .tc main_v171) = row (ln3_2 A.a16)
      ∧ W23 m ρ c (Proc.devRef .tc main_v172) = row (ln3_2 A.a17)
      ∧ W23 m ρ c (Proc.devRef .tc main_v164) = Cert.Net.hn3 A
      ∧ W23 m ρ c (Proc.devRef .tc main_v155) = Cert.Net.aggL3 A) :
    argsOf (W24 m ρ c) = A
    ∧ W24 m ρ c (Proc.devRef .tc main_v173) = Cert.Net.hl3 A
    ∧ W24 m ρ c (Proc.devRef .tc main_v164) = Cert.Net.hn3 A := by
  obtain ⟨ha23, h23_v169, h23_v170, h23_v171, h23_v172, h23_v164, h23_v155⟩ := h
  have ha24 : argsOf (W24 m ρ c) = A := (args_reg11 m ρ c).trans ha23
  have g24_0 : V23 m ρ c (Pipeline.arrRef spec11 0) = Cert.Net.aggL3 A := h23_v155
  have g24_1 : V23 m ρ c (Pipeline.arrRef spec11 1) = col (Cert.Net.cdNL A) := h23_v169
  have g24_2 : V23 m ρ c (Pipeline.arrRef spec11 2) = row (Cert.Net.bL3 A) := h23_v170
  have g24_3 : V23 m ρ c (Pipeline.arrRef spec11 3) = row (ln3_2 A.a16) := h23_v171
  have g24_4 : V23 m ρ c (Pipeline.arrRef spec11 4) = row (ln3_2 A.a17) := h23_v172
  have h24_v173 : W24 m ρ c (Proc.devRef .tc main_v173) = Cert.Net.hl3 A :=
    (W24_arr m ρ c 5).trans ((Cert.KernelIdeal.Regions.region11_out (V23 m ρ) c).trans ((congr (congr (congr (congr (congrArg (Cert.Spec.lnElu (F := Ideal)) g24_0) g24_1) g24_2) g24_3) g24_4).trans rfl))
  have h24_v164 : W24 m ρ c (Proc.devRef .tc main_v164) = Cert.Net.hn3 A :=
    (W24_of_ne m ρ c main_v164 (by decide)).trans h23_v164
  exact ⟨ha24, h24_v173, h24_v164⟩

end Cert.KernelIdeal.Stages

end
-- ==== Proof.KRegArgs12.lean ====
/-
  Region 12 leaves the argument arrays as it found them: an argument that is one of its input windows' arrays is not
  written back (an input's array after the region is its array before), and every other argument is none of its arrays.
-/
import proofs.«165753_j16037407883756_1_alg».proof.Proof.KArgs
import proofs.«165753_j16037407883756_1_alg».proof.Proof.Gen.KernelIdeal.Frame

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

variable (m : (ℓ : Loc nD τ sig) → Buf (Elt F) ℓ) (ρ : Dev nD → PrngReg)
theorem reg12_arg0 (c : Dev nD) : W25 m ρ c (Proc.devRef .tc main_arg0) = W24 m ρ c (Proc.devRef .tc main_arg0) :=
  W25_of_ne m ρ c main_arg0 (by decide)
theorem reg12_arg1 (c : Dev nD) : W25 m ρ c (Proc.devRef .tc main_arg1) = W24 m ρ c (Proc.devRef .tc main_arg1) :=
  W25_of_ne m ρ c main_arg1 (by decide)
theorem reg12_arg2 (c : Dev nD) : W25 m ρ c (Proc.devRef .tc main_arg2) = W24 m ρ c (Proc.devRef .tc main_arg2) :=
  W25_of_ne m ρ c main_arg2 (by decide)
theorem reg12_arg3 (c : Dev nD) : W25 m ρ c (Proc.devRef .tc main_arg3) = W24 m ρ c (Proc.devRef .tc main_arg3) :=
  W25_of_ne m ρ c main_arg3 (by decide)
theorem reg12_arg4 (c : Dev nD) : W25 m ρ c (Proc.devRef .tc main_arg4) = W24 m ρ c (Proc.devRef .tc main_arg4) :=
  W25_of_ne m ρ c main_arg4 (by decide)
theorem reg12_arg5 (c : Dev nD) : W25 m ρ c (Proc.devRef .tc main_arg5) = W24 m ρ c (Proc.devRef .tc main_arg5) :=
  W25_of_ne m ρ c main_arg5 (by decide)
theorem reg12_arg6 (c : Dev nD) : W25 m ρ c (Proc.devRef .tc main_arg6) = W24 m ρ c (Proc.devRef .tc main_arg6) :=
  W25_of_ne m ρ c main_arg6 (by decide)
theorem reg12_arg7 (c : Dev nD) : W25 m ρ c (Proc.devRef .tc main_arg7) = W24 m ρ c (Proc.devRef .tc main_arg7) :=
  W25_of_ne m ρ c main_arg7 (by decide)
theorem reg12_arg8 (c : Dev nD) : W25 m ρ c (Proc.devRef .tc main_arg8) = W24 m ρ c (Proc.devRef .tc main_arg8) :=
  W25_of_ne m ρ c main_arg8 (by decide)
theorem reg12_arg9 (c : Dev nD) : W25 m ρ c (Proc.devRef .tc main_arg9) = W24 m ρ c (Proc.devRef .tc main_arg9) :=
  W25_of_ne m ρ c main_arg9 (by decide)
theorem reg12_arg10 (c : Dev nD) : W25 m ρ c (Proc.devRef .tc main_arg10) = W24 m ρ c (Proc.devRef .tc main_arg10) :=
  W25_of_ne m ρ c main_arg10 (by decide)
theorem reg12_arg11 (c : Dev nD) : W25 m ρ c (Proc.devRef .tc main_arg11) = W24 m ρ c (Proc.devRef .tc main_arg11) :=
  W25_of_ne m ρ c main_arg11 (by decide)
theorem reg12_arg12 (c : Dev nD) : W25 m ρ c (Proc.devRef .tc main_arg12) = W24 m ρ c (Proc.devRef .tc main_arg12) :=
  W25_of_ne m ρ c main_arg12 (by decide)
theorem reg12_arg13 (c : Dev nD) : W25 m ρ c (Proc.devRef .tc main_arg13) = W24 m ρ c (Proc.devRef .tc main_arg13) :=
  W25_of_ne m ρ c main_arg13 (by decide)
theorem reg12_arg14 (c : Dev nD) : W25 m ρ c (Proc.devRef .tc main_arg14) = W24 m ρ c (Proc.devRef .tc main_arg14) :=
  W25_of_ne m ρ c main_arg14 (by decide)
theorem reg12_arg15 (c : Dev nD) : W25 m ρ c (Proc.devRef .tc main_arg15) = W24 m ρ c (Proc.devRef .tc main_arg15) :=
  W25_of_ne m ρ c main_arg15 (by decide)
theorem reg12_arg16 (c : Dev nD) : W25 m ρ c (Proc.devRef .tc main_arg16) = W24 m ρ c (Proc.devRef .tc main_arg16) :=
  W25_of_ne m ρ c main_arg16 (by decide)
theorem reg12_arg17 (c : Dev nD) : W25 m ρ c (Proc.devRef .tc main_arg17) = W24 m ρ c (Proc.devRef .tc main_arg17) :=
  W25_of_ne m ρ c main_arg17 (by decide)
theorem reg12_arg18 (c : Dev nD) : W25 m ρ c (Proc.devRef .tc main_arg18) = W24 m ρ c (Proc.devRef .tc main_arg18) :=
  W25_of_ne m ρ c main_arg18 (by decide)
theorem reg12_arg19 (c : Dev nD) : W25 m ρ c (Proc.devRef .tc main_arg19) = W24 m ρ c (Proc.devRef .tc main_arg19) :=
  W25_of_ne m ρ c main_arg19 (by decide)
theorem reg12_arg20 (c : Dev nD) : W25 m ρ c (Proc.devRef .tc main_arg20) = W24 m ρ c (Proc.devRef .tc main_arg20) :=
  W25_of_ne m ρ c main_arg20 (by decide)
theorem reg12_arg21 (c : Dev nD) : W25 m ρ c (Proc.devRef .tc main_arg21) = W24 m ρ c (Proc.devRef .tc main_arg21) :=
  W25_of_ne m ρ c main_arg21 (by decide)
theorem reg12_arg22 (c : Dev nD) : W25 m ρ c (Proc.devRef .tc main_arg22) = W24 m ρ c (Proc.devRef .tc main_arg22) :=
  W25_of_ne m ρ c main_arg22 (by decide)
theorem reg12_arg23 (c : Dev nD) : W25 m ρ c (Proc.devRef .tc main_arg23) = W24 m ρ c (Proc.devRef .tc main_arg23) :=
  W25_of_ne m ρ c main_arg23 (by decide)
theorem reg12_arg24 (c : Dev nD) : W25 m ρ c (Proc.devRef .tc main_arg24) = W24 m ρ c (Proc.devRef .tc main_arg24) :=
  W25_of_ne m ρ c main_arg24 (by decide)
theorem reg12_arg25 (c : Dev nD) : W25 m ρ c (Proc.devRef .tc main_arg25) = W24 m ρ c (Proc.devRef .tc main_arg25) :=
  W25_of_ne m ρ c main_arg25 (by decide)
theorem reg12_arg26 (c : Dev nD) : W25 m ρ c (Proc.devRef .tc main_arg26) = W24 m ρ c (Proc.devRef .tc main_arg26) :=
  W25_of_ne m ρ c main_arg26 (by decide)
theorem reg12_arg27 (c : Dev nD) : W25 m ρ c (Proc.devRef .tc main_arg27) = W24 m ρ c (Proc.devRef .tc main_arg27) :=
  W25_of_ne m ρ c main_arg27 (by decide)
theorem reg12_arg28 (c : Dev nD) : W25 m ρ c (Proc.devRef .tc main_arg28) = W24 m ρ c (Proc.devRef .tc main_arg28) :=
  W25_of_ne m ρ c main_arg28 (by decide)
theorem reg12_arg29 (c : Dev nD) : W25 m ρ c (Proc.devRef .tc main_arg29) = W24 m ρ c (Proc.devRef .tc main_arg29) :=
  W25_of_ne m ρ c main_arg29 (by decide)
theorem reg12_arg30 (c : Dev nD) : W25 m ρ c (Proc.devRef .tc main_arg30) = W24 m ρ c (Proc.devRef .tc main_arg30) :=
  W25_of_ne m ρ c main_arg30 (by decide)
theorem reg12_arg31 (c : Dev nD) : W25 m ρ c (Proc.devRef .tc main_arg31) = W24 m ρ c (Proc.devRef .tc main_arg31) :=
  W25_of_ne m ρ c main_arg31 (by decide)
theorem reg12_arg32 (c : Dev nD) : W25 m ρ c (Proc.devRef .tc main_arg32) = W24 m ρ c (Proc.devRef .tc main_arg32) :=
  W25_of_ne m ρ c main_arg32 (by decide)
theorem reg12_arg33 (c : Dev nD) : W25 m ρ c (Proc.devRef .tc main_arg33) = W24 m ρ c (Proc.devRef .tc main_arg33) :=
  W25_of_ne m ρ c main_arg33 (by decide)

theorem args_reg12 (c : Dev nD) : argsOf (W25 m ρ c) = argsOf (W24 m ρ c) := by
  simp only [argsOf, reg12_arg0 m ρ c, reg12_arg1 m ρ c, reg12_arg2 m ρ c, reg12_arg3 m ρ c, reg12_arg4 m ρ c, reg12_arg5 m ρ c, reg12_arg6 m ρ c, reg12_arg7 m ρ c, reg12_arg8 m ρ c, reg12_arg9 m ρ c, reg12_arg10 m ρ c, reg12_arg11 m ρ c, reg12_arg12 m ρ c, reg12_arg13 m ρ c, reg12_arg14 m ρ c, reg12_arg15 m ρ c, reg12_arg16 m ρ c, reg12_arg17 m ρ c, reg12_arg18 m ρ c, reg12_arg19 m ρ c, reg12_arg20 m ρ c, reg12_arg21 m ρ c, reg12_arg22 m ρ c, reg12_arg23 m ρ c, reg12_arg24 m ρ c, reg12_arg25 m ρ c, reg12_arg26 m ρ c, reg12_arg27 m ρ c, reg12_arg28 m ρ c, reg12_arg29 m ρ c, reg12_arg30 m ρ c, reg12_arg31 m ρ c, reg12_arg32 m ρ c, reg12_arg33 m ρ c]

end Cert.KernelIdeal.Stages

end
-- ==== Proof.RegionSumRun.lean ====
/-
  The last region: the sum over all 100000 rows of both node sets' features, one [1,128] row, accumulated over the ten
  grid points.  At point 0 the row is reset to zero and the point's two blocks' column sums are added; at every later point
  the two blocks' column sums are added onto the row the point before left (the row's buffer is not written back in
  between).  So after point n the row is the running sum over points 0..n, and the one write-back, after the last point,
  leaves exactly that in the result array, whose single block is the whole array.
-/
import proofs.«165753_j16037407883756_1_alg».proof.Proof.Gen.KernelIdeal.Frame
import Idealize.ShloMosaic.Lib.Pipeline.Value
import Idealize.ShloMosaic.Lib.Tactic

set_option maxRecDepth 16384

noncomputable section

namespace Cert.KernelIdeal.SumRegion

open Cert.KernelIdeal Cert.KernelIdeal.Gen Idealize.ShloMosaic Idealize.ShloMosaic.TcCoe Idealize.ShloMosaic.Tactic Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- A later point's value: the carried row plus the two blocks' column sums (the body's one store of that point). -/
theorem out_B (c : Dev nD) (i : grid12.Coords) (a1 : Memref sig .tc .vmem S10000x128 .f32) (h1 : a1.IsWhole)
    (a2 : Memref sig .tc .vmem S10000x128 .f32) (h2 : a2.IsWhole) (a3 : Memref sig .tc .vmem S1x128 .f32) (h3 : a3.IsWhole)
    (hc : ¬cond12_0 i) (x0 x1 : Vec F S10000x128 .f32) (xo : Vec F S1x128 .f32) :
    out12_B_2 c i a1 h1 a2 h2 a3 h3 hc x0 x1 xo = k12_pay2 x0 x1 xo := by
  unfold out12_B_2
  rw [View.read_writes_eq_canon _ _ _ (cover12_B_2 c i a1 h1 a2 h2 a3 h3 hc x0 x1 xo)]
  unfold kernelRun12_B
  dsimp only
  rw [View.canon_unit_zero hz]
  simp only [View.readAt_eq_ld, h1.read_unread, h2.read_unread, h3.read_unread, View.ld_unit_zero (S := S10000x128) hz,
    View.ld_unit_zero (S := S1x128) hz]

/-- Point 0's value: the zero row plus the two blocks' column sums (the reset's store is read back by the second store). -/
theorem out_A (c : Dev nD) (i : grid12.Coords) (a1 : Memref sig .tc .vmem S10000x128 .f32) (h1 : a1.IsWhole)
    (a2 : Memref sig .tc .vmem S10000x128 .f32) (h2 : a2.IsWhole) (a3 : Memref sig .tc .vmem S1x128 .f32) (h3 : a3.IsWhole)
    (hc : cond12_0 i) (x0 x1 : Vec F S10000x128 .f32) :
    out12_A_2 c i a1 h1 a2 h2 a3 h3 hc x0 x1 = k12_pay2 x0 x1 (k12_pay1 (F := F)) := by
  unfold out12_A_2
  rw [View.read_writes_eq_canon _ _ _ (cover12_A_2 c i a1 h1 a2 h2 a3 h3 hc x0 x1)]
  unfold kernelRun12_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- The running row after point `n`. -/
def chain (c : Dev nD) : (n : ℕ) → n < cfg12.N → Vec F S1x128 .f32
  | 0, h => k12_pay2 (iblk12 V c 0 ⟨0, h⟩) (iblk12 V c 1 ⟨0, h⟩) (k12_pay1 (F := F))
  | n + 1, h => k12_pay2 (iblk12 V c 0 ⟨n + 1, h⟩) (iblk12 V c 1 ⟨n + 1, h⟩) (chain c n (Nat.lt_of_succ_lt h))

/-- What the row's buffer holds after point `n` is the running row: by induction on the point. -/
theorem outsAt_eq (c : Dev nD) : ∀ (n : ℕ) (h : n < cfg12.N), outsAt12 V c n h = chain V c n h
  | 0, h => (outsAt12_A V c ⟨0, h⟩ rfl).trans (out_A ..)
  | n + 1, h => by
    have hN : cfg12.N = 10 := N_12
    have hB : ¬(⟨n + 1, h⟩ : Fin cfg12.N).val % 10 = 0 := by dsimp only; omega
    rw [outsAt12_B V c ⟨n + 1, h⟩ hB, out_B]
    show k12_pay2 _ _ (outsAt12 V c n _) = k12_pay2 _ _ (chain V c n _)
    rw [outsAt_eq c n]

/-- The running row after the last point, as contents of the result array. -/
abbrev result (c : Dev nD) : Buf (Elt F) ((c : Thread nD τ).loc main_v174) :=
  chain V c 9 (by rw [show cfg12.N = 10 from N_12]; decide)

/-- The one write-back, after the last point, writes the running row: block (0, 0) of the [1,128] array, read through zero
    offsets, is the array. -/
theorem flushed_eq (c : Dev nD) (t : Fin cfg12.N) (hf : (cfg12.win 2).flush t = true) :
    (dat12 V c).flushed 2 t = ((cfg12.win 2).blk t).view.read (Elt F) (result V c) := by
  have hN : cfg12.N = 10 := N_12
  have h9 : t.val = 9 := by have := (flush12_2 t).mp hf; have := t.isLt; omega
  obtain rfl : t = t12_9 := Fin.ext h9
  show (cfg12.win 2).cut (grid12.coords t12_9) ((dat12 V c).after 2 t12_9) = _
  rw [after12_2, outsAt_eq]
  have hz' : (fun a => win12_2.index t12_9 a * main_v174.ty.shape.size a) = fun _ => 0 := funext fun a => by fin_cases a <;> decide
  exact (Memref.read_access_unit_zero (Elt F) main_v174 hz' (fun a => by rw [congrFun hz' a]; simp) (result V c)).symm

/-- So the result array ends holding the running row after the last point: that point's write-back covers it. -/
theorem final (c : Dev nD) : (dat12 V c).arrAt 2 cfg12.N = result V c :=
  (dat12 V c).arrAt_eq_of_cover 2 (result V c) (flushed_eq V c) fun i =>
    ⟨t12_9, (flush12_2 t12_9).mpr rfl, by
      show i ∈ ((View.whole main_v174).slice (win12_2.rect t12_9)).set
      rw [View.set_slice_whole, Rect.mem_set_unit]
      intro a
      have h0 : (i 0 : Nat) < 1 := (i 0).isLt
      have h1 : (i 1 : Nat) < 128 := (i 1).isLt
      match a with
      | ⟨0, _⟩ => show win12_2.index t12_9 0 * win12_2.size 0 ≤ (i 0 : Nat) ∧ (i 0 : Nat) < win12_2.index t12_9 0 * win12_2.size 0 + win12_2.xsize (grid12.coords t12_9) 0
                  rw [show win12_2.index t12_9 0 * win12_2.size 0 = 0 from by decide +kernel, show win12_2.xsize (grid12.coords t12_9) 0 = 1 from by decide +kernel]; omega
      | ⟨1, _⟩ => show win12_2.index t12_9 1 * win12_2.size 1 ≤ (i 1 : Nat) ∧ (i 1 : Nat) < win12_2.index t12_9 1 * win12_2.size 1 + win12_2.xsize (grid12.coords t12_9) 1
                  rw [show win12_2.index t12_9 1 * win12_2.size 1 = 0 from by decide +kernel, show win12_2.xsize (grid12.coords t12_9) 1 = 128 from by decide +kernel]; omega⟩

end Cert.KernelIdeal.SumRegion

end
-- ==== Proof.SumPoint.lean ====
/-
  One step of the row accumulation, read at a channel.  The body takes two blocks of 10000 rows by 128 channels and the
  carried row of 128 channels; it sums each block down its rows (a lane sum along axis 0, a vector of 128 channel sums,
  viewed as a [1,128] row), adds the two rows of sums, and adds that onto the carried row.  Read at channel q the new
  row holds the carried row's entry plus the sum over the first block's 10000 rows of their entry at q plus the same
  for the second block.  The reset row is +0.0 everywhere, that is 0.
-/
import Idealize.ShloMosaic.PureOps.Ideal.Laws
import Idealize.ShloMosaic.Lib.ValueIdx
import Idealize.ShloMosaic.Lib.Pipeline.Value

noncomputable section

open scoped BigOperators

namespace Cert.SumPoint

open Idealize.ShloMosaic Idealize.ShloMosaic.ValueIdx

/-- A block of rows, the row of channels, and the vector of channels. -/
abbrev SB : Shape := ⟨2, ![10000, 128]⟩
abbrev SR : Shape := ⟨2, ![1, 128]⟩
abbrev SV : Shape := ⟨1, ![128]⟩

/-- A block's sum down its rows, viewed as a row: at channel q, the sum over the 10000 rows of the entry at q. -/
theorem colSum_apply (v : FVec Ideal SB .f32) (hr : SB.Reduces [0] SV) (hφ : FKind.Formats .f32)
    (hacc : (0x00000000#32 : BitVec 32) = 0x00000000#32) (hc : SV.ShapeCasts SR) (u : Fin 1) (q : Fin 128) :
    shapeCast SR (multiReduction .add [0] SV v 0x00000000#32 hr hφ hacc) hc (ix2 u q) = ∑ r : Fin 10000, v (ix2 r q) := by
  have hk : (SV.rowMajor (ix1 q)).val = (SR.rowMajor (ix2 u q)).val := by
    rw [Shape.rowMajor_val_one, Shape.rowMajor_val_two]
    show q.val = u.val * 128 + q.val
    have := u.isLt
    omega
  rw [shapeCast_apply _ hc (ix2 u q) (ix1 q) hk]
  refine (Ideal.multiReduction_add_single v 0x00000000#32 hr hφ hacc (ix1 q)).trans ?_
  show ∑ r : Fin 10000, v (hr.lift (ix1 q) r) = _
  refine Finset.sum_congr rfl fun r _ => congrArg v ?_
  funext a
  match a with
  | ⟨0, _⟩ => rfl
  | ⟨1, _⟩ => rfl

/-- The step: the carried row plus the two blocks' rows of channel sums, in the body's order of operations. -/
def step (hB : SB.ShapeCasts SB) (hr : SB.Reduces [0] SV) (hφ : FKind.Formats .f32)
    (hacc : (0x00000000#32 : BitVec 32) = 0x00000000#32) (hc : SV.ShapeCasts SR) (hR : SR.ShapeCasts SR)
    (x0 x1 : FVec Ideal SB .f32) (xo : FVec Ideal SR .f32) : FVec Ideal SR .f32 :=
  addf (shapeCast SR xo hR)
    (addf (shapeCast SR (multiReduction .add [0] SV (shapeCast SB x0 hB) 0x00000000#32 hr hφ hacc) hc)
      (shapeCast SR (multiReduction .add [0] SV (shapeCast SB x1 hB) 0x00000000#32 hr hφ hacc) hc))

/-- The step at channel q. -/
theorem step_apply (hB : SB.ShapeCasts SB) (hr : SB.Reduces [0] SV) (hφ : FKind.Formats .f32)
    (hacc : (0x00000000#32 : BitVec 32) = 0x00000000#32) (hc : SV.ShapeCasts SR) (hR : SR.ShapeCasts SR)
    (x0 x1 : FVec Ideal SB .f32) (xo : FVec Ideal SR .f32) (u : Fin 1) (q : Fin 128) :
    step hB hr hφ hacc hc hR x0 x1 xo (ix2 u q)
      = xo (ix2 u q) + ((∑ r : Fin 10000, x0 (ix2 r q)) + ∑ r : Fin 10000, x1 (ix2 r q)) := by
  unfold step
  rw [addf_apply, addf_apply, shapeCast_self, shapeCast_self, shapeCast_self, colSum_apply, colSum_apply]

/-- The reset row: +0.0 in every channel. -/
def zeroRow : FVec Ideal SR .f32 := broadcast SR (Scalar.ofBits (F := Ideal) .f32 0x00000000#32)

/-- The reset row holds 0. -/
theorem zeroRow_apply (j : SR.Idx) : zeroRow j = 0 := by
  unfold zeroRow
  rw [broadcast_apply]
  exact Ideal.ofBits_zero_f32

end Cert.SumPoint

end
-- ==== Proof.SumLaw.lean ====
/-
  The read-out law on the extended reals, for one channel.  The kernel accumulates, over ten blocks of 10000 rows, the
  sum of the block's rows of the first node set plus the sum of the block's rows of the second, starting from zero, and
  then divides by 100000; the reference divides each node set's sum over all 100000 rows (from a zero initial value) by
  100000 and adds the two quotients.  Addition on the extended reals is a commutative monoid, so the running sum is the
  sum over the ten blocks, which splits into the two node sets' sums, each a sum over the 10 × 10000 pairs (block, row
  in block), that is over all rows.  Division by the positive real 100000 is multiplication by the real 1/100000, which
  distributes over a sum for a nonnegative finite factor.  No finiteness of the entries is needed.
-/
import Idealize.ShloMosaic.PureOps.Ideal
import Idealize.ShloMosaic.PureOps.Ideal.Laws

noncomputable section

open scoped BigOperators

namespace Cert.SumLaw

open Idealize.ShloMosaic

/-- The running sum from zero: after step n, (((0 + a 0) + a 1) + …) + a n. -/
def running (a : ℕ → EReal) : ℕ → EReal
  | 0 => 0 + a 0
  | n + 1 => running a n + a (n + 1)

theorem running_zero (a : ℕ → EReal) : running a 0 = 0 + a 0 := rfl

theorem running_succ (a : ℕ → EReal) (n : ℕ) : running a (n + 1) = running a n + a (n + 1) := rfl

/-- The running sum is the sum of the steps so far. -/
theorem running_eq_sum (a : ℕ → EReal) (n : ℕ) : running a n = ∑ t ∈ Finset.range (n + 1), a t := by
  induction n with
  | zero => rw [running, zero_add, Finset.sum_range_one]
  | succ n ih => rw [running, ih, Finset.sum_range_succ _ (n + 1)]

/-- Row r of block t: row 10000 t + r. -/
def rowIx (t : Fin 10) (r : Fin 10000) : Fin 100000 := ⟨t.val * 10000 + r.val, by omega⟩

/-- What block t adds: the sum of its rows of the first column plus the sum of its rows of the second. -/
def blockAdd (f g : Fin 100000 → EReal) (t : Fin 10) : EReal :=
  (∑ r : Fin 10000, f (rowIx t r)) + ∑ r : Fin 10000, g (rowIx t r)

/-- The ten blocks' additions as a sequence (zero past the tenth). -/
def seq (f g : Fin 100000 → EReal) : ℕ → EReal := fun n => if h : n < 10 then blockAdd f g ⟨n, h⟩ else 0

theorem seq_of_lt (f g : Fin 100000 → EReal) {n : ℕ} (h : n < 10) : seq f g n = blockAdd f g ⟨n, h⟩ := dif_pos h

/-- The accumulated value after the tenth block. -/
def total (f g : Fin 100000 → EReal) : EReal := running (seq f g) 9

/-- The sums over the ten blocks' rows make up the sum over all rows. -/
theorem sum_blocks (f : Fin 100000 → EReal) : ∑ t : Fin 10, ∑ r : Fin 10000, f (rowIx t r) = ∑ i : Fin 100000, f i := by
  refine (Fintype.sum_prod_type' (fun t r => f (rowIx t r))).symm.trans ?_
  refine Fintype.sum_equiv (finProdFinEquiv (m := 10) (n := 10000)) _ _ fun x => congrArg f (Fin.ext ?_)
  show x.1.val * 10000 + x.2.val = x.2.val + 10000 * x.1.val
  omega

/-- The accumulated value is the first column's total plus the second's. -/
theorem total_eq (f g : Fin 100000 → EReal) : total f g = (∑ i, f i) + ∑ i, g i := by
  unfold total
  rw [running_eq_sum, Finset.sum_range (fun n => seq f g n)]
  have h : ∀ t : Fin 10, seq f g t.val = blockAdd f g t := fun t => dif_pos t.isLt
  rw [Finset.sum_congr rfl fun t _ => h t]
  unfold blockAdd
  rw [Finset.sum_add_distrib, sum_blocks, sum_blocks]

/-- The pattern 0x47C35000 denotes the real 100000. -/
theorem ofBits_100000 : Ideal.ofBits .f32 0x47C35000#32 = ((100000 : ℝ) : EReal) := by
  simp [Ideal.ofBits, Ideal.ieee, -EReal.coe_mul]; norm_num

/-- Division by 100000 distributes over a sum, at the infinities too. -/
theorem div_add (a b : EReal) :
    Ideal.div (a + b) (Ideal.ofBits .f32 0x47C35000#32)
      = Ideal.div a (Ideal.ofBits .f32 0x47C35000#32) + Ideal.div b (Ideal.ofBits .f32 0x47C35000#32) := by
  have hne : (100000 : ℝ) ≠ 0 := by norm_num
  rw [ofBits_100000, Ideal.div_coe hne, Ideal.div_coe hne, Ideal.div_coe hne]
  refine EReal.right_distrib_of_nonneg_of_ne_top ?_ (EReal.coe_ne_top _) a b
  exact_mod_cast (by norm_num : (0 : ℝ) ≤ 1 / 100000)

/-- The law: the accumulated value divided by 100000 is the sum of the two columns' means, each mean the zero initial
    value plus the column's sum over all rows, divided by 100000. -/
theorem mean_law (f g : Fin 100000 → EReal) :
    Ideal.div (total f g) (Ideal.ofBits .f32 0x47C35000#32)
      = Ideal.div (Ideal.ofBits .f32 0x00000000#32 + ∑ i, f i) (Ideal.ofBits .f32 0x47C35000#32)
        + Ideal.div (Ideal.ofBits .f32 0x00000000#32 + ∑ i, g i) (Ideal.ofBits .f32 0x47C35000#32) := by
  rw [total_eq, div_add, Ideal.ofBits_zero_f32, zero_add, zero_add]

end Cert.SumLaw

end
-- ==== Proof.SumRows.lean ====
/-
  The read-out's sum row as a function of the two node sets' [100000,128] feature arrays: at channel q, the value the
  ten-block accumulation ends at for the two arrays' columns q (Cert.SumLaw.total): from zero, block after block, the
  sum of the block's 10000 rows of the first array's column plus the sum of the same rows of the second's.
-/
import proofs.«165753_j16037407883756_1_alg».proof.Proof.SumLaw
import Idealize.ShloMosaic.Lib.ValueIdx

noncomputable section

namespace Cert.KernelIdeal.Regions

open Idealize.ShloMosaic Idealize.ShloMosaic.ValueIdx

/-- Column q of a [100000,128] array, as a function of the row. -/
def chan (h : (⟨2, ![100000, 128]⟩ : Shape).Idx → EReal) (q : Fin 128) : Fin 100000 → EReal := fun i => h (ix2 i q)

/-- The sum row: at channel q the accumulated value of the two arrays' columns q. -/
def sumRows (hn hl : (⟨⟨2, ![100000, 128]⟩, .f32⟩ : BufTy).Contents (Elt Ideal)) :
    (⟨⟨2, ![1, 128]⟩, .f32⟩ : BufTy).Contents (Elt Ideal) :=
  fun j => Cert.SumLaw.total (chan hn ⟨(j 1).val, idx2_lt1 j⟩) (chan hl ⟨(j 1).val, idx2_lt1 j⟩)

/-- The sum row at channel q. -/
theorem sumRows_apply (hn hl : (⟨⟨2, ![100000, 128]⟩, .f32⟩ : BufTy).Contents (Elt Ideal)) (u : Fin 1) (q : Fin 128) :
    sumRows hn hl (ix2 u q) = Cert.SumLaw.total (chan hn q) (chan hl q) := rfl

end Cert.KernelIdeal.Regions

end
-- ==== Proof.SumRegionOut.lean ====
/-
  The last region against the sum row.  Block t of either input window holds rows 10000 t … 10000 t + 9999 of its array,
  so the sum of a block's rows at channel q is the sum of those rows of the array's column q.  The running row after
  point n, read at channel q, is therefore the running sum, from zero, of the first n + 1 blocks' additions (by induction
  on the point, each step the body's one store read at q), and the result array, which ends holding the running row
  after the last point, is the sum row of the two arrays the region finds in its input windows.
-/
import proofs.«165753_j16037407883756_1_alg».proof.Proof.RegionSumRun
import proofs.«165753_j16037407883756_1_alg».proof.Proof.SumPoint
import proofs.«165753_j16037407883756_1_alg».proof.Proof.SumRows

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's store is the step function of its three loaded values: the same operations in the same order. -/
theorem sum_pay2_eq (x0 x1 : Vec Ideal S10000x128 .f32) (xo : Vec Ideal S1x128 .f32) :
    k12_pay2 x0 x1 xo = Cert.SumPoint.step shapeCasts_S10000x128_S10000x128 reduces_S10000x128_S128 (.inl rfl) rfl
      shapeCasts_S128_S1x128 shapeCasts_S1x128_S1x128 x0 x1 xo := rfl

/-- The body's store at channel q, given the two blocks' sums down their rows at q and the carried row's entry. -/
theorem sum_step_at (x0 x1 : Vec Ideal S10000x128 .f32) (xo : Vec Ideal S1x128 .f32) (u : Fin 1) (q : Fin 128) (a b s : EReal)
    (h0 : ∑ r : Fin 10000, x0 (ix2 r q) = a) (h1 : ∑ r : Fin 10000, x1 (ix2 r q) = b) (ho : xo (ix2 u q) = s) :
    k12_pay2 x0 x1 xo (ix2 u q) = s + (a + b) := by
  rw [sum_pay2_eq, Cert.SumPoint.step_apply, h0, h1, ho]

/-- The printed index maps, decided over the grid: both input windows move one block of rows per point. -/
theorem sum_idx_facts : ∀ t : Fin cfg12.N,
    win12_0.index t (0 : Fin 2) = t.val ∧ win12_0.index t (1 : Fin 2) = 0
    ∧ win12_1.index t (0 : Fin 2) = t.val ∧ win12_1.index t (1 : Fin 2) = 0 :=
  (by decide +kernel : ∀ t : Fin grid12.N, _)

/-- The first window's block at point t holds rows 10000 t + p of its array. -/
theorem sum_read0 (c : Dev nD) (t : Fin cfg12.N) (p : Fin 10000) (k : Fin 128) (r : Fin 100000) (hr : r.val = t.val * 10000 + p.val) :
    (iblk12 V c 0 t : Vec Ideal S10000x128 .f32) (ix2 p k) = (V c (Pipeline.arrRef spec12 0) : S100000x128.Idx → EReal) (ix2 r k) := by
  obtain ⟨e0, e1, -⟩ := sum_idx_facts t
  show V c (Pipeline.arrRef spec12 0) (((cfg12.win 0).blk t).view.emb (ix2 p k)) = _
  refine congrArg (V c (Pipeline.arrRef spec12 0)) ?_
  funext a; apply Fin.ext
  match a with
  | ⟨0, _⟩ => show win12_0.index t (0 : Fin 2) * 10000 + 1 * p.val = r.val; omega
  | ⟨1, _⟩ => show win12_0.index t (1 : Fin 2) * 128 + 1 * k.val = k.val; omega

/-- The second window's block at point t holds rows 10000 t + p of its array. -/
theorem sum_read1 (c : Dev nD) (t : Fin cfg12.N) (p : Fin 10000) (k : Fin 128) (r : Fin 100000) (hr : r.val = t.val * 10000 + p.val) :
    (iblk12 V c 1 t : Vec Ideal S10000x128 .f32) (ix2 p k) = (V c (Pipeline.arrRef spec12 1) : S100000x128.Idx → EReal) (ix2 r k) := by
  obtain ⟨-, -, e0, e1⟩ := sum_idx_facts t
  show V c (Pipeline.arrRef spec12 1) (((cfg12.win 1).blk t).view.emb (ix2 p k)) = _
  refine congrArg (V c (Pipeline.arrRef spec12 1)) ?_
  funext a; apply Fin.ext
  match a with
  | ⟨0, _⟩ => show win12_1.index t (0 : Fin 2) * 10000 + 1 * p.val = r.val; omega
  | ⟨1, _⟩ => show win12_1.index t (1 : Fin 2) * 128 + 1 * k.val = k.val; omega

/-- The two input windows' blocks at point t, as blocks of 10000 rows by 128 channels. -/
abbrev sumBlk0 (c : Dev nD) (t : Fin cfg12.N) : FVec Ideal S10000x128 .f32 := iblk12 V c 0 t
abbrev sumBlk1 (c : Dev nD) (t : Fin cfg12.N) : FVec Ideal S10000x128 .f32 := iblk12 V c 1 t

/-- The sum down the rows of the first window's block t at channel q: block t's rows of the array's column q. -/
theorem sum_block0 (c : Dev nD) (t : Fin cfg12.N) (ht : t.val < 10) (q : Fin 128) :
    ∑ r : Fin 10000, sumBlk0 V c t (ix2 r q)
      = ∑ r : Fin 10000, chan (V c (Pipeline.arrRef spec12 0)) q (Cert.SumLaw.rowIx ⟨t.val, ht⟩ r) :=
  Finset.sum_congr rfl fun r _ => sum_read0 V c t r q (Cert.SumLaw.rowIx ⟨t.val, ht⟩ r) rfl

/-- The same for the second window. -/
theorem sum_block1 (c : Dev nD) (t : Fin cfg12.N) (ht : t.val < 10) (q : Fin 128) :
    ∑ r : Fin 10000, sumBlk1 V c t (ix2 r q)
      = ∑ r : Fin 10000, chan (V c (Pipeline.arrRef spec12 1)) q (Cert.SumLaw.rowIx ⟨t.val, ht⟩ r) :=
  Finset.sum_congr rfl fun r _ => sum_read1 V c t r q (Cert.SumLaw.rowIx ⟨t.val, ht⟩ r) rfl

/-- The running row after point n, at channel q: the running sum of the blocks' additions for the two arrays' columns q. -/
theorem sum_chain_apply (c : Dev nD) (u : Fin 1) (q : Fin 128) : ∀ (n : ℕ) (h : n < cfg12.N),
    (SumRegion.chain V c n h : Vec Ideal S1x128 .f32) (ix2 u q)
      = Cert.SumLaw.running (Cert.SumLaw.seq (chan (V c (Pipeline.arrRef spec12 0)) q) (chan (V c (Pipeline.arrRef spec12 1)) q)) n
  | 0, h => by
    have h10 : (0 : ℕ) < 10 := by decide
    rw [Cert.SumLaw.running_zero, Cert.SumLaw.seq_of_lt _ _ h10]
    unfold Cert.SumLaw.blockAdd
    show k12_pay2 (iblk12 V c 0 ⟨0, h⟩) (iblk12 V c 1 ⟨0, h⟩) (k12_pay1 (F := Ideal)) (ix2 u q) = _
    exact sum_step_at (iblk12 V c 0 ⟨0, h⟩) (iblk12 V c 1 ⟨0, h⟩) (k12_pay1 (F := Ideal)) u q _ _ _
      (sum_block0 V c ⟨0, h⟩ h10 q) (sum_block1 V c ⟨0, h⟩ h10 q) (Cert.SumPoint.zeroRow_apply (ix2 u q))
  | n + 1, h => by
    have h10 : n + 1 < 10 := (show cfg12.N = 10 from N_12) ▸ h
    rw [Cert.SumLaw.running_succ, Cert.SumLaw.seq_of_lt _ _ h10]
    unfold Cert.SumLaw.blockAdd
    show k12_pay2 (iblk12 V c 0 ⟨n + 1, h⟩) (iblk12 V c 1 ⟨n + 1, h⟩) (SumRegion.chain V c n (Nat.lt_of_succ_lt h)) (ix2 u q) = _
    exact sum_step_at (iblk12 V c 0 ⟨n + 1, h⟩) (iblk12 V c 1 ⟨n + 1, h⟩) (SumRegion.chain V c n (Nat.lt_of_succ_lt h)) u q _ _ _
      (sum_block0 V c ⟨n + 1, h⟩ h10 q) (sum_block1 V c ⟨n + 1, h⟩ h10 q) (sum_chain_apply c u q n (Nat.lt_of_succ_lt h))

/-- The running row after the last point is the sum row of the two arrays. -/
theorem sum_result_eq (c : Dev nD) :
    (SumRegion.result V c : S1x128.Idx → EReal) = sumRows (V c (Pipeline.arrRef spec12 0)) (V c (Pipeline.arrRef spec12 1)) := by
  funext j
  obtain ⟨u, q, rfl⟩ : ∃ (u : Fin 1) (q : Fin 128), j = ix2 u q := ⟨j 0, j 1, eq_ix2 j⟩
  rw [sumRows_apply]
  exact sum_chain_apply V c u q 9 _

/-- Region 12: its result array ends holding the sum row of the two arrays in its input windows. -/
theorem region12_out (c : Dev nD) :
    (Cert.KernelIdeal.Gen.dat12 (F := Ideal) V c).arrAt 2 Cert.KernelIdeal.cfg12.N
      = sumRows (V c (Pipeline.arrRef spec12 0)) (V c (Pipeline.arrRef spec12 1)) :=
  (SumRegion.final V c).trans (sum_result_eq V c)

end Cert.KernelIdeal.Regions

end
-- ==== Proof.KStage_tail.lean ====
/-
  A host stretch of the kernel program (tail): the buffers it writes, that it leaves the argument arrays alone, and what it
  leaves in the buffers later steps read, as stage functions of what it found.  Where the kernel reshapes a vector to a
  column or a row and the stage function broadcasts it, the two are the same array.
-/
import proofs.«165753_j16037407883756_1_alg».proof.Proof.KArgs
import proofs.«165753_j16037407883756_1_alg».proof.Proof.LibReshape

noncomputable section

namespace Cert.KernelIdeal.Stages

open Cert.KernelIdeal Cert.KernelIdeal.Gen Idealize.ShloMosaic Idealize.ShloMosaic.TcCoe Idealize.SL.Sem Idealize.ShloMosaic.StableHlo Cert.Spec

variable {F : FTy → Type} [FloatOps F]

/-- The sum row divided by the node count 100000. -/
def meanRow (x : (⟨S1x128, .f32⟩ : BufTy).Contents (Elt F)) : (⟨S1x128, .f32⟩ : BufTy).Contents (Elt F) :=
  Host.divf x (broadcastInDim S1x128 ![] bcast_S_S1x128 (constant S_ .f32 0x47C35000#32 : (⟨S_, .f32⟩ : BufTy).Contents (Elt F)))

/-- The host operations after the last region, in order. -/
abbrev tailOps : List (HloOp τ sig (Elt F)) := hostOps13 ++ (hostOps13_1 ++ (hostOps13_2 ++ (hostOps13_3 ++ (hostOps13_4 ++ (hostOps13_5 ++ (hostOps13_6 ++ (hostOps13_7 ++ (hostOps13_8 ++ (hostOps13_9 ++ (hostOps13_10))))))))))

/-- Two lines run one after the other. -/
theorem after_append' (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The buffers the stretch writes. -/
abbrev written_tail : List (Ref sig .tc) :=
  [ main_cst_32, main_v175, main_v176, main_v177, main_v178, main_v179, main_call0_cst, main_call0_v0, main_v180, main_v181, main_v182, main_v183, main_v184, main_v185, main_v186, main_call1_cst, main_call1_v0, main_v187, main_v188, main_v189, main_v190, main_call2_cst, main_call2_v0, main_v191, main_v192, main_v193, main_v194, main_v195, main_v196, main_v197, main_call3_cst, main_call3_v0, main_v198, main_v199, main_v200, main_v201, main_call4_cst, main_call4_v0, main_v202, main_v203, main_v204, main_v205 ]

theorem writes_tail : (tailOps : List (HloOp τ sig (Elt F))).Forall fun op => op.writes ⊆ (written_tail.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keep_tail (V : Valuation τ sig (Elt F)) {r : Ref sig .tc} (h : r ∉ written_tail) :
    after tailOps V (Proc.devRef .tc r) = V (Proc.devRef .tc r) := after_of_writes_sub tailOps V writes_tail h

/-- The stretch leaves the argument arrays as it found them. -/
theorem args_tail (V : Valuation τ sig (Elt F)) : argsOf (after tailOps V) = argsOf V := by
  simp only [argsOf, keep_tail V (r := main_arg0) (by decide), keep_tail V (r := main_arg1) (by decide), keep_tail V (r := main_arg2) (by decide), keep_tail V (r := main_arg3) (by decide), keep_tail V (r := main_arg4) (by decide), keep_tail V (r := main_arg5) (by decide), keep_tail V (r := main_arg6) (by decide), keep_tail V (r := main_arg7) (by decide), keep_tail V (r := main_arg8) (by decide), keep_tail V (r := main_arg9) (by decide), keep_tail V (r := main_arg10) (by decide), keep_tail V (r := main_arg11) (by decide), keep_tail V (r := main_arg12) (by decide), keep_tail V (r := main_arg13) (by decide), keep_tail V (r := main_arg14) (by decide), keep_tail V (r := main_arg15) (by decide), keep_tail V (r := main_arg16) (by decide), keep_tail V (r := main_arg17) (by decide), keep_tail V (r := main_arg18) (by decide), keep_tail V (r := main_arg19) (by decide), keep_tail V (r := main_arg20) (by decide), keep_tail V (r := main_arg21) (by decide), keep_tail V (r := main_arg22) (by decide), keep_tail V (r := main_arg23) (by decide), keep_tail V (r := main_arg24) (by decide), keep_tail V (r := main_arg25) (by decide), keep_tail V (r := main_arg26) (by decide), keep_tail V (r := main_arg27) (by decide), keep_tail V (r := main_arg28) (by decide), keep_tail V (r := main_arg29) (by decide), keep_tail V (r := main_arg30) (by decide), keep_tail V (r := main_arg31) (by decide), keep_tail V (r := main_arg32) (by decide), keep_tail V (r := main_arg33) (by decide)]

attribute [local irreducible] Host.reduceAdd Host.gather Host.scatterAdd in
set_option maxRecDepth 16384 in
set_option maxHeartbeats 4000000 in
theorem out_tail_v183 (V : Valuation τ sig (Elt F)) :
    after tailOps V (Proc.devRef .tc main_v183) = latent (meanRow (V (Proc.devRef .tc main_v174))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

attribute [local irreducible] Host.reduceAdd Host.gather Host.scatterAdd in
set_option maxRecDepth 16384 in
set_option maxHeartbeats 4000000 in
theorem out_tail_v194 (V : Valuation τ sig (Elt F)) :
    after tailOps V (Proc.devRef .tc main_v194) = reconstruction (meanRow (V (Proc.devRef .tc main_v174))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

attribute [local irreducible] Host.reduceAdd Host.gather Host.scatterAdd in
set_option maxRecDepth 16384 in
set_option maxHeartbeats 4000000 in
theorem out_tail_v205 (V : Valuation τ sig (Elt F)) :
    after tailOps V (Proc.devRef .tc main_v205) = property (meanRow (V (Proc.devRef .tc main_v174))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

end Cert.KernelIdeal.Stages

end
-- ==== Proof.SumMean.lean ====
/-
  The mean read-out against the sum row.  The reference sums each node set's [100000,128] array down its rows (the host's
  sum along axis 0 from a zero initial value), divides by 100000, adds the two vectors of 128 means and views the result
  as a [1,128] row.  The kernel's side divides the sum row by 100000.  Read at channel q both are the law of
  Cert.SumLaw.mean_law for the two arrays' columns q.
-/
import proofs.«165753_j16037407883756_1_alg».proof.Proof.Spec
import proofs.«165753_j16037407883756_1_alg».proof.Proof.KStage_tail
import proofs.«165753_j16037407883756_1_alg».proof.Proof.SumRows
import Idealize.ShloMosaic.Lib.IdealHost
import Idealize.ShloMosaic.Lib.Pipeline.Value

noncomputable section

namespace Cert.KernelIdeal.Regions

open Cert.ReferenceIdeal Cert.ReferenceIdeal.Gen Idealize.ShloMosaic Idealize.ShloMosaic.ValueIdx

/-- One node set's column means: at channel q, the zero initial value plus the sum over the 100000 rows of the entry at q,
    divided by 100000. -/
theorem colMean_apply (x : FVec Ideal S100000x128 .f32) (q : Fin 128) :
    Host.divf (Host.reduceAdd x (constant (F := Ideal) S_ .f32 0x00000000#32) reducesTo_S100000x128_S128_d0 h_S_)
        (broadcastInDim S128 ![] bcast_S_S128 (constant (F := Ideal) S_ .f32 0x47C35000#32)) (ix1 q)
      = Ideal.div (Ideal.ofBits .f32 0x00000000#32 + ∑ i : Fin 100000, chan x q i) (Ideal.ofBits .f32 0x47C35000#32) := by
  have hR : S100000x128.Reduces [0] S128 := by decide
  rw [hostDivf_apply, broadcastInDim_scalar_apply, hostReduceAdd_apply, constant_apply, constant_apply,
    Ideal.hostReduceAdd_single reducesTo_S100000x128_S128_d0 hR]
  have hs : (∑ k : Fin 100000, x (hR.lift (ix1 q) k)) = ∑ i : Fin 100000, chan x q i := by
    refine Finset.sum_congr rfl fun k _ => congrArg x ?_
    funext a
    match a with
    | ⟨0, _⟩ => rfl
    | ⟨1, _⟩ => rfl
  exact @congrArg EReal EReal (∑ k : Fin 100000, x (hR.lift (ix1 q) k)) (∑ i : Fin 100000, chan x q i)
    (fun s : EReal => Ideal.div ((Ideal.ofBits .f32 0x00000000#32 : EReal) + s) (Ideal.ofBits .f32 0x47C35000#32)) hs

/-- The pooled vector at channel q: the two node sets' column means added. -/
theorem pooled_apply (hn hl : FVec Ideal S100000x128 .f32) (q : Fin 128) :
    Cert.Spec.pooled (F := Ideal) hn hl (ix1 q)
      = Ideal.div (Ideal.ofBits .f32 0x00000000#32 + ∑ i : Fin 100000, chan hn q i) (Ideal.ofBits .f32 0x47C35000#32)
        + Ideal.div (Ideal.ofBits .f32 0x00000000#32 + ∑ i : Fin 100000, chan hl q i) (Ideal.ofBits .f32 0x47C35000#32) := by
  unfold Cert.Spec.pooled
  rw [addf_apply, colMean_apply, colMean_apply]

/-- A vector of 128 channels viewed as a row reads, at channel q, the vector's entry q. -/
theorem row_apply (b : FVec Ideal S128 .f32) (u : Fin 1) (q : Fin 128) : Cert.Spec.row (F := Ideal) b (ix2 u q) = b (ix1 q) := by
  unfold Cert.Spec.row
  refine broadcastInDim_apply ![1] bcast_S128_S1x128_1 b (ix2 u q) (ix1 q) fun a => ?_
  match a with
  | ⟨0, _⟩ =>
    show q.val = if (128 : ℕ) = 1 then 0 else q.val
    rw [if_neg (by decide)]

/-- The sum row divided by 100000 is the reference's pooled read-out viewed as a row. -/
theorem meanRow_sumRows (hn hl : (⟨S100000x128, .f32⟩ : BufTy).Contents (Elt Ideal)) :
    Cert.KernelIdeal.Stages.meanRow (F := Ideal) (sumRows hn hl) = Cert.Spec.row (Cert.Spec.pooled hn hl) := by
  funext j
  obtain ⟨u, q, rfl⟩ : ∃ (u : Fin 1) (q : Fin 128), j = ix2 u q := ⟨j 0, j 1, eq_ix2 j⟩
  rw [row_apply, pooled_apply, ← Cert.SumLaw.mean_law]
  unfold Cert.KernelIdeal.Stages.meanRow
  rw [hostDivf_apply, broadcastInDim_scalar_apply, constant_apply, sumRows_apply]

end Cert.KernelIdeal.Regions

end
-- ==== Proof.RegionSum.lean ====
/-
  The last region and the read-out.  The region's result array is the sum row of the two node sets' feature arrays (the
  ordered running sum over the ten blocks of 10000 rows, channel by channel), and that row divided by 100000 is the
  reference's mean read-out: the two column means added, viewed as a row.
-/
import proofs.«165753_j16037407883756_1_alg».proof.Proof.SumRegionOut
import proofs.«165753_j16037407883756_1_alg».proof.Proof.SumMean

/-! The definition `Cert.KernelIdeal.Regions.sumRows` and the theorems `Cert.KernelIdeal.Regions.region12_out` and
    `Cert.KernelIdeal.Regions.meanRow_sumRows` are those of the two imported modules. -/
-- ==== Proof.KStep25.lean ====
/-
  One step of the kernel's boundary chain: from what is known at boundary 24 (the argument arrays as launched; each live buffer at
  its intermediate array of the computation) to the same at boundary 25, across region 12 (its output's closed form; the rest is none of its arrays, or an input window's array, which is not written back).
-/
import proofs.«165753_j16037407883756_1_alg».proof.Proof.KRegArgs12
import proofs.«165753_j16037407883756_1_alg».proof.Proof.RegionSum

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
theorem step25 (A : Cert.Net.Args Ideal)
    (h : argsOf (W24 m ρ c) = A
      ∧ W24 m ρ c (Proc.devRef .tc main_v173) = Cert.Net.hl3 A
      ∧ W24 m ρ c (Proc.devRef .tc main_v164) = Cert.Net.hn3 A) :
    argsOf (W25 m ρ c) = A
    ∧ W25 m ρ c (Proc.devRef .tc main_v174) = Cert.KernelIdeal.Regions.sumRows (Cert.Net.hn3 A) (Cert.Net.hl3 A) := by
  obtain ⟨ha24, h24_v173, h24_v164⟩ := h
  have ha25 : argsOf (W25 m ρ c) = A := (args_reg12 m ρ c).trans ha24
  have g25_0 : V24 m ρ c (Pipeline.arrRef spec12 0) = Cert.Net.hn3 A := h24_v164
  have g25_1 : V24 m ρ c (Pipeline.arrRef spec12 1) = Cert.Net.hl3 A := h24_v173
  have h25_v174 : W25 m ρ c (Proc.devRef .tc main_v174) = Cert.KernelIdeal.Regions.sumRows (Cert.Net.hn3 A) (Cert.Net.hl3 A) :=
    (W25_arr m ρ c 2).trans ((Cert.KernelIdeal.Regions.region12_out (V24 m ρ) c).trans ((congr (congrArg (Cert.KernelIdeal.Regions.sumRows) g25_0) g25_1).trans rfl))
  exact ⟨ha25, h25_v174⟩

end Cert.KernelIdeal.Stages

end
-- ==== Proof.KStepTail.lean ====
/-
  The last step of the kernel's boundary chain: after the last region the host operations divide the sum row by the node
  count and apply the heads.  The contents at the last boundary are the tail's fold over the contents after the last
  region; the tail's three results are the heads of the mean row; the mean row of the sum row is the computation's mean
  read-out; the argument arrays are as launched.
-/
import proofs.«165753_j16037407883756_1_alg».proof.Proof.KStage_tail
import proofs.«165753_j16037407883756_1_alg».proof.Proof.RegionSum
import proofs.«165753_j16037407883756_1_alg».proof.Proof.Gen.KernelIdeal.Frame

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

/-- The last boundary's contents are the tail's fold over the contents after the last region. -/
theorem tail_fold : W36 m ρ c = after tailOps (W25 m ρ c) := by
  simp only [tailOps, after_append']

theorem tail_v194 (A : Cert.Net.Args Ideal)
    (h : argsOf (W25 m ρ c) = A
      ∧ W25 m ρ c (Proc.devRef .tc main_v174) = Cert.KernelIdeal.Regions.sumRows (Cert.Net.hn3 A) (Cert.Net.hl3 A)) :
    W36 m ρ c (Proc.devRef .tc main_v194) = Cert.Net.outReconstruction A := by
  obtain ⟨ha25, h174⟩ := h
  have hmean : meanRow (Cert.KernelIdeal.Regions.sumRows (Cert.Net.hn3 A) (Cert.Net.hl3 A)) = Cert.Net.hg A :=
    Cert.KernelIdeal.Regions.meanRow_sumRows _ _
  rw [tail_fold, out_tail_v194, ha25, h174, hmean]
  exact (rfl : reconstruction (Cert.Net.hg A) A.a18 A.a19 A.a20 A.a21 A.a22 A.a23 A.a24 A.a25 A.a26 A.a27 A.a28 A.a29 A.a30 A.a31 A.a32 A.a33 = Cert.Net.outReconstruction A)

theorem tail_v205 (A : Cert.Net.Args Ideal)
    (h : argsOf (W25 m ρ c) = A
      ∧ W25 m ρ c (Proc.devRef .tc main_v174) = Cert.KernelIdeal.Regions.sumRows (Cert.Net.hn3 A) (Cert.Net.hl3 A)) :
    W36 m ρ c (Proc.devRef .tc main_v205) = Cert.Net.outProperty A := by
  obtain ⟨ha25, h174⟩ := h
  have hmean : meanRow (Cert.KernelIdeal.Regions.sumRows (Cert.Net.hn3 A) (Cert.Net.hl3 A)) = Cert.Net.hg A :=
    Cert.KernelIdeal.Regions.meanRow_sumRows _ _
  rw [tail_fold, out_tail_v205, ha25, h174, hmean]
  exact (rfl : property (Cert.Net.hg A) A.a18 A.a19 A.a20 A.a21 A.a22 A.a23 A.a24 A.a25 A.a26 A.a27 A.a28 A.a29 A.a30 A.a31 A.a32 A.a33 = Cert.Net.outProperty A)

theorem tail_v183 (A : Cert.Net.Args Ideal)
    (h : argsOf (W25 m ρ c) = A
      ∧ W25 m ρ c (Proc.devRef .tc main_v174) = Cert.KernelIdeal.Regions.sumRows (Cert.Net.hn3 A) (Cert.Net.hl3 A)) :
    W36 m ρ c (Proc.devRef .tc main_v183) = Cert.Net.outLatent A := by
  obtain ⟨ha25, h174⟩ := h
  have hmean : meanRow (Cert.KernelIdeal.Regions.sumRows (Cert.Net.hn3 A) (Cert.Net.hl3 A)) = Cert.Net.hg A :=
    Cert.KernelIdeal.Regions.meanRow_sumRows _ _
  rw [tail_fold, out_tail_v183, ha25, h174, hmean]
  exact (rfl : latent (Cert.Net.hg A) A.a18 A.a19 A.a20 A.a21 A.a22 A.a23 A.a24 A.a25 A.a26 A.a27 A.a28 A.a29 A.a30 A.a31 A.a32 A.a33 = Cert.Net.outLatent A)

end Cert.KernelIdeal.Stages

end
-- ==== Proof.KChain.lean ====
/-
  The idealized kernel's last boundary contents, read: the boundary steps composed (a host stretch by its stage equations, a
  region by its output's closed form, everything else carried across unchanged), then, after the last region, the sum row
  over both node sets divided by the node count — the mean read-out — and the heads.
-/
import proofs.«165753_j16037407883756_1_alg».proof.Proof.KStep1
import proofs.«165753_j16037407883756_1_alg».proof.Proof.KStep2
import proofs.«165753_j16037407883756_1_alg».proof.Proof.KStep3
import proofs.«165753_j16037407883756_1_alg».proof.Proof.KStep4
import proofs.«165753_j16037407883756_1_alg».proof.Proof.KStep5
import proofs.«165753_j16037407883756_1_alg».proof.Proof.KStep6
import proofs.«165753_j16037407883756_1_alg».proof.Proof.KStep7
import proofs.«165753_j16037407883756_1_alg».proof.Proof.KStep8
import proofs.«165753_j16037407883756_1_alg».proof.Proof.KStep9
import proofs.«165753_j16037407883756_1_alg».proof.Proof.KStep10
import proofs.«165753_j16037407883756_1_alg».proof.Proof.KStep11
import proofs.«165753_j16037407883756_1_alg».proof.Proof.KStep12
import proofs.«165753_j16037407883756_1_alg».proof.Proof.KStep13
import proofs.«165753_j16037407883756_1_alg».proof.Proof.KStep14
import proofs.«165753_j16037407883756_1_alg».proof.Proof.KStep15
import proofs.«165753_j16037407883756_1_alg».proof.Proof.KStep16
import proofs.«165753_j16037407883756_1_alg».proof.Proof.KStep17
import proofs.«165753_j16037407883756_1_alg».proof.Proof.KStep18
import proofs.«165753_j16037407883756_1_alg».proof.Proof.KStep19
import proofs.«165753_j16037407883756_1_alg».proof.Proof.KStep20
import proofs.«165753_j16037407883756_1_alg».proof.Proof.KStep21
import proofs.«165753_j16037407883756_1_alg».proof.Proof.KStep22
import proofs.«165753_j16037407883756_1_alg».proof.Proof.KStep23
import proofs.«165753_j16037407883756_1_alg».proof.Proof.KStep24
import proofs.«165753_j16037407883756_1_alg».proof.Proof.KStep25
import proofs.«165753_j16037407883756_1_alg».proof.Proof.KStepTail

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

set_option maxHeartbeats 4000000 in
/-- The three result buffers' final contents are the computation's three results of the launch memory's argument arrays. -/
theorem results :
    W36 m ρ c (Proc.devRef .tc main_v194) = Cert.Net.outReconstruction (argsOf (W0 m ρ c))
    ∧ W36 m ρ c (Proc.devRef .tc main_v205) = Cert.Net.outProperty (argsOf (W0 m ρ c))
    ∧ W36 m ρ c (Proc.devRef .tc main_v183) = Cert.Net.outLatent (argsOf (W0 m ρ c)) := by
  generalize hA : argsOf (W0 m ρ c) = A
  have f1 := step1 m ρ c A hA
  have f2 := step2 m ρ c A f1
  have f3 := step3 m ρ c A f2
  have f4 := step4 m ρ c A f3
  have f5 := step5 m ρ c A f4
  have f6 := step6 m ρ c A f5
  have f7 := step7 m ρ c A f6
  have f8 := step8 m ρ c A f7
  have f9 := step9 m ρ c A f8
  have f10 := step10 m ρ c A f9
  have f11 := step11 m ρ c A f10
  have f12 := step12 m ρ c A f11
  have f13 := step13 m ρ c A f12
  have f14 := step14 m ρ c A f13
  have f15 := step15 m ρ c A f14
  have f16 := step16 m ρ c A f15
  have f17 := step17 m ρ c A f16
  have f18 := step18 m ρ c A f17
  have f19 := step19 m ρ c A f18
  have f20 := step20 m ρ c A f19
  have f21 := step21 m ρ c A f20
  have f22 := step22 m ρ c A f21
  have f23 := step23 m ρ c A f22
  have f24 := step24 m ρ c A f23
  have f25 := step25 m ρ c A f24
  exact ⟨tail_v194 m ρ c A f25, tail_v205 m ρ c A f25, tail_v183 m ρ c A f25⟩

end Cert.KernelIdeal.Stages

end
-- ==== Proof.RefArgs.lean ====
/-
  The argument arrays read out of a TensorCore's buffer contents.
-/
import proofs.«165753_j16037407883756_1_alg».proof.Proof.Net
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The 34 argument arrays as some contents hold them. -/
abbrev argsOf (V : Valuation τ sig (Elt F)) : Cert.Net.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24), V (Proc.devRef .tc main_arg25), V (Proc.devRef .tc main_arg26), V (Proc.devRef .tc main_arg27), V (Proc.devRef .tc main_arg28), V (Proc.devRef .tc main_arg29), V (Proc.devRef .tc main_arg30), V (Proc.devRef .tc main_arg31), V (Proc.devRef .tc main_arg32), V (Proc.devRef .tc main_arg33)⟩

end Cert.ReferenceIdeal.Stages

end
-- ==== Proof.RefStageDeg.lean ====
/-
  The reference's host line, the stretch ending at v7, v15, v23, v31: its 48 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stDeg : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0xBF000000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v5 main_v6 main_v7 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v8 (broadcastInDim S1600000 ![] bcast_S_S1600000 : (⟨S_, .f32⟩ : BufTy).Contents (Elt F) → (⟨S1600000, .f32⟩ : BufTy).Contents (Elt F)),
    StableHlo.nullary main_cst_4 (constant S_ .f32 0x00000000#32),
    StableHlo.unary main_cst_4 main_v9 (broadcastInDim S100000 ![] bcast_S_S100000 : (⟨S_, .f32⟩ : BufTy).Contents (Elt F) → (⟨S100000, .f32⟩ : BufTy).Contents (Elt F)),
    StableHlo.unary main_arg3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_5 (constant S_ .f32 0x3F800000#32),
    StableHlo.unary main_cst_5 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.nullary main_cst_6 (constant S_ .f32 0xBF000000#32),
    StableHlo.unary main_cst_6 main_v14 (broadcastInDim S100000 ![] bcast_S_S100000 : (⟨S_, .f32⟩ : BufTy).Contents (Elt F) → (⟨S100000, .f32⟩ : BufTy).Contents (Elt F)),
    StableHlo.binary main_v13 main_v14 main_v15 (Host.powf : (⟨S100000, .f32⟩ : BufTy).Contents (Elt F) → (⟨S100000, .f32⟩ : BufTy).Contents (Elt F) → (⟨S100000, .f32⟩ : BufTy).Contents (Elt F)),
    StableHlo.nullary main_cst_7 (constant S_ .f32 0x3F800000#32),
    StableHlo.unary main_cst_7 main_v16 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v17 (broadcastInDim S100000 ![] bcast_S_S100000 : (⟨S_, .f32⟩ : BufTy).Contents (Elt F) → (⟨S100000, .f32⟩ : BufTy).Contents (Elt F)),
    StableHlo.unary main_arg4 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v20 (broadcastInDim S100000 ![] bcast_S_S100000 : (⟨S_, .f32⟩ : BufTy).Contents (Elt F) → (⟨S100000, .f32⟩ : BufTy).Contents (Elt F)),
    StableHlo.binary main_v19 main_v20 main_v21 (maximumf : (⟨S100000, .f32⟩ : BufTy).Contents (Elt F) → (⟨S100000, .f32⟩ : BufTy).Contents (Elt F) → (⟨S100000, .f32⟩ : BufTy).Contents (Elt F)),
    StableHlo.nullary main_cst_10 (constant S_ .f32 0xBF000000#32),
    StableHlo.unary main_cst_10 main_v22 (broadcastInDim S100000 ![] bcast_S_S100000 : (⟨S_, .f32⟩ : BufTy).Contents (Elt F) → (⟨S100000, .f32⟩ : BufTy).Contents (Elt F)),
    StableHlo.binary main_v21 main_v22 main_v23 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x3F800000#32),
    StableHlo.unary main_cst_11 main_v24 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v25 (broadcastInDim S100000 ![] bcast_S_S100000 : (⟨S_, .f32⟩ : BufTy).Contents (Elt F) → (⟨S100000, .f32⟩ : BufTy).Contents (Elt F)),
    StableHlo.unary main_arg5 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.nullary main_cst_14 (constant S_ .f32 0xBF000000#32),
    StableHlo.unary main_cst_14 main_v30 (broadcastInDim S100000 ![] bcast_S_S100000 : (⟨S_, .f32⟩ : BufTy).Contents (Elt F) → (⟨S100000, .f32⟩ : BufTy).Contents (Elt F)),
    StableHlo.binary main_v29 main_v30 main_v31 (Host.powf : (⟨S100000, .f32⟩ : BufTy).Contents (Elt F) → (⟨S100000, .f32⟩ : BufTy).Contents (Elt F) → (⟨S100000, .f32⟩ : BufTy).Contents (Elt F)) ]

/-- The buffers the stretch writes. -/
abbrev writtenDeg : List (Ref sig .tc) :=
  [ main_cst, main_v0, main_cst_0, main_v1, main_v2, main_v3, main_cst_1, main_v4, main_v5, main_cst_2, main_v6, main_v7, main_cst_3, main_v8, main_cst_4, main_v9, main_v10, main_v11, main_cst_5, main_v12, main_v13, main_cst_6, main_v14, main_v15, main_cst_7, main_v16, main_cst_8, main_v17, main_v18, main_v19, main_cst_9, main_v20, main_v21, main_cst_10, main_v22, main_v23, main_cst_11, main_v24, main_cst_12, main_v25, main_v26, main_v27, main_cst_13, main_v28, main_v29, main_cst_14, main_v30, main_v31 ]

theorem writesDeg : (stDeg : List (HloOp τ sig (Elt F))).Forall fun op => op.writes ⊆ (writtenDeg.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepDeg (V : Valuation τ sig (Elt F)) {r : Ref sig .tc} (h : r ∉ writtenDeg) :
    after stDeg V (Proc.devRef .tc r) = V (Proc.devRef .tc r) := after_of_writes_sub stDeg V writesDeg h

/-- The stretch leaves the argument arrays as it found them. -/
theorem argsDeg (V : Valuation τ sig (Elt F)) : argsOf (after stDeg V) = argsOf V := by
  simp only [argsOf, keepDeg V (r := main_arg0) (by decide), keepDeg V (r := main_arg1) (by decide), keepDeg V (r := main_arg2) (by decide), keepDeg V (r := main_arg3) (by decide), keepDeg V (r := main_arg4) (by decide), keepDeg V (r := main_arg5) (by decide), keepDeg V (r := main_arg6) (by decide), keepDeg V (r := main_arg7) (by decide), keepDeg V (r := main_arg8) (by decide), keepDeg V (r := main_arg9) (by decide), keepDeg V (r := main_arg10) (by decide), keepDeg V (r := main_arg11) (by decide), keepDeg V (r := main_arg12) (by decide), keepDeg V (r := main_arg13) (by decide), keepDeg V (r := main_arg14) (by decide), keepDeg V (r := main_arg15) (by decide), keepDeg V (r := main_arg16) (by decide), keepDeg V (r := main_arg17) (by decide), keepDeg V (r := main_arg18) (by decide), keepDeg V (r := main_arg19) (by decide), keepDeg V (r := main_arg20) (by decide), keepDeg V (r := main_arg21) (by decide), keepDeg V (r := main_arg22) (by decide), keepDeg V (r := main_arg23) (by decide), keepDeg V (r := main_arg24) (by decide), keepDeg V (r := main_arg25) (by decide), keepDeg V (r := main_arg26) (by decide), keepDeg V (r := main_arg27) (by decide), keepDeg V (r := main_arg28) (by decide), keepDeg V (r := main_arg29) (by decide), keepDeg V (r := main_arg30) (by decide), keepDeg V (r := main_arg31) (by decide), keepDeg V (r := main_arg32) (by decide), keepDeg V (r := main_arg33) (by decide)]

attribute [local irreducible] Host.reduceAdd Host.gather Host.scatterAdd in
set_option maxRecDepth 16384 in
set_option maxHeartbeats 4000000 in
theorem outDeg_v7 (V : Valuation τ sig (Elt F)) :
    after stDeg V (Proc.devRef .tc main_v7) = invSqrtDeg (argsOf V).a2 := by
  simp only [after_cons, after_nil]
  rfl

attribute [local irreducible] Host.reduceAdd Host.gather Host.scatterAdd in
set_option maxRecDepth 16384 in
set_option maxHeartbeats 4000000 in
theorem outDeg_v15 (V : Valuation τ sig (Elt F)) :
    after stDeg V (Proc.devRef .tc main_v15) = invSqrtDeg (argsOf V).a3 := by
  simp only [after_cons, after_nil]
  rfl

attribute [local irreducible] Host.reduceAdd Host.gather Host.scatterAdd in
set_option maxRecDepth 16384 in
set_option maxHeartbeats 4000000 in
theorem outDeg_v23 (V : Valuation τ sig (Elt F)) :
    after stDeg V (Proc.devRef .tc main_v23) = invSqrtDeg (argsOf V).a4 := by
  simp only [after_cons, after_nil]
  rfl

attribute [local irreducible] Host.reduceAdd Host.gather Host.scatterAdd in
set_option maxRecDepth 16384 in
set_option maxHeartbeats 4000000 in
theorem outDeg_v31 (V : Valuation τ sig (Elt F)) :
    after stDeg V (Proc.devRef .tc main_v31) = invSqrtDeg (argsOf V).a5 := by
  simp only [after_cons, after_nil]
  rfl

end Cert.ReferenceIdeal.Stages

end
-- ==== Proof.RefStageMmN1.lean ====
/-
  The reference's host line, the stretch ending at v35: its 4 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmN1 : List (HloOp τ sig (Elt F)) :=
  [ StableHlo.unary main_v7 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x300 ![0, 1] bcast_S100000x1_S100000x300_0_1 : (⟨S100000x1, .f32⟩ : BufTy).Contents (Elt F) → (⟨S100000x300, .f32⟩ : BufTy).Contents (Elt F)),
    StableHlo.binary main_arg1 main_v33 main_v34 (mulf : (⟨S100000x300, .f32⟩ : BufTy).Contents (Elt F) → (⟨S100000x300, .f32⟩ : BufTy).Contents (Elt F) → (⟨S100000x300, .f32⟩ : BufTy).Contents (Elt F)),
    StableHlo.binary main_v34 main_arg6 main_v35 ((fun l r => Host.dotGeneral dot_S100000x300_S300x128_S100000x128_1_0_0_1_n_n none l r) : (⟨S100000x300, .f32⟩ : BufTy).Contents (Elt F) → (⟨S300x128, .f32⟩ : BufTy).Contents (Elt F) → (⟨S100000x128, .f32⟩ : BufTy).Contents (Elt F)) ]

/-- The buffers the stretch writes. -/
abbrev writtenMmN1 : List (Ref sig .tc) :=
  [ main_v32, main_v33, main_v34, main_v35 ]

theorem writesMmN1 : (stMmN1 : List (HloOp τ sig (Elt F))).Forall fun op => op.writes ⊆ (writtenMmN1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmN1 (V : Valuation τ sig (Elt F)) {r : Ref sig .tc} (h : r ∉ writtenMmN1) :
    after stMmN1 V (Proc.devRef .tc r) = V (Proc.devRef .tc r) := after_of_writes_sub stMmN1 V writesMmN1 h

/-- The stretch leaves the argument arrays as it found them. -/
theorem argsMmN1 (V : Valuation τ sig (Elt F)) : argsOf (after stMmN1 V) = argsOf V := by
  simp only [argsOf, keepMmN1 V (r := main_arg0) (by decide), keepMmN1 V (r := main_arg1) (by decide), keepMmN1 V (r := main_arg2) (by decide), keepMmN1 V (r := main_arg3) (by decide), keepMmN1 V (r := main_arg4) (by decide), keepMmN1 V (r := main_arg5) (by decide), keepMmN1 V (r := main_arg6) (by decide), keepMmN1 V (r := main_arg7) (by decide), keepMmN1 V (r := main_arg8) (by decide), keepMmN1 V (r := main_arg9) (by decide), keepMmN1 V (r := main_arg10) (by decide), keepMmN1 V (r := main_arg11) (by decide), keepMmN1 V (r := main_arg12) (by decide), keepMmN1 V (r := main_arg13) (by decide), keepMmN1 V (r := main_arg14) (by decide), keepMmN1 V (r := main_arg15) (by decide), keepMmN1 V (r := main_arg16) (by decide), keepMmN1 V (r := main_arg17) (by decide), keepMmN1 V (r := main_arg18) (by decide), keepMmN1 V (r := main_arg19) (by decide), keepMmN1 V (r := main_arg20) (by decide), keepMmN1 V (r := main_arg21) (by decide), keepMmN1 V (r := main_arg22) (by decide), keepMmN1 V (r := main_arg23) (by decide), keepMmN1 V (r := main_arg24) (by decide), keepMmN1 V (r := main_arg25) (by decide), keepMmN1 V (r := main_arg26) (by decide), keepMmN1 V (r := main_arg27) (by decide), keepMmN1 V (r := main_arg28) (by decide), keepMmN1 V (r := main_arg29) (by decide), keepMmN1 V (r := main_arg30) (by decide), keepMmN1 V (r := main_arg31) (by decide), keepMmN1 V (r := main_arg32) (by decide), keepMmN1 V (r := main_arg33) (by decide)]

attribute [local irreducible] Host.reduceAdd Host.gather Host.scatterAdd in
set_option maxRecDepth 16384 in
set_option maxHeartbeats 4000000 in
theorem outMmN1_v35 (V : Valuation τ sig (Elt F)) :
    after stMmN1 V (Proc.devRef .tc main_v35) = scaleMatmul300 (argsOf V).a1 (col (V (Proc.devRef .tc main_v7))) (argsOf V).a6 := by
  simp only [after_cons, after_nil]
  rfl

end Cert.ReferenceIdeal.Stages

end
-- ==== Proof.RefStageAggN1.lean ====
/-
  The reference's host line, the stretch ending at v45: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggN1 : List (HloOp τ sig (Elt F)) :=
  [ StableHlo.nullary main_c (constantI S_ 32 0#32),
    StableHlo.unary main_c main_v36 (broadcastInDim S1600000 ![] bcast_S_S1600000 : (⟨S_, .i32⟩ : BufTy).Contents (Elt F) → (⟨S1600000, .i32⟩ : BufTy).Contents (Elt F)),
    StableHlo.binary main_arg2 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v38 (broadcastInDim S1600000 ![] bcast_S_S1600000 : (⟨S_, .i32⟩ : BufTy).Contents (Elt F) → (⟨S1600000, .i32⟩ : BufTy).Contents (Elt F)),
    StableHlo.binary main_arg2 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_arg2 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v43 (broadcastInDim S100000x128 ![] bcast_S_S100000x128 : (⟨S_, .f32⟩ : BufTy).Contents (Elt F) → (⟨S100000x128, .f32⟩ : BufTy).Contents (Elt F)),
    StableHlo.unary main_arg3 main_v44 (broadcastInDim S1600000x1 ![0] bcast_S1600000_S1600000x1_0 : (⟨S1600000, .i32⟩ : BufTy).Contents (Elt F) → (⟨S1600000x1, .i32⟩ : BufTy).Contents (Elt F)),
    StableHlo.ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggN1 : List (Ref sig .tc) :=
  [ main_c, main_v36, main_v37, main_c_15, main_v38, main_v39, main_v40, main_v41, main_v42, main_cst_16, main_v43, main_v44, main_v45 ]

theorem writesAggN1 : (stAggN1 : List (HloOp τ sig (Elt F))).Forall fun op => op.writes ⊆ (writtenAggN1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggN1 (V : Valuation τ sig (Elt F)) {r : Ref sig .tc} (h : r ∉ writtenAggN1) :
    after stAggN1 V (Proc.devRef .tc r) = V (Proc.devRef .tc r) := after_of_writes_sub stAggN1 V writesAggN1 h

/-- The stretch leaves the argument arrays as it found them. -/
theorem argsAggN1 (V : Valuation τ sig (Elt F)) : argsOf (after stAggN1 V) = argsOf V := by
  simp only [argsOf, keepAggN1 V (r := main_arg0) (by decide), keepAggN1 V (r := main_arg1) (by decide), keepAggN1 V (r := main_arg2) (by decide), keepAggN1 V (r := main_arg3) (by decide), keepAggN1 V (r := main_arg4) (by decide), keepAggN1 V (r := main_arg5) (by decide), keepAggN1 V (r := main_arg6) (by decide), keepAggN1 V (r := main_arg7) (by decide), keepAggN1 V (r := main_arg8) (by decide), keepAggN1 V (r := main_arg9) (by decide), keepAggN1 V (r := main_arg10) (by decide), keepAggN1 V (r := main_arg11) (by decide), keepAggN1 V (r := main_arg12) (by decide), keepAggN1 V (r := main_arg13) (by decide), keepAggN1 V (r := main_arg14) (by decide), keepAggN1 V (r := main_arg15) (by decide), keepAggN1 V (r := main_arg16) (by decide), keepAggN1 V (r := main_arg17) (by decide), keepAggN1 V (r := main_arg18) (by decide), keepAggN1 V (r := main_arg19) (by decide), keepAggN1 V (r := main_arg20) (by decide), keepAggN1 V (r := main_arg21) (by decide), keepAggN1 V (r := main_arg22) (by decide), keepAggN1 V (r := main_arg23) (by decide), keepAggN1 V (r := main_arg24) (by decide), keepAggN1 V (r := main_arg25) (by decide), keepAggN1 V (r := main_arg26) (by decide), keepAggN1 V (r := main_arg27) (by decide), keepAggN1 V (r := main_arg28) (by decide), keepAggN1 V (r := main_arg29) (by decide), keepAggN1 V (r := main_arg30) (by decide), keepAggN1 V (r := main_arg31) (by decide), keepAggN1 V (r := main_arg32) (by decide), keepAggN1 V (r := main_arg33) (by decide)]

attribute [local irreducible] Host.reduceAdd Host.gather Host.scatterAdd in
set_option maxRecDepth 16384 in
set_option maxHeartbeats 4000000 in
theorem outAggN1_v45 (V : Valuation τ sig (Elt F)) :
    after stAggN1 V (Proc.devRef .tc main_v45) = aggregate (V (Proc.devRef .tc main_v35)) (argsOf V).a2 (argsOf V).a3 := by
  simp only [after_cons, after_nil]
  rfl

end Cert.ReferenceIdeal.Stages

end
-- ==== Proof.RefStageSbN1.lean ====
/-
  The reference's host line, the stretch ending at v51: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbN1 : List (HloOp τ sig (Elt F)) :=
  [ StableHlo.unary main_v15 main_v46 (broadcastInDim S100000x1 ![0] bcast_S100000_S100000x1_0 : (⟨S100000, .f32⟩ : BufTy).Contents (Elt F) → (⟨S100000x1, .f32⟩ : BufTy).Contents (Elt F)),
    StableHlo.unary main_v46 main_v47 (broadcastInDim S100000x128 ![0, 1] bcast_S100000x1_S100000x128_0_1 : (⟨S100000x1, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg7 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbN1 : List (Ref sig .tc) :=
  [ main_v46, main_v47, main_v48, main_v49, main_v50, main_v51 ]

theorem writesSbN1 : (stSbN1 : List (HloOp τ sig (Elt F))).Forall fun op => op.writes ⊆ (writtenSbN1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbN1 (V : Valuation τ sig (Elt F)) {r : Ref sig .tc} (h : r ∉ writtenSbN1) :
    after stSbN1 V (Proc.devRef .tc r) = V (Proc.devRef .tc r) := after_of_writes_sub stSbN1 V writesSbN1 h

/-- The stretch leaves the argument arrays as it found them. -/
theorem argsSbN1 (V : Valuation τ sig (Elt F)) : argsOf (after stSbN1 V) = argsOf V := by
  simp only [argsOf, keepSbN1 V (r := main_arg0) (by decide), keepSbN1 V (r := main_arg1) (by decide), keepSbN1 V (r := main_arg2) (by decide), keepSbN1 V (r := main_arg3) (by decide), keepSbN1 V (r := main_arg4) (by decide), keepSbN1 V (r := main_arg5) (by decide), keepSbN1 V (r := main_arg6) (by decide), keepSbN1 V (r := main_arg7) (by decide), keepSbN1 V (r := main_arg8) (by decide), keepSbN1 V (r := main_arg9) (by decide), keepSbN1 V (r := main_arg10) (by decide), keepSbN1 V (r := main_arg11) (by decide), keepSbN1 V (r := main_arg12) (by decide), keepSbN1 V (r := main_arg13) (by decide), keepSbN1 V (r := main_arg14) (by decide), keepSbN1 V (r := main_arg15) (by decide), keepSbN1 V (r := main_arg16) (by decide), keepSbN1 V (r := main_arg17) (by decide), keepSbN1 V (r := main_arg18) (by decide), keepSbN1 V (r := main_arg19) (by decide), keepSbN1 V (r := main_arg20) (by decide), keepSbN1 V (r := main_arg21) (by decide), keepSbN1 V (r := main_arg22) (by decide), keepSbN1 V (r := main_arg23) (by decide), keepSbN1 V (r := main_arg24) (by decide), keepSbN1 V (r := main_arg25) (by decide), keepSbN1 V (r := main_arg26) (by decide), keepSbN1 V (r := main_arg27) (by decide), keepSbN1 V (r := main_arg28) (by decide), keepSbN1 V (r := main_arg29) (by decide), keepSbN1 V (r := main_arg30) (by decide), keepSbN1 V (r := main_arg31) (by decide), keepSbN1 V (r := main_arg32) (by decide), keepSbN1 V (r := main_arg33) (by decide)]

attribute [local irreducible] Host.reduceAdd Host.gather Host.scatterAdd in
set_option maxRecDepth 16384 in
set_option maxHeartbeats 4000000 in
theorem outSbN1_v51 (V : Valuation τ sig (Elt F)) :
    after stSbN1 V (Proc.devRef .tc main_v51) = scaleBias (V (Proc.devRef .tc main_v45)) (col (V (Proc.devRef .tc main_v15))) (row (argsOf V).a7) := by
  simp only [after_cons, after_nil]
  rfl

end Cert.ReferenceIdeal.Stages

end
-- ==== Proof.RefStageMmL1.lean ====
/-
  The reference's host line, the stretch ending at v55: its 4 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmL1 : List (HloOp τ sig (Elt F)) :=
  [ StableHlo.unary main_v23 main_v52 (broadcastInDim S100000x1 ![0] bcast_S100000_S100000x1_0 : (⟨S100000, .f32⟩ : BufTy).Contents (Elt F) → (⟨S100000x1, .f32⟩ : BufTy).Contents (Elt F)),
    StableHlo.unary main_v52 main_v53 (broadcastInDim S100000x200 ![0, 1] bcast_S100000x1_S100000x200_0_1 : (⟨S100000x1, .f32⟩ : BufTy).Contents (Elt F) → (⟨S100000x200, .f32⟩ : BufTy).Contents (Elt F)),
    StableHlo.binary main_arg0 main_v53 main_v54 (mulf : (⟨S100000x200, .f32⟩ : BufTy).Contents (Elt F) → (⟨S100000x200, .f32⟩ : BufTy).Contents (Elt F) → (⟨S100000x200, .f32⟩ : BufTy).Contents (Elt F)),
    StableHlo.binary main_v54 main_arg8 main_v55 ((fun l r => Host.dotGeneral dot_S100000x200_S200x128_S100000x128_1_0_0_1_n_n none l r) : (⟨S100000x200, .f32⟩ : BufTy).Contents (Elt F) → (⟨S200x128, .f32⟩ : BufTy).Contents (Elt F) → (⟨S100000x128, .f32⟩ : BufTy).Contents (Elt F)) ]

/-- The buffers the stretch writes. -/
abbrev writtenMmL1 : List (Ref sig .tc) :=
  [ main_v52, main_v53, main_v54, main_v55 ]

theorem writesMmL1 : (stMmL1 : List (HloOp τ sig (Elt F))).Forall fun op => op.writes ⊆ (writtenMmL1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmL1 (V : Valuation τ sig (Elt F)) {r : Ref sig .tc} (h : r ∉ writtenMmL1) :
    after stMmL1 V (Proc.devRef .tc r) = V (Proc.devRef .tc r) := after_of_writes_sub stMmL1 V writesMmL1 h

/-- The stretch leaves the argument arrays as it found them. -/
theorem argsMmL1 (V : Valuation τ sig (Elt F)) : argsOf (after stMmL1 V) = argsOf V := by
  simp only [argsOf, keepMmL1 V (r := main_arg0) (by decide), keepMmL1 V (r := main_arg1) (by decide), keepMmL1 V (r := main_arg2) (by decide), keepMmL1 V (r := main_arg3) (by decide), keepMmL1 V (r := main_arg4) (by decide), keepMmL1 V (r := main_arg5) (by decide), keepMmL1 V (r := main_arg6) (by decide), keepMmL1 V (r := main_arg7) (by decide), keepMmL1 V (r := main_arg8) (by decide), keepMmL1 V (r := main_arg9) (by decide), keepMmL1 V (r := main_arg10) (by decide), keepMmL1 V (r := main_arg11) (by decide), keepMmL1 V (r := main_arg12) (by decide), keepMmL1 V (r := main_arg13) (by decide), keepMmL1 V (r := main_arg14) (by decide), keepMmL1 V (r := main_arg15) (by decide), keepMmL1 V (r := main_arg16) (by decide), keepMmL1 V (r := main_arg17) (by decide), keepMmL1 V (r := main_arg18) (by decide), keepMmL1 V (r := main_arg19) (by decide), keepMmL1 V (r := main_arg20) (by decide), keepMmL1 V (r := main_arg21) (by decide), keepMmL1 V (r := main_arg22) (by decide), keepMmL1 V (r := main_arg23) (by decide), keepMmL1 V (r := main_arg24) (by decide), keepMmL1 V (r := main_arg25) (by decide), keepMmL1 V (r := main_arg26) (by decide), keepMmL1 V (r := main_arg27) (by decide), keepMmL1 V (r := main_arg28) (by decide), keepMmL1 V (r := main_arg29) (by decide), keepMmL1 V (r := main_arg30) (by decide), keepMmL1 V (r := main_arg31) (by decide), keepMmL1 V (r := main_arg32) (by decide), keepMmL1 V (r := main_arg33) (by decide)]

attribute [local irreducible] Host.reduceAdd Host.gather Host.scatterAdd in
set_option maxRecDepth 16384 in
set_option maxHeartbeats 4000000 in
theorem outMmL1_v55 (V : Valuation τ sig (Elt F)) :
    after stMmL1 V (Proc.devRef .tc main_v55) = scaleMatmul200 (argsOf V).a0 (col (V (Proc.devRef .tc main_v23))) (argsOf V).a8 := by
  simp only [after_cons, after_nil]
  rfl

end Cert.ReferenceIdeal.Stages

end
-- ==== Proof.RefStageAggL1.lean ====
/-
  The reference's host line, the stretch ending at v65: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggL1 : List (HloOp τ sig (Elt F)) :=
  [ StableHlo.nullary main_c_17 (constantI S_ 32 0#32),
    StableHlo.unary main_c_17 main_v56 (broadcastInDim S1600000 ![] bcast_S_S1600000 : (⟨S_, .i32⟩ : BufTy).Contents (Elt F) → (⟨S1600000, .i32⟩ : BufTy).Contents (Elt F)),
    StableHlo.binary main_arg4 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v58 (broadcastInDim S1600000 ![] bcast_S_S1600000 : (⟨S_, .i32⟩ : BufTy).Contents (Elt F) → (⟨S1600000, .i32⟩ : BufTy).Contents (Elt F)),
    StableHlo.binary main_arg4 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_arg4 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_19 (constant S_ .f32 0x00000000#32),
    StableHlo.unary main_cst_19 main_v63 (broadcastInDim S100000x128 ![] bcast_S_S100000x128 : (⟨S_, .f32⟩ : BufTy).Contents (Elt F) → (⟨S100000x128, .f32⟩ : BufTy).Contents (Elt F)),
    StableHlo.unary main_arg5 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggL1 : List (Ref sig .tc) :=
  [ main_c_17, main_v56, main_v57, main_c_18, main_v58, main_v59, main_v60, main_v61, main_v62, main_cst_19, main_v63, main_v64, main_v65 ]

theorem writesAggL1 : (stAggL1 : List (HloOp τ sig (Elt F))).Forall fun op => op.writes ⊆ (writtenAggL1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggL1 (V : Valuation τ sig (Elt F)) {r : Ref sig .tc} (h : r ∉ writtenAggL1) :
    after stAggL1 V (Proc.devRef .tc r) = V (Proc.devRef .tc r) := after_of_writes_sub stAggL1 V writesAggL1 h

/-- The stretch leaves the argument arrays as it found them. -/
theorem argsAggL1 (V : Valuation τ sig (Elt F)) : argsOf (after stAggL1 V) = argsOf V := by
  simp only [argsOf, keepAggL1 V (r := main_arg0) (by decide), keepAggL1 V (r := main_arg1) (by decide), keepAggL1 V (r := main_arg2) (by decide), keepAggL1 V (r := main_arg3) (by decide), keepAggL1 V (r := main_arg4) (by decide), keepAggL1 V (r := main_arg5) (by decide), keepAggL1 V (r := main_arg6) (by decide), keepAggL1 V (r := main_arg7) (by decide), keepAggL1 V (r := main_arg8) (by decide), keepAggL1 V (r := main_arg9) (by decide), keepAggL1 V (r := main_arg10) (by decide), keepAggL1 V (r := main_arg11) (by decide), keepAggL1 V (r := main_arg12) (by decide), keepAggL1 V (r := main_arg13) (by decide), keepAggL1 V (r := main_arg14) (by decide), keepAggL1 V (r := main_arg15) (by decide), keepAggL1 V (r := main_arg16) (by decide), keepAggL1 V (r := main_arg17) (by decide), keepAggL1 V (r := main_arg18) (by decide), keepAggL1 V (r := main_arg19) (by decide), keepAggL1 V (r := main_arg20) (by decide), keepAggL1 V (r := main_arg21) (by decide), keepAggL1 V (r := main_arg22) (by decide), keepAggL1 V (r := main_arg23) (by decide), keepAggL1 V (r := main_arg24) (by decide), keepAggL1 V (r := main_arg25) (by decide), keepAggL1 V (r := main_arg26) (by decide), keepAggL1 V (r := main_arg27) (by decide), keepAggL1 V (r := main_arg28) (by decide), keepAggL1 V (r := main_arg29) (by decide), keepAggL1 V (r := main_arg30) (by decide), keepAggL1 V (r := main_arg31) (by decide), keepAggL1 V (r := main_arg32) (by decide), keepAggL1 V (r := main_arg33) (by decide)]

attribute [local irreducible] Host.reduceAdd Host.gather Host.scatterAdd in
set_option maxRecDepth 16384 in
set_option maxHeartbeats 4000000 in
theorem outAggL1_v65 (V : Valuation τ sig (Elt F)) :
    after stAggL1 V (Proc.devRef .tc main_v65) = aggregate (V (Proc.devRef .tc main_v55)) (argsOf V).a4 (argsOf V).a5 := by
  simp only [after_cons, after_nil]
  rfl

end Cert.ReferenceIdeal.Stages

end
-- ==== Proof.RefStageSbL1.lean ====
/-
  The reference's host line, the stretch ending at v71: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbL1 : List (HloOp τ sig (Elt F)) :=
  [ StableHlo.unary main_v31 main_v66 (broadcastInDim S100000x1 ![0] bcast_S100000_S100000x1_0 : (⟨S100000, .f32⟩ : BufTy).Contents (Elt F) → (⟨S100000x1, .f32⟩ : BufTy).Contents (Elt F)),
    StableHlo.unary main_v66 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v65 main_v67 main_v68 (mulf : (⟨S100000x128, .f32⟩ : BufTy).Contents (Elt F) → (⟨S100000x128, .f32⟩ : BufTy).Contents (Elt F) → (⟨S100000x128, .f32⟩ : BufTy).Contents (Elt F)),
    StableHlo.unary main_arg9 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbL1 : List (Ref sig .tc) :=
  [ main_v66, main_v67, main_v68, main_v69, main_v70, main_v71 ]

theorem writesSbL1 : (stSbL1 : List (HloOp τ sig (Elt F))).Forall fun op => op.writes ⊆ (writtenSbL1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbL1 (V : Valuation τ sig (Elt F)) {r : Ref sig .tc} (h : r ∉ writtenSbL1) :
    after stSbL1 V (Proc.devRef .tc r) = V (Proc.devRef .tc r) := after_of_writes_sub stSbL1 V writesSbL1 h

/-- The stretch leaves the argument arrays as it found them. -/
theorem argsSbL1 (V : Valuation τ sig (Elt F)) : argsOf (after stSbL1 V) = argsOf V := by
  simp only [argsOf, keepSbL1 V (r := main_arg0) (by decide), keepSbL1 V (r := main_arg1) (by decide), keepSbL1 V (r := main_arg2) (by decide), keepSbL1 V (r := main_arg3) (by decide), keepSbL1 V (r := main_arg4) (by decide), keepSbL1 V (r := main_arg5) (by decide), keepSbL1 V (r := main_arg6) (by decide), keepSbL1 V (r := main_arg7) (by decide), keepSbL1 V (r := main_arg8) (by decide), keepSbL1 V (r := main_arg9) (by decide), keepSbL1 V (r := main_arg10) (by decide), keepSbL1 V (r := main_arg11) (by decide), keepSbL1 V (r := main_arg12) (by decide), keepSbL1 V (r := main_arg13) (by decide), keepSbL1 V (r := main_arg14) (by decide), keepSbL1 V (r := main_arg15) (by decide), keepSbL1 V (r := main_arg16) (by decide), keepSbL1 V (r := main_arg17) (by decide), keepSbL1 V (r := main_arg18) (by decide), keepSbL1 V (r := main_arg19) (by decide), keepSbL1 V (r := main_arg20) (by decide), keepSbL1 V (r := main_arg21) (by decide), keepSbL1 V (r := main_arg22) (by decide), keepSbL1 V (r := main_arg23) (by decide), keepSbL1 V (r := main_arg24) (by decide), keepSbL1 V (r := main_arg25) (by decide), keepSbL1 V (r := main_arg26) (by decide), keepSbL1 V (r := main_arg27) (by decide), keepSbL1 V (r := main_arg28) (by decide), keepSbL1 V (r := main_arg29) (by decide), keepSbL1 V (r := main_arg30) (by decide), keepSbL1 V (r := main_arg31) (by decide), keepSbL1 V (r := main_arg32) (by decide), keepSbL1 V (r := main_arg33) (by decide)]

attribute [local irreducible] Host.reduceAdd Host.gather Host.scatterAdd in
set_option maxRecDepth 16384 in
set_option maxHeartbeats 4000000 in
theorem outSbL1_v71 (V : Valuation τ sig (Elt F)) :
    after stSbL1 V (Proc.devRef .tc main_v71) = scaleBias (V (Proc.devRef .tc main_v65)) (col (V (Proc.devRef .tc main_v31))) (row (argsOf V).a9) := by
  simp only [after_cons, after_nil]
  rfl

end Cert.ReferenceIdeal.Stages

end
-- ==== Proof.RefStageLnN1.lean ====
/-
  The reference's host line, the stretch ending at v94: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnN1 : List (HloOp τ sig (Elt F)) :=
  [ StableHlo.unary main_arg14 main_v72 ((extractStridedSlice S1x128 ![0, 0] · slices_S3x128_S1x128_0_0) : (⟨S3x128, .f32⟩ : BufTy).Contents (Elt F) → (⟨S1x128, .f32⟩ : BufTy).Contents (Elt F)),
    StableHlo.reshape main_v72 main_v73 rfl shapeCasts_S1x128_S128,
    StableHlo.unary main_arg15 main_v74 ((extractStridedSlice S1x128 ![0, 0] · slices_S3x128_S1x128_0_0) : (⟨S3x128, .f32⟩ : BufTy).Contents (Elt F) → (⟨S1x128, .f32⟩ : BufTy).Contents (Elt F)),
    StableHlo.reshape main_v74 main_v75 rfl shapeCasts_S1x128_S128,
    StableHlo.nullary main_cst_20 (constant S_ .f32 0x00000000#32),
    StableHlo.binary main_v51 main_cst_20 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v76 main_v77 (broadcastInDim S100000x1 ![0] bcast_S100000_S100000x1_0 : (⟨S100000, .f32⟩ : BufTy).Contents (Elt F) → (⟨S100000x1, .f32⟩ : BufTy).Contents (Elt F)),
    StableHlo.nullary main_cst_21 (constant S_ .f32 0x43000000#32),
    StableHlo.unary main_cst_21 main_v78 (broadcastInDim S100000x1 ![] bcast_S_S100000x1 : (⟨S_, .f32⟩ : BufTy).Contents (Elt F) → (⟨S100000x1, .f32⟩ : BufTy).Contents (Elt F)),
    StableHlo.binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    StableHlo.nullary main_c_22 (constantI S_ 32 0#32),
    StableHlo.TRef.nullary main_call0.cst (constant S_ .f32 0x00000000#32),
    StableHlo.TRef.binary (.of main_v51) main_call0.cst main_call0.v0 (fun x v => Host.reduceAdd x v reducesTo_S100000x128_S100000_d1 h_S_),
    StableHlo.TRef.unary main_call0.v0 main_call0.v1 (broadcastInDim S100000x1 ![0] bcast_S100000_S100000x1_0),
    StableHlo.TRef.nullary main_call0.cst_0 (constant S_ .f32 0x43000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x128 ![0, 1] bcast_S100000x1_S100000x128_0_1),
    StableHlo.TRef.binary (.of main_v51) main_call0.v4 main_call0.v5 subf,
    StableHlo.TRef.binary main_call0.v5 main_call0.v5 main_call0.v6 mulf,
    StableHlo.TRef.unary (.of main_c_22) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v79 main_v81 (broadcastInDim S100000x128 ![0, 1] bcast_S100000x1_S100000x128_0_1 : (⟨S100000x1, .f32⟩ : BufTy).Contents (Elt F) → (⟨S100000x128, .f32⟩ : BufTy).Contents (Elt F)),
    StableHlo.binary main_v51 main_v81 main_v82 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v83 (broadcastInDim S100000x1 ![] bcast_S_S100000x1 : (⟨S_, .f32⟩ : BufTy).Contents (Elt F) → (⟨S100000x1, .f32⟩ : BufTy).Contents (Elt F)),
    StableHlo.binary main_v80 main_v83 main_v84 (addf : (⟨S100000x1, .f32⟩ : BufTy).Contents (Elt F) → (⟨S100000x1, .f32⟩ : BufTy).Contents (Elt F) → (⟨S100000x1, .f32⟩ : BufTy).Contents (Elt F)),
    StableHlo.unary main_v84 main_v85 (Host.rsqrt : (⟨S100000x1, .f32⟩ : BufTy).Contents (Elt F) → (⟨S100000x1, .f32⟩ : BufTy).Contents (Elt F)),
    StableHlo.unary main_v85 main_v86 (broadcastInDim S100000x128 ![0, 1] bcast_S100000x1_S100000x128_0_1 : (⟨S100000x1, .f32⟩ : BufTy).Contents (Elt F) → (⟨S100000x128, .f32⟩ : BufTy).Contents (Elt F)),
    StableHlo.binary main_v82 main_v86 main_v87 (mulf : (⟨S100000x128, .f32⟩ : BufTy).Contents (Elt F) → (⟨S100000x128, .f32⟩ : BufTy).Contents (Elt F) → (⟨S100000x128, .f32⟩ : BufTy).Contents (Elt F)),
    StableHlo.unary main_v73 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_v75 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v93) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v93) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v93) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v93) main_call1.v7 main_call1.call1.v0 select ]

/-- The buffers the stretch writes. -/
abbrev writtenLnN1 : List (Ref sig .tc) :=
  [ main_v72, main_v73, main_v74, main_v75, main_cst_20, main_v76, main_v77, main_cst_21, main_v78, main_v79, main_c_22, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.v12).ref, (main_call0.cst_3).ref, (main_call0.v13).ref, (main_call0.cst_4).ref, (main_call0.call0.v0).ref, (main_call0.call0.v1).ref, (main_call0.call0.v2).ref, main_v81, main_v82, main_cst_23, main_v83, main_v84, main_v85, main_v86, main_v87, main_v88, main_v89, main_v90, main_v91, main_v92, main_v93, (main_call1.cst).ref, (main_call1.v0).ref, (main_call1.v1).ref, (main_call1.cst_0).ref, (main_call1.v2).ref, (main_call1.v3).ref, (main_call1.cst_1).ref, (main_call1.call0.v0).ref, (main_call1.call0.v1).ref, (main_call1.call0.v2).ref, (main_call1.v5).ref, (main_call1.cst_2).ref, (main_call1.v6).ref, (main_call1.v7).ref, (main_call1.call1.v0).ref ]

theorem writesLnN1 : (stLnN1 : List (HloOp τ sig (Elt F))).Forall fun op => op.writes ⊆ (writtenLnN1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnN1 (V : Valuation τ sig (Elt F)) {r : Ref sig .tc} (h : r ∉ writtenLnN1) :
    after stLnN1 V (Proc.devRef .tc r) = V (Proc.devRef .tc r) := after_of_writes_sub stLnN1 V writesLnN1 h

/-- The stretch leaves the argument arrays as it found them. -/
theorem argsLnN1 (V : Valuation τ sig (Elt F)) : argsOf (after stLnN1 V) = argsOf V := by
  simp only [argsOf, keepLnN1 V (r := main_arg0) (by decide), keepLnN1 V (r := main_arg1) (by decide), keepLnN1 V (r := main_arg2) (by decide), keepLnN1 V (r := main_arg3) (by decide), keepLnN1 V (r := main_arg4) (by decide), keepLnN1 V (r := main_arg5) (by decide), keepLnN1 V (r := main_arg6) (by decide), keepLnN1 V (r := main_arg7) (by decide), keepLnN1 V (r := main_arg8) (by decide), keepLnN1 V (r := main_arg9) (by decide), keepLnN1 V (r := main_arg10) (by decide), keepLnN1 V (r := main_arg11) (by decide), keepLnN1 V (r := main_arg12) (by decide), keepLnN1 V (r := main_arg13) (by decide), keepLnN1 V (r := main_arg14) (by decide), keepLnN1 V (r := main_arg15) (by decide), keepLnN1 V (r := main_arg16) (by decide), keepLnN1 V (r := main_arg17) (by decide), keepLnN1 V (r := main_arg18) (by decide), keepLnN1 V (r := main_arg19) (by decide), keepLnN1 V (r := main_arg20) (by decide), keepLnN1 V (r := main_arg21) (by decide), keepLnN1 V (r := main_arg22) (by decide), keepLnN1 V (r := main_arg23) (by decide), keepLnN1 V (r := main_arg24) (by decide), keepLnN1 V (r := main_arg25) (by decide), keepLnN1 V (r := main_arg26) (by decide), keepLnN1 V (r := main_arg27) (by decide), keepLnN1 V (r := main_arg28) (by decide), keepLnN1 V (r := main_arg29) (by decide), keepLnN1 V (r := main_arg30) (by decide), keepLnN1 V (r := main_arg31) (by decide), keepLnN1 V (r := main_arg32) (by decide), keepLnN1 V (r := main_arg33) (by decide)]

attribute [local irreducible] Host.reduceAdd Host.gather Host.scatterAdd in
set_option maxRecDepth 16384 in
set_option maxHeartbeats 4000000 in
theorem outLnN1_v94 (V : Valuation τ sig (Elt F)) :
    after stLnN1 V (Proc.devRef .tc main_v94) = elu (normalize (V (Proc.devRef .tc main_v51)) (rowMean (V (Proc.devRef .tc main_v51))) (rowVar (V (Proc.devRef .tc main_v51))) (row (ln3_0 (argsOf V).a14)) (row (ln3_0 (argsOf V).a15))) := by
  simp only [after_cons, after_nil]
  rfl

end Cert.ReferenceIdeal.Stages

end
-- ==== Proof.RefStageLnL1.lean ====
/-
  The reference's host line, the stretch ending at v117: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnL1 : List (HloOp τ sig (Elt F)) :=
  [ StableHlo.unary main_arg16 main_v95 ((extractStridedSlice S1x128 ![0, 0] · slices_S3x128_S1x128_0_0) : (⟨S3x128, .f32⟩ : BufTy).Contents (Elt F) → (⟨S1x128, .f32⟩ : BufTy).Contents (Elt F)),
    StableHlo.reshape main_v95 main_v96 rfl shapeCasts_S1x128_S128,
    StableHlo.unary main_arg17 main_v97 ((extractStridedSlice S1x128 ![0, 0] · slices_S3x128_S1x128_0_0) : (⟨S3x128, .f32⟩ : BufTy).Contents (Elt F) → (⟨S1x128, .f32⟩ : BufTy).Contents (Elt F)),
    StableHlo.reshape main_v97 main_v98 rfl shapeCasts_S1x128_S128,
    StableHlo.nullary main_cst_24 (constant S_ .f32 0x00000000#32),
    StableHlo.binary main_v71 main_cst_24 main_v99 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.nullary main_cst_25 (constant S_ .f32 0x43000000#32),
    StableHlo.unary main_cst_25 main_v101 (broadcastInDim S100000x1 ![] bcast_S_S100000x1 : (⟨S_, .f32⟩ : BufTy).Contents (Elt F) → (⟨S100000x1, .f32⟩ : BufTy).Contents (Elt F)),
    StableHlo.binary main_v100 main_v101 main_v102 (Host.divf : (⟨S100000x1, .f32⟩ : BufTy).Contents (Elt F) → (⟨S100000x1, .f32⟩ : BufTy).Contents (Elt F) → (⟨S100000x1, .f32⟩ : BufTy).Contents (Elt F)),
    StableHlo.nullary main_c_26 (constantI S_ 32 0#32),
    StableHlo.TRef.nullary main_call2.cst (constant S_ .f32 0x00000000#32),
    StableHlo.TRef.binary (.of main_v71) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (.of main_v71) main_call2.v4 main_call2.v5 subf,
    StableHlo.TRef.binary main_call2.v5 main_call2.v5 main_call2.v6 mulf,
    StableHlo.TRef.unary (.of main_c_26) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v102 main_v104 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v104 main_v105 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v106 (broadcastInDim S100000x1 ![] bcast_S_S100000x1 : (⟨S_, .f32⟩ : BufTy).Contents (Elt F) → (⟨S100000x1, .f32⟩ : BufTy).Contents (Elt F)),
    StableHlo.binary main_v103 main_v106 main_v107 (addf : (⟨S100000x1, .f32⟩ : BufTy).Contents (Elt F) → (⟨S100000x1, .f32⟩ : BufTy).Contents (Elt F) → (⟨S100000x1, .f32⟩ : BufTy).Contents (Elt F)),
    StableHlo.unary main_v107 main_v108 (Host.rsqrt : (⟨S100000x1, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v105 main_v109 main_v110 (mulf : (⟨S100000x128, .f32⟩ : BufTy).Contents (Elt F) → (⟨S100000x128, .f32⟩ : BufTy).Contents (Elt F) → (⟨S100000x128, .f32⟩ : BufTy).Contents (Elt F)),
    StableHlo.unary main_v96 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v112 main_v113 (mulf : (⟨S100000x128, .f32⟩ : BufTy).Contents (Elt F) → (⟨S100000x128, .f32⟩ : BufTy).Contents (Elt F) → (⟨S100000x128, .f32⟩ : BufTy).Contents (Elt F)),
    StableHlo.unary main_v98 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v116) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v116) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v116) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v116) main_call3.v7 main_call3.call1.v0 select ]

/-- The buffers the stretch writes. -/
abbrev writtenLnL1 : List (Ref sig .tc) :=
  [ main_v95, main_v96, main_v97, main_v98, main_cst_24, main_v99, main_v100, main_cst_25, main_v101, main_v102, main_c_26, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.v12).ref, (main_call2.cst_3).ref, (main_call2.v13).ref, (main_call2.cst_4).ref, (main_call2.call0.v0).ref, (main_call2.call0.v1).ref, (main_call2.call0.v2).ref, main_v104, main_v105, main_cst_27, main_v106, main_v107, main_v108, main_v109, main_v110, main_v111, main_v112, main_v113, main_v114, main_v115, main_v116, (main_call3.cst).ref, (main_call3.v0).ref, (main_call3.v1).ref, (main_call3.cst_0).ref, (main_call3.v2).ref, (main_call3.v3).ref, (main_call3.cst_1).ref, (main_call3.call0.v0).ref, (main_call3.call0.v1).ref, (main_call3.call0.v2).ref, (main_call3.v5).ref, (main_call3.cst_2).ref, (main_call3.v6).ref, (main_call3.v7).ref, (main_call3.call1.v0).ref ]

theorem writesLnL1 : (stLnL1 : List (HloOp τ sig (Elt F))).Forall fun op => op.writes ⊆ (writtenLnL1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnL1 (V : Valuation τ sig (Elt F)) {r : Ref sig .tc} (h : r ∉ writtenLnL1) :
    after stLnL1 V (Proc.devRef .tc r) = V (Proc.devRef .tc r) := after_of_writes_sub stLnL1 V writesLnL1 h

/-- The stretch leaves the argument arrays as it found them. -/
theorem argsLnL1 (V : Valuation τ sig (Elt F)) : argsOf (after stLnL1 V) = argsOf V := by
  simp only [argsOf, keepLnL1 V (r := main_arg0) (by decide), keepLnL1 V (r := main_arg1) (by decide), keepLnL1 V (r := main_arg2) (by decide), keepLnL1 V (r := main_arg3) (by decide), keepLnL1 V (r := main_arg4) (by decide), keepLnL1 V (r := main_arg5) (by decide), keepLnL1 V (r := main_arg6) (by decide), keepLnL1 V (r := main_arg7) (by decide), keepLnL1 V (r := main_arg8) (by decide), keepLnL1 V (r := main_arg9) (by decide), keepLnL1 V (r := main_arg10) (by decide), keepLnL1 V (r := main_arg11) (by decide), keepLnL1 V (r := main_arg12) (by decide), keepLnL1 V (r := main_arg13) (by decide), keepLnL1 V (r := main_arg14) (by decide), keepLnL1 V (r := main_arg15) (by decide), keepLnL1 V (r := main_arg16) (by decide), keepLnL1 V (r := main_arg17) (by decide), keepLnL1 V (r := main_arg18) (by decide), keepLnL1 V (r := main_arg19) (by decide), keepLnL1 V (r := main_arg20) (by decide), keepLnL1 V (r := main_arg21) (by decide), keepLnL1 V (r := main_arg22) (by decide), keepLnL1 V (r := main_arg23) (by decide), keepLnL1 V (r := main_arg24) (by decide), keepLnL1 V (r := main_arg25) (by decide), keepLnL1 V (r := main_arg26) (by decide), keepLnL1 V (r := main_arg27) (by decide), keepLnL1 V (r := main_arg28) (by decide), keepLnL1 V (r := main_arg29) (by decide), keepLnL1 V (r := main_arg30) (by decide), keepLnL1 V (r := main_arg31) (by decide), keepLnL1 V (r := main_arg32) (by decide), keepLnL1 V (r := main_arg33) (by decide)]

attribute [local irreducible] Host.reduceAdd Host.gather Host.scatterAdd in
set_option maxRecDepth 16384 in
set_option maxHeartbeats 4000000 in
theorem outLnL1_v117 (V : Valuation τ sig (Elt F)) :
    after stLnL1 V (Proc.devRef .tc main_v117) = elu (normalize (V (Proc.devRef .tc main_v71)) (rowMean (V (Proc.devRef .tc main_v71))) (rowVar (V (Proc.devRef .tc main_v71))) (row (ln3_0 (argsOf V).a16)) (row (ln3_0 (argsOf V).a17))) := by
  simp only [after_cons, after_nil]
  rfl

end Cert.ReferenceIdeal.Stages

end
-- ==== Proof.RefStageMmN2.lean ====
/-
  The reference's host line, the stretch ending at v121, v123, v125, v129: its 12 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmN2 : List (HloOp τ sig (Elt F)) :=
  [ StableHlo.unary main_arg10 main_v118 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v118 main_v119 rfl shapeCasts_S1x128x128_S128x128,
    StableHlo.unary main_arg11 main_v120 ((extractStridedSlice S1x128 ![0, 0] · slices_S2x128_S1x128_0_0) : (⟨S2x128, .f32⟩ : BufTy).Contents (Elt F) → (⟨S1x128, .f32⟩ : BufTy).Contents (Elt F)),
    StableHlo.reshape main_v120 main_v121 rfl shapeCasts_S1x128_S128,
    StableHlo.unary main_arg12 main_v122 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v122 main_v123 rfl shapeCasts_S1x128x128_S128x128,
    StableHlo.unary main_arg13 main_v124 ((extractStridedSlice S1x128 ![0, 0] · slices_S2x128_S1x128_0_0) : (⟨S2x128, .f32⟩ : BufTy).Contents (Elt F) → (⟨S1x128, .f32⟩ : BufTy).Contents (Elt F)),
    StableHlo.reshape main_v124 main_v125 rfl shapeCasts_S1x128_S128,
    StableHlo.unary main_v7 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x128 ![0, 1] bcast_S100000x1_S100000x128_0_1 : (⟨S100000x1, .f32⟩ : BufTy).Contents (Elt F) → (⟨S100000x128, .f32⟩ : BufTy).Contents (Elt F)),
    StableHlo.binary main_v117 main_v127 main_v128 (mulf : (⟨S100000x128, .f32⟩ : BufTy).Contents (Elt F) → (⟨S100000x128, .f32⟩ : BufTy).Contents (Elt F) → (⟨S100000x128, .f32⟩ : BufTy).Contents (Elt F)),
    StableHlo.binary main_v128 main_v119 main_v129 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the stretch writes. -/
abbrev writtenMmN2 : List (Ref sig .tc) :=
  [ main_v118, main_v119, main_v120, main_v121, main_v122, main_v123, main_v124, main_v125, main_v126, main_v127, main_v128, main_v129 ]

theorem writesMmN2 : (stMmN2 : List (HloOp τ sig (Elt F))).Forall fun op => op.writes ⊆ (writtenMmN2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmN2 (V : Valuation τ sig (Elt F)) {r : Ref sig .tc} (h : r ∉ writtenMmN2) :
    after stMmN2 V (Proc.devRef .tc r) = V (Proc.devRef .tc r) := after_of_writes_sub stMmN2 V writesMmN2 h

/-- The stretch leaves the argument arrays as it found them. -/
theorem argsMmN2 (V : Valuation τ sig (Elt F)) : argsOf (after stMmN2 V) = argsOf V := by
  simp only [argsOf, keepMmN2 V (r := main_arg0) (by decide), keepMmN2 V (r := main_arg1) (by decide), keepMmN2 V (r := main_arg2) (by decide), keepMmN2 V (r := main_arg3) (by decide), keepMmN2 V (r := main_arg4) (by decide), keepMmN2 V (r := main_arg5) (by decide), keepMmN2 V (r := main_arg6) (by decide), keepMmN2 V (r := main_arg7) (by decide), keepMmN2 V (r := main_arg8) (by decide), keepMmN2 V (r := main_arg9) (by decide), keepMmN2 V (r := main_arg10) (by decide), keepMmN2 V (r := main_arg11) (by decide), keepMmN2 V (r := main_arg12) (by decide), keepMmN2 V (r := main_arg13) (by decide), keepMmN2 V (r := main_arg14) (by decide), keepMmN2 V (r := main_arg15) (by decide), keepMmN2 V (r := main_arg16) (by decide), keepMmN2 V (r := main_arg17) (by decide), keepMmN2 V (r := main_arg18) (by decide), keepMmN2 V (r := main_arg19) (by decide), keepMmN2 V (r := main_arg20) (by decide), keepMmN2 V (r := main_arg21) (by decide), keepMmN2 V (r := main_arg22) (by decide), keepMmN2 V (r := main_arg23) (by decide), keepMmN2 V (r := main_arg24) (by decide), keepMmN2 V (r := main_arg25) (by decide), keepMmN2 V (r := main_arg26) (by decide), keepMmN2 V (r := main_arg27) (by decide), keepMmN2 V (r := main_arg28) (by decide), keepMmN2 V (r := main_arg29) (by decide), keepMmN2 V (r := main_arg30) (by decide), keepMmN2 V (r := main_arg31) (by decide), keepMmN2 V (r := main_arg32) (by decide), keepMmN2 V (r := main_arg33) (by decide)]

attribute [local irreducible] Host.reduceAdd Host.gather Host.scatterAdd in
set_option maxRecDepth 16384 in
set_option maxHeartbeats 4000000 in
theorem outMmN2_v121 (V : Valuation τ sig (Elt F)) :
    after stMmN2 V (Proc.devRef .tc main_v121) = b2_0 (argsOf V).a11 := by
  simp only [after_cons, after_nil]
  rfl

attribute [local irreducible] Host.reduceAdd Host.gather Host.scatterAdd in
set_option maxRecDepth 16384 in
set_option maxHeartbeats 4000000 in
theorem outMmN2_v123 (V : Valuation τ sig (Elt F)) :
    after stMmN2 V (Proc.devRef .tc main_v123) = w2_0 (argsOf V).a12 := by
  simp only [after_cons, after_nil]
  rfl

attribute [local irreducible] Host.reduceAdd Host.gather Host.scatterAdd in
set_option maxRecDepth 16384 in
set_option maxHeartbeats 4000000 in
theorem outMmN2_v125 (V : Valuation τ sig (Elt F)) :
    after stMmN2 V (Proc.devRef .tc main_v125) = b2_0 (argsOf V).a13 := by
  simp only [after_cons, after_nil]
  rfl

attribute [local irreducible] Host.reduceAdd Host.gather Host.scatterAdd in
set_option maxRecDepth 16384 in
set_option maxHeartbeats 4000000 in
theorem outMmN2_v129 (V : Valuation τ sig (Elt F)) :
    after stMmN2 V (Proc.devRef .tc main_v129) = scaleMatmul128 (V (Proc.devRef .tc main_v117)) (col (V (Proc.devRef .tc main_v7))) (w2_0 (argsOf V).a10) := by
  simp only [after_cons, after_nil]
  rfl

end Cert.ReferenceIdeal.Stages

end
-- ==== Proof.RefStageAggN2.lean ====
/-
  The reference's host line, the stretch ending at v139: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggN2 : List (HloOp τ sig (Elt F)) :=
  [ StableHlo.nullary main_c_28 (constantI S_ 32 0#32),
    StableHlo.unary main_c_28 main_v130 (broadcastInDim S1600000 ![] bcast_S_S1600000 : (⟨S_, .i32⟩ : BufTy).Contents (Elt F) → (⟨S1600000, .i32⟩ : BufTy).Contents (Elt F)),
    StableHlo.binary main_arg2 main_v130 main_v131 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v132 (broadcastInDim S1600000 ![] bcast_S_S1600000 : (⟨S_, .i32⟩ : BufTy).Contents (Elt F) → (⟨S1600000, .i32⟩ : BufTy).Contents (Elt F)),
    StableHlo.binary main_arg2 main_v132 main_v133 (addi : (⟨S1600000, .i32⟩ : BufTy).Contents (Elt F) → (⟨S1600000, .i32⟩ : BufTy).Contents (Elt F) → (⟨S1600000, .i32⟩ : BufTy).Contents (Elt F)),
    StableHlo.ternary main_v131 main_v133 main_arg2 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v134 main_v135 (broadcastInDim S1600000x1 ![0] bcast_S1600000_S1600000x1_0 : (⟨S1600000, .i32⟩ : BufTy).Contents (Elt F) → (⟨S1600000x1, .i32⟩ : BufTy).Contents (Elt F)),
    StableHlo.binary main_v129 main_v135 main_v136 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_30 (constant S_ .f32 0x00000000#32),
    StableHlo.unary main_cst_30 main_v137 (broadcastInDim S100000x128 ![] bcast_S_S100000x128 : (⟨S_, .f32⟩ : BufTy).Contents (Elt F) → (⟨S100000x128, .f32⟩ : BufTy).Contents (Elt F)),
    StableHlo.unary main_arg3 main_v138 (broadcastInDim S1600000x1 ![0] bcast_S1600000_S1600000x1_0 : (⟨S1600000, .i32⟩ : BufTy).Contents (Elt F) → (⟨S1600000x1, .i32⟩ : BufTy).Contents (Elt F)),
    StableHlo.ternary main_v137 main_v138 main_v136 main_v139 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggN2 : List (Ref sig .tc) :=
  [ main_c_28, main_v130, main_v131, main_c_29, main_v132, main_v133, main_v134, main_v135, main_v136, main_cst_30, main_v137, main_v138, main_v139 ]

theorem writesAggN2 : (stAggN2 : List (HloOp τ sig (Elt F))).Forall fun op => op.writes ⊆ (writtenAggN2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggN2 (V : Valuation τ sig (Elt F)) {r : Ref sig .tc} (h : r ∉ writtenAggN2) :
    after stAggN2 V (Proc.devRef .tc r) = V (Proc.devRef .tc r) := after_of_writes_sub stAggN2 V writesAggN2 h

/-- The stretch leaves the argument arrays as it found them. -/
theorem argsAggN2 (V : Valuation τ sig (Elt F)) : argsOf (after stAggN2 V) = argsOf V := by
  simp only [argsOf, keepAggN2 V (r := main_arg0) (by decide), keepAggN2 V (r := main_arg1) (by decide), keepAggN2 V (r := main_arg2) (by decide), keepAggN2 V (r := main_arg3) (by decide), keepAggN2 V (r := main_arg4) (by decide), keepAggN2 V (r := main_arg5) (by decide), keepAggN2 V (r := main_arg6) (by decide), keepAggN2 V (r := main_arg7) (by decide), keepAggN2 V (r := main_arg8) (by decide), keepAggN2 V (r := main_arg9) (by decide), keepAggN2 V (r := main_arg10) (by decide), keepAggN2 V (r := main_arg11) (by decide), keepAggN2 V (r := main_arg12) (by decide), keepAggN2 V (r := main_arg13) (by decide), keepAggN2 V (r := main_arg14) (by decide), keepAggN2 V (r := main_arg15) (by decide), keepAggN2 V (r := main_arg16) (by decide), keepAggN2 V (r := main_arg17) (by decide), keepAggN2 V (r := main_arg18) (by decide), keepAggN2 V (r := main_arg19) (by decide), keepAggN2 V (r := main_arg20) (by decide), keepAggN2 V (r := main_arg21) (by decide), keepAggN2 V (r := main_arg22) (by decide), keepAggN2 V (r := main_arg23) (by decide), keepAggN2 V (r := main_arg24) (by decide), keepAggN2 V (r := main_arg25) (by decide), keepAggN2 V (r := main_arg26) (by decide), keepAggN2 V (r := main_arg27) (by decide), keepAggN2 V (r := main_arg28) (by decide), keepAggN2 V (r := main_arg29) (by decide), keepAggN2 V (r := main_arg30) (by decide), keepAggN2 V (r := main_arg31) (by decide), keepAggN2 V (r := main_arg32) (by decide), keepAggN2 V (r := main_arg33) (by decide)]

attribute [local irreducible] Host.reduceAdd Host.gather Host.scatterAdd in
set_option maxRecDepth 16384 in
set_option maxHeartbeats 4000000 in
theorem outAggN2_v139 (V : Valuation τ sig (Elt F)) :
    after stAggN2 V (Proc.devRef .tc main_v139) = aggregate (V (Proc.devRef .tc main_v129)) (argsOf V).a2 (argsOf V).a3 := by
  simp only [after_cons, after_nil]
  rfl

end Cert.ReferenceIdeal.Stages

end
-- ==== Proof.RefStageSbN2.lean ====
/-
  The reference's host line, the stretch ending at v145: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbN2 : List (HloOp τ sig (Elt F)) :=
  [ StableHlo.unary main_v15 main_v140 (broadcastInDim S100000x1 ![0] bcast_S100000_S100000x1_0 : (⟨S100000, .f32⟩ : BufTy).Contents (Elt F) → (⟨S100000x1, .f32⟩ : BufTy).Contents (Elt F)),
    StableHlo.unary main_v140 main_v141 (broadcastInDim S100000x128 ![0, 1] bcast_S100000x1_S100000x128_0_1 : (⟨S100000x1, .f32⟩ : BufTy).Contents (Elt F) → (⟨S100000x128, .f32⟩ : BufTy).Contents (Elt F)),
    StableHlo.binary main_v139 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v121 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbN2 : List (Ref sig .tc) :=
  [ main_v140, main_v141, main_v142, main_v143, main_v144, main_v145 ]

theorem writesSbN2 : (stSbN2 : List (HloOp τ sig (Elt F))).Forall fun op => op.writes ⊆ (writtenSbN2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbN2 (V : Valuation τ sig (Elt F)) {r : Ref sig .tc} (h : r ∉ writtenSbN2) :
    after stSbN2 V (Proc.devRef .tc r) = V (Proc.devRef .tc r) := after_of_writes_sub stSbN2 V writesSbN2 h

/-- The stretch leaves the argument arrays as it found them. -/
theorem argsSbN2 (V : Valuation τ sig (Elt F)) : argsOf (after stSbN2 V) = argsOf V := by
  simp only [argsOf, keepSbN2 V (r := main_arg0) (by decide), keepSbN2 V (r := main_arg1) (by decide), keepSbN2 V (r := main_arg2) (by decide), keepSbN2 V (r := main_arg3) (by decide), keepSbN2 V (r := main_arg4) (by decide), keepSbN2 V (r := main_arg5) (by decide), keepSbN2 V (r := main_arg6) (by decide), keepSbN2 V (r := main_arg7) (by decide), keepSbN2 V (r := main_arg8) (by decide), keepSbN2 V (r := main_arg9) (by decide), keepSbN2 V (r := main_arg10) (by decide), keepSbN2 V (r := main_arg11) (by decide), keepSbN2 V (r := main_arg12) (by decide), keepSbN2 V (r := main_arg13) (by decide), keepSbN2 V (r := main_arg14) (by decide), keepSbN2 V (r := main_arg15) (by decide), keepSbN2 V (r := main_arg16) (by decide), keepSbN2 V (r := main_arg17) (by decide), keepSbN2 V (r := main_arg18) (by decide), keepSbN2 V (r := main_arg19) (by decide), keepSbN2 V (r := main_arg20) (by decide), keepSbN2 V (r := main_arg21) (by decide), keepSbN2 V (r := main_arg22) (by decide), keepSbN2 V (r := main_arg23) (by decide), keepSbN2 V (r := main_arg24) (by decide), keepSbN2 V (r := main_arg25) (by decide), keepSbN2 V (r := main_arg26) (by decide), keepSbN2 V (r := main_arg27) (by decide), keepSbN2 V (r := main_arg28) (by decide), keepSbN2 V (r := main_arg29) (by decide), keepSbN2 V (r := main_arg30) (by decide), keepSbN2 V (r := main_arg31) (by decide), keepSbN2 V (r := main_arg32) (by decide), keepSbN2 V (r := main_arg33) (by decide)]

attribute [local irreducible] Host.reduceAdd Host.gather Host.scatterAdd in
set_option maxRecDepth 16384 in
set_option maxHeartbeats 4000000 in
theorem outSbN2_v145 (V : Valuation τ sig (Elt F)) :
    after stSbN2 V (Proc.devRef .tc main_v145) = scaleBias (V (Proc.devRef .tc main_v139)) (col (V (Proc.devRef .tc main_v15))) (row (V (Proc.devRef .tc main_v121))) := by
  simp only [after_cons, after_nil]
  rfl

end Cert.ReferenceIdeal.Stages

end
-- ==== Proof.RefStageMmL2.lean ====
/-
  The reference's host line, the stretch ending at v149: its 4 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmL2 : List (HloOp τ sig (Elt F)) :=
  [ StableHlo.unary main_v23 main_v146 (broadcastInDim S100000x1 ![0] bcast_S100000_S100000x1_0 : (⟨S100000, .f32⟩ : BufTy).Contents (Elt F) → (⟨S100000x1, .f32⟩ : BufTy).Contents (Elt F)),
    StableHlo.unary main_v146 main_v147 (broadcastInDim S100000x128 ![0, 1] bcast_S100000x1_S100000x128_0_1 : (⟨S100000x1, .f32⟩ : BufTy).Contents (Elt F) → (⟨S100000x128, .f32⟩ : BufTy).Contents (Elt F)),
    StableHlo.binary main_v94 main_v147 main_v148 (mulf : (⟨S100000x128, .f32⟩ : BufTy).Contents (Elt F) → (⟨S100000x128, .f32⟩ : BufTy).Contents (Elt F) → (⟨S100000x128, .f32⟩ : BufTy).Contents (Elt F)),
    StableHlo.binary main_v148 main_v123 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the stretch writes. -/
abbrev writtenMmL2 : List (Ref sig .tc) :=
  [ main_v146, main_v147, main_v148, main_v149 ]

theorem writesMmL2 : (stMmL2 : List (HloOp τ sig (Elt F))).Forall fun op => op.writes ⊆ (writtenMmL2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmL2 (V : Valuation τ sig (Elt F)) {r : Ref sig .tc} (h : r ∉ writtenMmL2) :
    after stMmL2 V (Proc.devRef .tc r) = V (Proc.devRef .tc r) := after_of_writes_sub stMmL2 V writesMmL2 h

/-- The stretch leaves the argument arrays as it found them. -/
theorem argsMmL2 (V : Valuation τ sig (Elt F)) : argsOf (after stMmL2 V) = argsOf V := by
  simp only [argsOf, keepMmL2 V (r := main_arg0) (by decide), keepMmL2 V (r := main_arg1) (by decide), keepMmL2 V (r := main_arg2) (by decide), keepMmL2 V (r := main_arg3) (by decide), keepMmL2 V (r := main_arg4) (by decide), keepMmL2 V (r := main_arg5) (by decide), keepMmL2 V (r := main_arg6) (by decide), keepMmL2 V (r := main_arg7) (by decide), keepMmL2 V (r := main_arg8) (by decide), keepMmL2 V (r := main_arg9) (by decide), keepMmL2 V (r := main_arg10) (by decide), keepMmL2 V (r := main_arg11) (by decide), keepMmL2 V (r := main_arg12) (by decide), keepMmL2 V (r := main_arg13) (by decide), keepMmL2 V (r := main_arg14) (by decide), keepMmL2 V (r := main_arg15) (by decide), keepMmL2 V (r := main_arg16) (by decide), keepMmL2 V (r := main_arg17) (by decide), keepMmL2 V (r := main_arg18) (by decide), keepMmL2 V (r := main_arg19) (by decide), keepMmL2 V (r := main_arg20) (by decide), keepMmL2 V (r := main_arg21) (by decide), keepMmL2 V (r := main_arg22) (by decide), keepMmL2 V (r := main_arg23) (by decide), keepMmL2 V (r := main_arg24) (by decide), keepMmL2 V (r := main_arg25) (by decide), keepMmL2 V (r := main_arg26) (by decide), keepMmL2 V (r := main_arg27) (by decide), keepMmL2 V (r := main_arg28) (by decide), keepMmL2 V (r := main_arg29) (by decide), keepMmL2 V (r := main_arg30) (by decide), keepMmL2 V (r := main_arg31) (by decide), keepMmL2 V (r := main_arg32) (by decide), keepMmL2 V (r := main_arg33) (by decide)]

attribute [local irreducible] Host.reduceAdd Host.gather Host.scatterAdd in
set_option maxRecDepth 16384 in
set_option maxHeartbeats 4000000 in
theorem outMmL2_v149 (V : Valuation τ sig (Elt F)) :
    after stMmL2 V (Proc.devRef .tc main_v149) = scaleMatmul128 (V (Proc.devRef .tc main_v94)) (col (V (Proc.devRef .tc main_v23))) (V (Proc.devRef .tc main_v123)) := by
  simp only [after_cons, after_nil]
  rfl

end Cert.ReferenceIdeal.Stages

end
-- ==== Proof.RefStageAggL2.lean ====
/-
  The reference's host line, the stretch ending at v159: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggL2 : List (HloOp τ sig (Elt F)) :=
  [ StableHlo.nullary main_c_31 (constantI S_ 32 0#32),
    StableHlo.unary main_c_31 main_v150 (broadcastInDim S1600000 ![] bcast_S_S1600000 : (⟨S_, .i32⟩ : BufTy).Contents (Elt F) → (⟨S1600000, .i32⟩ : BufTy).Contents (Elt F)),
    StableHlo.binary main_arg4 main_v150 main_v151 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v152 (broadcastInDim S1600000 ![] bcast_S_S1600000 : (⟨S_, .i32⟩ : BufTy).Contents (Elt F) → (⟨S1600000, .i32⟩ : BufTy).Contents (Elt F)),
    StableHlo.binary main_arg4 main_v152 main_v153 (addi : (⟨S1600000, .i32⟩ : BufTy).Contents (Elt F) → (⟨S1600000, .i32⟩ : BufTy).Contents (Elt F) → (⟨S1600000, .i32⟩ : BufTy).Contents (Elt F)),
    StableHlo.ternary main_v151 main_v153 main_arg4 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v154 main_v155 (broadcastInDim S1600000x1 ![0] bcast_S1600000_S1600000x1_0 : (⟨S1600000, .i32⟩ : BufTy).Contents (Elt F) → (⟨S1600000x1, .i32⟩ : BufTy).Contents (Elt F)),
    StableHlo.binary main_v149 main_v155 main_v156 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_33 (constant S_ .f32 0x00000000#32),
    StableHlo.unary main_cst_33 main_v157 (broadcastInDim S100000x128 ![] bcast_S_S100000x128 : (⟨S_, .f32⟩ : BufTy).Contents (Elt F) → (⟨S100000x128, .f32⟩ : BufTy).Contents (Elt F)),
    StableHlo.unary main_arg5 main_v158 (broadcastInDim S1600000x1 ![0] bcast_S1600000_S1600000x1_0 : (⟨S1600000, .i32⟩ : BufTy).Contents (Elt F) → (⟨S1600000x1, .i32⟩ : BufTy).Contents (Elt F)),
    StableHlo.ternary main_v157 main_v158 main_v156 main_v159 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggL2 : List (Ref sig .tc) :=
  [ main_c_31, main_v150, main_v151, main_c_32, main_v152, main_v153, main_v154, main_v155, main_v156, main_cst_33, main_v157, main_v158, main_v159 ]

theorem writesAggL2 : (stAggL2 : List (HloOp τ sig (Elt F))).Forall fun op => op.writes ⊆ (writtenAggL2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggL2 (V : Valuation τ sig (Elt F)) {r : Ref sig .tc} (h : r ∉ writtenAggL2) :
    after stAggL2 V (Proc.devRef .tc r) = V (Proc.devRef .tc r) := after_of_writes_sub stAggL2 V writesAggL2 h

/-- The stretch leaves the argument arrays as it found them. -/
theorem argsAggL2 (V : Valuation τ sig (Elt F)) : argsOf (after stAggL2 V) = argsOf V := by
  simp only [argsOf, keepAggL2 V (r := main_arg0) (by decide), keepAggL2 V (r := main_arg1) (by decide), keepAggL2 V (r := main_arg2) (by decide), keepAggL2 V (r := main_arg3) (by decide), keepAggL2 V (r := main_arg4) (by decide), keepAggL2 V (r := main_arg5) (by decide), keepAggL2 V (r := main_arg6) (by decide), keepAggL2 V (r := main_arg7) (by decide), keepAggL2 V (r := main_arg8) (by decide), keepAggL2 V (r := main_arg9) (by decide), keepAggL2 V (r := main_arg10) (by decide), keepAggL2 V (r := main_arg11) (by decide), keepAggL2 V (r := main_arg12) (by decide), keepAggL2 V (r := main_arg13) (by decide), keepAggL2 V (r := main_arg14) (by decide), keepAggL2 V (r := main_arg15) (by decide), keepAggL2 V (r := main_arg16) (by decide), keepAggL2 V (r := main_arg17) (by decide), keepAggL2 V (r := main_arg18) (by decide), keepAggL2 V (r := main_arg19) (by decide), keepAggL2 V (r := main_arg20) (by decide), keepAggL2 V (r := main_arg21) (by decide), keepAggL2 V (r := main_arg22) (by decide), keepAggL2 V (r := main_arg23) (by decide), keepAggL2 V (r := main_arg24) (by decide), keepAggL2 V (r := main_arg25) (by decide), keepAggL2 V (r := main_arg26) (by decide), keepAggL2 V (r := main_arg27) (by decide), keepAggL2 V (r := main_arg28) (by decide), keepAggL2 V (r := main_arg29) (by decide), keepAggL2 V (r := main_arg30) (by decide), keepAggL2 V (r := main_arg31) (by decide), keepAggL2 V (r := main_arg32) (by decide), keepAggL2 V (r := main_arg33) (by decide)]

attribute [local irreducible] Host.reduceAdd Host.gather Host.scatterAdd in
set_option maxRecDepth 16384 in
set_option maxHeartbeats 4000000 in
theorem outAggL2_v159 (V : Valuation τ sig (Elt F)) :
    after stAggL2 V (Proc.devRef .tc main_v159) = aggregate (V (Proc.devRef .tc main_v149)) (argsOf V).a4 (argsOf V).a5 := by
  simp only [after_cons, after_nil]
  rfl

end Cert.ReferenceIdeal.Stages

end
-- ==== Proof.RefStageSbL2.lean ====
/-
  The reference's host line, the stretch ending at v165: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbL2 : List (HloOp τ sig (Elt F)) :=
  [ StableHlo.unary main_v31 main_v160 (broadcastInDim S100000x1 ![0] bcast_S100000_S100000x1_0 : (⟨S100000, .f32⟩ : BufTy).Contents (Elt F) → (⟨S100000x1, .f32⟩ : BufTy).Contents (Elt F)),
    StableHlo.unary main_v160 main_v161 (broadcastInDim S100000x128 ![0, 1] bcast_S100000x1_S100000x128_0_1 : (⟨S100000x1, .f32⟩ : BufTy).Contents (Elt F) → (⟨S100000x128, .f32⟩ : BufTy).Contents (Elt F)),
    StableHlo.binary main_v159 main_v161 main_v162 (mulf : (⟨S100000x128, .f32⟩ : BufTy).Contents (Elt F) → (⟨S100000x128, .f32⟩ : BufTy).Contents (Elt F) → (⟨S100000x128, .f32⟩ : BufTy).Contents (Elt F)),
    StableHlo.unary main_v125 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v164 main_v165 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbL2 : List (Ref sig .tc) :=
  [ main_v160, main_v161, main_v162, main_v163, main_v164, main_v165 ]

theorem writesSbL2 : (stSbL2 : List (HloOp τ sig (Elt F))).Forall fun op => op.writes ⊆ (writtenSbL2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbL2 (V : Valuation τ sig (Elt F)) {r : Ref sig .tc} (h : r ∉ writtenSbL2) :
    after stSbL2 V (Proc.devRef .tc r) = V (Proc.devRef .tc r) := after_of_writes_sub stSbL2 V writesSbL2 h

/-- The stretch leaves the argument arrays as it found them. -/
theorem argsSbL2 (V : Valuation τ sig (Elt F)) : argsOf (after stSbL2 V) = argsOf V := by
  simp only [argsOf, keepSbL2 V (r := main_arg0) (by decide), keepSbL2 V (r := main_arg1) (by decide), keepSbL2 V (r := main_arg2) (by decide), keepSbL2 V (r := main_arg3) (by decide), keepSbL2 V (r := main_arg4) (by decide), keepSbL2 V (r := main_arg5) (by decide), keepSbL2 V (r := main_arg6) (by decide), keepSbL2 V (r := main_arg7) (by decide), keepSbL2 V (r := main_arg8) (by decide), keepSbL2 V (r := main_arg9) (by decide), keepSbL2 V (r := main_arg10) (by decide), keepSbL2 V (r := main_arg11) (by decide), keepSbL2 V (r := main_arg12) (by decide), keepSbL2 V (r := main_arg13) (by decide), keepSbL2 V (r := main_arg14) (by decide), keepSbL2 V (r := main_arg15) (by decide), keepSbL2 V (r := main_arg16) (by decide), keepSbL2 V (r := main_arg17) (by decide), keepSbL2 V (r := main_arg18) (by decide), keepSbL2 V (r := main_arg19) (by decide), keepSbL2 V (r := main_arg20) (by decide), keepSbL2 V (r := main_arg21) (by decide), keepSbL2 V (r := main_arg22) (by decide), keepSbL2 V (r := main_arg23) (by decide), keepSbL2 V (r := main_arg24) (by decide), keepSbL2 V (r := main_arg25) (by decide), keepSbL2 V (r := main_arg26) (by decide), keepSbL2 V (r := main_arg27) (by decide), keepSbL2 V (r := main_arg28) (by decide), keepSbL2 V (r := main_arg29) (by decide), keepSbL2 V (r := main_arg30) (by decide), keepSbL2 V (r := main_arg31) (by decide), keepSbL2 V (r := main_arg32) (by decide), keepSbL2 V (r := main_arg33) (by decide)]

attribute [local irreducible] Host.reduceAdd Host.gather Host.scatterAdd in
set_option maxRecDepth 16384 in
set_option maxHeartbeats 4000000 in
theorem outSbL2_v165 (V : Valuation τ sig (Elt F)) :
    after stSbL2 V (Proc.devRef .tc main_v165) = scaleBias (V (Proc.devRef .tc main_v159)) (col (V (Proc.devRef .tc main_v31))) (row (V (Proc.devRef .tc main_v125))) := by
  simp only [after_cons, after_nil]
  rfl

end Cert.ReferenceIdeal.Stages

end
-- ==== Proof.RefStageLnN2.lean ====
/-
  The reference's host line, the stretch ending at v188: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnN2 : List (HloOp τ sig (Elt F)) :=
  [ StableHlo.unary main_arg14 main_v166 ((extractStridedSlice S1x128 ![1, 0] · slices_S3x128_S1x128_1_0) : (⟨S3x128, .f32⟩ : BufTy).Contents (Elt F) → (⟨S1x128, .f32⟩ : BufTy).Contents (Elt F)),
    StableHlo.reshape main_v166 main_v167 rfl shapeCasts_S1x128_S128,
    StableHlo.unary main_arg15 main_v168 ((extractStridedSlice S1x128 ![1, 0] · slices_S3x128_S1x128_1_0) : (⟨S3x128, .f32⟩ : BufTy).Contents (Elt F) → (⟨S1x128, .f32⟩ : BufTy).Contents (Elt F)),
    StableHlo.reshape main_v168 main_v169 rfl shapeCasts_S1x128_S128,
    StableHlo.nullary main_cst_34 (constant S_ .f32 0x00000000#32),
    StableHlo.binary main_v145 main_cst_34 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v170 main_v171 (broadcastInDim S100000x1 ![0] bcast_S100000_S100000x1_0 : (⟨S100000, .f32⟩ : BufTy).Contents (Elt F) → (⟨S100000x1, .f32⟩ : BufTy).Contents (Elt F)),
    StableHlo.nullary main_cst_35 (constant S_ .f32 0x43000000#32),
    StableHlo.unary main_cst_35 main_v172 (broadcastInDim S100000x1 ![] bcast_S_S100000x1 : (⟨S_, .f32⟩ : BufTy).Contents (Elt F) → (⟨S100000x1, .f32⟩ : BufTy).Contents (Elt F)),
    StableHlo.binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    StableHlo.nullary main_c_36 (constantI S_ 32 0#32),
    StableHlo.TRef.nullary main_call4.cst (constant S_ .f32 0x00000000#32),
    StableHlo.TRef.binary (.of main_v145) main_call4.cst main_call4.v0 (fun x v => Host.reduceAdd x v reducesTo_S100000x128_S100000_d1 h_S_),
    StableHlo.TRef.unary main_call4.v0 main_call4.v1 (broadcastInDim S100000x1 ![0] bcast_S100000_S100000x1_0),
    StableHlo.TRef.nullary main_call4.cst_0 (constant S_ .f32 0x43000000#32),
    StableHlo.TRef.unary main_call4.cst_0 main_call4.v2 (broadcastInDim S100000x1 ![] bcast_S_S100000x1),
    StableHlo.TRef.binary main_call4.v1 main_call4.v2 main_call4.v3 Host.divf,
    StableHlo.TRef.unary main_call4.v3 main_call4.v4 (broadcastInDim S100000x128 ![0, 1] bcast_S100000x1_S100000x128_0_1),
    StableHlo.TRef.binary (.of main_v145) main_call4.v4 main_call4.v5 subf,
    StableHlo.TRef.binary main_call4.v5 main_call4.v5 main_call4.v6 mulf,
    StableHlo.TRef.unary (.of main_c_36) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S100000_d1 h_S_),
    StableHlo.TRef.unary main_call4.v9 main_call4.v10 (broadcastInDim S100000x1 ![0] bcast_S100000_S100000x1_0),
    StableHlo.TRef.unary main_call4.v8 main_call4.v11 (broadcastInDim S100000x1 ![] bcast_S_S100000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S100000x1 ![] bcast_S_S100000x1),
    StableHlo.TRef.ternary main_call4.v13 main_call4.v12 main_call4.call0.v1 main_call4.call0.v2 (fun p a b => select (broadcastInDim S100000x1 ![] bcast_S_S100000x1 p) a b),
    StableHlo.unary main_v173 main_v175 (broadcastInDim S100000x128 ![0, 1] bcast_S100000x1_S100000x128_0_1 : (⟨S100000x1, .f32⟩ : BufTy).Contents (Elt F) → (⟨S100000x128, .f32⟩ : BufTy).Contents (Elt F)),
    StableHlo.binary main_v145 main_v175 main_v176 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v177 (broadcastInDim S100000x1 ![] bcast_S_S100000x1 : (⟨S_, .f32⟩ : BufTy).Contents (Elt F) → (⟨S100000x1, .f32⟩ : BufTy).Contents (Elt F)),
    StableHlo.binary main_v174 main_v177 main_v178 (addf : (⟨S100000x1, .f32⟩ : BufTy).Contents (Elt F) → (⟨S100000x1, .f32⟩ : BufTy).Contents (Elt F) → (⟨S100000x1, .f32⟩ : BufTy).Contents (Elt F)),
    StableHlo.unary main_v178 main_v179 (Host.rsqrt : (⟨S100000x1, .f32⟩ : BufTy).Contents (Elt F) → (⟨S100000x1, .f32⟩ : BufTy).Contents (Elt F)),
    StableHlo.unary main_v179 main_v180 (broadcastInDim S100000x128 ![0, 1] bcast_S100000x1_S100000x128_0_1 : (⟨S100000x1, .f32⟩ : BufTy).Contents (Elt F) → (⟨S100000x128, .f32⟩ : BufTy).Contents (Elt F)),
    StableHlo.binary main_v176 main_v180 main_v181 (mulf : (⟨S100000x128, .f32⟩ : BufTy).Contents (Elt F) → (⟨S100000x128, .f32⟩ : BufTy).Contents (Elt F) → (⟨S100000x128, .f32⟩ : BufTy).Contents (Elt F)),
    StableHlo.unary main_v167 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v181 main_v183 main_v184 (mulf : (⟨S100000x128, .f32⟩ : BufTy).Contents (Elt F) → (⟨S100000x128, .f32⟩ : BufTy).Contents (Elt F) → (⟨S100000x128, .f32⟩ : BufTy).Contents (Elt F)),
    StableHlo.unary main_v169 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v186 main_v187 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v187) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v187) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v187) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v187) main_call5.v7 main_call5.call1.v0 select ]

/-- The buffers the stretch writes. -/
abbrev writtenLnN2 : List (Ref sig .tc) :=
  [ main_v166, main_v167, main_v168, main_v169, main_cst_34, main_v170, main_v171, main_cst_35, main_v172, main_v173, main_c_36, (main_call4.cst).ref, (main_call4.v0).ref, (main_call4.v1).ref, (main_call4.cst_0).ref, (main_call4.v2).ref, (main_call4.v3).ref, (main_call4.v4).ref, (main_call4.v5).ref, (main_call4.v6).ref, (main_call4.v7).ref, (main_call4.cst_1).ref, (main_call4.v8).ref, (main_call4.cst_2).ref, (main_call4.v9).ref, (main_call4.v10).ref, (main_call4.v11).ref, (main_call4.v12).ref, (main_call4.cst_3).ref, (main_call4.v13).ref, (main_call4.cst_4).ref, (main_call4.call0.v0).ref, (main_call4.call0.v1).ref, (main_call4.call0.v2).ref, main_v175, main_v176, main_cst_37, main_v177, main_v178, main_v179, main_v180, main_v181, main_v182, main_v183, main_v184, main_v185, main_v186, main_v187, (main_call5.cst).ref, (main_call5.v0).ref, (main_call5.v1).ref, (main_call5.cst_0).ref, (main_call5.v2).ref, (main_call5.v3).ref, (main_call5.cst_1).ref, (main_call5.call0.v0).ref, (main_call5.call0.v1).ref, (main_call5.call0.v2).ref, (main_call5.v5).ref, (main_call5.cst_2).ref, (main_call5.v6).ref, (main_call5.v7).ref, (main_call5.call1.v0).ref ]

theorem writesLnN2 : (stLnN2 : List (HloOp τ sig (Elt F))).Forall fun op => op.writes ⊆ (writtenLnN2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnN2 (V : Valuation τ sig (Elt F)) {r : Ref sig .tc} (h : r ∉ writtenLnN2) :
    after stLnN2 V (Proc.devRef .tc r) = V (Proc.devRef .tc r) := after_of_writes_sub stLnN2 V writesLnN2 h

/-- The stretch leaves the argument arrays as it found them. -/
theorem argsLnN2 (V : Valuation τ sig (Elt F)) : argsOf (after stLnN2 V) = argsOf V := by
  simp only [argsOf, keepLnN2 V (r := main_arg0) (by decide), keepLnN2 V (r := main_arg1) (by decide), keepLnN2 V (r := main_arg2) (by decide), keepLnN2 V (r := main_arg3) (by decide), keepLnN2 V (r := main_arg4) (by decide), keepLnN2 V (r := main_arg5) (by decide), keepLnN2 V (r := main_arg6) (by decide), keepLnN2 V (r := main_arg7) (by decide), keepLnN2 V (r := main_arg8) (by decide), keepLnN2 V (r := main_arg9) (by decide), keepLnN2 V (r := main_arg10) (by decide), keepLnN2 V (r := main_arg11) (by decide), keepLnN2 V (r := main_arg12) (by decide), keepLnN2 V (r := main_arg13) (by decide), keepLnN2 V (r := main_arg14) (by decide), keepLnN2 V (r := main_arg15) (by decide), keepLnN2 V (r := main_arg16) (by decide), keepLnN2 V (r := main_arg17) (by decide), keepLnN2 V (r := main_arg18) (by decide), keepLnN2 V (r := main_arg19) (by decide), keepLnN2 V (r := main_arg20) (by decide), keepLnN2 V (r := main_arg21) (by decide), keepLnN2 V (r := main_arg22) (by decide), keepLnN2 V (r := main_arg23) (by decide), keepLnN2 V (r := main_arg24) (by decide), keepLnN2 V (r := main_arg25) (by decide), keepLnN2 V (r := main_arg26) (by decide), keepLnN2 V (r := main_arg27) (by decide), keepLnN2 V (r := main_arg28) (by decide), keepLnN2 V (r := main_arg29) (by decide), keepLnN2 V (r := main_arg30) (by decide), keepLnN2 V (r := main_arg31) (by decide), keepLnN2 V (r := main_arg32) (by decide), keepLnN2 V (r := main_arg33) (by decide)]

attribute [local irreducible] Host.reduceAdd Host.gather Host.scatterAdd in
set_option maxRecDepth 16384 in
set_option maxHeartbeats 4000000 in
theorem outLnN2_v188 (V : Valuation τ sig (Elt F)) :
    after stLnN2 V (Proc.devRef .tc main_v188) = elu (normalize (V (Proc.devRef .tc main_v145)) (rowMean (V (Proc.devRef .tc main_v145))) (rowVar (V (Proc.devRef .tc main_v145))) (row (ln3_1 (argsOf V).a14)) (row (ln3_1 (argsOf V).a15))) := by
  simp only [after_cons, after_nil]
  rfl

end Cert.ReferenceIdeal.Stages

end
-- ==== Proof.RefStageLnL2.lean ====
/-
  The reference's host line, the stretch ending at v211: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnL2 : List (HloOp τ sig (Elt F)) :=
  [ StableHlo.unary main_arg16 main_v189 ((extractStridedSlice S1x128 ![1, 0] · slices_S3x128_S1x128_1_0) : (⟨S3x128, .f32⟩ : BufTy).Contents (Elt F) → (⟨S1x128, .f32⟩ : BufTy).Contents (Elt F)),
    StableHlo.reshape main_v189 main_v190 rfl shapeCasts_S1x128_S128,
    StableHlo.unary main_arg17 main_v191 ((extractStridedSlice S1x128 ![1, 0] · slices_S3x128_S1x128_1_0) : (⟨S3x128, .f32⟩ : BufTy).Contents (Elt F) → (⟨S1x128, .f32⟩ : BufTy).Contents (Elt F)),
    StableHlo.reshape main_v191 main_v192 rfl shapeCasts_S1x128_S128,
    StableHlo.nullary main_cst_38 (constant S_ .f32 0x00000000#32),
    StableHlo.binary main_v165 main_cst_38 main_v193 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v193 main_v194 (broadcastInDim S100000x1 ![0] bcast_S100000_S100000x1_0 : (⟨S100000, .f32⟩ : BufTy).Contents (Elt F) → (⟨S100000x1, .f32⟩ : BufTy).Contents (Elt F)),
    StableHlo.nullary main_cst_39 (constant S_ .f32 0x43000000#32),
    StableHlo.unary main_cst_39 main_v195 (broadcastInDim S100000x1 ![] bcast_S_S100000x1 : (⟨S_, .f32⟩ : BufTy).Contents (Elt F) → (⟨S100000x1, .f32⟩ : BufTy).Contents (Elt F)),
    StableHlo.binary main_v194 main_v195 main_v196 (Host.divf : (⟨S100000x1, .f32⟩ : BufTy).Contents (Elt F) → (⟨S100000x1, .f32⟩ : BufTy).Contents (Elt F) → (⟨S100000x1, .f32⟩ : BufTy).Contents (Elt F)),
    StableHlo.nullary main_c_40 (constantI S_ 32 0#32),
    StableHlo.TRef.nullary main_call6.cst (constant S_ .f32 0x00000000#32),
    StableHlo.TRef.binary (.of main_v165) main_call6.cst main_call6.v0 (fun x v => Host.reduceAdd x v reducesTo_S100000x128_S100000_d1 h_S_),
    StableHlo.TRef.unary main_call6.v0 main_call6.v1 (broadcastInDim S100000x1 ![0] bcast_S100000_S100000x1_0),
    StableHlo.TRef.nullary main_call6.cst_0 (constant S_ .f32 0x43000000#32),
    StableHlo.TRef.unary main_call6.cst_0 main_call6.v2 (broadcastInDim S100000x1 ![] bcast_S_S100000x1),
    StableHlo.TRef.binary main_call6.v1 main_call6.v2 main_call6.v3 Host.divf,
    StableHlo.TRef.unary main_call6.v3 main_call6.v4 (broadcastInDim S100000x128 ![0, 1] bcast_S100000x1_S100000x128_0_1),
    StableHlo.TRef.binary (.of main_v165) main_call6.v4 main_call6.v5 subf,
    StableHlo.TRef.binary main_call6.v5 main_call6.v5 main_call6.v6 mulf,
    StableHlo.TRef.unary (.of main_c_40) main_call6.v7 (sitofp .f32),
    StableHlo.TRef.nullary main_call6.cst_1 (constant S_ .f32 0x43000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S100000_d1 h_S_),
    StableHlo.TRef.unary main_call6.v9 main_call6.v10 (broadcastInDim S100000x1 ![0] bcast_S100000_S100000x1_0),
    StableHlo.TRef.unary main_call6.v8 main_call6.v11 (broadcastInDim S100000x1 ![] bcast_S_S100000x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S100000x1 ![] bcast_S_S100000x1),
    StableHlo.TRef.ternary main_call6.v13 main_call6.v12 main_call6.call0.v1 main_call6.call0.v2 (fun p a b => select (broadcastInDim S100000x1 ![] bcast_S_S100000x1 p) a b),
    StableHlo.unary main_v196 main_v198 (broadcastInDim S100000x128 ![0, 1] bcast_S100000x1_S100000x128_0_1 : (⟨S100000x1, .f32⟩ : BufTy).Contents (Elt F) → (⟨S100000x128, .f32⟩ : BufTy).Contents (Elt F)),
    StableHlo.binary main_v165 main_v198 main_v199 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v200 (broadcastInDim S100000x1 ![] bcast_S_S100000x1 : (⟨S_, .f32⟩ : BufTy).Contents (Elt F) → (⟨S100000x1, .f32⟩ : BufTy).Contents (Elt F)),
    StableHlo.binary main_v197 main_v200 main_v201 (addf : (⟨S100000x1, .f32⟩ : BufTy).Contents (Elt F) → (⟨S100000x1, .f32⟩ : BufTy).Contents (Elt F) → (⟨S100000x1, .f32⟩ : BufTy).Contents (Elt F)),
    StableHlo.unary main_v201 main_v202 (Host.rsqrt : (⟨S100000x1, .f32⟩ : BufTy).Contents (Elt F) → (⟨S100000x1, .f32⟩ : BufTy).Contents (Elt F)),
    StableHlo.unary main_v202 main_v203 (broadcastInDim S100000x128 ![0, 1] bcast_S100000x1_S100000x128_0_1 : (⟨S100000x1, .f32⟩ : BufTy).Contents (Elt F) → (⟨S100000x128, .f32⟩ : BufTy).Contents (Elt F)),
    StableHlo.binary main_v199 main_v203 main_v204 (mulf : (⟨S100000x128, .f32⟩ : BufTy).Contents (Elt F) → (⟨S100000x128, .f32⟩ : BufTy).Contents (Elt F) → (⟨S100000x128, .f32⟩ : BufTy).Contents (Elt F)),
    StableHlo.unary main_v190 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S100000x128 ![0, 1] bcast_S1x128_S100000x128_0_1 : (⟨S1x128, .f32⟩ : BufTy).Contents (Elt F) → (⟨S100000x128, .f32⟩ : BufTy).Contents (Elt F)),
    StableHlo.binary main_v204 main_v206 main_v207 (mulf : (⟨S100000x128, .f32⟩ : BufTy).Contents (Elt F) → (⟨S100000x128, .f32⟩ : BufTy).Contents (Elt F) → (⟨S100000x128, .f32⟩ : BufTy).Contents (Elt F)),
    StableHlo.unary main_v192 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v209 main_v210 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v210) main_call7.v0 main_call7.v1 (cmpf .ogt),
    StableHlo.TRef.nullary main_call7.cst_0 (constant S_ .f32 0x00000000#32),
    StableHlo.TRef.unary main_call7.cst_0 main_call7.v2 (broadcastInDim S100000x128 ![] bcast_S_S100000x128),
    StableHlo.TRef.binary (.of main_v210) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x128 ![] bcast_S_S100000x128),
    StableHlo.TRef.ternary main_call7.v3 main_call7.call0.v1 (.of main_v210) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x128 ![] bcast_S_S100000x128),
    StableHlo.TRef.binary main_call7.v6 main_call7.v5 main_call7.v7 mulf,
    StableHlo.TRef.ternary main_call7.v1 (.of main_v210) main_call7.v7 main_call7.call1.v0 select ]

/-- The buffers the stretch writes. -/
abbrev writtenLnL2 : List (Ref sig .tc) :=
  [ main_v189, main_v190, main_v191, main_v192, main_cst_38, main_v193, main_v194, main_cst_39, main_v195, main_v196, main_c_40, (main_call6.cst).ref, (main_call6.v0).ref, (main_call6.v1).ref, (main_call6.cst_0).ref, (main_call6.v2).ref, (main_call6.v3).ref, (main_call6.v4).ref, (main_call6.v5).ref, (main_call6.v6).ref, (main_call6.v7).ref, (main_call6.cst_1).ref, (main_call6.v8).ref, (main_call6.cst_2).ref, (main_call6.v9).ref, (main_call6.v10).ref, (main_call6.v11).ref, (main_call6.v12).ref, (main_call6.cst_3).ref, (main_call6.v13).ref, (main_call6.cst_4).ref, (main_call6.call0.v0).ref, (main_call6.call0.v1).ref, (main_call6.call0.v2).ref, main_v198, main_v199, main_cst_41, main_v200, main_v201, main_v202, main_v203, main_v204, main_v205, main_v206, main_v207, main_v208, main_v209, main_v210, (main_call7.cst).ref, (main_call7.v0).ref, (main_call7.v1).ref, (main_call7.cst_0).ref, (main_call7.v2).ref, (main_call7.v3).ref, (main_call7.cst_1).ref, (main_call7.call0.v0).ref, (main_call7.call0.v1).ref, (main_call7.call0.v2).ref, (main_call7.v5).ref, (main_call7.cst_2).ref, (main_call7.v6).ref, (main_call7.v7).ref, (main_call7.call1.v0).ref ]

theorem writesLnL2 : (stLnL2 : List (HloOp τ sig (Elt F))).Forall fun op => op.writes ⊆ (writtenLnL2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnL2 (V : Valuation τ sig (Elt F)) {r : Ref sig .tc} (h : r ∉ writtenLnL2) :
    after stLnL2 V (Proc.devRef .tc r) = V (Proc.devRef .tc r) := after_of_writes_sub stLnL2 V writesLnL2 h

/-- The stretch leaves the argument arrays as it found them. -/
theorem argsLnL2 (V : Valuation τ sig (Elt F)) : argsOf (after stLnL2 V) = argsOf V := by
  simp only [argsOf, keepLnL2 V (r := main_arg0) (by decide), keepLnL2 V (r := main_arg1) (by decide), keepLnL2 V (r := main_arg2) (by decide), keepLnL2 V (r := main_arg3) (by decide), keepLnL2 V (r := main_arg4) (by decide), keepLnL2 V (r := main_arg5) (by decide), keepLnL2 V (r := main_arg6) (by decide), keepLnL2 V (r := main_arg7) (by decide), keepLnL2 V (r := main_arg8) (by decide), keepLnL2 V (r := main_arg9) (by decide), keepLnL2 V (r := main_arg10) (by decide), keepLnL2 V (r := main_arg11) (by decide), keepLnL2 V (r := main_arg12) (by decide), keepLnL2 V (r := main_arg13) (by decide), keepLnL2 V (r := main_arg14) (by decide), keepLnL2 V (r := main_arg15) (by decide), keepLnL2 V (r := main_arg16) (by decide), keepLnL2 V (r := main_arg17) (by decide), keepLnL2 V (r := main_arg18) (by decide), keepLnL2 V (r := main_arg19) (by decide), keepLnL2 V (r := main_arg20) (by decide), keepLnL2 V (r := main_arg21) (by decide), keepLnL2 V (r := main_arg22) (by decide), keepLnL2 V (r := main_arg23) (by decide), keepLnL2 V (r := main_arg24) (by decide), keepLnL2 V (r := main_arg25) (by decide), keepLnL2 V (r := main_arg26) (by decide), keepLnL2 V (r := main_arg27) (by decide), keepLnL2 V (r := main_arg28) (by decide), keepLnL2 V (r := main_arg29) (by decide), keepLnL2 V (r := main_arg30) (by decide), keepLnL2 V (r := main_arg31) (by decide), keepLnL2 V (r := main_arg32) (by decide), keepLnL2 V (r := main_arg33) (by decide)]

attribute [local irreducible] Host.reduceAdd Host.gather Host.scatterAdd in
set_option maxRecDepth 16384 in
set_option maxHeartbeats 4000000 in
theorem outLnL2_v211 (V : Valuation τ sig (Elt F)) :
    after stLnL2 V (Proc.devRef .tc main_v211) = elu (normalize (V (Proc.devRef .tc main_v165)) (rowMean (V (Proc.devRef .tc main_v165))) (rowVar (V (Proc.devRef .tc main_v165))) (row (ln3_1 (argsOf V).a16)) (row (ln3_1 (argsOf V).a17))) := by
  simp only [after_cons, after_nil]
  rfl

end Cert.ReferenceIdeal.Stages

end
-- ==== Proof.RefStageMmN3.lean ====
/-
  The reference's host line, the stretch ending at v215, v217, v219, v223: its 12 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmN3 : List (HloOp τ sig (Elt F)) :=
  [ StableHlo.unary main_arg10 main_v212 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v212 main_v213 rfl shapeCasts_S1x128x128_S128x128,
    StableHlo.unary main_arg11 main_v214 ((extractStridedSlice S1x128 ![1, 0] · slices_S2x128_S1x128_1_0) : (⟨S2x128, .f32⟩ : BufTy).Contents (Elt F) → (⟨S1x128, .f32⟩ : BufTy).Contents (Elt F)),
    StableHlo.reshape main_v214 main_v215 rfl shapeCasts_S1x128_S128,
    StableHlo.unary main_arg12 main_v216 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v216 main_v217 rfl shapeCasts_S1x128x128_S128x128,
    StableHlo.unary main_arg13 main_v218 ((extractStridedSlice S1x128 ![1, 0] · slices_S2x128_S1x128_1_0) : (⟨S2x128, .f32⟩ : BufTy).Contents (Elt F) → (⟨S1x128, .f32⟩ : BufTy).Contents (Elt F)),
    StableHlo.reshape main_v218 main_v219 rfl shapeCasts_S1x128_S128,
    StableHlo.unary main_v7 main_v220 (broadcastInDim S100000x1 ![0] bcast_S100000_S100000x1_0 : (⟨S100000, .f32⟩ : BufTy).Contents (Elt F) → (⟨S100000x1, .f32⟩ : BufTy).Contents (Elt F)),
    StableHlo.unary main_v220 main_v221 (broadcastInDim S100000x128 ![0, 1] bcast_S100000x1_S100000x128_0_1 : (⟨S100000x1, .f32⟩ : BufTy).Contents (Elt F) → (⟨S100000x128, .f32⟩ : BufTy).Contents (Elt F)),
    StableHlo.binary main_v211 main_v221 main_v222 (mulf : (⟨S100000x128, .f32⟩ : BufTy).Contents (Elt F) → (⟨S100000x128, .f32⟩ : BufTy).Contents (Elt F) → (⟨S100000x128, .f32⟩ : BufTy).Contents (Elt F)),
    StableHlo.binary main_v222 main_v213 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the stretch writes. -/
abbrev writtenMmN3 : List (Ref sig .tc) :=
  [ main_v212, main_v213, main_v214, main_v215, main_v216, main_v217, main_v218, main_v219, main_v220, main_v221, main_v222, main_v223 ]

theorem writesMmN3 : (stMmN3 : List (HloOp τ sig (Elt F))).Forall fun op => op.writes ⊆ (writtenMmN3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmN3 (V : Valuation τ sig (Elt F)) {r : Ref sig .tc} (h : r ∉ writtenMmN3) :
    after stMmN3 V (Proc.devRef .tc r) = V (Proc.devRef .tc r) := after_of_writes_sub stMmN3 V writesMmN3 h

/-- The stretch leaves the argument arrays as it found them. -/
theorem argsMmN3 (V : Valuation τ sig (Elt F)) : argsOf (after stMmN3 V) = argsOf V := by
  simp only [argsOf, keepMmN3 V (r := main_arg0) (by decide), keepMmN3 V (r := main_arg1) (by decide), keepMmN3 V (r := main_arg2) (by decide), keepMmN3 V (r := main_arg3) (by decide), keepMmN3 V (r := main_arg4) (by decide), keepMmN3 V (r := main_arg5) (by decide), keepMmN3 V (r := main_arg6) (by decide), keepMmN3 V (r := main_arg7) (by decide), keepMmN3 V (r := main_arg8) (by decide), keepMmN3 V (r := main_arg9) (by decide), keepMmN3 V (r := main_arg10) (by decide), keepMmN3 V (r := main_arg11) (by decide), keepMmN3 V (r := main_arg12) (by decide), keepMmN3 V (r := main_arg13) (by decide), keepMmN3 V (r := main_arg14) (by decide), keepMmN3 V (r := main_arg15) (by decide), keepMmN3 V (r := main_arg16) (by decide), keepMmN3 V (r := main_arg17) (by decide), keepMmN3 V (r := main_arg18) (by decide), keepMmN3 V (r := main_arg19) (by decide), keepMmN3 V (r := main_arg20) (by decide), keepMmN3 V (r := main_arg21) (by decide), keepMmN3 V (r := main_arg22) (by decide), keepMmN3 V (r := main_arg23) (by decide), keepMmN3 V (r := main_arg24) (by decide), keepMmN3 V (r := main_arg25) (by decide), keepMmN3 V (r := main_arg26) (by decide), keepMmN3 V (r := main_arg27) (by decide), keepMmN3 V (r := main_arg28) (by decide), keepMmN3 V (r := main_arg29) (by decide), keepMmN3 V (r := main_arg30) (by decide), keepMmN3 V (r := main_arg31) (by decide), keepMmN3 V (r := main_arg32) (by decide), keepMmN3 V (r := main_arg33) (by decide)]

attribute [local irreducible] Host.reduceAdd Host.gather Host.scatterAdd in
set_option maxRecDepth 16384 in
set_option maxHeartbeats 4000000 in
theorem outMmN3_v215 (V : Valuation τ sig (Elt F)) :
    after stMmN3 V (Proc.devRef .tc main_v215) = b2_1 (argsOf V).a11 := by
  simp only [after_cons, after_nil]
  rfl

attribute [local irreducible] Host.reduceAdd Host.gather Host.scatterAdd in
set_option maxRecDepth 16384 in
set_option maxHeartbeats 4000000 in
theorem outMmN3_v217 (V : Valuation τ sig (Elt F)) :
    after stMmN3 V (Proc.devRef .tc main_v217) = w2_1 (argsOf V).a12 := by
  simp only [after_cons, after_nil]
  rfl

attribute [local irreducible] Host.reduceAdd Host.gather Host.scatterAdd in
set_option maxRecDepth 16384 in
set_option maxHeartbeats 4000000 in
theorem outMmN3_v219 (V : Valuation τ sig (Elt F)) :
    after stMmN3 V (Proc.devRef .tc main_v219) = b2_1 (argsOf V).a13 := by
  simp only [after_cons, after_nil]
  rfl

attribute [local irreducible] Host.reduceAdd Host.gather Host.scatterAdd in
set_option maxRecDepth 16384 in
set_option maxHeartbeats 4000000 in
theorem outMmN3_v223 (V : Valuation τ sig (Elt F)) :
    after stMmN3 V (Proc.devRef .tc main_v223) = scaleMatmul128 (V (Proc.devRef .tc main_v211)) (col (V (Proc.devRef .tc main_v7))) (w2_1 (argsOf V).a10) := by
  simp only [after_cons, after_nil]
  rfl

end Cert.ReferenceIdeal.Stages

end
-- ==== Proof.RefStageAggN3.lean ====
/-
  The reference's host line, the stretch ending at v233: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggN3 : List (HloOp τ sig (Elt F)) :=
  [ StableHlo.nullary main_c_42 (constantI S_ 32 0#32),
    StableHlo.unary main_c_42 main_v224 (broadcastInDim S1600000 ![] bcast_S_S1600000 : (⟨S_, .i32⟩ : BufTy).Contents (Elt F) → (⟨S1600000, .i32⟩ : BufTy).Contents (Elt F)),
    StableHlo.binary main_arg2 main_v224 main_v225 (cmpi .slt : (⟨S1600000, .i32⟩ : BufTy).Contents (Elt F) → (⟨S1600000, .i32⟩ : BufTy).Contents (Elt F) → (⟨S1600000, .i1⟩ : BufTy).Contents (Elt F)),
    StableHlo.nullary main_c_43 (constantI S_ 32 100000#32),
    StableHlo.unary main_c_43 main_v226 (broadcastInDim S1600000 ![] bcast_S_S1600000 : (⟨S_, .i32⟩ : BufTy).Contents (Elt F) → (⟨S1600000, .i32⟩ : BufTy).Contents (Elt F)),
    StableHlo.binary main_arg2 main_v226 main_v227 (addi : (⟨S1600000, .i32⟩ : BufTy).Contents (Elt F) → (⟨S1600000, .i32⟩ : BufTy).Contents (Elt F) → (⟨S1600000, .i32⟩ : BufTy).Contents (Elt F)),
    StableHlo.ternary main_v225 main_v227 main_arg2 main_v228 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v228 main_v229 (broadcastInDim S1600000x1 ![0] bcast_S1600000_S1600000x1_0 : (⟨S1600000, .i32⟩ : BufTy).Contents (Elt F) → (⟨S1600000x1, .i32⟩ : BufTy).Contents (Elt F)),
    StableHlo.binary main_v223 main_v229 main_v230 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_44 (constant S_ .f32 0x00000000#32),
    StableHlo.unary main_cst_44 main_v231 (broadcastInDim S100000x128 ![] bcast_S_S100000x128 : (⟨S_, .f32⟩ : BufTy).Contents (Elt F) → (⟨S100000x128, .f32⟩ : BufTy).Contents (Elt F)),
    StableHlo.unary main_arg3 main_v232 (broadcastInDim S1600000x1 ![0] bcast_S1600000_S1600000x1_0 : (⟨S1600000, .i32⟩ : BufTy).Contents (Elt F) → (⟨S1600000x1, .i32⟩ : BufTy).Contents (Elt F)),
    StableHlo.ternary main_v231 main_v232 main_v230 main_v233 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggN3 : List (Ref sig .tc) :=
  [ main_c_42, main_v224, main_v225, main_c_43, main_v226, main_v227, main_v228, main_v229, main_v230, main_cst_44, main_v231, main_v232, main_v233 ]

theorem writesAggN3 : (stAggN3 : List (HloOp τ sig (Elt F))).Forall fun op => op.writes ⊆ (writtenAggN3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggN3 (V : Valuation τ sig (Elt F)) {r : Ref sig .tc} (h : r ∉ writtenAggN3) :
    after stAggN3 V (Proc.devRef .tc r) = V (Proc.devRef .tc r) := after_of_writes_sub stAggN3 V writesAggN3 h

/-- The stretch leaves the argument arrays as it found them. -/
theorem argsAggN3 (V : Valuation τ sig (Elt F)) : argsOf (after stAggN3 V) = argsOf V := by
  simp only [argsOf, keepAggN3 V (r := main_arg0) (by decide), keepAggN3 V (r := main_arg1) (by decide), keepAggN3 V (r := main_arg2) (by decide), keepAggN3 V (r := main_arg3) (by decide), keepAggN3 V (r := main_arg4) (by decide), keepAggN3 V (r := main_arg5) (by decide), keepAggN3 V (r := main_arg6) (by decide), keepAggN3 V (r := main_arg7) (by decide), keepAggN3 V (r := main_arg8) (by decide), keepAggN3 V (r := main_arg9) (by decide), keepAggN3 V (r := main_arg10) (by decide), keepAggN3 V (r := main_arg11) (by decide), keepAggN3 V (r := main_arg12) (by decide), keepAggN3 V (r := main_arg13) (by decide), keepAggN3 V (r := main_arg14) (by decide), keepAggN3 V (r := main_arg15) (by decide), keepAggN3 V (r := main_arg16) (by decide), keepAggN3 V (r := main_arg17) (by decide), keepAggN3 V (r := main_arg18) (by decide), keepAggN3 V (r := main_arg19) (by decide), keepAggN3 V (r := main_arg20) (by decide), keepAggN3 V (r := main_arg21) (by decide), keepAggN3 V (r := main_arg22) (by decide), keepAggN3 V (r := main_arg23) (by decide), keepAggN3 V (r := main_arg24) (by decide), keepAggN3 V (r := main_arg25) (by decide), keepAggN3 V (r := main_arg26) (by decide), keepAggN3 V (r := main_arg27) (by decide), keepAggN3 V (r := main_arg28) (by decide), keepAggN3 V (r := main_arg29) (by decide), keepAggN3 V (r := main_arg30) (by decide), keepAggN3 V (r := main_arg31) (by decide), keepAggN3 V (r := main_arg32) (by decide), keepAggN3 V (r := main_arg33) (by decide)]

attribute [local irreducible] Host.reduceAdd Host.gather Host.scatterAdd in
set_option maxRecDepth 16384 in
set_option maxHeartbeats 4000000 in
theorem outAggN3_v233 (V : Valuation τ sig (Elt F)) :
    after stAggN3 V (Proc.devRef .tc main_v233) = aggregate (V (Proc.devRef .tc main_v223)) (argsOf V).a2 (argsOf V).a3 := by
  simp only [after_cons, after_nil]
  rfl

end Cert.ReferenceIdeal.Stages

end
-- ==== Proof.RefStageSbN3.lean ====
/-
  The reference's host line, the stretch ending at v239: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbN3 : List (HloOp τ sig (Elt F)) :=
  [ StableHlo.unary main_v15 main_v234 (broadcastInDim S100000x1 ![0] bcast_S100000_S100000x1_0 : (⟨S100000, .f32⟩ : BufTy).Contents (Elt F) → (⟨S100000x1, .f32⟩ : BufTy).Contents (Elt F)),
    StableHlo.unary main_v234 main_v235 (broadcastInDim S100000x128 ![0, 1] bcast_S100000x1_S100000x128_0_1 : (⟨S100000x1, .f32⟩ : BufTy).Contents (Elt F) → (⟨S100000x128, .f32⟩ : BufTy).Contents (Elt F)),
    StableHlo.binary main_v233 main_v235 main_v236 (mulf : (⟨S100000x128, .f32⟩ : BufTy).Contents (Elt F) → (⟨S100000x128, .f32⟩ : BufTy).Contents (Elt F) → (⟨S100000x128, .f32⟩ : BufTy).Contents (Elt F)),
    StableHlo.unary main_v215 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v236 main_v238 main_v239 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbN3 : List (Ref sig .tc) :=
  [ main_v234, main_v235, main_v236, main_v237, main_v238, main_v239 ]

theorem writesSbN3 : (stSbN3 : List (HloOp τ sig (Elt F))).Forall fun op => op.writes ⊆ (writtenSbN3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbN3 (V : Valuation τ sig (Elt F)) {r : Ref sig .tc} (h : r ∉ writtenSbN3) :
    after stSbN3 V (Proc.devRef .tc r) = V (Proc.devRef .tc r) := after_of_writes_sub stSbN3 V writesSbN3 h

/-- The stretch leaves the argument arrays as it found them. -/
theorem argsSbN3 (V : Valuation τ sig (Elt F)) : argsOf (after stSbN3 V) = argsOf V := by
  simp only [argsOf, keepSbN3 V (r := main_arg0) (by decide), keepSbN3 V (r := main_arg1) (by decide), keepSbN3 V (r := main_arg2) (by decide), keepSbN3 V (r := main_arg3) (by decide), keepSbN3 V (r := main_arg4) (by decide), keepSbN3 V (r := main_arg5) (by decide), keepSbN3 V (r := main_arg6) (by decide), keepSbN3 V (r := main_arg7) (by decide), keepSbN3 V (r := main_arg8) (by decide), keepSbN3 V (r := main_arg9) (by decide), keepSbN3 V (r := main_arg10) (by decide), keepSbN3 V (r := main_arg11) (by decide), keepSbN3 V (r := main_arg12) (by decide), keepSbN3 V (r := main_arg13) (by decide), keepSbN3 V (r := main_arg14) (by decide), keepSbN3 V (r := main_arg15) (by decide), keepSbN3 V (r := main_arg16) (by decide), keepSbN3 V (r := main_arg17) (by decide), keepSbN3 V (r := main_arg18) (by decide), keepSbN3 V (r := main_arg19) (by decide), keepSbN3 V (r := main_arg20) (by decide), keepSbN3 V (r := main_arg21) (by decide), keepSbN3 V (r := main_arg22) (by decide), keepSbN3 V (r := main_arg23) (by decide), keepSbN3 V (r := main_arg24) (by decide), keepSbN3 V (r := main_arg25) (by decide), keepSbN3 V (r := main_arg26) (by decide), keepSbN3 V (r := main_arg27) (by decide), keepSbN3 V (r := main_arg28) (by decide), keepSbN3 V (r := main_arg29) (by decide), keepSbN3 V (r := main_arg30) (by decide), keepSbN3 V (r := main_arg31) (by decide), keepSbN3 V (r := main_arg32) (by decide), keepSbN3 V (r := main_arg33) (by decide)]

attribute [local irreducible] Host.reduceAdd Host.gather Host.scatterAdd in
set_option maxRecDepth 16384 in
set_option maxHeartbeats 4000000 in
theorem outSbN3_v239 (V : Valuation τ sig (Elt F)) :
    after stSbN3 V (Proc.devRef .tc main_v239) = scaleBias (V (Proc.devRef .tc main_v233)) (col (V (Proc.devRef .tc main_v15))) (row (V (Proc.devRef .tc main_v215))) := by
  simp only [after_cons, after_nil]
  rfl

end Cert.ReferenceIdeal.Stages

end
-- ==== Proof.RefStageMmL3.lean ====
/-
  The reference's host line, the stretch ending at v243: its 4 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stMmL3 : List (HloOp τ sig (Elt F)) :=
  [ StableHlo.unary main_v23 main_v240 (broadcastInDim S100000x1 ![0] bcast_S100000_S100000x1_0 : (⟨S100000, .f32⟩ : BufTy).Contents (Elt F) → (⟨S100000x1, .f32⟩ : BufTy).Contents (Elt F)),
    StableHlo.unary main_v240 main_v241 (broadcastInDim S100000x128 ![0, 1] bcast_S100000x1_S100000x128_0_1 : (⟨S100000x1, .f32⟩ : BufTy).Contents (Elt F) → (⟨S100000x128, .f32⟩ : BufTy).Contents (Elt F)),
    StableHlo.binary main_v188 main_v241 main_v242 (mulf : (⟨S100000x128, .f32⟩ : BufTy).Contents (Elt F) → (⟨S100000x128, .f32⟩ : BufTy).Contents (Elt F) → (⟨S100000x128, .f32⟩ : BufTy).Contents (Elt F)),
    StableHlo.binary main_v242 main_v217 main_v243 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the stretch writes. -/
abbrev writtenMmL3 : List (Ref sig .tc) :=
  [ main_v240, main_v241, main_v242, main_v243 ]

theorem writesMmL3 : (stMmL3 : List (HloOp τ sig (Elt F))).Forall fun op => op.writes ⊆ (writtenMmL3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepMmL3 (V : Valuation τ sig (Elt F)) {r : Ref sig .tc} (h : r ∉ writtenMmL3) :
    after stMmL3 V (Proc.devRef .tc r) = V (Proc.devRef .tc r) := after_of_writes_sub stMmL3 V writesMmL3 h

/-- The stretch leaves the argument arrays as it found them. -/
theorem argsMmL3 (V : Valuation τ sig (Elt F)) : argsOf (after stMmL3 V) = argsOf V := by
  simp only [argsOf, keepMmL3 V (r := main_arg0) (by decide), keepMmL3 V (r := main_arg1) (by decide), keepMmL3 V (r := main_arg2) (by decide), keepMmL3 V (r := main_arg3) (by decide), keepMmL3 V (r := main_arg4) (by decide), keepMmL3 V (r := main_arg5) (by decide), keepMmL3 V (r := main_arg6) (by decide), keepMmL3 V (r := main_arg7) (by decide), keepMmL3 V (r := main_arg8) (by decide), keepMmL3 V (r := main_arg9) (by decide), keepMmL3 V (r := main_arg10) (by decide), keepMmL3 V (r := main_arg11) (by decide), keepMmL3 V (r := main_arg12) (by decide), keepMmL3 V (r := main_arg13) (by decide), keepMmL3 V (r := main_arg14) (by decide), keepMmL3 V (r := main_arg15) (by decide), keepMmL3 V (r := main_arg16) (by decide), keepMmL3 V (r := main_arg17) (by decide), keepMmL3 V (r := main_arg18) (by decide), keepMmL3 V (r := main_arg19) (by decide), keepMmL3 V (r := main_arg20) (by decide), keepMmL3 V (r := main_arg21) (by decide), keepMmL3 V (r := main_arg22) (by decide), keepMmL3 V (r := main_arg23) (by decide), keepMmL3 V (r := main_arg24) (by decide), keepMmL3 V (r := main_arg25) (by decide), keepMmL3 V (r := main_arg26) (by decide), keepMmL3 V (r := main_arg27) (by decide), keepMmL3 V (r := main_arg28) (by decide), keepMmL3 V (r := main_arg29) (by decide), keepMmL3 V (r := main_arg30) (by decide), keepMmL3 V (r := main_arg31) (by decide), keepMmL3 V (r := main_arg32) (by decide), keepMmL3 V (r := main_arg33) (by decide)]

attribute [local irreducible] Host.reduceAdd Host.gather Host.scatterAdd in
set_option maxRecDepth 16384 in
set_option maxHeartbeats 4000000 in
theorem outMmL3_v243 (V : Valuation τ sig (Elt F)) :
    after stMmL3 V (Proc.devRef .tc main_v243) = scaleMatmul128 (V (Proc.devRef .tc main_v188)) (col (V (Proc.devRef .tc main_v23))) (V (Proc.devRef .tc main_v217)) := by
  simp only [after_cons, after_nil]
  rfl

end Cert.ReferenceIdeal.Stages

end
-- ==== Proof.RefStageAggL3.lean ====
/-
  The reference's host line, the stretch ending at v253: its 13 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stAggL3 : List (HloOp τ sig (Elt F)) :=
  [ StableHlo.nullary main_c_45 (constantI S_ 32 0#32),
    StableHlo.unary main_c_45 main_v244 (broadcastInDim S1600000 ![] bcast_S_S1600000 : (⟨S_, .i32⟩ : BufTy).Contents (Elt F) → (⟨S1600000, .i32⟩ : BufTy).Contents (Elt F)),
    StableHlo.binary main_arg4 main_v244 main_v245 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v246 (broadcastInDim S1600000 ![] bcast_S_S1600000 : (⟨S_, .i32⟩ : BufTy).Contents (Elt F) → (⟨S1600000, .i32⟩ : BufTy).Contents (Elt F)),
    StableHlo.binary main_arg4 main_v246 main_v247 (addi : (⟨S1600000, .i32⟩ : BufTy).Contents (Elt F) → (⟨S1600000, .i32⟩ : BufTy).Contents (Elt F) → (⟨S1600000, .i32⟩ : BufTy).Contents (Elt F)),
    StableHlo.ternary main_v245 main_v247 main_arg4 main_v248 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v248 main_v249 (broadcastInDim S1600000x1 ![0] bcast_S1600000_S1600000x1_0 : (⟨S1600000, .i32⟩ : BufTy).Contents (Elt F) → (⟨S1600000x1, .i32⟩ : BufTy).Contents (Elt F)),
    StableHlo.binary main_v243 main_v249 main_v250 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_47 (constant S_ .f32 0x00000000#32),
    StableHlo.unary main_cst_47 main_v251 (broadcastInDim S100000x128 ![] bcast_S_S100000x128 : (⟨S_, .f32⟩ : BufTy).Contents (Elt F) → (⟨S100000x128, .f32⟩ : BufTy).Contents (Elt F)),
    StableHlo.unary main_arg5 main_v252 (broadcastInDim S1600000x1 ![0] bcast_S1600000_S1600000x1_0 : (⟨S1600000, .i32⟩ : BufTy).Contents (Elt F) → (⟨S1600000x1, .i32⟩ : BufTy).Contents (Elt F)),
    StableHlo.ternary main_v251 main_v252 main_v250 main_v253 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers the stretch writes. -/
abbrev writtenAggL3 : List (Ref sig .tc) :=
  [ main_c_45, main_v244, main_v245, main_c_46, main_v246, main_v247, main_v248, main_v249, main_v250, main_cst_47, main_v251, main_v252, main_v253 ]

theorem writesAggL3 : (stAggL3 : List (HloOp τ sig (Elt F))).Forall fun op => op.writes ⊆ (writtenAggL3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepAggL3 (V : Valuation τ sig (Elt F)) {r : Ref sig .tc} (h : r ∉ writtenAggL3) :
    after stAggL3 V (Proc.devRef .tc r) = V (Proc.devRef .tc r) := after_of_writes_sub stAggL3 V writesAggL3 h

/-- The stretch leaves the argument arrays as it found them. -/
theorem argsAggL3 (V : Valuation τ sig (Elt F)) : argsOf (after stAggL3 V) = argsOf V := by
  simp only [argsOf, keepAggL3 V (r := main_arg0) (by decide), keepAggL3 V (r := main_arg1) (by decide), keepAggL3 V (r := main_arg2) (by decide), keepAggL3 V (r := main_arg3) (by decide), keepAggL3 V (r := main_arg4) (by decide), keepAggL3 V (r := main_arg5) (by decide), keepAggL3 V (r := main_arg6) (by decide), keepAggL3 V (r := main_arg7) (by decide), keepAggL3 V (r := main_arg8) (by decide), keepAggL3 V (r := main_arg9) (by decide), keepAggL3 V (r := main_arg10) (by decide), keepAggL3 V (r := main_arg11) (by decide), keepAggL3 V (r := main_arg12) (by decide), keepAggL3 V (r := main_arg13) (by decide), keepAggL3 V (r := main_arg14) (by decide), keepAggL3 V (r := main_arg15) (by decide), keepAggL3 V (r := main_arg16) (by decide), keepAggL3 V (r := main_arg17) (by decide), keepAggL3 V (r := main_arg18) (by decide), keepAggL3 V (r := main_arg19) (by decide), keepAggL3 V (r := main_arg20) (by decide), keepAggL3 V (r := main_arg21) (by decide), keepAggL3 V (r := main_arg22) (by decide), keepAggL3 V (r := main_arg23) (by decide), keepAggL3 V (r := main_arg24) (by decide), keepAggL3 V (r := main_arg25) (by decide), keepAggL3 V (r := main_arg26) (by decide), keepAggL3 V (r := main_arg27) (by decide), keepAggL3 V (r := main_arg28) (by decide), keepAggL3 V (r := main_arg29) (by decide), keepAggL3 V (r := main_arg30) (by decide), keepAggL3 V (r := main_arg31) (by decide), keepAggL3 V (r := main_arg32) (by decide), keepAggL3 V (r := main_arg33) (by decide)]

attribute [local irreducible] Host.reduceAdd Host.gather Host.scatterAdd in
set_option maxRecDepth 16384 in
set_option maxHeartbeats 4000000 in
theorem outAggL3_v253 (V : Valuation τ sig (Elt F)) :
    after stAggL3 V (Proc.devRef .tc main_v253) = aggregate (V (Proc.devRef .tc main_v243)) (argsOf V).a4 (argsOf V).a5 := by
  simp only [after_cons, after_nil]
  rfl

end Cert.ReferenceIdeal.Stages

end
-- ==== Proof.RefStageSbL3.lean ====
/-
  The reference's host line, the stretch ending at v259: its 6 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stSbL3 : List (HloOp τ sig (Elt F)) :=
  [ StableHlo.unary main_v31 main_v254 (broadcastInDim S100000x1 ![0] bcast_S100000_S100000x1_0 : (⟨S100000, .f32⟩ : BufTy).Contents (Elt F) → (⟨S100000x1, .f32⟩ : BufTy).Contents (Elt F)),
    StableHlo.unary main_v254 main_v255 (broadcastInDim S100000x128 ![0, 1] bcast_S100000x1_S100000x128_0_1 : (⟨S100000x1, .f32⟩ : BufTy).Contents (Elt F) → (⟨S100000x128, .f32⟩ : BufTy).Contents (Elt F)),
    StableHlo.binary main_v253 main_v255 main_v256 (mulf : (⟨S100000x128, .f32⟩ : BufTy).Contents (Elt F) → (⟨S100000x128, .f32⟩ : BufTy).Contents (Elt F) → (⟨S100000x128, .f32⟩ : BufTy).Contents (Elt F)),
    StableHlo.unary main_v219 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S100000x128 ![0, 1] bcast_S1x128_S100000x128_0_1 : (⟨S1x128, .f32⟩ : BufTy).Contents (Elt F) → (⟨S100000x128, .f32⟩ : BufTy).Contents (Elt F)),
    StableHlo.binary main_v256 main_v258 main_v259 (addf : (⟨S100000x128, .f32⟩ : BufTy).Contents (Elt F) → (⟨S100000x128, .f32⟩ : BufTy).Contents (Elt F) → (⟨S100000x128, .f32⟩ : BufTy).Contents (Elt F)) ]

/-- The buffers the stretch writes. -/
abbrev writtenSbL3 : List (Ref sig .tc) :=
  [ main_v254, main_v255, main_v256, main_v257, main_v258, main_v259 ]

theorem writesSbL3 : (stSbL3 : List (HloOp τ sig (Elt F))).Forall fun op => op.writes ⊆ (writtenSbL3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepSbL3 (V : Valuation τ sig (Elt F)) {r : Ref sig .tc} (h : r ∉ writtenSbL3) :
    after stSbL3 V (Proc.devRef .tc r) = V (Proc.devRef .tc r) := after_of_writes_sub stSbL3 V writesSbL3 h

/-- The stretch leaves the argument arrays as it found them. -/
theorem argsSbL3 (V : Valuation τ sig (Elt F)) : argsOf (after stSbL3 V) = argsOf V := by
  simp only [argsOf, keepSbL3 V (r := main_arg0) (by decide), keepSbL3 V (r := main_arg1) (by decide), keepSbL3 V (r := main_arg2) (by decide), keepSbL3 V (r := main_arg3) (by decide), keepSbL3 V (r := main_arg4) (by decide), keepSbL3 V (r := main_arg5) (by decide), keepSbL3 V (r := main_arg6) (by decide), keepSbL3 V (r := main_arg7) (by decide), keepSbL3 V (r := main_arg8) (by decide), keepSbL3 V (r := main_arg9) (by decide), keepSbL3 V (r := main_arg10) (by decide), keepSbL3 V (r := main_arg11) (by decide), keepSbL3 V (r := main_arg12) (by decide), keepSbL3 V (r := main_arg13) (by decide), keepSbL3 V (r := main_arg14) (by decide), keepSbL3 V (r := main_arg15) (by decide), keepSbL3 V (r := main_arg16) (by decide), keepSbL3 V (r := main_arg17) (by decide), keepSbL3 V (r := main_arg18) (by decide), keepSbL3 V (r := main_arg19) (by decide), keepSbL3 V (r := main_arg20) (by decide), keepSbL3 V (r := main_arg21) (by decide), keepSbL3 V (r := main_arg22) (by decide), keepSbL3 V (r := main_arg23) (by decide), keepSbL3 V (r := main_arg24) (by decide), keepSbL3 V (r := main_arg25) (by decide), keepSbL3 V (r := main_arg26) (by decide), keepSbL3 V (r := main_arg27) (by decide), keepSbL3 V (r := main_arg28) (by decide), keepSbL3 V (r := main_arg29) (by decide), keepSbL3 V (r := main_arg30) (by decide), keepSbL3 V (r := main_arg31) (by decide), keepSbL3 V (r := main_arg32) (by decide), keepSbL3 V (r := main_arg33) (by decide)]

attribute [local irreducible] Host.reduceAdd Host.gather Host.scatterAdd in
set_option maxRecDepth 16384 in
set_option maxHeartbeats 4000000 in
theorem outSbL3_v259 (V : Valuation τ sig (Elt F)) :
    after stSbL3 V (Proc.devRef .tc main_v259) = scaleBias (V (Proc.devRef .tc main_v253)) (col (V (Proc.devRef .tc main_v31))) (row (V (Proc.devRef .tc main_v219))) := by
  simp only [after_cons, after_nil]
  rfl

end Cert.ReferenceIdeal.Stages

end
-- ==== Proof.RefStageLnN3.lean ====
/-
  The reference's host line, the stretch ending at v282: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnN3 : List (HloOp τ sig (Elt F)) :=
  [ StableHlo.unary main_arg14 main_v260 ((extractStridedSlice S1x128 ![2, 0] · slices_S3x128_S1x128_2_0) : (⟨S3x128, .f32⟩ : BufTy).Contents (Elt F) → (⟨S1x128, .f32⟩ : BufTy).Contents (Elt F)),
    StableHlo.reshape main_v260 main_v261 rfl shapeCasts_S1x128_S128,
    StableHlo.unary main_arg15 main_v262 ((extractStridedSlice S1x128 ![2, 0] · slices_S3x128_S1x128_2_0) : (⟨S3x128, .f32⟩ : BufTy).Contents (Elt F) → (⟨S1x128, .f32⟩ : BufTy).Contents (Elt F)),
    StableHlo.reshape main_v262 main_v263 rfl shapeCasts_S1x128_S128,
    StableHlo.nullary main_cst_48 (constant S_ .f32 0x00000000#32),
    StableHlo.binary main_v239 main_cst_48 main_v264 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v264 main_v265 (broadcastInDim S100000x1 ![0] bcast_S100000_S100000x1_0 : (⟨S100000, .f32⟩ : BufTy).Contents (Elt F) → (⟨S100000x1, .f32⟩ : BufTy).Contents (Elt F)),
    StableHlo.nullary main_cst_49 (constant S_ .f32 0x43000000#32),
    StableHlo.unary main_cst_49 main_v266 (broadcastInDim S100000x1 ![] bcast_S_S100000x1 : (⟨S_, .f32⟩ : BufTy).Contents (Elt F) → (⟨S100000x1, .f32⟩ : BufTy).Contents (Elt F)),
    StableHlo.binary main_v265 main_v266 main_v267 (Host.divf : (⟨S100000x1, .f32⟩ : BufTy).Contents (Elt F) → (⟨S100000x1, .f32⟩ : BufTy).Contents (Elt F) → (⟨S100000x1, .f32⟩ : BufTy).Contents (Elt F)),
    StableHlo.nullary main_c_50 (constantI S_ 32 0#32),
    StableHlo.TRef.nullary main_call8.cst (constant S_ .f32 0x00000000#32),
    StableHlo.TRef.binary (.of main_v239) main_call8.cst main_call8.v0 (fun x v => Host.reduceAdd x v reducesTo_S100000x128_S100000_d1 h_S_),
    StableHlo.TRef.unary main_call8.v0 main_call8.v1 (broadcastInDim S100000x1 ![0] bcast_S100000_S100000x1_0),
    StableHlo.TRef.nullary main_call8.cst_0 (constant S_ .f32 0x43000000#32),
    StableHlo.TRef.unary main_call8.cst_0 main_call8.v2 (broadcastInDim S100000x1 ![] bcast_S_S100000x1),
    StableHlo.TRef.binary main_call8.v1 main_call8.v2 main_call8.v3 Host.divf,
    StableHlo.TRef.unary main_call8.v3 main_call8.v4 (broadcastInDim S100000x128 ![0, 1] bcast_S100000x1_S100000x128_0_1),
    StableHlo.TRef.binary (.of main_v239) main_call8.v4 main_call8.v5 subf,
    StableHlo.TRef.binary main_call8.v5 main_call8.v5 main_call8.v6 mulf,
    StableHlo.TRef.unary (.of main_c_50) main_call8.v7 (sitofp .f32),
    StableHlo.TRef.nullary main_call8.cst_1 (constant S_ .f32 0x43000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S100000_d1 h_S_),
    StableHlo.TRef.unary main_call8.v9 main_call8.v10 (broadcastInDim S100000x1 ![0] bcast_S100000_S100000x1_0),
    StableHlo.TRef.unary main_call8.v8 main_call8.v11 (broadcastInDim S100000x1 ![] bcast_S_S100000x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S100000x1 ![] bcast_S_S100000x1),
    StableHlo.TRef.ternary main_call8.v13 main_call8.v12 main_call8.call0.v1 main_call8.call0.v2 (fun p a b => select (broadcastInDim S100000x1 ![] bcast_S_S100000x1 p) a b),
    StableHlo.unary main_v267 main_v269 (broadcastInDim S100000x128 ![0, 1] bcast_S100000x1_S100000x128_0_1 : (⟨S100000x1, .f32⟩ : BufTy).Contents (Elt F) → (⟨S100000x128, .f32⟩ : BufTy).Contents (Elt F)),
    StableHlo.binary main_v239 main_v269 main_v270 (subf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x3727C5AC#32),
    StableHlo.unary main_cst_51 main_v271 (broadcastInDim S100000x1 ![] bcast_S_S100000x1 : (⟨S_, .f32⟩ : BufTy).Contents (Elt F) → (⟨S100000x1, .f32⟩ : BufTy).Contents (Elt F)),
    StableHlo.binary main_v268 main_v271 main_v272 (addf : (⟨S100000x1, .f32⟩ : BufTy).Contents (Elt F) → (⟨S100000x1, .f32⟩ : BufTy).Contents (Elt F) → (⟨S100000x1, .f32⟩ : BufTy).Contents (Elt F)),
    StableHlo.unary main_v272 main_v273 (Host.rsqrt : (⟨S100000x1, .f32⟩ : BufTy).Contents (Elt F) → (⟨S100000x1, .f32⟩ : BufTy).Contents (Elt F)),
    StableHlo.unary main_v273 main_v274 (broadcastInDim S100000x128 ![0, 1] bcast_S100000x1_S100000x128_0_1 : (⟨S100000x1, .f32⟩ : BufTy).Contents (Elt F) → (⟨S100000x128, .f32⟩ : BufTy).Contents (Elt F)),
    StableHlo.binary main_v270 main_v274 main_v275 (mulf : (⟨S100000x128, .f32⟩ : BufTy).Contents (Elt F) → (⟨S100000x128, .f32⟩ : BufTy).Contents (Elt F) → (⟨S100000x128, .f32⟩ : BufTy).Contents (Elt F)),
    StableHlo.unary main_v261 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S100000x128 ![0, 1] bcast_S1x128_S100000x128_0_1 : (⟨S1x128, .f32⟩ : BufTy).Contents (Elt F) → (⟨S100000x128, .f32⟩ : BufTy).Contents (Elt F)),
    StableHlo.binary main_v275 main_v277 main_v278 (mulf : (⟨S100000x128, .f32⟩ : BufTy).Contents (Elt F) → (⟨S100000x128, .f32⟩ : BufTy).Contents (Elt F) → (⟨S100000x128, .f32⟩ : BufTy).Contents (Elt F)),
    StableHlo.unary main_v263 main_v279 (broadcastInDim S1x128 ![1] bcast_S128_S1x128_1 : (⟨S128, .f32⟩ : BufTy).Contents (Elt F) → (⟨S1x128, .f32⟩ : BufTy).Contents (Elt F)),
    StableHlo.unary main_v279 main_v280 (broadcastInDim S100000x128 ![0, 1] bcast_S1x128_S100000x128_0_1 : (⟨S1x128, .f32⟩ : BufTy).Contents (Elt F) → (⟨S100000x128, .f32⟩ : BufTy).Contents (Elt F)),
    StableHlo.binary main_v278 main_v280 main_v281 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v281) main_call9.v0 main_call9.v1 (cmpf .ogt),
    StableHlo.TRef.nullary main_call9.cst_0 (constant S_ .f32 0x00000000#32),
    StableHlo.TRef.unary main_call9.cst_0 main_call9.v2 (broadcastInDim S100000x128 ![] bcast_S_S100000x128),
    StableHlo.TRef.binary (.of main_v281) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x128 ![] bcast_S_S100000x128),
    StableHlo.TRef.ternary main_call9.v3 main_call9.call0.v1 (.of main_v281) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x128 ![] bcast_S_S100000x128),
    StableHlo.TRef.binary main_call9.v6 main_call9.v5 main_call9.v7 mulf,
    StableHlo.TRef.ternary main_call9.v1 (.of main_v281) main_call9.v7 main_call9.call1.v0 select ]

/-- The buffers the stretch writes. -/
abbrev writtenLnN3 : List (Ref sig .tc) :=
  [ main_v260, main_v261, main_v262, main_v263, main_cst_48, main_v264, main_v265, main_cst_49, main_v266, main_v267, main_c_50, (main_call8.cst).ref, (main_call8.v0).ref, (main_call8.v1).ref, (main_call8.cst_0).ref, (main_call8.v2).ref, (main_call8.v3).ref, (main_call8.v4).ref, (main_call8.v5).ref, (main_call8.v6).ref, (main_call8.v7).ref, (main_call8.cst_1).ref, (main_call8.v8).ref, (main_call8.cst_2).ref, (main_call8.v9).ref, (main_call8.v10).ref, (main_call8.v11).ref, (main_call8.v12).ref, (main_call8.cst_3).ref, (main_call8.v13).ref, (main_call8.cst_4).ref, (main_call8.call0.v0).ref, (main_call8.call0.v1).ref, (main_call8.call0.v2).ref, main_v269, main_v270, main_cst_51, main_v271, main_v272, main_v273, main_v274, main_v275, main_v276, main_v277, main_v278, main_v279, main_v280, main_v281, (main_call9.cst).ref, (main_call9.v0).ref, (main_call9.v1).ref, (main_call9.cst_0).ref, (main_call9.v2).ref, (main_call9.v3).ref, (main_call9.cst_1).ref, (main_call9.call0.v0).ref, (main_call9.call0.v1).ref, (main_call9.call0.v2).ref, (main_call9.v5).ref, (main_call9.cst_2).ref, (main_call9.v6).ref, (main_call9.v7).ref, (main_call9.call1.v0).ref ]

theorem writesLnN3 : (stLnN3 : List (HloOp τ sig (Elt F))).Forall fun op => op.writes ⊆ (writtenLnN3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnN3 (V : Valuation τ sig (Elt F)) {r : Ref sig .tc} (h : r ∉ writtenLnN3) :
    after stLnN3 V (Proc.devRef .tc r) = V (Proc.devRef .tc r) := after_of_writes_sub stLnN3 V writesLnN3 h

/-- The stretch leaves the argument arrays as it found them. -/
theorem argsLnN3 (V : Valuation τ sig (Elt F)) : argsOf (after stLnN3 V) = argsOf V := by
  simp only [argsOf, keepLnN3 V (r := main_arg0) (by decide), keepLnN3 V (r := main_arg1) (by decide), keepLnN3 V (r := main_arg2) (by decide), keepLnN3 V (r := main_arg3) (by decide), keepLnN3 V (r := main_arg4) (by decide), keepLnN3 V (r := main_arg5) (by decide), keepLnN3 V (r := main_arg6) (by decide), keepLnN3 V (r := main_arg7) (by decide), keepLnN3 V (r := main_arg8) (by decide), keepLnN3 V (r := main_arg9) (by decide), keepLnN3 V (r := main_arg10) (by decide), keepLnN3 V (r := main_arg11) (by decide), keepLnN3 V (r := main_arg12) (by decide), keepLnN3 V (r := main_arg13) (by decide), keepLnN3 V (r := main_arg14) (by decide), keepLnN3 V (r := main_arg15) (by decide), keepLnN3 V (r := main_arg16) (by decide), keepLnN3 V (r := main_arg17) (by decide), keepLnN3 V (r := main_arg18) (by decide), keepLnN3 V (r := main_arg19) (by decide), keepLnN3 V (r := main_arg20) (by decide), keepLnN3 V (r := main_arg21) (by decide), keepLnN3 V (r := main_arg22) (by decide), keepLnN3 V (r := main_arg23) (by decide), keepLnN3 V (r := main_arg24) (by decide), keepLnN3 V (r := main_arg25) (by decide), keepLnN3 V (r := main_arg26) (by decide), keepLnN3 V (r := main_arg27) (by decide), keepLnN3 V (r := main_arg28) (by decide), keepLnN3 V (r := main_arg29) (by decide), keepLnN3 V (r := main_arg30) (by decide), keepLnN3 V (r := main_arg31) (by decide), keepLnN3 V (r := main_arg32) (by decide), keepLnN3 V (r := main_arg33) (by decide)]

attribute [local irreducible] Host.reduceAdd Host.gather Host.scatterAdd in
set_option maxRecDepth 16384 in
set_option maxHeartbeats 4000000 in
theorem outLnN3_v282 (V : Valuation τ sig (Elt F)) :
    after stLnN3 V (Proc.devRef .tc main_v282) = elu (normalize (V (Proc.devRef .tc main_v239)) (rowMean (V (Proc.devRef .tc main_v239))) (rowVar (V (Proc.devRef .tc main_v239))) (row (ln3_2 (argsOf V).a14)) (row (ln3_2 (argsOf V).a15))) := by
  simp only [after_cons, after_nil]
  rfl

end Cert.ReferenceIdeal.Stages

end
-- ==== Proof.RefStageLnL3.lean ====
/-
  The reference's host line, the stretch ending at v305: its 63 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stLnL3 : List (HloOp τ sig (Elt F)) :=
  [ StableHlo.unary main_arg16 main_v283 ((extractStridedSlice S1x128 ![2, 0] · slices_S3x128_S1x128_2_0) : (⟨S3x128, .f32⟩ : BufTy).Contents (Elt F) → (⟨S1x128, .f32⟩ : BufTy).Contents (Elt F)),
    StableHlo.reshape main_v283 main_v284 rfl shapeCasts_S1x128_S128,
    StableHlo.unary main_arg17 main_v285 ((extractStridedSlice S1x128 ![2, 0] · slices_S3x128_S1x128_2_0) : (⟨S3x128, .f32⟩ : BufTy).Contents (Elt F) → (⟨S1x128, .f32⟩ : BufTy).Contents (Elt F)),
    StableHlo.reshape main_v285 main_v286 rfl shapeCasts_S1x128_S128,
    StableHlo.nullary main_cst_52 (constant S_ .f32 0x00000000#32),
    StableHlo.binary main_v259 main_cst_52 main_v287 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v287 main_v288 (broadcastInDim S100000x1 ![0] bcast_S100000_S100000x1_0 : (⟨S100000, .f32⟩ : BufTy).Contents (Elt F) → (⟨S100000x1, .f32⟩ : BufTy).Contents (Elt F)),
    StableHlo.nullary main_cst_53 (constant S_ .f32 0x43000000#32),
    StableHlo.unary main_cst_53 main_v289 (broadcastInDim S100000x1 ![] bcast_S_S100000x1 : (⟨S_, .f32⟩ : BufTy).Contents (Elt F) → (⟨S100000x1, .f32⟩ : BufTy).Contents (Elt F)),
    StableHlo.binary main_v288 main_v289 main_v290 (Host.divf : (⟨S100000x1, .f32⟩ : BufTy).Contents (Elt F) → (⟨S100000x1, .f32⟩ : BufTy).Contents (Elt F) → (⟨S100000x1, .f32⟩ : BufTy).Contents (Elt F)),
    StableHlo.nullary main_c_54 (constantI S_ 32 0#32),
    StableHlo.TRef.nullary main_call10.cst (constant S_ .f32 0x00000000#32),
    StableHlo.TRef.binary (.of main_v259) main_call10.cst main_call10.v0 (fun x v => Host.reduceAdd x v reducesTo_S100000x128_S100000_d1 h_S_),
    StableHlo.TRef.unary main_call10.v0 main_call10.v1 (broadcastInDim S100000x1 ![0] bcast_S100000_S100000x1_0),
    StableHlo.TRef.nullary main_call10.cst_0 (constant S_ .f32 0x43000000#32),
    StableHlo.TRef.unary main_call10.cst_0 main_call10.v2 (broadcastInDim S100000x1 ![] bcast_S_S100000x1),
    StableHlo.TRef.binary main_call10.v1 main_call10.v2 main_call10.v3 Host.divf,
    StableHlo.TRef.unary main_call10.v3 main_call10.v4 (broadcastInDim S100000x128 ![0, 1] bcast_S100000x1_S100000x128_0_1),
    StableHlo.TRef.binary (.of main_v259) main_call10.v4 main_call10.v5 subf,
    StableHlo.TRef.binary main_call10.v5 main_call10.v5 main_call10.v6 mulf,
    StableHlo.TRef.unary (.of main_c_54) main_call10.v7 (sitofp .f32),
    StableHlo.TRef.nullary main_call10.cst_1 (constant S_ .f32 0x43000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S100000_d1 h_S_),
    StableHlo.TRef.unary main_call10.v9 main_call10.v10 (broadcastInDim S100000x1 ![0] bcast_S100000_S100000x1_0),
    StableHlo.TRef.unary main_call10.v8 main_call10.v11 (broadcastInDim S100000x1 ![] bcast_S_S100000x1),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S100000x1 ![] bcast_S_S100000x1),
    StableHlo.TRef.ternary main_call10.v13 main_call10.v12 main_call10.call0.v1 main_call10.call0.v2 (fun p a b => select (broadcastInDim S100000x1 ![] bcast_S_S100000x1 p) a b),
    StableHlo.unary main_v290 main_v292 (broadcastInDim S100000x128 ![0, 1] bcast_S100000x1_S100000x128_0_1 : (⟨S100000x1, .f32⟩ : BufTy).Contents (Elt F) → (⟨S100000x128, .f32⟩ : BufTy).Contents (Elt F)),
    StableHlo.binary main_v259 main_v292 main_v293 (subf : (⟨S100000x128, .f32⟩ : BufTy).Contents (Elt F) → (⟨S100000x128, .f32⟩ : BufTy).Contents (Elt F) → (⟨S100000x128, .f32⟩ : BufTy).Contents (Elt F)),
    StableHlo.nullary main_cst_55 (constant S_ .f32 0x3727C5AC#32),
    StableHlo.unary main_cst_55 main_v294 (broadcastInDim S100000x1 ![] bcast_S_S100000x1 : (⟨S_, .f32⟩ : BufTy).Contents (Elt F) → (⟨S100000x1, .f32⟩ : BufTy).Contents (Elt F)),
    StableHlo.binary main_v291 main_v294 main_v295 (addf : (⟨S100000x1, .f32⟩ : BufTy).Contents (Elt F) → (⟨S100000x1, .f32⟩ : BufTy).Contents (Elt F) → (⟨S100000x1, .f32⟩ : BufTy).Contents (Elt F)),
    StableHlo.unary main_v295 main_v296 (Host.rsqrt : (⟨S100000x1, .f32⟩ : BufTy).Contents (Elt F) → (⟨S100000x1, .f32⟩ : BufTy).Contents (Elt F)),
    StableHlo.unary main_v296 main_v297 (broadcastInDim S100000x128 ![0, 1] bcast_S100000x1_S100000x128_0_1 : (⟨S100000x1, .f32⟩ : BufTy).Contents (Elt F) → (⟨S100000x128, .f32⟩ : BufTy).Contents (Elt F)),
    StableHlo.binary main_v293 main_v297 main_v298 (mulf : (⟨S100000x128, .f32⟩ : BufTy).Contents (Elt F) → (⟨S100000x128, .f32⟩ : BufTy).Contents (Elt F) → (⟨S100000x128, .f32⟩ : BufTy).Contents (Elt F)),
    StableHlo.unary main_v284 main_v299 (broadcastInDim S1x128 ![1] bcast_S128_S1x128_1 : (⟨S128, .f32⟩ : BufTy).Contents (Elt F) → (⟨S1x128, .f32⟩ : BufTy).Contents (Elt F)),
    StableHlo.unary main_v299 main_v300 (broadcastInDim S100000x128 ![0, 1] bcast_S1x128_S100000x128_0_1 : (⟨S1x128, .f32⟩ : BufTy).Contents (Elt F) → (⟨S100000x128, .f32⟩ : BufTy).Contents (Elt F)),
    StableHlo.binary main_v298 main_v300 main_v301 (mulf : (⟨S100000x128, .f32⟩ : BufTy).Contents (Elt F) → (⟨S100000x128, .f32⟩ : BufTy).Contents (Elt F) → (⟨S100000x128, .f32⟩ : BufTy).Contents (Elt F)),
    StableHlo.unary main_v286 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S100000x128 ![0, 1] bcast_S1x128_S100000x128_0_1 : (⟨S1x128, .f32⟩ : BufTy).Contents (Elt F) → (⟨S100000x128, .f32⟩ : BufTy).Contents (Elt F)),
    StableHlo.binary main_v301 main_v303 main_v304 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v304) main_call11.v0 main_call11.v1 (cmpf .ogt),
    StableHlo.TRef.nullary main_call11.cst_0 (constant S_ .f32 0x00000000#32),
    StableHlo.TRef.unary main_call11.cst_0 main_call11.v2 (broadcastInDim S100000x128 ![] bcast_S_S100000x128),
    StableHlo.TRef.binary (.of main_v304) main_call11.v2 main_call11.v3 (cmpf .ogt),
    StableHlo.TRef.nullary main_call11.cst_1 (constant S_ .f32 0x00000000#32),
    StableHlo.TRef.unary main_call11.cst_1 main_call11.call0.v0 id,
    StableHlo.TRef.unary main_call11.call0.v0 main_call11.call0.v1 (broadcastInDim S100000x128 ![] bcast_S_S100000x128),
    StableHlo.TRef.ternary main_call11.v3 main_call11.call0.v1 (.of main_v304) main_call11.call0.v2 select,
    StableHlo.TRef.unary main_call11.call0.v2 main_call11.v5 Host.expm1,
    StableHlo.TRef.nullary main_call11.cst_2 (constant S_ .f32 0x3F800000#32),
    StableHlo.TRef.unary main_call11.cst_2 main_call11.v6 (broadcastInDim S100000x128 ![] bcast_S_S100000x128),
    StableHlo.TRef.binary main_call11.v6 main_call11.v5 main_call11.v7 mulf,
    StableHlo.TRef.ternary main_call11.v1 (.of main_v304) main_call11.v7 main_call11.call1.v0 select ]

/-- The buffers the stretch writes. -/
abbrev writtenLnL3 : List (Ref sig .tc) :=
  [ main_v283, main_v284, main_v285, main_v286, main_cst_52, main_v287, main_v288, main_cst_53, main_v289, main_v290, main_c_54, (main_call10.cst).ref, (main_call10.v0).ref, (main_call10.v1).ref, (main_call10.cst_0).ref, (main_call10.v2).ref, (main_call10.v3).ref, (main_call10.v4).ref, (main_call10.v5).ref, (main_call10.v6).ref, (main_call10.v7).ref, (main_call10.cst_1).ref, (main_call10.v8).ref, (main_call10.cst_2).ref, (main_call10.v9).ref, (main_call10.v10).ref, (main_call10.v11).ref, (main_call10.v12).ref, (main_call10.cst_3).ref, (main_call10.v13).ref, (main_call10.cst_4).ref, (main_call10.call0.v0).ref, (main_call10.call0.v1).ref, (main_call10.call0.v2).ref, main_v292, main_v293, main_cst_55, main_v294, main_v295, main_v296, main_v297, main_v298, main_v299, main_v300, main_v301, main_v302, main_v303, main_v304, (main_call11.cst).ref, (main_call11.v0).ref, (main_call11.v1).ref, (main_call11.cst_0).ref, (main_call11.v2).ref, (main_call11.v3).ref, (main_call11.cst_1).ref, (main_call11.call0.v0).ref, (main_call11.call0.v1).ref, (main_call11.call0.v2).ref, (main_call11.v5).ref, (main_call11.cst_2).ref, (main_call11.v6).ref, (main_call11.v7).ref, (main_call11.call1.v0).ref ]

theorem writesLnL3 : (stLnL3 : List (HloOp τ sig (Elt F))).Forall fun op => op.writes ⊆ (writtenLnL3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepLnL3 (V : Valuation τ sig (Elt F)) {r : Ref sig .tc} (h : r ∉ writtenLnL3) :
    after stLnL3 V (Proc.devRef .tc r) = V (Proc.devRef .tc r) := after_of_writes_sub stLnL3 V writesLnL3 h

/-- The stretch leaves the argument arrays as it found them. -/
theorem argsLnL3 (V : Valuation τ sig (Elt F)) : argsOf (after stLnL3 V) = argsOf V := by
  simp only [argsOf, keepLnL3 V (r := main_arg0) (by decide), keepLnL3 V (r := main_arg1) (by decide), keepLnL3 V (r := main_arg2) (by decide), keepLnL3 V (r := main_arg3) (by decide), keepLnL3 V (r := main_arg4) (by decide), keepLnL3 V (r := main_arg5) (by decide), keepLnL3 V (r := main_arg6) (by decide), keepLnL3 V (r := main_arg7) (by decide), keepLnL3 V (r := main_arg8) (by decide), keepLnL3 V (r := main_arg9) (by decide), keepLnL3 V (r := main_arg10) (by decide), keepLnL3 V (r := main_arg11) (by decide), keepLnL3 V (r := main_arg12) (by decide), keepLnL3 V (r := main_arg13) (by decide), keepLnL3 V (r := main_arg14) (by decide), keepLnL3 V (r := main_arg15) (by decide), keepLnL3 V (r := main_arg16) (by decide), keepLnL3 V (r := main_arg17) (by decide), keepLnL3 V (r := main_arg18) (by decide), keepLnL3 V (r := main_arg19) (by decide), keepLnL3 V (r := main_arg20) (by decide), keepLnL3 V (r := main_arg21) (by decide), keepLnL3 V (r := main_arg22) (by decide), keepLnL3 V (r := main_arg23) (by decide), keepLnL3 V (r := main_arg24) (by decide), keepLnL3 V (r := main_arg25) (by decide), keepLnL3 V (r := main_arg26) (by decide), keepLnL3 V (r := main_arg27) (by decide), keepLnL3 V (r := main_arg28) (by decide), keepLnL3 V (r := main_arg29) (by decide), keepLnL3 V (r := main_arg30) (by decide), keepLnL3 V (r := main_arg31) (by decide), keepLnL3 V (r := main_arg32) (by decide), keepLnL3 V (r := main_arg33) (by decide)]

attribute [local irreducible] Host.reduceAdd Host.gather Host.scatterAdd in
set_option maxRecDepth 16384 in
set_option maxHeartbeats 4000000 in
theorem outLnL3_v305 (V : Valuation τ sig (Elt F)) :
    after stLnL3 V (Proc.devRef .tc main_v305) = elu (normalize (V (Proc.devRef .tc main_v259)) (rowMean (V (Proc.devRef .tc main_v259))) (rowVar (V (Proc.devRef .tc main_v259))) (row (ln3_2 (argsOf V).a16)) (row (ln3_2 (argsOf V).a17))) := by
  simp only [after_cons, after_nil]
  rfl

end Cert.ReferenceIdeal.Stages

end
-- ==== Proof.RefStageTail.lean ====
/-
  The reference's host line, the stretch ending at v320, v331, v342: its 51 operations, the buffers it writes, and what it
  leaves in the buffers later stretches read, as stage functions of what it found.  No operation of the stretch writes an
  argument buffer.
-/
import proofs.«165753_j16037407883756_1_alg».proof.Proof.RefArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec

variable {F : FTy → Type} [FloatOps F]

/-- The stretch's operations, in order. -/
abbrev stTail : List (HloOp τ sig (Elt F)) :=
  [ StableHlo.nullary main_cst_56 (constant S_ .f32 0x00000000#32),
    StableHlo.binary main_v282 main_cst_56 main_v306 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_57 (constant S_ .f32 0x47C35000#32),
    StableHlo.unary main_cst_57 main_v307 (broadcastInDim S128 ![] bcast_S_S128 : (⟨S_, .f32⟩ : BufTy).Contents (Elt F) → (⟨S128, .f32⟩ : BufTy).Contents (Elt F)),
    StableHlo.binary main_v306 main_v307 main_v308 (Host.divf : (⟨S128, .f32⟩ : BufTy).Contents (Elt F) → (⟨S128, .f32⟩ : BufTy).Contents (Elt F) → (⟨S128, .f32⟩ : BufTy).Contents (Elt F)),
    StableHlo.nullary main_cst_58 (constant S_ .f32 0x00000000#32),
    StableHlo.binary main_v305 main_cst_58 main_v309 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_59 (constant S_ .f32 0x47C35000#32),
    StableHlo.unary main_cst_59 main_v310 (broadcastInDim S128 ![] bcast_S_S128 : (⟨S_, .f32⟩ : BufTy).Contents (Elt F) → (⟨S128, .f32⟩ : BufTy).Contents (Elt F)),
    StableHlo.binary main_v309 main_v310 main_v311 (Host.divf : (⟨S128, .f32⟩ : BufTy).Contents (Elt F) → (⟨S128, .f32⟩ : BufTy).Contents (Elt F) → (⟨S128, .f32⟩ : BufTy).Contents (Elt F)),
    StableHlo.binary main_v308 main_v311 main_v312 (addf : (⟨S128, .f32⟩ : BufTy).Contents (Elt F) → (⟨S128, .f32⟩ : BufTy).Contents (Elt F) → (⟨S128, .f32⟩ : BufTy).Contents (Elt F)),
    StableHlo.unary main_v312 main_v313 (broadcastInDim S1x128 ![1] bcast_S128_S1x128_1 : (⟨S128, .f32⟩ : BufTy).Contents (Elt F) → (⟨S1x128, .f32⟩ : BufTy).Contents (Elt F)),
    StableHlo.binary main_v313 main_arg18 main_v314 ((fun l r => Host.dotGeneral dot_S1x128_S128x64_S1x64_1_0_0_1_n_n none l r) : (⟨S1x128, .f32⟩ : BufTy).Contents (Elt F) → (⟨S128x64, .f32⟩ : BufTy).Contents (Elt F) → (⟨S1x64, .f32⟩ : BufTy).Contents (Elt F)),
    StableHlo.unary main_arg19 main_v315 (broadcastInDim S1x64 ![1] bcast_S64_S1x64_1 : (⟨S64, .f32⟩ : BufTy).Contents (Elt F) → (⟨S1x64, .f32⟩ : BufTy).Contents (Elt F)),
    StableHlo.binary main_v314 main_v315 main_v316 (addf : (⟨S1x64, .f32⟩ : BufTy).Contents (Elt F) → (⟨S1x64, .f32⟩ : BufTy).Contents (Elt F) → (⟨S1x64, .f32⟩ : BufTy).Contents (Elt F)),
    StableHlo.TRef.nullary main_call12.cst (constant S_ .f32 0x00000000#32),
    StableHlo.TRef.unary main_call12.cst main_call12.v0 (broadcastInDim S1x64 ![] bcast_S_S1x64),
    StableHlo.TRef.binary (.of main_v316) main_call12.v0 main_call12.v1 maximumf,
    StableHlo.binary main_v317 main_arg20 main_v318 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    StableHlo.unary main_arg21 main_v319 (broadcastInDim S1x64 ![1] bcast_S64_S1x64_1 : (⟨S64, .f32⟩ : BufTy).Contents (Elt F) → (⟨S1x64, .f32⟩ : BufTy).Contents (Elt F)),
    StableHlo.binary main_v318 main_v319 main_v320 (addf : (⟨S1x64, .f32⟩ : BufTy).Contents (Elt F) → (⟨S1x64, .f32⟩ : BufTy).Contents (Elt F) → (⟨S1x64, .f32⟩ : BufTy).Contents (Elt F)),
    StableHlo.binary main_v320 main_arg22 main_v321 ((fun l r => Host.dotGeneral dot_S1x64_S64x128_S1x128_1_0_0_1_n_n none l r) : (⟨S1x64, .f32⟩ : BufTy).Contents (Elt F) → (⟨S64x128, .f32⟩ : BufTy).Contents (Elt F) → (⟨S1x128, .f32⟩ : BufTy).Contents (Elt F)),
    StableHlo.unary main_arg23 main_v322 (broadcastInDim S1x128 ![1] bcast_S128_S1x128_1 : (⟨S128, .f32⟩ : BufTy).Contents (Elt F) → (⟨S1x128, .f32⟩ : BufTy).Contents (Elt F)),
    StableHlo.binary main_v321 main_v322 main_v323 (addf : (⟨S1x128, .f32⟩ : BufTy).Contents (Elt F) → (⟨S1x128, .f32⟩ : BufTy).Contents (Elt F) → (⟨S1x128, .f32⟩ : BufTy).Contents (Elt F)),
    StableHlo.TRef.nullary main_call13.cst (constant S_ .f32 0x00000000#32),
    StableHlo.TRef.unary main_call13.cst main_call13.v0 (broadcastInDim S1x128 ![] bcast_S_S1x128),
    StableHlo.TRef.binary (.of main_v323) main_call13.v0 main_call13.v1 maximumf,
    StableHlo.binary main_v324 main_arg24 main_v325 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    StableHlo.unary main_arg25 main_v326 (broadcastInDim S1x128 ![1] bcast_S128_S1x128_1 : (⟨S128, .f32⟩ : BufTy).Contents (Elt F) → (⟨S1x128, .f32⟩ : BufTy).Contents (Elt F)),
    StableHlo.binary main_v325 main_v326 main_v327 (addf : (⟨S1x128, .f32⟩ : BufTy).Contents (Elt F) → (⟨S1x128, .f32⟩ : BufTy).Contents (Elt F) → (⟨S1x128, .f32⟩ : BufTy).Contents (Elt F)),
    StableHlo.TRef.nullary main_call14.cst (constant S_ .f32 0x00000000#32),
    StableHlo.TRef.unary main_call14.cst main_call14.v0 (broadcastInDim S1x128 ![] bcast_S_S1x128),
    StableHlo.TRef.binary (.of main_v327) main_call14.v0 main_call14.v1 maximumf,
    StableHlo.binary main_v328 main_arg26 main_v329 ((fun l r => Host.dotGeneral dot_S1x128_S128x64_S1x64_1_0_0_1_n_n none l r) : (⟨S1x128, .f32⟩ : BufTy).Contents (Elt F) → (⟨S128x64, .f32⟩ : BufTy).Contents (Elt F) → (⟨S1x64, .f32⟩ : BufTy).Contents (Elt F)),
    StableHlo.unary main_arg27 main_v330 (broadcastInDim S1x64 ![1] bcast_S64_S1x64_1 : (⟨S64, .f32⟩ : BufTy).Contents (Elt F) → (⟨S1x64, .f32⟩ : BufTy).Contents (Elt F)),
    StableHlo.binary main_v329 main_v330 main_v331 (addf : (⟨S1x64, .f32⟩ : BufTy).Contents (Elt F) → (⟨S1x64, .f32⟩ : BufTy).Contents (Elt F) → (⟨S1x64, .f32⟩ : BufTy).Contents (Elt F)),
    StableHlo.binary main_v320 main_arg28 main_v332 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    StableHlo.unary main_arg29 main_v333 (broadcastInDim S1x64 ![1] bcast_S64_S1x64_1 : (⟨S64, .f32⟩ : BufTy).Contents (Elt F) → (⟨S1x64, .f32⟩ : BufTy).Contents (Elt F)),
    StableHlo.binary main_v332 main_v333 main_v334 (addf : (⟨S1x64, .f32⟩ : BufTy).Contents (Elt F) → (⟨S1x64, .f32⟩ : BufTy).Contents (Elt F) → (⟨S1x64, .f32⟩ : BufTy).Contents (Elt F)),
    StableHlo.TRef.nullary main_call15.cst (constant S_ .f32 0x00000000#32),
    StableHlo.TRef.unary main_call15.cst main_call15.v0 (broadcastInDim S1x64 ![] bcast_S_S1x64),
    StableHlo.TRef.binary (.of main_v334) main_call15.v0 main_call15.v1 maximumf,
    StableHlo.binary main_v335 main_arg30 main_v336 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg31 main_v337 (broadcastInDim S1x32 ![1] bcast_S32_S1x32_1 : (⟨S32, .f32⟩ : BufTy).Contents (Elt F) → (⟨S1x32, .f32⟩ : BufTy).Contents (Elt F)),
    StableHlo.binary main_v336 main_v337 main_v338 (addf : (⟨S1x32, .f32⟩ : BufTy).Contents (Elt F) → (⟨S1x32, .f32⟩ : BufTy).Contents (Elt F) → (⟨S1x32, .f32⟩ : BufTy).Contents (Elt F)),
    StableHlo.TRef.nullary main_call16.cst (constant S_ .f32 0x00000000#32),
    StableHlo.TRef.unary main_call16.cst main_call16.v0 (broadcastInDim S1x32 ![] bcast_S_S1x32),
    StableHlo.TRef.binary (.of main_v338) main_call16.v0 main_call16.v1 maximumf,
    StableHlo.binary main_v339 main_arg32 main_v340 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)),
    StableHlo.unary main_arg33 main_v341 (broadcastInDim S1x1 ![1] bcast_S1_S1x1_1 : (⟨S1, .f32⟩ : BufTy).Contents (Elt F) → (⟨S1x1, .f32⟩ : BufTy).Contents (Elt F)),
    StableHlo.binary main_v340 main_v341 main_v342 (addf : (⟨S1x1, .f32⟩ : BufTy).Contents (Elt F) → (⟨S1x1, .f32⟩ : BufTy).Contents (Elt F) → (⟨S1x1, .f32⟩ : BufTy).Contents (Elt F)) ]

/-- The buffers the stretch writes. -/
abbrev writtenTail : List (Ref sig .tc) :=
  [ main_cst_56, main_v306, main_cst_57, main_v307, main_v308, main_cst_58, main_v309, main_cst_59, main_v310, main_v311, main_v312, main_v313, main_v314, main_v315, main_v316, (main_call12.cst).ref, (main_call12.v0).ref, (main_call12.v1).ref, main_v318, main_v319, main_v320, main_v321, main_v322, main_v323, (main_call13.cst).ref, (main_call13.v0).ref, (main_call13.v1).ref, main_v325, main_v326, main_v327, (main_call14.cst).ref, (main_call14.v0).ref, (main_call14.v1).ref, main_v329, main_v330, main_v331, main_v332, main_v333, main_v334, (main_call15.cst).ref, (main_call15.v0).ref, (main_call15.v1).ref, main_v336, main_v337, main_v338, (main_call16.cst).ref, (main_call16.v0).ref, (main_call16.v1).ref, main_v340, main_v341, main_v342 ]

theorem writesTail : (stTail : List (HloOp τ sig (Elt F))).Forall fun op => op.writes ⊆ (writtenTail.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the stretch does not write is after it as before it. -/
theorem keepTail (V : Valuation τ sig (Elt F)) {r : Ref sig .tc} (h : r ∉ writtenTail) :
    after stTail V (Proc.devRef .tc r) = V (Proc.devRef .tc r) := after_of_writes_sub stTail V writesTail h

/-- The stretch leaves the argument arrays as it found them. -/
theorem argsTail (V : Valuation τ sig (Elt F)) : argsOf (after stTail V) = argsOf V := by
  simp only [argsOf, keepTail V (r := main_arg0) (by decide), keepTail V (r := main_arg1) (by decide), keepTail V (r := main_arg2) (by decide), keepTail V (r := main_arg3) (by decide), keepTail V (r := main_arg4) (by decide), keepTail V (r := main_arg5) (by decide), keepTail V (r := main_arg6) (by decide), keepTail V (r := main_arg7) (by decide), keepTail V (r := main_arg8) (by decide), keepTail V (r := main_arg9) (by decide), keepTail V (r := main_arg10) (by decide), keepTail V (r := main_arg11) (by decide), keepTail V (r := main_arg12) (by decide), keepTail V (r := main_arg13) (by decide), keepTail V (r := main_arg14) (by decide), keepTail V (r := main_arg15) (by decide), keepTail V (r := main_arg16) (by decide), keepTail V (r := main_arg17) (by decide), keepTail V (r := main_arg18) (by decide), keepTail V (r := main_arg19) (by decide), keepTail V (r := main_arg20) (by decide), keepTail V (r := main_arg21) (by decide), keepTail V (r := main_arg22) (by decide), keepTail V (r := main_arg23) (by decide), keepTail V (r := main_arg24) (by decide), keepTail V (r := main_arg25) (by decide), keepTail V (r := main_arg26) (by decide), keepTail V (r := main_arg27) (by decide), keepTail V (r := main_arg28) (by decide), keepTail V (r := main_arg29) (by decide), keepTail V (r := main_arg30) (by decide), keepTail V (r := main_arg31) (by decide), keepTail V (r := main_arg32) (by decide), keepTail V (r := main_arg33) (by decide)]

attribute [local irreducible] Host.reduceAdd Host.gather Host.scatterAdd in
set_option maxRecDepth 16384 in
set_option maxHeartbeats 4000000 in
theorem outTail_v320 (V : Valuation τ sig (Elt F)) :
    after stTail V (Proc.devRef .tc main_v320) = latent (row (pooled (V (Proc.devRef .tc main_v282)) (V (Proc.devRef .tc main_v305)))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

attribute [local irreducible] Host.reduceAdd Host.gather Host.scatterAdd in
set_option maxRecDepth 16384 in
set_option maxHeartbeats 4000000 in
theorem outTail_v331 (V : Valuation τ sig (Elt F)) :
    after stTail V (Proc.devRef .tc main_v331) = reconstruction (row (pooled (V (Proc.devRef .tc main_v282)) (V (Proc.devRef .tc main_v305)))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

attribute [local irreducible] Host.reduceAdd Host.gather Host.scatterAdd in
set_option maxRecDepth 16384 in
set_option maxHeartbeats 4000000 in
theorem outTail_v342 (V : Valuation τ sig (Elt F)) :
    after stTail V (Proc.devRef .tc main_v342) = property (row (pooled (V (Proc.devRef .tc main_v282)) (V (Proc.devRef .tc main_v305)))) (argsOf V).a18 (argsOf V).a19 (argsOf V).a20 (argsOf V).a21 (argsOf V).a22 (argsOf V).a23 (argsOf V).a24 (argsOf V).a25 (argsOf V).a26 (argsOf V).a27 (argsOf V).a28 (argsOf V).a29 (argsOf V).a30 (argsOf V).a31 (argsOf V).a32 (argsOf V).a33 := by
  simp only [after_cons, after_nil]
  rfl

end Cert.ReferenceIdeal.Stages

end
-- ==== Proof.RefChain.lean ====
/-
  The reference's run, read: its operation list is the stretches one after the other, so the contents after the whole line
  are the stretches' folds composed; stretch by stretch, each buffer a later stretch reads holds the corresponding
  intermediate array of the computation (Net), the arguments untouched throughout; so the three result buffers end at the
  computation's three results of the launch contents' argument arrays.
-/
import proofs.«165753_j16037407883756_1_alg».proof.Proof.RefRun
import proofs.«165753_j16037407883756_1_alg».proof.Proof.RefStageDeg
import proofs.«165753_j16037407883756_1_alg».proof.Proof.RefStageMmN1
import proofs.«165753_j16037407883756_1_alg».proof.Proof.RefStageAggN1
import proofs.«165753_j16037407883756_1_alg».proof.Proof.RefStageSbN1
import proofs.«165753_j16037407883756_1_alg».proof.Proof.RefStageMmL1
import proofs.«165753_j16037407883756_1_alg».proof.Proof.RefStageAggL1
import proofs.«165753_j16037407883756_1_alg».proof.Proof.RefStageSbL1
import proofs.«165753_j16037407883756_1_alg».proof.Proof.RefStageLnN1
import proofs.«165753_j16037407883756_1_alg».proof.Proof.RefStageLnL1
import proofs.«165753_j16037407883756_1_alg».proof.Proof.RefStageMmN2
import proofs.«165753_j16037407883756_1_alg».proof.Proof.RefStageAggN2
import proofs.«165753_j16037407883756_1_alg».proof.Proof.RefStageSbN2
import proofs.«165753_j16037407883756_1_alg».proof.Proof.RefStageMmL2
import proofs.«165753_j16037407883756_1_alg».proof.Proof.RefStageAggL2
import proofs.«165753_j16037407883756_1_alg».proof.Proof.RefStageSbL2
import proofs.«165753_j16037407883756_1_alg».proof.Proof.RefStageLnN2
import proofs.«165753_j16037407883756_1_alg».proof.Proof.RefStageLnL2
import proofs.«165753_j16037407883756_1_alg».proof.Proof.RefStageMmN3
import proofs.«165753_j16037407883756_1_alg».proof.Proof.RefStageAggN3
import proofs.«165753_j16037407883756_1_alg».proof.Proof.RefStageSbN3
import proofs.«165753_j16037407883756_1_alg».proof.Proof.RefStageMmL3
import proofs.«165753_j16037407883756_1_alg».proof.Proof.RefStageAggL3
import proofs.«165753_j16037407883756_1_alg».proof.Proof.RefStageSbL3
import proofs.«165753_j16037407883756_1_alg».proof.Proof.RefStageLnN3
import proofs.«165753_j16037407883756_1_alg».proof.Proof.RefStageLnL3
import proofs.«165753_j16037407883756_1_alg».proof.Proof.RefStageTail

noncomputable section

namespace Cert.ReferenceIdeal.Stages

open Cert.ReferenceIdeal Cert.ReferenceIdeal.Gen Idealize.ShloMosaic Idealize.ShloMosaic.TcCoe Idealize.SL.Sem Idealize.ShloMosaic.StableHlo Cert.Spec Cert.ReferenceIdeal.HostLine

variable {F : FTy → Type} [FloatOps F]

set_option maxRecDepth 65536 in
/-- The whole line is the stretches in order. -/
theorem ops_recut : (HostLine.ops : List (HloOp τ sig (Elt F))) = stDeg ++ (stMmN1 ++ (stAggN1 ++ (stSbN1 ++ (stMmL1 ++ (stAggL1 ++ (stSbL1 ++ (stLnN1 ++ (stLnL1 ++ (stMmN2 ++ (stAggN2 ++ (stSbN2 ++ (stMmL2 ++ (stAggL2 ++ (stSbL2 ++ (stLnN2 ++ (stLnL2 ++ (stMmN3 ++ (stAggN3 ++ (stSbN3 ++ (stMmL3 ++ (stAggL3 ++ (stSbL3 ++ (stLnN3 ++ (stLnL3 ++ (stTail))))))))))))))))))))))))) := rfl

/-- After the whole line the three result buffers hold the computation's three results of the argument arrays. -/
theorem results (V : Valuation τ sig (Elt F)) :
    after HostLine.ops V (Proc.devRef .tc main_v331) = Cert.Net.outReconstruction (argsOf V)
    ∧ after HostLine.ops V (Proc.devRef .tc main_v342) = Cert.Net.outProperty (argsOf V)
    ∧ after HostLine.ops V (Proc.devRef .tc main_v320) = Cert.Net.outLatent (argsOf V) := by
  rw [ops_recut]
  simp only [after_append]
  have ha1 : argsOf (after stDeg V) = argsOf V := argsDeg V
  have h1_v7 : after stDeg V (Proc.devRef .tc main_v7) = Cert.Net.csLN (argsOf V) := by
    rw [outDeg_v7]
    (try rfl)
  have h1_v15 : after stDeg V (Proc.devRef .tc main_v15) = Cert.Net.cdLN (argsOf V) := by
    rw [outDeg_v15]
    (try rfl)
  have h1_v23 : after stDeg V (Proc.devRef .tc main_v23) = Cert.Net.csNL (argsOf V) := by
    rw [outDeg_v23]
    (try rfl)
  have h1_v31 : after stDeg V (Proc.devRef .tc main_v31) = Cert.Net.cdNL (argsOf V) := by
    rw [outDeg_v31]
    (try rfl)
  generalize after stDeg V = V1 at ha1 h1_v7 h1_v15 h1_v23 h1_v31 ⊢
  have ha2 : argsOf (after stMmN1 V1) = argsOf V := (argsMmN1 V1).trans ha1
  have e2_1 : V1 (Proc.devRef .tc main_arg1) = (argsOf V).a1 := congrArg (fun X : Cert.Net.Args F => X.a1) ha1
  have e2_6 : V1 (Proc.devRef .tc main_arg6) = (argsOf V).a6 := congrArg (fun X : Cert.Net.Args F => X.a6) ha1
  have h2_v35 : after stMmN1 V1 (Proc.devRef .tc main_v35) = Cert.Net.mmN1 (argsOf V) := by
    rw [outMmN1_v35]
    (try simp only [e2_1, e2_6, h1_v7]); (try rfl)
  have h2_v7 : after stMmN1 V1 (Proc.devRef .tc main_v7) = Cert.Net.csLN (argsOf V) :=
    (keepMmN1 V1 (by decide)).trans h1_v7
  have h2_v15 : after stMmN1 V1 (Proc.devRef .tc main_v15) = Cert.Net.cdLN (argsOf V) :=
    (keepMmN1 V1 (by decide)).trans h1_v15
  have h2_v23 : after stMmN1 V1 (Proc.devRef .tc main_v23) = Cert.Net.csNL (argsOf V) :=
    (keepMmN1 V1 (by decide)).trans h1_v23
  have h2_v31 : after stMmN1 V1 (Proc.devRef .tc main_v31) = Cert.Net.cdNL (argsOf V) :=
    (keepMmN1 V1 (by decide)).trans h1_v31
  generalize after stMmN1 V1 = V2 at ha2 h2_v35 h2_v7 h2_v15 h2_v23 h2_v31 ⊢
  clear ha1 h1_v7 h1_v15 h1_v23 h1_v31
  have ha3 : argsOf (after stAggN1 V2) = argsOf V := (argsAggN1 V2).trans ha2
  have e3_2 : V2 (Proc.devRef .tc main_arg2) = (argsOf V).a2 := congrArg (fun X : Cert.Net.Args F => X.a2) ha2
  have e3_3 : V2 (Proc.devRef .tc main_arg3) = (argsOf V).a3 := congrArg (fun X : Cert.Net.Args F => X.a3) ha2
  have h3_v45 : after stAggN1 V2 (Proc.devRef .tc main_v45) = Cert.Net.aggN1 (argsOf V) := by
    rw [outAggN1_v45]
    (try simp only [e3_2, e3_3, h2_v35]); (try rfl)
  have h3_v7 : after stAggN1 V2 (Proc.devRef .tc main_v7) = Cert.Net.csLN (argsOf V) :=
    (keepAggN1 V2 (by decide)).trans h2_v7
  have h3_v15 : after stAggN1 V2 (Proc.devRef .tc main_v15) = Cert.Net.cdLN (argsOf V) :=
    (keepAggN1 V2 (by decide)).trans h2_v15
  have h3_v23 : after stAggN1 V2 (Proc.devRef .tc main_v23) = Cert.Net.csNL (argsOf V) :=
    (keepAggN1 V2 (by decide)).trans h2_v23
  have h3_v31 : after stAggN1 V2 (Proc.devRef .tc main_v31) = Cert.Net.cdNL (argsOf V) :=
    (keepAggN1 V2 (by decide)).trans h2_v31
  generalize after stAggN1 V2 = V3 at ha3 h3_v45 h3_v7 h3_v15 h3_v23 h3_v31 ⊢
  clear ha2 h2_v35 h2_v7 h2_v15 h2_v23 h2_v31
  have ha4 : argsOf (after stSbN1 V3) = argsOf V := (argsSbN1 V3).trans ha3
  have e4_7 : V3 (Proc.devRef .tc main_arg7) = (argsOf V).a7 := congrArg (fun X : Cert.Net.Args F => X.a7) ha3
  have h4_v51 : after stSbN1 V3 (Proc.devRef .tc main_v51) = Cert.Net.xN1 (argsOf V) := by
    rw [outSbN1_v51]
    (try simp only [e4_7, h3_v45, h3_v15]); (try rfl)
  have h4_v7 : after stSbN1 V3 (Proc.devRef .tc main_v7) = Cert.Net.csLN (argsOf V) :=
    (keepSbN1 V3 (by decide)).trans h3_v7
  have h4_v15 : after stSbN1 V3 (Proc.devRef .tc main_v15) = Cert.Net.cdLN (argsOf V) :=
    (keepSbN1 V3 (by decide)).trans h3_v15
  have h4_v23 : after stSbN1 V3 (Proc.devRef .tc main_v23) = Cert.Net.csNL (argsOf V) :=
    (keepSbN1 V3 (by decide)).trans h3_v23
  have h4_v31 : after stSbN1 V3 (Proc.devRef .tc main_v31) = Cert.Net.cdNL (argsOf V) :=
    (keepSbN1 V3 (by decide)).trans h3_v31
  generalize after stSbN1 V3 = V4 at ha4 h4_v51 h4_v7 h4_v15 h4_v23 h4_v31 ⊢
  clear ha3 h3_v45 h3_v7 h3_v15 h3_v23 h3_v31
  have ha5 : argsOf (after stMmL1 V4) = argsOf V := (argsMmL1 V4).trans ha4
  have e5_0 : V4 (Proc.devRef .tc main_arg0) = (argsOf V).a0 := congrArg (fun X : Cert.Net.Args F => X.a0) ha4
  have e5_8 : V4 (Proc.devRef .tc main_arg8) = (argsOf V).a8 := congrArg (fun X : Cert.Net.Args F => X.a8) ha4
  have h5_v55 : after stMmL1 V4 (Proc.devRef .tc main_v55) = Cert.Net.mmL1 (argsOf V) := by
    rw [outMmL1_v55]
    (try simp only [e5_0, e5_8, h4_v23]); (try rfl)
  have h5_v51 : after stMmL1 V4 (Proc.devRef .tc main_v51) = Cert.Net.xN1 (argsOf V) :=
    (keepMmL1 V4 (by decide)).trans h4_v51
  have h5_v7 : after stMmL1 V4 (Proc.devRef .tc main_v7) = Cert.Net.csLN (argsOf V) :=
    (keepMmL1 V4 (by decide)).trans h4_v7
  have h5_v15 : after stMmL1 V4 (Proc.devRef .tc main_v15) = Cert.Net.cdLN (argsOf V) :=
    (keepMmL1 V4 (by decide)).trans h4_v15
  have h5_v23 : after stMmL1 V4 (Proc.devRef .tc main_v23) = Cert.Net.csNL (argsOf V) :=
    (keepMmL1 V4 (by decide)).trans h4_v23
  have h5_v31 : after stMmL1 V4 (Proc.devRef .tc main_v31) = Cert.Net.cdNL (argsOf V) :=
    (keepMmL1 V4 (by decide)).trans h4_v31
  generalize after stMmL1 V4 = V5 at ha5 h5_v55 h5_v51 h5_v7 h5_v15 h5_v23 h5_v31 ⊢
  clear ha4 h4_v51 h4_v7 h4_v15 h4_v23 h4_v31
  have ha6 : argsOf (after stAggL1 V5) = argsOf V := (argsAggL1 V5).trans ha5
  have e6_4 : V5 (Proc.devRef .tc main_arg4) = (argsOf V).a4 := congrArg (fun X : Cert.Net.Args F => X.a4) ha5
  have e6_5 : V5 (Proc.devRef .tc main_arg5) = (argsOf V).a5 := congrArg (fun X : Cert.Net.Args F => X.a5) ha5
  have h6_v65 : after stAggL1 V5 (Proc.devRef .tc main_v65) = Cert.Net.aggL1 (argsOf V) := by
    rw [outAggL1_v65]
    (try simp only [e6_4, e6_5, h5_v55]); (try rfl)
  have h6_v51 : after stAggL1 V5 (Proc.devRef .tc main_v51) = Cert.Net.xN1 (argsOf V) :=
    (keepAggL1 V5 (by decide)).trans h5_v51
  have h6_v7 : after stAggL1 V5 (Proc.devRef .tc main_v7) = Cert.Net.csLN (argsOf V) :=
    (keepAggL1 V5 (by decide)).trans h5_v7
  have h6_v15 : after stAggL1 V5 (Proc.devRef .tc main_v15) = Cert.Net.cdLN (argsOf V) :=
    (keepAggL1 V5 (by decide)).trans h5_v15
  have h6_v23 : after stAggL1 V5 (Proc.devRef .tc main_v23) = Cert.Net.csNL (argsOf V) :=
    (keepAggL1 V5 (by decide)).trans h5_v23
  have h6_v31 : after stAggL1 V5 (Proc.devRef .tc main_v31) = Cert.Net.cdNL (argsOf V) :=
    (keepAggL1 V5 (by decide)).trans h5_v31
  generalize after stAggL1 V5 = V6 at ha6 h6_v65 h6_v51 h6_v7 h6_v15 h6_v23 h6_v31 ⊢
  clear ha5 h5_v55 h5_v51 h5_v7 h5_v15 h5_v23 h5_v31
  have ha7 : argsOf (after stSbL1 V6) = argsOf V := (argsSbL1 V6).trans ha6
  have e7_9 : V6 (Proc.devRef .tc main_arg9) = (argsOf V).a9 := congrArg (fun X : Cert.Net.Args F => X.a9) ha6
  have h7_v71 : after stSbL1 V6 (Proc.devRef .tc main_v71) = Cert.Net.xL1 (argsOf V) := by
    rw [outSbL1_v71]
    (try simp only [e7_9, h6_v65, h6_v31]); (try rfl)
  have h7_v51 : after stSbL1 V6 (Proc.devRef .tc main_v51) = Cert.Net.xN1 (argsOf V) :=
    (keepSbL1 V6 (by decide)).trans h6_v51
  have h7_v7 : after stSbL1 V6 (Proc.devRef .tc main_v7) = Cert.Net.csLN (argsOf V) :=
    (keepSbL1 V6 (by decide)).trans h6_v7
  have h7_v15 : after stSbL1 V6 (Proc.devRef .tc main_v15) = Cert.Net.cdLN (argsOf V) :=
    (keepSbL1 V6 (by decide)).trans h6_v15
  have h7_v23 : after stSbL1 V6 (Proc.devRef .tc main_v23) = Cert.Net.csNL (argsOf V) :=
    (keepSbL1 V6 (by decide)).trans h6_v23
  have h7_v31 : after stSbL1 V6 (Proc.devRef .tc main_v31) = Cert.Net.cdNL (argsOf V) :=
    (keepSbL1 V6 (by decide)).trans h6_v31
  generalize after stSbL1 V6 = V7 at ha7 h7_v71 h7_v51 h7_v7 h7_v15 h7_v23 h7_v31 ⊢
  clear ha6 h6_v65 h6_v51 h6_v7 h6_v15 h6_v23 h6_v31
  have ha8 : argsOf (after stLnN1 V7) = argsOf V := (argsLnN1 V7).trans ha7
  have e8_14 : V7 (Proc.devRef .tc main_arg14) = (argsOf V).a14 := congrArg (fun X : Cert.Net.Args F => X.a14) ha7
  have e8_15 : V7 (Proc.devRef .tc main_arg15) = (argsOf V).a15 := congrArg (fun X : Cert.Net.Args F => X.a15) ha7
  have h8_v94 : after stLnN1 V7 (Proc.devRef .tc main_v94) = Cert.Net.hn1 (argsOf V) := by
    rw [outLnN1_v94]
    (try simp only [e8_14, e8_15, h7_v51]); (try rfl)
  have h8_v71 : after stLnN1 V7 (Proc.devRef .tc main_v71) = Cert.Net.xL1 (argsOf V) :=
    (keepLnN1 V7 (by decide)).trans h7_v71
  have h8_v7 : after stLnN1 V7 (Proc.devRef .tc main_v7) = Cert.Net.csLN (argsOf V) :=
    (keepLnN1 V7 (by decide)).trans h7_v7
  have h8_v15 : after stLnN1 V7 (Proc.devRef .tc main_v15) = Cert.Net.cdLN (argsOf V) :=
    (keepLnN1 V7 (by decide)).trans h7_v15
  have h8_v23 : after stLnN1 V7 (Proc.devRef .tc main_v23) = Cert.Net.csNL (argsOf V) :=
    (keepLnN1 V7 (by decide)).trans h7_v23
  have h8_v31 : after stLnN1 V7 (Proc.devRef .tc main_v31) = Cert.Net.cdNL (argsOf V) :=
    (keepLnN1 V7 (by decide)).trans h7_v31
  generalize after stLnN1 V7 = V8 at ha8 h8_v94 h8_v71 h8_v7 h8_v15 h8_v23 h8_v31 ⊢
  clear ha7 h7_v71 h7_v51 h7_v7 h7_v15 h7_v23 h7_v31
  have ha9 : argsOf (after stLnL1 V8) = argsOf V := (argsLnL1 V8).trans ha8
  have e9_16 : V8 (Proc.devRef .tc main_arg16) = (argsOf V).a16 := congrArg (fun X : Cert.Net.Args F => X.a16) ha8
  have e9_17 : V8 (Proc.devRef .tc main_arg17) = (argsOf V).a17 := congrArg (fun X : Cert.Net.Args F => X.a17) ha8
  have h9_v117 : after stLnL1 V8 (Proc.devRef .tc main_v117) = Cert.Net.hl1 (argsOf V) := by
    rw [outLnL1_v117]
    (try simp only [e9_16, e9_17, h8_v71]); (try rfl)
  have h9_v94 : after stLnL1 V8 (Proc.devRef .tc main_v94) = Cert.Net.hn1 (argsOf V) :=
    (keepLnL1 V8 (by decide)).trans h8_v94
  have h9_v7 : after stLnL1 V8 (Proc.devRef .tc main_v7) = Cert.Net.csLN (argsOf V) :=
    (keepLnL1 V8 (by decide)).trans h8_v7
  have h9_v15 : after stLnL1 V8 (Proc.devRef .tc main_v15) = Cert.Net.cdLN (argsOf V) :=
    (keepLnL1 V8 (by decide)).trans h8_v15
  have h9_v23 : after stLnL1 V8 (Proc.devRef .tc main_v23) = Cert.Net.csNL (argsOf V) :=
    (keepLnL1 V8 (by decide)).trans h8_v23
  have h9_v31 : after stLnL1 V8 (Proc.devRef .tc main_v31) = Cert.Net.cdNL (argsOf V) :=
    (keepLnL1 V8 (by decide)).trans h8_v31
  generalize after stLnL1 V8 = V9 at ha9 h9_v117 h9_v94 h9_v7 h9_v15 h9_v23 h9_v31 ⊢
  clear ha8 h8_v94 h8_v71 h8_v7 h8_v15 h8_v23 h8_v31
  have ha10 : argsOf (after stMmN2 V9) = argsOf V := (argsMmN2 V9).trans ha9
  have e10_11 : V9 (Proc.devRef .tc main_arg11) = (argsOf V).a11 := congrArg (fun X : Cert.Net.Args F => X.a11) ha9
  have h10_v121 : after stMmN2 V9 (Proc.devRef .tc main_v121) = Cert.Net.bN2 (argsOf V) := by
    rw [outMmN2_v121]
    (try simp only [e10_11]); (try rfl)
  have e10_12 : V9 (Proc.devRef .tc main_arg12) = (argsOf V).a12 := congrArg (fun X : Cert.Net.Args F => X.a12) ha9
  have h10_v123 : after stMmN2 V9 (Proc.devRef .tc main_v123) = Cert.Net.wL2 (argsOf V) := by
    rw [outMmN2_v123]
    (try simp only [e10_12]); (try rfl)
  have e10_13 : V9 (Proc.devRef .tc main_arg13) = (argsOf V).a13 := congrArg (fun X : Cert.Net.Args F => X.a13) ha9
  have h10_v125 : after stMmN2 V9 (Proc.devRef .tc main_v125) = Cert.Net.bL2 (argsOf V) := by
    rw [outMmN2_v125]
    (try simp only [e10_13]); (try rfl)
  have e10_10 : V9 (Proc.devRef .tc main_arg10) = (argsOf V).a10 := congrArg (fun X : Cert.Net.Args F => X.a10) ha9
  have h10_v129 : after stMmN2 V9 (Proc.devRef .tc main_v129) = Cert.Net.mmN2 (argsOf V) := by
    rw [outMmN2_v129]
    (try simp only [e10_10, h9_v117, h9_v7]); (try rfl)
  have h10_v94 : after stMmN2 V9 (Proc.devRef .tc main_v94) = Cert.Net.hn1 (argsOf V) :=
    (keepMmN2 V9 (by decide)).trans h9_v94
  have h10_v7 : after stMmN2 V9 (Proc.devRef .tc main_v7) = Cert.Net.csLN (argsOf V) :=
    (keepMmN2 V9 (by decide)).trans h9_v7
  have h10_v15 : after stMmN2 V9 (Proc.devRef .tc main_v15) = Cert.Net.cdLN (argsOf V) :=
    (keepMmN2 V9 (by decide)).trans h9_v15
  have h10_v23 : after stMmN2 V9 (Proc.devRef .tc main_v23) = Cert.Net.csNL (argsOf V) :=
    (keepMmN2 V9 (by decide)).trans h9_v23
  have h10_v31 : after stMmN2 V9 (Proc.devRef .tc main_v31) = Cert.Net.cdNL (argsOf V) :=
    (keepMmN2 V9 (by decide)).trans h9_v31
  generalize after stMmN2 V9 = V10 at ha10 h10_v121 h10_v123 h10_v125 h10_v129 h10_v94 h10_v7 h10_v15 h10_v23 h10_v31 ⊢
  clear ha9 h9_v117 h9_v94 h9_v7 h9_v15 h9_v23 h9_v31
  have ha11 : argsOf (after stAggN2 V10) = argsOf V := (argsAggN2 V10).trans ha10
  have e11_2 : V10 (Proc.devRef .tc main_arg2) = (argsOf V).a2 := congrArg (fun X : Cert.Net.Args F => X.a2) ha10
  have e11_3 : V10 (Proc.devRef .tc main_arg3) = (argsOf V).a3 := congrArg (fun X : Cert.Net.Args F => X.a3) ha10
  have h11_v139 : after stAggN2 V10 (Proc.devRef .tc main_v139) = Cert.Net.aggN2 (argsOf V) := by
    rw [outAggN2_v139]
    (try simp only [e11_2, e11_3, h10_v129]); (try rfl)
  have h11_v121 : after stAggN2 V10 (Proc.devRef .tc main_v121) = Cert.Net.bN2 (argsOf V) :=
    (keepAggN2 V10 (by decide)).trans h10_v121
  have h11_v123 : after stAggN2 V10 (Proc.devRef .tc main_v123) = Cert.Net.wL2 (argsOf V) :=
    (keepAggN2 V10 (by decide)).trans h10_v123
  have h11_v125 : after stAggN2 V10 (Proc.devRef .tc main_v125) = Cert.Net.bL2 (argsOf V) :=
    (keepAggN2 V10 (by decide)).trans h10_v125
  have h11_v94 : after stAggN2 V10 (Proc.devRef .tc main_v94) = Cert.Net.hn1 (argsOf V) :=
    (keepAggN2 V10 (by decide)).trans h10_v94
  have h11_v7 : after stAggN2 V10 (Proc.devRef .tc main_v7) = Cert.Net.csLN (argsOf V) :=
    (keepAggN2 V10 (by decide)).trans h10_v7
  have h11_v15 : after stAggN2 V10 (Proc.devRef .tc main_v15) = Cert.Net.cdLN (argsOf V) :=
    (keepAggN2 V10 (by decide)).trans h10_v15
  have h11_v23 : after stAggN2 V10 (Proc.devRef .tc main_v23) = Cert.Net.csNL (argsOf V) :=
    (keepAggN2 V10 (by decide)).trans h10_v23
  have h11_v31 : after stAggN2 V10 (Proc.devRef .tc main_v31) = Cert.Net.cdNL (argsOf V) :=
    (keepAggN2 V10 (by decide)).trans h10_v31
  generalize after stAggN2 V10 = V11 at ha11 h11_v139 h11_v121 h11_v123 h11_v125 h11_v94 h11_v7 h11_v15 h11_v23 h11_v31 ⊢
  clear ha10 h10_v121 h10_v123 h10_v125 h10_v129 h10_v94 h10_v7 h10_v15 h10_v23 h10_v31
  have ha12 : argsOf (after stSbN2 V11) = argsOf V := (argsSbN2 V11).trans ha11
  have h12_v145 : after stSbN2 V11 (Proc.devRef .tc main_v145) = Cert.Net.xN2 (argsOf V) := by
    rw [outSbN2_v145]
    (try simp only [h11_v139, h11_v15, h11_v121]); (try rfl)
  have h12_v123 : after stSbN2 V11 (Proc.devRef .tc main_v123) = Cert.Net.wL2 (argsOf V) :=
    (keepSbN2 V11 (by decide)).trans h11_v123
  have h12_v125 : after stSbN2 V11 (Proc.devRef .tc main_v125) = Cert.Net.bL2 (argsOf V) :=
    (keepSbN2 V11 (by decide)).trans h11_v125
  have h12_v94 : after stSbN2 V11 (Proc.devRef .tc main_v94) = Cert.Net.hn1 (argsOf V) :=
    (keepSbN2 V11 (by decide)).trans h11_v94
  have h12_v7 : after stSbN2 V11 (Proc.devRef .tc main_v7) = Cert.Net.csLN (argsOf V) :=
    (keepSbN2 V11 (by decide)).trans h11_v7
  have h12_v15 : after stSbN2 V11 (Proc.devRef .tc main_v15) = Cert.Net.cdLN (argsOf V) :=
    (keepSbN2 V11 (by decide)).trans h11_v15
  have h12_v23 : after stSbN2 V11 (Proc.devRef .tc main_v23) = Cert.Net.csNL (argsOf V) :=
    (keepSbN2 V11 (by decide)).trans h11_v23
  have h12_v31 : after stSbN2 V11 (Proc.devRef .tc main_v31) = Cert.Net.cdNL (argsOf V) :=
    (keepSbN2 V11 (by decide)).trans h11_v31
  generalize after stSbN2 V11 = V12 at ha12 h12_v145 h12_v123 h12_v125 h12_v94 h12_v7 h12_v15 h12_v23 h12_v31 ⊢
  clear ha11 h11_v139 h11_v121 h11_v123 h11_v125 h11_v94 h11_v7 h11_v15 h11_v23 h11_v31
  have ha13 : argsOf (after stMmL2 V12) = argsOf V := (argsMmL2 V12).trans ha12
  have h13_v149 : after stMmL2 V12 (Proc.devRef .tc main_v149) = Cert.Net.mmL2 (argsOf V) := by
    rw [outMmL2_v149]
    (try simp only [h12_v94, h12_v23, h12_v123]); (try rfl)
  have h13_v145 : after stMmL2 V12 (Proc.devRef .tc main_v145) = Cert.Net.xN2 (argsOf V) :=
    (keepMmL2 V12 (by decide)).trans h12_v145
  have h13_v125 : after stMmL2 V12 (Proc.devRef .tc main_v125) = Cert.Net.bL2 (argsOf V) :=
    (keepMmL2 V12 (by decide)).trans h12_v125
  have h13_v7 : after stMmL2 V12 (Proc.devRef .tc main_v7) = Cert.Net.csLN (argsOf V) :=
    (keepMmL2 V12 (by decide)).trans h12_v7
  have h13_v15 : after stMmL2 V12 (Proc.devRef .tc main_v15) = Cert.Net.cdLN (argsOf V) :=
    (keepMmL2 V12 (by decide)).trans h12_v15
  have h13_v23 : after stMmL2 V12 (Proc.devRef .tc main_v23) = Cert.Net.csNL (argsOf V) :=
    (keepMmL2 V12 (by decide)).trans h12_v23
  have h13_v31 : after stMmL2 V12 (Proc.devRef .tc main_v31) = Cert.Net.cdNL (argsOf V) :=
    (keepMmL2 V12 (by decide)).trans h12_v31
  generalize after stMmL2 V12 = V13 at ha13 h13_v149 h13_v145 h13_v125 h13_v7 h13_v15 h13_v23 h13_v31 ⊢
  clear ha12 h12_v145 h12_v123 h12_v125 h12_v94 h12_v7 h12_v15 h12_v23 h12_v31
  have ha14 : argsOf (after stAggL2 V13) = argsOf V := (argsAggL2 V13).trans ha13
  have e14_4 : V13 (Proc.devRef .tc main_arg4) = (argsOf V).a4 := congrArg (fun X : Cert.Net.Args F => X.a4) ha13
  have e14_5 : V13 (Proc.devRef .tc main_arg5) = (argsOf V).a5 := congrArg (fun X : Cert.Net.Args F => X.a5) ha13
  have h14_v159 : after stAggL2 V13 (Proc.devRef .tc main_v159) = Cert.Net.aggL2 (argsOf V) := by
    rw [outAggL2_v159]
    (try simp only [e14_4, e14_5, h13_v149]); (try rfl)
  have h14_v145 : after stAggL2 V13 (Proc.devRef .tc main_v145) = Cert.Net.xN2 (argsOf V) :=
    (keepAggL2 V13 (by decide)).trans h13_v145
  have h14_v125 : after stAggL2 V13 (Proc.devRef .tc main_v125) = Cert.Net.bL2 (argsOf V) :=
    (keepAggL2 V13 (by decide)).trans h13_v125
  have h14_v7 : after stAggL2 V13 (Proc.devRef .tc main_v7) = Cert.Net.csLN (argsOf V) :=
    (keepAggL2 V13 (by decide)).trans h13_v7
  have h14_v15 : after stAggL2 V13 (Proc.devRef .tc main_v15) = Cert.Net.cdLN (argsOf V) :=
    (keepAggL2 V13 (by decide)).trans h13_v15
  have h14_v23 : after stAggL2 V13 (Proc.devRef .tc main_v23) = Cert.Net.csNL (argsOf V) :=
    (keepAggL2 V13 (by decide)).trans h13_v23
  have h14_v31 : after stAggL2 V13 (Proc.devRef .tc main_v31) = Cert.Net.cdNL (argsOf V) :=
    (keepAggL2 V13 (by decide)).trans h13_v31
  generalize after stAggL2 V13 = V14 at ha14 h14_v159 h14_v145 h14_v125 h14_v7 h14_v15 h14_v23 h14_v31 ⊢
  clear ha13 h13_v149 h13_v145 h13_v125 h13_v7 h13_v15 h13_v23 h13_v31
  have ha15 : argsOf (after stSbL2 V14) = argsOf V := (argsSbL2 V14).trans ha14
  have h15_v165 : after stSbL2 V14 (Proc.devRef .tc main_v165) = Cert.Net.xL2 (argsOf V) := by
    rw [outSbL2_v165]
    (try simp only [h14_v159, h14_v31, h14_v125]); (try rfl)
  have h15_v145 : after stSbL2 V14 (Proc.devRef .tc main_v145) = Cert.Net.xN2 (argsOf V) :=
    (keepSbL2 V14 (by decide)).trans h14_v145
  have h15_v7 : after stSbL2 V14 (Proc.devRef .tc main_v7) = Cert.Net.csLN (argsOf V) :=
    (keepSbL2 V14 (by decide)).trans h14_v7
  have h15_v15 : after stSbL2 V14 (Proc.devRef .tc main_v15) = Cert.Net.cdLN (argsOf V) :=
    (keepSbL2 V14 (by decide)).trans h14_v15
  have h15_v23 : after stSbL2 V14 (Proc.devRef .tc main_v23) = Cert.Net.csNL (argsOf V) :=
    (keepSbL2 V14 (by decide)).trans h14_v23
  have h15_v31 : after stSbL2 V14 (Proc.devRef .tc main_v31) = Cert.Net.cdNL (argsOf V) :=
    (keepSbL2 V14 (by decide)).trans h14_v31
  generalize after stSbL2 V14 = V15 at ha15 h15_v165 h15_v145 h15_v7 h15_v15 h15_v23 h15_v31 ⊢
  clear ha14 h14_v159 h14_v145 h14_v125 h14_v7 h14_v15 h14_v23 h14_v31
  have ha16 : argsOf (after stLnN2 V15) = argsOf V := (argsLnN2 V15).trans ha15
  have e16_14 : V15 (Proc.devRef .tc main_arg14) = (argsOf V).a14 := congrArg (fun X : Cert.Net.Args F => X.a14) ha15
  have e16_15 : V15 (Proc.devRef .tc main_arg15) = (argsOf V).a15 := congrArg (fun X : Cert.Net.Args F => X.a15) ha15
  have h16_v188 : after stLnN2 V15 (Proc.devRef .tc main_v188) = Cert.Net.hn2 (argsOf V) := by
    rw [outLnN2_v188]
    (try simp only [e16_14, e16_15, h15_v145]); (try rfl)
  have h16_v165 : after stLnN2 V15 (Proc.devRef .tc main_v165) = Cert.Net.xL2 (argsOf V) :=
    (keepLnN2 V15 (by decide)).trans h15_v165
  have h16_v7 : after stLnN2 V15 (Proc.devRef .tc main_v7) = Cert.Net.csLN (argsOf V) :=
    (keepLnN2 V15 (by decide)).trans h15_v7
  have h16_v15 : after stLnN2 V15 (Proc.devRef .tc main_v15) = Cert.Net.cdLN (argsOf V) :=
    (keepLnN2 V15 (by decide)).trans h15_v15
  have h16_v23 : after stLnN2 V15 (Proc.devRef .tc main_v23) = Cert.Net.csNL (argsOf V) :=
    (keepLnN2 V15 (by decide)).trans h15_v23
  have h16_v31 : after stLnN2 V15 (Proc.devRef .tc main_v31) = Cert.Net.cdNL (argsOf V) :=
    (keepLnN2 V15 (by decide)).trans h15_v31
  generalize after stLnN2 V15 = V16 at ha16 h16_v188 h16_v165 h16_v7 h16_v15 h16_v23 h16_v31 ⊢
  clear ha15 h15_v165 h15_v145 h15_v7 h15_v15 h15_v23 h15_v31
  have ha17 : argsOf (after stLnL2 V16) = argsOf V := (argsLnL2 V16).trans ha16
  have e17_16 : V16 (Proc.devRef .tc main_arg16) = (argsOf V).a16 := congrArg (fun X : Cert.Net.Args F => X.a16) ha16
  have e17_17 : V16 (Proc.devRef .tc main_arg17) = (argsOf V).a17 := congrArg (fun X : Cert.Net.Args F => X.a17) ha16
  have h17_v211 : after stLnL2 V16 (Proc.devRef .tc main_v211) = Cert.Net.hl2 (argsOf V) := by
    rw [outLnL2_v211]
    (try simp only [e17_16, e17_17, h16_v165]); (try rfl)
  have h17_v188 : after stLnL2 V16 (Proc.devRef .tc main_v188) = Cert.Net.hn2 (argsOf V) :=
    (keepLnL2 V16 (by decide)).trans h16_v188
  have h17_v7 : after stLnL2 V16 (Proc.devRef .tc main_v7) = Cert.Net.csLN (argsOf V) :=
    (keepLnL2 V16 (by decide)).trans h16_v7
  have h17_v15 : after stLnL2 V16 (Proc.devRef .tc main_v15) = Cert.Net.cdLN (argsOf V) :=
    (keepLnL2 V16 (by decide)).trans h16_v15
  have h17_v23 : after stLnL2 V16 (Proc.devRef .tc main_v23) = Cert.Net.csNL (argsOf V) :=
    (keepLnL2 V16 (by decide)).trans h16_v23
  have h17_v31 : after stLnL2 V16 (Proc.devRef .tc main_v31) = Cert.Net.cdNL (argsOf V) :=
    (keepLnL2 V16 (by decide)).trans h16_v31
  generalize after stLnL2 V16 = V17 at ha17 h17_v211 h17_v188 h17_v7 h17_v15 h17_v23 h17_v31 ⊢
  clear ha16 h16_v188 h16_v165 h16_v7 h16_v15 h16_v23 h16_v31
  have ha18 : argsOf (after stMmN3 V17) = argsOf V := (argsMmN3 V17).trans ha17
  have e18_11 : V17 (Proc.devRef .tc main_arg11) = (argsOf V).a11 := congrArg (fun X : Cert.Net.Args F => X.a11) ha17
  have h18_v215 : after stMmN3 V17 (Proc.devRef .tc main_v215) = Cert.Net.bN3 (argsOf V) := by
    rw [outMmN3_v215]
    (try simp only [e18_11]); (try rfl)
  have e18_12 : V17 (Proc.devRef .tc main_arg12) = (argsOf V).a12 := congrArg (fun X : Cert.Net.Args F => X.a12) ha17
  have h18_v217 : after stMmN3 V17 (Proc.devRef .tc main_v217) = Cert.Net.wL3 (argsOf V) := by
    rw [outMmN3_v217]
    (try simp only [e18_12]); (try rfl)
  have e18_13 : V17 (Proc.devRef .tc main_arg13) = (argsOf V).a13 := congrArg (fun X : Cert.Net.Args F => X.a13) ha17
  have h18_v219 : after stMmN3 V17 (Proc.devRef .tc main_v219) = Cert.Net.bL3 (argsOf V) := by
    rw [outMmN3_v219]
    (try simp only [e18_13]); (try rfl)
  have e18_10 : V17 (Proc.devRef .tc main_arg10) = (argsOf V).a10 := congrArg (fun X : Cert.Net.Args F => X.a10) ha17
  have h18_v223 : after stMmN3 V17 (Proc.devRef .tc main_v223) = Cert.Net.mmN3 (argsOf V) := by
    rw [outMmN3_v223]
    (try simp only [e18_10, h17_v211, h17_v7]); (try rfl)
  have h18_v188 : after stMmN3 V17 (Proc.devRef .tc main_v188) = Cert.Net.hn2 (argsOf V) :=
    (keepMmN3 V17 (by decide)).trans h17_v188
  have h18_v15 : after stMmN3 V17 (Proc.devRef .tc main_v15) = Cert.Net.cdLN (argsOf V) :=
    (keepMmN3 V17 (by decide)).trans h17_v15
  have h18_v23 : after stMmN3 V17 (Proc.devRef .tc main_v23) = Cert.Net.csNL (argsOf V) :=
    (keepMmN3 V17 (by decide)).trans h17_v23
  have h18_v31 : after stMmN3 V17 (Proc.devRef .tc main_v31) = Cert.Net.cdNL (argsOf V) :=
    (keepMmN3 V17 (by decide)).trans h17_v31
  generalize after stMmN3 V17 = V18 at ha18 h18_v215 h18_v217 h18_v219 h18_v223 h18_v188 h18_v15 h18_v23 h18_v31 ⊢
  clear ha17 h17_v211 h17_v188 h17_v7 h17_v15 h17_v23 h17_v31
  have ha19 : argsOf (after stAggN3 V18) = argsOf V := (argsAggN3 V18).trans ha18
  have e19_2 : V18 (Proc.devRef .tc main_arg2) = (argsOf V).a2 := congrArg (fun X : Cert.Net.Args F => X.a2) ha18
  have e19_3 : V18 (Proc.devRef .tc main_arg3) = (argsOf V).a3 := congrArg (fun X : Cert.Net.Args F => X.a3) ha18
  have h19_v233 : after stAggN3 V18 (Proc.devRef .tc main_v233) = Cert.Net.aggN3 (argsOf V) := by
    rw [outAggN3_v233]
    (try simp only [e19_2, e19_3, h18_v223]); (try rfl)
  have h19_v215 : after stAggN3 V18 (Proc.devRef .tc main_v215) = Cert.Net.bN3 (argsOf V) :=
    (keepAggN3 V18 (by decide)).trans h18_v215
  have h19_v217 : after stAggN3 V18 (Proc.devRef .tc main_v217) = Cert.Net.wL3 (argsOf V) :=
    (keepAggN3 V18 (by decide)).trans h18_v217
  have h19_v219 : after stAggN3 V18 (Proc.devRef .tc main_v219) = Cert.Net.bL3 (argsOf V) :=
    (keepAggN3 V18 (by decide)).trans h18_v219
  have h19_v188 : after stAggN3 V18 (Proc.devRef .tc main_v188) = Cert.Net.hn2 (argsOf V) :=
    (keepAggN3 V18 (by decide)).trans h18_v188
  have h19_v15 : after stAggN3 V18 (Proc.devRef .tc main_v15) = Cert.Net.cdLN (argsOf V) :=
    (keepAggN3 V18 (by decide)).trans h18_v15
  have h19_v23 : after stAggN3 V18 (Proc.devRef .tc main_v23) = Cert.Net.csNL (argsOf V) :=
    (keepAggN3 V18 (by decide)).trans h18_v23
  have h19_v31 : after stAggN3 V18 (Proc.devRef .tc main_v31) = Cert.Net.cdNL (argsOf V) :=
    (keepAggN3 V18 (by decide)).trans h18_v31
  generalize after stAggN3 V18 = V19 at ha19 h19_v233 h19_v215 h19_v217 h19_v219 h19_v188 h19_v15 h19_v23 h19_v31 ⊢
  clear ha18 h18_v215 h18_v217 h18_v219 h18_v223 h18_v188 h18_v15 h18_v23 h18_v31
  have ha20 : argsOf (after stSbN3 V19) = argsOf V := (argsSbN3 V19).trans ha19
  have h20_v239 : after stSbN3 V19 (Proc.devRef .tc main_v239) = Cert.Net.xN3 (argsOf V) := by
    rw [outSbN3_v239]
    (try simp only [h19_v233, h19_v15, h19_v215]); (try rfl)
  have h20_v217 : after stSbN3 V19 (Proc.devRef .tc main_v217) = Cert.Net.wL3 (argsOf V) :=
    (keepSbN3 V19 (by decide)).trans h19_v217
  have h20_v219 : after stSbN3 V19 (Proc.devRef .tc main_v219) = Cert.Net.bL3 (argsOf V) :=
    (keepSbN3 V19 (by decide)).trans h19_v219
  have h20_v188 : after stSbN3 V19 (Proc.devRef .tc main_v188) = Cert.Net.hn2 (argsOf V) :=
    (keepSbN3 V19 (by decide)).trans h19_v188
  have h20_v23 : after stSbN3 V19 (Proc.devRef .tc main_v23) = Cert.Net.csNL (argsOf V) :=
    (keepSbN3 V19 (by decide)).trans h19_v23
  have h20_v31 : after stSbN3 V19 (Proc.devRef .tc main_v31) = Cert.Net.cdNL (argsOf V) :=
    (keepSbN3 V19 (by decide)).trans h19_v31
  generalize after stSbN3 V19 = V20 at ha20 h20_v239 h20_v217 h20_v219 h20_v188 h20_v23 h20_v31 ⊢
  clear ha19 h19_v233 h19_v215 h19_v217 h19_v219 h19_v188 h19_v15 h19_v23 h19_v31
  have ha21 : argsOf (after stMmL3 V20) = argsOf V := (argsMmL3 V20).trans ha20
  have h21_v243 : after stMmL3 V20 (Proc.devRef .tc main_v243) = Cert.Net.mmL3 (argsOf V) := by
    rw [outMmL3_v243]
    (try simp only [h20_v188, h20_v23, h20_v217]); (try rfl)
  have h21_v239 : after stMmL3 V20 (Proc.devRef .tc main_v239) = Cert.Net.xN3 (argsOf V) :=
    (keepMmL3 V20 (by decide)).trans h20_v239
  have h21_v219 : after stMmL3 V20 (Proc.devRef .tc main_v219) = Cert.Net.bL3 (argsOf V) :=
    (keepMmL3 V20 (by decide)).trans h20_v219
  have h21_v31 : after stMmL3 V20 (Proc.devRef .tc main_v31) = Cert.Net.cdNL (argsOf V) :=
    (keepMmL3 V20 (by decide)).trans h20_v31
  generalize after stMmL3 V20 = V21 at ha21 h21_v243 h21_v239 h21_v219 h21_v31 ⊢
  clear ha20 h20_v239 h20_v217 h20_v219 h20_v188 h20_v23 h20_v31
  have ha22 : argsOf (after stAggL3 V21) = argsOf V := (argsAggL3 V21).trans ha21
  have e22_4 : V21 (Proc.devRef .tc main_arg4) = (argsOf V).a4 := congrArg (fun X : Cert.Net.Args F => X.a4) ha21
  have e22_5 : V21 (Proc.devRef .tc main_arg5) = (argsOf V).a5 := congrArg (fun X : Cert.Net.Args F => X.a5) ha21
  have h22_v253 : after stAggL3 V21 (Proc.devRef .tc main_v253) = Cert.Net.aggL3 (argsOf V) := by
    rw [outAggL3_v253]
    (try simp only [e22_4, e22_5, h21_v243]); (try rfl)
  have h22_v239 : after stAggL3 V21 (Proc.devRef .tc main_v239) = Cert.Net.xN3 (argsOf V) :=
    (keepAggL3 V21 (by decide)).trans h21_v239
  have h22_v219 : after stAggL3 V21 (Proc.devRef .tc main_v219) = Cert.Net.bL3 (argsOf V) :=
    (keepAggL3 V21 (by decide)).trans h21_v219
  have h22_v31 : after stAggL3 V21 (Proc.devRef .tc main_v31) = Cert.Net.cdNL (argsOf V) :=
    (keepAggL3 V21 (by decide)).trans h21_v31
  generalize after stAggL3 V21 = V22 at ha22 h22_v253 h22_v239 h22_v219 h22_v31 ⊢
  clear ha21 h21_v243 h21_v239 h21_v219 h21_v31
  have ha23 : argsOf (after stSbL3 V22) = argsOf V := (argsSbL3 V22).trans ha22
  have h23_v259 : after stSbL3 V22 (Proc.devRef .tc main_v259) = Cert.Net.xL3 (argsOf V) := by
    rw [outSbL3_v259]
    (try simp only [h22_v253, h22_v31, h22_v219]); (try rfl)
  have h23_v239 : after stSbL3 V22 (Proc.devRef .tc main_v239) = Cert.Net.xN3 (argsOf V) :=
    (keepSbL3 V22 (by decide)).trans h22_v239
  generalize after stSbL3 V22 = V23 at ha23 h23_v259 h23_v239 ⊢
  clear ha22 h22_v253 h22_v239 h22_v219 h22_v31
  have ha24 : argsOf (after stLnN3 V23) = argsOf V := (argsLnN3 V23).trans ha23
  have e24_14 : V23 (Proc.devRef .tc main_arg14) = (argsOf V).a14 := congrArg (fun X : Cert.Net.Args F => X.a14) ha23
  have e24_15 : V23 (Proc.devRef .tc main_arg15) = (argsOf V).a15 := congrArg (fun X : Cert.Net.Args F => X.a15) ha23
  have h24_v282 : after stLnN3 V23 (Proc.devRef .tc main_v282) = Cert.Net.hn3 (argsOf V) := by
    rw [outLnN3_v282]
    (try simp only [e24_14, e24_15, h23_v239]); (try rfl)
  have h24_v259 : after stLnN3 V23 (Proc.devRef .tc main_v259) = Cert.Net.xL3 (argsOf V) :=
    (keepLnN3 V23 (by decide)).trans h23_v259
  generalize after stLnN3 V23 = V24 at ha24 h24_v282 h24_v259 ⊢
  clear ha23 h23_v259 h23_v239
  have ha25 : argsOf (after stLnL3 V24) = argsOf V := (argsLnL3 V24).trans ha24
  have e25_16 : V24 (Proc.devRef .tc main_arg16) = (argsOf V).a16 := congrArg (fun X : Cert.Net.Args F => X.a16) ha24
  have e25_17 : V24 (Proc.devRef .tc main_arg17) = (argsOf V).a17 := congrArg (fun X : Cert.Net.Args F => X.a17) ha24
  have h25_v305 : after stLnL3 V24 (Proc.devRef .tc main_v305) = Cert.Net.hl3 (argsOf V) := by
    rw [outLnL3_v305]
    (try simp only [e25_16, e25_17, h24_v259]); (try rfl)
  have h25_v282 : after stLnL3 V24 (Proc.devRef .tc main_v282) = Cert.Net.hn3 (argsOf V) :=
    (keepLnL3 V24 (by decide)).trans h24_v282
  generalize after stLnL3 V24 = V25 at ha25 h25_v305 h25_v282 ⊢
  clear ha24 h24_v282 h24_v259
  have ha26 : argsOf (after stTail V25) = argsOf V := (argsTail V25).trans ha25
  have e26_18 : V25 (Proc.devRef .tc main_arg18) = (argsOf V).a18 := congrArg (fun X : Cert.Net.Args F => X.a18) ha25
  have e26_19 : V25 (Proc.devRef .tc main_arg19) = (argsOf V).a19 := congrArg (fun X : Cert.Net.Args F => X.a19) ha25
  have e26_20 : V25 (Proc.devRef .tc main_arg20) = (argsOf V).a20 := congrArg (fun X : Cert.Net.Args F => X.a20) ha25
  have e26_21 : V25 (Proc.devRef .tc main_arg21) = (argsOf V).a21 := congrArg (fun X : Cert.Net.Args F => X.a21) ha25
  have e26_22 : V25 (Proc.devRef .tc main_arg22) = (argsOf V).a22 := congrArg (fun X : Cert.Net.Args F => X.a22) ha25
  have e26_23 : V25 (Proc.devRef .tc main_arg23) = (argsOf V).a23 := congrArg (fun X : Cert.Net.Args F => X.a23) ha25
  have e26_24 : V25 (Proc.devRef .tc main_arg24) = (argsOf V).a24 := congrArg (fun X : Cert.Net.Args F => X.a24) ha25
  have e26_25 : V25 (Proc.devRef .tc main_arg25) = (argsOf V).a25 := congrArg (fun X : Cert.Net.Args F => X.a25) ha25
  have e26_26 : V25 (Proc.devRef .tc main_arg26) = (argsOf V).a26 := congrArg (fun X : Cert.Net.Args F => X.a26) ha25
  have e26_27 : V25 (Proc.devRef .tc main_arg27) = (argsOf V).a27 := congrArg (fun X : Cert.Net.Args F => X.a27) ha25
  have e26_28 : V25 (Proc.devRef .tc main_arg28) = (argsOf V).a28 := congrArg (fun X : Cert.Net.Args F => X.a28) ha25
  have e26_29 : V25 (Proc.devRef .tc main_arg29) = (argsOf V).a29 := congrArg (fun X : Cert.Net.Args F => X.a29) ha25
  have e26_30 : V25 (Proc.devRef .tc main_arg30) = (argsOf V).a30 := congrArg (fun X : Cert.Net.Args F => X.a30) ha25
  have e26_31 : V25 (Proc.devRef .tc main_arg31) = (argsOf V).a31 := congrArg (fun X : Cert.Net.Args F => X.a31) ha25
  have e26_32 : V25 (Proc.devRef .tc main_arg32) = (argsOf V).a32 := congrArg (fun X : Cert.Net.Args F => X.a32) ha25
  have e26_33 : V25 (Proc.devRef .tc main_arg33) = (argsOf V).a33 := congrArg (fun X : Cert.Net.Args F => X.a33) ha25
  have h26_v320 : after stTail V25 (Proc.devRef .tc main_v320) = Cert.Net.outLatent (argsOf V) := by
    rw [outTail_v320]
    (try simp only [e26_18, e26_19, e26_20, e26_21, e26_22, e26_23, e26_24, e26_25, e26_26, e26_27, e26_28, e26_29, e26_30, e26_31, e26_32, e26_33, h25_v282, h25_v305]); (try rfl)
  have h26_v331 : after stTail V25 (Proc.devRef .tc main_v331) = Cert.Net.outReconstruction (argsOf V) := by
    rw [outTail_v331]
    (try simp only [e26_18, e26_19, e26_20, e26_21, e26_22, e26_23, e26_24, e26_25, e26_26, e26_27, e26_28, e26_29, e26_30, e26_31, e26_32, e26_33, h25_v282, h25_v305]); (try rfl)
  have h26_v342 : after stTail V25 (Proc.devRef .tc main_v342) = Cert.Net.outProperty (argsOf V) := by
    rw [outTail_v342]
    (try simp only [e26_18, e26_19, e26_20, e26_21, e26_22, e26_23, e26_24, e26_25, e26_26, e26_27, e26_28, e26_29, e26_30, e26_31, e26_32, e26_33, h25_v282, h25_v305]); (try rfl)
  exact ⟨h26_v331, h26_v342, h26_v320⟩

end Cert.ReferenceIdeal.Stages

end
-- ==== Proof.Bridge.lean ====
/-
  The bridge between the two programs at the extended reals.  Both programs' final result contents are the SAME three
  functions (Net) of their launch memories' argument arrays — the reference's by reading its straight line stretch by
  stretch, the idealized kernel's by reading its boundaries region by region — and the two launch memories hold the same
  argument arrays; so the results are equal.  No finiteness of the inputs is used: every law that joins the kernel's
  regions to the reference's operations holds on all extended reals.
-/
import proofs.«165753_j16037407883756_1_alg».proof.Proof.KChain
import proofs.«165753_j16037407883756_1_alg».proof.Proof.RefChain

noncomputable section

namespace Cert.Bridge

open Idealize.ShloMosaic Idealize.ShloMosaic.TcCoe Idealize.SL.Sem Idealize.ShloMosaic.StableHlo

/-- The two launch memories hold the same argument arrays. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧     m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧     m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧     m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧     m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧     m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧     m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧     m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧     m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧     m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧     m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧     m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧     m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧     m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧     m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧     m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧     m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧     m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧     m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧     m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧     m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧     m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧     m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧     m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧     m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧     m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧     m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧     m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧     m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
    ∧     m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
    ∧     m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
    ∧     m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
    ∧     m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
    ∧     m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)

/-- Agreeing launch memories give the computation the same 34 argument arrays. -/
theorem args_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : Agree m m') (c : Dev Cert.KernelIdeal.nD) :
    Cert.ReferenceIdeal.Stages.argsOf (launchContents m' c) = Cert.KernelIdeal.Stages.argsOf (Cert.KernelIdeal.Gen.W0 m ρ c) := by
  exact congr (congr (congr (congr (congr (congr (congr (congr (congr (congr (congr (congr (congr (congr (congr (congr (congr (congr (congr (congr (congr (congr (congr (congr (congr (congr (congr (congr (congr (congr (congr (congr (congr (congrArg (Cert.Net.Args.mk (F := Ideal)) (hagree c).1) (hagree c).2.1) (hagree c).2.2.1) (hagree c).2.2.2.1) (hagree c).2.2.2.2.1) (hagree c).2.2.2.2.2.1) (hagree c).2.2.2.2.2.2.1) (hagree c).2.2.2.2.2.2.2.1) (hagree c).2.2.2.2.2.2.2.2.1) (hagree c).2.2.2.2.2.2.2.2.2.1) (hagree c).2.2.2.2.2.2.2.2.2.2.1) (hagree c).2.2.2.2.2.2.2.2.2.2.2.1) (hagree c).2.2.2.2.2.2.2.2.2.2.2.2.1) (hagree c).2.2.2.2.2.2.2.2.2.2.2.2.2.1) (hagree c).2.2.2.2.2.2.2.2.2.2.2.2.2.2.1) (hagree c).2.2.2.2.2.2.2.2.2.2.2.2.2.2.2.1) (hagree c).2.2.2.2.2.2.2.2.2.2.2.2.2.2.2.2.1) (hagree c).2.2.2.2.2.2.2.2.2.2.2.2.2.2.2.2.2.1) (hagree c).2.2.2.2.2.2.2.2.2.2.2.2.2.2.2.2.2.2.1) (hagree c).2.2.2.2.2.2.2.2.2.2.2.2.2.2.2.2.2.2.2.1) (hagree c).2.2.2.2.2.2.2.2.2.2.2.2.2.2.2.2.2.2.2.2.1) (hagree c).2.2.2.2.2.2.2.2.2.2.2.2.2.2.2.2.2.2.2.2.2.1) (hagree c).2.2.2.2.2.2.2.2.2.2.2.2.2.2.2.2.2.2.2.2.2.2.1) (hagree c).2.2.2.2.2.2.2.2.2.2.2.2.2.2.2.2.2.2.2.2.2.2.2.1) (hagree c).2.2.2.2.2.2.2.2.2.2.2.2.2.2.2.2.2.2.2.2.2.2.2.2.1) (hagree c).2.2.2.2.2.2.2.2.2.2.2.2.2.2.2.2.2.2.2.2.2.2.2.2.2.1) (hagree c).2.2.2.2.2.2.2.2.2.2.2.2.2.2.2.2.2.2.2.2.2.2.2.2.2.2.1) (hagree c).2.2.2.2.2.2.2.2.2.2.2.2.2.2.2.2.2.2.2.2.2.2.2.2.2.2.2.1) (hagree c).2.2.2.2.2.2.2.2.2.2.2.2.2.2.2.2.2.2.2.2.2.2.2.2.2.2.2.2.1) (hagree c).2.2.2.2.2.2.2.2.2.2.2.2.2.2.2.2.2.2.2.2.2.2.2.2.2.2.2.2.2.1) (hagree c).2.2.2.2.2.2.2.2.2.2.2.2.2.2.2.2.2.2.2.2.2.2.2.2.2.2.2.2.2.2.1) (hagree c).2.2.2.2.2.2.2.2.2.2.2.2.2.2.2.2.2.2.2.2.2.2.2.2.2.2.2.2.2.2.2.1) (hagree c).2.2.2.2.2.2.2.2.2.2.2.2.2.2.2.2.2.2.2.2.2.2.2.2.2.2.2.2.2.2.2.2.1) (hagree c).2.2.2.2.2.2.2.2.2.2.2.2.2.2.2.2.2.2.2.2.2.2.2.2.2.2.2.2.2.2.2.2.2

/-- The kernel's three results are the reference's. -/
theorem results_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : Agree m m') (c : Dev Cert.KernelIdeal.nD) :
    after (Cert.ReferenceIdeal.HostLine.ops (F := Ideal)) (launchContents m' c) (Proc.devRef .tc Cert.ReferenceIdeal.main_v331)
        = Cert.KernelIdeal.Gen.W36 m ρ c (Proc.devRef .tc Cert.KernelIdeal.main_v194)
      ∧ after (Cert.ReferenceIdeal.HostLine.ops (F := Ideal)) (launchContents m' c) (Proc.devRef .tc Cert.ReferenceIdeal.main_v342)
        = Cert.KernelIdeal.Gen.W36 m ρ c (Proc.devRef .tc Cert.KernelIdeal.main_v205)
      ∧ after (Cert.ReferenceIdeal.HostLine.ops (F := Ideal)) (launchContents m' c) (Proc.devRef .tc Cert.ReferenceIdeal.main_v320)
        = Cert.KernelIdeal.Gen.W36 m ρ c (Proc.devRef .tc Cert.KernelIdeal.main_v183) := by
  have hR := Cert.ReferenceIdeal.Stages.results (F := Ideal) (launchContents m' c)
  have hK := Cert.KernelIdeal.Stages.results m ρ c
  rw [args_eq m ρ m' hagree c] at hR
  exact ⟨hR.1.trans hK.1.symm, hR.2.1.trans hK.2.1.symm, hR.2.2.trans hK.2.2.symm⟩

end Cert.Bridge

end
-- ==== Proof.lean ====
/-
  The certificate's five claims.  The two kernel programs' frames are the generated frame certificates; the reference's
  frame is its straight-line run with the results dropped (no operation writes an argument buffer).  The ideal pass applied
  no rewrite, so the kernel's idealization has nothing to preserve.  For the algebraic claim the witnesses are the
  idealized kernel's own final result contents (its last boundary's fold at the three result buffers): the kernel's run
  ends there by the launch theorem, and the reference's straight line ends at its operations' fold, which is the same
  three arrays by the bridge.
-/
import proofs.«165753_j16037407883756_1_alg».proof.Defs
import proofs.«165753_j16037407883756_1_alg».proof.Proof.Gen.Kernel
import proofs.«165753_j16037407883756_1_alg».proof.Proof.Gen.Kernel.Frame
import proofs.«165753_j16037407883756_1_alg».proof.Proof.Gen.KernelIdeal
import proofs.«165753_j16037407883756_1_alg».proof.Proof.Gen.KernelIdeal.Frame
import proofs.«165753_j16037407883756_1_alg».proof.Proof.Gen.ReferenceIdeal
import proofs.«165753_j16037407883756_1_alg».proof.Proof.Gen.Pre_finite_inputs
import proofs.«165753_j16037407883756_1_alg».proof.Proof.KernelRun
import proofs.«165753_j16037407883756_1_alg».proof.Proof.RefRun
import proofs.«165753_j16037407883756_1_alg».proof.Proof.Bridge

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's run ends with every buffer at the line's fold over the launch contents, and the fold leaves each
    argument buffer as launched. -/
theorem frame_ri : Cert.frame_ReferenceIdeal := fun m ρ _ =>
  (θ_run Cert.ReferenceIdeal.defs _ _).mono (fun _ h c =>
    ⟨(h c Cert.ReferenceIdeal.main_arg0).trans (Cert.ReferenceIdeal.HostLine.kept_main_arg0 _),
     (h c Cert.ReferenceIdeal.main_arg1).trans (Cert.ReferenceIdeal.HostLine.kept_main_arg1 _),
     (h c Cert.ReferenceIdeal.main_arg2).trans (Cert.ReferenceIdeal.HostLine.kept_main_arg2 _),
     (h c Cert.ReferenceIdeal.main_arg3).trans (Cert.ReferenceIdeal.HostLine.kept_main_arg3 _),
     (h c Cert.ReferenceIdeal.main_arg4).trans (Cert.ReferenceIdeal.HostLine.kept_main_arg4 _),
     (h c Cert.ReferenceIdeal.main_arg5).trans (Cert.ReferenceIdeal.HostLine.kept_main_arg5 _),
     (h c Cert.ReferenceIdeal.main_arg6).trans (Cert.ReferenceIdeal.HostLine.kept_main_arg6 _),
     (h c Cert.ReferenceIdeal.main_arg7).trans (Cert.ReferenceIdeal.HostLine.kept_main_arg7 _),
     (h c Cert.ReferenceIdeal.main_arg8).trans (Cert.ReferenceIdeal.HostLine.kept_main_arg8 _),
     (h c Cert.ReferenceIdeal.main_arg9).trans (Cert.ReferenceIdeal.HostLine.kept_main_arg9 _),
     (h c Cert.ReferenceIdeal.main_arg10).trans (Cert.ReferenceIdeal.HostLine.kept_main_arg10 _),
     (h c Cert.ReferenceIdeal.main_arg11).trans (Cert.ReferenceIdeal.HostLine.kept_main_arg11 _),
     (h c Cert.ReferenceIdeal.main_arg12).trans (Cert.ReferenceIdeal.HostLine.kept_main_arg12 _),
     (h c Cert.ReferenceIdeal.main_arg13).trans (Cert.ReferenceIdeal.HostLine.kept_main_arg13 _),
     (h c Cert.ReferenceIdeal.main_arg14).trans (Cert.ReferenceIdeal.HostLine.kept_main_arg14 _),
     (h c Cert.ReferenceIdeal.main_arg15).trans (Cert.ReferenceIdeal.HostLine.kept_main_arg15 _),
     (h c Cert.ReferenceIdeal.main_arg16).trans (Cert.ReferenceIdeal.HostLine.kept_main_arg16 _),
     (h c Cert.ReferenceIdeal.main_arg17).trans (Cert.ReferenceIdeal.HostLine.kept_main_arg17 _),
     (h c Cert.ReferenceIdeal.main_arg18).trans (Cert.ReferenceIdeal.HostLine.kept_main_arg18 _),
     (h c Cert.ReferenceIdeal.main_arg19).trans (Cert.ReferenceIdeal.HostLine.kept_main_arg19 _),
     (h c Cert.ReferenceIdeal.main_arg20).trans (Cert.ReferenceIdeal.HostLine.kept_main_arg20 _),
     (h c Cert.ReferenceIdeal.main_arg21).trans (Cert.ReferenceIdeal.HostLine.kept_main_arg21 _),
     (h c Cert.ReferenceIdeal.main_arg22).trans (Cert.ReferenceIdeal.HostLine.kept_main_arg22 _),
     (h c Cert.ReferenceIdeal.main_arg23).trans (Cert.ReferenceIdeal.HostLine.kept_main_arg23 _),
     (h c Cert.ReferenceIdeal.main_arg24).trans (Cert.ReferenceIdeal.HostLine.kept_main_arg24 _),
     (h c Cert.ReferenceIdeal.main_arg25).trans (Cert.ReferenceIdeal.HostLine.kept_main_arg25 _),
     (h c Cert.ReferenceIdeal.main_arg26).trans (Cert.ReferenceIdeal.HostLine.kept_main_arg26 _),
     (h c Cert.ReferenceIdeal.main_arg27).trans (Cert.ReferenceIdeal.HostLine.kept_main_arg27 _),
     (h c Cert.ReferenceIdeal.main_arg28).trans (Cert.ReferenceIdeal.HostLine.kept_main_arg28 _),
     (h c Cert.ReferenceIdeal.main_arg29).trans (Cert.ReferenceIdeal.HostLine.kept_main_arg29 _),
     (h c Cert.ReferenceIdeal.main_arg30).trans (Cert.ReferenceIdeal.HostLine.kept_main_arg30 _),
     (h c Cert.ReferenceIdeal.main_arg31).trans (Cert.ReferenceIdeal.HostLine.kept_main_arg31 _),
     (h c Cert.ReferenceIdeal.main_arg32).trans (Cert.ReferenceIdeal.HostLine.kept_main_arg32 _),
     (h c Cert.ReferenceIdeal.main_arg33).trans (Cert.ReferenceIdeal.HostLine.kept_main_arg33 _)⟩)
    (Cert.ReferenceIdeal.HostLine.run_main (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W36 m ρ c (Proc.devRef .tc Cert.KernelIdeal.main_v194),
    fun c => Cert.KernelIdeal.Gen.W36 m ρ c (Proc.devRef .tc Cert.KernelIdeal.main_v205),
    fun c => Cert.KernelIdeal.Gen.W36 m ρ c (Proc.devRef .tc Cert.KernelIdeal.main_v183), ?_, ?_⟩
  · exact (θ_run Cert.KernelIdeal.defs _ _).mono (fun _ h c =>
      ⟨h c Cert.KernelIdeal.main_v194 (by decide), h c Cert.KernelIdeal.main_v205 (by decide), h c Cert.KernelIdeal.main_v183 (by decide),
       (h c Cert.KernelIdeal.main_arg0 (by decide)).trans (Cert.KernelIdeal.Gen.W36_main_arg0 m ρ c),
       (h c Cert.KernelIdeal.main_arg1 (by decide)).trans (Cert.KernelIdeal.Gen.W36_main_arg1 m ρ c),
       (h c Cert.KernelIdeal.main_arg2 (by decide)).trans (Cert.KernelIdeal.Gen.W36_main_arg2 m ρ c),
       (h c Cert.KernelIdeal.main_arg3 (by decide)).trans (Cert.KernelIdeal.Gen.W36_main_arg3 m ρ c),
       (h c Cert.KernelIdeal.main_arg4 (by decide)).trans (Cert.KernelIdeal.Gen.W36_main_arg4 m ρ c),
       (h c Cert.KernelIdeal.main_arg5 (by decide)).trans (Cert.KernelIdeal.Gen.W36_main_arg5 m ρ c),
       (h c Cert.KernelIdeal.main_arg6 (by decide)).trans (Cert.KernelIdeal.Gen.W36_main_arg6 m ρ c),
       (h c Cert.KernelIdeal.main_arg7 (by decide)).trans (Cert.KernelIdeal.Gen.W36_main_arg7 m ρ c),
       (h c Cert.KernelIdeal.main_arg8 (by decide)).trans (Cert.KernelIdeal.Gen.W36_main_arg8 m ρ c),
       (h c Cert.KernelIdeal.main_arg9 (by decide)).trans (Cert.KernelIdeal.Gen.W36_main_arg9 m ρ c),
       (h c Cert.KernelIdeal.main_arg10 (by decide)).trans (Cert.KernelIdeal.Gen.W36_main_arg10 m ρ c),
       (h c Cert.KernelIdeal.main_arg11 (by decide)).trans (Cert.KernelIdeal.Gen.W36_main_arg11 m ρ c),
       (h c Cert.KernelIdeal.main_arg12 (by decide)).trans (Cert.KernelIdeal.Gen.W36_main_arg12 m ρ c),
       (h c Cert.KernelIdeal.main_arg13 (by decide)).trans (Cert.KernelIdeal.Gen.W36_main_arg13 m ρ c),
       (h c Cert.KernelIdeal.main_arg14 (by decide)).trans (Cert.KernelIdeal.Gen.W36_main_arg14 m ρ c),
       (h c Cert.KernelIdeal.main_arg15 (by decide)).trans (Cert.KernelIdeal.Gen.W36_main_arg15 m ρ c),
       (h c Cert.KernelIdeal.main_arg16 (by decide)).trans (Cert.KernelIdeal.Gen.W36_main_arg16 m ρ c),
       (h c Cert.KernelIdeal.main_arg17 (by decide)).trans (Cert.KernelIdeal.Gen.W36_main_arg17 m ρ c),
       (h c Cert.KernelIdeal.main_arg18 (by decide)).trans (Cert.KernelIdeal.Gen.W36_main_arg18 m ρ c),
       (h c Cert.KernelIdeal.main_arg19 (by decide)).trans (Cert.KernelIdeal.Gen.W36_main_arg19 m ρ c),
       (h c Cert.KernelIdeal.main_arg20 (by decide)).trans (Cert.KernelIdeal.Gen.W36_main_arg20 m ρ c),
       (h c Cert.KernelIdeal.main_arg21 (by decide)).trans (Cert.KernelIdeal.Gen.W36_main_arg21 m ρ c),
       (h c Cert.KernelIdeal.main_arg22 (by decide)).trans (Cert.KernelIdeal.Gen.W36_main_arg22 m ρ c),
       (h c Cert.KernelIdeal.main_arg23 (by decide)).trans (Cert.KernelIdeal.Gen.W36_main_arg23 m ρ c),
       (h c Cert.KernelIdeal.main_arg24 (by decide)).trans (Cert.KernelIdeal.Gen.W36_main_arg24 m ρ c),
       (h c Cert.KernelIdeal.main_arg25 (by decide)).trans (Cert.KernelIdeal.Gen.W36_main_arg25 m ρ c),
       (h c Cert.KernelIdeal.main_arg26 (by decide)).trans (Cert.KernelIdeal.Gen.W36_main_arg26 m ρ c),
       (h c Cert.KernelIdeal.main_arg27 (by decide)).trans (Cert.KernelIdeal.Gen.W36_main_arg27 m ρ c),
       (h c Cert.KernelIdeal.main_arg28 (by decide)).trans (Cert.KernelIdeal.Gen.W36_main_arg28 m ρ c),
       (h c Cert.KernelIdeal.main_arg29 (by decide)).trans (Cert.KernelIdeal.Gen.W36_main_arg29 m ρ c),
       (h c Cert.KernelIdeal.main_arg30 (by decide)).trans (Cert.KernelIdeal.Gen.W36_main_arg30 m ρ c),
       (h c Cert.KernelIdeal.main_arg31 (by decide)).trans (Cert.KernelIdeal.Gen.W36_main_arg31 m ρ c),
       (h c Cert.KernelIdeal.main_arg32 (by decide)).trans (Cert.KernelIdeal.Gen.W36_main_arg32 m ρ c),
       (h c Cert.KernelIdeal.main_arg33 (by decide)).trans (Cert.KernelIdeal.Gen.W36_main_arg33 m ρ c)⟩)
      (Cert.KernelIdeal.Values.run_last (F := Ideal) m ρ)
  · exact (θ_run Cert.ReferenceIdeal.defs _ _).mono (fun _ h c =>
      ⟨(h c Cert.ReferenceIdeal.main_v331).trans (Cert.Bridge.results_eq m ρ m' hagree c).1,
       (h c Cert.ReferenceIdeal.main_v342).trans (Cert.Bridge.results_eq m ρ m' hagree c).2.1,
       (h c Cert.ReferenceIdeal.main_v320).trans (Cert.Bridge.results_eq m ρ m' hagree c).2.2,
       (h c Cert.ReferenceIdeal.main_arg0).trans (Cert.ReferenceIdeal.HostLine.kept_main_arg0 _),
       (h c Cert.ReferenceIdeal.main_arg1).trans (Cert.ReferenceIdeal.HostLine.kept_main_arg1 _),
       (h c Cert.ReferenceIdeal.main_arg2).trans (Cert.ReferenceIdeal.HostLine.kept_main_arg2 _),
       (h c Cert.ReferenceIdeal.main_arg3).trans (Cert.ReferenceIdeal.HostLine.kept_main_arg3 _),
       (h c Cert.ReferenceIdeal.main_arg4).trans (Cert.ReferenceIdeal.HostLine.kept_main_arg4 _),
       (h c Cert.ReferenceIdeal.main_arg5).trans (Cert.ReferenceIdeal.HostLine.kept_main_arg5 _),
       (h c Cert.ReferenceIdeal.main_arg6).trans (Cert.ReferenceIdeal.HostLine.kept_main_arg6 _),
       (h c Cert.ReferenceIdeal.main_arg7).trans (Cert.ReferenceIdeal.HostLine.kept_main_arg7 _),
       (h c Cert.ReferenceIdeal.main_arg8).trans (Cert.ReferenceIdeal.HostLine.kept_main_arg8 _),
       (h c Cert.ReferenceIdeal.main_arg9).trans (Cert.ReferenceIdeal.HostLine.kept_main_arg9 _),
       (h c Cert.ReferenceIdeal.main_arg10).trans (Cert.ReferenceIdeal.HostLine.kept_main_arg10 _),
       (h c Cert.ReferenceIdeal.main_arg11).trans (Cert.ReferenceIdeal.HostLine.kept_main_arg11 _),
       (h c Cert.ReferenceIdeal.main_arg12).trans (Cert.ReferenceIdeal.HostLine.kept_main_arg12 _),
       (h c Cert.ReferenceIdeal.main_arg13).trans (Cert.ReferenceIdeal.HostLine.kept_main_arg13 _),
       (h c Cert.ReferenceIdeal.main_arg14).trans (Cert.ReferenceIdeal.HostLine.kept_main_arg14 _),
       (h c Cert.ReferenceIdeal.main_arg15).trans (Cert.ReferenceIdeal.HostLine.kept_main_arg15 _),
       (h c Cert.ReferenceIdeal.main_arg16).trans (Cert.ReferenceIdeal.HostLine.kept_main_arg16 _),
       (h c Cert.ReferenceIdeal.main_arg17).trans (Cert.ReferenceIdeal.HostLine.kept_main_arg17 _),
       (h c Cert.ReferenceIdeal.main_arg18).trans (Cert.ReferenceIdeal.HostLine.kept_main_arg18 _),
       (h c Cert.ReferenceIdeal.main_arg19).trans (Cert.ReferenceIdeal.HostLine.kept_main_arg19 _),
       (h c Cert.ReferenceIdeal.main_arg20).trans (Cert.ReferenceIdeal.HostLine.kept_main_arg20 _),
       (h c Cert.ReferenceIdeal.main_arg21).trans (Cert.ReferenceIdeal.HostLine.kept_main_arg21 _),
       (h c Cert.ReferenceIdeal.main_arg22).trans (Cert.ReferenceIdeal.HostLine.kept_main_arg22 _),
       (h c Cert.ReferenceIdeal.main_arg23).trans (Cert.ReferenceIdeal.HostLine.kept_main_arg23 _),
       (h c Cert.ReferenceIdeal.main_arg24).trans (Cert.ReferenceIdeal.HostLine.kept_main_arg24 _),
       (h c Cert.ReferenceIdeal.main_arg25).trans (Cert.ReferenceIdeal.HostLine.kept_main_arg25 _),
       (h c Cert.ReferenceIdeal.main_arg26).trans (Cert.ReferenceIdeal.HostLine.kept_main_arg26 _),
       (h c Cert.ReferenceIdeal.main_arg27).trans (Cert.ReferenceIdeal.HostLine.kept_main_arg27 _),
       (h c Cert.ReferenceIdeal.main_arg28).trans (Cert.ReferenceIdeal.HostLine.kept_main_arg28 _),
       (h c Cert.ReferenceIdeal.main_arg29).trans (Cert.ReferenceIdeal.HostLine.kept_main_arg29 _),
       (h c Cert.ReferenceIdeal.main_arg30).trans (Cert.ReferenceIdeal.HostLine.kept_main_arg30 _),
       (h c Cert.ReferenceIdeal.main_arg31).trans (Cert.ReferenceIdeal.HostLine.kept_main_arg31 _),
       (h c Cert.ReferenceIdeal.main_arg32).trans (Cert.ReferenceIdeal.HostLine.kept_main_arg32 _),
       (h c Cert.ReferenceIdeal.main_arg33).trans (Cert.ReferenceIdeal.HostLine.kept_main_arg33 _)⟩)
      (Cert.ReferenceIdeal.HostLine.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
